-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v216)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v216) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S600000x3 : Shape := ⟨2, ![600000, 3]⟩
abbrev S3x11 : Shape := ⟨2, ![3, 11]⟩
abbrev S11 : Shape := ⟨1, ![11]⟩
abbrev S11x128 : Shape := ⟨2, ![11, 128]⟩
abbrev S128 : Shape := ⟨1, ![128]⟩
abbrev S128x128 : Shape := ⟨2, ![128, 128]⟩
abbrev S_ : Shape := ⟨0, ![]⟩
abbrev S4x3x128 : Shape := ⟨3, ![4, 3, 128]⟩
abbrev S4x128 : Shape := ⟨2, ![4, 128]⟩
abbrev S4x128x128 : Shape := ⟨3, ![4, 128, 128]⟩
abbrev S4 : Shape := ⟨1, ![4]⟩
abbrev S128x1 : Shape := ⟨2, ![128, 1]⟩
abbrev S1 : Shape := ⟨1, ![1]⟩
abbrev S2x600000 : Shape := ⟨2, ![2, 600000]⟩
abbrev S100000 : Shape := ⟨1, ![100000]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S600000x3 : S_.BroadcastsInDim S600000x3 (![] : Fin 0 → Fin S600000x3.rank)
  reducesTo_S600000x3_S_d0_1 : S600000x3.ReducesTo [0, 1] S_
  bcast_S_S3x11 : S_.BroadcastsInDim S3x11 (![] : Fin 0 → Fin S3x11.rank)
  reducesTo_S3x11_S_d0_1 : S3x11.ReducesTo [0, 1] S_
  bcast_S_S11 : S_.BroadcastsInDim S11 (![] : Fin 0 → Fin S11.rank)
  reducesTo_S11_S_d0 : S11.ReducesTo [0] S_
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  reducesTo_S_S_d : S_.ReducesTo [] S_
  bcast_S_S4x3x128 : S_.BroadcastsInDim S4x3x128 (![] : Fin 0 → Fin S4x3x128.rank)
  reducesTo_S4x3x128_S_d0_1_2 : S4x3x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4 : S_.BroadcastsInDim S4 (![] : Fin 0 → Fin S4.rank)
  reducesTo_S4_S_d0 : S4.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S1 .f32) (main_v117 : IVec S_ 1) (main_v118 : FVec F S128x1 .f32) (main_cst_46 : FVec F S_ .f32) : IVec S_ 1 :=
  let main_v119 : FVec F S128x1 .f32 := broadcastInDim S128x1 ![] bcast_S_S128x1 main_cst_46
  let main_v120 : IVec S128x1 1 := cmpf .olt main_v118 main_v119
  let main_c_47 : IVec S_ 1 := constantI S_ 1 1#1
  let main_v121 : IVec S_ 1 := (fun x v => Host.reduce IntOp.andi x v reducesTo_S128x1_S_d0_1 h_S_) main_v120 main_c_47
  let main_v122 : IVec S_ 1 := andi main_v117 main_v121
  let main_v123 : FVec F S1 .f32 := Host.absf main_arg25
  let main_cst_48 : FVec F S_ .f32 := constant S_ .f32 0x7F800000#32
  let main_v124 : FVec F S1 .f32 := broadcastInDim S1 ![] bcast_S_S1 main_cst_48
  let main_v125 : IVec S1 1 := cmpf .olt main_v123 main_v124
  let main_c_49 : IVec S_ 1 := constantI S_ 1 1#1
  let main_v126 : IVec S_ 1 := (fun x v => Host.reduce IntOp.andi x v reducesTo_S1_S_d0 h_S_) main_v125 main_c_49
  let main_v127 : IVec S_ 1 := andi main_v122 main_v126
  main_v127

def fn_part6 {F : FTy → Type} [FloatOps F] (main_arg21 : FVec F S128 .f32) (main_arg22 : FVec F S128x128 .f32) (main_arg23 : FVec F S128 .f32) (main_arg24 : FVec F S128x1 .f32) (main_arg25 : FVec F S1 .f32) (main_v97 : IVec S_ 1) (main_v101 : IVec S_ 1) : IVec S_ 1 :=
  let main_v102 : IVec S_ 1 := andi main_v97 main_v101
  let main_v103 : FVec F S128 .f32 := Host.absf main_arg21
  let main_cst_40 : FVec F S_ .f32 := constant S_ .f32 0x7F800000#32
  let main_v104 : FVec F S128 .f32 := broadcastInDim S128 ![] bcast_S_S128 main_cst_40
  let main_v105 : IVec S128 1 := cmpf .olt main_v103 main_v104
  let main_c_41 : IVec S_ 1 := constantI S_ 1 1#1
  let main_v106 : IVec S_ 1 := (fun x v => Host.reduce IntOp.andi x v reducesTo_S128_S_d0 h_S_) main_v105 main_c_41
  let main_v107 : IVec S_ 1 := andi main_v102 main_v106
  let main_v108 : FVec F S128x128 .f32 := Host.absf main_arg22
  let main_cst_42 : FVec F S_ .f32 := constant S_ .f32 0x7F800000#32
  let main_v109 : FVec F S128x128 .f32 := broadcastInDim S128x128 ![] bcast_S_S128x128 main_cst_42
  let main_v110 : IVec S128x128 1 := cmpf .olt main_v108 main_v109
  let main_c_43 : IVec S_ 1 := constantI S_ 1 1#1
  let main_v111 : IVec S_ 1 := (fun x v => Host.reduce IntOp.andi x v reducesTo_S128x128_S_d0_1 h_S_) main_v110 main_c_43
  let main_v112 : IVec S_ 1 := andi main_v107 main_v111
  let main_v113 : FVec F S128 .f32 := Host.absf main_arg23
  let main_cst_44 : FVec F S_ .f32 := constant S_ .f32 0x7F800000#32
  let main_v114 : FVec F S128 .f32 := broadcastInDim S128 ![] bcast_S_S128 main_cst_44
  let main_v115 : IVec S128 1 := cmpf .olt main_v113 main_v114
  let main_c_45 : IVec S_ 1 := constantI S_ 1 1#1
  let main_v116 : IVec S_ 1 := (fun x v => Host.reduce IntOp.andi x v reducesTo_S128_S_d0 h_S_) main_v115 main_c_45
  let main_v117 : IVec S_ 1 := andi main_v112 main_v116
  let main_v118 : FVec F S128x1 .f32 := Host.absf main_arg24
  let main_cst_46 : FVec F S_ .f32 := constant S_ .f32 0x7F800000#32
  fn_part7 (F := F) main_arg25 main_v117 main_v118 main_cst_46

def fn_part5 {F : FTy → Type} [FloatOps F] (main_arg18 : FVec F S4x128 .f32) (main_arg19 : FVec F S4 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_v82 : IVec S_ 1) (main_v83 : FVec F S4x128 .f32) (main_v84 : FVec F S4x128 .f32) : IVec S_ 1 :=
  let main_v85 : IVec S4x128 1 := cmpf .olt main_v83 main_v84
  let main_c_33 : IVec S_ 1 := constantI S_ 1 1#1
  let main_v86 : IVec S_ 1 := (fun x v => Host.reduce IntOp.andi x v reducesTo_S4x128_S_d0_1 h_S_) main_v85 main_c_33
  let main_v87 : IVec S_ 1 := andi main_v82 main_v86
  let main_v88 : FVec F S4x128 .f32 := Host.absf main_arg18
  let main_cst_34 : FVec F S_ .f32 := constant S_ .f32 0x7F800000#32
  let main_v89 : FVec F S4x128 .f32 := broadcastInDim S4x128 ![] bcast_S_S4x128 main_cst_34
  let main_v90 : IVec S4x128 1 := cmpf .olt main_v88 main_v89
  let main_c_35 : IVec S_ 1 := constantI S_ 1 1#1
  let main_v91 : IVec S_ 1 := (fun x v => Host.reduce IntOp.andi x v reducesTo_S4x128_S_d0_1 h_S_) main_v90 main_c_35
  let main_v92 : IVec S_ 1 := andi main_v87 main_v91
  let main_v93 : FVec F S4 .f32 := Host.absf main_arg19
  let main_cst_36 : FVec F S_ .f32 := constant S_ .f32 0x7F800000#32
  let main_v94 : FVec F S4 .f32 := broadcastInDim S4 ![] bcast_S_S4 main_cst_36
  let main_v95 : IVec S4 1 := cmpf .olt main_v93 main_v94
  let main_c_37 : IVec S_ 1 := constantI S_ 1 1#1
  let main_v96 : IVec S_ 1 := (fun x v => Host.reduce IntOp.andi x v reducesTo_S4_S_d0 h_S_) main_v95 main_c_37
  let main_v97 : IVec S_ 1 := andi main_v92 main_v96
  let main_v98 : FVec F S128x128 .f32 := Host.absf main_arg20
  let main_cst_38 : FVec F S_ .f32 := constant S_ .f32 0x7F800000#32
  let main_v99 : FVec F S128x128 .f32 := broadcastInDim S128x128 ![] bcast_S_S128x128 main_cst_38
  let main_v100 : IVec S128x128 1 := cmpf .olt main_v98 main_v99
  let main_c_39 : IVec S_ 1 := constantI S_ 1 1#1
  let main_v101 : IVec S_ 1 := (fun x v => Host.reduce IntOp.andi x v reducesTo_S128x128_S_d0_1 h_S_) main_v100 main_c_39
  fn_part6 (F := F) main_arg21 main_arg22 main_arg23 main_arg24 main_arg25 main_v97 main_v101

def fn_part4 {F : FTy → Type} [FloatOps F] (main_arg14 : FVec F S4x128 .f32) (main_arg15 : FVec F S4x128x128 .f32) (main_arg16 : FVec F S4x128 .f32) (main_arg17 : FVec F S4x128 .f32) (main_arg18 : FVec F S4x128 .f32) (main_arg19 : FVec F S4 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_v67 : IVec S_ 1) : IVec S_ 1 :=
  let main_v68 : FVec F S4x128 .f32 := Host.absf main_arg14
  let main_cst_26 : FVec F S_ .f32 := constant S_ .f32 0x7F800000#32
  let main_v69 : FVec F S4x128 .f32 := broadcastInDim S4x128 ![] bcast_S_S4x128 main_cst_26
  let main_v70 : IVec S4x128 1 := cmpf .olt main_v68 main_v69
  let main_c_27 : IVec S_ 1 := constantI S_ 1 1#1
  let main_v71 : IVec S_ 1 := (fun x v => Host.reduce IntOp.andi x v reducesTo_S4x128_S_d0_1 h_S_) main_v70 main_c_27
  let main_v72 : IVec S_ 1 := andi main_v67 main_v71
  let main_v73 : FVec F S4x128x128 .f32 := Host.absf main_arg15
  let main_cst_28 : FVec F S_ .f32 := constant S_ .f32 0x7F800000#32
  let main_v74 : FVec F S4x128x128 .f32 := broadcastInDim S4x128x128 ![] bcast_S_S4x128x128 main_cst_28
  let main_v75 : IVec S4x128x128 1 := cmpf .olt main_v73 main_v74
  let main_c_29 : IVec S_ 1 := constantI S_ 1 1#1
  let main_v76 : IVec S_ 1 := (fun x v => Host.reduce IntOp.andi x v reducesTo_S4x128x128_S_d0_1_2 h_S_) main_v75 main_c_29
  let main_v77 : IVec S_ 1 := andi main_v72 main_v76
  let main_v78 : FVec F S4x128 .f32 := Host.absf main_arg16
  let main_cst_30 : FVec F S_ .f32 := constant S_ .f32 0x7F800000#32
  let main_v79 : FVec F S4x128 .f32 := broadcastInDim S4x128 ![] bcast_S_S4x128 main_cst_30
  let main_v80 : IVec S4x128 1 := cmpf .olt main_v78 main_v79
  let main_c_31 : IVec S_ 1 := constantI S_ 1 1#1
  let main_v81 : IVec S_ 1 := (fun x v => Host.reduce IntOp.andi x v reducesTo_S4x128_S_d0_1 h_S_) main_v80 main_c_31
  let main_v82 : IVec S_ 1 := andi main_v77 main_v81
  let main_v83 : FVec F S4x128 .f32 := Host.absf main_arg17
  let main_cst_32 : FVec F S_ .f32 := constant S_ .f32 0x7F800000#32
  let main_v84 : FVec F S4x128 .f32 := broadcastInDim S4x128 ![] bcast_S_S4x128 main_cst_32
  fn_part5 (F := F) main_arg18 main_arg19 main_arg20 main_arg21 main_arg22 main_arg23 main_arg24 main_arg25 main_v82 main_v83 main_v84

def fn_part3 {F : FTy → Type} [FloatOps F] (main_arg11 : FVec F S4x3x128 .f32) (main_arg12 : FVec F S4x128 .f32) (main_arg13 : FVec F S4x128x128 .f32) (main_arg14 : FVec F S4x128 .f32) (main_arg15 : FVec F S4x128x128 .f32) (main_arg16 : FVec F S4x128 .f32) (main_arg17 : FVec F S4x128 .f32) (main_arg18 : FVec F S4x128 .f32) (main_arg19 : FVec F S4 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_v48 : IVec S_ 1) (main_v50 : IVec S_ 1) : IVec S_ 1 :=
  let main_c_19 : IVec S_ 1 := constantI S_ 1 1#1
  let main_v51 : IVec S_ 1 := (fun x v => Host.reduce IntOp.andi x v reducesTo_S_S_d h_S_) main_v50 main_c_19
  let main_v52 : IVec S_ 1 := andi main_v48 main_v51
  let main_v53 : FVec F S4x3x128 .f32 := Host.absf main_arg11
  let main_cst_20 : FVec F S_ .f32 := constant S_ .f32 0x7F800000#32
  let main_v54 : FVec F S4x3x128 .f32 := broadcastInDim S4x3x128 ![] bcast_S_S4x3x128 main_cst_20
  let main_v55 : IVec S4x3x128 1 := cmpf .olt main_v53 main_v54
  let main_c_21 : IVec S_ 1 := constantI S_ 1 1#1
  let main_v56 : IVec S_ 1 := (fun x v => Host.reduce IntOp.andi x v reducesTo_S4x3x128_S_d0_1_2 h_S_) main_v55 main_c_21
  let main_v57 : IVec S_ 1 := andi main_v52 main_v56
  let main_v58 : FVec F S4x128 .f32 := Host.absf main_arg12
  let main_cst_22 : FVec F S_ .f32 := constant S_ .f32 0x7F800000#32
  let main_v59 : FVec F S4x128 .f32 := broadcastInDim S4x128 ![] bcast_S_S4x128 main_cst_22
  let main_v60 : IVec S4x128 1 := cmpf .olt main_v58 main_v59
  let main_c_23 : IVec S_ 1 := constantI S_ 1 1#1
  let main_v61 : IVec S_ 1 := (fun x v => Host.reduce IntOp.andi x v reducesTo_S4x128_S_d0_1 h_S_) main_v60 main_c_23
  let main_v62 : IVec S_ 1 := andi main_v57 main_v61
  let main_v63 : FVec F S4x128x128 .f32 := Host.absf main_arg13
  let main_cst_24 : FVec F S_ .f32 := constant S_ .f32 0x7F800000#32
  let main_v64 : FVec F S4x128x128 .f32 := broadcastInDim S4x128x128 ![] bcast_S_S4x128x128 main_cst_24
  let main_v65 : IVec S4x128x128 1 := cmpf .olt main_v63 main_v64
  let main_c_25 : IVec S_ 1 := constantI S_ 1 1#1
  let main_v66 : IVec S_ 1 := (fun x v => Host.reduce IntOp.andi x v reducesTo_S4x128x128_S_d0_1_2 h_S_) main_v65 main_c_25
  let main_v67 : IVec S_ 1 := andi main_v62 main_v66
  fn_part4 (F := F) main_arg14 main_arg15 main_arg16 main_arg17 main_arg18 main_arg19 main_arg20 main_arg21 main_arg22 main_arg23 main_arg24 main_arg25 main_v67

def fn_part2 {F : FTy → Type} [FloatOps F] (main_arg7 : FVec F S128 .f32) (main_arg8 : FVec F S128 .f32) (main_arg9 : FVec F S128 .f32) (main_arg10 : FVec F S_ .f32) (main_arg11 : FVec F S4x3x128 .f32) (main_arg12 : FVec F S4x128 .f32) (main_arg13 : FVec F S4x128x128 .f32) (main_arg14 : FVec F S4x128 .f32) (main_arg15 : FVec F S4x128x128 .f32) (main_arg16 : FVec F S4x128 .f32) (main_arg17 : FVec F S4x128 .f32) (main_arg18 : FVec F S4x128 .f32) (main_arg19 : FVec F S4 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S_ .f32 := Host.absf main_arg10
  let main_cst_18 : FVec F S_ .f32 := constant S_ .f32 0x7F800000#32
  let main_v50 : IVec S_ 1 := cmpf .olt main_v49 main_cst_18
  fn_part3 (F := F) main_arg11 main_arg12 main_arg13 main_arg14 main_arg15 main_arg16 main_arg17 main_arg18 main_arg19 main_arg20 main_arg21 main_arg22 main_arg23 main_arg24 main_arg25 main_v48 main_v50

def fn_part1 {F : FTy → Type} [FloatOps F] (main_arg4 : FVec F S11x128 .f32) (main_arg5 : FVec F S128 .f32) (main_arg6 : FVec F S128x128 .f32) (main_arg7 : FVec F S128 .f32) (main_arg8 : FVec F S128 .f32) (main_arg9 : FVec F S128 .f32) (main_arg10 : FVec F S_ .f32) (main_arg11 : FVec F S4x3x128 .f32) (main_arg12 : FVec F S4x128 .f32) (main_arg13 : FVec F S4x128x128 .f32) (main_arg14 : FVec F S4x128 .f32) (main_arg15 : FVec F S4x128x128 .f32) (main_arg16 : FVec F S4x128 .f32) (main_arg17 : FVec F S4x128 .f32) (main_arg18 : FVec F S4x128 .f32) (main_arg19 : FVec F S4 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_v13 : IVec S_ 1) (main_v16 : IVec S11 1) : IVec S_ 1 :=
  let main_c_5 : IVec S_ 1 := constantI S_ 1 1#1
  let main_v17 : IVec S_ 1 := (fun x v => Host.reduce IntOp.andi x v reducesTo_S11_S_d0 h_S_) main_v16 main_c_5
  let main_v18 : IVec S_ 1 := andi main_v13 main_v17
  let main_v19 : FVec F S11x128 .f32 := Host.absf main_arg4
  let main_cst_6 : FVec F S_ .f32 := constant S_ .f32 0x7F800000#32
  let main_v20 : FVec F S11x128 .f32 := broadcastInDim S11x128 ![] bcast_S_S11x128 main_cst_6
  let main_v21 : IVec S11x128 1 := cmpf .olt main_v19 main_v20
  let main_c_7 : IVec S_ 1 := constantI S_ 1 1#1
  let main_v22 : IVec S_ 1 := (fun x v => Host.reduce IntOp.andi x v reducesTo_S11x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x11 .f32) (main_arg1 : FVec F S600000x3 .f32) (main_arg2 : FVec F S3x11 .f32) (main_arg3 : FVec F S11 .f32) (main_arg4 : FVec F S11x128 .f32) (main_arg5 : FVec F S128 .f32) (main_arg6 : FVec F S128x128 .f32) (main_arg7 : FVec F S128 .f32) (main_arg8 : FVec F S128 .f32) (main_arg9 : FVec F S128 .f32) (main_arg10 : FVec F S_ .f32) (main_arg11 : FVec F S4x3x128 .f32) (main_arg12 : FVec F S4x128 .f32) (main_arg13 : FVec F S4x128x128 .f32) (main_arg14 : FVec F S4x128 .f32) (main_arg15 : FVec F S4x128x128 .f32) (main_arg16 : FVec F S4x128 .f32) (main_arg17 : FVec F S4x128 .f32) (main_arg18 : FVec F S4x128 .f32) (main_arg19 : FVec F S4 .f32) (main_arg20 : FVec F S128x128 .f32) (main_arg21 : FVec F S128 .f32) (main_arg22 : FVec F S128x128 .f32) (main_arg23 : FVec F S128 .f32) (main_arg24 : FVec F S128x1 .f32) (main_arg25 : FVec F S1 .f32) (main_arg26 : IVec S2x600000 32) (main_arg27 : IVec S100000 32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S600000x3 .f32 := Host.absf main_arg1
  let main_cst_0 : FVec F S_ .f32 := constant S_ .f32 0x7F800000#32
  let main_v5 : FVec F S600000x3 .f32 := broadcastInDim S600000x3 ![] bcast_S_S600000x3 main_cst_0
  let main_v6 : IVec S600000x3 1 := cmpf .olt main_v4 main_v5
  let main_c_1 : IVec S_ 1 := constantI S_ 1 1#1
  let main_v7 : IVec S_ 1 := (fun x v => Host.reduce IntOp.andi x v reducesTo_S600000x3_S_d0_1 h_S_) main_v6 main_c_1
  let main_v8 : IVec S_ 1 := andi main_v3 main_v7
  let main_v9 : FVec F S3x11 .f32 := Host.absf main_arg2
  let main_cst_2 : FVec F S_ .f32 := constant S_ .f32 0x7F800000#32
  let main_v10 : FVec F S3x11 .f32 := broadcastInDim S3x11 ![] bcast_S_S3x11 main_cst_2
  let main_v11 : IVec S3x11 1 := cmpf .olt main_v9 main_v10
  let main_c_3 : IVec S_ 1 := constantI S_ 1 1#1
  let main_v12 : IVec S_ 1 := (fun x v => Host.reduce IntOp.andi x v reducesTo_S3x11_S_d0_1 h_S_) main_v11 main_c_3
  let main_v13 : IVec S_ 1 := andi main_v8 main_v12
  let main_v14 : FVec F S11 .f32 := Host.absf main_arg3
  let main_cst_4 : FVec F S_ .f32 := constant S_ .f32 0x7F800000#32
  let main_v15 : FVec F S11 .f32 := broadcastInDim S11 ![] bcast_S_S11 main_cst_4
  let main_v16 : IVec S11 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x11 : Shape := ⟨2, ![100000, 11]⟩
abbrev S600000x3 : Shape := ⟨2, ![600000, 3]⟩
abbrev S3x11 : Shape := ⟨2, ![3, 11]⟩
abbrev S11 : Shape := ⟨1, ![11]⟩
abbrev S11x128 : Shape := ⟨2, ![11, 128]⟩
abbrev S128 : Shape := ⟨1, ![128]⟩
abbrev S128x128 : Shape := ⟨2, ![128, 128]⟩
abbrev S_ : Shape := ⟨0, ![]⟩
abbrev S4x3x128 : Shape := ⟨3, ![4, 3, 128]⟩
abbrev S4x128 : Shape := ⟨2, ![4, 128]⟩
abbrev S4x128x128 : Shape := ⟨3, ![4, 128, 128]⟩
abbrev S4 : Shape := ⟨1, ![4]⟩
abbrev S128x1 : Shape := ⟨2, ![128, 1]⟩
abbrev S1 : Shape := ⟨1, ![1]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S600000x1 : Shape := ⟨2, ![600000, 1]⟩
abbrev S600000x11 : Shape := ⟨2, ![600000, 11]⟩
abbrev S1x11 : Shape := ⟨2, ![1, 11]⟩
abbrev S6000x11 : Shape := ⟨2, ![6000, 11]⟩
abbrev S6000x3 : Shape := ⟨2, ![6000, 3]⟩
abbrev S1x1 : Shape := ⟨2, ![1, 1]⟩
abbrev S1x128 : Shape := ⟨2, ![1, 128]⟩
abbrev S100000x128 : Shape := ⟨2, ![100000, 128]⟩
abbrev S4000x11 : Shape := ⟨2, ![4000, 11]⟩
abbrev S4000x128 : Shape := ⟨2, ![4000, 128]⟩
abbrev S1x3x128 : Shape := ⟨3, ![1, 3, 128]⟩
abbrev S3x128 : Shape := ⟨2, ![3, 128]⟩
abbrev S1x128x128 : Shape := ⟨3, ![1, 128, 128]⟩
abbrev S600000x128 : Shape := ⟨2, ![600000, 128]⟩
abbrev S6000x128 : Shape := ⟨2, ![6000, 128]⟩
abbrev S5000x128 : Shape := ⟨2, ![5000, 128]⟩
abbrev S100000x1 : Shape := ⟨2, ![100000, 1]⟩
abbrev S5000 : Shape := ⟨1, ![5000]⟩
abbrev S5000x1 : Shape := ⟨2, ![5000, 1]⟩
abbrev S1000x128 : Shape := ⟨2, ![1000, 128]⟩
abbrev S1000x1 : Shape := ⟨2, ![1000, 1]⟩

abbrev nBuf : Space → Nat
  | .hbm => 284
  | .vmem => 163
  | .smem => 0
  | _ => 0

abbrev hbmTy0_0 (i : Nat) : BufTy := match i % 128 with
  | 0 => ⟨S100000x11, .f32⟩
  | 1 => ⟨S600000x3, .f32⟩
  | 2 => ⟨S3x11, .f32⟩
  | 3 => ⟨S11, .f32⟩
  | 4 => ⟨S11x128, .f32⟩
  | 5 => ⟨S128, .f32⟩
  | 6 => ⟨S128x128, .f32⟩
  | 7 => ⟨S128, .f32⟩
  | 8 => ⟨S128, .f32⟩
  | 9 => ⟨S128, .f32⟩
  | 10 => ⟨S_, .f32⟩
  | 11 => ⟨S4x3x128, .f32⟩
  | 12 => ⟨S4x128, .f32⟩
  | 13 => ⟨S4x128x128, .f32⟩
  | 14 => ⟨S4x128, .f32⟩
  | 15 => ⟨S4x128x128, .f32⟩
  | 16 => ⟨S4x128, .f32⟩
  | 17 => ⟨S4x128, .f32⟩
  | 18 => ⟨S4x128, .f32⟩
  | 19 => ⟨S4, .f32⟩
  | 20 => ⟨S128x128, .f32⟩
  | 21 => ⟨S128, .f32⟩
  | 22 => ⟨S128x128, .f32⟩
  | 23 => ⟨S128, .f32⟩
  | 24 => ⟨S128x1, .f32⟩
  | 25 => ⟨S1, .f32⟩
  | 26 => ⟨S2x600000, .i32⟩
  | 27 => ⟨S100000, .i32⟩
  | 28 => ⟨S1x600000, .i32⟩
  | 29 => ⟨S600000, .i32⟩
  | 30 => ⟨S1x600000, .i32⟩
  | 31 => ⟨S600000, .i32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x11, .f32⟩
  | 41 => ⟨S1x11, .f32⟩
  | 42 => ⟨S600000x11, .f32⟩
  | 43 => ⟨S_, .f32⟩
  | 44 => ⟨S100000x11, .f32⟩
  | 45 => ⟨S600000x1, .i32⟩
  | 46 => ⟨S100000x11, .f32⟩
  | 47 => ⟨S1x1, .f32⟩
  | 48 => ⟨S1x128, .f32⟩
  | 49 => ⟨S1x128, .f32⟩
  | 50 => ⟨S100000x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S100000x128, .f32⟩
  | 64 => ⟨S1x3x128, .f32⟩
  | 65 => ⟨S3x128, .f32⟩
  | 66 => ⟨S1x128, .f32⟩
  | 67 => ⟨S128, .f32⟩
  | 68 => ⟨S1, .f32⟩
  | 69 => ⟨S_, .f32⟩
  | 70 => ⟨S1x128x128, .f32⟩
  | 71 => ⟨S128x128, .f32⟩
  | 72 => ⟨S1x128, .f32⟩
  | 73 => ⟨S128, .f32⟩
  | 74 => ⟨S1x128x128, .f32⟩
  | 75 => ⟨S128x128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000x128, .f32⟩
  | 91 => ⟨S1x128, .f32⟩
  | 92 => ⟨S600000x128, .f32⟩
  | 93 => ⟨S_, .f32⟩
  | 94 => ⟨S100000x128, .f32⟩
  | 95 => ⟨S600000x1, .i32⟩
  | 96 => ⟨S100000x128, .f32⟩
  | 97 => ⟨S1x1, .f32⟩
  | 98 => ⟨S1x128, .f32⟩
  | 99 => ⟨S1x128, .f32⟩
  | 100 => ⟨S100000x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S1x128, .f32⟩
  | 111 => ⟨S1x128, .f32⟩
  | 112 => ⟨S1x128, .f32⟩
  | 113 => ⟨S100000x128, .f32⟩
  | 114 => ⟨S1x3x128, .f32⟩
  | 115 => ⟨S3x128, .f32⟩
  | 116 => ⟨S1x128, .f32⟩
  | 117 => ⟨S128, .f32⟩
  | 118 => ⟨S1, .f32⟩
  | 119 => ⟨S_, .f32⟩
  | 120 => ⟨S1x128x128, .f32⟩
  | 121 => ⟨S128x128, .f32⟩
  | 122 => ⟨S1x128, .f32⟩
  | 123 => ⟨S128, .f32⟩
  | 124 => ⟨S1x128x128, .f32⟩
  | 125 => ⟨S128x128, .f32⟩
  | 126 => ⟨S1x128, .f32⟩
  | 127 => ⟨S128, .f32⟩
  | _ => ⟨S100000x11, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S1x128, .f32⟩
  | 14 => ⟨S600000x128, .f32⟩
  | 15 => ⟨S_, .f32⟩
  | 16 => ⟨S100000x128, .f32⟩
  | 17 => ⟨S600000x1, .i32⟩
  | 18 => ⟨S100000x128, .f32⟩
  | 19 => ⟨S1x1, .f32⟩
  | 20 => ⟨S1x128, .f32⟩
  | 21 => ⟨S1x128, .f32⟩
  | 22 => ⟨S100000x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S100000x128, .f32⟩
  | 36 => ⟨S1x3x128, .f32⟩
  | 37 => ⟨S3x128, .f32⟩
  | 38 => ⟨S1x128, .f32⟩
  | 39 => ⟨S128, .f32⟩
  | 40 => ⟨S1, .f32⟩
  | 41 => ⟨S_, .f32⟩
  | 42 => ⟨S1x128x128, .f32⟩
  | 43 => ⟨S128x128, .f32⟩
  | 44 => ⟨S1x128, .f32⟩
  | 45 => ⟨S128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S128, .f32⟩
  | 52 => ⟨S1x128, .f32⟩
  | 53 => ⟨S128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S1x128, .f32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S1x1, .f32⟩
  | 70 => ⟨S1x128, .f32⟩
  | 71 => ⟨S1x128, .f32⟩
  | 72 => ⟨S100000x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S100000x128, .f32⟩
  | 86 => ⟨S1x3x128, .f32⟩
  | 87 => ⟨S3x128, .f32⟩
  | 88 => ⟨S1x128, .f32⟩
  | 89 => ⟨S128, .f32⟩
  | 90 => ⟨S1, .f32⟩
  | 91 => ⟨S_, .f32⟩
  | 92 => ⟨S1x128x128, .f32⟩
  | 93 => ⟨S128x128, .f32⟩
  | 94 => ⟨S1x128, .f32⟩
  | 95 => ⟨S128, .f32⟩
  | 96 => ⟨S1x128x128, .f32⟩
  | 97 => ⟨S128x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S1x128, .f32⟩
  | 114 => ⟨S600000x128, .f32⟩
  | 115 => ⟨S_, .f32⟩
  | 116 => ⟨S100000x128, .f32⟩
  | 117 => ⟨S600000x1, .i32⟩
  | 118 => ⟨S100000x128, .f32⟩
  | 119 => ⟨S1x1, .f32⟩
  | 120 => ⟨S1x128, .f32⟩
  | 121 => ⟨S1x128, .f32⟩
  | 122 => ⟨S100000x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S100000x11, .f32⟩

abbrev hbmTy0_2 (i : Nat) : BufTy := match i % 128 with
  | 0 => ⟨S_, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S100000x128, .f32⟩
  | 8 => ⟨S_, .f32⟩
  | 9 => ⟨S5000x128, .f32⟩
  | 10 => ⟨S100000x1, .i32⟩
  | 11 => ⟨S5000x128, .f32⟩
  | 12 => ⟨S_, .f32⟩
  | 13 => ⟨S100000, .f32⟩
  | 14 => ⟨S_, .f32⟩
  | 15 => ⟨S5000, .f32⟩
  | 16 => ⟨S100000x1, .i32⟩
  | 17 => ⟨S5000, .f32⟩
  | 18 => ⟨S_, .f32⟩
  | 19 => ⟨S5000, .f32⟩
  | 20 => ⟨S5000, .f32⟩
  | 21 => ⟨S5000x1, .f32⟩
  | 22 => ⟨S5000x128, .f32⟩
  | 23 => ⟨S5000x128, .f32⟩
  | 24 => ⟨S1x128, .f32⟩
  | 25 => ⟨S1x128, .f32⟩
  | 26 => ⟨S1x1, .f32⟩
  | 27 => ⟨S5000x1, .f32⟩
  | _ => ⟨S100000x11, .f32⟩

abbrev hbmTy (i : Nat) : BufTy := match i / 128 with
  | 0 => hbmTy0_0 i
  | 1 => hbmTy0_1 i
  | 2 => hbmTy0_2 i
  | _ => ⟨S100000x11, .f32⟩

abbrev vmemTy0_0 (i : Nat) : BufTy := match i % 128 with
  | 0 => ⟨S6000x11, .f32⟩
  | 1 => ⟨S6000x11, .f32⟩
  | 2 => ⟨S6000x3, .f32⟩
  | 3 => ⟨S6000x3, .f32⟩
  | 4 => ⟨S3x11, .f32⟩
  | 5 => ⟨S1x11, .f32⟩
  | 6 => ⟨S6000x11, .f32⟩
  | 7 => ⟨S6000x11, .f32⟩
  | 8 => ⟨S4000x11, .f32⟩
  | 9 => ⟨S4000x11, .f32⟩
  | 10 => ⟨S4000x11, .f32⟩
  | 11 => ⟨S4000x11, .f32⟩
  | 12 => ⟨S1x1, .f32⟩
  | 13 => ⟨S11x128, .f32⟩
  | 14 => ⟨S1x128, .f32⟩
  | 15 => ⟨S128x128, .f32⟩
  | 16 => ⟨S1x128, .f32⟩
  | 17 => ⟨S4000x128, .f32⟩
  | 18 => ⟨S4000x128, .f32⟩
  | 19 => ⟨S1x128, .f32⟩
  | 20 => ⟨S1x128, .f32⟩
  | 21 => ⟨S4000x128, .f32⟩
  | 22 => ⟨S4000x128, .f32⟩
  | 23 => ⟨S1x128, .f32⟩
  | 24 => ⟨S1x128, .f32⟩
  | 25 => ⟨S1x128, .f32⟩
  | 26 => ⟨S1x128, .f32⟩
  | 27 => ⟨S4000x128, .f32⟩
  | 28 => ⟨S4000x128, .f32⟩
  | 29 => ⟨S6000x128, .f32⟩
  | 30 => ⟨S6000x128, .f32⟩
  | 31 => ⟨S6000x3, .f32⟩
  | 32 => ⟨S6000x3, .f32⟩
  | 33 => ⟨S3x128, .f32⟩
  | 34 => ⟨S1x128, .f32⟩
  | 35 => ⟨S6000x128, .f32⟩
  | 36 => ⟨S6000x128, .f32⟩
  | 37 => ⟨S4000x128, .f32⟩
  | 38 => ⟨S4000x128, .f32⟩
  | 39 => ⟨S4000x128, .f32⟩
  | 40 => ⟨S4000x128, .f32⟩
  | 41 => ⟨S1x1, .f32⟩
  | 42 => ⟨S128x128, .f32⟩
  | 43 => ⟨S1x128, .f32⟩
  | 44 => ⟨S128x128, .f32⟩
  | 45 => ⟨S1x128, .f32⟩
  | 46 => ⟨S4000x128, .f32⟩
  | 47 => ⟨S4000x128, .f32⟩
  | 48 => ⟨S1x128, .f32⟩
  | 49 => ⟨S1x128, .f32⟩
  | 50 => ⟨S4000x128, .f32⟩
  | 51 => ⟨S4000x128, .f32⟩
  | 52 => ⟨S4000x128, .f32⟩
  | 53 => ⟨S4000x128, .f32⟩
  | 54 => ⟨S1x128, .f32⟩
  | 55 => ⟨S1x128, .f32⟩
  | 56 => ⟨S1x128, .f32⟩
  | 57 => ⟨S1x128, .f32⟩
  | 58 => ⟨S4000x128, .f32⟩
  | 59 => ⟨S4000x128, .f32⟩
  | 60 => ⟨S6000x128, .f32⟩
  | 61 => ⟨S6000x128, .f32⟩
  | 62 => ⟨S6000x3, .f32⟩
  | 63 => ⟨S6000x3, .f32⟩
  | 64 => ⟨S3x128, .f32⟩
  | 65 => ⟨S1x128, .f32⟩
  | 66 => ⟨S6000x128, .f32⟩
  | 67 => ⟨S6000x128, .f32⟩
  | 68 => ⟨S4000x128, .f32⟩
  | 69 => ⟨S4000x128, .f32⟩
  | 70 => ⟨S4000x128, .f32⟩
  | 71 => ⟨S4000x128, .f32⟩
  | 72 => ⟨S1x1, .f32⟩
  | 73 => ⟨S128x128, .f32⟩
  | 74 => ⟨S1x128, .f32⟩
  | 75 => ⟨S128x128, .f32⟩
  | 76 => ⟨S1x128, .f32⟩
  | 77 => ⟨S4000x128, .f32⟩
  | 78 => ⟨S4000x128, .f32⟩
  | 79 => ⟨S1x128, .f32⟩
  | 80 => ⟨S1x128, .f32⟩
  | 81 => ⟨S4000x128, .f32⟩
  | 82 => ⟨S4000x128, .f32⟩
  | 83 => ⟨S4000x128, .f32⟩
  | 84 => ⟨S4000x128, .f32⟩
  | 85 => ⟨S1x128, .f32⟩
  | 86 => ⟨S1x128, .f32⟩
  | 87 => ⟨S1x128, .f32⟩
  | 88 => ⟨S1x128, .f32⟩
  | 89 => ⟨S4000x128, .f32⟩
  | 90 => ⟨S4000x128, .f32⟩
  | 91 => ⟨S6000x128, .f32⟩
  | 92 => ⟨S6000x128, .f32⟩
  | 93 => ⟨S6000x3, .f32⟩
  | 94 => ⟨S6000x3, .f32⟩
  | 95 => ⟨S3x128, .f32⟩
  | 96 => ⟨S1x128, .f32⟩
  | 97 => ⟨S6000x128, .f32⟩
  | 98 => ⟨S6000x128, .f32⟩
  | 99 => ⟨S4000x128, .f32⟩
  | 100 => ⟨S4000x128, .f32⟩
  | 101 => ⟨S4000x128, .f32⟩
  | 102 => ⟨S4000x128, .f32⟩
  | 103 => ⟨S1x1, .f32⟩
  | 104 => ⟨S128x128, .f32⟩
  | 105 => ⟨S1x128, .f32⟩
  | 106 => ⟨S128x128, .f32⟩
  | 107 => ⟨S1x128, .f32⟩
  | 108 => ⟨S4000x128, .f32⟩
  | 109 => ⟨S4000x128, .f32⟩
  | 110 => ⟨S1x128, .f32⟩
  | 111 => ⟨S1x128, .f32⟩
  | 112 => ⟨S4000x128, .f32⟩
  | 113 => ⟨S4000x128, .f32⟩
  | 114 => ⟨S4000x128, .f32⟩
  | 115 => ⟨S4000x128, .f32⟩
  | 116 => ⟨S1x128, .f32⟩
  | 117 => ⟨S1x128, .f32⟩
  | 118 => ⟨S1x128, .f32⟩
  | 119 => ⟨S1x128, .f32⟩
  | 120 => ⟨S4000x128, .f32⟩
  | 121 => ⟨S4000x128, .f32⟩
  | 122 => ⟨S6000x128, .f32⟩
  | 123 => ⟨S6000x128, .f32⟩
  | 124 => ⟨S6000x3, .f32⟩
  | 125 => ⟨S6000x3, .f32⟩
  | 126 => ⟨S3x128, .f32⟩
  | 127 => ⟨S1x128, .f32⟩
  | _ => ⟨S100000x11, .f32⟩

abbrev vmemTy0_1 (i : Nat) : BufTy := match i % 128 with
  | 0 => ⟨S6000x128, .f32⟩
  | 1 => ⟨S6000x128, .f32⟩
  | 2 => ⟨S4000x128, .f32⟩
  | 3 => ⟨S4000x128, .f32⟩
  | 4 => ⟨S4000x128, .f32⟩
  | 5 => ⟨S4000x128, .f32⟩
  | 6 => ⟨S1x1, .f32⟩
  | 7 => ⟨S128x128, .f32⟩
  | 8 => ⟨S1x128, .f32⟩
  | 9 => ⟨S128x128, .f32⟩
  | 10 => ⟨S1x128, .f32⟩
  | 11 => ⟨S4000x128, .f32⟩
  | 12 => ⟨S4000x128, .f32⟩
  | 13 => ⟨S1x128, .f32⟩
  | 14 => ⟨S1x128, .f32⟩
  | 15 => ⟨S4000x128, .f32⟩
  | 16 => ⟨S4000x128, .f32⟩
  | 17 => ⟨S4000x128, .f32⟩
  | 18 => ⟨S4000x128, .f32⟩
  | 19 => ⟨S1x128, .f32⟩
  | 20 => ⟨S1x128, .f32⟩
  | 21 => ⟨S1x128, .f32⟩
  | 22 => ⟨S1x128, .f32⟩
  | 23 => ⟨S4000x128, .f32⟩
  | 24 => ⟨S4000x128, .f32⟩
  | 25 => ⟨S1000x128, .f32⟩
  | 26 => ⟨S1000x128, .f32⟩
  | 27 => ⟨S128x128, .f32⟩
  | 28 => ⟨S1x128, .f32⟩
  | 29 => ⟨S128x128, .f32⟩
  | 30 => ⟨S1x128, .f32⟩
  | 31 => ⟨S128x1, .f32⟩
  | 32 => ⟨S1x1, .f32⟩
  | 33 => ⟨S1000x1, .f32⟩
  | 34 => ⟨S1000x1, .f32⟩
  | _ => ⟨S100000x11, .f32⟩

abbrev vmemTy (i : Nat) : BufTy := match i / 128 with
  | 0 => vmemTy0_0 i
  | 1 => vmemTy0_1 i
  | _ => ⟨S100000x11, .f32⟩

abbrev bufTy : (tb : Table) → Fin (tcTables nBuf tb) → BufTy
  | .hbm, ⟨i, _⟩ => hbmTy i
  | .local _ .vmem, ⟨i, _⟩ => vmemTy i
  | _, _ => ⟨S100000x11, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 163 → Bool
  | ⟨i, _⟩ => dmaSemScopedAt i

abbrev sig : RefSig :=
  ofTc nBuf bufTy 0 163 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19_0 : Ref sig .tc := ⟨.hbm, 50, rfl⟩
abbrev main_v19_1 : Ref sig .tc := ⟨.hbm, 51, rfl⟩
abbrev main_v19_2 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_3 : Ref sig .tc := ⟨.hbm, 82, rfl⟩
abbrev main_v47 : Ref sig .tc := ⟨.hbm, 83, rfl⟩
abbrev main_v48 : Ref sig .tc := ⟨.hbm, 84, rfl⟩
abbrev main_c_4 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_5 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62_0 : Ref sig .tc := ⟨.hbm, 100, rfl⟩
abbrev main_v62_1 : Ref sig .tc := ⟨.hbm, 101, rfl⟩
abbrev main_v62_2 : Ref sig .tc := ⟨.hbm, 102, rfl⟩
abbrev main_cst_6 : Ref sig .tc := ⟨.hbm, 103, rfl⟩
abbrev main_v63 : Ref sig .tc := ⟨.hbm, 104, rfl⟩
abbrev main_v64 : Ref sig .tc := ⟨.hbm, 105, rfl⟩
abbrev main_cst_7 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_c_8 : Ref sig .tc := ⟨.hbm, 132, rfl⟩
abbrev main_v90 : Ref sig .tc := ⟨.hbm, 133, rfl⟩
abbrev main_v91 : Ref sig .tc := ⟨.hbm, 134, rfl⟩
abbrev main_c_9 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_10 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105_0 : Ref sig .tc := ⟨.hbm, 150, rfl⟩
abbrev main_v105_1 : Ref sig .tc := ⟨.hbm, 151, rfl⟩
abbrev main_v105_2 : Ref sig .tc := ⟨.hbm, 152, rfl⟩
abbrev main_cst_11 : Ref sig .tc := ⟨.hbm, 153, rfl⟩
abbrev main_v106 : Ref sig .tc := ⟨.hbm, 154, rfl⟩
abbrev main_v107 : Ref sig .tc := ⟨.hbm, 155, rfl⟩
abbrev main_cst_12 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_13 : Ref sig .tc := ⟨.hbm, 182, rfl⟩
abbrev main_v133 : Ref sig .tc := ⟨.hbm, 183, rfl⟩
abbrev main_v134 : Ref sig .tc := ⟨.hbm, 184, rfl⟩
abbrev main_c_14 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_15 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148_0 : Ref sig .tc := ⟨.hbm, 200, rfl⟩
abbrev main_v148_1 : Ref sig .tc := ⟨.hbm, 201, rfl⟩
abbrev main_v148_2 : Ref sig .tc := ⟨.hbm, 202, rfl⟩
abbrev main_cst_16 : Ref sig .tc := ⟨.hbm, 203, rfl⟩
abbrev main_v149 : Ref sig .tc := ⟨.hbm, 204, rfl⟩
abbrev main_v150 : Ref sig .tc := ⟨.hbm, 205, rfl⟩
abbrev main_cst_17 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_c_18 : Ref sig .tc := ⟨.hbm, 232, rfl⟩
abbrev main_v176 : Ref sig .tc := ⟨.hbm, 233, rfl⟩
abbrev main_v177 : Ref sig .tc := ⟨.hbm, 234, rfl⟩
abbrev main_c_19 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_20 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191_0 : Ref sig .tc := ⟨.hbm, 250, rfl⟩
abbrev main_v191_1 : Ref sig .tc := ⟨.hbm, 251, rfl⟩
abbrev main_v191_2 : Ref sig .tc := ⟨.hbm, 252, rfl⟩
abbrev main_cst_21 : Ref sig .tc := ⟨.hbm, 253, rfl⟩
abbrev main_v192 : Ref sig .tc := ⟨.hbm, 254, rfl⟩
abbrev main_v193 : Ref sig .tc := ⟨.hbm, 255, rfl⟩
abbrev main_cst_22 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_cst_23 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_cst_24 : Ref sig .tc := ⟨.hbm, 268, rfl⟩
abbrev main_v204 : Ref sig .tc := ⟨.hbm, 269, rfl⟩
abbrev main_cst_25 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_cst_26 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg9_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg4_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg7_1 : Ref sig .tc := ⟨.vmem, 47, rfl⟩
abbrev cc4_stg8_0 : Ref sig .tc := ⟨.vmem, 48, rfl⟩
abbrev cc4_stg9_0 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc7_stg0_0 : Ref sig .tc := ⟨.vmem, 68, rfl⟩
abbrev cc7_stg0_1 : Ref sig .tc := ⟨.vmem, 69, rfl⟩
abbrev cc7_stg1_0 : Ref sig .tc := ⟨.vmem, 70, rfl⟩
abbrev cc7_stg1_1 : Ref sig .tc := ⟨.vmem, 71, rfl⟩
abbrev cc7_stg2_0 : Ref sig .tc := ⟨.vmem, 72, rfl⟩
abbrev cc7_stg3_0 : Ref sig .tc := ⟨.vmem, 73, rfl⟩
abbrev cc7_stg4_0 : Ref sig .tc := ⟨.vmem, 74, rfl⟩
abbrev cc7_stg5_0 : Ref sig .tc := ⟨.vmem, 75, rfl⟩
abbrev cc7_stg6_0 : Ref sig .tc := ⟨.vmem, 76, rfl⟩
abbrev cc7_stg7_0 : Ref sig .tc := ⟨.vmem, 77, rfl⟩
abbrev cc7_stg7_1 : Ref sig .tc := ⟨.vmem, 78, rfl⟩
abbrev cc7_stg8_0 : Ref sig .tc := ⟨.vmem, 79, rfl⟩
abbrev cc7_stg9_0 : Ref sig .tc := ⟨.vmem, 80, rfl⟩
abbrev cc8_stg0_0 : Ref sig .tc := ⟨.vmem, 81, rfl⟩
abbrev cc8_stg0_1 : Ref sig .tc := ⟨.vmem, 82, rfl⟩
abbrev cc8_stg1_0 : Ref sig .tc := ⟨.vmem, 83, rfl⟩
abbrev cc8_stg1_1 : Ref sig .tc := ⟨.vmem, 84, rfl⟩
abbrev cc8_stg2_0 : Ref sig .tc := ⟨.vmem, 85, rfl⟩
abbrev cc8_stg3_0 : Ref sig .tc := ⟨.vmem, 86, rfl⟩
abbrev cc8_stg4_0 : Ref sig .tc := ⟨.vmem, 87, rfl⟩
abbrev cc8_stg5_0 : Ref sig .tc := ⟨.vmem, 88, rfl⟩
abbrev cc8_stg6_0 : Ref sig .tc := ⟨.vmem, 89, rfl⟩
abbrev cc8_stg6_1 : Ref sig .tc := ⟨.vmem, 90, rfl⟩
abbrev cc9_stg0_0 : Ref sig .tc := ⟨.vmem, 91, rfl⟩
abbrev cc9_stg0_1 : Ref sig .tc := ⟨.vmem, 92, rfl⟩
abbrev cc9_stg1_0 : Ref sig .tc := ⟨.vmem, 93, rfl⟩
abbrev cc9_stg1_1 : Ref sig .tc := ⟨.vmem, 94, rfl⟩
abbrev cc9_stg2_0 : Ref sig .tc := ⟨.vmem, 95, rfl⟩
abbrev cc9_stg3_0 : Ref sig .tc := ⟨.vmem, 96, rfl⟩
abbrev cc9_stg4_0 : Ref sig .tc := ⟨.vmem, 97, rfl⟩
abbrev cc9_stg4_1 : Ref sig .tc := ⟨.vmem, 98, rfl⟩
abbrev cc10_stg0_0 : Ref sig .tc := ⟨.vmem, 99, rfl⟩
abbrev cc10_stg0_1 : Ref sig .tc := ⟨.vmem, 100, rfl⟩
abbrev cc10_stg1_0 : Ref sig .tc := ⟨.vmem, 101, rfl⟩
abbrev cc10_stg1_1 : Ref sig .tc := ⟨.vmem, 102, rfl⟩
abbrev cc10_stg2_0 : Ref sig .tc := ⟨.vmem, 103, rfl⟩
abbrev cc10_stg3_0 : Ref sig .tc := ⟨.vmem, 104, rfl⟩
abbrev cc10_stg4_0 : Ref sig .tc := ⟨.vmem, 105, rfl⟩
abbrev cc10_stg5_0 : Ref sig .tc := ⟨.vmem, 106, rfl⟩
abbrev cc10_stg6_0 : Ref sig .tc := ⟨.vmem, 107, rfl⟩
abbrev cc10_stg7_0 : Ref sig .tc := ⟨.vmem, 108, rfl⟩
abbrev cc10_stg7_1 : Ref sig .tc := ⟨.vmem, 109, rfl⟩
abbrev cc10_stg8_0 : Ref sig .tc := ⟨.vmem, 110, rfl⟩
abbrev cc10_stg9_0 : Ref sig .tc := ⟨.vmem, 111, rfl⟩
abbrev cc11_stg0_0 : Ref sig .tc := ⟨.vmem, 112, rfl⟩
abbrev cc11_stg0_1 : Ref sig .tc := ⟨.vmem, 113, rfl⟩
abbrev cc11_stg1_0 : Ref sig .tc := ⟨.vmem, 114, rfl⟩
abbrev cc11_stg1_1 : Ref sig .tc := ⟨.vmem, 115, rfl⟩
abbrev cc11_stg2_0 : Ref sig .tc := ⟨.vmem, 116, rfl⟩
abbrev cc11_stg3_0 : Ref sig .tc := ⟨.vmem, 117, rfl⟩
abbrev cc11_stg4_0 : Ref sig .tc := ⟨.vmem, 118, rfl⟩
abbrev cc11_stg5_0 : Ref sig .tc := ⟨.vmem, 119, rfl⟩
abbrev cc11_stg6_0 : Ref sig .tc := ⟨.vmem, 120, rfl⟩
abbrev cc11_stg6_1 : Ref sig .tc := ⟨.vmem, 121, rfl⟩
abbrev cc12_stg0_0 : Ref sig .tc := ⟨.vmem, 122, rfl⟩
abbrev cc12_stg0_1 : Ref sig .tc := ⟨.vmem, 123, rfl⟩
abbrev cc12_stg1_0 : Ref sig .tc := ⟨.vmem, 124, rfl⟩
abbrev cc12_stg1_1 : Ref sig .tc := ⟨.vmem, 125, rfl⟩
abbrev cc12_stg2_0 : Ref sig .tc := ⟨.vmem, 126, rfl⟩
abbrev cc12_stg3_0 : Ref sig .tc := ⟨.vmem, 127, rfl⟩
abbrev cc12_stg4_0 : Ref sig .tc := ⟨.vmem, 128, rfl⟩
abbrev cc12_stg4_1 : Ref sig .tc := ⟨.vmem, 129, rfl⟩
abbrev cc13_stg0_0 : Ref sig .tc := ⟨.vmem, 130, rfl⟩
abbrev cc13_stg0_1 : Ref sig .tc := ⟨.vmem, 131, rfl⟩
abbrev cc13_stg1_0 : Ref sig .tc := ⟨.vmem, 132, rfl⟩
abbrev cc13_stg1_1 : Ref sig .tc := ⟨.vmem, 133, rfl⟩
abbrev cc13_stg2_0 : Ref sig .tc := ⟨.vmem, 134, rfl⟩
abbrev cc13_stg3_0 : Ref sig .tc := ⟨.vmem, 135, rfl⟩
abbrev cc13_stg4_0 : Ref sig .tc := ⟨.vmem, 136, rfl⟩
abbrev cc13_stg5_0 : Ref sig .tc := ⟨.vmem, 137, rfl⟩
abbrev cc13_stg6_0 : Ref sig .tc := ⟨.vmem, 138, rfl⟩
abbrev cc13_stg7_0 : Ref sig .tc := ⟨.vmem, 139, rfl⟩
abbrev cc13_stg7_1 : Ref sig .tc := ⟨.vmem, 140, rfl⟩
abbrev cc13_stg8_0 : Ref sig .tc := ⟨.vmem, 141, rfl⟩
abbrev cc13_stg9_0 : Ref sig .tc := ⟨.vmem, 142, rfl⟩
abbrev cc14_stg0_0 : Ref sig .tc := ⟨.vmem, 143, rfl⟩
abbrev cc14_stg0_1 : Ref sig .tc := ⟨.vmem, 144, rfl⟩
abbrev cc14_stg1_0 : Ref sig .tc := ⟨.vmem, 145, rfl⟩
abbrev cc14_stg1_1 : Ref sig .tc := ⟨.vmem, 146, rfl⟩
abbrev cc14_stg2_0 : Ref sig .tc := ⟨.vmem, 147, rfl⟩
abbrev cc14_stg3_0 : Ref sig .tc := ⟨.vmem, 148, rfl⟩
abbrev cc14_stg4_0 : Ref sig .tc := ⟨.vmem, 149, rfl⟩
abbrev cc14_stg5_0 : Ref sig .tc := ⟨.vmem, 150, rfl⟩
abbrev cc14_stg6_0 : Ref sig .tc := ⟨.vmem, 151, rfl⟩
abbrev cc14_stg6_1 : Ref sig .tc := ⟨.vmem, 152, rfl⟩
abbrev cc15_stg0_0 : Ref sig .tc := ⟨.vmem, 153, rfl⟩
abbrev cc15_stg0_1 : Ref sig .tc := ⟨.vmem, 154, rfl⟩
abbrev cc15_stg1_0 : Ref sig .tc := ⟨.vmem, 155, rfl⟩
abbrev cc15_stg2_0 : Ref sig .tc := ⟨.vmem, 156, rfl⟩
abbrev cc15_stg3_0 : Ref sig .tc := ⟨.vmem, 157, rfl⟩
abbrev cc15_stg4_0 : Ref sig .tc := ⟨.vmem, 158, rfl⟩
abbrev cc15_stg5_0 : Ref sig .tc := ⟨.vmem, 159, rfl⟩
abbrev cc15_stg6_0 : Ref sig .tc := ⟨.vmem, 160, rfl⟩
abbrev cc15_stg7_0 : Ref sig .tc := ⟨.vmem, 161, rfl⟩
abbrev cc15_stg7_1 : Ref sig .tc := ⟨.vmem, 162, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem9_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem4_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem7_1 : DmaSem sig := 47
abbrev cc4_sem8_0 : DmaSem sig := 48
abbrev cc4_sem9_0 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem4_1 : DmaSem sig := 67
abbrev cc7_sem0_0 : DmaSem sig := 68
abbrev cc7_sem0_1 : DmaSem sig := 69
abbrev cc7_sem1_0 : DmaSem sig := 70
abbrev cc7_sem1_1 : DmaSem sig := 71
abbrev cc7_sem2_0 : DmaSem sig := 72
abbrev cc7_sem3_0 : DmaSem sig := 73
abbrev cc7_sem4_0 : DmaSem sig := 74
abbrev cc7_sem5_0 : DmaSem sig := 75
abbrev cc7_sem6_0 : DmaSem sig := 76
abbrev cc7_sem7_0 : DmaSem sig := 77
abbrev cc7_sem7_1 : DmaSem sig := 78
abbrev cc7_sem8_0 : DmaSem sig := 79
abbrev cc7_sem9_0 : DmaSem sig := 80
abbrev cc8_sem0_0 : DmaSem sig := 81
abbrev cc8_sem0_1 : DmaSem sig := 82
abbrev cc8_sem1_0 : DmaSem sig := 83
abbrev cc8_sem1_1 : DmaSem sig := 84
abbrev cc8_sem2_0 : DmaSem sig := 85
abbrev cc8_sem3_0 : DmaSem sig := 86
abbrev cc8_sem4_0 : DmaSem sig := 87
abbrev cc8_sem5_0 : DmaSem sig := 88
abbrev cc8_sem6_0 : DmaSem sig := 89
abbrev cc8_sem6_1 : DmaSem sig := 90
abbrev cc9_sem0_0 : DmaSem sig := 91
abbrev cc9_sem0_1 : DmaSem sig := 92
abbrev cc9_sem1_0 : DmaSem sig := 93
abbrev cc9_sem1_1 : DmaSem sig := 94
abbrev cc9_sem2_0 : DmaSem sig := 95
abbrev cc9_sem3_0 : DmaSem sig := 96
abbrev cc9_sem4_0 : DmaSem sig := 97
abbrev cc9_sem4_1 : DmaSem sig := 98
abbrev cc10_sem0_0 : DmaSem sig := 99
abbrev cc10_sem0_1 : DmaSem sig := 100
abbrev cc10_sem1_0 : DmaSem sig := 101
abbrev cc10_sem1_1 : DmaSem sig := 102
abbrev cc10_sem2_0 : DmaSem sig := 103
abbrev cc10_sem3_0 : DmaSem sig := 104
abbrev cc10_sem4_0 : DmaSem sig := 105
abbrev cc10_sem5_0 : DmaSem sig := 106
abbrev cc10_sem6_0 : DmaSem sig := 107
abbrev cc10_sem7_0 : DmaSem sig := 108
abbrev cc10_sem7_1 : DmaSem sig := 109
abbrev cc10_sem8_0 : DmaSem sig := 110
abbrev cc10_sem9_0 : DmaSem sig := 111
abbrev cc11_sem0_0 : DmaSem sig := 112
abbrev cc11_sem0_1 : DmaSem sig := 113
abbrev cc11_sem1_0 : DmaSem sig := 114
abbrev cc11_sem1_1 : DmaSem sig := 115
abbrev cc11_sem2_0 : DmaSem sig := 116
abbrev cc11_sem3_0 : DmaSem sig := 117
abbrev cc11_sem4_0 : DmaSem sig := 118
abbrev cc11_sem5_0 : DmaSem sig := 119
abbrev cc11_sem6_0 : DmaSem sig := 120
abbrev cc11_sem6_1 : DmaSem sig := 121
abbrev cc12_sem0_0 : DmaSem sig := 122
abbrev cc12_sem0_1 : DmaSem sig := 123
abbrev cc12_sem1_0 : DmaSem sig := 124
abbrev cc12_sem1_1 : DmaSem sig := 125
abbrev cc12_sem2_0 : DmaSem sig := 126
abbrev cc12_sem3_0 : DmaSem sig := 127
abbrev cc12_sem4_0 : DmaSem sig := 128
abbrev cc12_sem4_1 : DmaSem sig := 129
abbrev cc13_sem0_0 : DmaSem sig := 130
abbrev cc13_sem0_1 : DmaSem sig := 131
abbrev cc13_sem1_0 : DmaSem sig := 132
abbrev cc13_sem1_1 : DmaSem sig := 133
abbrev cc13_sem2_0 : DmaSem sig := 134
abbrev cc13_sem3_0 : DmaSem sig := 135
abbrev cc13_sem4_0 : DmaSem sig := 136
abbrev cc13_sem5_0 : DmaSem sig := 137
abbrev cc13_sem6_0 : DmaSem sig := 138
abbrev cc13_sem7_0 : DmaSem sig := 139
abbrev cc13_sem7_1 : DmaSem sig := 140
abbrev cc13_sem8_0 : DmaSem sig := 141
abbrev cc13_sem9_0 : DmaSem sig := 142
abbrev cc14_sem0_0 : DmaSem sig := 143
abbrev cc14_sem0_1 : DmaSem sig := 144
abbrev cc14_sem1_0 : DmaSem sig := 145
abbrev cc14_sem1_1 : DmaSem sig := 146
abbrev cc14_sem2_0 : DmaSem sig := 147
abbrev cc14_sem3_0 : DmaSem sig := 148
abbrev cc14_sem4_0 : DmaSem sig := 149
abbrev cc14_sem5_0 : DmaSem sig := 150
abbrev cc14_sem6_0 : DmaSem sig := 151
abbrev cc14_sem6_1 : DmaSem sig := 152
abbrev cc15_sem0_0 : DmaSem sig := 153
abbrev cc15_sem0_1 : DmaSem sig := 154
abbrev cc15_sem1_0 : DmaSem sig := 155
abbrev cc15_sem2_0 : DmaSem sig := 156
abbrev cc15_sem3_0 : DmaSem sig := 157
abbrev cc15_sem4_0 : DmaSem sig := 158
abbrev cc15_sem5_0 : DmaSem sig := 159
abbrev cc15_sem6_0 : DmaSem sig := 160
abbrev cc15_sem7_0 : DmaSem sig := 161
abbrev cc15_sem7_1 : DmaSem sig := 162

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x11 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6000x11 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x11 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S11x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S6000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S4000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S6000x3 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S3x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S6000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S4000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x128 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S4000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S6000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S6000x3 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S3x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S6000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S4000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S1x128 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S4000x128 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

abbrev grid12 : Pipeline.Grid := ⟨1, ![100], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S6000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S6000x3 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S3x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S6000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_9 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4000x128 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S128x128 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S4000x128 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 1 → Memref sig .tc .vmem S1x128 .f32 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))
abbrev reads13_8 : Fin grid13.rank → Bool := ![false]

abbrev stage13_9 : Fin 1 → Memref sig .tc .vmem S1x128 .f32 := fun | 0 => Memref.whole cc13_stg9_0 | ⟨_ + 1, h⟩ => absurd h (Nat.not_lt.2 (Nat.le_add_left _ _))
abbrev sem13_9 : Fin 1 → DmaSem sig := fun | 0 => cc13_sem9_0 | ⟨_ + 1, h⟩ => absurd h (Nat.not_lt.2 (Nat.le_add_left _ _))
abbrev reads13_9 : Fin grid13.rank → Bool := ![false]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S4000x128 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x128 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 2 → Memref sig .tc .vmem S4000x128 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S1000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S128x128 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x128 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S128x1 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x1 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 2 → Memref sig .tc .vmem S1000x1 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  shapeCasts_S11_S1x11 : S11.ShapeCasts S1x11
  inb_S6000x11_S6000x11_0_0 : ∀ a, (![0, 0] : Fin 2 → Nat) a + S6000x11.size a ≤ S6000x11.size a
  h_S6000x11 : 0 < S6000x11.numel
  shapeCasts_S6000x11_S6000x11 : S6000x11.ShapeCasts S6000x11
  inb_S6000x3_S6000x3_0_0 : ∀ a, (![0, 0] : Fin 2 → Nat) a + S6000x3.size a ≤ S6000x3.size a
  h_S6000x3 : 0 < S6000x3.numel
  bitsLt_bf16_f32 : FTy.bits .bf16 < FTy.bits .f32
  inb_S3x11_S3x11_0_0 : ∀ a, (![0, 0] : Fin 2 → Nat) a + S3x11.size a ≤ S3x11.size a
  h_S3x11 : 0 < S3x11.numel
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S6000x11 : S1x11.Broadcasts S6000x11
  bcast_S_S100000x11 : S_.BroadcastsInDim S100000x11 (![] : Fin 0 → Fin S100000x11.rank)
  shapeCasts_S_S1x1 : S_.ShapeCasts S1x1
  shapeCasts_S128_S1x128 : S128.ShapeCasts S1x128
  inb_S1x128_S1x128_0_0 : ∀ a, (![0, 0] : Fin 2 → Nat) a + S1x128.size a ≤ S1x128.size a
  h_S1x128 : 0 < S1x128.numel
  inb_S4000x11_S4000x11_0_0 : ∀ a, (![0, 0] : Fin 2 → Nat) a + S4000x11.size a ≤ S4000x11.size a
  h_S4000x11 : 0 < S4000x11.numel
  shapeCasts_S4000x11_S4000x11 : S4000x11.ShapeCasts S4000x11
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x11 : S1x1.Broadcasts S4000x11
  inb_S11x128_S11x128_0_0 : ∀ a, (![0, 0] : Fin 2 → Nat) a + S11x128.size a ≤ S11x128.size a
  h_S11x128 : 0 < S11x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  reduces_S4000x128_S128 : S4000x128.Reduces [0] S128
  bcast_S_S1x128 : S_.BroadcastsInDim S1x128 (![] : Fin 0 → Fin S1x128.rank)
  shapeCasts_S4000x128_S4000x128 : S4000x128.ShapeCasts S4000x128
  slices_S4x3x128_S1x3x128_0_0_0 : S4x3x128.Slices ![0, 0, 0] S1x3x128
  shapeCasts_S1x3x128_S3x128 : S1x3x128.ShapeCasts S3x128
  slices_S4x128_S1x128_0_0 : S4x128.Slices ![0, 0] S1x128
  shapeCasts_S1x128_S128 : S1x128.ShapeCasts S128
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  broadcasts_S1x128_S6000x128 : S1x128.Broadcasts S6000x128
  bcast_S_S100000x128 : S_.BroadcastsInDim S100000x128 (![] : Fin 0 → Fin S100000x128.rank)
  broadcasts_S1x1_S4000x128 : S1x1.Broadcasts S4000x128
  shapeCasts_S128x128_S128x128 : S128x128.ShapeCasts S128x128
  slices_S4x3x128_S1x3x128_1_0_0 : S4x3x128.Slices ![1, 0, 0] S1x3x128
  slices_S4x128_S1x128_1_0 : S4x128.Slices ![1, 0] S1x128
  slices_S4_S1_1 : S4.Slices ![1] S1
  slices_S4x128x128_S1x128x128_1_0_0 : S4x128x128.Slices ![1, 0, 0] S1x128x128
  slices_S4x3x128_S1x3x128_2_0_0 : S4x3x128.Slices ![2, 0, 0] S1x3x128
  slices_S4x128_S1x128_2_0 : S4x128.Slices ![2, 0] S1x128
  slices_S4_S1_2 : S4.Slices ![2] S1
  slices_S4x128x128_S1x128x128_2_0_0 : S4x128x128.Slices ![2, 0, 0] S1x128x128
  slices_S4x3x128_S1x3x128_3_0_0 : S4x3x128.Slices ![3, 0, 0] S1x3x128
  slices_S4x128_S1x128_3_0 : S4x128.Slices ![3, 0] S1x128
  slices_S4_S1_3 : S4.Slices ![3] S1
  slices_S4x128x128_S1x128x128_3_0_0 : S4x128x128.Slices ![3, 0, 0] S1x128x128
  bcast_S_S5000x128 : S_.BroadcastsInDim S5000x128 (![] : Fin 0 → Fin S5000x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  shapeCasts_S1_S1x1 : S1.ShapeCasts S1x1
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  broadcasts_S1x128_S1000x128 : S1x128.Broadcasts S1000x128
  inb_S128x1_S128x1_0_0 : ∀ a, (![0, 0] : Fin 2 → Nat) a + S128x1.size a ≤ S128x1.size a
  h_S128x1 : 0 < S128x1.numel
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  gather_S100000x11_S600000x1_S600000x11_1_0_n_n_0_1_111_wf : GatherDims.WF S100000x11 S600000x1 S600000x11 [1] [0] [] [0] [] 1 ![1, 11]
  dot_S6000x3_S3x11_S6000x11_1_0_0_1_n_n_wf : DotDims.WF S6000x3 S3x11 S6000x11 [1] [0] [0] [1] [] []
  scatter_S100000x11_S600000x1_S600000x11_1_0_0_1_wf : ScatterDims.WF S100000x11 S600000x1 S600000x11 [1] [0] [0] 1
  dot_S4000x11_S11x128_S4000x128_1_0_0_1_n_n_wf : DotDims.WF S4000x11 S11x128 S4000x128 [1] [0] [0] [1] [] []
  dot_S4000x128_S128x128_S4000x128_1_0_0_1_n_n_wf : DotDims.WF S4000x128 S128x128 S4000x128 [1] [0] [0] [1] [] []
  gather_S100000x128_S600000x1_S600000x128_1_0_n_n_0_1_1128_wf : GatherDims.WF S100000x128 S600000x1 S600000x128 [1] [0] [] [0] [] 1 ![1, 128]
  dot_S6000x3_S3x128_S6000x128_1_0_0_1_n_n_wf : DotDims.WF S6000x3 S3x128 S6000x128 [1] [0] [0] [1] [] []
  scatter_S100000x128_S600000x1_S600000x128_1_0_0_1_wf : ScatterDims.WF S100000x128 S600000x1 S600000x128 [1] [0] [0] 1
  scatter_S5000x128_S100000x1_S100000x128_1_0_0_1_wf : ScatterDims.WF S5000x128 S100000x1 S100000x128 [1] [0] [0] 1
  scatter_S5000_S100000x1_S100000_n_0_0_1_wf : ScatterDims.WF S5000 S100000x1 S100000 [] [0] [0] 1
  dot_S1000x128_S128x128_S1000x128_1_0_0_1_n_n_wf : DotDims.WF S1000x128 S128x128 S1000x128 [1] [0] [0] [1] [] []
  dot_S1000x128_S128x1_S1000x1_1_0_0_1_n_n_wf : DotDims.WF S1000x128 S128x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x11.size a ≤ S600000x11.size a
  hwx0_0 : ∀ i : grid0.Coords, EltTy.bits .f32 = 32 ∨ (Rect.block (s := S600000x11) S6000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x3.size a ≤ S600000x3.size a
  hwx0_1 : ∀ i : grid0.Coords, EltTy.bits .f32 = 32 ∨ (Rect.block (s := S600000x3) S6000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x11.size a ≤ S3x11.size a
  hwx0_2 : ∀ i : grid0.Coords, EltTy.bits .f32 = 32 ∨ (Rect.block (s := S3x11) S3x11.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x11.size a ≤ S1x11.size a
  hwx0_3 : ∀ i : grid0.Coords, EltTy.bits .f32 = 32 ∨ (Rect.block (s := S1x11) S1x11.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6000x11.size a ≤ S600000x11.size a
  hwx0_4 : ∀ i : grid0.Coords, EltTy.bits .f32 = 32 ∨ (Rect.block (s := S600000x11) S6000x11.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x11.size a ≤ S100000x11.size a
  hwx1_0 : ∀ i : grid1.Coords, EltTy.bits .f32 = 32 ∨ (Rect.block (s := S100000x11) S4000x11.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x11.size a ≤ S100000x11.size a
  hwx1_1 : ∀ i : grid1.Coords, EltTy.bits .f32 = 32 ∨ (Rect.block (s := S100000x11) S4000x11.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S11x128.size a ≤ S11x128.size a
  hwx1_3 : ∀ i : grid1.Coords, EltTy.bits .f32 = 32 ∨ (Rect.block (s := S11x128) S11x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .f32 = 32 ∨ (Rect.block (s := S100000x128) S4000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x128.size a ≤ S600000x128.size a
  hwx3_0 : ∀ i : grid3.Coords, EltTy.bits .f32 = 32 ∨ (Rect.block (s := S600000x128) S6000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x3.size a ≤ S600000x3.size a
  hwx3_1 : ∀ i : grid3.Coords, EltTy.bits .f32 = 32 ∨ (Rect.block (s := S600000x3) S6000x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x128.size a ≤ S3x128.size a
  hwx3_2 : ∀ i : grid3.Coords, EltTy.bits .f32 = 32 ∨ (Rect.block (s := S3x128) S3x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S6000x128.size a ≤ S600000x128.size a
  hwx3_4 : ∀ i : grid3.Coords, EltTy.bits .f32 = 32 ∨ (Rect.block (s := S600000x128) S6000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x128.size a ≤ S100000x128.size a
  hwx4_7 : ∀ i : grid4.Coords, EltTy.bits .f32 = 32 ∨ (Rect.block (s := S100000x128) S4000x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S100000x128.size a
  hwx5_0 : ∀ i : grid5.Coords, EltTy.bits .f32 = 32 ∨ (Rect.block (s := S100000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x128.size a ≤ S100000x128.size a
  hwx5_1 : ∀ i : grid5.Coords, EltTy.bits .f32 = 32 ∨ (Rect.block (s := S100000x128) S4000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S4000x128.size a ≤ S100000x128.size a
  hwx5_6 : ∀ i : grid5.Coords, EltTy.bits .f32 = 32 ∨ (Rect.block (s := S100000x128) S4000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6000x128.size a ≤ S600000x128.size a
  hwx6_0 : ∀ i : grid6.Coords, EltTy.bits .f32 = 32 ∨ (Rect.block (s := S600000x128) S6000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S6000x3.size a ≤ S600000x3.size a
  hwx6_1 : ∀ i : grid6.Coords, EltTy.bits .f32 = 32 ∨ (Rect.block (s := S600000x3) S6000x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S3x128.size a ≤ S3x128.size a
  hwx6_2 : ∀ i : grid6.Coords, EltTy.bits .f32 = 32 ∨ (Rect.block (s := S3x128) S3x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S6000x128.size a ≤ S600000x128.size a
  hwx6_4 : ∀ i : grid6.Coords, EltTy.bits .f32 = 32 ∨ (Rect.block (s := S600000x128) S6000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S100000x128.size a
  hwx7_0 : ∀ i : grid7.Coords, EltTy.bits .f32 = 32 ∨ (Rect.block (s := S100000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S100000x128.size a
  hwx7_1 : ∀ i : grid7.Coords, EltTy.bits .f32 = 32 ∨ (Rect.block (s := S100000x128) S4000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S4000x128.size a ≤ S100000x128.size a
  hwx7_7 : ∀ i : grid7.Coords, EltTy.bits .f32 = 32 ∨ (Rect.block (s := S100000x128) S4000x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x128.size a ≤ S1x128.size a
  hwx7_9 : ∀ i : grid7.Coords, EltTy.bits .f32 = 32 ∨ (Rect.block (s := S1x128) S1x128.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S100000x128.size a
  hwx8_0 : ∀ i : grid8.Coords, EltTy.bits .f32 = 32 ∨ (Rect.block (s := S100000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x128.size a ≤ S100000x128.size a
  hwx8_1 : ∀ i : grid8.Coords, EltTy.bits .f32 = 32 ∨ (Rect.block (s := S100000x128) S4000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S4000x128.size a ≤ S100000x128.size a
  hwx8_6 : ∀ i : grid8.Coords, EltTy.bits .f32 = 32 ∨ (Rect.block (s := S100000x128) S4000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S6000x128.size a ≤ S600000x128.size a
  hwx9_0 : ∀ i : grid9.Coords, EltTy.bits .f32 = 32 ∨ (Rect.block (s := S600000x128) S6000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S6000x3.size a ≤ S600000x3.size a
  hwx9_1 : ∀ i : grid9.Coords, EltTy.bits .f32 = 32 ∨ (Rect.block (s := S600000x3) S6000x3.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S3x128.size a ≤ S3x128.size a
  hwx9_2 : ∀ i : grid9.Coords, EltTy.bits .f32 = 32 ∨ (Rect.block (s := S3x128) S3x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S6000x128.size a ≤ S600000x128.size a
  hwx9_4 : ∀ i : grid9.Coords, EltTy.bits .f32 = 32 ∨ (Rect.block (s := S600000x128) S6000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S100000x128.size a
  hwx10_0 : ∀ i : grid10.Coords, EltTy.bits .f32 = 32 ∨ (Rect.block (s := S100000x128) S4000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x128.size a ≤ S100000x128.size a
  hwx10_1 : ∀ i : grid10.Coords, EltTy.bits .f32 = 32 ∨ (Rect.block (s := S100000x128) S4000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S4000x128.size a ≤ S100000x128.size a
  hwx10_7 : ∀ i : grid10.Coords, EltTy.bits .f32 = 32 ∨ (Rect.block (s := S100000x128) S4000x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S1x128.size a ≤ S1x128.size a
  hwx10_9 : ∀ i : grid10.Coords, EltTy.bits .f32 = 32 ∨ (Rect.block (s := S1x128) S1x128.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x128.size a ≤ S100000x128.size a
  hwx11_0 : ∀ i : grid11.Coords, EltTy.bits .f32 = 32 ∨ (Rect.block (s := S100000x128) S4000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x128.size a ≤ S100000x128.size a
  hwx11_1 : ∀ i : grid11.Coords, EltTy.bits .f32 = 32 ∨ (Rect.block (s := S100000x128) S4000x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x128.size a ≤ S1x128.size a
  hwx11_3 : ∀ i : grid11.Coords, EltTy.bits .f32 = 32 ∨ (Rect.block (s := S1x128) S1x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x128.size a ≤ S1x128.size a
  hwx11_5 : ∀ i : grid11.Coords, EltTy.bits .f32 = 32 ∨ (Rect.block (s := S1x128) S1x128.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S4000x128.size a ≤ S100000x128.size a
  hwx11_6 : ∀ i : grid11.Coords, EltTy.bits .f32 = 32 ∨ (Rect.block (s := S100000x128) S4000x128.size (cc11_transform_6 i) (hinb11_6 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S6000x128.size a ≤ S600000x128.size a
  hwx12_0 : ∀ i : grid12.Coords, EltTy.bits .f32 = 32 ∨ (Rect.block (s := S600000x128) S6000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S6000x3.size a ≤ S600000x3.size a
  hwx12_1 : ∀ i : grid12.Coords, EltTy.bits .f32 = 32 ∨ (Rect.block (s := S600000x3) S6000x3.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S3x128.size a ≤ S3x128.size a
  hwx12_2 : ∀ i : grid12.Coords, EltTy.bits .f32 = 32 ∨ (Rect.block (s := S3x128) S3x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S6000x128.size a ≤ S600000x128.size a
  hwx12_4 : ∀ i : grid12.Coords, EltTy.bits .f32 = 32 ∨ (Rect.block (s := S600000x128) S6000x128.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S100000x128.size a
  hwx13_0 : ∀ i : grid13.Coords, EltTy.bits .f32 = 32 ∨ (Rect.block (s := S100000x128) S4000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4000x128.size a ≤ S100000x128.size a
  hwx13_1 : ∀ i : grid13.Coords, EltTy.bits .f32 = 32 ∨ (Rect.block (s := S100000x128) S4000x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S128x128.size a ≤ S128x128.size a
  hwx13_5 : ∀ i : grid13.Coords, EltTy.bits .f32 = 32 ∨ (Rect.block (s := S128x128) S128x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S4000x128.size a ≤ S100000x128.size a
  hwx13_7 : ∀ i : grid13.Coords, EltTy.bits .f32 = 32 ∨ (Rect.block (s := S100000x128) S4000x128.size (cc13_transform_7 i) (hinb13_7 i)).WholeWords (EltTy.packing .f32)
  hstage13_8 : ∀ j, (stage13_8 j).IsWhole
  nbuf13_8 : grid13.bufCount reads13_8 true = 1
  hreads13_8 : ∀ i i' : grid13.Coords, (∀ a, reads13_8 a = true → i a = i' a) → cc13_transform_8 i = cc13_transform_8 i'
  hinb13_8 : ∀ (i : grid13.Coords) a, (cc13_transform_8 i a + 1) * S1x128.size a ≤ S1x128.size a
  hwx13_8 : ∀ i : grid13.Coords, EltTy.bits .f32 = 32 ∨ (Rect.block (s := S1x128) S1x128.size (cc13_transform_8 i) (hinb13_8 i)).WholeWords (EltTy.packing .f32)
  hstage13_9 : ∀ j, (stage13_9 j).IsWhole
  nbuf13_9 : grid13.bufCount reads13_9 true = 1
  hreads13_9 : ∀ i i' : grid13.Coords, (∀ a, reads13_9 a = true → i a = i' a) → cc13_transform_9 i = cc13_transform_9 i'
  hinb13_9 : ∀ (i : grid13.Coords) a, (cc13_transform_9 i a + 1) * S1x128.size a ≤ S1x128.size a
  hwx13_9 : ∀ i : grid13.Coords, EltTy.bits .f32 = 32 ∨ (Rect.block (s := S1x128) S1x128.size (cc13_transform_9 i) (hinb13_9 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4000x128.size a ≤ S100000x128.size a
  hwx14_0 : ∀ i : grid14.Coords, EltTy.bits .f32 = 32 ∨ (Rect.block (s := S100000x128) S4000x128.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S4000x128.size a ≤ S100000x128.size a
  hwx14_1 : ∀ i : grid14.Coords, EltTy.bits .f32 = 32 ∨ (Rect.block (s := S100000x128) S4000x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x128.size a ≤ S1x128.size a
  hwx14_3 : ∀ i : grid14.Coords, EltTy.bits .f32 = 32 ∨ (Rect.block (s := S1x128) S1x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x128.size a ≤ S1x128.size a
  hwx14_5 : ∀ i : grid14.Coords, EltTy.bits .f32 = 32 ∨ (Rect.block (s := S1x128) S1x128.size (cc14_transform_5 i) (hinb14_5 i)).WholeWords (EltTy.packing .f32)
  hstage14_6 : ∀ j, (stage14_6 j).IsWhole
  nbuf14_6 : grid14.bufCount reads14_6 false = 2
  hreads14_6 : ∀ i i' : grid14.Coords, (∀ a, reads14_6 a = true → i a = i' a) → cc14_transform_6 i = cc14_transform_6 i'
  hinb14_6 : ∀ (i : grid14.Coords) a, (cc14_transform_6 i a + 1) * S4000x128.size a ≤ S100000x128.size a
  hwx14_6 : ∀ i : grid14.Coords, EltTy.bits .f32 = 32 ∨ (Rect.block (s := S100000x128) S4000x128.size (cc14_transform_6 i) (hinb14_6 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1000x128.size a ≤ S5000x128.size a
  hwx15_0 : ∀ i : grid15.Coords, EltTy.bits .f32 = 32 ∨ (Rect.block (s := S5000x128) S1000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S128x128.size a ≤ S128x128.size a
  hwx15_3 : ∀ i : grid15.Coords, EltTy.bits .f32 = 32 ∨ (Rect.block (s := S128x128) S128x128.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x128.size a ≤ S1x128.size a
  hwx15_4 : ∀ i : grid15.Coords, EltTy.bits .f32 = 32 ∨ (Rect.block (s := S1x128) S1x128.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S128x1.size a ≤ S128x1.size a
  hwx15_5 : ∀ i : grid15.Coords, EltTy.bits .f32 = 32 ∨ (Rect.block (s := S128x1) S128x1.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x1.size a ≤ S1x1.size a
  hwx15_6 : ∀ i : grid15.Coords, EltTy.bits .f32 = 32 ∨ (Rect.block (s := S1x1) S1x1.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S1000x1.size a ≤ S5000x1.size a
  hwx15_7 : ∀ i : grid15.Coords, EltTy.bits .f32 = 32 ∨ (Rect.block (s := S5000x1) S1000x1.size (cc15_transform_7 i) (hinb15_7 i)).WholeWords (EltTy.packing .f32)

variable [Facts₀]

def gather_S100000x11_S600000x1_S600000x11_1_0_n_n_0_1_111 : GatherDims S100000x11 S600000x1 S600000x11 where
  offsetDims := [1]
  collapsedSliceDims := [0]
  operandBatchingDims := []
  startIndicesBatchingDims := []
  startIndexMap := [0]
  indexVectorDim := 1
  sliceSizes := ![1, 11]
  wf := gather_S100000x11_S600000x1_S600000x11_1_0_n_n_0_1_111_wf
def dot_S6000x3_S3x11_S6000x11_1_0_0_1_n_n : DotDims S6000x3 S3x11 S6000x11 where
  lhsContracting := [1]
  rhsContracting := [0]
  lhsNonContracting := [0]
  rhsNonContracting := [1]
  lhsBatch := []
  rhsBatch := []
  wf := dot_S6000x3_S3x11_S6000x11_1_0_0_1_n_n_wf
def scatter_S100000x11_S600000x1_S600000x11_1_0_0_1 : ScatterDims S100000x11 S600000x1 S600000x11 where
  updateWindowDims := [1]
  insertedWindowDims := [0]
  scatterDimsToOperandDims := [0]
  indexVectorDim := 1
  wf := scatter_S100000x11_S600000x1_S600000x11_1_0_0_1_wf
def dot_S4000x11_S11x128_S4000x128_1_0_0_1_n_n : DotDims S4000x11 S11x128 S4000x128 where
  lhsContracting := [1]
  rhsContracting := [0]
  lhsNonContracting := [0]
  rhsNonContracting := [1]
  lhsBatch := []
  rhsBatch := []
  wf := dot_S4000x11_S11x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S6000x3_S3x128_S6000x128_1_0_0_1_n_n : DotDims S6000x3 S3x128 S6000x128 where
  lhsContracting := [1]
  rhsContracting := [0]
  lhsNonContracting := [0]
  rhsNonContracting := [1]
  lhsBatch := []
  rhsBatch := []
  wf := dot_S6000x3_S3x128_S6000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S5000x128_S100000x1_S100000x128_1_0_0_1 : ScatterDims S5000x128 S100000x1 S100000x128 where
  updateWindowDims := [1]
  insertedWindowDims := [0]
  scatterDimsToOperandDims := [0]
  indexVectorDim := 1
  wf := scatter_S5000x128_S100000x1_S100000x128_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x1_S1000x1_1_0_0_1_n_n : DotDims S1000x128 S128x1 S1000x1 where
  lhsContracting := [1]
  rhsContracting := [0]
  lhsNonContracting := [0]
  rhsNonContracting := [1]
  lhsBatch := []
  rhsBatch := []
  wf := dot_S1000x128_S128x1_S1000x1_1_0_0_1_n_n_wf

abbrev win0_0 : Pipeline.Window sig grid0 :=
  Pipeline.Window.ofSpec (Memref.whole main_v10) S6000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x11.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x11.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S6000x11.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S4000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x11.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S11x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_1) S1x128.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19_2) S1x128.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v19_0) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v53) S6000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S6000x3.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S3x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S6000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v28) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v36) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v40) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v61) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v62_0) S4000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v62_1) S1x128.size cc4_transform_8 reads4_8 true true 1 stage4_8 sem4_8
    hrank4 hreads4_8 hinb4_8 nbuf4_8 (Memref.isWhole_whole _) hwx4_8 hstage4_8

abbrev win4_9 : Pipeline.Window sig grid4 :=
  Pipeline.Window.ofSpec (Memref.whole main_v62_2) S1x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v62_0) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v28) S4000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v64) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v68) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v69) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v70) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v71) S4000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v96) S6000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg1) S6000x3.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v73) S3x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v97) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v98) S6000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v71) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v79) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v103) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v83) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v104) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v105_0) S4000x128.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v105_1) S1x128.size cc7_transform_8 reads7_8 true true 1 stage7_8 sem7_8
    hrank7 hreads7_8 hinb7_8 nbuf7_8 (Memref.isWhole_whole _) hwx7_8 hstage7_8

abbrev win7_9 : Pipeline.Window sig grid7 :=
  Pipeline.Window.ofSpec (Memref.whole main_v105_2) S1x128.size cc7_transform_9 reads7_9 true true 1 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v105_0) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v71) S4000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v107) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v111) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v112) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v113) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v114) S4000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v139) S6000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg1) S6000x3.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v116) S3x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v140) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v141) S6000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v114) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v144) S4000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v145) S1x1.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v122) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v146) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v126) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v147) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v148_0) S4000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v148_1) S1x128.size cc10_transform_8 reads10_8 true true 1 stage10_8 sem10_8
    hrank10 hreads10_8 hinb10_8 nbuf10_8 (Memref.isWhole_whole _) hwx10_8 hstage10_8

abbrev win10_9 : Pipeline.Window sig grid10 :=
  Pipeline.Window.ofSpec (Memref.whole main_v148_2) S1x128.size cc10_transform_9 reads10_9 true true 1 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v148_0) S4000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v114) S4000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v150) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v154) S1x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v155) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v156) S1x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v157) S4000x128.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

abbrev win12_0 : Pipeline.Window sig grid12 :=
  Pipeline.Window.ofSpec (Memref.whole main_v182) S6000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg1) S6000x3.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v159) S3x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v183) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v184) S6000x128.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v157) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v187) S4000x128.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v188) S1x1.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v165) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v189) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v169) S128x128.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v190) S1x128.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v191_0) S4000x128.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v191_1) S1x128.size cc13_transform_8 reads13_8 true true 1 stage13_8 sem13_8
    hrank13 hreads13_8 hinb13_8 nbuf13_8 (Memref.isWhole_whole _) hwx13_8 hstage13_8

abbrev win13_9 : Pipeline.Window sig grid13 :=
  Pipeline.Window.ofSpec (Memref.whole main_v191_2) S1x128.size cc13_transform_9 reads13_9 true true 1 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

abbrev win14_0 : Pipeline.Window sig grid14 :=
  Pipeline.Window.ofSpec (Memref.whole main_v191_0) S4000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v157) S4000x128.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v193) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v197) S1x128.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v198) S1x128.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v199) S1x128.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v200) S4000x128.size cc14_transform_6 reads14_6 true false 2 stage14_6 sem14_6
    hrank14 hreads14_6 hinb14_6 nbuf14_6 (Memref.isWhole_whole _) hwx14_6 hstage14_6

abbrev win14 : Fin 7 → Pipeline.Window sig grid14 := fun | 0 => win14_0 | 1 => win14_1 | 2 => win14_2 | 3 => win14_3 | 4 => win14_4 | 5 => win14_5 | 6 => win14_6 | ⟨_ + 7, h⟩ => absurd h (Nat.not_lt.2 (Nat.le_add_left _ _))
abbrev spec14 : Fin 7 → Pipeline.WinSpec sig grid14.rank := fun w => (win14 w).toWinSpec

abbrev win15_0 : Pipeline.Window sig grid15 :=
  Pipeline.Window.ofSpec (Memref.whole main_v212) S1000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg20) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v213) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_arg22) S128x128.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v214) S1x128.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_arg24) S128x1.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v215) S1x1.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v216) S1000x1.size cc15_transform_7 reads15_7 true false 2 stage15_7 sem15_7
    hrank15 hreads15_7 hinb15_7 nbuf15_7 (Memref.isWhole_whole _) hwx15_7 hstage15_7

abbrev win15 : Fin 8 → Pipeline.Window sig grid15 := fun | 0 => win15_0 | 1 => win15_1 | 2 => win15_2 | 3 => win15_3 | 4 => win15_4 | 5 => win15_5 | 6 => win15_6 | 7 => win15_7 | ⟨_ + 8, h⟩ => absurd h (Nat.not_lt.2 (Nat.le_add_left _ _))
abbrev spec15 : Fin 8 → Pipeline.WinSpec sig grid15.rank := fun w => (win15 w).toWinSpec

class Facts : Prop extends Facts₀ where

variable [Facts]
-- ==== ReferenceIdeal.lean ====
abbrev S100000x11 : Shape := ⟨2, ![100000, 11]⟩
abbrev S600000x3 : Shape := ⟨2, ![600000, 3]⟩
abbrev S3x11 : Shape := ⟨2, ![3, 11]⟩
abbrev S11 : Shape := ⟨1, ![11]⟩
abbrev S11x128 : Shape := ⟨2, ![11, 128]⟩
abbrev S128 : Shape := ⟨1, ![128]⟩
abbrev S128x128 : Shape := ⟨2, ![128, 128]⟩
abbrev S_ : Shape := ⟨0, ![]⟩
abbrev S4x3x128 : Shape := ⟨3, ![4, 3, 128]⟩
abbrev S4x128 : Shape := ⟨2, ![4, 128]⟩
abbrev S4x128x128 : Shape := ⟨3, ![4, 128, 128]⟩
abbrev S4 : Shape := ⟨1, ![4]⟩
abbrev S128x1 : Shape := ⟨2, ![128, 1]⟩
abbrev S1 : Shape := ⟨1, ![1]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S600000x1 : Shape := ⟨2, ![600000, 1]⟩
abbrev S600000x11 : Shape := ⟨2, ![600000, 11]⟩
abbrev S1x11 : Shape := ⟨2, ![1, 11]⟩
abbrev S100000x128 : Shape := ⟨2, ![100000, 128]⟩
abbrev S1x128 : Shape := ⟨2, ![1, 128]⟩
abbrev S1x3x128 : Shape := ⟨3, ![1, 3, 128]⟩
abbrev S3x128 : Shape := ⟨2, ![3, 128]⟩
abbrev S1x128x128 : Shape := ⟨3, ![1, 128, 128]⟩
abbrev S600000x128 : Shape := ⟨2, ![600000, 128]⟩
abbrev S5000x128 : Shape := ⟨2, ![5000, 128]⟩
abbrev S100000x1 : Shape := ⟨2, ![100000, 1]⟩
abbrev S5000 : Shape := ⟨1, ![5000]⟩
abbrev S5000x1 : Shape := ⟨2, ![5000, 1]⟩
abbrev S1x1 : Shape := ⟨2, ![1, 1]⟩

abbrev nBuf : Space → Nat
  | .hbm => 562
  | .vmem => 0
  | .smem => 0
  | _ => 0

abbrev hbmTy0_0 (i : Nat) : BufTy := match i % 128 with
  | 0 => ⟨S100000x11, .f32⟩
  | 1 => ⟨S600000x3, .f32⟩
  | 2 => ⟨S3x11, .f32⟩
  | 3 => ⟨S11, .f32⟩
  | 4 => ⟨S11x128, .f32⟩
  | 5 => ⟨S128, .f32⟩
  | 6 => ⟨S128x128, .f32⟩
  | 7 => ⟨S128, .f32⟩
  | 8 => ⟨S128, .f32⟩
  | 9 => ⟨S128, .f32⟩
  | 10 => ⟨S_, .f32⟩
  | 11 => ⟨S4x3x128, .f32⟩
  | 12 => ⟨S4x128, .f32⟩
  | 13 => ⟨S4x128x128, .f32⟩
  | 14 => ⟨S4x128, .f32⟩
  | 15 => ⟨S4x128x128, .f32⟩
  | 16 => ⟨S4x128, .f32⟩
  | 17 => ⟨S4x128, .f32⟩
  | 18 => ⟨S4x128, .f32⟩
  | 19 => ⟨S4, .f32⟩
  | 20 => ⟨S128x128, .f32⟩
  | 21 => ⟨S128, .f32⟩
  | 22 => ⟨S128x128, .f32⟩
  | 23 => ⟨S128, .f32⟩
  | 24 => ⟨S128x1, .f32⟩
  | 25 => ⟨S1, .f32⟩
  | 26 => ⟨S2x600000, .i32⟩
  | 27 => ⟨S100000, .i32⟩
  | 28 => ⟨S1x600000, .i32⟩
  | 29 => ⟨S600000, .i32⟩
  | 30 => ⟨S1x600000, .i32⟩
  | 31 => ⟨S600000, .i32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x11, .f32⟩
  | 41 => ⟨S600000x11, .f32⟩
  | 42 => ⟨S600000x11, .f32⟩
  | 43 => ⟨S1x11, .f32⟩
  | 44 => ⟨S600000x11, .f32⟩
  | 45 => ⟨S600000x11, .f32⟩
  | 46 => ⟨S_, .f32⟩
  | 47 => ⟨S600000x11, .f32⟩
  | 48 => ⟨S600000x11, .f32⟩
  | 49 => ⟨S_, .f32⟩
  | 50 => ⟨S100000x11, .f32⟩
  | 51 => ⟨S600000x1, .i32⟩
  | 52 => ⟨S100000x11, .f32⟩
  | 53 => ⟨S_, .f32⟩
  | 54 => ⟨S_, .f32⟩
  | 55 => ⟨S100000x11, .f32⟩
  | 56 => ⟨S100000x11, .f32⟩
  | 57 => ⟨S100000x11, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S1x3x128, .f32⟩
  | 117 => ⟨S3x128, .f32⟩
  | 118 => ⟨S1x128, .f32⟩
  | 119 => ⟨S128, .f32⟩
  | 120 => ⟨S1, .f32⟩
  | 121 => ⟨S_, .f32⟩
  | 122 => ⟨S1x128x128, .f32⟩
  | 123 => ⟨S128x128, .f32⟩
  | 124 => ⟨S1x128, .f32⟩
  | 125 => ⟨S128, .f32⟩
  | 126 => ⟨S1x128x128, .f32⟩
  | 127 => ⟨S128x128, .f32⟩
  | _ => ⟨S100000x11, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S128, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S600000x128, .f32⟩
  | 16 => ⟨S600000x128, .f32⟩
  | 17 => ⟨S1x128, .f32⟩
  | 18 => ⟨S600000x128, .f32⟩
  | 19 => ⟨S600000x128, .f32⟩
  | 20 => ⟨S_, .f32⟩
  | 21 => ⟨S600000x128, .f32⟩
  | 22 => ⟨S600000x128, .f32⟩
  | 23 => ⟨S_, .f32⟩
  | 24 => ⟨S100000x128, .f32⟩
  | 25 => ⟨S600000x1, .i32⟩
  | 26 => ⟨S100000x128, .f32⟩
  | 27 => ⟨S_, .f32⟩
  | 28 => ⟨S_, .f32⟩
  | 29 => ⟨S100000x128, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S_, .f32⟩
  | 75 => ⟨S128, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S1x3x128, .f32⟩
  | 92 => ⟨S3x128, .f32⟩
  | 93 => ⟨S1x128, .f32⟩
  | 94 => ⟨S128, .f32⟩
  | 95 => ⟨S1, .f32⟩
  | 96 => ⟨S_, .f32⟩
  | 97 => ⟨S1x128x128, .f32⟩
  | 98 => ⟨S128x128, .f32⟩
  | 99 => ⟨S1x128, .f32⟩
  | 100 => ⟨S128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000x128, .f32⟩
  | 118 => ⟨S600000x128, .f32⟩
  | 119 => ⟨S600000x128, .f32⟩
  | 120 => ⟨S1x128, .f32⟩
  | 121 => ⟨S600000x128, .f32⟩
  | 122 => ⟨S600000x128, .f32⟩
  | 123 => ⟨S_, .f32⟩
  | 124 => ⟨S600000x128, .f32⟩
  | 125 => ⟨S600000x128, .f32⟩
  | 126 => ⟨S_, .f32⟩
  | 127 => ⟨S100000x128, .f32⟩
  | _ => ⟨S100000x11, .f32⟩

abbrev hbmTy0_2 (i : Nat) : BufTy := match i % 128 with
  | 0 => ⟨S600000x1, .i32⟩
  | 1 => ⟨S100000x128, .f32⟩
  | 2 => ⟨S_, .f32⟩
  | 3 => ⟨S_, .f32⟩
  | 4 => ⟨S100000x128, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S100000x128, .f32⟩
  | 31 => ⟨S100000x128, .f32⟩
  | 32 => ⟨S100000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S1x3x128, .f32⟩
  | 67 => ⟨S3x128, .f32⟩
  | 68 => ⟨S1x128, .f32⟩
  | 69 => ⟨S128, .f32⟩
  | 70 => ⟨S1, .f32⟩
  | 71 => ⟨S_, .f32⟩
  | 72 => ⟨S1x128x128, .f32⟩
  | 73 => ⟨S128x128, .f32⟩
  | 74 => ⟨S1x128, .f32⟩
  | 75 => ⟨S128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S600000x128, .f32⟩
  | 94 => ⟨S600000x128, .f32⟩
  | 95 => ⟨S1x128, .f32⟩
  | 96 => ⟨S600000x128, .f32⟩
  | 97 => ⟨S600000x128, .f32⟩
  | 98 => ⟨S_, .f32⟩
  | 99 => ⟨S600000x128, .f32⟩
  | 100 => ⟨S600000x128, .f32⟩
  | 101 => ⟨S_, .f32⟩
  | 102 => ⟨S100000x128, .f32⟩
  | 103 => ⟨S600000x1, .i32⟩
  | 104 => ⟨S100000x128, .f32⟩
  | 105 => ⟨S_, .f32⟩
  | 106 => ⟨S_, .f32⟩
  | 107 => ⟨S100000x128, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S_, .f32⟩
  | 124 => ⟨S128, .f32⟩
  | 125 => ⟨S128, .f32⟩
  | 126 => ⟨S_, .i32⟩
  | 127 => ⟨S_, .f32⟩
  | _ => ⟨S100000x11, .f32⟩

abbrev hbmTy0_3 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S100000x128, .f32⟩
  | 6 => ⟨S100000x128, .f32⟩
  | 7 => ⟨S100000x128, .f32⟩
  | 8 => ⟨S_, .f32⟩
  | 9 => ⟨S_, .f32⟩
  | 10 => ⟨S_, .f32⟩
  | 11 => ⟨S_, .f32⟩
  | 12 => ⟨S128, .f32⟩
  | 13 => ⟨S128, .f32⟩
  | 14 => ⟨S128, .f32⟩
  | 15 => ⟨S_, .f32⟩
  | 16 => ⟨S_, .i1⟩
  | 17 => ⟨S_, .f32⟩
  | 18 => ⟨S_, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S1x3x128, .f32⟩
  | 42 => ⟨S3x128, .f32⟩
  | 43 => ⟨S1x128, .f32⟩
  | 44 => ⟨S128, .f32⟩
  | 45 => ⟨S1, .f32⟩
  | 46 => ⟨S_, .f32⟩
  | 47 => ⟨S1x128x128, .f32⟩
  | 48 => ⟨S128x128, .f32⟩
  | 49 => ⟨S1x128, .f32⟩
  | 50 => ⟨S128, .f32⟩
  | 51 => ⟨S1x128x128, .f32⟩
  | 52 => ⟨S128x128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x128, .f32⟩
  | 68 => ⟨S600000x128, .f32⟩
  | 69 => ⟨S600000x128, .f32⟩
  | 70 => ⟨S1x128, .f32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S_, .f32⟩
  | 77 => ⟨S100000x128, .f32⟩
  | 78 => ⟨S600000x1, .i32⟩
  | 79 => ⟨S100000x128, .f32⟩
  | 80 => ⟨S_, .f32⟩
  | 81 => ⟨S_, .f32⟩
  | 82 => ⟨S100000x128, .f32⟩
  | 83 => ⟨S100000x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S100000x128, .f32⟩
  | 109 => ⟨S100000x128, .f32⟩
  | 110 => ⟨S100000x128, .f32⟩
  | 111 => ⟨S_, .f32⟩
  | 112 => ⟨S_, .f32⟩
  | 113 => ⟨S_, .f32⟩
  | 114 => ⟨S_, .f32⟩
  | 115 => ⟨S128, .f32⟩
  | 116 => ⟨S128, .f32⟩
  | 117 => ⟨S128, .f32⟩
  | 118 => ⟨S_, .f32⟩
  | 119 => ⟨S_, .i1⟩
  | 120 => ⟨S_, .f32⟩
  | 121 => ⟨S_, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x11, .f32⟩

abbrev hbmTy0_4 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S5000x128, .f32⟩
  | 18 => ⟨S100000x1, .i32⟩
  | 19 => ⟨S5000x128, .f32⟩
  | 20 => ⟨S_, .f32⟩
  | 21 => ⟨S100000, .f32⟩
  | 22 => ⟨S_, .f32⟩
  | 23 => ⟨S5000, .f32⟩
  | 24 => ⟨S100000x1, .i32⟩
  | 25 => ⟨S5000, .f32⟩
  | 26 => ⟨S_, .f32⟩
  | 27 => ⟨S5000, .f32⟩
  | 28 => ⟨S5000, .f32⟩
  | 29 => ⟨S5000x1, .f32⟩
  | 30 => ⟨S5000x128, .f32⟩
  | 31 => ⟨S5000x128, .f32⟩
  | 32 => ⟨S5000x128, .f32⟩
  | 33 => ⟨S1x128, .f32⟩
  | 34 => ⟨S5000x128, .f32⟩
  | 35 => ⟨S5000x128, .f32⟩
  | 36 => ⟨S_, .f32⟩
  | 37 => ⟨S5000x128, .f32⟩
  | 38 => ⟨S5000x128, .f32⟩
  | 39 => ⟨S5000x128, .f32⟩
  | 40 => ⟨S1x128, .f32⟩
  | 41 => ⟨S5000x128, .f32⟩
  | 42 => ⟨S5000x128, .f32⟩
  | 43 => ⟨S_, .f32⟩
  | 44 => ⟨S5000x128, .f32⟩
  | 45 => ⟨S5000x128, .f32⟩
  | 46 => ⟨S5000x1, .f32⟩
  | 47 => ⟨S1x1, .f32⟩
  | 48 => ⟨S5000x1, .f32⟩
  | 49 => ⟨S5000x1, .f32⟩
  | _ => ⟨S100000x11, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_c : Ref sig .tc := ⟨.hbm, 32, rfl⟩
abbrev main_v4 : Ref sig .tc := ⟨.hbm, 33, rfl⟩
abbrev main_v5 : Ref sig .tc := ⟨.hbm, 34, rfl⟩
abbrev main_c_0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_call0_cst : Ref sig .tc := ⟨.hbm, 46, rfl⟩
abbrev main_call0_v0 : Ref sig .tc := ⟨.hbm, 47, rfl⟩
abbrev main_v16 : Ref sig .tc := ⟨.hbm, 48, rfl⟩
abbrev main_cst : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call1_cst : Ref sig .tc := ⟨.hbm, 62, rfl⟩
abbrev main_call1_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_2 : Ref sig .tc := ⟨.hbm, 69, rfl⟩
abbrev main_v33 : Ref sig .tc := ⟨.hbm, 70, rfl⟩
abbrev main_cst_3 : Ref sig .tc := ⟨.hbm, 71, rfl⟩
abbrev main_v34 : Ref sig .tc := ⟨.hbm, 72, rfl⟩
abbrev main_v35 : Ref sig .tc := ⟨.hbm, 73, rfl⟩
abbrev main_c_4 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_cst_3 : Ref sig .tc := ⟨.hbm, 91, rfl⟩
abbrev main_call2_v12 : Ref sig .tc := ⟨.hbm, 92, rfl⟩
abbrev main_call2_cst_4 : Ref sig .tc := ⟨.hbm, 93, rfl⟩
abbrev main_call2_call0_v0 : Ref sig .tc := ⟨.hbm, 94, rfl⟩
abbrev main_call2_call0_v1 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_cst_5 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_call3_cst : Ref sig .tc := ⟨.hbm, 113, rfl⟩
abbrev main_call3_v0 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_c_6 : Ref sig .tc := ⟨.hbm, 134, rfl⟩
abbrev main_v71 : Ref sig .tc := ⟨.hbm, 135, rfl⟩
abbrev main_v72 : Ref sig .tc := ⟨.hbm, 136, rfl⟩
abbrev main_c_7 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_call4_cst : Ref sig .tc := ⟨.hbm, 148, rfl⟩
abbrev main_call4_v0 : Ref sig .tc := ⟨.hbm, 149, rfl⟩
abbrev main_v83 : Ref sig .tc := ⟨.hbm, 150, rfl⟩
abbrev main_cst_8 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_cst_9 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_call5_cst : Ref sig .tc := ⟨.hbm, 164, rfl⟩
abbrev main_call5_v0 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_cst_10 : Ref sig .tc := ⟨.hbm, 171, rfl⟩
abbrev main_v100 : Ref sig .tc := ⟨.hbm, 172, rfl⟩
abbrev main_cst_11 : Ref sig .tc := ⟨.hbm, 173, rfl⟩
abbrev main_v101 : Ref sig .tc := ⟨.hbm, 174, rfl⟩
abbrev main_v102 : Ref sig .tc := ⟨.hbm, 175, rfl⟩
abbrev main_c_12 : Ref sig .tc := ⟨.hbm, 176, rfl⟩
abbrev main_call6_cst : Ref sig .tc := ⟨.hbm, 177, rfl⟩
abbrev main_call6_v0 : Ref sig .tc := ⟨.hbm, 178, rfl⟩
abbrev main_call6_v1 : Ref sig .tc := ⟨.hbm, 179, rfl⟩
abbrev main_call6_cst_0 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_call6_v5 : Ref sig .tc := ⟨.hbm, 184, rfl⟩
abbrev main_call6_v6 : Ref sig .tc := ⟨.hbm, 185, rfl⟩
abbrev main_call6_v7 : Ref sig .tc := ⟨.hbm, 186, rfl⟩
abbrev main_call6_cst_1 : Ref sig .tc := ⟨.hbm, 187, rfl⟩
abbrev main_call6_v8 : Ref sig .tc := ⟨.hbm, 188, rfl⟩
abbrev main_call6_cst_2 : Ref sig .tc := ⟨.hbm, 189, rfl⟩
abbrev main_call6_v9 : Ref sig .tc := ⟨.hbm, 190, rfl⟩
abbrev main_call6_v10 : Ref sig .tc := ⟨.hbm, 191, rfl⟩
abbrev main_call6_v11 : Ref sig .tc := ⟨.hbm, 192, rfl⟩
abbrev main_call6_cst_3 : Ref sig .tc := ⟨.hbm, 193, rfl⟩
abbrev main_call6_v12 : Ref sig .tc := ⟨.hbm, 194, rfl⟩
abbrev main_call6_cst_4 : Ref sig .tc := ⟨.hbm, 195, rfl⟩
abbrev main_call6_call0_v0 : Ref sig .tc := ⟨.hbm, 196, rfl⟩
abbrev main_call6_call0_v1 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_cst_13 : Ref sig .tc := ⟨.hbm, 202, rfl⟩
abbrev main_v107 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_call7_cst : Ref sig .tc := ⟨.hbm, 215, rfl⟩
abbrev main_call7_v0 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_c_14 : Ref sig .tc := ⟨.hbm, 237, rfl⟩
abbrev main_v139 : Ref sig .tc := ⟨.hbm, 238, rfl⟩
abbrev main_v140 : Ref sig .tc := ⟨.hbm, 239, rfl⟩
abbrev main_c_15 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_v150 : Ref sig .tc := ⟨.hbm, 250, rfl⟩
abbrev main_call8_cst : Ref sig .tc := ⟨.hbm, 251, rfl⟩
abbrev main_call8_v0 : Ref sig .tc := ⟨.hbm, 252, rfl⟩
abbrev main_v151 : Ref sig .tc := ⟨.hbm, 253, rfl⟩
abbrev main_cst_16 : Ref sig .tc := ⟨.hbm, 254, rfl⟩
abbrev main_v152 : Ref sig .tc := ⟨.hbm, 255, rfl⟩
abbrev main_v153 : Ref sig .tc := ⟨.hbm, 256, rfl⟩
abbrev main_v154 : Ref sig .tc := ⟨.hbm, 257, rfl⟩
abbrev main_cst_17 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_call9_cst : Ref sig .tc := ⟨.hbm, 267, rfl⟩
abbrev main_call9_v0 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_cst_18 : Ref sig .tc := ⟨.hbm, 274, rfl⟩
abbrev main_v168 : Ref sig .tc := ⟨.hbm, 275, rfl⟩
abbrev main_cst_19 : Ref sig .tc := ⟨.hbm, 276, rfl⟩
abbrev main_v169 : Ref sig .tc := ⟨.hbm, 277, rfl⟩
abbrev main_v170 : Ref sig .tc := ⟨.hbm, 278, rfl⟩
abbrev main_c_20 : Ref sig .tc := ⟨.hbm, 279, rfl⟩
abbrev main_call10_cst : Ref sig .tc := ⟨.hbm, 280, rfl⟩
abbrev main_call10_v0 : Ref sig .tc := ⟨.hbm, 281, rfl⟩
abbrev main_call10_v1 : Ref sig .tc := ⟨.hbm, 282, rfl⟩
abbrev main_call10_cst_0 : Ref sig .tc := ⟨.hbm, 283, rfl⟩
abbrev main_call10_v2 : Ref sig .tc := ⟨.hbm, 284, rfl⟩
abbrev main_call10_v3 : Ref sig .tc := ⟨.hbm, 285, rfl⟩
abbrev main_call10_v4 : Ref sig .tc := ⟨.hbm, 286, rfl⟩
abbrev main_call10_v5 : Ref sig .tc := ⟨.hbm, 287, rfl⟩
abbrev main_call10_v6 : Ref sig .tc := ⟨.hbm, 288, rfl⟩
abbrev main_call10_v7 : Ref sig .tc := ⟨.hbm, 289, rfl⟩
abbrev main_call10_cst_1 : Ref sig .tc := ⟨.hbm, 290, rfl⟩
abbrev main_call10_v8 : Ref sig .tc := ⟨.hbm, 291, rfl⟩
abbrev main_call10_cst_2 : Ref sig .tc := ⟨.hbm, 292, rfl⟩
abbrev main_call10_v9 : Ref sig .tc := ⟨.hbm, 293, rfl⟩
abbrev main_call10_v10 : Ref sig .tc := ⟨.hbm, 294, rfl⟩
abbrev main_call10_v11 : Ref sig .tc := ⟨.hbm, 295, rfl⟩
abbrev main_call10_cst_3 : Ref sig .tc := ⟨.hbm, 296, rfl⟩
abbrev main_call10_v12 : Ref sig .tc := ⟨.hbm, 297, rfl⟩
abbrev main_call10_cst_4 : Ref sig .tc := ⟨.hbm, 298, rfl⟩
abbrev main_call10_call0_v0 : Ref sig .tc := ⟨.hbm, 299, rfl⟩
abbrev main_call10_call0_v1 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_cst_21 : Ref sig .tc := ⟨.hbm, 305, rfl⟩
abbrev main_v175 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_v182 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩
abbrev main_v186 : Ref sig .tc := ⟨.hbm, 317, rfl⟩
abbrev main_call11_cst : Ref sig .tc := ⟨.hbm, 318, rfl⟩
abbrev main_call11_v0 : Ref sig .tc := ⟨.hbm, 319, rfl⟩
abbrev main_v187 : Ref sig .tc := ⟨.hbm, 320, rfl⟩
abbrev main_v188 : Ref sig .tc := ⟨.hbm, 321, rfl⟩
abbrev main_v189 : Ref sig .tc := ⟨.hbm, 322, rfl⟩
abbrev main_v190 : Ref sig .tc := ⟨.hbm, 323, rfl⟩
abbrev main_v191 : Ref sig .tc := ⟨.hbm, 324, rfl⟩
abbrev main_v192 : Ref sig .tc := ⟨.hbm, 325, rfl⟩
abbrev main_v193 : Ref sig .tc := ⟨.hbm, 326, rfl⟩
abbrev main_v194 : Ref sig .tc := ⟨.hbm, 327, rfl⟩
abbrev main_v195 : Ref sig .tc := ⟨.hbm, 328, rfl⟩
abbrev main_v196 : Ref sig .tc := ⟨.hbm, 329, rfl⟩
abbrev main_v197 : Ref sig .tc := ⟨.hbm, 330, rfl⟩
abbrev main_v198 : Ref sig .tc := ⟨.hbm, 331, rfl⟩
abbrev main_v199 : Ref sig .tc := ⟨.hbm, 332, rfl⟩
abbrev main_v200 : Ref sig .tc := ⟨.hbm, 333, rfl⟩
abbrev main_v201 : Ref sig .tc := ⟨.hbm, 334, rfl⟩
abbrev main_v202 : Ref sig .tc := ⟨.hbm, 335, rfl⟩
abbrev main_v203 : Ref sig .tc := ⟨.hbm, 336, rfl⟩
abbrev main_v204 : Ref sig .tc := ⟨.hbm, 337, rfl⟩
abbrev main_v205 : Ref sig .tc := ⟨.hbm, 338, rfl⟩
abbrev main_v206 : Ref sig .tc := ⟨.hbm, 339, rfl⟩
abbrev main_c_22 : Ref sig .tc := ⟨.hbm, 340, rfl⟩
abbrev main_v207 : Ref sig .tc := ⟨.hbm, 341, rfl⟩
abbrev main_v208 : Ref sig .tc := ⟨.hbm, 342, rfl⟩
abbrev main_c_23 : Ref sig .tc := ⟨.hbm, 343, rfl⟩
abbrev main_v209 : Ref sig .tc := ⟨.hbm, 344, rfl⟩
abbrev main_v210 : Ref sig .tc := ⟨.hbm, 345, rfl⟩
abbrev main_v211 : Ref sig .tc := ⟨.hbm, 346, rfl⟩
abbrev main_v212 : Ref sig .tc := ⟨.hbm, 347, rfl⟩
abbrev main_v213 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_call12_cst : Ref sig .tc := ⟨.hbm, 354, rfl⟩
abbrev main_call12_v0 : Ref sig .tc := ⟨.hbm, 355, rfl⟩
abbrev main_v219 : Ref sig .tc := ⟨.hbm, 356, rfl⟩
abbrev main_cst_24 : Ref sig .tc := ⟨.hbm, 357, rfl⟩
abbrev main_v220 : Ref sig .tc := ⟨.hbm, 358, rfl⟩
abbrev main_v221 : Ref sig .tc := ⟨.hbm, 359, rfl⟩
abbrev main_v222 : Ref sig .tc := ⟨.hbm, 360, rfl⟩
abbrev main_cst_25 : Ref sig .tc := ⟨.hbm, 361, rfl⟩
abbrev main_v223 : Ref sig .tc := ⟨.hbm, 362, rfl⟩
abbrev main_v224 : Ref sig .tc := ⟨.hbm, 363, rfl⟩
abbrev main_v225 : Ref sig .tc := ⟨.hbm, 364, rfl⟩
abbrev main_v226 : Ref sig .tc := ⟨.hbm, 365, rfl⟩
abbrev main_v227 : Ref sig .tc := ⟨.hbm, 366, rfl⟩
abbrev main_v228 : Ref sig .tc := ⟨.hbm, 367, rfl⟩
abbrev main_v229 : Ref sig .tc := ⟨.hbm, 368, rfl⟩
abbrev main_v230 : Ref sig .tc := ⟨.hbm, 369, rfl⟩
abbrev main_call13_cst : Ref sig .tc := ⟨.hbm, 370, rfl⟩
abbrev main_call13_v0 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_v235 : Ref sig .tc := ⟨.hbm, 376, rfl⟩
abbrev main_cst_26 : Ref sig .tc := ⟨.hbm, 377, rfl⟩
abbrev main_v236 : Ref sig .tc := ⟨.hbm, 378, rfl⟩
abbrev main_cst_27 : Ref sig .tc := ⟨.hbm, 379, rfl⟩
abbrev main_v237 : Ref sig .tc := ⟨.hbm, 380, rfl⟩
abbrev main_v238 : Ref sig .tc := ⟨.hbm, 381, rfl⟩
abbrev main_c_28 : Ref sig .tc := ⟨.hbm, 382, rfl⟩
abbrev main_call14_cst : Ref sig .tc := ⟨.hbm, 383, rfl⟩
abbrev main_call14_v0 : Ref sig .tc := ⟨.hbm, 384, rfl⟩
abbrev main_call14_v1 : Ref sig .tc := ⟨.hbm, 385, rfl⟩
abbrev main_call14_cst_0 : Ref sig .tc := ⟨.hbm, 386, rfl⟩
abbrev main_call14_v2 : Ref sig .tc := ⟨.hbm, 387, rfl⟩
abbrev main_call14_v3 : Ref sig .tc := ⟨.hbm, 388, rfl⟩
abbrev main_call14_v4 : Ref sig .tc := ⟨.hbm, 389, rfl⟩
abbrev main_call14_v5 : Ref sig .tc := ⟨.hbm, 390, rfl⟩
abbrev main_call14_v6 : Ref sig .tc := ⟨.hbm, 391, rfl⟩
abbrev main_call14_v7 : Ref sig .tc := ⟨.hbm, 392, rfl⟩
abbrev main_call14_cst_1 : Ref sig .tc := ⟨.hbm, 393, rfl⟩
abbrev main_call14_v8 : Ref sig .tc := ⟨.hbm, 394, rfl⟩
abbrev main_call14_cst_2 : Ref sig .tc := ⟨.hbm, 395, rfl⟩
abbrev main_call14_v9 : Ref sig .tc := ⟨.hbm, 396, rfl⟩
abbrev main_call14_v10 : Ref sig .tc := ⟨.hbm, 397, rfl⟩
abbrev main_call14_v11 : Ref sig .tc := ⟨.hbm, 398, rfl⟩
abbrev main_call14_cst_3 : Ref sig .tc := ⟨.hbm, 399, rfl⟩
abbrev main_call14_v12 : Ref sig .tc := ⟨.hbm, 400, rfl⟩
abbrev main_call14_cst_4 : Ref sig .tc := ⟨.hbm, 401, rfl⟩
abbrev main_call14_call0_v0 : Ref sig .tc := ⟨.hbm, 402, rfl⟩
abbrev main_call14_call0_v1 : Ref sig .tc := ⟨.hbm, 403, rfl⟩
abbrev main_v239 : Ref sig .tc := ⟨.hbm, 404, rfl⟩
abbrev main_v240 : Ref sig .tc := ⟨.hbm, 405, rfl⟩
abbrev main_v241 : Ref sig .tc := ⟨.hbm, 406, rfl⟩
abbrev main_v242 : Ref sig .tc := ⟨.hbm, 407, rfl⟩
abbrev main_cst_29 : Ref sig .tc := ⟨.hbm, 408, rfl⟩
abbrev main_v243 : Ref sig .tc := ⟨.hbm, 409, rfl⟩
abbrev main_v244 : Ref sig .tc := ⟨.hbm, 410, rfl⟩
abbrev main_v245 : Ref sig .tc := ⟨.hbm, 411, rfl⟩
abbrev main_v246 : Ref sig .tc := ⟨.hbm, 412, rfl⟩
abbrev main_v247 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_v251 : Ref sig .tc := ⟨.hbm, 417, rfl⟩
abbrev main_v252 : Ref sig .tc := ⟨.hbm, 418, rfl⟩
abbrev main_v253 : Ref sig .tc := ⟨.hbm, 419, rfl⟩
abbrev main_v254 : Ref sig .tc := ⟨.hbm, 420, rfl⟩
abbrev main_call15_cst : Ref sig .tc := ⟨.hbm, 421, rfl⟩
abbrev main_call15_v0 : Ref sig .tc := ⟨.hbm, 422, rfl⟩
abbrev main_v255 : Ref sig .tc := ⟨.hbm, 423, rfl⟩
abbrev main_v256 : Ref sig .tc := ⟨.hbm, 424, rfl⟩
abbrev main_v257 : Ref sig .tc := ⟨.hbm, 425, rfl⟩
abbrev main_v258 : Ref sig .tc := ⟨.hbm, 426, rfl⟩
abbrev main_v259 : Ref sig .tc := ⟨.hbm, 427, rfl⟩
abbrev main_v260 : Ref sig .tc := ⟨.hbm, 428, rfl⟩
abbrev main_v261 : Ref sig .tc := ⟨.hbm, 429, rfl⟩
abbrev main_v262 : Ref sig .tc := ⟨.hbm, 430, rfl⟩
abbrev main_v263 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_v267 : Ref sig .tc := ⟨.hbm, 435, rfl⟩
abbrev main_v268 : Ref sig .tc := ⟨.hbm, 436, rfl⟩
abbrev main_v269 : Ref sig .tc := ⟨.hbm, 437, rfl⟩
abbrev main_v270 : Ref sig .tc := ⟨.hbm, 438, rfl⟩
abbrev main_v271 : Ref sig .tc := ⟨.hbm, 439, rfl⟩
abbrev main_v272 : Ref sig .tc := ⟨.hbm, 440, rfl⟩
abbrev main_v273 : Ref sig .tc := ⟨.hbm, 441, rfl⟩
abbrev main_v274 : Ref sig .tc := ⟨.hbm, 442, rfl⟩
abbrev main_c_30 : Ref sig .tc := ⟨.hbm, 443, rfl⟩
abbrev main_v275 : Ref sig .tc := ⟨.hbm, 444, rfl⟩
abbrev main_v276 : Ref sig .tc := ⟨.hbm, 445, rfl⟩
abbrev main_c_31 : Ref sig .tc := ⟨.hbm, 446, rfl⟩
abbrev main_v277 : Ref sig .tc := ⟨.hbm, 447, rfl⟩
abbrev main_v278 : Ref sig .tc := ⟨.hbm, 448, rfl⟩
abbrev main_v279 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_v283 : Ref sig .tc := ⟨.hbm, 453, rfl⟩
abbrev main_v284 : Ref sig .tc := ⟨.hbm, 454, rfl⟩
abbrev main_v285 : Ref sig .tc := ⟨.hbm, 455, rfl⟩
abbrev main_v286 : Ref sig .tc := ⟨.hbm, 456, rfl⟩
abbrev main_call16_cst : Ref sig .tc := ⟨.hbm, 457, rfl⟩
abbrev main_call16_v0 : Ref sig .tc := ⟨.hbm, 458, rfl⟩
abbrev main_v287 : Ref sig .tc := ⟨.hbm, 459, rfl⟩
abbrev main_cst_32 : Ref sig .tc := ⟨.hbm, 460, rfl⟩
abbrev main_v288 : Ref sig .tc := ⟨.hbm, 461, rfl⟩
abbrev main_v289 : Ref sig .tc := ⟨.hbm, 462, rfl⟩
abbrev main_v290 : Ref sig .tc := ⟨.hbm, 463, rfl⟩
abbrev main_cst_33 : Ref sig .tc := ⟨.hbm, 464, rfl⟩
abbrev main_v291 : Ref sig .tc := ⟨.hbm, 465, rfl⟩
abbrev main_v292 : Ref sig .tc := ⟨.hbm, 466, rfl⟩
abbrev main_v293 : Ref sig .tc := ⟨.hbm, 467, rfl⟩
abbrev main_v294 : Ref sig .tc := ⟨.hbm, 468, rfl⟩
abbrev main_v295 : Ref sig .tc := ⟨.hbm, 469, rfl⟩
abbrev main_v296 : Ref sig .tc := ⟨.hbm, 470, rfl⟩
abbrev main_v297 : Ref sig .tc := ⟨.hbm, 471, rfl⟩
abbrev main_v298 : Ref sig .tc := ⟨.hbm, 472, rfl⟩
abbrev main_call17_cst : Ref sig .tc := ⟨.hbm, 473, rfl⟩
abbrev main_call17_v0 : Ref sig .tc := ⟨.hbm, 474, rfl⟩
abbrev main_v299 : Ref sig .tc := ⟨.hbm, 475, rfl⟩
abbrev main_v300 : Ref sig .tc := ⟨.hbm, 476, rfl⟩
abbrev main_v301 : Ref sig .tc := ⟨.hbm, 477, rfl⟩
abbrev main_v302 : Ref sig .tc := ⟨.hbm, 478, rfl⟩
abbrev main_v303 : Ref sig .tc := ⟨.hbm, 479, rfl⟩
abbrev main_cst_34 : Ref sig .tc := ⟨.hbm, 480, rfl⟩
abbrev main_v304 : Ref sig .tc := ⟨.hbm, 481, rfl⟩
abbrev main_cst_35 : Ref sig .tc := ⟨.hbm, 482, rfl⟩
abbrev main_v305 : Ref sig .tc := ⟨.hbm, 483, rfl⟩
abbrev main_v306 : Ref sig .tc := ⟨.hbm, 484, rfl⟩
abbrev main_c_36 : Ref sig .tc := ⟨.hbm, 485, rfl⟩
abbrev main_call18_cst : Ref sig .tc := ⟨.hbm, 486, rfl⟩
abbrev main_call18_v0 : Ref sig .tc := ⟨.hbm, 487, rfl⟩
abbrev main_call18_v1 : Ref sig .tc := ⟨.hbm, 488, rfl⟩
abbrev main_call18_cst_0 : Ref sig .tc := ⟨.hbm, 489, rfl⟩
abbrev main_call18_v2 : Ref sig .tc := ⟨.hbm, 490, rfl⟩
abbrev main_call18_v3 : Ref sig .tc := ⟨.hbm, 491, rfl⟩
abbrev main_call18_v4 : Ref sig .tc := ⟨.hbm, 492, rfl⟩
abbrev main_call18_v5 : Ref sig .tc := ⟨.hbm, 493, rfl⟩
abbrev main_call18_v6 : Ref sig .tc := ⟨.hbm, 494, rfl⟩
abbrev main_call18_v7 : Ref sig .tc := ⟨.hbm, 495, rfl⟩
abbrev main_call18_cst_1 : Ref sig .tc := ⟨.hbm, 496, rfl⟩
abbrev main_call18_v8 : Ref sig .tc := ⟨.hbm, 497, rfl⟩
abbrev main_call18_cst_2 : Ref sig .tc := ⟨.hbm, 498, rfl⟩
abbrev main_call18_v9 : Ref sig .tc := ⟨.hbm, 499, rfl⟩
abbrev main_call18_v10 : Ref sig .tc := ⟨.hbm, 500, rfl⟩
abbrev main_call18_v11 : Ref sig .tc := ⟨.hbm, 501, rfl⟩
abbrev main_call18_cst_3 : Ref sig .tc := ⟨.hbm, 502, rfl⟩
abbrev main_call18_v12 : Ref sig .tc := ⟨.hbm, 503, rfl⟩
abbrev main_call18_cst_4 : Ref sig .tc := ⟨.hbm, 504, rfl⟩
abbrev main_call18_call0_v0 : Ref sig .tc := ⟨.hbm, 505, rfl⟩
abbrev main_call18_call0_v1 : Ref sig .tc := ⟨.hbm, 506, rfl⟩
abbrev main_v307 : Ref sig .tc := ⟨.hbm, 507, rfl⟩
abbrev main_v308 : Ref sig .tc := ⟨.hbm, 508, rfl⟩
abbrev main_v309 : Ref sig .tc := ⟨.hbm, 509, rfl⟩
abbrev main_v310 : Ref sig .tc := ⟨.hbm, 510, rfl⟩
abbrev main_cst_37 : Ref sig .tc := ⟨.hbm, 511, rfl⟩
abbrev main_v311 : Ref sig .tc := ⟨.hbm, 512, rfl⟩
abbrev main_v312 : Ref sig .tc := ⟨.hbm, 513, rfl⟩
abbrev main_v313 : Ref sig .tc := ⟨.hbm, 514, rfl⟩
abbrev main_v314 : Ref sig .tc := ⟨.hbm, 515, rfl⟩
abbrev main_v315 : Ref sig .tc := ⟨.hbm, 516, rfl⟩
abbrev main_v316 : Ref sig .tc := ⟨.hbm, 517, rfl⟩
abbrev main_v317 : Ref sig .tc := ⟨.hbm, 518, rfl⟩
abbrev main_v318 : Ref sig .tc := ⟨.hbm, 519, rfl⟩
abbrev main_v319 : Ref sig .tc := ⟨.hbm, 520, rfl⟩
abbrev main_v320 : Ref sig .tc := ⟨.hbm, 521, rfl⟩
abbrev main_v321 : Ref sig .tc := ⟨.hbm, 522, rfl⟩
abbrev main_v322 : Ref sig .tc := ⟨.hbm, 523, rfl⟩
abbrev main_call19_cst : Ref sig .tc := ⟨.hbm, 524, rfl⟩
abbrev main_call19_v0 : Ref sig .tc := ⟨.hbm, 525, rfl⟩
abbrev main_v323 : Ref sig .tc := ⟨.hbm, 526, rfl⟩
abbrev main_v324 : Ref sig .tc := ⟨.hbm, 527, rfl⟩
abbrev main_cst_38 : Ref sig .tc := ⟨.hbm, 528, rfl⟩
abbrev main_v325 : Ref sig .tc := ⟨.hbm, 529, rfl⟩
abbrev main_v326 : Ref sig .tc := ⟨.hbm, 530, rfl⟩
abbrev main_v327 : Ref sig .tc := ⟨.hbm, 531, rfl⟩
abbrev main_cst_39 : Ref sig .tc := ⟨.hbm, 532, rfl⟩
abbrev main_v328 : Ref sig .tc := ⟨.hbm, 533, rfl⟩
abbrev main_cst_40 : Ref sig .tc := ⟨.hbm, 534, rfl⟩
abbrev main_v329 : Ref sig .tc := ⟨.hbm, 535, rfl⟩
abbrev main_v330 : Ref sig .tc := ⟨.hbm, 536, rfl⟩
abbrev main_v331 : Ref sig .tc := ⟨.hbm, 537, rfl⟩
abbrev main_cst_41 : Ref sig .tc := ⟨.hbm, 538, rfl⟩
abbrev main_v332 : Ref sig .tc := ⟨.hbm, 539, rfl⟩
abbrev main_v333 : Ref sig .tc := ⟨.hbm, 540, rfl⟩
abbrev main_v334 : Ref sig .tc := ⟨.hbm, 541, rfl⟩
abbrev main_v335 : Ref sig .tc := ⟨.hbm, 542, rfl⟩
abbrev main_v336 : Ref sig .tc := ⟨.hbm, 543, rfl⟩
abbrev main_v337 : Ref sig .tc := ⟨.hbm, 544, rfl⟩
abbrev main_v338 : Ref sig .tc := ⟨.hbm, 545, rfl⟩
abbrev main_v339 : Ref sig .tc := ⟨.hbm, 546, rfl⟩
abbrev main_v340 : Ref sig .tc := ⟨.hbm, 547, rfl⟩
abbrev main_call20_cst : Ref sig .tc := ⟨.hbm, 548, rfl⟩
abbrev main_call20_v0 : Ref sig .tc := ⟨.hbm, 549, rfl⟩
abbrev main_v341 : Ref sig .tc := ⟨.hbm, 550, rfl⟩
abbrev main_v342 : Ref sig .tc := ⟨.hbm, 551, rfl⟩
abbrev main_v343 : Ref sig .tc := ⟨.hbm, 552, rfl⟩
abbrev main_v344 : Ref sig .tc := ⟨.hbm, 553, rfl⟩
abbrev main_v345 : Ref sig .tc := ⟨.hbm, 554, rfl⟩
abbrev main_call21_cst : Ref sig .tc := ⟨.hbm, 555, rfl⟩
abbrev main_call21_v0 : Ref sig .tc := ⟨.hbm, 556, rfl⟩
abbrev main_v346 : Ref sig .tc := ⟨.hbm, 557, rfl⟩
abbrev main_v347 : Ref sig .tc := ⟨.hbm, 558, rfl⟩
abbrev main_v348 : Ref sig .tc := ⟨.hbm, 559, rfl⟩
abbrev main_v349 : Ref sig .tc := ⟨.hbm, 560, rfl⟩
abbrev main_v350 : Ref sig .tc := ⟨.hbm, 561, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S11_S1x11_1 : S11.BroadcastsInDim S1x11 (![1] : Fin 1 → Fin S1x11.rank)
  bcast_S1x11_S600000x11_0_1 : S1x11.BroadcastsInDim S600000x11 (![0, 1] : Fin 2 → Fin S600000x11.rank)
  bcast_S_S600000x11 : S_.BroadcastsInDim S600000x11 (![] : Fin 0 → Fin S600000x11.rank)
  bcast_S_S100000x11 : S_.BroadcastsInDim S100000x11 (![] : Fin 0 → Fin S100000x11.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x3x128_S1x3x128_0_0_0 : S4x3x128.Slices ![0, 0, 0] S1x3x128
  shapeCasts_S1x3x128_S3x128 : S1x3x128.ShapeCasts S3x128
  slices_S4x128_S1x128_0_0 : S4x128.Slices ![0, 0] S1x128
  shapeCasts_S1x128_S128 : S1x128.ShapeCasts S128
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  slices_S4x3x128_S1x3x128_1_0_0 : S4x3x128.Slices ![1, 0, 0] S1x3x128
  slices_S4x128_S1x128_1_0 : S4x128.Slices ![1, 0] S1x128
  slices_S4_S1_1 : S4.Slices ![1] S1
  slices_S4x128x128_S1x128x128_1_0_0 : S4x128x128.Slices ![1, 0, 0] S1x128x128
  slices_S4x3x128_S1x3x128_2_0_0 : S4x3x128.Slices ![2, 0, 0] S1x3x128
  slices_S4x128_S1x128_2_0 : S4x128.Slices ![2, 0] S1x128
  slices_S4_S1_2 : S4.Slices ![2] S1
  slices_S4x128x128_S1x128x128_2_0_0 : S4x128x128.Slices ![2, 0, 0] S1x128x128
  slices_S4x3x128_S1x3x128_3_0_0 : S4x3x128.Slices ![3, 0, 0] S1x3x128
  slices_S4x128_S1x128_3_0 : S4x128.Slices ![3, 0] S1x128
  slices_S4_S1_3 : S4.Slices ![3] S1
  slices_S4x128x128_S1x128x128_3_0_0 : S4x128x128.Slices ![3, 0, 0] S1x128x128
  bcast_S_S5000x128 : S_.BroadcastsInDim S5000x128 (![] : Fin 0 → Fin S5000x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  gather_S100000x11_S600000x1_S600000x11_1_0_n_n_0_1_111_wf : GatherDims.WF S100000x11 S600000x1 S600000x11 [1] [0] [] [0] [] 1 ![1, 11]
  dot_S600000x3_S3x11_S600000x11_1_0_0_1_n_n_wf : DotDims.WF S600000x3 S3x11 S600000x11 [1] [0] [0] [1] [] []
  scatter_S100000x11_S600000x1_S600000x11_1_0_0_1_wf : ScatterDims.WF S100000x11 S600000x1 S600000x11 [1] [0] [0] 1
  dot_S100000x11_S11x128_S100000x128_1_0_0_1_n_n_wf : DotDims.WF S100000x11 S11x128 S100000x128 [1] [0] [0] [1] [] []
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  dot_S600000x3_S3x128_S600000x128_1_0_0_1_n_n_wf : DotDims.WF S600000x3 S3x128 S600000x128 [1] [0] [0] [1] [] []
  scatter_S100000x128_S600000x1_S600000x128_1_0_0_1_wf : ScatterDims.WF S100000x128 S600000x1 S600000x128 [1] [0] [0] 1
  scatter_S5000x128_S100000x1_S100000x128_1_0_0_1_wf : ScatterDims.WF S5000x128 S100000x1 S100000x128 [1] [0] [0] 1
  scatter_S5000_S100000x1_S100000_n_0_0_1_wf : ScatterDims.WF S5000 S100000x1 S100000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []

variable [Facts₀]

def gather_S100000x11_S600000x1_S600000x11_1_0_n_n_0_1_111 : GatherDims S100000x11 S600000x1 S600000x11 where
  offsetDims := [1]
  collapsedSliceDims := [0]
  operandBatchingDims := []
  startIndicesBatchingDims := []
  startIndexMap := [0]
  indexVectorDim := 1
  sliceSizes := ![1, 11]
  wf := gather_S100000x11_S600000x1_S600000x11_1_0_n_n_0_1_111_wf
def dot_S600000x3_S3x11_S600000x11_1_0_0_1_n_n : DotDims S600000x3 S3x11 S600000x11 where
  lhsContracting := [1]
  rhsContracting := [0]
  lhsNonContracting := [0]
  rhsNonContracting := [1]
  lhsBatch := []
  rhsBatch := []
  wf := dot_S600000x3_S3x11_S600000x11_1_0_0_1_n_n_wf
def scatter_S100000x11_S600000x1_S600000x11_1_0_0_1 : ScatterDims S100000x11 S600000x1 S600000x11 where
  updateWindowDims := [1]
  insertedWindowDims := [0]
  scatterDimsToOperandDims := [0]
  indexVectorDim := 1
  wf := scatter_S100000x11_S600000x1_S600000x11_1_0_0_1_wf
def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x3_S3x128_S600000x128_1_0_0_1_n_n : DotDims S600000x3 S3x128 S600000x128 where
  lhsContracting := [1]
  rhsContracting := [0]
  lhsNonContracting := [0]
  rhsNonContracting := [1]
  lhsBatch := []
  rhsBatch := []
  wf := dot_S600000x3_S3x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S5000x128_S100000x1_S100000x128_1_0_0_1 : ScatterDims S5000x128 S100000x1 S100000x128 where
  updateWindowDims := [1]
  insertedWindowDims := [0]
  scatterDimsToOperandDims := [0]
  indexVectorDim := 1
  wf := scatter_S5000x128_S100000x1_S100000x128_1_0_0_1_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

class Facts : Prop extends Facts₀ where

variable [Facts]
-- ==== Proof.KerRun.lean ====
/-
  The idealised kernel program's run with its result named: every weakly fair execution terminates, faults nowhere,
  leaves the arguments as launched, and leaves the result buffer at the last boundary's contents `W32` — the fold, from
  the launch memory, of each host stretch's operations and of each region's write-backs.
-/
import proofs.«162690_j78211354460181_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v216) = W32 m ρ c (Proc.devRef .tc main_v216)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h c =>
      ⟨h c _ (mem_uc main_v216 (by decide)),
       (h c _ (mem_uc main_arg0 (by decide))).trans (W32_main_arg0 m ρ c),
       (h c _ (mem_uc main_arg1 (by decide))).trans (W32_main_arg1 m ρ c),
       (h c _ (mem_uc main_arg2 (by decide))).trans (W32_main_arg2 m ρ c),
       (h c _ (mem_uc main_arg3 (by decide))).trans (W32_main_arg3 m ρ c),
       (h c _ (mem_uc main_arg4 (by decide))).trans (W32_main_arg4 m ρ c),
       (h c _ (mem_uc main_arg5 (by decide))).trans (W32_main_arg5 m ρ c),
       (h c _ (mem_uc main_arg6 (by decide))).trans (W32_main_arg6 m ρ c),
       (h c _ (mem_uc main_arg7 (by decide))).trans (W32_main_arg7 m ρ c),
       (h c _ (mem_uc main_arg8 (by decide))).trans (W32_main_arg8 m ρ c),
       (h c _ (mem_uc main_arg9 (by decide))).trans (W32_main_arg9 m ρ c),
       (h c _ (mem_uc main_arg10 (by decide))).trans (W32_main_arg10 m ρ c),
       (h c _ (mem_uc main_arg11 (by decide))).trans (W32_main_arg11 m ρ c),
       (h c _ (mem_uc main_arg12 (by decide))).trans (W32_main_arg12 m ρ c),
       (h c _ (mem_uc main_arg13 (by decide))).trans (W32_main_arg13 m ρ c),
       (h c _ (mem_uc main_arg14 (by decide))).trans (W32_main_arg14 m ρ c),
       (h c _ (mem_uc main_arg15 (by decide))).trans (W32_main_arg15 m ρ c),
       (h c _ (mem_uc main_arg16 (by decide))).trans (W32_main_arg16 m ρ c),
       (h c _ (mem_uc main_arg17 (by decide))).trans (W32_main_arg17 m ρ c),
       (h c _ (mem_uc main_arg18 (by decide))).trans (W32_main_arg18 m ρ c),
       (h c _ (mem_uc main_arg19 (by decide))).trans (W32_main_arg19 m ρ c),
       (h c _ (mem_uc main_arg20 (by decide))).trans (W32_main_arg20 m ρ c),
       (h c _ (mem_uc main_arg21 (by decide))).trans (W32_main_arg21 m ρ c),
       (h c _ (mem_uc main_arg22 (by decide))).trans (W32_main_arg22 m ρ c),
       (h c _ (mem_uc main_arg23 (by decide))).trans (W32_main_arg23 m ρ c),
       (h c _ (mem_uc main_arg24 (by decide))).trans (W32_main_arg24 m ρ c),
       (h c _ (mem_uc main_arg25 (by decide))).trans (W32_main_arg25 m ρ c),
       (h c _ (mem_uc main_arg26 (by decide))).trans (W32_main_arg26 m ρ c),
       (h c _ (mem_uc main_arg27 (by decide))).trans (W32_main_arg27 m ρ c)⟩)

end Cert.KernelIdeal.KerRun

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Reg0.lean ====
/-
  Region 0: the edge message of layer 0. Point `t` of the grid (100 points) holds rows 6000·t … 6000·t + 5999 of the
  gathered node features `xj` [600000, 11] and of `edge_attr` [600000, 3], all of `e_w` [3, 11] and of the bias row
  [1, 11], and stores rows 6000·t … of the result. Entry (e, j) of what it stores is
      max (xj[e, j] + Σ_k edge_attr[e, k] · e_w[k, j] + e_b[0, j]) 0,
  which depends on row e of the inputs only; so the result array is that function of the four arrays, row by row
  (`final`), whatever the region finds in them.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg0

open Cert.KernelIdeal Cert.KernelIdeal.Gen

variable (V : (c : Dev nD) → (b : Ref sig .tc) → Buf (Elt Ideal) ((c : Thread nD τ).loc b))

/-- The message array as a function of the gathered features, the edge attributes, the edge weights and the bias row. -/
def out4 (xj : S600000x11.Idx → EReal) (ea : S600000x3.Idx → EReal) (ew : S3x11.Idx → EReal) (eb : S1x11.Idx → EReal) :
    S600000x11.Idx → EReal := fun i =>
  max (xj (ix2 (i 0 : Fin 600000) (i 1 : Fin 11))
        + (∑ k : Fin 3, ea (ix2 (i 0 : Fin 600000) k) * ew (ix2 k (i 1 : Fin 11)))
        + eb (ix2 (0 : Fin 1) (i 1 : Fin 11)))
      (Ideal.ofBits .f32 0x00000000#32)

theorem hz : (![0, 0] : Fin 2 → Nat) = fun _ => 0 := funext fun a => by fin_cases a <;> rfl

theorem plain_6000_3_11 : Cert.LibDot.Plain dot_S6000x3_S3x11_S6000x11_1_0_0_1_n_n :=
  ⟨rfl, rfl, fun _ _ => rfl, fun j k => DotDims.lhsIdx_val_of_single _ rfl j k, fun j k => DotDims.rhsIdx_val_of_single _ rfl j k, fun _ _ => rfl⟩

/-- The body's stored value at row `p` and column `q` of the block, from the four loaded blocks. -/
theorem pay_apply (x0 : Vec Ideal S6000x11 .f32) (x1 : Vec Ideal S6000x3 .f32) (x2 : Vec Ideal S3x11 .f32)
    (x3 : Vec Ideal S1x11 .f32) (p : Fin 6000) (q : Fin 11) :
    k0_pay1 x0 x1 x2 x3 (ix2 p q)
      = max (x0 (ix2 p q) + (∑ k : Fin 3, x1 (ix2 p k) * x2 (ix2 k q)) + x3 (ix2 (0 : Fin 1) q))
          (Ideal.ofBits .f32 0x00000000#32) := by
  unfold k0_pay1
  simp only [shapeCast_self]
  rw [maximumf_apply, addf_apply, addf_apply, Cert.LibDot.matmul_ix2 plain_6000_3_11, broadcastTo_1b_ab_apply, broadcast_apply]
  refine congrArg (fun z => max (_ + z + _) _) (Finset.sum_congr rfl fun k _ => ?_)
  rw [truncf_apply, truncf_apply]

/-- Where each window's block sits at point `t`: the row windows at block `t`, the weights and the bias at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row 6000·t + p of the array. -/
def row (t : Fin cfg0.N) (p : Fin 6000) : Fin 600000 :=
  ⟨6000 * t.val + p.val, by have h : t.val < 100 := lt_of_lt_of_eq t.isLt N_0; have := p.isLt; omega⟩

theorem rd0 (c : Dev nD) (t : Fin cfg0.N) (p : Fin 6000) (q : Fin 11) :
    (iblk0 V c 0 t : Vec Ideal S6000x11 .f32) (ix2 p q) = (V c main_v10 : S600000x11.Idx → EReal) (ix2 (row t p) q) := by
  obtain ⟨e0, e1, -⟩ := idx_facts t
  unfold iblk0
  rw [View.read_apply]
  show V c main_v10 _ = V c main_v10 _
  refine congrArg _ (funext fun a => Fin.ext ?_)
  match a with
  | ⟨0, _⟩ => show win0_0.index t (0 : Fin 2) * 6000 + 1 * p.val = 6000 * t.val + p.val; rw [e0]; omega
  | ⟨1, _⟩ => show win0_0.index t (1 : Fin 2) * 11 + 1 * q.val = q.val; rw [e1]; omega

theorem rd1 (c : Dev nD) (t : Fin cfg0.N) (p : Fin 6000) (k : Fin 3) :
    (iblk0 V c 1 t : Vec Ideal S6000x3 .f32) (ix2 p k) = (V c main_arg1 : S600000x3.Idx → EReal) (ix2 (row t p) k) := by
  obtain ⟨-, -, e0, e1, -⟩ := idx_facts t
  unfold iblk0
  rw [View.read_apply]
  show V c main_arg1 _ = V c main_arg1 _
  refine congrArg _ (funext fun a => Fin.ext ?_)
  match a with
  | ⟨0, _⟩ => show win0_1.index t (0 : Fin 2) * 6000 + 1 * p.val = 6000 * t.val + p.val; rw [e0]; omega
  | ⟨1, _⟩ => show win0_1.index t (1 : Fin 2) * 3 + 1 * k.val = k.val; rw [e1]; omega

theorem rd2 (c : Dev nD) (t : Fin cfg0.N) (k : Fin 3) (q : Fin 11) :
    (iblk0 V c 2 t : Vec Ideal S3x11 .f32) (ix2 k q) = (V c main_arg2 : S3x11.Idx → EReal) (ix2 k q) := by
  obtain ⟨-, -, -, -, e0, e1, -⟩ := idx_facts t
  unfold iblk0
  rw [View.read_apply]
  show V c main_arg2 _ = V c main_arg2 _
  refine congrArg _ (funext fun a => Fin.ext ?_)
  match a with
  | ⟨0, _⟩ => show win0_2.index t (0 : Fin 2) * 3 + 1 * k.val = k.val; rw [e0]; omega
  | ⟨1, _⟩ => show win0_2.index t (1 : Fin 2) * 11 + 1 * q.val = q.val; rw [e1]; omega

theorem rd3 (c : Dev nD) (t : Fin cfg0.N) (q : Fin 11) :
    (iblk0 V c 3 t : Vec Ideal S1x11 .f32) (ix2 (0 : Fin 1) q) = (V c main_v11 : S1x11.Idx → EReal) (ix2 (0 : Fin 1) q) := by
  obtain ⟨-, -, -, -, -, -, e0, e1, -⟩ := idx_facts t
  unfold iblk0
  rw [View.read_apply]
  show V c main_v11 _ = V c main_v11 _
  refine congrArg _ (funext fun a => Fin.ext ?_)
  match a with
  | ⟨0, _⟩ => show win0_3.index t (0 : Fin 2) * 1 + 1 * (0 : Fin 1).val = (0 : Fin 1).val; rw [e0]; rfl
  | ⟨1, _⟩ => show win0_3.index t (1 : Fin 2) * 11 + 1 * q.val = q.val; rw [e1]; omega

/-- The output block's entry (p, q) at point `t` is entry (6000·t + p, q) of the array. -/
theorem emb4 (t : Fin cfg0.N) (p : Fin 6000) (q : Fin 11) :
    ((cfg0.win 4).blk t).view.emb (ix2 p q) = (ix2 (row t p) q : S600000x11.Idx) := by
  obtain ⟨-, -, -, -, -, -, -, -, e0, e1⟩ := idx_facts t
  refine funext fun a => Fin.ext ?_
  match a with
  | ⟨0, _⟩ => show win0_4.index t (0 : Fin 2) * 6000 + 1 * p.val = 6000 * t.val + p.val; rw [e0]; omega
  | ⟨1, _⟩ => show win0_4.index t (1 : Fin 2) * 11 + 1 * q.val = q.val; rw [e1]; omega

/-- What point `t` writes back is block `t` of the message array of the four arrays as the region finds them. -/
theorem flushed_eq (c : Dev nD) (t : Fin cfg0.N) :
    (dat0 V c).flushed 4 t = ((cfg0.win 4).blk t).view.read (Elt Ideal)
      (out4 (V c main_v10) (V c main_arg1) (V c main_arg2) (V c main_v11)) := by
  show (cfg0.win 4).cut (grid0.coords t) ((dat0 V c).after 4 t) = _
  rw [after0_4]
  unfold out0_4
  rw [View.canon_unit_zero hz]
  simp only [View.ld_unit_zero (S := S6000x11) hz, View.ld_unit_zero (S := S6000x3) hz, View.ld_unit_zero (S := S3x11) hz,
    View.ld_unit_zero (S := S1x11) hz]
  funext j
  obtain ⟨p, q, rfl⟩ : ∃ (p : Fin 6000) (q : Fin 11), j = ix2 p q := ⟨j 0, j 1, eq_ix2 j⟩
  show k0_pay1 (iblk0 V c 0 t) (iblk0 V c 1 t) (iblk0 V c 2 t) (iblk0 V c 3 t) (ix2 p q)
    = out4 (V c main_v10) (V c main_arg1) (V c main_arg2) (V c main_v11) (((cfg0.win 4).blk t).view.emb (ix2 p q))
  rw [emb4, pay_apply]
  simp only [rd0, rd1, rd2, rd3]
  rfl

/-- Every row of the array lies in the block of the point that is its quotient by 6000. -/
theorem cover (i : S600000x11.Idx) : ∃ t : Fin cfg0.N, (cfg0.win 4).flush t = true ∧ i ∈ ((cfg0.win 4).blk t).view.set := by
  have hi0 : (i 0).val < 600000 := (i 0).isLt
  have hi1 : (i 1).val < 11 := (i 1).isLt
  let t : Fin cfg0.N := ⟨(i 0).val / 6000, by rw [show cfg0.N = 100 from N_0]; omega⟩
  obtain ⟨-, -, -, -, -, -, -, -, e0, e1⟩ := idx_facts t
  refine ⟨t, flush0_4 t, ?_⟩
  show i ∈ ((View.whole main_v12).slice (win0_4.rect t)).set
  rw [View.set_slice_whole, Rect.mem_set_unit]
  intro a
  match a with
  | ⟨0, _⟩ =>
    show win0_4.index t (0 : Fin 2) * 6000 ≤ (i 0).val ∧ (i 0).val < win0_4.index t (0 : Fin 2) * 6000 + 6000
    rw [e0]; show (i 0).val / 6000 * 6000 ≤ (i 0).val ∧ (i 0).val < (i 0).val / 6000 * 6000 + 6000; omega
  | ⟨1, _⟩ =>
    show win0_4.index t (1 : Fin 2) * 11 ≤ (i 1).val ∧ (i 1).val < win0_4.index t (1 : Fin 2) * 11 + 11
    rw [e1]; omega

/-- The region's result array is the message array of its four input arrays. -/
theorem final4 (c : Dev nD) :
    (dat0 V c).arrAt 4 cfg0.N = out4 (V c main_v10) (V c main_arg1) (V c main_arg2) (V c main_v11) :=
  (dat0 V c).arrAt_eq_of_cover 4 _ (fun t _ => flushed_eq V c t) cover

end Cert.KernelIdeal.Reg0

end
-- ==== Proof.Reg1.lean ====
/-
  Region 1: the node MLP of a layer and the running column sums. Point `t` of the grid (25 points) holds rows
  4000·t … 4000·t + 3999 of the layer's input [100000, 11] and of the aggregated messages, the scalar eps [1, 1] and the two
  weight matrices and bias rows, and stores rows 4000·t … of
      h2[r, j] = Σ_k max (Σ_l ((1 + eps) · x[r, l] + agg[r, l]) · w1[l, k] + b1[0, k]) 0 · w2[k, j] + b2[0, j];
  two further results [1, 128] are carried from point to point: zeroed at point 0, then at every point the block's column
  sums of h2, and of h2 squared, are added; they are written back once, after the last point. So the first result is h2
  row by row (`final7`), and the other two are the column sums over all 100000 rows of h2 and of its square
  (`final8`, `final9`): after point n the carried sum is the sum over rows 0 … 4000·(n + 1) − 1, by induction on n.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Reg1

open Cert.KernelIdeal Cert.KernelIdeal.Gen Cert.LibDot

theorem hz : (![0, 0] : Fin 2 → Nat) = fun _ => 0 := funext fun a => by fin_cases a <;> rfl

/-! ## What each control case leaves in each output's staging buffer -/

section Pieces
variable {F : FTy → Type} [FloatOps F]

theorem outA7 (c : Dev nD) (i : grid1.Coords) (arg1 : Memref sig .tc .vmem S4000x11 .f32) (harg1 : arg1.IsWhole) (arg2 : Memref sig .tc .vmem S4000x11 .f32) (harg2 : arg2.IsWhole) (arg3 : Memref sig .tc .vmem S1x1 .f32) (harg3 : arg3.IsWhole) (arg4 : Memref sig .tc .vmem S11x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond1_0 i) (x0 : Vec F S4000x11 .f32) (x1 : Vec F S4000x11 .f32) (x2 : Vec F S1x1 .f32) (x3 : Vec F S11x128 .f32) (x4 : Vec F S1x128 .f32) (x5 : Vec F S128x128 .f32) (x6 : Vec F S1x128 .f32) :
    out1_A_7 (F := F) c i arg1 harg1 arg2 harg2 arg3 harg3 arg4 harg4 arg5 harg5 arg6 harg6 arg7 harg7 arg8 harg8 arg9 harg9 arg10 harg10 hc0 x0 x1 x2 x3 x4 x5 x6 = k1_pay5 x0 x1 x2 x3 x4 x5 x6 := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x11) hz, View.ld_unit_zero (S := S1x1) hz, View.ld_unit_zero (S := S11x128) hz, View.ld_unit_zero (S := S1x128) hz, View.ld_unit_zero (S := S128x128) hz]

theorem outA8 (c : Dev nD) (i : grid1.Coords) (arg1 : Memref sig .tc .vmem S4000x11 .f32) (harg1 : arg1.IsWhole) (arg2 : Memref sig .tc .vmem S4000x11 .f32) (harg2 : arg2.IsWhole) (arg3 : Memref sig .tc .vmem S1x1 .f32) (harg3 : arg3.IsWhole) (arg4 : Memref sig .tc .vmem S11x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond1_0 i) (x0 : Vec F S4000x11 .f32) (x1 : Vec F S4000x11 .f32) (x2 : Vec F S1x1 .f32) (x3 : Vec F S11x128 .f32) (x4 : Vec F S1x128 .f32) (x5 : Vec F S128x128 .f32) (x6 : Vec F S1x128 .f32) :
    out1_A_8 (F := F) c i arg1 harg1 arg2 harg2 arg3 harg3 arg4 harg4 arg5 harg5 arg6 harg6 arg7 harg7 arg8 harg8 arg9 harg9 arg10 harg10 hc0 x0 x1 x2 x3 x4 x5 x6 = k1_pay1 (k1_pay5 x0 x1 x2 x3 x4 x5 x6) k1_pay3 := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x11) hz, View.ld_unit_zero (S := S1x1) hz, View.ld_unit_zero (S := S11x128) hz, View.ld_unit_zero (S := S1x128) hz, View.ld_unit_zero (S := S128x128) hz]

theorem outA9 (c : Dev nD) (i : grid1.Coords) (arg1 : Memref sig .tc .vmem S4000x11 .f32) (harg1 : arg1.IsWhole) (arg2 : Memref sig .tc .vmem S4000x11 .f32) (harg2 : arg2.IsWhole) (arg3 : Memref sig .tc .vmem S1x1 .f32) (harg3 : arg3.IsWhole) (arg4 : Memref sig .tc .vmem S11x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond1_0 i) (x0 : Vec F S4000x11 .f32) (x1 : Vec F S4000x11 .f32) (x2 : Vec F S1x1 .f32) (x3 : Vec F S11x128 .f32) (x4 : Vec F S1x128 .f32) (x5 : Vec F S128x128 .f32) (x6 : Vec F S1x128 .f32) :
    out1_A_9 (F := F) c i arg1 harg1 arg2 harg2 arg3 harg3 arg4 harg4 arg5 harg5 arg6 harg6 arg7 harg7 arg8 harg8 arg9 harg9 arg10 harg10 hc0 x0 x1 x2 x3 x4 x5 x6 = k1_pay2 (k1_pay5 x0 x1 x2 x3 x4 x5 x6) k1_pay4 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 x0 x1 x2 x3 x4 x5 x6)]
  unfold kernelRun1_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x11) hz, View.ld_unit_zero (S := S1x1) hz, View.ld_unit_zero (S := S11x128) hz, View.ld_unit_zero (S := S1x128) hz, View.ld_unit_zero (S := S128x128) hz]

theorem outB7 (c : Dev nD) (i : grid1.Coords) (arg1 : Memref sig .tc .vmem S4000x11 .f32) (harg1 : arg1.IsWhole) (arg2 : Memref sig .tc .vmem S4000x11 .f32) (harg2 : arg2.IsWhole) (arg3 : Memref sig .tc .vmem S1x1 .f32) (harg3 : arg3.IsWhole) (arg4 : Memref sig .tc .vmem S11x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (x0 : Vec F S4000x11 .f32) (x1 : Vec F S4000x11 .f32) (x2 : Vec F S1x1 .f32) (x3 : Vec F S11x128 .f32) (x4 : Vec F S1x128 .f32) (x5 : Vec F S128x128 .f32) (x6 : Vec F S1x128 .f32) (xo8 : Vec F S1x128 .f32) (xo9 : Vec F S1x128 .f32) :
    out1_B_7 (F := F) c i arg1 harg1 arg2 harg2 arg3 harg3 arg4 harg4 arg5 harg5 arg6 harg6 arg7 harg7 arg8 harg8 arg9 harg9 arg10 harg10 hc0 x0 x1 x2 x3 x4 x5 x6 xo8 xo9 = k1_pay5 x0 x1 x2 x3 x4 x5 x6 := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x11) hz, View.ld_unit_zero (S := S1x1) hz, View.ld_unit_zero (S := S11x128) hz, View.ld_unit_zero (S := S1x128) hz, View.ld_unit_zero (S := S128x128) hz]

theorem outB8 (c : Dev nD) (i : grid1.Coords) (arg1 : Memref sig .tc .vmem S4000x11 .f32) (harg1 : arg1.IsWhole) (arg2 : Memref sig .tc .vmem S4000x11 .f32) (harg2 : arg2.IsWhole) (arg3 : Memref sig .tc .vmem S1x1 .f32) (harg3 : arg3.IsWhole) (arg4 : Memref sig .tc .vmem S11x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (x0 : Vec F S4000x11 .f32) (x1 : Vec F S4000x11 .f32) (x2 : Vec F S1x1 .f32) (x3 : Vec F S11x128 .f32) (x4 : Vec F S1x128 .f32) (x5 : Vec F S128x128 .f32) (x6 : Vec F S1x128 .f32) (xo8 : Vec F S1x128 .f32) (xo9 : Vec F S1x128 .f32) :
    out1_B_8 (F := F) c i arg1 harg1 arg2 harg2 arg3 harg3 arg4 harg4 arg5 harg5 arg6 harg6 arg7 harg7 arg8 harg8 arg9 harg9 arg10 harg10 hc0 x0 x1 x2 x3 x4 x5 x6 xo8 xo9 = k1_pay1 (k1_pay5 x0 x1 x2 x3 x4 x5 x6) xo8 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x11) hz, View.ld_unit_zero (S := S1x1) hz, View.ld_unit_zero (S := S11x128) hz, View.ld_unit_zero (S := S1x128) hz, View.ld_unit_zero (S := S128x128) hz]

theorem outB9 (c : Dev nD) (i : grid1.Coords) (arg1 : Memref sig .tc .vmem S4000x11 .f32) (harg1 : arg1.IsWhole) (arg2 : Memref sig .tc .vmem S4000x11 .f32) (harg2 : arg2.IsWhole) (arg3 : Memref sig .tc .vmem S1x1 .f32) (harg3 : arg3.IsWhole) (arg4 : Memref sig .tc .vmem S11x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond1_0 i) (x0 : Vec F S4000x11 .f32) (x1 : Vec F S4000x11 .f32) (x2 : Vec F S1x1 .f32) (x3 : Vec F S11x128 .f32) (x4 : Vec F S1x128 .f32) (x5 : Vec F S128x128 .f32) (x6 : Vec F S1x128 .f32) (xo8 : Vec F S1x128 .f32) (xo9 : Vec F S1x128 .f32) :
    out1_B_9 (F := F) c i arg1 harg1 arg2 harg2 arg3 harg3 arg4 harg4 arg5 harg5 arg6 harg6 arg7 harg7 arg8 harg8 arg9 harg9 arg10 harg10 hc0 x0 x1 x2 x3 x4 x5 x6 xo8 xo9 = k1_pay2 (k1_pay5 x0 x1 x2 x3 x4 x5 x6) xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun1_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x11) hz, View.ld_unit_zero (S := S1x1) hz, View.ld_unit_zero (S := S11x128) hz, View.ld_unit_zero (S := S1x128) hz, View.ld_unit_zero (S := S128x128) hz]

end Pieces

/-! ## The payloads at an entry -/

theorem plain_1 : Plain dot_S4000x11_S11x128_S4000x128_1_0_0_1_n_n :=
  ⟨rfl, rfl, fun _ _ => rfl, fun j k => DotDims.lhsIdx_val_of_single _ rfl j k, fun j k => DotDims.rhsIdx_val_of_single _ rfl j k, fun _ _ => rfl⟩
theorem plain_2 : Plain dot_S4000x128_S128x128_S4000x128_1_0_0_1_n_n :=
  ⟨rfl, rfl, fun _ _ => rfl, fun j k => DotDims.lhsIdx_val_of_single _ rfl j k, fun j k => DotDims.rhsIdx_val_of_single _ rfl j k, fun _ _ => rfl⟩

/-- A [1,1] block broadcast over [a,b] reads its one entry. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the block's MLP output. -/
theorem pay5_apply (x agg : Vec Ideal S4000x11 .f32) (eps : Vec Ideal S1x1 .f32) (w1 : Vec Ideal S11x128 .f32)
    (b1 : Vec Ideal S1x128 .f32) (w2 : Vec Ideal S128x128 .f32) (b2 : Vec Ideal S1x128 .f32) (p : Fin 4000) (q : Fin 128) :
    k1_pay5 x agg eps w1 b1 w2 b2 (ix2 p q)
      = (∑ k : Fin 128,
          max ((∑ l : Fin 11, ((Ideal.ofBits .f32 0x3F800000#32 + eps (ix2 (0 : Fin 1) (0 : Fin 1))) * x (ix2 p l) + agg (ix2 p l)) * w1 (ix2 l k))
                + b1 (ix2 (0 : Fin 1) k)) (Ideal.ofBits .f32 0x00000000#32) * w2 (ix2 k q))
        + b2 (ix2 (0 : Fin 1) q) := by
  unfold k1_pay5
  simp only [shapeCast_self]
  rw [addf_apply, matmul_ix2 plain_2, broadcastTo_1b_ab_apply]
  refine congrArg (· + _) (Finset.sum_congr rfl fun k _ => ?_)
  rw [truncf_apply, truncf_apply, maximumf_apply, addf_apply, matmul_ix2 plain_1, broadcastTo_1b_ab_apply, broadcast_apply]
  refine congrArg (fun z => max (z + _) _ * _) (Finset.sum_congr rfl fun l _ => ?_)
  rw [truncf_apply, truncf_apply, addf_apply, mulf_apply, broadcastTo_11_ab_apply, addf_apply, broadcast_apply]
  rfl

/-! ## The results as functions of the region's input arrays -/

section Values

variable (V : (c : Dev nD) → (b : Ref sig .tc) → Buf (Elt Ideal) ((c : Thread nD τ).loc b))

/-- Row `r`, column `j` of the MLP output, from the whole input arrays. -/
def h2 (x agg : S100000x11.Idx → EReal) (eps : S1x1.Idx → EReal) (w1 : S11x128.Idx → EReal) (b1 : S1x128.Idx → EReal)
    (w2 : S128x128.Idx → EReal) (b2 : S1x128.Idx → EReal) (r : Fin 100000) (j : Fin 128) : EReal :=
  (∑ k : Fin 128,
      max ((∑ l : Fin 11, ((Ideal.ofBits .f32 0x3F800000#32 + eps (ix2 (0 : Fin 1) (0 : Fin 1))) * x (ix2 r l) + agg (ix2 r l)) * w1 (ix2 l k))
            + b1 (ix2 (0 : Fin 1) k)) (Ideal.ofBits .f32 0x00000000#32) * w2 (ix2 k j))
    + b2 (ix2 (0 : Fin 1) j)

/-- The MLP output array. -/
def out7 (x agg : S100000x11.Idx → EReal) (eps : S1x1.Idx → EReal) (w1 : S11x128.Idx → EReal) (b1 : S1x128.Idx → EReal)
    (w2 : S128x128.Idx → EReal) (b2 : S1x128.Idx → EReal) : S100000x128.Idx → EReal :=
  fun i => h2 x agg eps w1 b1 w2 b2 (i 0 : Fin 100000) (i 1 : Fin 128)

/-- The column sums of the MLP output. -/
def out8 (x agg : S100000x11.Idx → EReal) (eps : S1x1.Idx → EReal) (w1 : S11x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128)

/-- The column sums of its squares. -/
def out9 (x agg : S100000x11.Idx → EReal) (eps : S1x1.Idx → EReal) (w1 : S11x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128) * h2 x agg eps w1 b1 w2 b2 r (i 1 : Fin 128)

/-- Where each window's block sits at point `t`. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0 :=
  (by decide +kernel : ∀ t : Fin grid1.N, _)

/-- Row `p` of point `t`'s block is row 4000·t + p of the array. -/
def row (t : Fin cfg1.N) (p : Fin 4000) : Fin 100000 :=
  ⟨4000 * t.val + p.val, by have h : t.val < 25 := lt_of_lt_of_eq t.isLt N_1; have := p.isLt; omega⟩

theorem rd0 (c : Dev nD) (t : Fin cfg1.N) (p : Fin 4000) (q : Fin 11) :
    (iblk1 V c 0 t : Vec Ideal S4000x11 .f32) (ix2 p q) = (V c main_arg0 : S100000x11.Idx → EReal) (ix2 (row t p) q) := by
  obtain ⟨e0, e1, -⟩ := idx_facts t
  unfold iblk1
  rw [View.read_apply]
  show V c main_arg0 _ = V c main_arg0 _
  refine congrArg _ (funext fun a => Fin.ext ?_)
  match a with
  | ⟨0, _⟩ => show win1_0.index t (0 : Fin 2) * 4000 + 1 * p.val = 4000 * t.val + p.val; rw [e0]; omega
  | ⟨1, _⟩ => show win1_0.index t (1 : Fin 2) * 11 + 1 * q.val = q.val; rw [e1]; omega

theorem rd1 (c : Dev nD) (t : Fin cfg1.N) (p : Fin 4000) (q : Fin 11) :
    (iblk1 V c 1 t : Vec Ideal S4000x11 .f32) (ix2 p q) = (V c main_v15 : S100000x11.Idx → EReal) (ix2 (row t p) q) := by
  obtain ⟨-, -, e0, e1, -⟩ := idx_facts t
  unfold iblk1
  rw [View.read_apply]
  show V c main_v15 _ = V c main_v15 _
  refine congrArg _ (funext fun a => Fin.ext ?_)
  match a with
  | ⟨0, _⟩ => show win1_1.index t (0 : Fin 2) * 4000 + 1 * p.val = 4000 * t.val + p.val; rw [e0]; omega
  | ⟨1, _⟩ => show win1_1.index t (1 : Fin 2) * 11 + 1 * q.val = q.val; rw [e1]; omega

theorem rd2 (c : Dev nD) (t : Fin cfg1.N) (p : Fin 1) (q : Fin 1) :
    (iblk1 V c 2 t : Vec Ideal S1x1 .f32) (ix2 p q) = (V c main_v16 : S1x1.Idx → EReal) (ix2 p q) := by
  obtain ⟨-, -, -, -, e0, e1, -⟩ := idx_facts t
  unfold iblk1
  rw [View.read_apply]
  show V c main_v16 _ = V c main_v16 _
  refine congrArg _ (funext fun a => Fin.ext ?_)
  match a with
  | ⟨0, _⟩ => show win1_2.index t (0 : Fin 2) * 1 + 1 * p.val = p.val; rw [e0]; omega
  | ⟨1, _⟩ => show win1_2.index t (1 : Fin 2) * 1 + 1 * q.val = q.val; rw [e1]; omega

theorem rd3 (c : Dev nD) (t : Fin cfg1.N) (p : Fin 11) (q : Fin 128) :
    (iblk1 V c 3 t : Vec Ideal S11x128 .f32) (ix2 p q) = (V c main_arg4 : S11x128.Idx → EReal) (ix2 p q) := by
  obtain ⟨-, -, -, -, -, -, e0, e1, -⟩ := idx_facts t
  unfold iblk1
  rw [View.read_apply]
  show V c main_arg4 _ = V c main_arg4 _
  refine congrArg _ (funext fun a => Fin.ext ?_)
  match a with
  | ⟨0, _⟩ => show win1_3.index t (0 : Fin 2) * 11 + 1 * p.val = p.val; rw [e0]; omega
  | ⟨1, _⟩ => show win1_3.index t (1 : Fin 2) * 128 + 1 * q.val = q.val; rw [e1]; omega

theorem rd4 (c : Dev nD) (t : Fin cfg1.N) (p : Fin 1) (q : Fin 128) :
    (iblk1 V c 4 t : Vec Ideal S1x128 .f32) (ix2 p q) = (V c main_v17 : S1x128.Idx → EReal) (ix2 p q) := by
  obtain ⟨-, -, -, -, -, -, -, -, e0, e1, -⟩ := idx_facts t
  unfold iblk1
  rw [View.read_apply]
  show V c main_v17 _ = V c main_v17 _
  refine congrArg _ (funext fun a => Fin.ext ?_)
  match a with
  | ⟨0, _⟩ => show win1_4.index t (0 : Fin 2) * 1 + 1 * p.val = p.val; rw [e0]; omega
  | ⟨1, _⟩ => show win1_4.index t (1 : Fin 2) * 128 + 1 * q.val = q.val; rw [e1]; omega

theorem rd5 (c : Dev nD) (t : Fin cfg1.N) (p : Fin 128) (q : Fin 128) :
    (iblk1 V c 5 t : Vec Ideal S128x128 .f32) (ix2 p q) = (V c main_arg6 : S128x128.Idx → EReal) (ix2 p q) := by
  obtain ⟨-, -, -, -, -, -, -, -, -, -, e0, e1, -⟩ := idx_facts t
  unfold iblk1
  rw [View.read_apply]
  show V c main_arg6 _ = V c main_arg6 _
  refine congrArg _ (funext fun a => Fin.ext ?_)
  match a with
  | ⟨0, _⟩ => show win1_5.index t (0 : Fin 2) * 128 + 1 * p.val = p.val; rw [e0]; omega
  | ⟨1, _⟩ => show win1_5.index t (1 : Fin 2) * 128 + 1 * q.val = q.val; rw [e1]; omega

theorem rd6 (c : Dev nD) (t : Fin cfg1.N) (p : Fin 1) (q : Fin 128) :
    (iblk1 V c 6 t : Vec Ideal S1x128 .f32) (ix2 p q) = (V c main_v18 : S1x128.Idx → EReal) (ix2 p q) := by
  obtain ⟨-, -, -, -, -, -, -, -, -, -, -, -, e0, e1, -⟩ := idx_facts t
  unfold iblk1
  rw [View.read_apply]
  show V c main_v18 _ = V c main_v18 _
  refine congrArg _ (funext fun a => Fin.ext ?_)
  match a with
  | ⟨0, _⟩ => show win1_6.index t (0 : Fin 2) * 1 + 1 * p.val = p.val; rw [e0]; omega
  | ⟨1, _⟩ => show win1_6.index t (1 : Fin 2) * 128 + 1 * q.val = q.val; rw [e1]; omega

/-- The MLP block of point `t`, entry (p, q): row 4000·t + p of the MLP output. -/
theorem blk_apply (c : Dev nD) (t : Fin cfg1.N) (p : Fin 4000) (q : Fin 128) :
    k1_pay5 (iblk1 V c 0 t) (iblk1 V c 1 t) (iblk1 V c 2 t) (iblk1 V c 3 t) (iblk1 V c 4 t) (iblk1 V c 5 t) (iblk1 V c 6 t) (ix2 p q) = h2 (V c main_arg0) (V c main_v15) (V c main_v16) (V c main_arg4) (V c main_v17) (V c main_arg6) (V c main_v18) (row t p) q := by
  rw [pay5_apply]
  unfold h2
  simp only [rd0, rd1, rd2, rd3, rd4, rd5, rd6]

/-- Whatever the control case, the first output's buffer after point `t` is the point's MLP block. -/
theorem outs7 (c : Dev nD) (t : Fin cfg1.N) : (outsAt1 V c t.val t.isLt).1 = k1_pay5 (iblk1 V c 0 t) (iblk1 V c 1 t) (iblk1 V c 2 t) (iblk1 V c 3 t) (iblk1 V c 4 t) (iblk1 V c 5 t) (iblk1 V c 6 t) := by
  by_cases h0 : t.val % 25 = 0
  · rw [outsAt1_A V c t h0]
    dsimp only
    exact outA7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t)
  · rw [outsAt1_B V c t h0]
    dsimp only
    exact outB7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2

/-- The output block's entry (p, q) at point `t` is entry (4000·t + p, q) of the array. -/
theorem emb7 (t : Fin cfg1.N) (p : Fin 4000) (q : Fin 128) :
    ((cfg1.win 7).blk t).view.emb (ix2 p q) = (ix2 (row t p) q : S100000x128.Idx) := by
  obtain ⟨-, -, -, -, -, -, -, -, -, -, -, -, -, -, e0, e1, -⟩ := idx_facts t
  refine funext fun a => Fin.ext ?_
  match a with
  | ⟨0, _⟩ => show win1_7.index t (0 : Fin 2) * 4000 + 1 * p.val = 4000 * t.val + p.val; rw [e0]; omega
  | ⟨1, _⟩ => show win1_7.index t (1 : Fin 2) * 128 + 1 * q.val = q.val; rw [e1]; omega

theorem flushed7_eq (c : Dev nD) (t : Fin cfg1.N) :
    (dat1 V c).flushed 7 t = ((cfg1.win 7).blk t).view.read (Elt Ideal) (out7 (V c main_arg0) (V c main_v15) (V c main_v16) (V c main_arg4) (V c main_v17) (V c main_arg6) (V c main_v18)) := by
  show (cfg1.win 7).cut (grid1.coords t) ((dat1 V c).after 7 t) = _
  rw [after1_7, outs7]
  funext j
  obtain ⟨p, q, rfl⟩ : ∃ (p : Fin 4000) (q : Fin 128), j = ix2 p q := ⟨j 0, j 1, eq_ix2 j⟩
  show k1_pay5 (iblk1 V c 0 t) (iblk1 V c 1 t) (iblk1 V c 2 t) (iblk1 V c 3 t) (iblk1 V c 4 t) (iblk1 V c 5 t) (iblk1 V c 6 t) (ix2 p q) = out7 (V c main_arg0) (V c main_v15) (V c main_v16) (V c main_arg4) (V c main_v17) (V c main_arg6) (V c main_v18) (((cfg1.win 7).blk t).view.emb (ix2 p q))
  rw [emb7, blk_apply]
  rfl

theorem cover7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  let t : Fin cfg1.N := ⟨(i 0).val / 4000, by rw [show cfg1.N = 25 from N_1]; omega⟩
  obtain ⟨-, -, -, -, -, -, -, -, -, -, -, -, -, -, e0, e1, -⟩ := idx_facts t
  refine ⟨t, flush1_7 t, ?_⟩
  show i ∈ ((View.whole main_v19_0).slice (win1_7.rect t)).set
  rw [View.set_slice_whole, Rect.mem_set_unit]
  intro a
  match a with
  | ⟨0, _⟩ =>
    show win1_7.index t (0 : Fin 2) * 4000 ≤ (i 0).val ∧ (i 0).val < win1_7.index t (0 : Fin 2) * 4000 + 4000
    rw [e0]; show (i 0).val / 4000 * 4000 ≤ (i 0).val ∧ (i 0).val < (i 0).val / 4000 * 4000 + 4000; omega
  | ⟨1, _⟩ =>
    show win1_7.index t (1 : Fin 2) * 128 ≤ (i 1).val ∧ (i 1).val < win1_7.index t (1 : Fin 2) * 128 + 128
    rw [e1]; omega

/-- The first result array is the MLP output of the input arrays. -/
theorem final7 (c : Dev nD) : (dat1 V c).arrAt 7 cfg1.N = out7 (V c main_arg0) (V c main_v15) (V c main_v16) (V c main_arg4) (V c main_v17) (V c main_arg6) (V c main_v18) :=
  (dat1 V c).arrAt_eq_of_cover 7 _ (fun t _ => flushed7_eq V c t) (cover7)

end Values

/-! ## The carried column sums -/

section Sums

variable (V : (c : Dev nD) → (b : Ref sig .tc) → Buf (Elt Ideal) ((c : Thread nD τ).loc b))

/-- The lane sum's inserted index: row `r` of column `q`. -/
theorem lift_eq (q : Fin 128) (r : Fin 4000) : reduces_S4000x128_S128.lift (ix1 q) r = (ix2 r q : S4000x128.Idx) := by
  funext a; apply Fin.ext
  match a with
  | ⟨0, _⟩ => rfl
  | ⟨1, _⟩ => rfl

/-- The sum payload: what the carried row held plus the block's column sum. -/
theorem pay1_apply (v30 : FVec Ideal S4000x128 .f32) (v32 : Vec Ideal S1x128 .f32) (u : Fin 1) (q : Fin 128) :
    k1_pay1 v30 v32 (ix2 u q) = v32 (ix2 u q) + ∑ r : Fin 4000, v30 (ix2 r q) := by
  unfold k1_pay1
  simp only [shapeCast_self]
  rw [addf_apply, shapeCast_a_1a_apply]
  refine congrArg (_ + ·) ?_
  refine (Ideal.multiReduction_add_single v30 0x00000000#32 reduces_S4000x128_S128 (.inl rfl) rfl (ix1 q)).trans ?_
  exact Finset.sum_congr rfl fun r _ => congrArg v30 (lift_eq q r)

/-- The sum-of-squares payload. -/
theorem pay2_apply (v30 : FVec Ideal S4000x128 .f32) (v38 : Vec Ideal S1x128 .f32) (u : Fin 1) (q : Fin 128) :
    k1_pay2 v30 v38 (ix2 u q) = v38 (ix2 u q) + ∑ r : Fin 4000, v30 (ix2 r q) * v30 (ix2 r q) := by
  unfold k1_pay2
  simp only [shapeCast_self]
  rw [addf_apply, shapeCast_a_1a_apply]
  refine congrArg (_ + ·) ?_
  refine (Ideal.multiReduction_add_single (mulf v30 v30) 0x00000000#32 reduces_S4000x128_S128 (.inl rfl) rfl (ix1 q)).trans ?_
  exact Finset.sum_congr rfl fun r _ => congrArg (fun z => v30 z * v30 z) (lift_eq q r)

/-- Row `n` of the MLP output as a function of a natural number (0 beyond the array). -/
def g (c : Dev nD) (q : Fin 128) (n : ℕ) : EReal :=
  if h : n < 100000 then h2 (V c main_arg0) (V c main_v15) (V c main_v16) (V c main_arg4) (V c main_v17) (V c main_arg6) (V c main_v18) ⟨n, h⟩ q else 0

theorem g_row (c : Dev nD) (q : Fin 128) (t : Fin cfg1.N) (p : Fin 4000) :
    h2 (V c main_arg0) (V c main_v15) (V c main_v16) (V c main_arg4) (V c main_v17) (V c main_arg6) (V c main_v18) (row t p) q = g V c q (4000 * t.val + p.val) := by
  unfold g
  rw [dif_pos (show 4000 * t.val + p.val < 100000 from (row t p).isLt)]
  rfl

/-- The block's column sum at point `t` is the sum of rows 4000·t … 4000·t + 3999. -/
theorem blk_sum (c : Dev nD) (q : Fin 128) (t : Fin cfg1.N) :
    ∑ r : Fin 4000, k1_pay5 (iblk1 V c 0 t) (iblk1 V c 1 t) (iblk1 V c 2 t) (iblk1 V c 3 t) (iblk1 V c 4 t) (iblk1 V c 5 t) (iblk1 V c 6 t) (ix2 r q) = ∑ p ∈ Finset.range 4000, g V c q (4000 * t.val + p) := by
  rw [← Fin.sum_univ_eq_sum_range (fun p => g V c q (4000 * t.val + p)) 4000]
  exact Finset.sum_congr rfl fun r _ => by rw [blk_apply, g_row]

theorem blk_sumsq (c : Dev nD) (q : Fin 128) (t : Fin cfg1.N) :
    ∑ r : Fin 4000, k1_pay5 (iblk1 V c 0 t) (iblk1 V c 1 t) (iblk1 V c 2 t) (iblk1 V c 3 t) (iblk1 V c 4 t) (iblk1 V c 5 t) (iblk1 V c 6 t) (ix2 r q) * k1_pay5 (iblk1 V c 0 t) (iblk1 V c 1 t) (iblk1 V c 2 t) (iblk1 V c 3 t) (iblk1 V c 4 t) (iblk1 V c 5 t) (iblk1 V c 6 t) (ix2 r q)
      = ∑ p ∈ Finset.range 4000, g V c q (4000 * t.val + p) * g V c q (4000 * t.val + p) := by
  rw [← Fin.sum_univ_eq_sum_range (fun p => g V c q (4000 * t.val + p) * g V c q (4000 * t.val + p)) 4000]
  exact Finset.sum_congr rfl fun r _ => by rw [blk_apply, g_row]

/-- After point `n` the carried rows hold the column sums over rows 0 … 4000·(n + 1) − 1. -/
theorem acc (c : Dev nD) (q : Fin 128) : ∀ (n : ℕ) (hn : n < cfg1.N),
    (outsAt1 V c n hn).2.1 (ix2 (0 : Fin 1) q) = ∑ r ∈ Finset.range (4000 * (n + 1)), g V c q r
    ∧ (outsAt1 V c n hn).2.2 (ix2 (0 : Fin 1) q) = ∑ r ∈ Finset.range (4000 * (n + 1)), g V c q r * g V c q r := by
  intro n
  induction n with
  | zero =>
    intro hn
    let t : Fin cfg1.N := ⟨0, hn⟩
    have hA := outsAt1_A V c t (Nat.zero_mod _)
    have e8 := outA8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr (Nat.zero_mod _)) (iblk1 V c 0 t) (iblk1 V c 1 t) (iblk1 V c 2 t) (iblk1 V c 3 t) (iblk1 V c 4 t) (iblk1 V c 5 t) (iblk1 V c 6 t)
    have e9 := outA9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr (Nat.zero_mod _)) (iblk1 V c 0 t) (iblk1 V c 1 t) (iblk1 V c 2 t) (iblk1 V c 3 t) (iblk1 V c 4 t) (iblk1 V c 5 t) (iblk1 V c 6 t)
    have h1 : (outsAt1 V c 0 hn).2.1 = _ := (congrArg (fun z => z.2.1) hA).trans e8
    have h2' : (outsAt1 V c 0 hn).2.2 = _ := (congrArg (fun z => z.2.2) hA).trans e9
    constructor
    · rw [h1, pay1_apply, blk_sum V c q t]
      show Ideal.ofBits .f32 0x00000000#32 + _ = _
      rw [Ideal.ofBits_zero_f32, zero_add]
      show ∑ p ∈ Finset.range 4000, g V c q (4000 * 0 + p) = _
      simp
    · rw [h2', pay2_apply, blk_sumsq V c q t]
      show Ideal.ofBits .f32 0x00000000#32 + _ = _
      rw [Ideal.ofBits_zero_f32, zero_add]
      show ∑ p ∈ Finset.range 4000, g V c q (4000 * 0 + p) * g V c q (4000 * 0 + p) = _
      simp
  | succ n ih =>
    intro hn
    have hN : cfg1.N = 25 := N_1
    let t : Fin cfg1.N := ⟨n + 1, hn⟩
    have h0 : ¬ t.val % 25 = 0 := by show ¬ (n + 1) % 25 = 0; omega
    have hB := outsAt1_B V c t h0
    have e8 := outB8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2
    have e9 := outB9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.1 (outsAt1 V c (t.val - 1) (Nat.lt_of_le_of_lt (Nat.sub_le _ _) t.isLt)).2.2
    have h1 : (outsAt1 V c (n + 1) hn).2.1 = _ := (congrArg (fun z => z.2.1) hB).trans e8
    have h2' : (outsAt1 V c (n + 1) hn).2.2 = _ := (congrArg (fun z => z.2.2) hB).trans e9
    obtain ⟨i1, i2⟩ := ih (Nat.lt_of_succ_lt hn)
    have hp : (outsAt1 V c (t.val - 1) (Nat.lt_of_le_of_lt (Nat.sub_le _ _) t.isLt)) = outsAt1 V c n (Nat.lt_of_succ_lt hn) := rfl
    constructor
    · rw [h1, pay1_apply, blk_sum V c q t, hp, i1]
      show _ + ∑ p ∈ Finset.range 4000, g V c q (4000 * (n + 1) + p) = _
      rw [show 4000 * (n + 1 + 1) = 4000 * (n + 1) + 4000 from by ring, Finset.sum_range_add]
    · rw [h2', pay2_apply, blk_sumsq V c q t, hp, i2]
      show _ + ∑ p ∈ Finset.range 4000, g V c q (4000 * (n + 1) + p) * g V c q (4000 * (n + 1) + p) = _
      rw [show 4000 * (n + 1 + 1) = 4000 * (n + 1) + 4000 from by ring, Finset.sum_range_add]

end Sums

/-! ## The carried sums, written back after the last point -/

section Finals

variable (V : (c : Dev nD) → (b : Ref sig .tc) → Buf (Elt Ideal) ((c : Thread nD τ).loc b))

theorem out8_apply (x agg eps w1 b1 w2 b2) (u : Fin 1) (q : Fin 128) :
    out8 x agg eps w1 b1 w2 b2 (ix2 u q) = ∑ r : Fin 100000, h2 x agg eps w1 b1 w2 b2 r q := rfl
theorem out9_apply (x agg eps w1 b1 w2 b2) (u : Fin 1) (q : Fin 128) :
    out9 x agg eps w1 b1 w2 b2 (ix2 u q) = ∑ r : Fin 100000, h2 x agg eps w1 b1 w2 b2 r q * h2 x agg eps w1 b1 w2 b2 r q := rfl

-- the sums range over 100000 rows: never unfolded by a definitional check
attribute [local irreducible] out8 out9

theorem emb8 (t : Fin cfg1.N) (u : Fin 1) (q : Fin 128) :
    ((cfg1.win 8).blk t).view.emb (ix2 u q) = (ix2 u q : S1x128.Idx) := by
  obtain ⟨-, -, -, -, -, -, -, -, -, -, -, -, -, -, -, -, e0, e1, -⟩ := idx_facts t
  refine funext fun a => Fin.ext ?_
  match a with
  | ⟨0, _⟩ => show win1_8.index t (0 : Fin 2) * 1 + 1 * u.val = u.val; rw [e0]; omega
  | ⟨1, _⟩ => show win1_8.index t (1 : Fin 2) * 128 + 1 * q.val = q.val; rw [e1]; omega

theorem flushed8_eq (c : Dev nD) (t : Fin cfg1.N) (hf : (cfg1.win 8).flush t = true) :
    (dat1 V c).flushed 8 t = ((cfg1.win 8).blk t).view.read (Elt Ideal) (out8 (V c main_arg0) (V c main_v15) (V c main_v16) (V c main_arg4) (V c main_v17) (V c main_arg6) (V c main_v18)) := by
  have h24 : t.val = 24 := by have h1 := (flush1_8 t).mp hf; have h2 : t.val < 25 := lt_of_lt_of_eq t.isLt N_1; omega
  show (cfg1.win 8).cut (grid1.coords t) ((dat1 V c).after 8 t) = _
  rw [after1_8]
  funext j
  obtain ⟨u, q, rfl⟩ : ∃ (u : Fin 1) (q : Fin 128), j = ix2 u q := ⟨j 0, j 1, eq_ix2 j⟩
  obtain rfl : u = 0 := Subsingleton.elim _ _
  show (outsAt1 V c t.val t.isLt).2.1 (ix2 (0 : Fin 1) q) = out8 (V c main_arg0) (V c main_v15) (V c main_v16) (V c main_arg4) (V c main_v17) (V c main_arg6) (V c main_v18) (((cfg1.win 8).blk t).view.emb (ix2 (0 : Fin 1) q))
  rw [emb8, (acc V c q t.val t.isLt).1, h24, out8_apply, show 4000 * (24 + 1) = 100000 from rfl]
  rw [← Fin.sum_univ_eq_sum_range (fun r => g V c q r) 100000]
  exact Finset.sum_congr rfl fun r _ => by unfold g; rw [dif_pos r.isLt]

theorem cover8 (i : S1x128.Idx) : ∃ t : Fin cfg1.N, (cfg1.win 8).flush t = true ∧ i ∈ ((cfg1.win 8).blk t).view.set := by
  have hi0 : (i 0).val < 1 := (i 0).isLt
  have hi1 : (i 1).val < 128 := (i 1).isLt
  let t : Fin cfg1.N := ⟨24, by rw [show cfg1.N = 25 from N_1]; omega⟩
  obtain ⟨-, -, -, -, -, -, -, -, -, -, -, -, -, -, -, -, e0, e1, -⟩ := idx_facts t
  refine ⟨t, (flush1_8 t).mpr rfl, ?_⟩
  show i ∈ ((View.whole main_v19_1).slice (win1_8.rect t)).set
  rw [View.set_slice_whole, Rect.mem_set_unit]
  intro a
  match a with
  | ⟨0, _⟩ =>
    show win1_8.index t (0 : Fin 2) * 1 ≤ (i 0).val ∧ (i 0).val < win1_8.index t (0 : Fin 2) * 1 + 1
    rw [e0]; omega
  | ⟨1, _⟩ =>
    show win1_8.index t (1 : Fin 2) * 128 ≤ (i 1).val ∧ (i 1).val < win1_8.index t (1 : Fin 2) * 128 + 128
    rw [e1]; omega

theorem final8 (c : Dev nD) : (dat1 V c).arrAt 8 cfg1.N = out8 (V c main_arg0) (V c main_v15) (V c main_v16) (V c main_arg4) (V c main_v17) (V c main_arg6) (V c main_v18) :=
  (dat1 V c).arrAt_eq_of_cover 8 _ (fun t hf => flushed8_eq V c t hf) (cover8)

theorem emb9 (t : Fin cfg1.N) (u : Fin 1) (q : Fin 128) :
    ((cfg1.win 9).blk t).view.emb (ix2 u q) = (ix2 u q : S1x128.Idx) := by
  obtain ⟨-, -, -, -, -, -, -, -, -, -, -, -, -, -, -, -, -, -, e0, e1⟩ := idx_facts t
  refine funext fun a => Fin.ext ?_
  match a with
  | ⟨0, _⟩ => show win1_9.index t (0 : Fin 2) * 1 + 1 * u.val = u.val; rw [e0]; omega
  | ⟨1, _⟩ => show win1_9.index t (1 : Fin 2) * 128 + 1 * q.val = q.val; rw [e1]; omega

theorem flushed9_eq (c : Dev nD) (t : Fin cfg1.N) (hf : (cfg1.win 9).flush t = true) :
    (dat1 V c).flushed 9 t = ((cfg1.win 9).blk t).view.read (Elt Ideal) (out9 (V c main_arg0) (V c main_v15) (V c main_v16) (V c main_arg4) (V c main_v17) (V c main_arg6) (V c main_v18)) := by
  have h24 : t.val = 24 := by have h1 := (flush1_9 t).mp hf; have h2 : t.val < 25 := lt_of_lt_of_eq t.isLt N_1; omega
  show (cfg1.win 9).cut (grid1.coords t) ((dat1 V c).after 9 t) = _
  rw [after1_9]
  funext j
  obtain ⟨u, q, rfl⟩ : ∃ (u : Fin 1) (q : Fin 128), j = ix2 u q := ⟨j 0, j 1, eq_ix2 j⟩
  obtain rfl : u = 0 := Subsingleton.elim _ _
  show (outsAt1 V c t.val t.isLt).2.2 (ix2 (0 : Fin 1) q) = out9 (V c main_arg0) (V c main_v15) (V c main_v16) (V c main_arg4) (V c main_v17) (V c main_arg6) (V c main_v18) (((cfg1.win 9).blk t).view.emb (ix2 (0 : Fin 1) q))
  rw [emb9, (acc V c q t.val t.isLt).2, h24, out9_apply, show 4000 * (24 + 1) = 100000 from rfl]
  rw [← Fin.sum_univ_eq_sum_range (fun r => g V c q r * g V c q r) 100000]
  exact Finset.sum_congr rfl fun r _ => by unfold g; rw [dif_pos r.isLt]

theorem cover9 (i : S1x128.Idx) : ∃ t : Fin cfg1.N, (cfg1.win 9).flush t = true ∧ i ∈ ((cfg1.win 9).blk t).view.set := by
  have hi0 : (i 0).val < 1 := (i 0).isLt
  have hi1 : (i 1).val < 128 := (i 1).isLt
  let t : Fin cfg1.N := ⟨24, by rw [show cfg1.N = 25 from N_1]; omega⟩
  obtain ⟨-, -, -, -, -, -, -, -, -, -, -, -, -, -, -, -, -, -, e0, e1⟩ := idx_facts t
  refine ⟨t, (flush1_9 t).mpr rfl, ?_⟩
  show i ∈ ((View.whole main_v19_2).slice (win1_9.rect t)).set
  rw [View.set_slice_whole, Rect.mem_set_unit]
  intro a
  match a with
  | ⟨0, _⟩ =>
    show win1_9.index t (0 : Fin 2) * 1 ≤ (i 0).val ∧ (i 0).val < win1_9.index t (0 : Fin 2) * 1 + 1
    rw [e0]; omega
  | ⟨1, _⟩ =>
    show win1_9.index t (1 : Fin 2) * 128 ≤ (i 1).val ∧ (i 1).val < win1_9.index t (1 : Fin 2) * 128 + 128
    rw [e1]; omega

theorem final9 (c : Dev nD) : (dat1 V c).arrAt 9 cfg1.N = out9 (V c main_arg0) (V c main_v15) (V c main_v16) (V c main_arg4) (V c main_v17) (V c main_arg6) (V c main_v18) :=
  (dat1 V c).arrAt_eq_of_cover 9 _ (fun t hf => flushed9_eq V c t hf) (cover9)

end Finals

end Cert.KernelIdeal.Reg1

end
-- ==== Proof.Reg2.lean ====
/-
  Region 2: the normalisation of a layer's MLP output. Point `t` of the grid (25 points) holds rows 4000·t … 4000·t + 3999 of
  the MLP output [100000, 128], and the whole rows [1, 128] of the mean, the variance, the scale and the shift,
  and stores rows 4000·t … of the result. Entry (r, j) of what it stores is
      max ((h[r, j] − mean[0, j]) · rsqrt (var[0, j] + 1e-5) · gamma[0, j] + beta[0, j]) 0,
  which depends on row r of the row inputs only; so the result array is that function of the input arrays (`final5`).
-/
import proofs.«162690_j78211354460181_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg2

open Cert.KernelIdeal Cert.KernelIdeal.Gen

variable (V : (c : Dev nD) → (b : Ref sig .tc) → Buf (Elt Ideal) ((c : Thread nD τ).loc b))

/-- The normalised array as a function of the region's input arrays. -/
def out5 (h : S100000x128.Idx → EReal) (mean var gamma beta : S1x128.Idx → EReal) : S100000x128.Idx → EReal := fun i =>
  max ((h (ix2 (i 0 : Fin 100000) (i 1 : Fin 128)) - mean (ix2 (0 : Fin 1) (i 1 : Fin 128)))
        * Ideal.rsqrt (var (ix2 (0 : Fin 1) (i 1 : Fin 128)) + Ideal.ofBits .f32 0x3727C5AC#32)
        * gamma (ix2 (0 : Fin 1) (i 1 : Fin 128)) + beta (ix2 (0 : Fin 1) (i 1 : Fin 128)))
      (Ideal.ofBits .f32 0x00000000#32)

theorem hz : (![0, 0] : Fin 2 → Nat) = fun _ => 0 := funext fun a => by fin_cases a <;> rfl

/-- The body's stored value at row `p` and column `q` of the block, from the loaded blocks. -/
theorem pay_apply (x0 : Vec Ideal S4000x128 .f32) (x1 x2 x3 x4 : Vec Ideal S1x128 .f32) (p : Fin 4000) (q : Fin 128) :
    k2_pay1 x0 x1 x2 x3 x4 (ix2 p q)
      = max ((x0 (ix2 p q) - x1 (ix2 (0 : Fin 1) q)) * Ideal.rsqrt (x2 (ix2 (0 : Fin 1) q) + Ideal.ofBits .f32 0x3727C5AC#32)
            * x3 (ix2 (0 : Fin 1) q) + x4 (ix2 (0 : Fin 1) q)) (Ideal.ofBits .f32 0x00000000#32) := by
  unfold k2_pay1
  simp only [shapeCast_self, maximumf_apply, addf_apply, mulf_apply, subf_apply, broadcast_apply, broadcastTo_1b_ab_apply]
  rfl

/-- Where each window's block sits at point `t`: the row windows at block `t`, the row vectors at block 0. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Row `p` of point `t`'s block is row 4000·t + p of the array. -/
def row (t : Fin cfg2.N) (p : Fin 4000) : Fin 100000 :=
  ⟨4000 * t.val + p.val, by have h : t.val < 25 := lt_of_lt_of_eq t.isLt N_2; have := p.isLt; omega⟩

theorem rd0 (c : Dev nD) (t : Fin cfg2.N) (p : Fin 4000) (q : Fin 128) :
    (iblk2 V c 0 t : Vec Ideal S4000x128 .f32) (ix2 p q) = (V c main_v19_0 : S100000x128.Idx → EReal) (ix2 (row t p) q) := by
  obtain ⟨e0, e1, -⟩ := idx_facts t
  unfold iblk2
  rw [View.read_apply]
  show V c main_v19_0 _ = V c main_v19_0 _
  refine congrArg _ (funext fun a => Fin.ext ?_)
  match a with
  | ⟨0, _⟩ => show win2_0.index t (0 : Fin 2) * 4000 + 1 * p.val = 4000 * t.val + p.val; rw [e0]; omega
  | ⟨1, _⟩ => show win2_0.index t (1 : Fin 2) * 128 + 1 * q.val = q.val; rw [e1]; omega

theorem rd1 (c : Dev nD) (t : Fin cfg2.N) (q : Fin 128) :
    (iblk2 V c 1 t : Vec Ideal S1x128 .f32) (ix2 (0 : Fin 1) q) = (V c main_v21 : S1x128.Idx → EReal) (ix2 (0 : Fin 1) q) := by
  obtain ⟨-, -, e0, e1, -⟩ := idx_facts t
  unfold iblk2
  rw [View.read_apply]
  show V c main_v21 _ = V c main_v21 _
  refine congrArg _ (funext fun a => Fin.ext ?_)
  match a with
  | ⟨0, _⟩ => show win2_1.index t (0 : Fin 2) * 1 + 1 * (0 : Fin 1).val = (0 : Fin 1).val; rw [e0]; rfl
  | ⟨1, _⟩ => show win2_1.index t (1 : Fin 2) * 128 + 1 * q.val = q.val; rw [e1]; omega

theorem rd2 (c : Dev nD) (t : Fin cfg2.N) (q : Fin 128) :
    (iblk2 V c 2 t : Vec Ideal S1x128 .f32) (ix2 (0 : Fin 1) q) = (V c main_v25 : S1x128.Idx → EReal) (ix2 (0 : Fin 1) q) := by
  obtain ⟨-, -, -, -, e0, e1, -⟩ := idx_facts t
  unfold iblk2
  rw [View.read_apply]
  show V c main_v25 _ = V c main_v25 _
  refine congrArg _ (funext fun a => Fin.ext ?_)
  match a with
  | ⟨0, _⟩ => show win2_2.index t (0 : Fin 2) * 1 + 1 * (0 : Fin 1).val = (0 : Fin 1).val; rw [e0]; rfl
  | ⟨1, _⟩ => show win2_2.index t (1 : Fin 2) * 128 + 1 * q.val = q.val; rw [e1]; omega

theorem rd3 (c : Dev nD) (t : Fin cfg2.N) (q : Fin 128) :
    (iblk2 V c 3 t : Vec Ideal S1x128 .f32) (ix2 (0 : Fin 1) q) = (V c main_v26 : S1x128.Idx → EReal) (ix2 (0 : Fin 1) q) := by
  obtain ⟨-, -, -, -, -, -, e0, e1, -⟩ := idx_facts t
  unfold iblk2
  rw [View.read_apply]
  show V c main_v26 _ = V c main_v26 _
  refine congrArg _ (funext fun a => Fin.ext ?_)
  match a with
  | ⟨0, _⟩ => show win2_3.index t (0 : Fin 2) * 1 + 1 * (0 : Fin 1).val = (0 : Fin 1).val; rw [e0]; rfl
  | ⟨1, _⟩ => show win2_3.index t (1 : Fin 2) * 128 + 1 * q.val = q.val; rw [e1]; omega

theorem rd4 (c : Dev nD) (t : Fin cfg2.N) (q : Fin 128) :
    (iblk2 V c 4 t : Vec Ideal S1x128 .f32) (ix2 (0 : Fin 1) q) = (V c main_v27 : S1x128.Idx → EReal) (ix2 (0 : Fin 1) q) := by
  obtain ⟨-, -, -, -, -, -, -, -, e0, e1, -⟩ := idx_facts t
  unfold iblk2
  rw [View.read_apply]
  show V c main_v27 _ = V c main_v27 _
  refine congrArg _ (funext fun a => Fin.ext ?_)
  match a with
  | ⟨0, _⟩ => show win2_4.index t (0 : Fin 2) * 1 + 1 * (0 : Fin 1).val = (0 : Fin 1).val; rw [e0]; rfl
  | ⟨1, _⟩ => show win2_4.index t (1 : Fin 2) * 128 + 1 * q.val = q.val; rw [e1]; omega

/-- The output block's entry (p, q) at point `t` is entry (4000·t + p, q) of the array. -/
theorem emb_out (t : Fin cfg2.N) (p : Fin 4000) (q : Fin 128) :
    ((cfg2.win 5).blk t).view.emb (ix2 p q) = (ix2 (row t p) q : S100000x128.Idx) := by
  obtain ⟨-, -, -, -, -, -, -, -, -, -, e0, e1⟩ := idx_facts t
  refine funext fun a => Fin.ext ?_
  match a with
  | ⟨0, _⟩ => show win2_5.index t (0 : Fin 2) * 4000 + 1 * p.val = 4000 * t.val + p.val; rw [e0]; omega
  | ⟨1, _⟩ => show win2_5.index t (1 : Fin 2) * 128 + 1 * q.val = q.val; rw [e1]; omega

/-- What point `t` writes back is block `t` of the normalised array of the input arrays as the region finds them. -/
theorem flushed_eq (c : Dev nD) (t : Fin cfg2.N) :
    (dat2 V c).flushed 5 t = ((cfg2.win 5).blk t).view.read (Elt Ideal) (out5 (V c main_v19_0) (V c main_v21) (V c main_v25) (V c main_v26) (V c main_v27)) := by
  show (cfg2.win 5).cut (grid2.coords t) ((dat2 V c).after 5 t) = _
  rw [after2_5]
  unfold out2_5
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k2_pay1 (iblk2 V c 0 t) (iblk2 V c 1 t) (iblk2 V c 2 t) (iblk2 V c 3 t) (iblk2 V c 4 t) (ix2 p q)
    = out5 (V c main_v19_0) (V c main_v21) (V c main_v25) (V c main_v26) (V c main_v27) (((cfg2.win 5).blk t).view.emb (ix2 p q))
  rw [emb_out, pay_apply]
  simp only [rd0, rd1, rd2, rd3, rd4]
  rfl

/-- Every row of the array lies in the block of the point that is its quotient by 4000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  let t : Fin cfg2.N := ⟨(i 0).val / 4000, by rw [show cfg2.N = 25 from N_2]; omega⟩
  obtain ⟨-, -, -, -, -, -, -, -, -, -, e0, e1⟩ := idx_facts t
  refine ⟨t, flush2_5 t, ?_⟩
  show i ∈ ((View.whole main_v28).slice (win2_5.rect t)).set
  rw [View.set_slice_whole, Rect.mem_set_unit]
  intro a
  match a with
  | ⟨0, _⟩ =>
    show win2_5.index t (0 : Fin 2) * 4000 ≤ (i 0).val ∧ (i 0).val < win2_5.index t (0 : Fin 2) * 4000 + 4000
    rw [e0]; show (i 0).val / 4000 * 4000 ≤ (i 0).val ∧ (i 0).val < (i 0).val / 4000 * 4000 + 4000; omega
  | ⟨1, _⟩ =>
    show win2_5.index t (1 : Fin 2) * 128 ≤ (i 1).val ∧ (i 1).val < win2_5.index t (1 : Fin 2) * 128 + 128
    rw [e1]; omega

/-- The region's result array is the normalised array of its input arrays. -/
theorem final5 (c : Dev nD) :
    (dat2 V c).arrAt 5 cfg2.N = out5 (V c main_v19_0) (V c main_v21) (V c main_v25) (V c main_v26) (V c main_v27) :=
  (dat2 V c).arrAt_eq_of_cover 5 _ (fun t _ => flushed_eq V c t) cover

end Cert.KernelIdeal.Reg2

end
-- ==== Proof.Reg3.lean ====
/-
  Region 3: the edge message of layer 1. Point `t` of the grid (100 points) holds rows 6000·t … 6000·t + 5999 of the
  gathered node features `xj` [600000, 128] and of `edge_attr` [600000, 3], all of `e_w` [3, 128] and of the bias row
  [1, 128], and stores rows 6000·t … of the result. Entry (e, j) of what it stores is
      max (xj[e, j] + Σ_k edge_attr[e, k] · e_w[k, j] + e_b[0, j]) 0,
  which depends on row e of the inputs only; so the result array is that function of the four arrays, row by row
  (`final`), whatever the region finds in them.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg3

open Cert.KernelIdeal Cert.KernelIdeal.Gen

variable (V : (c : Dev nD) → (b : Ref sig .tc) → Buf (Elt Ideal) ((c : Thread nD τ).loc b))

/-- The message array as a function of the gathered features, the edge attributes, the edge weights and the bias row. -/
def out4 (xj : S600000x128.Idx → EReal) (ea : S600000x3.Idx → EReal) (ew : S3x128.Idx → EReal) (eb : S1x128.Idx → EReal) :
    S600000x128.Idx → EReal := fun i =>
  max (xj (ix2 (i 0 : Fin 600000) (i 1 : Fin 128))
        + (∑ k : Fin 3, ea (ix2 (i 0 : Fin 600000) k) * ew (ix2 k (i 1 : Fin 128)))
        + eb (ix2 (0 : Fin 1) (i 1 : Fin 128)))
      (Ideal.ofBits .f32 0x00000000#32)

theorem hz : (![0, 0] : Fin 2 → Nat) = fun _ => 0 := funext fun a => by fin_cases a <;> rfl

theorem plain_6000_3_128 : Cert.LibDot.Plain dot_S6000x3_S3x128_S6000x128_1_0_0_1_n_n :=
  ⟨rfl, rfl, fun _ _ => rfl, fun j k => DotDims.lhsIdx_val_of_single _ rfl j k, fun j k => DotDims.rhsIdx_val_of_single _ rfl j k, fun _ _ => rfl⟩

/-- The body's stored value at row `p` and column `q` of the block, from the four loaded blocks. -/
theorem pay_apply (x0 : Vec Ideal S6000x128 .f32) (x1 : Vec Ideal S6000x3 .f32) (x2 : Vec Ideal S3x128 .f32)
    (x3 : Vec Ideal S1x128 .f32) (p : Fin 6000) (q : Fin 128) :
    k3_pay1 x0 x1 x2 x3 (ix2 p q)
      = max (x0 (ix2 p q) + (∑ k : Fin 3, x1 (ix2 p k) * x2 (ix2 k q)) + x3 (ix2 (0 : Fin 1) q))
          (Ideal.ofBits .f32 0x00000000#32) := by
  unfold k3_pay1
  simp only [shapeCast_self]
  rw [maximumf_apply, addf_apply, addf_apply, Cert.LibDot.matmul_ix2 plain_6000_3_128, broadcastTo_1b_ab_apply, broadcast_apply]
  refine congrArg (fun z => max (_ + z + _) _) (Finset.sum_congr rfl fun k _ => ?_)
  rw [truncf_apply, truncf_apply]

/-- Where each window's block sits at point `t`: the row windows at block `t`, the weights and the bias at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `p` of point `t`'s block is row 6000·t + p of the array. -/
def row (t : Fin cfg3.N) (p : Fin 6000) : Fin 600000 :=
  ⟨6000 * t.val + p.val, by have h : t.val < 100 := lt_of_lt_of_eq t.isLt N_3; have := p.isLt; omega⟩

theorem rd0 (c : Dev nD) (t : Fin cfg3.N) (p : Fin 6000) (q : Fin 128) :
    (iblk3 V c 0 t : Vec Ideal S6000x128 .f32) (ix2 p q) = (V c main_v53 : S600000x128.Idx → EReal) (ix2 (row t p) q) := by
  obtain ⟨e0, e1, -⟩ := idx_facts t
  unfold iblk3
  rw [View.read_apply]
  show V c main_v53 _ = V c main_v53 _
  refine congrArg _ (funext fun a => Fin.ext ?_)
  match a with
  | ⟨0, _⟩ => show win3_0.index t (0 : Fin 2) * 6000 + 1 * p.val = 6000 * t.val + p.val; rw [e0]; omega
  | ⟨1, _⟩ => show win3_0.index t (1 : Fin 2) * 128 + 1 * q.val = q.val; rw [e1]; omega

theorem rd1 (c : Dev nD) (t : Fin cfg3.N) (p : Fin 6000) (k : Fin 3) :
    (iblk3 V c 1 t : Vec Ideal S6000x3 .f32) (ix2 p k) = (V c main_arg1 : S600000x3.Idx → EReal) (ix2 (row t p) k) := by
  obtain ⟨-, -, e0, e1, -⟩ := idx_facts t
  unfold iblk3
  rw [View.read_apply]
  show V c main_arg1 _ = V c main_arg1 _
  refine congrArg _ (funext fun a => Fin.ext ?_)
  match a with
  | ⟨0, _⟩ => show win3_1.index t (0 : Fin 2) * 6000 + 1 * p.val = 6000 * t.val + p.val; rw [e0]; omega
  | ⟨1, _⟩ => show win3_1.index t (1 : Fin 2) * 3 + 1 * k.val = k.val; rw [e1]; omega

theorem rd2 (c : Dev nD) (t : Fin cfg3.N) (k : Fin 3) (q : Fin 128) :
    (iblk3 V c 2 t : Vec Ideal S3x128 .f32) (ix2 k q) = (V c main_v30 : S3x128.Idx → EReal) (ix2 k q) := by
  obtain ⟨-, -, -, -, e0, e1, -⟩ := idx_facts t
  unfold iblk3
  rw [View.read_apply]
  show V c main_v30 _ = V c main_v30 _
  refine congrArg _ (funext fun a => Fin.ext ?_)
  match a with
  | ⟨0, _⟩ => show win3_2.index t (0 : Fin 2) * 3 + 1 * k.val = k.val; rw [e0]; omega
  | ⟨1, _⟩ => show win3_2.index t (1 : Fin 2) * 128 + 1 * q.val = q.val; rw [e1]; omega

theorem rd3 (c : Dev nD) (t : Fin cfg3.N) (q : Fin 128) :
    (iblk3 V c 3 t : Vec Ideal S1x128 .f32) (ix2 (0 : Fin 1) q) = (V c main_v54 : S1x128.Idx → EReal) (ix2 (0 : Fin 1) q) := by
  obtain ⟨-, -, -, -, -, -, e0, e1, -⟩ := idx_facts t
  unfold iblk3
  rw [View.read_apply]
  show V c main_v54 _ = V c main_v54 _
  refine congrArg _ (funext fun a => Fin.ext ?_)
  match a with
  | ⟨0, _⟩ => show win3_3.index t (0 : Fin 2) * 1 + 1 * (0 : Fin 1).val = (0 : Fin 1).val; rw [e0]; rfl
  | ⟨1, _⟩ => show win3_3.index t (1 : Fin 2) * 128 + 1 * q.val = q.val; rw [e1]; omega

/-- The output block's entry (p, q) at point `t` is entry (6000·t + p, q) of the array. -/
theorem emb4 (t : Fin cfg3.N) (p : Fin 6000) (q : Fin 128) :
    ((cfg3.win 4).blk t).view.emb (ix2 p q) = (ix2 (row t p) q : S600000x128.Idx) := by
  obtain ⟨-, -, -, -, -, -, -, -, e0, e1⟩ := idx_facts t
  refine funext fun a => Fin.ext ?_
  match a with
  | ⟨0, _⟩ => show win3_4.index t (0 : Fin 2) * 6000 + 1 * p.val = 6000 * t.val + p.val; rw [e0]; omega
  | ⟨1, _⟩ => show win3_4.index t (1 : Fin 2) * 128 + 1 * q.val = q.val; rw [e1]; omega

/-- What point `t` writes back is block `t` of the message array of the four arrays as the region finds them. -/
theorem flushed_eq (c : Dev nD) (t : Fin cfg3.N) :
    (dat3 V c).flushed 4 t = ((cfg3.win 4).blk t).view.read (Elt Ideal)
      (out4 (V c main_v53) (V c main_arg1) (V c main_v30) (V c main_v54)) := by
  show (cfg3.win 4).cut (grid3.coords t) ((dat3 V c).after 4 t) = _
  rw [after3_4]
  unfold out3_4
  rw [View.canon_unit_zero hz]
  simp only [View.ld_unit_zero (S := S6000x128) hz, View.ld_unit_zero (S := S6000x3) hz, View.ld_unit_zero (S := S3x128) hz,
    View.ld_unit_zero (S := S1x128) hz]
  funext j
  obtain ⟨p, q, rfl⟩ : ∃ (p : Fin 6000) (q : Fin 128), j = ix2 p q := ⟨j 0, j 1, eq_ix2 j⟩
  show k3_pay1 (iblk3 V c 0 t) (iblk3 V c 1 t) (iblk3 V c 2 t) (iblk3 V c 3 t) (ix2 p q)
    = out4 (V c main_v53) (V c main_arg1) (V c main_v30) (V c main_v54) (((cfg3.win 4).blk t).view.emb (ix2 p q))
  rw [emb4, pay_apply]
  simp only [rd0, rd1, rd2, rd3]
  rfl

/-- Every row of the array lies in the block of the point that is its quotient by 6000. -/
theorem cover (i : S600000x128.Idx) : ∃ t : Fin cfg3.N, (cfg3.win 4).flush t = true ∧ i ∈ ((cfg3.win 4).blk t).view.set := by
  have hi0 : (i 0).val < 600000 := (i 0).isLt
  have hi1 : (i 1).val < 128 := (i 1).isLt
  let t : Fin cfg3.N := ⟨(i 0).val / 6000, by rw [show cfg3.N = 100 from N_3]; omega⟩
  obtain ⟨-, -, -, -, -, -, -, -, e0, e1⟩ := idx_facts t
  refine ⟨t, flush3_4 t, ?_⟩
  show i ∈ ((View.whole main_v55).slice (win3_4.rect t)).set
  rw [View.set_slice_whole, Rect.mem_set_unit]
  intro a
  match a with
  | ⟨0, _⟩ =>
    show win3_4.index t (0 : Fin 2) * 6000 ≤ (i 0).val ∧ (i 0).val < win3_4.index t (0 : Fin 2) * 6000 + 6000
    rw [e0]; show (i 0).val / 6000 * 6000 ≤ (i 0).val ∧ (i 0).val < (i 0).val / 6000 * 6000 + 6000; omega
  | ⟨1, _⟩ =>
    show win3_4.index t (1 : Fin 2) * 128 ≤ (i 1).val ∧ (i 1).val < win3_4.index t (1 : Fin 2) * 128 + 128
    rw [e1]; omega

/-- The region's result array is the message array of its four input arrays. -/
theorem final4 (c : Dev nD) :
    (dat3 V c).arrAt 4 cfg3.N = out4 (V c main_v53) (V c main_arg1) (V c main_v30) (V c main_v54) :=
  (dat3 V c).arrAt_eq_of_cover 4 _ (fun t _ => flushed_eq V c t) cover

end Cert.KernelIdeal.Reg3

end
-- ==== Proof.Reg4.lean ====
/-
  Region 4: the node MLP of a layer and the running column sums. Point `t` of the grid (25 points) holds rows
  4000·t … 4000·t + 3999 of the layer's input [100000, 128] and of the aggregated messages, the scalar eps [1, 1] and the two
  weight matrices and bias rows, and stores rows 4000·t … of
      h2[r, j] = Σ_k max (Σ_l ((1 + eps) · x[r, l] + agg[r, l]) · w1[l, k] + b1[0, k]) 0 · w2[k, j] + b2[0, j];
  two further results [1, 128] are carried from point to point: zeroed at point 0, then at every point the block's column
  sums of h2, and of h2 squared, are added; they are written back once, after the last point. So the first result is h2
  row by row (`final7`), and the other two are the column sums over all 100000 rows of h2 and of its square
  (`final8`, `final9`): after point n the carried sum is the sum over rows 0 … 4000·(n + 1) − 1, by induction on n.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Reg4

open Cert.KernelIdeal Cert.KernelIdeal.Gen Cert.LibDot

theorem hz : (![0, 0] : Fin 2 → Nat) = fun _ => 0 := funext fun a => by fin_cases a <;> rfl

/-! ## What each control case leaves in each output's staging buffer -/

section Pieces
variable {F : FTy → Type} [FloatOps F]

theorem outA7 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond4_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out4_A_7 (F := F) c i arg1 harg1 arg2 harg2 arg3 harg3 arg4 harg4 arg5 harg5 arg6 harg6 arg7 harg7 arg8 harg8 arg9 harg9 arg10 harg10 hc0 x0 x1 x2 x3 x4 x5 x6 = k4_pay5 x0 x1 x2 x3 x4 x5 x6 := by
  unfold out4_A_7
  rw [View.read_writes_eq_canon _ _ _ (cover4_A_7 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outA8 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond4_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out4_A_8 (F := F) c i arg1 harg1 arg2 harg2 arg3 harg3 arg4 harg4 arg5 harg5 arg6 harg6 arg7 harg7 arg8 harg8 arg9 harg9 arg10 harg10 hc0 x0 x1 x2 x3 x4 x5 x6 = k4_pay1 (k4_pay5 x0 x1 x2 x3 x4 x5 x6) k4_pay3 := by
  unfold out4_A_8
  rw [View.read_writes_eq_canon _ _ _ (cover4_A_8 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outA9 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond4_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out4_A_9 (F := F) c i arg1 harg1 arg2 harg2 arg3 harg3 arg4 harg4 arg5 harg5 arg6 harg6 arg7 harg7 arg8 harg8 arg9 harg9 arg10 harg10 hc0 x0 x1 x2 x3 x4 x5 x6 = k4_pay2 (k4_pay5 x0 x1 x2 x3 x4 x5 x6) k4_pay4 := by
  unfold out4_A_9
  rw [View.read_writes_eq_canon _ _ _ (cover4_A_9 c i arg1 harg1 arg2 harg2 arg3 harg3 arg4 harg4 arg5 harg5 arg6 harg6 arg7 harg7 arg8 harg8 arg9 harg9 arg10 harg10 hc0 x0 x1 x2 x3 x4 x5 x6)]
  unfold kernelRun4_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB7 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out4_B_7 (F := F) c i arg1 harg1 arg2 harg2 arg3 harg3 arg4 harg4 arg5 harg5 arg6 harg6 arg7 harg7 arg8 harg8 arg9 harg9 arg10 harg10 hc0 x0 x1 x2 x3 x4 x5 x6 xo8 xo9 = k4_pay5 x0 x1 x2 x3 x4 x5 x6 := by
  unfold out4_B_7
  rw [View.read_writes_eq_canon _ _ _ (cover4_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB8 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out4_B_8 (F := F) c i arg1 harg1 arg2 harg2 arg3 harg3 arg4 harg4 arg5 harg5 arg6 harg6 arg7 harg7 arg8 harg8 arg9 harg9 arg10 harg10 hc0 x0 x1 x2 x3 x4 x5 x6 xo8 xo9 = k4_pay1 (k4_pay5 x0 x1 x2 x3 x4 x5 x6) xo8 := by
  unfold out4_B_8
  rw [View.read_writes_eq_canon _ _ _ (cover4_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB9 (c : Dev nD) (i : grid4.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out4_B_9 (F := F) c i arg1 harg1 arg2 harg2 arg3 harg3 arg4 harg4 arg5 harg5 arg6 harg6 arg7 harg7 arg8 harg8 arg9 harg9 arg10 harg10 hc0 x0 x1 x2 x3 x4 x5 x6 xo8 xo9 = k4_pay2 (k4_pay5 x0 x1 x2 x3 x4 x5 x6) xo9 := by
  unfold out4_B_9
  rw [View.read_writes_eq_canon _ _ _ (cover4_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun4_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

end Pieces

/-! ## The payloads at an entry -/

theorem plain_1 : Plain dot_S4000x128_S128x128_S4000x128_1_0_0_1_n_n :=
  ⟨rfl, rfl, fun _ _ => rfl, fun j k => DotDims.lhsIdx_val_of_single _ rfl j k, fun j k => DotDims.rhsIdx_val_of_single _ rfl j k, fun _ _ => rfl⟩

/-- A [1,1] block broadcast over [a,b] reads its one entry. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the block's MLP output. -/
theorem pay5_apply (x agg : Vec Ideal S4000x128 .f32) (eps : Vec Ideal S1x1 .f32) (w1 : Vec Ideal S128x128 .f32)
    (b1 : Vec Ideal S1x128 .f32) (w2 : Vec Ideal S128x128 .f32) (b2 : Vec Ideal S1x128 .f32) (p : Fin 4000) (q : Fin 128) :
    k4_pay5 x agg eps w1 b1 w2 b2 (ix2 p q)
      = (∑ k : Fin 128,
          max ((∑ l : Fin 128, ((Ideal.ofBits .f32 0x3F800000#32 + eps (ix2 (0 : Fin 1) (0 : Fin 1))) * x (ix2 p l) + agg (ix2 p l)) * w1 (ix2 l k))
                + b1 (ix2 (0 : Fin 1) k)) (Ideal.ofBits .f32 0x00000000#32) * w2 (ix2 k q))
        + b2 (ix2 (0 : Fin 1) q) := by
  unfold k4_pay5
  simp only [shapeCast_self]
  rw [addf_apply, matmul_ix2 plain_1, broadcastTo_1b_ab_apply]
  refine congrArg (· + _) (Finset.sum_congr rfl fun k _ => ?_)
  rw [truncf_apply, truncf_apply, maximumf_apply, addf_apply, matmul_ix2 plain_1, broadcastTo_1b_ab_apply, broadcast_apply]
  refine congrArg (fun z => max (z + _) _ * _) (Finset.sum_congr rfl fun l _ => ?_)
  rw [truncf_apply, truncf_apply, addf_apply, mulf_apply, broadcastTo_11_ab_apply, addf_apply, broadcast_apply]
  rfl

/-! ## The results as functions of the region's input arrays -/

section Values

variable (V : (c : Dev nD) → (b : Ref sig .tc) → Buf (Elt Ideal) ((c : Thread nD τ).loc b))

/-- Row `r`, column `j` of the MLP output, from the whole input arrays. -/
def h2 (x agg : S100000x128.Idx → EReal) (eps : S1x1.Idx → EReal) (w1 : S128x128.Idx → EReal) (b1 : S1x128.Idx → EReal)
    (w2 : S128x128.Idx → EReal) (b2 : S1x128.Idx → EReal) (r : Fin 100000) (j : Fin 128) : EReal :=
  (∑ k : Fin 128,
      max ((∑ l : Fin 128, ((Ideal.ofBits .f32 0x3F800000#32 + eps (ix2 (0 : Fin 1) (0 : Fin 1))) * x (ix2 r l) + agg (ix2 r l)) * w1 (ix2 l k))
            + b1 (ix2 (0 : Fin 1) k)) (Ideal.ofBits .f32 0x00000000#32) * w2 (ix2 k j))
    + b2 (ix2 (0 : Fin 1) j)

/-- The MLP output array. -/
def out7 (x agg : S100000x128.Idx → EReal) (eps : S1x1.Idx → EReal) (w1 : S128x128.Idx → EReal) (b1 : S1x128.Idx → EReal)
    (w2 : S128x128.Idx → EReal) (b2 : S1x128.Idx → EReal) : S100000x128.Idx → EReal :=
  fun i => h2 x agg eps w1 b1 w2 b2 (i 0 : Fin 100000) (i 1 : Fin 128)

/-- The column sums of the MLP output. -/
def out8 (x agg : S100000x128.Idx → EReal) (eps : S1x1.Idx → EReal) (w1 : S128x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128)

/-- The column sums of its squares. -/
def out9 (x agg : S100000x128.Idx → EReal) (eps : S1x1.Idx → EReal) (w1 : S128x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128) * h2 x agg eps w1 b1 w2 b2 r (i 1 : Fin 128)

/-- Where each window's block sits at point `t`. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = t.val
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0 :=
  (by decide +kernel : ∀ t : Fin grid4.N, _)

/-- Row `p` of point `t`'s block is row 4000·t + p of the array. -/
def row (t : Fin cfg4.N) (p : Fin 4000) : Fin 100000 :=
  ⟨4000 * t.val + p.val, by have h : t.val < 25 := lt_of_lt_of_eq t.isLt N_4; have := p.isLt; omega⟩

theorem rd0 (c : Dev nD) (t : Fin cfg4.N) (p : Fin 4000) (q : Fin 128) :
    (iblk4 V c 0 t : Vec Ideal S4000x128 .f32) (ix2 p q) = (V c main_v28 : S100000x128.Idx → EReal) (ix2 (row t p) q) := by
  obtain ⟨e0, e1, -⟩ := idx_facts t
  unfold iblk4
  rw [View.read_apply]
  show V c main_v28 _ = V c main_v28 _
  refine congrArg _ (funext fun a => Fin.ext ?_)
  match a with
  | ⟨0, _⟩ => show win4_0.index t (0 : Fin 2) * 4000 + 1 * p.val = 4000 * t.val + p.val; rw [e0]; omega
  | ⟨1, _⟩ => show win4_0.index t (1 : Fin 2) * 128 + 1 * q.val = q.val; rw [e1]; omega

theorem rd1 (c : Dev nD) (t : Fin cfg4.N) (p : Fin 4000) (q : Fin 128) :
    (iblk4 V c 1 t : Vec Ideal S4000x128 .f32) (ix2 p q) = (V c main_v58 : S100000x128.Idx → EReal) (ix2 (row t p) q) := by
  obtain ⟨-, -, e0, e1, -⟩ := idx_facts t
  unfold iblk4
  rw [View.read_apply]
  show V c main_v58 _ = V c main_v58 _
  refine congrArg _ (funext fun a => Fin.ext ?_)
  match a with
  | ⟨0, _⟩ => show win4_1.index t (0 : Fin 2) * 4000 + 1 * p.val = 4000 * t.val + p.val; rw [e0]; omega
  | ⟨1, _⟩ => show win4_1.index t (1 : Fin 2) * 128 + 1 * q.val = q.val; rw [e1]; omega

theorem rd2 (c : Dev nD) (t : Fin cfg4.N) (p : Fin 1) (q : Fin 1) :
    (iblk4 V c 2 t : Vec Ideal S1x1 .f32) (ix2 p q) = (V c main_v59 : S1x1.Idx → EReal) (ix2 p q) := by
  obtain ⟨-, -, -, -, e0, e1, -⟩ := idx_facts t
  unfold iblk4
  rw [View.read_apply]
  show V c main_v59 _ = V c main_v59 _
  refine congrArg _ (funext fun a => Fin.ext ?_)
  match a with
  | ⟨0, _⟩ => show win4_2.index t (0 : Fin 2) * 1 + 1 * p.val = p.val; rw [e0]; omega
  | ⟨1, _⟩ => show win4_2.index t (1 : Fin 2) * 1 + 1 * q.val = q.val; rw [e1]; omega

theorem rd3 (c : Dev nD) (t : Fin cfg4.N) (p : Fin 128) (q : Fin 128) :
    (iblk4 V c 3 t : Vec Ideal S128x128 .f32) (ix2 p q) = (V c main_v36 : S128x128.Idx → EReal) (ix2 p q) := by
  obtain ⟨-, -, -, -, -, -, e0, e1, -⟩ := idx_facts t
  unfold iblk4
  rw [View.read_apply]
  show V c main_v36 _ = V c main_v36 _
  refine congrArg _ (funext fun a => Fin.ext ?_)
  match a with
  | ⟨0, _⟩ => show win4_3.index t (0 : Fin 2) * 128 + 1 * p.val = p.val; rw [e0]; omega
  | ⟨1, _⟩ => show win4_3.index t (1 : Fin 2) * 128 + 1 * q.val = q.val; rw [e1]; omega

theorem rd4 (c : Dev nD) (t : Fin cfg4.N) (p : Fin 1) (q : Fin 128) :
    (iblk4 V c 4 t : Vec Ideal S1x128 .f32) (ix2 p q) = (V c main_v60 : S1x128.Idx → EReal) (ix2 p q) := by
  obtain ⟨-, -, -, -, -, -, -, -, e0, e1, -⟩ := idx_facts t
  unfold iblk4
  rw [View.read_apply]
  show V c main_v60 _ = V c main_v60 _
  refine congrArg _ (funext fun a => Fin.ext ?_)
  match a with
  | ⟨0, _⟩ => show win4_4.index t (0 : Fin 2) * 1 + 1 * p.val = p.val; rw [e0]; omega
  | ⟨1, _⟩ => show win4_4.index t (1 : Fin 2) * 128 + 1 * q.val = q.val; rw [e1]; omega

theorem rd5 (c : Dev nD) (t : Fin cfg4.N) (p : Fin 128) (q : Fin 128) :
    (iblk4 V c 5 t : Vec Ideal S128x128 .f32) (ix2 p q) = (V c main_v40 : S128x128.Idx → EReal) (ix2 p q) := by
  obtain ⟨-, -, -, -, -, -, -, -, -, -, e0, e1, -⟩ := idx_facts t
  unfold iblk4
  rw [View.read_apply]
  show V c main_v40 _ = V c main_v40 _
  refine congrArg _ (funext fun a => Fin.ext ?_)
  match a with
  | ⟨0, _⟩ => show win4_5.index t (0 : Fin 2) * 128 + 1 * p.val = p.val; rw [e0]; omega
  | ⟨1, _⟩ => show win4_5.index t (1 : Fin 2) * 128 + 1 * q.val = q.val; rw [e1]; omega

theorem rd6 (c : Dev nD) (t : Fin cfg4.N) (p : Fin 1) (q : Fin 128) :
    (iblk4 V c 6 t : Vec Ideal S1x128 .f32) (ix2 p q) = (V c main_v61 : S1x128.Idx → EReal) (ix2 p q) := by
  obtain ⟨-, -, -, -, -, -, -, -, -, -, -, -, e0, e1, -⟩ := idx_facts t
  unfold iblk4
  rw [View.read_apply]
  show V c main_v61 _ = V c main_v61 _
  refine congrArg _ (funext fun a => Fin.ext ?_)
  match a with
  | ⟨0, _⟩ => show win4_6.index t (0 : Fin 2) * 1 + 1 * p.val = p.val; rw [e0]; omega
  | ⟨1, _⟩ => show win4_6.index t (1 : Fin 2) * 128 + 1 * q.val = q.val; rw [e1]; omega

/-- The MLP block of point `t`, entry (p, q): row 4000·t + p of the MLP output. -/
theorem blk_apply (c : Dev nD) (t : Fin cfg4.N) (p : Fin 4000) (q : Fin 128) :
    k4_pay5 (iblk4 V c 0 t) (iblk4 V c 1 t) (iblk4 V c 2 t) (iblk4 V c 3 t) (iblk4 V c 4 t) (iblk4 V c 5 t) (iblk4 V c 6 t) (ix2 p q) = h2 (V c main_v28) (V c main_v58) (V c main_v59) (V c main_v36) (V c main_v60) (V c main_v40) (V c main_v61) (row t p) q := by
  rw [pay5_apply]
  unfold h2
  simp only [rd0, rd1, rd2, rd3, rd4, rd5, rd6]

/-- Whatever the control case, the first output's buffer after point `t` is the point's MLP block. -/
theorem outs7 (c : Dev nD) (t : Fin cfg4.N) : (outsAt4 V c t.val t.isLt).1 = k4_pay5 (iblk4 V c 0 t) (iblk4 V c 1 t) (iblk4 V c 2 t) (iblk4 V c 3 t) (iblk4 V c 4 t) (iblk4 V c 5 t) (iblk4 V c 6 t) := by
  by_cases h0 : t.val % 25 = 0
  · rw [outsAt4_A V c t h0]
    dsimp only
    exact outA7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr h0) (iblk4 V c 0 t) (iblk4 V c 1 t) (iblk4 V c 2 t) (iblk4 V c 3 t) (iblk4 V c 4 t) (iblk4 V c 5 t) (iblk4 V c 6 t)
  · rw [outsAt4_B V c t h0]
    dsimp only
    exact outB7 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2

/-- The output block's entry (p, q) at point `t` is entry (4000·t + p, q) of the array. -/
theorem emb7 (t : Fin cfg4.N) (p : Fin 4000) (q : Fin 128) :
    ((cfg4.win 7).blk t).view.emb (ix2 p q) = (ix2 (row t p) q : S100000x128.Idx) := by
  obtain ⟨-, -, -, -, -, -, -, -, -, -, -, -, -, -, e0, e1, -⟩ := idx_facts t
  refine funext fun a => Fin.ext ?_
  match a with
  | ⟨0, _⟩ => show win4_7.index t (0 : Fin 2) * 4000 + 1 * p.val = 4000 * t.val + p.val; rw [e0]; omega
  | ⟨1, _⟩ => show win4_7.index t (1 : Fin 2) * 128 + 1 * q.val = q.val; rw [e1]; omega

theorem flushed7_eq (c : Dev nD) (t : Fin cfg4.N) :
    (dat4 V c).flushed 7 t = ((cfg4.win 7).blk t).view.read (Elt Ideal) (out7 (V c main_v28) (V c main_v58) (V c main_v59) (V c main_v36) (V c main_v60) (V c main_v40) (V c main_v61)) := by
  show (cfg4.win 7).cut (grid4.coords t) ((dat4 V c).after 7 t) = _
  rw [after4_7, outs7]
  funext j
  obtain ⟨p, q, rfl⟩ : ∃ (p : Fin 4000) (q : Fin 128), j = ix2 p q := ⟨j 0, j 1, eq_ix2 j⟩
  show k4_pay5 (iblk4 V c 0 t) (iblk4 V c 1 t) (iblk4 V c 2 t) (iblk4 V c 3 t) (iblk4 V c 4 t) (iblk4 V c 5 t) (iblk4 V c 6 t) (ix2 p q) = out7 (V c main_v28) (V c main_v58) (V c main_v59) (V c main_v36) (V c main_v60) (V c main_v40) (V c main_v61) (((cfg4.win 7).blk t).view.emb (ix2 p q))
  rw [emb7, blk_apply]
  rfl

theorem cover7 (i : S100000x128.Idx) : ∃ t : Fin cfg4.N, (cfg4.win 7).flush t = true ∧ i ∈ ((cfg4.win 7).blk t).view.set := by
  have hi0 : (i 0).val < 100000 := (i 0).isLt
  have hi1 : (i 1).val < 128 := (i 1).isLt
  let t : Fin cfg4.N := ⟨(i 0).val / 4000, by rw [show cfg4.N = 25 from N_4]; omega⟩
  obtain ⟨-, -, -, -, -, -, -, -, -, -, -, -, -, -, e0, e1, -⟩ := idx_facts t
  refine ⟨t, flush4_7 t, ?_⟩
  show i ∈ ((View.whole main_v62_0).slice (win4_7.rect t)).set
  rw [View.set_slice_whole, Rect.mem_set_unit]
  intro a
  match a with
  | ⟨0, _⟩ =>
    show win4_7.index t (0 : Fin 2) * 4000 ≤ (i 0).val ∧ (i 0).val < win4_7.index t (0 : Fin 2) * 4000 + 4000
    rw [e0]; show (i 0).val / 4000 * 4000 ≤ (i 0).val ∧ (i 0).val < (i 0).val / 4000 * 4000 + 4000; omega
  | ⟨1, _⟩ =>
    show win4_7.index t (1 : Fin 2) * 128 ≤ (i 1).val ∧ (i 1).val < win4_7.index t (1 : Fin 2) * 128 + 128
    rw [e1]; omega

/-- The first result array is the MLP output of the input arrays. -/
theorem final7 (c : Dev nD) : (dat4 V c).arrAt 7 cfg4.N = out7 (V c main_v28) (V c main_v58) (V c main_v59) (V c main_v36) (V c main_v60) (V c main_v40) (V c main_v61) :=
  (dat4 V c).arrAt_eq_of_cover 7 _ (fun t _ => flushed7_eq V c t) (cover7)

end Values

/-! ## The carried column sums -/

section Sums

variable (V : (c : Dev nD) → (b : Ref sig .tc) → Buf (Elt Ideal) ((c : Thread nD τ).loc b))

/-- The lane sum's inserted index: row `r` of column `q`. -/
theorem lift_eq (q : Fin 128) (r : Fin 4000) : reduces_S4000x128_S128.lift (ix1 q) r = (ix2 r q : S4000x128.Idx) := by
  funext a; apply Fin.ext
  match a with
  | ⟨0, _⟩ => rfl
  | ⟨1, _⟩ => rfl

/-- The sum payload: what the carried row held plus the block's column sum. -/
theorem pay1_apply (v30 : FVec Ideal S4000x128 .f32) (v32 : Vec Ideal S1x128 .f32) (u : Fin 1) (q : Fin 128) :
    k4_pay1 v30 v32 (ix2 u q) = v32 (ix2 u q) + ∑ r : Fin 4000, v30 (ix2 r q) := by
  unfold k4_pay1
  simp only [shapeCast_self]
  rw [addf_apply, shapeCast_a_1a_apply]
  refine congrArg (_ + ·) ?_
  refine (Ideal.multiReduction_add_single v30 0x00000000#32 reduces_S4000x128_S128 (.inl rfl) rfl (ix1 q)).trans ?_
  exact Finset.sum_congr rfl fun r _ => congrArg v30 (lift_eq q r)

/-- The sum-of-squares payload. -/
theorem pay2_apply (v30 : FVec Ideal S4000x128 .f32) (v38 : Vec Ideal S1x128 .f32) (u : Fin 1) (q : Fin 128) :
    k4_pay2 v30 v38 (ix2 u q) = v38 (ix2 u q) + ∑ r : Fin 4000, v30 (ix2 r q) * v30 (ix2 r q) := by
  unfold k4_pay2
  simp only [shapeCast_self]
  rw [addf_apply, shapeCast_a_1a_apply]
  refine congrArg (_ + ·) ?_
  refine (Ideal.multiReduction_add_single (mulf v30 v30) 0x00000000#32 reduces_S4000x128_S128 (.inl rfl) rfl (ix1 q)).trans ?_
  exact Finset.sum_congr rfl fun r _ => congrArg (fun z => v30 z * v30 z) (lift_eq q r)

/-- Row `n` of the MLP output as a function of a natural number (0 beyond the array). -/
def g (c : Dev nD) (q : Fin 128) (n : ℕ) : EReal :=
  if h : n < 100000 then h2 (V c main_v28) (V c main_v58) (V c main_v59) (V c main_v36) (V c main_v60) (V c main_v40) (V c main_v61) ⟨n, h⟩ q else 0

theorem g_row (c : Dev nD) (q : Fin 128) (t : Fin cfg4.N) (p : Fin 4000) :
    h2 (V c main_v28) (V c main_v58) (V c main_v59) (V c main_v36) (V c main_v60) (V c main_v40) (V c main_v61) (row t p) q = g V c q (4000 * t.val + p.val) := by
  unfold g
  rw [dif_pos (show 4000 * t.val + p.val < 100000 from (row t p).isLt)]
  rfl

/-- The block's column sum at point `t` is the sum of rows 4000·t … 4000·t + 3999. -/
theorem blk_sum (c : Dev nD) (q : Fin 128) (t : Fin cfg4.N) :
    ∑ r : Fin 4000, k4_pay5 (iblk4 V c 0 t) (iblk4 V c 1 t) (iblk4 V c 2 t) (iblk4 V c 3 t) (iblk4 V c 4 t) (iblk4 V c 5 t) (iblk4 V c 6 t) (ix2 r q) = ∑ p ∈ Finset.range 4000, g V c q (4000 * t.val + p) := by
  rw [← Fin.sum_univ_eq_sum_range (fun p => g V c q (4000 * t.val + p)) 4000]
  exact Finset.sum_congr rfl fun r _ => by rw [blk_apply, g_row]

theorem blk_sumsq (c : Dev nD) (q : Fin 128) (t : Fin cfg4.N) :
    ∑ r : Fin 4000, k4_pay5 (iblk4 V c 0 t) (iblk4 V c 1 t) (iblk4 V c 2 t) (iblk4 V c 3 t) (iblk4 V c 4 t) (iblk4 V c 5 t) (iblk4 V c 6 t) (ix2 r q) * k4_pay5 (iblk4 V c 0 t) (iblk4 V c 1 t) (iblk4 V c 2 t) (iblk4 V c 3 t) (iblk4 V c 4 t) (iblk4 V c 5 t) (iblk4 V c 6 t) (ix2 r q)
      = ∑ p ∈ Finset.range 4000, g V c q (4000 * t.val + p) * g V c q (4000 * t.val + p) := by
  rw [← Fin.sum_univ_eq_sum_range (fun p => g V c q (4000 * t.val + p) * g V c q (4000 * t.val + p)) 4000]
  exact Finset.sum_congr rfl fun r _ => by rw [blk_apply, g_row]

/-- After point `n` the carried rows hold the column sums over rows 0 … 4000·(n + 1) − 1. -/
theorem acc (c : Dev nD) (q : Fin 128) : ∀ (n : ℕ) (hn : n < cfg4.N),
    (outsAt4 V c n hn).2.1 (ix2 (0 : Fin 1) q) = ∑ r ∈ Finset.range (4000 * (n + 1)), g V c q r
    ∧ (outsAt4 V c n hn).2.2 (ix2 (0 : Fin 1) q) = ∑ r ∈ Finset.range (4000 * (n + 1)), g V c q r * g V c q r := by
  intro n
  induction n with
  | zero =>
    intro hn
    let t : Fin cfg4.N := ⟨0, hn⟩
    have hA := outsAt4_A V c t (Nat.zero_mod _)
    have e8 := outA8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr (Nat.zero_mod _)) (iblk4 V c 0 t) (iblk4 V c 1 t) (iblk4 V c 2 t) (iblk4 V c 3 t) (iblk4 V c 4 t) (iblk4 V c 5 t) (iblk4 V c 6 t)
    have e9 := outA9 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) ((hcond4_0 t).mpr (Nat.zero_mod _)) (iblk4 V c 0 t) (iblk4 V c 1 t) (iblk4 V c 2 t) (iblk4 V c 3 t) (iblk4 V c 4 t) (iblk4 V c 5 t) (iblk4 V c 6 t)
    have h1 : (outsAt4 V c 0 hn).2.1 = _ := (congrArg (fun z => z.2.1) hA).trans e8
    have h2' : (outsAt4 V c 0 hn).2.2 = _ := (congrArg (fun z => z.2.2) hA).trans e9
    constructor
    · rw [h1, pay1_apply, blk_sum V c q t]
      show Ideal.ofBits .f32 0x00000000#32 + _ = _
      rw [Ideal.ofBits_zero_f32, zero_add]
      show ∑ p ∈ Finset.range 4000, g V c q (4000 * 0 + p) = _
      simp
    · rw [h2', pay2_apply, blk_sumsq V c q t]
      show Ideal.ofBits .f32 0x00000000#32 + _ = _
      rw [Ideal.ofBits_zero_f32, zero_add]
      show ∑ p ∈ Finset.range 4000, g V c q (4000 * 0 + p) * g V c q (4000 * 0 + p) = _
      simp
  | succ n ih =>
    intro hn
    have hN : cfg4.N = 25 := N_4
    let t : Fin cfg4.N := ⟨n + 1, hn⟩
    have h0 : ¬ t.val % 25 = 0 := by show ¬ (n + 1) % 25 = 0; omega
    have hB := outsAt4_B V c t h0
    have e8 := outB8 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2
    have e9 := outB9 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (fun h => h0 ((hcond4_0 t).mp h)) (iblk4 V c 0 t) (iblk4 V c 1 t) (iblk4 V c 2 t) (iblk4 V c 3 t) (iblk4 V c 4 t) (iblk4 V c 5 t) (iblk4 V c 6 t) (outsAt4 V c (t.val - 1) (Nat.lt_of_le_of_lt (Nat.sub_le _ _) t.isLt)).2.1 (outsAt4 V c (t.val - 1) (Nat.lt_of_le_of_lt (Nat.sub_le _ _) t.isLt)).2.2
    have h1 : (outsAt4 V c (n + 1) hn).2.1 = _ := (congrArg (fun z => z.2.1) hB).trans e8
    have h2' : (outsAt4 V c (n + 1) hn).2.2 = _ := (congrArg (fun z => z.2.2) hB).trans e9
    obtain ⟨i1, i2⟩ := ih (Nat.lt_of_succ_lt hn)
    have hp : (outsAt4 V c (t.val - 1) (Nat.lt_of_le_of_lt (Nat.sub_le _ _) t.isLt)) = outsAt4 V c n (Nat.lt_of_succ_lt hn) := rfl
    constructor
    · rw [h1, pay1_apply, blk_sum V c q t, hp, i1]
      show _ + ∑ p ∈ Finset.range 4000, g V c q (4000 * (n + 1) + p) = _
      rw [show 4000 * (n + 1 + 1) = 4000 * (n + 1) + 4000 from by ring, Finset.sum_range_add]
    · rw [h2', pay2_apply, blk_sumsq V c q t, hp, i2]
      show _ + ∑ p ∈ Finset.range 4000, g V c q (4000 * (n + 1) + p) * g V c q (4000 * (n + 1) + p) = _
      rw [show 4000 * (n + 1 + 1) = 4000 * (n + 1) + 4000 from by ring, Finset.sum_range_add]

end Sums

/-! ## The carried sums, written back after the last point -/

section Finals

variable (V : (c : Dev nD) → (b : Ref sig .tc) → Buf (Elt Ideal) ((c : Thread nD τ).loc b))

theorem out8_apply (x agg eps w1 b1 w2 b2) (u : Fin 1) (q : Fin 128) :
    out8 x agg eps w1 b1 w2 b2 (ix2 u q) = ∑ r : Fin 100000, h2 x agg eps w1 b1 w2 b2 r q := rfl
theorem out9_apply (x agg eps w1 b1 w2 b2) (u : Fin 1) (q : Fin 128) :
    out9 x agg eps w1 b1 w2 b2 (ix2 u q) = ∑ r : Fin 100000, h2 x agg eps w1 b1 w2 b2 r q * h2 x agg eps w1 b1 w2 b2 r q := rfl

-- the sums range over 100000 rows: never unfolded by a definitional check
attribute [local irreducible] out8 out9

theorem emb8 (t : Fin cfg4.N) (u : Fin 1) (q : Fin 128) :
    ((cfg4.win 8).blk t).view.emb (ix2 u q) = (ix2 u q : S1x128.Idx) := by
  obtain ⟨-, -, -, -, -, -, -, -, -, -, -, -, -, -, -, -, e0, e1, -⟩ := idx_facts t
  refine funext fun a => Fin.ext ?_
  match a with
  | ⟨0, _⟩ => show win4_8.index t (0 : Fin 2) * 1 + 1 * u.val = u.val; rw [e0]; omega
  | ⟨1, _⟩ => show win4_8.index t (1 : Fin 2) * 128 + 1 * q.val = q.val; rw [e1]; omega

theorem flushed8_eq (c : Dev nD) (t : Fin cfg4.N) (hf : (cfg4.win 8).flush t = true) :
    (dat4 V c).flushed 8 t = ((cfg4.win 8).blk t).view.read (Elt Ideal) (out8 (V c main_v28) (V c main_v58) (V c main_v59) (V c main_v36) (V c main_v60) (V c main_v40) (V c main_v61)) := by
  have h24 : t.val = 24 := by have h1 := (flush4_8 t).mp hf; have h2 : t.val < 25 := lt_of_lt_of_eq t.isLt N_4; omega
  show (cfg4.win 8).cut (grid4.coords t) ((dat4 V c).after 8 t) = _
  rw [after4_8]
  funext j
  obtain ⟨u, q, rfl⟩ : ∃ (u : Fin 1) (q : Fin 128), j = ix2 u q := ⟨j 0, j 1, eq_ix2 j⟩
  obtain rfl : u = 0 := Subsingleton.elim _ _
  show (outsAt4 V c t.val t.isLt).2.1 (ix2 (0 : Fin 1) q) = out8 (V c main_v28) (V c main_v58) (V c main_v59) (V c main_v36) (V c main_v60) (V c main_v40) (V c main_v61) (((cfg4.win 8).blk t).view.emb (ix2 (0 : Fin 1) q))
  rw [emb8, (acc V c q t.val t.isLt).1, h24, out8_apply, show 4000 * (24 + 1) = 100000 from rfl]
  rw [← Fin.sum_univ_eq_sum_range (fun r => g V c q r) 100000]
  exact Finset.sum_congr rfl fun r _ => by unfold g; rw [dif_pos r.isLt]

theorem cover8 (i : S1x128.Idx) : ∃ t : Fin cfg4.N, (cfg4.win 8).flush t = true ∧ i ∈ ((cfg4.win 8).blk t).view.set := by
  have hi0 : (i 0).val < 1 := (i 0).isLt
  have hi1 : (i 1).val < 128 := (i 1).isLt
  let t : Fin cfg4.N := ⟨24, by rw [show cfg4.N = 25 from N_4]; omega⟩
  obtain ⟨-, -, -, -, -, -, -, -, -, -, -, -, -, -, -, -, e0, e1, -⟩ := idx_facts t
  refine ⟨t, (flush4_8 t).mpr rfl, ?_⟩
  show i ∈ ((View.whole main_v62_1).slice (win4_8.rect t)).set
  rw [View.set_slice_whole, Rect.mem_set_unit]
  intro a
  match a with
  | ⟨0, _⟩ =>
    show win4_8.index t (0 : Fin 2) * 1 ≤ (i 0).val ∧ (i 0).val < win4_8.index t (0 : Fin 2) * 1 + 1
    rw [e0]; omega
  | ⟨1, _⟩ =>
    show win4_8.index t (1 : Fin 2) * 128 ≤ (i 1).val ∧ (i 1).val < win4_8.index t (1 : Fin 2) * 128 + 128
    rw [e1]; omega

theorem final8 (c : Dev nD) : (dat4 V c).arrAt 8 cfg4.N = out8 (V c main_v28) (V c main_v58) (V c main_v59) (V c main_v36) (V c main_v60) (V c main_v40) (V c main_v61) :=
  (dat4 V c).arrAt_eq_of_cover 8 _ (fun t hf => flushed8_eq V c t hf) (cover8)

theorem emb9 (t : Fin cfg4.N) (u : Fin 1) (q : Fin 128) :
    ((cfg4.win 9).blk t).view.emb (ix2 u q) = (ix2 u q : S1x128.Idx) := by
  obtain ⟨-, -, -, -, -, -, -, -, -, -, -, -, -, -, -, -, -, -, e0, e1⟩ := idx_facts t
  refine funext fun a => Fin.ext ?_
  match a with
  | ⟨0, _⟩ => show win4_9.index t (0 : Fin 2) * 1 + 1 * u.val = u.val; rw [e0]; omega
  | ⟨1, _⟩ => show win4_9.index t (1 : Fin 2) * 128 + 1 * q.val = q.val; rw [e1]; omega

theorem flushed9_eq (c : Dev nD) (t : Fin cfg4.N) (hf : (cfg4.win 9).flush t = true) :
    (dat4 V c).flushed 9 t = ((cfg4.win 9).blk t).view.read (Elt Ideal) (out9 (V c main_v28) (V c main_v58) (V c main_v59) (V c main_v36) (V c main_v60) (V c main_v40) (V c main_v61)) := by
  have h24 : t.val = 24 := by have h1 := (flush4_9 t).mp hf; have h2 : t.val < 25 := lt_of_lt_of_eq t.isLt N_4; omega
  show (cfg4.win 9).cut (grid4.coords t) ((dat4 V c).after 9 t) = _
  rw [after4_9]
  funext j
  obtain ⟨u, q, rfl⟩ : ∃ (u : Fin 1) (q : Fin 128), j = ix2 u q := ⟨j 0, j 1, eq_ix2 j⟩
  obtain rfl : u = 0 := Subsingleton.elim _ _
  show (outsAt4 V c t.val t.isLt).2.2 (ix2 (0 : Fin 1) q) = out9 (V c main_v28) (V c main_v58) (V c main_v59) (V c main_v36) (V c main_v60) (V c main_v40) (V c main_v61) (((cfg4.win 9).blk t).view.emb (ix2 (0 : Fin 1) q))
  rw [emb9, (acc V c q t.val t.isLt).2, h24, out9_apply, show 4000 * (24 + 1) = 100000 from rfl]
  rw [← Fin.sum_univ_eq_sum_range (fun r => g V c q r * g V c q r) 100000]
  exact Finset.sum_congr rfl fun r _ => by unfold g; rw [dif_pos r.isLt]

theorem cover9 (i : S1x128.Idx) : ∃ t : Fin cfg4.N, (cfg4.win 9).flush t = true ∧ i ∈ ((cfg4.win 9).blk t).view.set := by
  have hi0 : (i 0).val < 1 := (i 0).isLt
  have hi1 : (i 1).val < 128 := (i 1).isLt
  let t : Fin cfg4.N := ⟨24, by rw [show cfg4.N = 25 from N_4]; omega⟩
  obtain ⟨-, -, -, -, -, -, -, -, -, -, -, -, -, -, -, -, -, -, e0, e1⟩ := idx_facts t
  refine ⟨t, (flush4_9 t).mpr rfl, ?_⟩
  show i ∈ ((View.whole main_v62_2).slice (win4_9.rect t)).set
  rw [View.set_slice_whole, Rect.mem_set_unit]
  intro a
  match a with
  | ⟨0, _⟩ =>
    show win4_9.index t (0 : Fin 2) * 1 ≤ (i 0).val ∧ (i 0).val < win4_9.index t (0 : Fin 2) * 1 + 1
    rw [e0]; omega
  | ⟨1, _⟩ =>
    show win4_9.index t (1 : Fin 2) * 128 ≤ (i 1).val ∧ (i 1).val < win4_9.index t (1 : Fin 2) * 128 + 128
    rw [e1]; omega

theorem final9 (c : Dev nD) : (dat4 V c).arrAt 9 cfg4.N = out9 (V c main_v28) (V c main_v58) (V c main_v59) (V c main_v36) (V c main_v60) (V c main_v40) (V c main_v61) :=
  (dat4 V c).arrAt_eq_of_cover 9 _ (fun t hf => flushed9_eq V c t hf) (cover9)

end Finals

end Cert.KernelIdeal.Reg4

end
-- ==== Proof.Reg5.lean ====
/-
  Region 5: the normalisation of a layer's MLP output. Point `t` of the grid (25 points) holds rows 4000·t … 4000·t + 3999 of
  the MLP output [100000, 128] and of the layer's input (the residual), and the whole rows [1, 128] of the mean, the variance, the scale and the shift,
  and stores rows 4000·t … of the result. Entry (r, j) of what it stores is
      max ((h[r, j] − mean[0, j]) · rsqrt (var[0, j] + 1e-5) · gamma[0, j] + beta[0, j]) 0 + resid[r, j],
  which depends on row r of the row inputs only; so the result array is that function of the input arrays (`final6`).
-/
import proofs.«162690_j78211354460181_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg5

open Cert.KernelIdeal Cert.KernelIdeal.Gen

variable (V : (c : Dev nD) → (b : Ref sig .tc) → Buf (Elt Ideal) ((c : Thread nD τ).loc b))

/-- The normalised array as a function of the region's input arrays. -/
def out6 (h resid : S100000x128.Idx → EReal) (mean var gamma beta : S1x128.Idx → EReal) : S100000x128.Idx → EReal := fun i =>
  max ((h (ix2 (i 0 : Fin 100000) (i 1 : Fin 128)) - mean (ix2 (0 : Fin 1) (i 1 : Fin 128)))
        * Ideal.rsqrt (var (ix2 (0 : Fin 1) (i 1 : Fin 128)) + Ideal.ofBits .f32 0x3727C5AC#32)
        * gamma (ix2 (0 : Fin 1) (i 1 : Fin 128)) + beta (ix2 (0 : Fin 1) (i 1 : Fin 128)))
      (Ideal.ofBits .f32 0x00000000#32)
    + resid (ix2 (i 0 : Fin 100000) (i 1 : Fin 128))

theorem hz : (![0, 0] : Fin 2 → Nat) = fun _ => 0 := funext fun a => by fin_cases a <;> rfl

/-- The body's stored value at row `p` and column `q` of the block, from the loaded blocks. -/
theorem pay_apply (x0 x1 : Vec Ideal S4000x128 .f32) (x2 x3 x4 x5 : Vec Ideal S1x128 .f32) (p : Fin 4000) (q : Fin 128) :
    k5_pay1 x0 x2 x3 x4 x5 x1 (ix2 p q)
      = max ((x0 (ix2 p q) - x2 (ix2 (0 : Fin 1) q)) * Ideal.rsqrt (x3 (ix2 (0 : Fin 1) q) + Ideal.ofBits .f32 0x3727C5AC#32)
            * x4 (ix2 (0 : Fin 1) q) + x5 (ix2 (0 : Fin 1) q)) (Ideal.ofBits .f32 0x00000000#32) + x1 (ix2 p q) := by
  unfold k5_pay1
  simp only [shapeCast_self, maximumf_apply, addf_apply, mulf_apply, subf_apply, broadcast_apply, broadcastTo_1b_ab_apply]
  rfl

/-- Where each window's block sits at point `t`: the row windows at block `t`, the row vectors at block 0. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = t.val
    ∧ win5_6.index t (1 : Fin 2) = 0 :=
  (by decide +kernel : ∀ t : Fin grid5.N, _)

/-- Row `p` of point `t`'s block is row 4000·t + p of the array. -/
def row (t : Fin cfg5.N) (p : Fin 4000) : Fin 100000 :=
  ⟨4000 * t.val + p.val, by have h : t.val < 25 := lt_of_lt_of_eq t.isLt N_5; have := p.isLt; omega⟩

theorem rd0 (c : Dev nD) (t : Fin cfg5.N) (p : Fin 4000) (q : Fin 128) :
    (iblk5 V c 0 t : Vec Ideal S4000x128 .f32) (ix2 p q) = (V c main_v62_0 : S100000x128.Idx → EReal) (ix2 (row t p) q) := by
  obtain ⟨e0, e1, -⟩ := idx_facts t
  unfold iblk5
  rw [View.read_apply]
  show V c main_v62_0 _ = V c main_v62_0 _
  refine congrArg _ (funext fun a => Fin.ext ?_)
  match a with
  | ⟨0, _⟩ => show win5_0.index t (0 : Fin 2) * 4000 + 1 * p.val = 4000 * t.val + p.val; rw [e0]; omega
  | ⟨1, _⟩ => show win5_0.index t (1 : Fin 2) * 128 + 1 * q.val = q.val; rw [e1]; omega

theorem rd1 (c : Dev nD) (t : Fin cfg5.N) (p : Fin 4000) (q : Fin 128) :
    (iblk5 V c 1 t : Vec Ideal S4000x128 .f32) (ix2 p q) = (V c main_v28 : S100000x128.Idx → EReal) (ix2 (row t p) q) := by
  obtain ⟨-, -, e0, e1, -⟩ := idx_facts t
  unfold iblk5
  rw [View.read_apply]
  show V c main_v28 _ = V c main_v28 _
  refine congrArg _ (funext fun a => Fin.ext ?_)
  match a with
  | ⟨0, _⟩ => show win5_1.index t (0 : Fin 2) * 4000 + 1 * p.val = 4000 * t.val + p.val; rw [e0]; omega
  | ⟨1, _⟩ => show win5_1.index t (1 : Fin 2) * 128 + 1 * q.val = q.val; rw [e1]; omega

theorem rd2 (c : Dev nD) (t : Fin cfg5.N) (q : Fin 128) :
    (iblk5 V c 2 t : Vec Ideal S1x128 .f32) (ix2 (0 : Fin 1) q) = (V c main_v64 : S1x128.Idx → EReal) (ix2 (0 : Fin 1) q) := by
  obtain ⟨-, -, -, -, e0, e1, -⟩ := idx_facts t
  unfold iblk5
  rw [View.read_apply]
  show V c main_v64 _ = V c main_v64 _
  refine congrArg _ (funext fun a => Fin.ext ?_)
  match a with
  | ⟨0, _⟩ => show win5_2.index t (0 : Fin 2) * 1 + 1 * (0 : Fin 1).val = (0 : Fin 1).val; rw [e0]; rfl
  | ⟨1, _⟩ => show win5_2.index t (1 : Fin 2) * 128 + 1 * q.val = q.val; rw [e1]; omega

theorem rd3 (c : Dev nD) (t : Fin cfg5.N) (q : Fin 128) :
    (iblk5 V c 3 t : Vec Ideal S1x128 .f32) (ix2 (0 : Fin 1) q) = (V c main_v68 : S1x128.Idx → EReal) (ix2 (0 : Fin 1) q) := by
  obtain ⟨-, -, -, -, -, -, e0, e1, -⟩ := idx_facts t
  unfold iblk5
  rw [View.read_apply]
  show V c main_v68 _ = V c main_v68 _
  refine congrArg _ (funext fun a => Fin.ext ?_)
  match a with
  | ⟨0, _⟩ => show win5_3.index t (0 : Fin 2) * 1 + 1 * (0 : Fin 1).val = (0 : Fin 1).val; rw [e0]; rfl
  | ⟨1, _⟩ => show win5_3.index t (1 : Fin 2) * 128 + 1 * q.val = q.val; rw [e1]; omega

theorem rd4 (c : Dev nD) (t : Fin cfg5.N) (q : Fin 128) :
    (iblk5 V c 4 t : Vec Ideal S1x128 .f32) (ix2 (0 : Fin 1) q) = (V c main_v69 : S1x128.Idx → EReal) (ix2 (0 : Fin 1) q) := by
  obtain ⟨-, -, -, -, -, -, -, -, e0, e1, -⟩ := idx_facts t
  unfold iblk5
  rw [View.read_apply]
  show V c main_v69 _ = V c main_v69 _
  refine congrArg _ (funext fun a => Fin.ext ?_)
  match a with
  | ⟨0, _⟩ => show win5_4.index t (0 : Fin 2) * 1 + 1 * (0 : Fin 1).val = (0 : Fin 1).val; rw [e0]; rfl
  | ⟨1, _⟩ => show win5_4.index t (1 : Fin 2) * 128 + 1 * q.val = q.val; rw [e1]; omega

theorem rd5 (c : Dev nD) (t : Fin cfg5.N) (q : Fin 128) :
    (iblk5 V c 5 t : Vec Ideal S1x128 .f32) (ix2 (0 : Fin 1) q) = (V c main_v70 : S1x128.Idx → EReal) (ix2 (0 : Fin 1) q) := by
  obtain ⟨-, -, -, -, -, -, -, -, -, -, e0, e1, -⟩ := idx_facts t
  unfold iblk5
  rw [View.read_apply]
  show V c main_v70 _ = V c main_v70 _
  refine congrArg _ (funext fun a => Fin.ext ?_)
  match a with
  | ⟨0, _⟩ => show win5_5.index t (0 : Fin 2) * 1 + 1 * (0 : Fin 1).val = (0 : Fin 1).val; rw [e0]; rfl
  | ⟨1, _⟩ => show win5_5.index t (1 : Fin 2) * 128 + 1 * q.val = q.val; rw [e1]; omega

/-- The output block's entry (p, q) at point `t` is entry (4000·t + p, q) of the array. -/
theorem emb_out (t : Fin cfg5.N) (p : Fin 4000) (q : Fin 128) :
    ((cfg5.win 6).blk t).view.emb (ix2 p q) = (ix2 (row t p) q : S100000x128.Idx) := by
  obtain ⟨-, -, -, -, -, -, -, -, -, -, -, -, e0, e1⟩ := idx_facts t
  refine funext fun a => Fin.ext ?_
  match a with
  | ⟨0, _⟩ => show win5_6.index t (0 : Fin 2) * 4000 + 1 * p.val = 4000 * t.val + p.val; rw [e0]; omega
  | ⟨1, _⟩ => show win5_6.index t (1 : Fin 2) * 128 + 1 * q.val = q.val; rw [e1]; omega

/-- What point `t` writes back is block `t` of the normalised array of the input arrays as the region finds them. -/
theorem flushed_eq (c : Dev nD) (t : Fin cfg5.N) :
    (dat5 V c).flushed 6 t = ((cfg5.win 6).blk t).view.read (Elt Ideal) (out6 (V c main_v62_0) (V c main_v28) (V c main_v64) (V c main_v68) (V c main_v69) (V c main_v70)) := by
  show (cfg5.win 6).cut (grid5.coords t) ((dat5 V c).after 6 t) = _
  rw [after5_6]
  unfold out5_6
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k5_pay1 (iblk5 V c 0 t) (iblk5 V c 2 t) (iblk5 V c 3 t) (iblk5 V c 4 t) (iblk5 V c 5 t) (iblk5 V c 1 t) (ix2 p q)
    = out6 (V c main_v62_0) (V c main_v28) (V c main_v64) (V c main_v68) (V c main_v69) (V c main_v70) (((cfg5.win 6).blk t).view.emb (ix2 p q))
  rw [emb_out, pay_apply]
  simp only [rd0, rd1, rd2, rd3, rd4, rd5]
  rfl

/-- Every row of the array lies in the block of the point that is its quotient by 4000. -/
theorem cover (i : S100000x128.Idx) : ∃ t : Fin cfg5.N, (cfg5.win 6).flush t = true ∧ i ∈ ((cfg5.win 6).blk t).view.set := by
  have hi0 : (i 0).val < 100000 := (i 0).isLt
  have hi1 : (i 1).val < 128 := (i 1).isLt
  let t : Fin cfg5.N := ⟨(i 0).val / 4000, by rw [show cfg5.N = 25 from N_5]; omega⟩
  obtain ⟨-, -, -, -, -, -, -, -, -, -, -, -, e0, e1⟩ := idx_facts t
  refine ⟨t, flush5_6 t, ?_⟩
  show i ∈ ((View.whole main_v71).slice (win5_6.rect t)).set
  rw [View.set_slice_whole, Rect.mem_set_unit]
  intro a
  match a with
  | ⟨0, _⟩ =>
    show win5_6.index t (0 : Fin 2) * 4000 ≤ (i 0).val ∧ (i 0).val < win5_6.index t (0 : Fin 2) * 4000 + 4000
    rw [e0]; show (i 0).val / 4000 * 4000 ≤ (i 0).val ∧ (i 0).val < (i 0).val / 4000 * 4000 + 4000; omega
  | ⟨1, _⟩ =>
    show win5_6.index t (1 : Fin 2) * 128 ≤ (i 1).val ∧ (i 1).val < win5_6.index t (1 : Fin 2) * 128 + 128
    rw [e1]; omega

/-- The region's result array is the normalised array of its input arrays. -/
theorem final6 (c : Dev nD) :
    (dat5 V c).arrAt 6 cfg5.N = out6 (V c main_v62_0) (V c main_v28) (V c main_v64) (V c main_v68) (V c main_v69) (V c main_v70) :=
  (dat5 V c).arrAt_eq_of_cover 6 _ (fun t _ => flushed_eq V c t) cover

end Cert.KernelIdeal.Reg5

end
-- ==== Proof.Reg6.lean ====
/-
  Region 6: the edge message of layer 2. Point `t` of the grid (100 points) holds rows 6000·t … 6000·t + 5999 of the
  gathered node features `xj` [600000, 128] and of `edge_attr` [600000, 3], all of `e_w` [3, 128] and of the bias row
  [1, 128], and stores rows 6000·t … of the result. Entry (e, j) of what it stores is
      max (xj[e, j] + Σ_k edge_attr[e, k] · e_w[k, j] + e_b[0, j]) 0,
  which depends on row e of the inputs only; so the result array is that function of the four arrays, row by row
  (`final`), whatever the region finds in them.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg6

open Cert.KernelIdeal Cert.KernelIdeal.Gen

variable (V : (c : Dev nD) → (b : Ref sig .tc) → Buf (Elt Ideal) ((c : Thread nD τ).loc b))

/-- The message array as a function of the gathered features, the edge attributes, the edge weights and the bias row. -/
def out4 (xj : S600000x128.Idx → EReal) (ea : S600000x3.Idx → EReal) (ew : S3x128.Idx → EReal) (eb : S1x128.Idx → EReal) :
    S600000x128.Idx → EReal := fun i =>
  max (xj (ix2 (i 0 : Fin 600000) (i 1 : Fin 128))
        + (∑ k : Fin 3, ea (ix2 (i 0 : Fin 600000) k) * ew (ix2 k (i 1 : Fin 128)))
        + eb (ix2 (0 : Fin 1) (i 1 : Fin 128)))
      (Ideal.ofBits .f32 0x00000000#32)

theorem hz : (![0, 0] : Fin 2 → Nat) = fun _ => 0 := funext fun a => by fin_cases a <;> rfl

theorem plain_6000_3_128 : Cert.LibDot.Plain dot_S6000x3_S3x128_S6000x128_1_0_0_1_n_n :=
  ⟨rfl, rfl, fun _ _ => rfl, fun j k => DotDims.lhsIdx_val_of_single _ rfl j k, fun j k => DotDims.rhsIdx_val_of_single _ rfl j k, fun _ _ => rfl⟩

/-- The body's stored value at row `p` and column `q` of the block, from the four loaded blocks. -/
theorem pay_apply (x0 : Vec Ideal S6000x128 .f32) (x1 : Vec Ideal S6000x3 .f32) (x2 : Vec Ideal S3x128 .f32)
    (x3 : Vec Ideal S1x128 .f32) (p : Fin 6000) (q : Fin 128) :
    k6_pay1 x0 x1 x2 x3 (ix2 p q)
      = max (x0 (ix2 p q) + (∑ k : Fin 3, x1 (ix2 p k) * x2 (ix2 k q)) + x3 (ix2 (0 : Fin 1) q))
          (Ideal.ofBits .f32 0x00000000#32) := by
  unfold k6_pay1
  simp only [shapeCast_self]
  rw [maximumf_apply, addf_apply, addf_apply, Cert.LibDot.matmul_ix2 plain_6000_3_128, broadcastTo_1b_ab_apply, broadcast_apply]
  refine congrArg (fun z => max (_ + z + _) _) (Finset.sum_congr rfl fun k _ => ?_)
  rw [truncf_apply, truncf_apply]

/-- Where each window's block sits at point `t`: the row windows at block `t`, the weights and the bias at block 0. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row `p` of point `t`'s block is row 6000·t + p of the array. -/
def row (t : Fin cfg6.N) (p : Fin 6000) : Fin 600000 :=
  ⟨6000 * t.val + p.val, by have h : t.val < 100 := lt_of_lt_of_eq t.isLt N_6; have := p.isLt; omega⟩

theorem rd0 (c : Dev nD) (t : Fin cfg6.N) (p : Fin 6000) (q : Fin 128) :
    (iblk6 V c 0 t : Vec Ideal S6000x128 .f32) (ix2 p q) = (V c main_v96 : S600000x128.Idx → EReal) (ix2 (row t p) q) := by
  obtain ⟨e0, e1, -⟩ := idx_facts t
  unfold iblk6
  rw [View.read_apply]
  show V c main_v96 _ = V c main_v96 _
  refine congrArg _ (funext fun a => Fin.ext ?_)
  match a with
  | ⟨0, _⟩ => show win6_0.index t (0 : Fin 2) * 6000 + 1 * p.val = 6000 * t.val + p.val; rw [e0]; omega
  | ⟨1, _⟩ => show win6_0.index t (1 : Fin 2) * 128 + 1 * q.val = q.val; rw [e1]; omega

theorem rd1 (c : Dev nD) (t : Fin cfg6.N) (p : Fin 6000) (k : Fin 3) :
    (iblk6 V c 1 t : Vec Ideal S6000x3 .f32) (ix2 p k) = (V c main_arg1 : S600000x3.Idx → EReal) (ix2 (row t p) k) := by
  obtain ⟨-, -, e0, e1, -⟩ := idx_facts t
  unfold iblk6
  rw [View.read_apply]
  show V c main_arg1 _ = V c main_arg1 _
  refine congrArg _ (funext fun a => Fin.ext ?_)
  match a with
  | ⟨0, _⟩ => show win6_1.index t (0 : Fin 2) * 6000 + 1 * p.val = 6000 * t.val + p.val; rw [e0]; omega
  | ⟨1, _⟩ => show win6_1.index t (1 : Fin 2) * 3 + 1 * k.val = k.val; rw [e1]; omega

theorem rd2 (c : Dev nD) (t : Fin cfg6.N) (k : Fin 3) (q : Fin 128) :
    (iblk6 V c 2 t : Vec Ideal S3x128 .f32) (ix2 k q) = (V c main_v73 : S3x128.Idx → EReal) (ix2 k q) := by
  obtain ⟨-, -, -, -, e0, e1, -⟩ := idx_facts t
  unfold iblk6
  rw [View.read_apply]
  show V c main_v73 _ = V c main_v73 _
  refine congrArg _ (funext fun a => Fin.ext ?_)
  match a with
  | ⟨0, _⟩ => show win6_2.index t (0 : Fin 2) * 3 + 1 * k.val = k.val; rw [e0]; omega
  | ⟨1, _⟩ => show win6_2.index t (1 : Fin 2) * 128 + 1 * q.val = q.val; rw [e1]; omega

theorem rd3 (c : Dev nD) (t : Fin cfg6.N) (q : Fin 128) :
    (iblk6 V c 3 t : Vec Ideal S1x128 .f32) (ix2 (0 : Fin 1) q) = (V c main_v97 : S1x128.Idx → EReal) (ix2 (0 : Fin 1) q) := by
  obtain ⟨-, -, -, -, -, -, e0, e1, -⟩ := idx_facts t
  unfold iblk6
  rw [View.read_apply]
  show V c main_v97 _ = V c main_v97 _
  refine congrArg _ (funext fun a => Fin.ext ?_)
  match a with
  | ⟨0, _⟩ => show win6_3.index t (0 : Fin 2) * 1 + 1 * (0 : Fin 1).val = (0 : Fin 1).val; rw [e0]; rfl
  | ⟨1, _⟩ => show win6_3.index t (1 : Fin 2) * 128 + 1 * q.val = q.val; rw [e1]; omega

/-- The output block's entry (p, q) at point `t` is entry (6000·t + p, q) of the array. -/
theorem emb4 (t : Fin cfg6.N) (p : Fin 6000) (q : Fin 128) :
    ((cfg6.win 4).blk t).view.emb (ix2 p q) = (ix2 (row t p) q : S600000x128.Idx) := by
  obtain ⟨-, -, -, -, -, -, -, -, e0, e1⟩ := idx_facts t
  refine funext fun a => Fin.ext ?_
  match a with
  | ⟨0, _⟩ => show win6_4.index t (0 : Fin 2) * 6000 + 1 * p.val = 6000 * t.val + p.val; rw [e0]; omega
  | ⟨1, _⟩ => show win6_4.index t (1 : Fin 2) * 128 + 1 * q.val = q.val; rw [e1]; omega

/-- What point `t` writes back is block `t` of the message array of the four arrays as the region finds them. -/
theorem flushed_eq (c : Dev nD) (t : Fin cfg6.N) :
    (dat6 V c).flushed 4 t = ((cfg6.win 4).blk t).view.read (Elt Ideal)
      (out4 (V c main_v96) (V c main_arg1) (V c main_v73) (V c main_v97)) := by
  show (cfg6.win 4).cut (grid6.coords t) ((dat6 V c).after 4 t) = _
  rw [after6_4]
  unfold out6_4
  rw [View.canon_unit_zero hz]
  simp only [View.ld_unit_zero (S := S6000x128) hz, View.ld_unit_zero (S := S6000x3) hz, View.ld_unit_zero (S := S3x128) hz,
    View.ld_unit_zero (S := S1x128) hz]
  funext j
  obtain ⟨p, q, rfl⟩ : ∃ (p : Fin 6000) (q : Fin 128), j = ix2 p q := ⟨j 0, j 1, eq_ix2 j⟩
  show k6_pay1 (iblk6 V c 0 t) (iblk6 V c 1 t) (iblk6 V c 2 t) (iblk6 V c 3 t) (ix2 p q)
    = out4 (V c main_v96) (V c main_arg1) (V c main_v73) (V c main_v97) (((cfg6.win 4).blk t).view.emb (ix2 p q))
  rw [emb4, pay_apply]
  simp only [rd0, rd1, rd2, rd3]
  rfl

/-- Every row of the array lies in the block of the point that is its quotient by 6000. -/
theorem cover (i : S600000x128.Idx) : ∃ t : Fin cfg6.N, (cfg6.win 4).flush t = true ∧ i ∈ ((cfg6.win 4).blk t).view.set := by
  have hi0 : (i 0).val < 600000 := (i 0).isLt
  have hi1 : (i 1).val < 128 := (i 1).isLt
  let t : Fin cfg6.N := ⟨(i 0).val / 6000, by rw [show cfg6.N = 100 from N_6]; omega⟩
  obtain ⟨-, -, -, -, -, -, -, -, e0, e1⟩ := idx_facts t
  refine ⟨t, flush6_4 t, ?_⟩
  show i ∈ ((View.whole main_v98).slice (win6_4.rect t)).set
  rw [View.set_slice_whole, Rect.mem_set_unit]
  intro a
  match a with
  | ⟨0, _⟩ =>
    show win6_4.index t (0 : Fin 2) * 6000 ≤ (i 0).val ∧ (i 0).val < win6_4.index t (0 : Fin 2) * 6000 + 6000
    rw [e0]; show (i 0).val / 6000 * 6000 ≤ (i 0).val ∧ (i 0).val < (i 0).val / 6000 * 6000 + 6000; omega
  | ⟨1, _⟩ =>
    show win6_4.index t (1 : Fin 2) * 128 ≤ (i 1).val ∧ (i 1).val < win6_4.index t (1 : Fin 2) * 128 + 128
    rw [e1]; omega

/-- The region's result array is the message array of its four input arrays. -/
theorem final4 (c : Dev nD) :
    (dat6 V c).arrAt 4 cfg6.N = out4 (V c main_v96) (V c main_arg1) (V c main_v73) (V c main_v97) :=
  (dat6 V c).arrAt_eq_of_cover 4 _ (fun t _ => flushed_eq V c t) cover

end Cert.KernelIdeal.Reg6

end
-- ==== Proof.Reg7.lean ====
/-
  Region 7: the node MLP of a layer and the running column sums. Point `t` of the grid (25 points) holds rows
  4000·t … 4000·t + 3999 of the layer's input [100000, 128] and of the aggregated messages, the scalar eps [1, 1] and the two
  weight matrices and bias rows, and stores rows 4000·t … of
      h2[r, j] = Σ_k max (Σ_l ((1 + eps) · x[r, l] + agg[r, l]) · w1[l, k] + b1[0, k]) 0 · w2[k, j] + b2[0, j];
  two further results [1, 128] are carried from point to point: zeroed at point 0, then at every point the block's column
  sums of h2, and of h2 squared, are added; they are written back once, after the last point. So the first result is h2
  row by row (`final7`), and the other two are the column sums over all 100000 rows of h2 and of its square
  (`final8`, `final9`): after point n the carried sum is the sum over rows 0 … 4000·(n + 1) − 1, by induction on n.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Reg7

open Cert.KernelIdeal Cert.KernelIdeal.Gen Cert.LibDot

theorem hz : (![0, 0] : Fin 2 → Nat) = fun _ => 0 := funext fun a => by fin_cases a <;> rfl

/-! ## What each control case leaves in each output's staging buffer -/

section Pieces
variable {F : FTy → Type} [FloatOps F]

theorem outA7 (c : Dev nD) (i : grid7.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond7_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out7_A_7 (F := F) c i arg1 harg1 arg2 harg2 arg3 harg3 arg4 harg4 arg5 harg5 arg6 harg6 arg7 harg7 arg8 harg8 arg9 harg9 arg10 harg10 hc0 x0 x1 x2 x3 x4 x5 x6 = k7_pay5 x0 x1 x2 x3 x4 x5 x6 := by
  unfold out7_A_7
  rw [View.read_writes_eq_canon _ _ _ (cover7_A_7 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outA8 (c : Dev nD) (i : grid7.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond7_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out7_A_8 (F := F) c i arg1 harg1 arg2 harg2 arg3 harg3 arg4 harg4 arg5 harg5 arg6 harg6 arg7 harg7 arg8 harg8 arg9 harg9 arg10 harg10 hc0 x0 x1 x2 x3 x4 x5 x6 = k7_pay1 (k7_pay5 x0 x1 x2 x3 x4 x5 x6) k7_pay3 := by
  unfold out7_A_8
  rw [View.read_writes_eq_canon _ _ _ (cover7_A_8 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outA9 (c : Dev nD) (i : grid7.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond7_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out7_A_9 (F := F) c i arg1 harg1 arg2 harg2 arg3 harg3 arg4 harg4 arg5 harg5 arg6 harg6 arg7 harg7 arg8 harg8 arg9 harg9 arg10 harg10 hc0 x0 x1 x2 x3 x4 x5 x6 = k7_pay2 (k7_pay5 x0 x1 x2 x3 x4 x5 x6) k7_pay4 := by
  unfold out7_A_9
  rw [View.read_writes_eq_canon _ _ _ (cover7_A_9 c i arg1 harg1 arg2 harg2 arg3 harg3 arg4 harg4 arg5 harg5 arg6 harg6 arg7 harg7 arg8 harg8 arg9 harg9 arg10 harg10 hc0 x0 x1 x2 x3 x4 x5 x6)]
  unfold kernelRun7_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB7 (c : Dev nD) (i : grid7.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond7_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out7_B_7 (F := F) c i arg1 harg1 arg2 harg2 arg3 harg3 arg4 harg4 arg5 harg5 arg6 harg6 arg7 harg7 arg8 harg8 arg9 harg9 arg10 harg10 hc0 x0 x1 x2 x3 x4 x5 x6 xo8 xo9 = k7_pay5 x0 x1 x2 x3 x4 x5 x6 := by
  unfold out7_B_7
  rw [View.read_writes_eq_canon _ _ _ (cover7_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB8 (c : Dev nD) (i : grid7.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond7_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out7_B_8 (F := F) c i arg1 harg1 arg2 harg2 arg3 harg3 arg4 harg4 arg5 harg5 arg6 harg6 arg7 harg7 arg8 harg8 arg9 harg9 arg10 harg10 hc0 x0 x1 x2 x3 x4 x5 x6 xo8 xo9 = k7_pay1 (k7_pay5 x0 x1 x2 x3 x4 x5 x6) xo8 := by
  unfold out7_B_8
  rw [View.read_writes_eq_canon _ _ _ (cover7_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB9 (c : Dev nD) (i : grid7.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond7_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out7_B_9 (F := F) c i arg1 harg1 arg2 harg2 arg3 harg3 arg4 harg4 arg5 harg5 arg6 harg6 arg7 harg7 arg8 harg8 arg9 harg9 arg10 harg10 hc0 x0 x1 x2 x3 x4 x5 x6 xo8 xo9 = k7_pay2 (k7_pay5 x0 x1 x2 x3 x4 x5 x6) xo9 := by
  unfold out7_B_9
  rw [View.read_writes_eq_canon _ _ _ (cover7_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun7_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

end Pieces

/-! ## The payloads at an entry -/

theorem plain_1 : Plain dot_S4000x128_S128x128_S4000x128_1_0_0_1_n_n :=
  ⟨rfl, rfl, fun _ _ => rfl, fun j k => DotDims.lhsIdx_val_of_single _ rfl j k, fun j k => DotDims.rhsIdx_val_of_single _ rfl j k, fun _ _ => rfl⟩

/-- A [1,1] block broadcast over [a,b] reads its one entry. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the block's MLP output. -/
theorem pay5_apply (x agg : Vec Ideal S4000x128 .f32) (eps : Vec Ideal S1x1 .f32) (w1 : Vec Ideal S128x128 .f32)
    (b1 : Vec Ideal S1x128 .f32) (w2 : Vec Ideal S128x128 .f32) (b2 : Vec Ideal S1x128 .f32) (p : Fin 4000) (q : Fin 128) :
    k7_pay5 x agg eps w1 b1 w2 b2 (ix2 p q)
      = (∑ k : Fin 128,
          max ((∑ l : Fin 128, ((Ideal.ofBits .f32 0x3F800000#32 + eps (ix2 (0 : Fin 1) (0 : Fin 1))) * x (ix2 p l) + agg (ix2 p l)) * w1 (ix2 l k))
                + b1 (ix2 (0 : Fin 1) k)) (Ideal.ofBits .f32 0x00000000#32) * w2 (ix2 k q))
        + b2 (ix2 (0 : Fin 1) q) := by
  unfold k7_pay5
  simp only [shapeCast_self]
  rw [addf_apply, matmul_ix2 plain_1, broadcastTo_1b_ab_apply]
  refine congrArg (· + _) (Finset.sum_congr rfl fun k _ => ?_)
  rw [truncf_apply, truncf_apply, maximumf_apply, addf_apply, matmul_ix2 plain_1, broadcastTo_1b_ab_apply, broadcast_apply]
  refine congrArg (fun z => max (z + _) _ * _) (Finset.sum_congr rfl fun l _ => ?_)
  rw [truncf_apply, truncf_apply, addf_apply, mulf_apply, broadcastTo_11_ab_apply, addf_apply, broadcast_apply]
  rfl

/-! ## The results as functions of the region's input arrays -/

section Values

variable (V : (c : Dev nD) → (b : Ref sig .tc) → Buf (Elt Ideal) ((c : Thread nD τ).loc b))

/-- Row `r`, column `j` of the MLP output, from the whole input arrays. -/
def h2 (x agg : S100000x128.Idx → EReal) (eps : S1x1.Idx → EReal) (w1 : S128x128.Idx → EReal) (b1 : S1x128.Idx → EReal)
    (w2 : S128x128.Idx → EReal) (b2 : S1x128.Idx → EReal) (r : Fin 100000) (j : Fin 128) : EReal :=
  (∑ k : Fin 128,
      max ((∑ l : Fin 128, ((Ideal.ofBits .f32 0x3F800000#32 + eps (ix2 (0 : Fin 1) (0 : Fin 1))) * x (ix2 r l) + agg (ix2 r l)) * w1 (ix2 l k))
            + b1 (ix2 (0 : Fin 1) k)) (Ideal.ofBits .f32 0x00000000#32) * w2 (ix2 k j))
    + b2 (ix2 (0 : Fin 1) j)

/-- The MLP output array. -/
def out7 (x agg : S100000x128.Idx → EReal) (eps : S1x1.Idx → EReal) (w1 : S128x128.Idx → EReal) (b1 : S1x128.Idx → EReal)
    (w2 : S128x128.Idx → EReal) (b2 : S1x128.Idx → EReal) : S100000x128.Idx → EReal :=
  fun i => h2 x agg eps w1 b1 w2 b2 (i 0 : Fin 100000) (i 1 : Fin 128)

/-- The column sums of the MLP output. -/
def out8 (x agg : S100000x128.Idx → EReal) (eps : S1x1.Idx → EReal) (w1 : S128x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128)

/-- The column sums of its squares. -/
def out9 (x agg : S100000x128.Idx → EReal) (eps : S1x1.Idx → EReal) (w1 : S128x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128) * h2 x agg eps w1 b1 w2 b2 r (i 1 : Fin 128)

/-- Where each window's block sits at point `t`. -/
theorem idx_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = t.val
    ∧ win7_7.index t (1 : Fin 2) = 0
    ∧ win7_8.index t (0 : Fin 2) = 0
    ∧ win7_8.index t (1 : Fin 2) = 0
    ∧ win7_9.index t (0 : Fin 2) = 0
    ∧ win7_9.index t (1 : Fin 2) = 0 :=
  (by decide +kernel : ∀ t : Fin grid7.N, _)

/-- Row `p` of point `t`'s block is row 4000·t + p of the array. -/
def row (t : Fin cfg7.N) (p : Fin 4000) : Fin 100000 :=
  ⟨4000 * t.val + p.val, by have h : t.val < 25 := lt_of_lt_of_eq t.isLt N_7; have := p.isLt; omega⟩

theorem rd0 (c : Dev nD) (t : Fin cfg7.N) (p : Fin 4000) (q : Fin 128) :
    (iblk7 V c 0 t : Vec Ideal S4000x128 .f32) (ix2 p q) = (V c main_v71 : S100000x128.Idx → EReal) (ix2 (row t p) q) := by
  obtain ⟨e0, e1, -⟩ := idx_facts t
  unfold iblk7
  rw [View.read_apply]
  show V c main_v71 _ = V c main_v71 _
  refine congrArg _ (funext fun a => Fin.ext ?_)
  match a with
  | ⟨0, _⟩ => show win7_0.index t (0 : Fin 2) * 4000 + 1 * p.val = 4000 * t.val + p.val; rw [e0]; omega
  | ⟨1, _⟩ => show win7_0.index t (1 : Fin 2) * 128 + 1 * q.val = q.val; rw [e1]; omega

theorem rd1 (c : Dev nD) (t : Fin cfg7.N) (p : Fin 4000) (q : Fin 128) :
    (iblk7 V c 1 t : Vec Ideal S4000x128 .f32) (ix2 p q) = (V c main_v101 : S100000x128.Idx → EReal) (ix2 (row t p) q) := by
  obtain ⟨-, -, e0, e1, -⟩ := idx_facts t
  unfold iblk7
  rw [View.read_apply]
  show V c main_v101 _ = V c main_v101 _
  refine congrArg _ (funext fun a => Fin.ext ?_)
  match a with
  | ⟨0, _⟩ => show win7_1.index t (0 : Fin 2) * 4000 + 1 * p.val = 4000 * t.val + p.val; rw [e0]; omega
  | ⟨1, _⟩ => show win7_1.index t (1 : Fin 2) * 128 + 1 * q.val = q.val; rw [e1]; omega

theorem rd2 (c : Dev nD) (t : Fin cfg7.N) (p : Fin 1) (q : Fin 1) :
    (iblk7 V c 2 t : Vec Ideal S1x1 .f32) (ix2 p q) = (V c main_v102 : S1x1.Idx → EReal) (ix2 p q) := by
  obtain ⟨-, -, -, -, e0, e1, -⟩ := idx_facts t
  unfold iblk7
  rw [View.read_apply]
  show V c main_v102 _ = V c main_v102 _
  refine congrArg _ (funext fun a => Fin.ext ?_)
  match a with
  | ⟨0, _⟩ => show win7_2.index t (0 : Fin 2) * 1 + 1 * p.val = p.val; rw [e0]; omega
  | ⟨1, _⟩ => show win7_2.index t (1 : Fin 2) * 1 + 1 * q.val = q.val; rw [e1]; omega

theorem rd3 (c : Dev nD) (t : Fin cfg7.N) (p : Fin 128) (q : Fin 128) :
    (iblk7 V c 3 t : Vec Ideal S128x128 .f32) (ix2 p q) = (V c main_v79 : S128x128.Idx → EReal) (ix2 p q) := by
  obtain ⟨-, -, -, -, -, -, e0, e1, -⟩ := idx_facts t
  unfold iblk7
  rw [View.read_apply]
  show V c main_v79 _ = V c main_v79 _
  refine congrArg _ (funext fun a => Fin.ext ?_)
  match a with
  | ⟨0, _⟩ => show win7_3.index t (0 : Fin 2) * 128 + 1 * p.val = p.val; rw [e0]; omega
  | ⟨1, _⟩ => show win7_3.index t (1 : Fin 2) * 128 + 1 * q.val = q.val; rw [e1]; omega

theorem rd4 (c : Dev nD) (t : Fin cfg7.N) (p : Fin 1) (q : Fin 128) :
    (iblk7 V c 4 t : Vec Ideal S1x128 .f32) (ix2 p q) = (V c main_v103 : S1x128.Idx → EReal) (ix2 p q) := by
  obtain ⟨-, -, -, -, -, -, -, -, e0, e1, -⟩ := idx_facts t
  unfold iblk7
  rw [View.read_apply]
  show V c main_v103 _ = V c main_v103 _
  refine congrArg _ (funext fun a => Fin.ext ?_)
  match a with
  | ⟨0, _⟩ => show win7_4.index t (0 : Fin 2) * 1 + 1 * p.val = p.val; rw [e0]; omega
  | ⟨1, _⟩ => show win7_4.index t (1 : Fin 2) * 128 + 1 * q.val = q.val; rw [e1]; omega

theorem rd5 (c : Dev nD) (t : Fin cfg7.N) (p : Fin 128) (q : Fin 128) :
    (iblk7 V c 5 t : Vec Ideal S128x128 .f32) (ix2 p q) = (V c main_v83 : S128x128.Idx → EReal) (ix2 p q) := by
  obtain ⟨-, -, -, -, -, -, -, -, -, -, e0, e1, -⟩ := idx_facts t
  unfold iblk7
  rw [View.read_apply]
  show V c main_v83 _ = V c main_v83 _
  refine congrArg _ (funext fun a => Fin.ext ?_)
  match a with
  | ⟨0, _⟩ => show win7_5.index t (0 : Fin 2) * 128 + 1 * p.val = p.val; rw [e0]; omega
  | ⟨1, _⟩ => show win7_5.index t (1 : Fin 2) * 128 + 1 * q.val = q.val; rw [e1]; omega

theorem rd6 (c : Dev nD) (t : Fin cfg7.N) (p : Fin 1) (q : Fin 128) :
    (iblk7 V c 6 t : Vec Ideal S1x128 .f32) (ix2 p q) = (V c main_v104 : S1x128.Idx → EReal) (ix2 p q) := by
  obtain ⟨-, -, -, -, -, -, -, -, -, -, -, -, e0, e1, -⟩ := idx_facts t
  unfold iblk7
  rw [View.read_apply]
  show V c main_v104 _ = V c main_v104 _
  refine congrArg _ (funext fun a => Fin.ext ?_)
  match a with
  | ⟨0, _⟩ => show win7_6.index t (0 : Fin 2) * 1 + 1 * p.val = p.val; rw [e0]; omega
  | ⟨1, _⟩ => show win7_6.index t (1 : Fin 2) * 128 + 1 * q.val = q.val; rw [e1]; omega

/-- The MLP block of point `t`, entry (p, q): row 4000·t + p of the MLP output. -/
theorem blk_apply (c : Dev nD) (t : Fin cfg7.N) (p : Fin 4000) (q : Fin 128) :
    k7_pay5 (iblk7 V c 0 t) (iblk7 V c 1 t) (iblk7 V c 2 t) (iblk7 V c 3 t) (iblk7 V c 4 t) (iblk7 V c 5 t) (iblk7 V c 6 t) (ix2 p q) = h2 (V c main_v71) (V c main_v101) (V c main_v102) (V c main_v79) (V c main_v103) (V c main_v83) (V c main_v104) (row t p) q := by
  rw [pay5_apply]
  unfold h2
  simp only [rd0, rd1, rd2, rd3, rd4, rd5, rd6]

/-- Whatever the control case, the first output's buffer after point `t` is the point's MLP block. -/
theorem outs7 (c : Dev nD) (t : Fin cfg7.N) : (outsAt7 V c t.val t.isLt).1 = k7_pay5 (iblk7 V c 0 t) (iblk7 V c 1 t) (iblk7 V c 2 t) (iblk7 V c 3 t) (iblk7 V c 4 t) (iblk7 V c 5 t) (iblk7 V c 6 t) := by
  by_cases h0 : t.val % 25 = 0
  · rw [outsAt7_A V c t h0]
    dsimp only
    exact outA7 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr h0) (iblk7 V c 0 t) (iblk7 V c 1 t) (iblk7 V c 2 t) (iblk7 V c 3 t) (iblk7 V c 4 t) (iblk7 V c 5 t) (iblk7 V c 6 t)
  · rw [outsAt7_B V c t h0]
    dsimp only
    exact outB7 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2

/-- The output block's entry (p, q) at point `t` is entry (4000·t + p, q) of the array. -/
theorem emb7 (t : Fin cfg7.N) (p : Fin 4000) (q : Fin 128) :
    ((cfg7.win 7).blk t).view.emb (ix2 p q) = (ix2 (row t p) q : S100000x128.Idx) := by
  obtain ⟨-, -, -, -, -, -, -, -, -, -, -, -, -, -, e0, e1, -⟩ := idx_facts t
  refine funext fun a => Fin.ext ?_
  match a with
  | ⟨0, _⟩ => show win7_7.index t (0 : Fin 2) * 4000 + 1 * p.val = 4000 * t.val + p.val; rw [e0]; omega
  | ⟨1, _⟩ => show win7_7.index t (1 : Fin 2) * 128 + 1 * q.val = q.val; rw [e1]; omega

theorem flushed7_eq (c : Dev nD) (t : Fin cfg7.N) :
    (dat7 V c).flushed 7 t = ((cfg7.win 7).blk t).view.read (Elt Ideal) (out7 (V c main_v71) (V c main_v101) (V c main_v102) (V c main_v79) (V c main_v103) (V c main_v83) (V c main_v104)) := by
  show (cfg7.win 7).cut (grid7.coords t) ((dat7 V c).after 7 t) = _
  rw [after7_7, outs7]
  funext j
  obtain ⟨p, q, rfl⟩ : ∃ (p : Fin 4000) (q : Fin 128), j = ix2 p q := ⟨j 0, j 1, eq_ix2 j⟩
  show k7_pay5 (iblk7 V c 0 t) (iblk7 V c 1 t) (iblk7 V c 2 t) (iblk7 V c 3 t) (iblk7 V c 4 t) (iblk7 V c 5 t) (iblk7 V c 6 t) (ix2 p q) = out7 (V c main_v71) (V c main_v101) (V c main_v102) (V c main_v79) (V c main_v103) (V c main_v83) (V c main_v104) (((cfg7.win 7).blk t).view.emb (ix2 p q))
  rw [emb7, blk_apply]
  rfl

theorem cover7 (i : S100000x128.Idx) : ∃ t : Fin cfg7.N, (cfg7.win 7).flush t = true ∧ i ∈ ((cfg7.win 7).blk t).view.set := by
  have hi0 : (i 0).val < 100000 := (i 0).isLt
  have hi1 : (i 1).val < 128 := (i 1).isLt
  let t : Fin cfg7.N := ⟨(i 0).val / 4000, by rw [show cfg7.N = 25 from N_7]; omega⟩
  obtain ⟨-, -, -, -, -, -, -, -, -, -, -, -, -, -, e0, e1, -⟩ := idx_facts t
  refine ⟨t, flush7_7 t, ?_⟩
  show i ∈ ((View.whole main_v105_0).slice (win7_7.rect t)).set
  rw [View.set_slice_whole, Rect.mem_set_unit]
  intro a
  match a with
  | ⟨0, _⟩ =>
    show win7_7.index t (0 : Fin 2) * 4000 ≤ (i 0).val ∧ (i 0).val < win7_7.index t (0 : Fin 2) * 4000 + 4000
    rw [e0]; show (i 0).val / 4000 * 4000 ≤ (i 0).val ∧ (i 0).val < (i 0).val / 4000 * 4000 + 4000; omega
  | ⟨1, _⟩ =>
    show win7_7.index t (1 : Fin 2) * 128 ≤ (i 1).val ∧ (i 1).val < win7_7.index t (1 : Fin 2) * 128 + 128
    rw [e1]; omega

/-- The first result array is the MLP output of the input arrays. -/
theorem final7 (c : Dev nD) : (dat7 V c).arrAt 7 cfg7.N = out7 (V c main_v71) (V c main_v101) (V c main_v102) (V c main_v79) (V c main_v103) (V c main_v83) (V c main_v104) :=
  (dat7 V c).arrAt_eq_of_cover 7 _ (fun t _ => flushed7_eq V c t) (cover7)

end Values

/-! ## The carried column sums -/

section Sums

variable (V : (c : Dev nD) → (b : Ref sig .tc) → Buf (Elt Ideal) ((c : Thread nD τ).loc b))

/-- The lane sum's inserted index: row `r` of column `q`. -/
theorem lift_eq (q : Fin 128) (r : Fin 4000) : reduces_S4000x128_S128.lift (ix1 q) r = (ix2 r q : S4000x128.Idx) := by
  funext a; apply Fin.ext
  match a with
  | ⟨0, _⟩ => rfl
  | ⟨1, _⟩ => rfl

/-- The sum payload: what the carried row held plus the block's column sum. -/
theorem pay1_apply (v30 : FVec Ideal S4000x128 .f32) (v32 : Vec Ideal S1x128 .f32) (u : Fin 1) (q : Fin 128) :
    k7_pay1 v30 v32 (ix2 u q) = v32 (ix2 u q) + ∑ r : Fin 4000, v30 (ix2 r q) := by
  unfold k7_pay1
  simp only [shapeCast_self]
  rw [addf_apply, shapeCast_a_1a_apply]
  refine congrArg (_ + ·) ?_
  refine (Ideal.multiReduction_add_single v30 0x00000000#32 reduces_S4000x128_S128 (.inl rfl) rfl (ix1 q)).trans ?_
  exact Finset.sum_congr rfl fun r _ => congrArg v30 (lift_eq q r)

/-- The sum-of-squares payload. -/
theorem pay2_apply (v30 : FVec Ideal S4000x128 .f32) (v38 : Vec Ideal S1x128 .f32) (u : Fin 1) (q : Fin 128) :
    k7_pay2 v30 v38 (ix2 u q) = v38 (ix2 u q) + ∑ r : Fin 4000, v30 (ix2 r q) * v30 (ix2 r q) := by
  unfold k7_pay2
  simp only [shapeCast_self]
  rw [addf_apply, shapeCast_a_1a_apply]
  refine congrArg (_ + ·) ?_
  refine (Ideal.multiReduction_add_single (mulf v30 v30) 0x00000000#32 reduces_S4000x128_S128 (.inl rfl) rfl (ix1 q)).trans ?_
  exact Finset.sum_congr rfl fun r _ => congrArg (fun z => v30 z * v30 z) (lift_eq q r)

/-- Row `n` of the MLP output as a function of a natural number (0 beyond the array). -/
def g (c : Dev nD) (q : Fin 128) (n : ℕ) : EReal :=
  if h : n < 100000 then h2 (V c main_v71) (V c main_v101) (V c main_v102) (V c main_v79) (V c main_v103) (V c main_v83) (V c main_v104) ⟨n, h⟩ q else 0

theorem g_row (c : Dev nD) (q : Fin 128) (t : Fin cfg7.N) (p : Fin 4000) :
    h2 (V c main_v71) (V c main_v101) (V c main_v102) (V c main_v79) (V c main_v103) (V c main_v83) (V c main_v104) (row t p) q = g V c q (4000 * t.val + p.val) := by
  unfold g
  rw [dif_pos (show 4000 * t.val + p.val < 100000 from (row t p).isLt)]
  rfl

/-- The block's column sum at point `t` is the sum of rows 4000·t … 4000·t + 3999. -/
theorem blk_sum (c : Dev nD) (q : Fin 128) (t : Fin cfg7.N) :
    ∑ r : Fin 4000, k7_pay5 (iblk7 V c 0 t) (iblk7 V c 1 t) (iblk7 V c 2 t) (iblk7 V c 3 t) (iblk7 V c 4 t) (iblk7 V c 5 t) (iblk7 V c 6 t) (ix2 r q) = ∑ p ∈ Finset.range 4000, g V c q (4000 * t.val + p) := by
  rw [← Fin.sum_univ_eq_sum_range (fun p => g V c q (4000 * t.val + p)) 4000]
  exact Finset.sum_congr rfl fun r _ => by rw [blk_apply, g_row]

theorem blk_sumsq (c : Dev nD) (q : Fin 128) (t : Fin cfg7.N) :
    ∑ r : Fin 4000, k7_pay5 (iblk7 V c 0 t) (iblk7 V c 1 t) (iblk7 V c 2 t) (iblk7 V c 3 t) (iblk7 V c 4 t) (iblk7 V c 5 t) (iblk7 V c 6 t) (ix2 r q) * k7_pay5 (iblk7 V c 0 t) (iblk7 V c 1 t) (iblk7 V c 2 t) (iblk7 V c 3 t) (iblk7 V c 4 t) (iblk7 V c 5 t) (iblk7 V c 6 t) (ix2 r q)
      = ∑ p ∈ Finset.range 4000, g V c q (4000 * t.val + p) * g V c q (4000 * t.val + p) := by
  rw [← Fin.sum_univ_eq_sum_range (fun p => g V c q (4000 * t.val + p) * g V c q (4000 * t.val + p)) 4000]
  exact Finset.sum_congr rfl fun r _ => by rw [blk_apply, g_row]

/-- After point `n` the carried rows hold the column sums over rows 0 … 4000·(n + 1) − 1. -/
theorem acc (c : Dev nD) (q : Fin 128) : ∀ (n : ℕ) (hn : n < cfg7.N),
    (outsAt7 V c n hn).2.1 (ix2 (0 : Fin 1) q) = ∑ r ∈ Finset.range (4000 * (n + 1)), g V c q r
    ∧ (outsAt7 V c n hn).2.2 (ix2 (0 : Fin 1) q) = ∑ r ∈ Finset.range (4000 * (n + 1)), g V c q r * g V c q r := by
  intro n
  induction n with
  | zero =>
    intro hn
    let t : Fin cfg7.N := ⟨0, hn⟩
    have hA := outsAt7_A V c t (Nat.zero_mod _)
    have e8 := outA8 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr (Nat.zero_mod _)) (iblk7 V c 0 t) (iblk7 V c 1 t) (iblk7 V c 2 t) (iblk7 V c 3 t) (iblk7 V c 4 t) (iblk7 V c 5 t) (iblk7 V c 6 t)
    have e9 := outA9 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) ((hcond7_0 t).mpr (Nat.zero_mod _)) (iblk7 V c 0 t) (iblk7 V c 1 t) (iblk7 V c 2 t) (iblk7 V c 3 t) (iblk7 V c 4 t) (iblk7 V c 5 t) (iblk7 V c 6 t)
    have h1 : (outsAt7 V c 0 hn).2.1 = _ := (congrArg (fun z => z.2.1) hA).trans e8
    have h2' : (outsAt7 V c 0 hn).2.2 = _ := (congrArg (fun z => z.2.2) hA).trans e9
    constructor
    · rw [h1, pay1_apply, blk_sum V c q t]
      show Ideal.ofBits .f32 0x00000000#32 + _ = _
      rw [Ideal.ofBits_zero_f32, zero_add]
      show ∑ p ∈ Finset.range 4000, g V c q (4000 * 0 + p) = _
      simp
    · rw [h2', pay2_apply, blk_sumsq V c q t]
      show Ideal.ofBits .f32 0x00000000#32 + _ = _
      rw [Ideal.ofBits_zero_f32, zero_add]
      show ∑ p ∈ Finset.range 4000, g V c q (4000 * 0 + p) * g V c q (4000 * 0 + p) = _
      simp
  | succ n ih =>
    intro hn
    have hN : cfg7.N = 25 := N_7
    let t : Fin cfg7.N := ⟨n + 1, hn⟩
    have h0 : ¬ t.val % 25 = 0 := by show ¬ (n + 1) % 25 = 0; omega
    have hB := outsAt7_B V c t h0
    have e8 := outB8 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2
    have e9 := outB9 (F := Ideal) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (fun h => h0 ((hcond7_0 t).mp h)) (iblk7 V c 0 t) (iblk7 V c 1 t) (iblk7 V c 2 t) (iblk7 V c 3 t) (iblk7 V c 4 t) (iblk7 V c 5 t) (iblk7 V c 6 t) (outsAt7 V c (t.val - 1) (Nat.lt_of_le_of_lt (Nat.sub_le _ _) t.isLt)).2.1 (outsAt7 V c (t.val - 1) (Nat.lt_of_le_of_lt (Nat.sub_le _ _) t.isLt)).2.2
    have h1 : (outsAt7 V c (n + 1) hn).2.1 = _ := (congrArg (fun z => z.2.1) hB).trans e8
    have h2' : (outsAt7 V c (n + 1) hn).2.2 = _ := (congrArg (fun z => z.2.2) hB).trans e9
    obtain ⟨i1, i2⟩ := ih (Nat.lt_of_succ_lt hn)
    have hp : (outsAt7 V c (t.val - 1) (Nat.lt_of_le_of_lt (Nat.sub_le _ _) t.isLt)) = outsAt7 V c n (Nat.lt_of_succ_lt hn) := rfl
    constructor
    · rw [h1, pay1_apply, blk_sum V c q t, hp, i1]
      show _ + ∑ p ∈ Finset.range 4000, g V c q (4000 * (n + 1) + p) = _
      rw [show 4000 * (n + 1 + 1) = 4000 * (n + 1) + 4000 from by ring, Finset.sum_range_add]
    · rw [h2', pay2_apply, blk_sumsq V c q t, hp, i2]
      show _ + ∑ p ∈ Finset.range 4000, g V c q (4000 * (n + 1) + p) * g V c q (4000 * (n + 1) + p) = _
      rw [show 4000 * (n + 1 + 1) = 4000 * (n + 1) + 4000 from by ring, Finset.sum_range_add]

end Sums

/-! ## The carried sums, written back after the last point -/

section Finals

variable (V : (c : Dev nD) → (b : Ref sig .tc) → Buf (Elt Ideal) ((c : Thread nD τ).loc b))

theorem out8_apply (x agg eps w1 b1 w2 b2) (u : Fin 1) (q : Fin 128) :
    out8 x agg eps w1 b1 w2 b2 (ix2 u q) = ∑ r : Fin 100000, h2 x agg eps w1 b1 w2 b2 r q := rfl
theorem out9_apply (x agg eps w1 b1 w2 b2) (u : Fin 1) (q : Fin 128) :
    out9 x agg eps w1 b1 w2 b2 (ix2 u q) = ∑ r : Fin 100000, h2 x agg eps w1 b1 w2 b2 r q * h2 x agg eps w1 b1 w2 b2 r q := rfl

-- the sums range over 100000 rows: never unfolded by a definitional check
attribute [local irreducible] out8 out9

theorem emb8 (t : Fin cfg7.N) (u : Fin 1) (q : Fin 128) :
    ((cfg7.win 8).blk t).view.emb (ix2 u q) = (ix2 u q : S1x128.Idx) := by
  obtain ⟨-, -, -, -, -, -, -, -, -, -, -, -, -, -, -, -, e0, e1, -⟩ := idx_facts t
  refine funext fun a => Fin.ext ?_
  match a with
  | ⟨0, _⟩ => show win7_8.index t (0 : Fin 2) * 1 + 1 * u.val = u.val; rw [e0]; omega
  | ⟨1, _⟩ => show win7_8.index t (1 : Fin 2) * 128 + 1 * q.val = q.val; rw [e1]; omega

theorem flushed8_eq (c : Dev nD) (t : Fin cfg7.N) (hf : (cfg7.win 8).flush t = true) :
    (dat7 V c).flushed 8 t = ((cfg7.win 8).blk t).view.read (Elt Ideal) (out8 (V c main_v71) (V c main_v101) (V c main_v102) (V c main_v79) (V c main_v103) (V c main_v83) (V c main_v104)) := by
  have h24 : t.val = 24 := by have h1 := (flush7_8 t).mp hf; have h2 : t.val < 25 := lt_of_lt_of_eq t.isLt N_7; omega
  show (cfg7.win 8).cut (grid7.coords t) ((dat7 V c).after 8 t) = _
  rw [after7_8]
  funext j
  obtain ⟨u, q, rfl⟩ : ∃ (u : Fin 1) (q : Fin 128), j = ix2 u q := ⟨j 0, j 1, eq_ix2 j⟩
  obtain rfl : u = 0 := Subsingleton.elim _ _
  show (outsAt7 V c t.val t.isLt).2.1 (ix2 (0 : Fin 1) q) = out8 (V c main_v71) (V c main_v101) (V c main_v102) (V c main_v79) (V c main_v103) (V c main_v83) (V c main_v104) (((cfg7.win 8).blk t).view.emb (ix2 (0 : Fin 1) q))
  rw [emb8, (acc V c q t.val t.isLt).1, h24, out8_apply, show 4000 * (24 + 1) = 100000 from rfl]
  rw [← Fin.sum_univ_eq_sum_range (fun r => g V c q r) 100000]
  exact Finset.sum_congr rfl fun r _ => by unfold g; rw [dif_pos r.isLt]

theorem cover8 (i : S1x128.Idx) : ∃ t : Fin cfg7.N, (cfg7.win 8).flush t = true ∧ i ∈ ((cfg7.win 8).blk t).view.set := by
  have hi0 : (i 0).val < 1 := (i 0).isLt
  have hi1 : (i 1).val < 128 := (i 1).isLt
  let t : Fin cfg7.N := ⟨24, by rw [show cfg7.N = 25 from N_7]; omega⟩
  obtain ⟨-, -, -, -, -, -, -, -, -, -, -, -, -, -, -, -, e0, e1, -⟩ := idx_facts t
  refine ⟨t, (flush7_8 t).mpr rfl, ?_⟩
  show i ∈ ((View.whole main_v105_1).slice (win7_8.rect t)).set
  rw [View.set_slice_whole, Rect.mem_set_unit]
  intro a
  match a with
  | ⟨0, _⟩ =>
    show win7_8.index t (0 : Fin 2) * 1 ≤ (i 0).val ∧ (i 0).val < win7_8.index t (0 : Fin 2) * 1 + 1
    rw [e0]; omega
  | ⟨1, _⟩ =>
    show win7_8.index t (1 : Fin 2) * 128 ≤ (i 1).val ∧ (i 1).val < win7_8.index t (1 : Fin 2) * 128 + 128
    rw [e1]; omega

theorem final8 (c : Dev nD) : (dat7 V c).arrAt 8 cfg7.N = out8 (V c main_v71) (V c main_v101) (V c main_v102) (V c main_v79) (V c main_v103) (V c main_v83) (V c main_v104) :=
  (dat7 V c).arrAt_eq_of_cover 8 _ (fun t hf => flushed8_eq V c t hf) (cover8)

theorem emb9 (t : Fin cfg7.N) (u : Fin 1) (q : Fin 128) :
    ((cfg7.win 9).blk t).view.emb (ix2 u q) = (ix2 u q : S1x128.Idx) := by
  obtain ⟨-, -, -, -, -, -, -, -, -, -, -, -, -, -, -, -, -, -, e0, e1⟩ := idx_facts t
  refine funext fun a => Fin.ext ?_
  match a with
  | ⟨0, _⟩ => show win7_9.index t (0 : Fin 2) * 1 + 1 * u.val = u.val; rw [e0]; omega
  | ⟨1, _⟩ => show win7_9.index t (1 : Fin 2) * 128 + 1 * q.val = q.val; rw [e1]; omega

theorem flushed9_eq (c : Dev nD) (t : Fin cfg7.N) (hf : (cfg7.win 9).flush t = true) :
    (dat7 V c).flushed 9 t = ((cfg7.win 9).blk t).view.read (Elt Ideal) (out9 (V c main_v71) (V c main_v101) (V c main_v102) (V c main_v79) (V c main_v103) (V c main_v83) (V c main_v104)) := by
  have h24 : t.val = 24 := by have h1 := (flush7_9 t).mp hf; have h2 : t.val < 25 := lt_of_lt_of_eq t.isLt N_7; omega
  show (cfg7.win 9).cut (grid7.coords t) ((dat7 V c).after 9 t) = _
  rw [after7_9]
  funext j
  obtain ⟨u, q, rfl⟩ : ∃ (u : Fin 1) (q : Fin 128), j = ix2 u q := ⟨j 0, j 1, eq_ix2 j⟩
  obtain rfl : u = 0 := Subsingleton.elim _ _
  show (outsAt7 V c t.val t.isLt).2.2 (ix2 (0 : Fin 1) q) = out9 (V c main_v71) (V c main_v101) (V c main_v102) (V c main_v79) (V c main_v103) (V c main_v83) (V c main_v104) (((cfg7.win 9).blk t).view.emb (ix2 (0 : Fin 1) q))
  rw [emb9, (acc V c q t.val t.isLt).2, h24, out9_apply, show 4000 * (24 + 1) = 100000 from rfl]
  rw [← Fin.sum_univ_eq_sum_range (fun r => g V c q r * g V c q r) 100000]
  exact Finset.sum_congr rfl fun r _ => by unfold g; rw [dif_pos r.isLt]

theorem cover9 (i : S1x128.Idx) : ∃ t : Fin cfg7.N, (cfg7.win 9).flush t = true ∧ i ∈ ((cfg7.win 9).blk t).view.set := by
  have hi0 : (i 0).val < 1 := (i 0).isLt
  have hi1 : (i 1).val < 128 := (i 1).isLt
  let t : Fin cfg7.N := ⟨24, by rw [show cfg7.N = 25 from N_7]; omega⟩
  obtain ⟨-, -, -, -, -, -, -, -, -, -, -, -, -, -, -, -, -, -, e0, e1⟩ := idx_facts t
  refine ⟨t, (flush7_9 t).mpr rfl, ?_⟩
  show i ∈ ((View.whole main_v105_2).slice (win7_9.rect t)).set
  rw [View.set_slice_whole, Rect.mem_set_unit]
  intro a
  match a with
  | ⟨0, _⟩ =>
    show win7_9.index t (0 : Fin 2) * 1 ≤ (i 0).val ∧ (i 0).val < win7_9.index t (0 : Fin 2) * 1 + 1
    rw [e0]; omega
  | ⟨1, _⟩ =>
    show win7_9.index t (1 : Fin 2) * 128 ≤ (i 1).val ∧ (i 1).val < win7_9.index t (1 : Fin 2) * 128 + 128
    rw [e1]; omega

theorem final9 (c : Dev nD) : (dat7 V c).arrAt 9 cfg7.N = out9 (V c main_v71) (V c main_v101) (V c main_v102) (V c main_v79) (V c main_v103) (V c main_v83) (V c main_v104) :=
  (dat7 V c).arrAt_eq_of_cover 9 _ (fun t hf => flushed9_eq V c t hf) (cover9)

end Finals

end Cert.KernelIdeal.Reg7

end
-- ==== Proof.Reg8.lean ====
/-
  Region 8: the normalisation of a layer's MLP output. Point `t` of the grid (25 points) holds rows 4000·t … 4000·t + 3999 of
  the MLP output [100000, 128] and of the layer's input (the residual), and the whole rows [1, 128] of the mean, the variance, the scale and the shift,
  and stores rows 4000·t … of the result. Entry (r, j) of what it stores is
      max ((h[r, j] − mean[0, j]) · rsqrt (var[0, j] + 1e-5) · gamma[0, j] + beta[0, j]) 0 + resid[r, j],
  which depends on row r of the row inputs only; so the result array is that function of the input arrays (`final6`).
-/
import proofs.«162690_j78211354460181_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg8

open Cert.KernelIdeal Cert.KernelIdeal.Gen

variable (V : (c : Dev nD) → (b : Ref sig .tc) → Buf (Elt Ideal) ((c : Thread nD τ).loc b))

/-- The normalised array as a function of the region's input arrays. -/
def out6 (h resid : S100000x128.Idx → EReal) (mean var gamma beta : S1x128.Idx → EReal) : S100000x128.Idx → EReal := fun i =>
  max ((h (ix2 (i 0 : Fin 100000) (i 1 : Fin 128)) - mean (ix2 (0 : Fin 1) (i 1 : Fin 128)))
        * Ideal.rsqrt (var (ix2 (0 : Fin 1) (i 1 : Fin 128)) + Ideal.ofBits .f32 0x3727C5AC#32)
        * gamma (ix2 (0 : Fin 1) (i 1 : Fin 128)) + beta (ix2 (0 : Fin 1) (i 1 : Fin 128)))
      (Ideal.ofBits .f32 0x00000000#32)
    + resid (ix2 (i 0 : Fin 100000) (i 1 : Fin 128))

theorem hz : (![0, 0] : Fin 2 → Nat) = fun _ => 0 := funext fun a => by fin_cases a <;> rfl

/-- The body's stored value at row `p` and column `q` of the block, from the loaded blocks. -/
theorem pay_apply (x0 x1 : Vec Ideal S4000x128 .f32) (x2 x3 x4 x5 : Vec Ideal S1x128 .f32) (p : Fin 4000) (q : Fin 128) :
    k8_pay1 x0 x2 x3 x4 x5 x1 (ix2 p q)
      = max ((x0 (ix2 p q) - x2 (ix2 (0 : Fin 1) q)) * Ideal.rsqrt (x3 (ix2 (0 : Fin 1) q) + Ideal.ofBits .f32 0x3727C5AC#32)
            * x4 (ix2 (0 : Fin 1) q) + x5 (ix2 (0 : Fin 1) q)) (Ideal.ofBits .f32 0x00000000#32) + x1 (ix2 p q) := by
  unfold k8_pay1
  simp only [shapeCast_self, maximumf_apply, addf_apply, mulf_apply, subf_apply, broadcast_apply, broadcastTo_1b_ab_apply]
  rfl

/-- Where each window's block sits at point `t`: the row windows at block `t`, the row vectors at block 0. -/
theorem idx_facts : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = 0
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = t.val
    ∧ win8_6.index t (1 : Fin 2) = 0 :=
  (by decide +kernel : ∀ t : Fin grid8.N, _)

/-- Row `p` of point `t`'s block is row 4000·t + p of the array. -/
def row (t : Fin cfg8.N) (p : Fin 4000) : Fin 100000 :=
  ⟨4000 * t.val + p.val, by have h : t.val < 25 := lt_of_lt_of_eq t.isLt N_8; have := p.isLt; omega⟩

theorem rd0 (c : Dev nD) (t : Fin cfg8.N) (p : Fin 4000) (q : Fin 128) :
    (iblk8 V c 0 t : Vec Ideal S4000x128 .f32) (ix2 p q) = (V c main_v105_0 : S100000x128.Idx → EReal) (ix2 (row t p) q) := by
  obtain ⟨e0, e1, -⟩ := idx_facts t
  unfold iblk8
  rw [View.read_apply]
  show V c main_v105_0 _ = V c main_v105_0 _
  refine congrArg _ (funext fun a => Fin.ext ?_)
  match a with
  | ⟨0, _⟩ => show win8_0.index t (0 : Fin 2) * 4000 + 1 * p.val = 4000 * t.val + p.val; rw [e0]; omega
  | ⟨1, _⟩ => show win8_0.index t (1 : Fin 2) * 128 + 1 * q.val = q.val; rw [e1]; omega

theorem rd1 (c : Dev nD) (t : Fin cfg8.N) (p : Fin 4000) (q : Fin 128) :
    (iblk8 V c 1 t : Vec Ideal S4000x128 .f32) (ix2 p q) = (V c main_v71 : S100000x128.Idx → EReal) (ix2 (row t p) q) := by
  obtain ⟨-, -, e0, e1, -⟩ := idx_facts t
  unfold iblk8
  rw [View.read_apply]
  show V c main_v71 _ = V c main_v71 _
  refine congrArg _ (funext fun a => Fin.ext ?_)
  match a with
  | ⟨0, _⟩ => show win8_1.index t (0 : Fin 2) * 4000 + 1 * p.val = 4000 * t.val + p.val; rw [e0]; omega
  | ⟨1, _⟩ => show win8_1.index t (1 : Fin 2) * 128 + 1 * q.val = q.val; rw [e1]; omega

theorem rd2 (c : Dev nD) (t : Fin cfg8.N) (q : Fin 128) :
    (iblk8 V c 2 t : Vec Ideal S1x128 .f32) (ix2 (0 : Fin 1) q) = (V c main_v107 : S1x128.Idx → EReal) (ix2 (0 : Fin 1) q) := by
  obtain ⟨-, -, -, -, e0, e1, -⟩ := idx_facts t
  unfold iblk8
  rw [View.read_apply]
  show V c main_v107 _ = V c main_v107 _
  refine congrArg _ (funext fun a => Fin.ext ?_)
  match a with
  | ⟨0, _⟩ => show win8_2.index t (0 : Fin 2) * 1 + 1 * (0 : Fin 1).val = (0 : Fin 1).val; rw [e0]; rfl
  | ⟨1, _⟩ => show win8_2.index t (1 : Fin 2) * 128 + 1 * q.val = q.val; rw [e1]; omega

theorem rd3 (c : Dev nD) (t : Fin cfg8.N) (q : Fin 128) :
    (iblk8 V c 3 t : Vec Ideal S1x128 .f32) (ix2 (0 : Fin 1) q) = (V c main_v111 : S1x128.Idx → EReal) (ix2 (0 : Fin 1) q) := by
  obtain ⟨-, -, -, -, -, -, e0, e1, -⟩ := idx_facts t
  unfold iblk8
  rw [View.read_apply]
  show V c main_v111 _ = V c main_v111 _
  refine congrArg _ (funext fun a => Fin.ext ?_)
  match a with
  | ⟨0, _⟩ => show win8_3.index t (0 : Fin 2) * 1 + 1 * (0 : Fin 1).val = (0 : Fin 1).val; rw [e0]; rfl
  | ⟨1, _⟩ => show win8_3.index t (1 : Fin 2) * 128 + 1 * q.val = q.val; rw [e1]; omega

theorem rd4 (c : Dev nD) (t : Fin cfg8.N) (q : Fin 128) :
    (iblk8 V c 4 t : Vec Ideal S1x128 .f32) (ix2 (0 : Fin 1) q) = (V c main_v112 : S1x128.Idx → EReal) (ix2 (0 : Fin 1) q) := by
  obtain ⟨-, -, -, -, -, -, -, -, e0, e1, -⟩ := idx_facts t
  unfold iblk8
  rw [View.read_apply]
  show V c main_v112 _ = V c main_v112 _
  refine congrArg _ (funext fun a => Fin.ext ?_)
  match a with
  | ⟨0, _⟩ => show win8_4.index t (0 : Fin 2) * 1 + 1 * (0 : Fin 1).val = (0 : Fin 1).val; rw [e0]; rfl
  | ⟨1, _⟩ => show win8_4.index t (1 : Fin 2) * 128 + 1 * q.val = q.val; rw [e1]; omega

theorem rd5 (c : Dev nD) (t : Fin cfg8.N) (q : Fin 128) :
    (iblk8 V c 5 t : Vec Ideal S1x128 .f32) (ix2 (0 : Fin 1) q) = (V c main_v113 : S1x128.Idx → EReal) (ix2 (0 : Fin 1) q) := by
  obtain ⟨-, -, -, -, -, -, -, -, -, -, e0, e1, -⟩ := idx_facts t
  unfold iblk8
  rw [View.read_apply]
  show V c main_v113 _ = V c main_v113 _
  refine congrArg _ (funext fun a => Fin.ext ?_)
  match a with
  | ⟨0, _⟩ => show win8_5.index t (0 : Fin 2) * 1 + 1 * (0 : Fin 1).val = (0 : Fin 1).val; rw [e0]; rfl
  | ⟨1, _⟩ => show win8_5.index t (1 : Fin 2) * 128 + 1 * q.val = q.val; rw [e1]; omega

/-- The output block's entry (p, q) at point `t` is entry (4000·t + p, q) of the array. -/
theorem emb_out (t : Fin cfg8.N) (p : Fin 4000) (q : Fin 128) :
    ((cfg8.win 6).blk t).view.emb (ix2 p q) = (ix2 (row t p) q : S100000x128.Idx) := by
  obtain ⟨-, -, -, -, -, -, -, -, -, -, -, -, e0, e1⟩ := idx_facts t
  refine funext fun a => Fin.ext ?_
  match a with
  | ⟨0, _⟩ => show win8_6.index t (0 : Fin 2) * 4000 + 1 * p.val = 4000 * t.val + p.val; rw [e0]; omega
  | ⟨1, _⟩ => show win8_6.index t (1 : Fin 2) * 128 + 1 * q.val = q.val; rw [e1]; omega

/-- What point `t` writes back is block `t` of the normalised array of the input arrays as the region finds them. -/
theorem flushed_eq (c : Dev nD) (t : Fin cfg8.N) :
    (dat8 V c).flushed 6 t = ((cfg8.win 6).blk t).view.read (Elt Ideal) (out6 (V c main_v105_0) (V c main_v71) (V c main_v107) (V c main_v111) (V c main_v112) (V c main_v113)) := by
  show (cfg8.win 6).cut (grid8.coords t) ((dat8 V c).after 6 t) = _
  rw [after8_6]
  unfold out8_6
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k8_pay1 (iblk8 V c 0 t) (iblk8 V c 2 t) (iblk8 V c 3 t) (iblk8 V c 4 t) (iblk8 V c 5 t) (iblk8 V c 1 t) (ix2 p q)
    = out6 (V c main_v105_0) (V c main_v71) (V c main_v107) (V c main_v111) (V c main_v112) (V c main_v113) (((cfg8.win 6).blk t).view.emb (ix2 p q))
  rw [emb_out, pay_apply]
  simp only [rd0, rd1, rd2, rd3, rd4, rd5]
  rfl

/-- Every row of the array lies in the block of the point that is its quotient by 4000. -/
theorem cover (i : S100000x128.Idx) : ∃ t : Fin cfg8.N, (cfg8.win 6).flush t = true ∧ i ∈ ((cfg8.win 6).blk t).view.set := by
  have hi0 : (i 0).val < 100000 := (i 0).isLt
  have hi1 : (i 1).val < 128 := (i 1).isLt
  let t : Fin cfg8.N := ⟨(i 0).val / 4000, by rw [show cfg8.N = 25 from N_8]; omega⟩
  obtain ⟨-, -, -, -, -, -, -, -, -, -, -, -, e0, e1⟩ := idx_facts t
  refine ⟨t, flush8_6 t, ?_⟩
  show i ∈ ((View.whole main_v114).slice (win8_6.rect t)).set
  rw [View.set_slice_whole, Rect.mem_set_unit]
  intro a
  match a with
  | ⟨0, _⟩ =>
    show win8_6.index t (0 : Fin 2) * 4000 ≤ (i 0).val ∧ (i 0).val < win8_6.index t (0 : Fin 2) * 4000 + 4000
    rw [e0]; show (i 0).val / 4000 * 4000 ≤ (i 0).val ∧ (i 0).val < (i 0).val / 4000 * 4000 + 4000; omega
  | ⟨1, _⟩ =>
    show win8_6.index t (1 : Fin 2) * 128 ≤ (i 1).val ∧ (i 1).val < win8_6.index t (1 : Fin 2) * 128 + 128
    rw [e1]; omega

/-- The region's result array is the normalised array of its input arrays. -/
theorem final6 (c : Dev nD) :
    (dat8 V c).arrAt 6 cfg8.N = out6 (V c main_v105_0) (V c main_v71) (V c main_v107) (V c main_v111) (V c main_v112) (V c main_v113) :=
  (dat8 V c).arrAt_eq_of_cover 6 _ (fun t _ => flushed_eq V c t) cover

end Cert.KernelIdeal.Reg8

end
-- ==== Proof.Reg9.lean ====
/-
  Region 9: the edge message of layer 3. Point `t` of the grid (100 points) holds rows 6000·t … 6000·t + 5999 of the
  gathered node features `xj` [600000, 128] and of `edge_attr` [600000, 3], all of `e_w` [3, 128] and of the bias row
  [1, 128], and stores rows 6000·t … of the result. Entry (e, j) of what it stores is
      max (xj[e, j] + Σ_k edge_attr[e, k] · e_w[k, j] + e_b[0, j]) 0,
  which depends on row e of the inputs only; so the result array is that function of the four arrays, row by row
  (`final`), whatever the region finds in them.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg9

open Cert.KernelIdeal Cert.KernelIdeal.Gen

variable (V : (c : Dev nD) → (b : Ref sig .tc) → Buf (Elt Ideal) ((c : Thread nD τ).loc b))

/-- The message array as a function of the gathered features, the edge attributes, the edge weights and the bias row. -/
def out4 (xj : S600000x128.Idx → EReal) (ea : S600000x3.Idx → EReal) (ew : S3x128.Idx → EReal) (eb : S1x128.Idx → EReal) :
    S600000x128.Idx → EReal := fun i =>
  max (xj (ix2 (i 0 : Fin 600000) (i 1 : Fin 128))
        + (∑ k : Fin 3, ea (ix2 (i 0 : Fin 600000) k) * ew (ix2 k (i 1 : Fin 128)))
        + eb (ix2 (0 : Fin 1) (i 1 : Fin 128)))
      (Ideal.ofBits .f32 0x00000000#32)

theorem hz : (![0, 0] : Fin 2 → Nat) = fun _ => 0 := funext fun a => by fin_cases a <;> rfl

theorem plain_6000_3_128 : Cert.LibDot.Plain dot_S6000x3_S3x128_S6000x128_1_0_0_1_n_n :=
  ⟨rfl, rfl, fun _ _ => rfl, fun j k => DotDims.lhsIdx_val_of_single _ rfl j k, fun j k => DotDims.rhsIdx_val_of_single _ rfl j k, fun _ _ => rfl⟩

/-- The body's stored value at row `p` and column `q` of the block, from the four loaded blocks. -/
theorem pay_apply (x0 : Vec Ideal S6000x128 .f32) (x1 : Vec Ideal S6000x3 .f32) (x2 : Vec Ideal S3x128 .f32)
    (x3 : Vec Ideal S1x128 .f32) (p : Fin 6000) (q : Fin 128) :
    k9_pay1 x0 x1 x2 x3 (ix2 p q)
      = max (x0 (ix2 p q) + (∑ k : Fin 3, x1 (ix2 p k) * x2 (ix2 k q)) + x3 (ix2 (0 : Fin 1) q))
          (Ideal.ofBits .f32 0x00000000#32) := by
  unfold k9_pay1
  simp only [shapeCast_self]
  rw [maximumf_apply, addf_apply, addf_apply, Cert.LibDot.matmul_ix2 plain_6000_3_128, broadcastTo_1b_ab_apply, broadcast_apply]
  refine congrArg (fun z => max (_ + z + _) _) (Finset.sum_congr rfl fun k _ => ?_)
  rw [truncf_apply, truncf_apply]

/-- Where each window's block sits at point `t`: the row windows at block `t`, the weights and the bias at block 0. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- Row `p` of point `t`'s block is row 6000·t + p of the array. -/
def row (t : Fin cfg9.N) (p : Fin 6000) : Fin 600000 :=
  ⟨6000 * t.val + p.val, by have h : t.val < 100 := lt_of_lt_of_eq t.isLt N_9; have := p.isLt; omega⟩

theorem rd0 (c : Dev nD) (t : Fin cfg9.N) (p : Fin 6000) (q : Fin 128) :
    (iblk9 V c 0 t : Vec Ideal S6000x128 .f32) (ix2 p q) = (V c main_v139 : S600000x128.Idx → EReal) (ix2 (row t p) q) := by
  obtain ⟨e0, e1, -⟩ := idx_facts t
  unfold iblk9
  rw [View.read_apply]
  show V c main_v139 _ = V c main_v139 _
  refine congrArg _ (funext fun a => Fin.ext ?_)
  match a with
  | ⟨0, _⟩ => show win9_0.index t (0 : Fin 2) * 6000 + 1 * p.val = 6000 * t.val + p.val; rw [e0]; omega
  | ⟨1, _⟩ => show win9_0.index t (1 : Fin 2) * 128 + 1 * q.val = q.val; rw [e1]; omega

theorem rd1 (c : Dev nD) (t : Fin cfg9.N) (p : Fin 6000) (k : Fin 3) :
    (iblk9 V c 1 t : Vec Ideal S6000x3 .f32) (ix2 p k) = (V c main_arg1 : S600000x3.Idx → EReal) (ix2 (row t p) k) := by
  obtain ⟨-, -, e0, e1, -⟩ := idx_facts t
  unfold iblk9
  rw [View.read_apply]
  show V c main_arg1 _ = V c main_arg1 _
  refine congrArg _ (funext fun a => Fin.ext ?_)
  match a with
  | ⟨0, _⟩ => show win9_1.index t (0 : Fin 2) * 6000 + 1 * p.val = 6000 * t.val + p.val; rw [e0]; omega
  | ⟨1, _⟩ => show win9_1.index t (1 : Fin 2) * 3 + 1 * k.val = k.val; rw [e1]; omega

theorem rd2 (c : Dev nD) (t : Fin cfg9.N) (k : Fin 3) (q : Fin 128) :
    (iblk9 V c 2 t : Vec Ideal S3x128 .f32) (ix2 k q) = (V c main_v116 : S3x128.Idx → EReal) (ix2 k q) := by
  obtain ⟨-, -, -, -, e0, e1, -⟩ := idx_facts t
  unfold iblk9
  rw [View.read_apply]
  show V c main_v116 _ = V c main_v116 _
  refine congrArg _ (funext fun a => Fin.ext ?_)
  match a with
  | ⟨0, _⟩ => show win9_2.index t (0 : Fin 2) * 3 + 1 * k.val = k.val; rw [e0]; omega
  | ⟨1, _⟩ => show win9_2.index t (1 : Fin 2) * 128 + 1 * q.val = q.val; rw [e1]; omega

theorem rd3 (c : Dev nD) (t : Fin cfg9.N) (q : Fin 128) :
    (iblk9 V c 3 t : Vec Ideal S1x128 .f32) (ix2 (0 : Fin 1) q) = (V c main_v140 : S1x128.Idx → EReal) (ix2 (0 : Fin 1) q) := by
  obtain ⟨-, -, -, -, -, -, e0, e1, -⟩ := idx_facts t
  unfold iblk9
  rw [View.read_apply]
  show V c main_v140 _ = V c main_v140 _
  refine congrArg _ (funext fun a => Fin.ext ?_)
  match a with
  | ⟨0, _⟩ => show win9_3.index t (0 : Fin 2) * 1 + 1 * (0 : Fin 1).val = (0 : Fin 1).val; rw [e0]; rfl
  | ⟨1, _⟩ => show win9_3.index t (1 : Fin 2) * 128 + 1 * q.val = q.val; rw [e1]; omega

/-- The output block's entry (p, q) at point `t` is entry (6000·t + p, q) of the array. -/
theorem emb4 (t : Fin cfg9.N) (p : Fin 6000) (q : Fin 128) :
    ((cfg9.win 4).blk t).view.emb (ix2 p q) = (ix2 (row t p) q : S600000x128.Idx) := by
  obtain ⟨-, -, -, -, -, -, -, -, e0, e1⟩ := idx_facts t
  refine funext fun a => Fin.ext ?_
  match a with
  | ⟨0, _⟩ => show win9_4.index t (0 : Fin 2) * 6000 + 1 * p.val = 6000 * t.val + p.val; rw [e0]; omega
  | ⟨1, _⟩ => show win9_4.index t (1 : Fin 2) * 128 + 1 * q.val = q.val; rw [e1]; omega

/-- What point `t` writes back is block `t` of the message array of the four arrays as the region finds them. -/
theorem flushed_eq (c : Dev nD) (t : Fin cfg9.N) :
    (dat9 V c).flushed 4 t = ((cfg9.win 4).blk t).view.read (Elt Ideal)
      (out4 (V c main_v139) (V c main_arg1) (V c main_v116) (V c main_v140)) := by
  show (cfg9.win 4).cut (grid9.coords t) ((dat9 V c).after 4 t) = _
  rw [after9_4]
  unfold out9_4
  rw [View.canon_unit_zero hz]
  simp only [View.ld_unit_zero (S := S6000x128) hz, View.ld_unit_zero (S := S6000x3) hz, View.ld_unit_zero (S := S3x128) hz,
    View.ld_unit_zero (S := S1x128) hz]
  funext j
  obtain ⟨p, q, rfl⟩ : ∃ (p : Fin 6000) (q : Fin 128), j = ix2 p q := ⟨j 0, j 1, eq_ix2 j⟩
  show k9_pay1 (iblk9 V c 0 t) (iblk9 V c 1 t) (iblk9 V c 2 t) (iblk9 V c 3 t) (ix2 p q)
    = out4 (V c main_v139) (V c main_arg1) (V c main_v116) (V c main_v140) (((cfg9.win 4).blk t).view.emb (ix2 p q))
  rw [emb4, pay_apply]
  simp only [rd0, rd1, rd2, rd3]
  rfl

/-- Every row of the array lies in the block of the point that is its quotient by 6000. -/
theorem cover (i : S600000x128.Idx) : ∃ t : Fin cfg9.N, (cfg9.win 4).flush t = true ∧ i ∈ ((cfg9.win 4).blk t).view.set := by
  have hi0 : (i 0).val < 600000 := (i 0).isLt
  have hi1 : (i 1).val < 128 := (i 1).isLt
  let t : Fin cfg9.N := ⟨(i 0).val / 6000, by rw [show cfg9.N = 100 from N_9]; omega⟩
  obtain ⟨-, -, -, -, -, -, -, -, e0, e1⟩ := idx_facts t
  refine ⟨t, flush9_4 t, ?_⟩
  show i ∈ ((View.whole main_v141).slice (win9_4.rect t)).set
  rw [View.set_slice_whole, Rect.mem_set_unit]
  intro a
  match a with
  | ⟨0, _⟩ =>
    show win9_4.index t (0 : Fin 2) * 6000 ≤ (i 0).val ∧ (i 0).val < win9_4.index t (0 : Fin 2) * 6000 + 6000
    rw [e0]; show (i 0).val / 6000 * 6000 ≤ (i 0).val ∧ (i 0).val < (i 0).val / 6000 * 6000 + 6000; omega
  | ⟨1, _⟩ =>
    show win9_4.index t (1 : Fin 2) * 128 ≤ (i 1).val ∧ (i 1).val < win9_4.index t (1 : Fin 2) * 128 + 128
    rw [e1]; omega

/-- The region's result array is the message array of its four input arrays. -/
theorem final4 (c : Dev nD) :
    (dat9 V c).arrAt 4 cfg9.N = out4 (V c main_v139) (V c main_arg1) (V c main_v116) (V c main_v140) :=
  (dat9 V c).arrAt_eq_of_cover 4 _ (fun t _ => flushed_eq V c t) cover

end Cert.KernelIdeal.Reg9

end
-- ==== Proof.Reg10.lean ====
/-
  Region 10: the node MLP of a layer and the running column sums. Point `t` of the grid (25 points) holds rows
  4000·t … 4000·t + 3999 of the layer's input [100000, 128] and of the aggregated messages, the scalar eps [1, 1] and the two
  weight matrices and bias rows, and stores rows 4000·t … of
      h2[r, j] = Σ_k max (Σ_l ((1 + eps) · x[r, l] + agg[r, l]) · w1[l, k] + b1[0, k]) 0 · w2[k, j] + b2[0, j];
  two further results [1, 128] are carried from point to point: zeroed at point 0, then at every point the block's column
  sums of h2, and of h2 squared, are added; they are written back once, after the last point. So the first result is h2
  row by row (`final7`), and the other two are the column sums over all 100000 rows of h2 and of its square
  (`final8`, `final9`): after point n the carried sum is the sum over rows 0 … 4000·(n + 1) − 1, by induction on n.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Reg10

open Cert.KernelIdeal Cert.KernelIdeal.Gen Cert.LibDot

theorem hz : (![0, 0] : Fin 2 → Nat) = fun _ => 0 := funext fun a => by fin_cases a <;> rfl

/-! ## What each control case leaves in each output's staging buffer -/

section Pieces
variable {F : FTy → Type} [FloatOps F]

theorem outA7 (c : Dev nD) (i : grid10.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond10_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out10_A_7 (F := F) c i arg1 harg1 arg2 harg2 arg3 harg3 arg4 harg4 arg5 harg5 arg6 harg6 arg7 harg7 arg8 harg8 arg9 harg9 arg10 harg10 hc0 x0 x1 x2 x3 x4 x5 x6 = k10_pay5 x0 x1 x2 x3 x4 x5 x6 := by
  unfold out10_A_7
  rw [View.read_writes_eq_canon _ _ _ (cover10_A_7 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outA8 (c : Dev nD) (i : grid10.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond10_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out10_A_8 (F := F) c i arg1 harg1 arg2 harg2 arg3 harg3 arg4 harg4 arg5 harg5 arg6 harg6 arg7 harg7 arg8 harg8 arg9 harg9 arg10 harg10 hc0 x0 x1 x2 x3 x4 x5 x6 = k10_pay1 (k10_pay5 x0 x1 x2 x3 x4 x5 x6) k10_pay3 := by
  unfold out10_A_8
  rw [View.read_writes_eq_canon _ _ _ (cover10_A_8 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outA9 (c : Dev nD) (i : grid10.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond10_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out10_A_9 (F := F) c i arg1 harg1 arg2 harg2 arg3 harg3 arg4 harg4 arg5 harg5 arg6 harg6 arg7 harg7 arg8 harg8 arg9 harg9 arg10 harg10 hc0 x0 x1 x2 x3 x4 x5 x6 = k10_pay2 (k10_pay5 x0 x1 x2 x3 x4 x5 x6) k10_pay4 := by
  unfold out10_A_9
  rw [View.read_writes_eq_canon _ _ _ (cover10_A_9 c i arg1 harg1 arg2 harg2 arg3 harg3 arg4 harg4 arg5 harg5 arg6 harg6 arg7 harg7 arg8 harg8 arg9 harg9 arg10 harg10 hc0 x0 x1 x2 x3 x4 x5 x6)]
  unfold kernelRun10_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB7 (c : Dev nD) (i : grid10.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond10_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out10_B_7 (F := F) c i arg1 harg1 arg2 harg2 arg3 harg3 arg4 harg4 arg5 harg5 arg6 harg6 arg7 harg7 arg8 harg8 arg9 harg9 arg10 harg10 hc0 x0 x1 x2 x3 x4 x5 x6 xo8 xo9 = k10_pay5 x0 x1 x2 x3 x4 x5 x6 := by
  unfold out10_B_7
  rw [View.read_writes_eq_canon _ _ _ (cover10_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB8 (c : Dev nD) (i : grid10.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond10_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out10_B_8 (F := F) c i arg1 harg1 arg2 harg2 arg3 harg3 arg4 harg4 arg5 harg5 arg6 harg6 arg7 harg7 arg8 harg8 arg9 harg9 arg10 harg10 hc0 x0 x1 x2 x3 x4 x5 x6 xo8 xo9 = k10_pay1 (k10_pay5 x0 x1 x2 x3 x4 x5 x6) xo8 := by
  unfold out10_B_8
  rw [View.read_writes_eq_canon _ _ _ (cover10_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB9 (c : Dev nD) (i : grid10.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond10_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out10_B_9 (F := F) c i arg1 harg1 arg2 harg2 arg3 harg3 arg4 harg4 arg5 harg5 arg6 harg6 arg7 harg7 arg8 harg8 arg9 harg9 arg10 harg10 hc0 x0 x1 x2 x3 x4 x5 x6 xo8 xo9 = k10_pay2 (k10_pay5 x0 x1 x2 x3 x4 x5 x6) xo9 := by
  unfold out10_B_9
  rw [View.read_writes_eq_canon _ _ _ (cover10_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun10_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

end Pieces

/-! ## The payloads at an entry -/

theorem plain_1 : Plain dot_S4000x128_S128x128_S4000x128_1_0_0_1_n_n :=
  ⟨rfl, rfl, fun _ _ => rfl, fun j k => DotDims.lhsIdx_val_of_single _ rfl j k, fun j k => DotDims.rhsIdx_val_of_single _ rfl j k, fun _ _ => rfl⟩

/-- A [1,1] block broadcast over [a,b] reads its one entry. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the block's MLP output. -/
theorem pay5_apply (x agg : Vec Ideal S4000x128 .f32) (eps : Vec Ideal S1x1 .f32) (w1 : Vec Ideal S128x128 .f32)
    (b1 : Vec Ideal S1x128 .f32) (w2 : Vec Ideal S128x128 .f32) (b2 : Vec Ideal S1x128 .f32) (p : Fin 4000) (q : Fin 128) :
    k10_pay5 x agg eps w1 b1 w2 b2 (ix2 p q)
      = (∑ k : Fin 128,
          max ((∑ l : Fin 128, ((Ideal.ofBits .f32 0x3F800000#32 + eps (ix2 (0 : Fin 1) (0 : Fin 1))) * x (ix2 p l) + agg (ix2 p l)) * w1 (ix2 l k))
                + b1 (ix2 (0 : Fin 1) k)) (Ideal.ofBits .f32 0x00000000#32) * w2 (ix2 k q))
        + b2 (ix2 (0 : Fin 1) q) := by
  unfold k10_pay5
  simp only [shapeCast_self]
  rw [addf_apply, matmul_ix2 plain_1, broadcastTo_1b_ab_apply]
  refine congrArg (· + _) (Finset.sum_congr rfl fun k _ => ?_)
  rw [truncf_apply, truncf_apply, maximumf_apply, addf_apply, matmul_ix2 plain_1, broadcastTo_1b_ab_apply, broadcast_apply]
  refine congrArg (fun z => max (z + _) _ * _) (Finset.sum_congr rfl fun l _ => ?_)
  rw [truncf_apply, truncf_apply, addf_apply, mulf_apply, broadcastTo_11_ab_apply, addf_apply, broadcast_apply]
  rfl

/-! ## The results as functions of the region's input arrays -/

section Values

variable (V : (c : Dev nD) → (b : Ref sig .tc) → Buf (Elt Ideal) ((c : Thread nD τ).loc b))

/-- Row `r`, column `j` of the MLP output, from the whole input arrays. -/
def h2 (x agg : S100000x128.Idx → EReal) (eps : S1x1.Idx → EReal) (w1 : S128x128.Idx → EReal) (b1 : S1x128.Idx → EReal)
    (w2 : S128x128.Idx → EReal) (b2 : S1x128.Idx → EReal) (r : Fin 100000) (j : Fin 128) : EReal :=
  (∑ k : Fin 128,
      max ((∑ l : Fin 128, ((Ideal.ofBits .f32 0x3F800000#32 + eps (ix2 (0 : Fin 1) (0 : Fin 1))) * x (ix2 r l) + agg (ix2 r l)) * w1 (ix2 l k))
            + b1 (ix2 (0 : Fin 1) k)) (Ideal.ofBits .f32 0x00000000#32) * w2 (ix2 k j))
    + b2 (ix2 (0 : Fin 1) j)

/-- The MLP output array. -/
def out7 (x agg : S100000x128.Idx → EReal) (eps : S1x1.Idx → EReal) (w1 : S128x128.Idx → EReal) (b1 : S1x128.Idx → EReal)
    (w2 : S128x128.Idx → EReal) (b2 : S1x128.Idx → EReal) : S100000x128.Idx → EReal :=
  fun i => h2 x agg eps w1 b1 w2 b2 (i 0 : Fin 100000) (i 1 : Fin 128)

/-- The column sums of the MLP output. -/
def out8 (x agg : S100000x128.Idx → EReal) (eps : S1x1.Idx → EReal) (w1 : S128x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128)

/-- The column sums of its squares. -/
def out9 (x agg : S100000x128.Idx → EReal) (eps : S1x1.Idx → EReal) (w1 : S128x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128) * h2 x agg eps w1 b1 w2 b2 r (i 1 : Fin 128)

/-- Where each window's block sits at point `t`. -/
theorem idx_facts : ∀ t : Fin cfg10.N, win10_0.index t (0 : Fin 2) = t.val
    ∧ win10_0.index t (1 : Fin 2) = 0
    ∧ win10_1.index t (0 : Fin 2) = t.val
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = 0
    ∧ win10_5.index t (1 : Fin 2) = 0
    ∧ win10_6.index t (0 : Fin 2) = 0
    ∧ win10_6.index t (1 : Fin 2) = 0
    ∧ win10_7.index t (0 : Fin 2) = t.val
    ∧ win10_7.index t (1 : Fin 2) = 0
    ∧ win10_8.index t (0 : Fin 2) = 0
    ∧ win10_8.index t (1 : Fin 2) = 0
    ∧ win10_9.index t (0 : Fin 2) = 0
    ∧ win10_9.index t (1 : Fin 2) = 0 :=
  (by decide +kernel : ∀ t : Fin grid10.N, _)

/-- Row `p` of point `t`'s block is row 4000·t + p of the array. -/
def row (t : Fin cfg10.N) (p : Fin 4000) : Fin 100000 :=
  ⟨4000 * t.val + p.val, by have h : t.val < 25 := lt_of_lt_of_eq t.isLt N_10; have := p.isLt; omega⟩

theorem rd0 (c : Dev nD) (t : Fin cfg10.N) (p : Fin 4000) (q : Fin 128) :
    (iblk10 V c 0 t : Vec Ideal S4000x128 .f32) (ix2 p q) = (V c main_v114 : S100000x128.Idx → EReal) (ix2 (row t p) q) := by
  obtain ⟨e0, e1, -⟩ := idx_facts t
  unfold iblk10
  rw [View.read_apply]
  show V c main_v114 _ = V c main_v114 _
  refine congrArg _ (funext fun a => Fin.ext ?_)
  match a with
  | ⟨0, _⟩ => show win10_0.index t (0 : Fin 2) * 4000 + 1 * p.val = 4000 * t.val + p.val; rw [e0]; omega
  | ⟨1, _⟩ => show win10_0.index t (1 : Fin 2) * 128 + 1 * q.val = q.val; rw [e1]; omega

theorem rd1 (c : Dev nD) (t : Fin cfg10.N) (p : Fin 4000) (q : Fin 128) :
    (iblk10 V c 1 t : Vec Ideal S4000x128 .f32) (ix2 p q) = (V c main_v144 : S100000x128.Idx → EReal) (ix2 (row t p) q) := by
  obtain ⟨-, -, e0, e1, -⟩ := idx_facts t
  unfold iblk10
  rw [View.read_apply]
  show V c main_v144 _ = V c main_v144 _
  refine congrArg _ (funext fun a => Fin.ext ?_)
  match a with
  | ⟨0, _⟩ => show win10_1.index t (0 : Fin 2) * 4000 + 1 * p.val = 4000 * t.val + p.val; rw [e0]; omega
  | ⟨1, _⟩ => show win10_1.index t (1 : Fin 2) * 128 + 1 * q.val = q.val; rw [e1]; omega

theorem rd2 (c : Dev nD) (t : Fin cfg10.N) (p : Fin 1) (q : Fin 1) :
    (iblk10 V c 2 t : Vec Ideal S1x1 .f32) (ix2 p q) = (V c main_v145 : S1x1.Idx → EReal) (ix2 p q) := by
  obtain ⟨-, -, -, -, e0, e1, -⟩ := idx_facts t
  unfold iblk10
  rw [View.read_apply]
  show V c main_v145 _ = V c main_v145 _
  refine congrArg _ (funext fun a => Fin.ext ?_)
  match a with
  | ⟨0, _⟩ => show win10_2.index t (0 : Fin 2) * 1 + 1 * p.val = p.val; rw [e0]; omega
  | ⟨1, _⟩ => show win10_2.index t (1 : Fin 2) * 1 + 1 * q.val = q.val; rw [e1]; omega

theorem rd3 (c : Dev nD) (t : Fin cfg10.N) (p : Fin 128) (q : Fin 128) :
    (iblk10 V c 3 t : Vec Ideal S128x128 .f32) (ix2 p q) = (V c main_v122 : S128x128.Idx → EReal) (ix2 p q) := by
  obtain ⟨-, -, -, -, -, -, e0, e1, -⟩ := idx_facts t
  unfold iblk10
  rw [View.read_apply]
  show V c main_v122 _ = V c main_v122 _
  refine congrArg _ (funext fun a => Fin.ext ?_)
  match a with
  | ⟨0, _⟩ => show win10_3.index t (0 : Fin 2) * 128 + 1 * p.val = p.val; rw [e0]; omega
  | ⟨1, _⟩ => show win10_3.index t (1 : Fin 2) * 128 + 1 * q.val = q.val; rw [e1]; omega

theorem rd4 (c : Dev nD) (t : Fin cfg10.N) (p : Fin 1) (q : Fin 128) :
    (iblk10 V c 4 t : Vec Ideal S1x128 .f32) (ix2 p q) = (V c main_v146 : S1x128.Idx → EReal) (ix2 p q) := by
  obtain ⟨-, -, -, -, -, -, -, -, e0, e1, -⟩ := idx_facts t
  unfold iblk10
  rw [View.read_apply]
  show V c main_v146 _ = V c main_v146 _
  refine congrArg _ (funext fun a => Fin.ext ?_)
  match a with
  | ⟨0, _⟩ => show win10_4.index t (0 : Fin 2) * 1 + 1 * p.val = p.val; rw [e0]; omega
  | ⟨1, _⟩ => show win10_4.index t (1 : Fin 2) * 128 + 1 * q.val = q.val; rw [e1]; omega

theorem rd5 (c : Dev nD) (t : Fin cfg10.N) (p : Fin 128) (q : Fin 128) :
    (iblk10 V c 5 t : Vec Ideal S128x128 .f32) (ix2 p q) = (V c main_v126 : S128x128.Idx → EReal) (ix2 p q) := by
  obtain ⟨-, -, -, -, -, -, -, -, -, -, e0, e1, -⟩ := idx_facts t
  unfold iblk10
  rw [View.read_apply]
  show V c main_v126 _ = V c main_v126 _
  refine congrArg _ (funext fun a => Fin.ext ?_)
  match a with
  | ⟨0, _⟩ => show win10_5.index t (0 : Fin 2) * 128 + 1 * p.val = p.val; rw [e0]; omega
  | ⟨1, _⟩ => show win10_5.index t (1 : Fin 2) * 128 + 1 * q.val = q.val; rw [e1]; omega

theorem rd6 (c : Dev nD) (t : Fin cfg10.N) (p : Fin 1) (q : Fin 128) :
    (iblk10 V c 6 t : Vec Ideal S1x128 .f32) (ix2 p q) = (V c main_v147 : S1x128.Idx → EReal) (ix2 p q) := by
  obtain ⟨-, -, -, -, -, -, -, -, -, -, -, -, e0, e1, -⟩ := idx_facts t
  unfold iblk10
  rw [View.read_apply]
  show V c main_v147 _ = V c main_v147 _
  refine congrArg _ (funext fun a => Fin.ext ?_)
  match a with
  | ⟨0, _⟩ => show win10_6.index t (0 : Fin 2) * 1 + 1 * p.val = p.val; rw [e0]; omega
  | ⟨1, _⟩ => show win10_6.index t (1 : Fin 2) * 128 + 1 * q.val = q.val; rw [e1]; omega

/-- The MLP block of point `t`, entry (p, q): row 4000·t + p of the MLP output. -/
theorem blk_apply (c : Dev nD) (t : Fin cfg10.N) (p : Fin 4000) (q : Fin 128) :
    k10_pay5 (iblk10 V c 0 t) (iblk10 V c 1 t) (iblk10 V c 2 t) (iblk10 V c 3 t) (iblk10 V c 4 t) (iblk10 V c 5 t) (iblk10 V c 6 t) (ix2 p q) = h2 (V c main_v114) (V c main_v144) (V c main_v145) (V c main_v122) (V c main_v146) (V c main_v126) (V c main_v147) (row t p) q := by
  rw [pay5_apply]
  unfold h2
  simp only [rd0, rd1, rd2, rd3, rd4, rd5, rd6]

/-- Whatever the control case, the first output's buffer after point `t` is the point's MLP block. -/
theorem outs7 (c : Dev nD) (t : Fin cfg10.N) : (outsAt10 V c t.val t.isLt).1 = k10_pay5 (iblk10 V c 0 t) (iblk10 V c 1 t) (iblk10 V c 2 t) (iblk10 V c 3 t) (iblk10 V c 4 t) (iblk10 V c 5 t) (iblk10 V c 6 t) := by
  by_cases h0 : t.val % 25 = 0
  · rw [outsAt10_A V c t h0]
    dsimp only
    exact outA7 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr h0) (iblk10 V c 0 t) (iblk10 V c 1 t) (iblk10 V c 2 t) (iblk10 V c 3 t) (iblk10 V c 4 t) (iblk10 V c 5 t) (iblk10 V c 6 t)
  · rw [outsAt10_B V c t h0]
    dsimp only
    exact outB7 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2

/-- The output block's entry (p, q) at point `t` is entry (4000·t + p, q) of the array. -/
theorem emb7 (t : Fin cfg10.N) (p : Fin 4000) (q : Fin 128) :
    ((cfg10.win 7).blk t).view.emb (ix2 p q) = (ix2 (row t p) q : S100000x128.Idx) := by
  obtain ⟨-, -, -, -, -, -, -, -, -, -, -, -, -, -, e0, e1, -⟩ := idx_facts t
  refine funext fun a => Fin.ext ?_
  match a with
  | ⟨0, _⟩ => show win10_7.index t (0 : Fin 2) * 4000 + 1 * p.val = 4000 * t.val + p.val; rw [e0]; omega
  | ⟨1, _⟩ => show win10_7.index t (1 : Fin 2) * 128 + 1 * q.val = q.val; rw [e1]; omega

theorem flushed7_eq (c : Dev nD) (t : Fin cfg10.N) :
    (dat10 V c).flushed 7 t = ((cfg10.win 7).blk t).view.read (Elt Ideal) (out7 (V c main_v114) (V c main_v144) (V c main_v145) (V c main_v122) (V c main_v146) (V c main_v126) (V c main_v147)) := by
  show (cfg10.win 7).cut (grid10.coords t) ((dat10 V c).after 7 t) = _
  rw [after10_7, outs7]
  funext j
  obtain ⟨p, q, rfl⟩ : ∃ (p : Fin 4000) (q : Fin 128), j = ix2 p q := ⟨j 0, j 1, eq_ix2 j⟩
  show k10_pay5 (iblk10 V c 0 t) (iblk10 V c 1 t) (iblk10 V c 2 t) (iblk10 V c 3 t) (iblk10 V c 4 t) (iblk10 V c 5 t) (iblk10 V c 6 t) (ix2 p q) = out7 (V c main_v114) (V c main_v144) (V c main_v145) (V c main_v122) (V c main_v146) (V c main_v126) (V c main_v147) (((cfg10.win 7).blk t).view.emb (ix2 p q))
  rw [emb7, blk_apply]
  rfl

theorem cover7 (i : S100000x128.Idx) : ∃ t : Fin cfg10.N, (cfg10.win 7).flush t = true ∧ i ∈ ((cfg10.win 7).blk t).view.set := by
  have hi0 : (i 0).val < 100000 := (i 0).isLt
  have hi1 : (i 1).val < 128 := (i 1).isLt
  let t : Fin cfg10.N := ⟨(i 0).val / 4000, by rw [show cfg10.N = 25 from N_10]; omega⟩
  obtain ⟨-, -, -, -, -, -, -, -, -, -, -, -, -, -, e0, e1, -⟩ := idx_facts t
  refine ⟨t, flush10_7 t, ?_⟩
  show i ∈ ((View.whole main_v148_0).slice (win10_7.rect t)).set
  rw [View.set_slice_whole, Rect.mem_set_unit]
  intro a
  match a with
  | ⟨0, _⟩ =>
    show win10_7.index t (0 : Fin 2) * 4000 ≤ (i 0).val ∧ (i 0).val < win10_7.index t (0 : Fin 2) * 4000 + 4000
    rw [e0]; show (i 0).val / 4000 * 4000 ≤ (i 0).val ∧ (i 0).val < (i 0).val / 4000 * 4000 + 4000; omega
  | ⟨1, _⟩ =>
    show win10_7.index t (1 : Fin 2) * 128 ≤ (i 1).val ∧ (i 1).val < win10_7.index t (1 : Fin 2) * 128 + 128
    rw [e1]; omega

/-- The first result array is the MLP output of the input arrays. -/
theorem final7 (c : Dev nD) : (dat10 V c).arrAt 7 cfg10.N = out7 (V c main_v114) (V c main_v144) (V c main_v145) (V c main_v122) (V c main_v146) (V c main_v126) (V c main_v147) :=
  (dat10 V c).arrAt_eq_of_cover 7 _ (fun t _ => flushed7_eq V c t) (cover7)

end Values

/-! ## The carried column sums -/

section Sums

variable (V : (c : Dev nD) → (b : Ref sig .tc) → Buf (Elt Ideal) ((c : Thread nD τ).loc b))

/-- The lane sum's inserted index: row `r` of column `q`. -/
theorem lift_eq (q : Fin 128) (r : Fin 4000) : reduces_S4000x128_S128.lift (ix1 q) r = (ix2 r q : S4000x128.Idx) := by
  funext a; apply Fin.ext
  match a with
  | ⟨0, _⟩ => rfl
  | ⟨1, _⟩ => rfl

/-- The sum payload: what the carried row held plus the block's column sum. -/
theorem pay1_apply (v30 : FVec Ideal S4000x128 .f32) (v32 : Vec Ideal S1x128 .f32) (u : Fin 1) (q : Fin 128) :
    k10_pay1 v30 v32 (ix2 u q) = v32 (ix2 u q) + ∑ r : Fin 4000, v30 (ix2 r q) := by
  unfold k10_pay1
  simp only [shapeCast_self]
  rw [addf_apply, shapeCast_a_1a_apply]
  refine congrArg (_ + ·) ?_
  refine (Ideal.multiReduction_add_single v30 0x00000000#32 reduces_S4000x128_S128 (.inl rfl) rfl (ix1 q)).trans ?_
  exact Finset.sum_congr rfl fun r _ => congrArg v30 (lift_eq q r)

/-- The sum-of-squares payload. -/
theorem pay2_apply (v30 : FVec Ideal S4000x128 .f32) (v38 : Vec Ideal S1x128 .f32) (u : Fin 1) (q : Fin 128) :
    k10_pay2 v30 v38 (ix2 u q) = v38 (ix2 u q) + ∑ r : Fin 4000, v30 (ix2 r q) * v30 (ix2 r q) := by
  unfold k10_pay2
  simp only [shapeCast_self]
  rw [addf_apply, shapeCast_a_1a_apply]
  refine congrArg (_ + ·) ?_
  refine (Ideal.multiReduction_add_single (mulf v30 v30) 0x00000000#32 reduces_S4000x128_S128 (.inl rfl) rfl (ix1 q)).trans ?_
  exact Finset.sum_congr rfl fun r _ => congrArg (fun z => v30 z * v30 z) (lift_eq q r)

/-- Row `n` of the MLP output as a function of a natural number (0 beyond the array). -/
def g (c : Dev nD) (q : Fin 128) (n : ℕ) : EReal :=
  if h : n < 100000 then h2 (V c main_v114) (V c main_v144) (V c main_v145) (V c main_v122) (V c main_v146) (V c main_v126) (V c main_v147) ⟨n, h⟩ q else 0

theorem g_row (c : Dev nD) (q : Fin 128) (t : Fin cfg10.N) (p : Fin 4000) :
    h2 (V c main_v114) (V c main_v144) (V c main_v145) (V c main_v122) (V c main_v146) (V c main_v126) (V c main_v147) (row t p) q = g V c q (4000 * t.val + p.val) := by
  unfold g
  rw [dif_pos (show 4000 * t.val + p.val < 100000 from (row t p).isLt)]
  rfl

/-- The block's column sum at point `t` is the sum of rows 4000·t … 4000·t + 3999. -/
theorem blk_sum (c : Dev nD) (q : Fin 128) (t : Fin cfg10.N) :
    ∑ r : Fin 4000, k10_pay5 (iblk10 V c 0 t) (iblk10 V c 1 t) (iblk10 V c 2 t) (iblk10 V c 3 t) (iblk10 V c 4 t) (iblk10 V c 5 t) (iblk10 V c 6 t) (ix2 r q) = ∑ p ∈ Finset.range 4000, g V c q (4000 * t.val + p) := by
  rw [← Fin.sum_univ_eq_sum_range (fun p => g V c q (4000 * t.val + p)) 4000]
  exact Finset.sum_congr rfl fun r _ => by rw [blk_apply, g_row]

theorem blk_sumsq (c : Dev nD) (q : Fin 128) (t : Fin cfg10.N) :
    ∑ r : Fin 4000, k10_pay5 (iblk10 V c 0 t) (iblk10 V c 1 t) (iblk10 V c 2 t) (iblk10 V c 3 t) (iblk10 V c 4 t) (iblk10 V c 5 t) (iblk10 V c 6 t) (ix2 r q) * k10_pay5 (iblk10 V c 0 t) (iblk10 V c 1 t) (iblk10 V c 2 t) (iblk10 V c 3 t) (iblk10 V c 4 t) (iblk10 V c 5 t) (iblk10 V c 6 t) (ix2 r q)
      = ∑ p ∈ Finset.range 4000, g V c q (4000 * t.val + p) * g V c q (4000 * t.val + p) := by
  rw [← Fin.sum_univ_eq_sum_range (fun p => g V c q (4000 * t.val + p) * g V c q (4000 * t.val + p)) 4000]
  exact Finset.sum_congr rfl fun r _ => by rw [blk_apply, g_row]

/-- After point `n` the carried rows hold the column sums over rows 0 … 4000·(n + 1) − 1. -/
theorem acc (c : Dev nD) (q : Fin 128) : ∀ (n : ℕ) (hn : n < cfg10.N),
    (outsAt10 V c n hn).2.1 (ix2 (0 : Fin 1) q) = ∑ r ∈ Finset.range (4000 * (n + 1)), g V c q r
    ∧ (outsAt10 V c n hn).2.2 (ix2 (0 : Fin 1) q) = ∑ r ∈ Finset.range (4000 * (n + 1)), g V c q r * g V c q r := by
  intro n
  induction n with
  | zero =>
    intro hn
    let t : Fin cfg10.N := ⟨0, hn⟩
    have hA := outsAt10_A V c t (Nat.zero_mod _)
    have e8 := outA8 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr (Nat.zero_mod _)) (iblk10 V c 0 t) (iblk10 V c 1 t) (iblk10 V c 2 t) (iblk10 V c 3 t) (iblk10 V c 4 t) (iblk10 V c 5 t) (iblk10 V c 6 t)
    have e9 := outA9 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) ((hcond10_0 t).mpr (Nat.zero_mod _)) (iblk10 V c 0 t) (iblk10 V c 1 t) (iblk10 V c 2 t) (iblk10 V c 3 t) (iblk10 V c 4 t) (iblk10 V c 5 t) (iblk10 V c 6 t)
    have h1 : (outsAt10 V c 0 hn).2.1 = _ := (congrArg (fun z => z.2.1) hA).trans e8
    have h2' : (outsAt10 V c 0 hn).2.2 = _ := (congrArg (fun z => z.2.2) hA).trans e9
    constructor
    · rw [h1, pay1_apply, blk_sum V c q t]
      show Ideal.ofBits .f32 0x00000000#32 + _ = _
      rw [Ideal.ofBits_zero_f32, zero_add]
      show ∑ p ∈ Finset.range 4000, g V c q (4000 * 0 + p) = _
      simp
    · rw [h2', pay2_apply, blk_sumsq V c q t]
      show Ideal.ofBits .f32 0x00000000#32 + _ = _
      rw [Ideal.ofBits_zero_f32, zero_add]
      show ∑ p ∈ Finset.range 4000, g V c q (4000 * 0 + p) * g V c q (4000 * 0 + p) = _
      simp
  | succ n ih =>
    intro hn
    have hN : cfg10.N = 25 := N_10
    let t : Fin cfg10.N := ⟨n + 1, hn⟩
    have h0 : ¬ t.val % 25 = 0 := by show ¬ (n + 1) % 25 = 0; omega
    have hB := outsAt10_B V c t h0
    have e8 := outB8 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2
    have e9 := outB9 (F := Ideal) c (grid10.coords t) (ms10_0 t) (hs10_0 t) (ms10_1 t) (hs10_1 t) (ms10_2 t) (hs10_2 t) (ms10_3 t) (hs10_3 t) (ms10_4 t) (hs10_4 t) (ms10_5 t) (hs10_5 t) (ms10_6 t) (hs10_6 t) (ms10_7 t) (hs10_7 t) (ms10_8 t) (hs10_8 t) (ms10_9 t) (hs10_9 t) (fun h => h0 ((hcond10_0 t).mp h)) (iblk10 V c 0 t) (iblk10 V c 1 t) (iblk10 V c 2 t) (iblk10 V c 3 t) (iblk10 V c 4 t) (iblk10 V c 5 t) (iblk10 V c 6 t) (outsAt10 V c (t.val - 1) (Nat.lt_of_le_of_lt (Nat.sub_le _ _) t.isLt)).2.1 (outsAt10 V c (t.val - 1) (Nat.lt_of_le_of_lt (Nat.sub_le _ _) t.isLt)).2.2
    have h1 : (outsAt10 V c (n + 1) hn).2.1 = _ := (congrArg (fun z => z.2.1) hB).trans e8
    have h2' : (outsAt10 V c (n + 1) hn).2.2 = _ := (congrArg (fun z => z.2.2) hB).trans e9
    obtain ⟨i1, i2⟩ := ih (Nat.lt_of_succ_lt hn)
    have hp : (outsAt10 V c (t.val - 1) (Nat.lt_of_le_of_lt (Nat.sub_le _ _) t.isLt)) = outsAt10 V c n (Nat.lt_of_succ_lt hn) := rfl
    constructor
    · rw [h1, pay1_apply, blk_sum V c q t, hp, i1]
      show _ + ∑ p ∈ Finset.range 4000, g V c q (4000 * (n + 1) + p) = _
      rw [show 4000 * (n + 1 + 1) = 4000 * (n + 1) + 4000 from by ring, Finset.sum_range_add]
    · rw [h2', pay2_apply, blk_sumsq V c q t, hp, i2]
      show _ + ∑ p ∈ Finset.range 4000, g V c q (4000 * (n + 1) + p) * g V c q (4000 * (n + 1) + p) = _
      rw [show 4000 * (n + 1 + 1) = 4000 * (n + 1) + 4000 from by ring, Finset.sum_range_add]

end Sums

/-! ## The carried sums, written back after the last point -/

section Finals

variable (V : (c : Dev nD) → (b : Ref sig .tc) → Buf (Elt Ideal) ((c : Thread nD τ).loc b))

theorem out8_apply (x agg eps w1 b1 w2 b2) (u : Fin 1) (q : Fin 128) :
    out8 x agg eps w1 b1 w2 b2 (ix2 u q) = ∑ r : Fin 100000, h2 x agg eps w1 b1 w2 b2 r q := rfl
theorem out9_apply (x agg eps w1 b1 w2 b2) (u : Fin 1) (q : Fin 128) :
    out9 x agg eps w1 b1 w2 b2 (ix2 u q) = ∑ r : Fin 100000, h2 x agg eps w1 b1 w2 b2 r q * h2 x agg eps w1 b1 w2 b2 r q := rfl

-- the sums range over 100000 rows: never unfolded by a definitional check
attribute [local irreducible] out8 out9

theorem emb8 (t : Fin cfg10.N) (u : Fin 1) (q : Fin 128) :
    ((cfg10.win 8).blk t).view.emb (ix2 u q) = (ix2 u q : S1x128.Idx) := by
  obtain ⟨-, -, -, -, -, -, -, -, -, -, -, -, -, -, -, -, e0, e1, -⟩ := idx_facts t
  refine funext fun a => Fin.ext ?_
  match a with
  | ⟨0, _⟩ => show win10_8.index t (0 : Fin 2) * 1 + 1 * u.val = u.val; rw [e0]; omega
  | ⟨1, _⟩ => show win10_8.index t (1 : Fin 2) * 128 + 1 * q.val = q.val; rw [e1]; omega

theorem flushed8_eq (c : Dev nD) (t : Fin cfg10.N) (hf : (cfg10.win 8).flush t = true) :
    (dat10 V c).flushed 8 t = ((cfg10.win 8).blk t).view.read (Elt Ideal) (out8 (V c main_v114) (V c main_v144) (V c main_v145) (V c main_v122) (V c main_v146) (V c main_v126) (V c main_v147)) := by
  have h24 : t.val = 24 := by have h1 := (flush10_8 t).mp hf; have h2 : t.val < 25 := lt_of_lt_of_eq t.isLt N_10; omega
  show (cfg10.win 8).cut (grid10.coords t) ((dat10 V c).after 8 t) = _
  rw [after10_8]
  funext j
  obtain ⟨u, q, rfl⟩ : ∃ (u : Fin 1) (q : Fin 128), j = ix2 u q := ⟨j 0, j 1, eq_ix2 j⟩
  obtain rfl : u = 0 := Subsingleton.elim _ _
  show (outsAt10 V c t.val t.isLt).2.1 (ix2 (0 : Fin 1) q) = out8 (V c main_v114) (V c main_v144) (V c main_v145) (V c main_v122) (V c main_v146) (V c main_v126) (V c main_v147) (((cfg10.win 8).blk t).view.emb (ix2 (0 : Fin 1) q))
  rw [emb8, (acc V c q t.val t.isLt).1, h24, out8_apply, show 4000 * (24 + 1) = 100000 from rfl]
  rw [← Fin.sum_univ_eq_sum_range (fun r => g V c q r) 100000]
  exact Finset.sum_congr rfl fun r _ => by unfold g; rw [dif_pos r.isLt]

theorem cover8 (i : S1x128.Idx) : ∃ t : Fin cfg10.N, (cfg10.win 8).flush t = true ∧ i ∈ ((cfg10.win 8).blk t).view.set := by
  have hi0 : (i 0).val < 1 := (i 0).isLt
  have hi1 : (i 1).val < 128 := (i 1).isLt
  let t : Fin cfg10.N := ⟨24, by rw [show cfg10.N = 25 from N_10]; omega⟩
  obtain ⟨-, -, -, -, -, -, -, -, -, -, -, -, -, -, -, -, e0, e1, -⟩ := idx_facts t
  refine ⟨t, (flush10_8 t).mpr rfl, ?_⟩
  show i ∈ ((View.whole main_v148_1).slice (win10_8.rect t)).set
  rw [View.set_slice_whole, Rect.mem_set_unit]
  intro a
  match a with
  | ⟨0, _⟩ =>
    show win10_8.index t (0 : Fin 2) * 1 ≤ (i 0).val ∧ (i 0).val < win10_8.index t (0 : Fin 2) * 1 + 1
    rw [e0]; omega
  | ⟨1, _⟩ =>
    show win10_8.index t (1 : Fin 2) * 128 ≤ (i 1).val ∧ (i 1).val < win10_8.index t (1 : Fin 2) * 128 + 128
    rw [e1]; omega

theorem final8 (c : Dev nD) : (dat10 V c).arrAt 8 cfg10.N = out8 (V c main_v114) (V c main_v144) (V c main_v145) (V c main_v122) (V c main_v146) (V c main_v126) (V c main_v147) :=
  (dat10 V c).arrAt_eq_of_cover 8 _ (fun t hf => flushed8_eq V c t hf) (cover8)

theorem emb9 (t : Fin cfg10.N) (u : Fin 1) (q : Fin 128) :
    ((cfg10.win 9).blk t).view.emb (ix2 u q) = (ix2 u q : S1x128.Idx) := by
  obtain ⟨-, -, -, -, -, -, -, -, -, -, -, -, -, -, -, -, -, -, e0, e1⟩ := idx_facts t
  refine funext fun a => Fin.ext ?_
  match a with
  | ⟨0, _⟩ => show win10_9.index t (0 : Fin 2) * 1 + 1 * u.val = u.val; rw [e0]; omega
  | ⟨1, _⟩ => show win10_9.index t (1 : Fin 2) * 128 + 1 * q.val = q.val; rw [e1]; omega

theorem flushed9_eq (c : Dev nD) (t : Fin cfg10.N) (hf : (cfg10.win 9).flush t = true) :
    (dat10 V c).flushed 9 t = ((cfg10.win 9).blk t).view.read (Elt Ideal) (out9 (V c main_v114) (V c main_v144) (V c main_v145) (V c main_v122) (V c main_v146) (V c main_v126) (V c main_v147)) := by
  have h24 : t.val = 24 := by have h1 := (flush10_9 t).mp hf; have h2 : t.val < 25 := lt_of_lt_of_eq t.isLt N_10; omega
  show (cfg10.win 9).cut (grid10.coords t) ((dat10 V c).after 9 t) = _
  rw [after10_9]
  funext j
  obtain ⟨u, q, rfl⟩ : ∃ (u : Fin 1) (q : Fin 128), j = ix2 u q := ⟨j 0, j 1, eq_ix2 j⟩
  obtain rfl : u = 0 := Subsingleton.elim _ _
  show (outsAt10 V c t.val t.isLt).2.2 (ix2 (0 : Fin 1) q) = out9 (V c main_v114) (V c main_v144) (V c main_v145) (V c main_v122) (V c main_v146) (V c main_v126) (V c main_v147) (((cfg10.win 9).blk t).view.emb (ix2 (0 : Fin 1) q))
  rw [emb9, (acc V c q t.val t.isLt).2, h24, out9_apply, show 4000 * (24 + 1) = 100000 from rfl]
  rw [← Fin.sum_univ_eq_sum_range (fun r => g V c q r * g V c q r) 100000]
  exact Finset.sum_congr rfl fun r _ => by unfold g; rw [dif_pos r.isLt]

theorem cover9 (i : S1x128.Idx) : ∃ t : Fin cfg10.N, (cfg10.win 9).flush t = true ∧ i ∈ ((cfg10.win 9).blk t).view.set := by
  have hi0 : (i 0).val < 1 := (i 0).isLt
  have hi1 : (i 1).val < 128 := (i 1).isLt
  let t : Fin cfg10.N := ⟨24, by rw [show cfg10.N = 25 from N_10]; omega⟩
  obtain ⟨-, -, -, -, -, -, -, -, -, -, -, -, -, -, -, -, -, -, e0, e1⟩ := idx_facts t
  refine ⟨t, (flush10_9 t).mpr rfl, ?_⟩
  show i ∈ ((View.whole main_v148_2).slice (win10_9.rect t)).set
  rw [View.set_slice_whole, Rect.mem_set_unit]
  intro a
  match a with
  | ⟨0, _⟩ =>
    show win10_9.index t (0 : Fin 2) * 1 ≤ (i 0).val ∧ (i 0).val < win10_9.index t (0 : Fin 2) * 1 + 1
    rw [e0]; omega
  | ⟨1, _⟩ =>
    show win10_9.index t (1 : Fin 2) * 128 ≤ (i 1).val ∧ (i 1).val < win10_9.index t (1 : Fin 2) * 128 + 128
    rw [e1]; omega

theorem final9 (c : Dev nD) : (dat10 V c).arrAt 9 cfg10.N = out9 (V c main_v114) (V c main_v144) (V c main_v145) (V c main_v122) (V c main_v146) (V c main_v126) (V c main_v147) :=
  (dat10 V c).arrAt_eq_of_cover 9 _ (fun t hf => flushed9_eq V c t hf) (cover9)

end Finals

end Cert.KernelIdeal.Reg10

end
-- ==== Proof.Reg11.lean ====
/-
  Region 11: the normalisation of a layer's MLP output. Point `t` of the grid (25 points) holds rows 4000·t … 4000·t + 3999 of
  the MLP output [100000, 128] and of the layer's input (the residual), and the whole rows [1, 128] of the mean, the variance, the scale and the shift,
  and stores rows 4000·t … of the result. Entry (r, j) of what it stores is
      max ((h[r, j] − mean[0, j]) · rsqrt (var[0, j] + 1e-5) · gamma[0, j] + beta[0, j]) 0 + resid[r, j],
  which depends on row r of the row inputs only; so the result array is that function of the input arrays (`final6`).
-/
import proofs.«162690_j78211354460181_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg11

open Cert.KernelIdeal Cert.KernelIdeal.Gen

variable (V : (c : Dev nD) → (b : Ref sig .tc) → Buf (Elt Ideal) ((c : Thread nD τ).loc b))

/-- The normalised array as a function of the region's input arrays. -/
def out6 (h resid : S100000x128.Idx → EReal) (mean var gamma beta : S1x128.Idx → EReal) : S100000x128.Idx → EReal := fun i =>
  max ((h (ix2 (i 0 : Fin 100000) (i 1 : Fin 128)) - mean (ix2 (0 : Fin 1) (i 1 : Fin 128)))
        * Ideal.rsqrt (var (ix2 (0 : Fin 1) (i 1 : Fin 128)) + Ideal.ofBits .f32 0x3727C5AC#32)
        * gamma (ix2 (0 : Fin 1) (i 1 : Fin 128)) + beta (ix2 (0 : Fin 1) (i 1 : Fin 128)))
      (Ideal.ofBits .f32 0x00000000#32)
    + resid (ix2 (i 0 : Fin 100000) (i 1 : Fin 128))

theorem hz : (![0, 0] : Fin 2 → Nat) = fun _ => 0 := funext fun a => by fin_cases a <;> rfl

/-- The body's stored value at row `p` and column `q` of the block, from the loaded blocks. -/
theorem pay_apply (x0 x1 : Vec Ideal S4000x128 .f32) (x2 x3 x4 x5 : Vec Ideal S1x128 .f32) (p : Fin 4000) (q : Fin 128) :
    k11_pay1 x0 x2 x3 x4 x5 x1 (ix2 p q)
      = max ((x0 (ix2 p q) - x2 (ix2 (0 : Fin 1) q)) * Ideal.rsqrt (x3 (ix2 (0 : Fin 1) q) + Ideal.ofBits .f32 0x3727C5AC#32)
            * x4 (ix2 (0 : Fin 1) q) + x5 (ix2 (0 : Fin 1) q)) (Ideal.ofBits .f32 0x00000000#32) + x1 (ix2 p q) := by
  unfold k11_pay1
  simp only [shapeCast_self, maximumf_apply, addf_apply, mulf_apply, subf_apply, broadcast_apply, broadcastTo_1b_ab_apply]
  rfl

/-- Where each window's block sits at point `t`: the row windows at block `t`, the row vectors at block 0. -/
theorem idx_facts : ∀ t : Fin cfg11.N, win11_0.index t (0 : Fin 2) = t.val
    ∧ win11_0.index t (1 : Fin 2) = 0
    ∧ win11_1.index t (0 : Fin 2) = t.val
    ∧ win11_1.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = 0
    ∧ win11_5.index t (1 : Fin 2) = 0
    ∧ win11_6.index t (0 : Fin 2) = t.val
    ∧ win11_6.index t (1 : Fin 2) = 0 :=
  (by decide +kernel : ∀ t : Fin grid11.N, _)

/-- Row `p` of point `t`'s block is row 4000·t + p of the array. -/
def row (t : Fin cfg11.N) (p : Fin 4000) : Fin 100000 :=
  ⟨4000 * t.val + p.val, by have h : t.val < 25 := lt_of_lt_of_eq t.isLt N_11; have := p.isLt; omega⟩

theorem rd0 (c : Dev nD) (t : Fin cfg11.N) (p : Fin 4000) (q : Fin 128) :
    (iblk11 V c 0 t : Vec Ideal S4000x128 .f32) (ix2 p q) = (V c main_v148_0 : S100000x128.Idx → EReal) (ix2 (row t p) q) := by
  obtain ⟨e0, e1, -⟩ := idx_facts t
  unfold iblk11
  rw [View.read_apply]
  show V c main_v148_0 _ = V c main_v148_0 _
  refine congrArg _ (funext fun a => Fin.ext ?_)
  match a with
  | ⟨0, _⟩ => show win11_0.index t (0 : Fin 2) * 4000 + 1 * p.val = 4000 * t.val + p.val; rw [e0]; omega
  | ⟨1, _⟩ => show win11_0.index t (1 : Fin 2) * 128 + 1 * q.val = q.val; rw [e1]; omega

theorem rd1 (c : Dev nD) (t : Fin cfg11.N) (p : Fin 4000) (q : Fin 128) :
    (iblk11 V c 1 t : Vec Ideal S4000x128 .f32) (ix2 p q) = (V c main_v114 : S100000x128.Idx → EReal) (ix2 (row t p) q) := by
  obtain ⟨-, -, e0, e1, -⟩ := idx_facts t
  unfold iblk11
  rw [View.read_apply]
  show V c main_v114 _ = V c main_v114 _
  refine congrArg _ (funext fun a => Fin.ext ?_)
  match a with
  | ⟨0, _⟩ => show win11_1.index t (0 : Fin 2) * 4000 + 1 * p.val = 4000 * t.val + p.val; rw [e0]; omega
  | ⟨1, _⟩ => show win11_1.index t (1 : Fin 2) * 128 + 1 * q.val = q.val; rw [e1]; omega

theorem rd2 (c : Dev nD) (t : Fin cfg11.N) (q : Fin 128) :
    (iblk11 V c 2 t : Vec Ideal S1x128 .f32) (ix2 (0 : Fin 1) q) = (V c main_v150 : S1x128.Idx → EReal) (ix2 (0 : Fin 1) q) := by
  obtain ⟨-, -, -, -, e0, e1, -⟩ := idx_facts t
  unfold iblk11
  rw [View.read_apply]
  show V c main_v150 _ = V c main_v150 _
  refine congrArg _ (funext fun a => Fin.ext ?_)
  match a with
  | ⟨0, _⟩ => show win11_2.index t (0 : Fin 2) * 1 + 1 * (0 : Fin 1).val = (0 : Fin 1).val; rw [e0]; rfl
  | ⟨1, _⟩ => show win11_2.index t (1 : Fin 2) * 128 + 1 * q.val = q.val; rw [e1]; omega

theorem rd3 (c : Dev nD) (t : Fin cfg11.N) (q : Fin 128) :
    (iblk11 V c 3 t : Vec Ideal S1x128 .f32) (ix2 (0 : Fin 1) q) = (V c main_v154 : S1x128.Idx → EReal) (ix2 (0 : Fin 1) q) := by
  obtain ⟨-, -, -, -, -, -, e0, e1, -⟩ := idx_facts t
  unfold iblk11
  rw [View.read_apply]
  show V c main_v154 _ = V c main_v154 _
  refine congrArg _ (funext fun a => Fin.ext ?_)
  match a with
  | ⟨0, _⟩ => show win11_3.index t (0 : Fin 2) * 1 + 1 * (0 : Fin 1).val = (0 : Fin 1).val; rw [e0]; rfl
  | ⟨1, _⟩ => show win11_3.index t (1 : Fin 2) * 128 + 1 * q.val = q.val; rw [e1]; omega

theorem rd4 (c : Dev nD) (t : Fin cfg11.N) (q : Fin 128) :
    (iblk11 V c 4 t : Vec Ideal S1x128 .f32) (ix2 (0 : Fin 1) q) = (V c main_v155 : S1x128.Idx → EReal) (ix2 (0 : Fin 1) q) := by
  obtain ⟨-, -, -, -, -, -, -, -, e0, e1, -⟩ := idx_facts t
  unfold iblk11
  rw [View.read_apply]
  show V c main_v155 _ = V c main_v155 _
  refine congrArg _ (funext fun a => Fin.ext ?_)
  match a with
  | ⟨0, _⟩ => show win11_4.index t (0 : Fin 2) * 1 + 1 * (0 : Fin 1).val = (0 : Fin 1).val; rw [e0]; rfl
  | ⟨1, _⟩ => show win11_4.index t (1 : Fin 2) * 128 + 1 * q.val = q.val; rw [e1]; omega

theorem rd5 (c : Dev nD) (t : Fin cfg11.N) (q : Fin 128) :
    (iblk11 V c 5 t : Vec Ideal S1x128 .f32) (ix2 (0 : Fin 1) q) = (V c main_v156 : S1x128.Idx → EReal) (ix2 (0 : Fin 1) q) := by
  obtain ⟨-, -, -, -, -, -, -, -, -, -, e0, e1, -⟩ := idx_facts t
  unfold iblk11
  rw [View.read_apply]
  show V c main_v156 _ = V c main_v156 _
  refine congrArg _ (funext fun a => Fin.ext ?_)
  match a with
  | ⟨0, _⟩ => show win11_5.index t (0 : Fin 2) * 1 + 1 * (0 : Fin 1).val = (0 : Fin 1).val; rw [e0]; rfl
  | ⟨1, _⟩ => show win11_5.index t (1 : Fin 2) * 128 + 1 * q.val = q.val; rw [e1]; omega

/-- The output block's entry (p, q) at point `t` is entry (4000·t + p, q) of the array. -/
theorem emb_out (t : Fin cfg11.N) (p : Fin 4000) (q : Fin 128) :
    ((cfg11.win 6).blk t).view.emb (ix2 p q) = (ix2 (row t p) q : S100000x128.Idx) := by
  obtain ⟨-, -, -, -, -, -, -, -, -, -, -, -, e0, e1⟩ := idx_facts t
  refine funext fun a => Fin.ext ?_
  match a with
  | ⟨0, _⟩ => show win11_6.index t (0 : Fin 2) * 4000 + 1 * p.val = 4000 * t.val + p.val; rw [e0]; omega
  | ⟨1, _⟩ => show win11_6.index t (1 : Fin 2) * 128 + 1 * q.val = q.val; rw [e1]; omega

/-- What point `t` writes back is block `t` of the normalised array of the input arrays as the region finds them. -/
theorem flushed_eq (c : Dev nD) (t : Fin cfg11.N) :
    (dat11 V c).flushed 6 t = ((cfg11.win 6).blk t).view.read (Elt Ideal) (out6 (V c main_v148_0) (V c main_v114) (V c main_v150) (V c main_v154) (V c main_v155) (V c main_v156)) := by
  show (cfg11.win 6).cut (grid11.coords t) ((dat11 V c).after 6 t) = _
  rw [after11_6]
  unfold out11_6
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k11_pay1 (iblk11 V c 0 t) (iblk11 V c 2 t) (iblk11 V c 3 t) (iblk11 V c 4 t) (iblk11 V c 5 t) (iblk11 V c 1 t) (ix2 p q)
    = out6 (V c main_v148_0) (V c main_v114) (V c main_v150) (V c main_v154) (V c main_v155) (V c main_v156) (((cfg11.win 6).blk t).view.emb (ix2 p q))
  rw [emb_out, pay_apply]
  simp only [rd0, rd1, rd2, rd3, rd4, rd5]
  rfl

/-- Every row of the array lies in the block of the point that is its quotient by 4000. -/
theorem cover (i : S100000x128.Idx) : ∃ t : Fin cfg11.N, (cfg11.win 6).flush t = true ∧ i ∈ ((cfg11.win 6).blk t).view.set := by
  have hi0 : (i 0).val < 100000 := (i 0).isLt
  have hi1 : (i 1).val < 128 := (i 1).isLt
  let t : Fin cfg11.N := ⟨(i 0).val / 4000, by rw [show cfg11.N = 25 from N_11]; omega⟩
  obtain ⟨-, -, -, -, -, -, -, -, -, -, -, -, e0, e1⟩ := idx_facts t
  refine ⟨t, flush11_6 t, ?_⟩
  show i ∈ ((View.whole main_v157).slice (win11_6.rect t)).set
  rw [View.set_slice_whole, Rect.mem_set_unit]
  intro a
  match a with
  | ⟨0, _⟩ =>
    show win11_6.index t (0 : Fin 2) * 4000 ≤ (i 0).val ∧ (i 0).val < win11_6.index t (0 : Fin 2) * 4000 + 4000
    rw [e0]; show (i 0).val / 4000 * 4000 ≤ (i 0).val ∧ (i 0).val < (i 0).val / 4000 * 4000 + 4000; omega
  | ⟨1, _⟩ =>
    show win11_6.index t (1 : Fin 2) * 128 ≤ (i 1).val ∧ (i 1).val < win11_6.index t (1 : Fin 2) * 128 + 128
    rw [e1]; omega

/-- The region's result array is the normalised array of its input arrays. -/
theorem final6 (c : Dev nD) :
    (dat11 V c).arrAt 6 cfg11.N = out6 (V c main_v148_0) (V c main_v114) (V c main_v150) (V c main_v154) (V c main_v155) (V c main_v156) :=
  (dat11 V c).arrAt_eq_of_cover 6 _ (fun t _ => flushed_eq V c t) cover

end Cert.KernelIdeal.Reg11

end
-- ==== Proof.Reg12.lean ====
/-
  Region 12: the edge message of layer 4. Point `t` of the grid (100 points) holds rows 6000·t … 6000·t + 5999 of the
  gathered node features `xj` [600000, 128] and of `edge_attr` [600000, 3], all of `e_w` [3, 128] and of the bias row
  [1, 128], and stores rows 6000·t … of the result. Entry (e, j) of what it stores is
      max (xj[e, j] + Σ_k edge_attr[e, k] · e_w[k, j] + e_b[0, j]) 0,
  which depends on row e of the inputs only; so the result array is that function of the four arrays, row by row
  (`final`), whatever the region finds in them.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg12

open Cert.KernelIdeal Cert.KernelIdeal.Gen

variable (V : (c : Dev nD) → (b : Ref sig .tc) → Buf (Elt Ideal) ((c : Thread nD τ).loc b))

/-- The message array as a function of the gathered features, the edge attributes, the edge weights and the bias row. -/
def out4 (xj : S600000x128.Idx → EReal) (ea : S600000x3.Idx → EReal) (ew : S3x128.Idx → EReal) (eb : S1x128.Idx → EReal) :
    S600000x128.Idx → EReal := fun i =>
  max (xj (ix2 (i 0 : Fin 600000) (i 1 : Fin 128))
        + (∑ k : Fin 3, ea (ix2 (i 0 : Fin 600000) k) * ew (ix2 k (i 1 : Fin 128)))
        + eb (ix2 (0 : Fin 1) (i 1 : Fin 128)))
      (Ideal.ofBits .f32 0x00000000#32)

theorem hz : (![0, 0] : Fin 2 → Nat) = fun _ => 0 := funext fun a => by fin_cases a <;> rfl

theorem plain_6000_3_128 : Cert.LibDot.Plain dot_S6000x3_S3x128_S6000x128_1_0_0_1_n_n :=
  ⟨rfl, rfl, fun _ _ => rfl, fun j k => DotDims.lhsIdx_val_of_single _ rfl j k, fun j k => DotDims.rhsIdx_val_of_single _ rfl j k, fun _ _ => rfl⟩

/-- The body's stored value at row `p` and column `q` of the block, from the four loaded blocks. -/
theorem pay_apply (x0 : Vec Ideal S6000x128 .f32) (x1 : Vec Ideal S6000x3 .f32) (x2 : Vec Ideal S3x128 .f32)
    (x3 : Vec Ideal S1x128 .f32) (p : Fin 6000) (q : Fin 128) :
    k12_pay1 x0 x1 x2 x3 (ix2 p q)
      = max (x0 (ix2 p q) + (∑ k : Fin 3, x1 (ix2 p k) * x2 (ix2 k q)) + x3 (ix2 (0 : Fin 1) q))
          (Ideal.ofBits .f32 0x00000000#32) := by
  unfold k12_pay1
  simp only [shapeCast_self]
  rw [maximumf_apply, addf_apply, addf_apply, Cert.LibDot.matmul_ix2 plain_6000_3_128, broadcastTo_1b_ab_apply, broadcast_apply]
  refine congrArg (fun z => max (_ + z + _) _) (Finset.sum_congr rfl fun k _ => ?_)
  rw [truncf_apply, truncf_apply]

/-- Where each window's block sits at point `t`: the row windows at block `t`, the weights and the bias at block 0. -/
theorem idx_facts : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0 :=
  (by decide +kernel : ∀ t : Fin grid12.N, _)

/-- Row `p` of point `t`'s block is row 6000·t + p of the array. -/
def row (t : Fin cfg12.N) (p : Fin 6000) : Fin 600000 :=
  ⟨6000 * t.val + p.val, by have h : t.val < 100 := lt_of_lt_of_eq t.isLt N_12; have := p.isLt; omega⟩

theorem rd0 (c : Dev nD) (t : Fin cfg12.N) (p : Fin 6000) (q : Fin 128) :
    (iblk12 V c 0 t : Vec Ideal S6000x128 .f32) (ix2 p q) = (V c main_v182 : S600000x128.Idx → EReal) (ix2 (row t p) q) := by
  obtain ⟨e0, e1, -⟩ := idx_facts t
  unfold iblk12
  rw [View.read_apply]
  show V c main_v182 _ = V c main_v182 _
  refine congrArg _ (funext fun a => Fin.ext ?_)
  match a with
  | ⟨0, _⟩ => show win12_0.index t (0 : Fin 2) * 6000 + 1 * p.val = 6000 * t.val + p.val; rw [e0]; omega
  | ⟨1, _⟩ => show win12_0.index t (1 : Fin 2) * 128 + 1 * q.val = q.val; rw [e1]; omega

theorem rd1 (c : Dev nD) (t : Fin cfg12.N) (p : Fin 6000) (k : Fin 3) :
    (iblk12 V c 1 t : Vec Ideal S6000x3 .f32) (ix2 p k) = (V c main_arg1 : S600000x3.Idx → EReal) (ix2 (row t p) k) := by
  obtain ⟨-, -, e0, e1, -⟩ := idx_facts t
  unfold iblk12
  rw [View.read_apply]
  show V c main_arg1 _ = V c main_arg1 _
  refine congrArg _ (funext fun a => Fin.ext ?_)
  match a with
  | ⟨0, _⟩ => show win12_1.index t (0 : Fin 2) * 6000 + 1 * p.val = 6000 * t.val + p.val; rw [e0]; omega
  | ⟨1, _⟩ => show win12_1.index t (1 : Fin 2) * 3 + 1 * k.val = k.val; rw [e1]; omega

theorem rd2 (c : Dev nD) (t : Fin cfg12.N) (k : Fin 3) (q : Fin 128) :
    (iblk12 V c 2 t : Vec Ideal S3x128 .f32) (ix2 k q) = (V c main_v159 : S3x128.Idx → EReal) (ix2 k q) := by
  obtain ⟨-, -, -, -, e0, e1, -⟩ := idx_facts t
  unfold iblk12
  rw [View.read_apply]
  show V c main_v159 _ = V c main_v159 _
  refine congrArg _ (funext fun a => Fin.ext ?_)
  match a with
  | ⟨0, _⟩ => show win12_2.index t (0 : Fin 2) * 3 + 1 * k.val = k.val; rw [e0]; omega
  | ⟨1, _⟩ => show win12_2.index t (1 : Fin 2) * 128 + 1 * q.val = q.val; rw [e1]; omega

theorem rd3 (c : Dev nD) (t : Fin cfg12.N) (q : Fin 128) :
    (iblk12 V c 3 t : Vec Ideal S1x128 .f32) (ix2 (0 : Fin 1) q) = (V c main_v183 : S1x128.Idx → EReal) (ix2 (0 : Fin 1) q) := by
  obtain ⟨-, -, -, -, -, -, e0, e1, -⟩ := idx_facts t
  unfold iblk12
  rw [View.read_apply]
  show V c main_v183 _ = V c main_v183 _
  refine congrArg _ (funext fun a => Fin.ext ?_)
  match a with
  | ⟨0, _⟩ => show win12_3.index t (0 : Fin 2) * 1 + 1 * (0 : Fin 1).val = (0 : Fin 1).val; rw [e0]; rfl
  | ⟨1, _⟩ => show win12_3.index t (1 : Fin 2) * 128 + 1 * q.val = q.val; rw [e1]; omega

/-- The output block's entry (p, q) at point `t` is entry (6000·t + p, q) of the array. -/
theorem emb4 (t : Fin cfg12.N) (p : Fin 6000) (q : Fin 128) :
    ((cfg12.win 4).blk t).view.emb (ix2 p q) = (ix2 (row t p) q : S600000x128.Idx) := by
  obtain ⟨-, -, -, -, -, -, -, -, e0, e1⟩ := idx_facts t
  refine funext fun a => Fin.ext ?_
  match a with
  | ⟨0, _⟩ => show win12_4.index t (0 : Fin 2) * 6000 + 1 * p.val = 6000 * t.val + p.val; rw [e0]; omega
  | ⟨1, _⟩ => show win12_4.index t (1 : Fin 2) * 128 + 1 * q.val = q.val; rw [e1]; omega

/-- What point `t` writes back is block `t` of the message array of the four arrays as the region finds them. -/
theorem flushed_eq (c : Dev nD) (t : Fin cfg12.N) :
    (dat12 V c).flushed 4 t = ((cfg12.win 4).blk t).view.read (Elt Ideal)
      (out4 (V c main_v182) (V c main_arg1) (V c main_v159) (V c main_v183)) := by
  show (cfg12.win 4).cut (grid12.coords t) ((dat12 V c).after 4 t) = _
  rw [after12_4]
  unfold out12_4
  rw [View.canon_unit_zero hz]
  simp only [View.ld_unit_zero (S := S6000x128) hz, View.ld_unit_zero (S := S6000x3) hz, View.ld_unit_zero (S := S3x128) hz,
    View.ld_unit_zero (S := S1x128) hz]
  funext j
  obtain ⟨p, q, rfl⟩ : ∃ (p : Fin 6000) (q : Fin 128), j = ix2 p q := ⟨j 0, j 1, eq_ix2 j⟩
  show k12_pay1 (iblk12 V c 0 t) (iblk12 V c 1 t) (iblk12 V c 2 t) (iblk12 V c 3 t) (ix2 p q)
    = out4 (V c main_v182) (V c main_arg1) (V c main_v159) (V c main_v183) (((cfg12.win 4).blk t).view.emb (ix2 p q))
  rw [emb4, pay_apply]
  simp only [rd0, rd1, rd2, rd3]
  rfl

/-- Every row of the array lies in the block of the point that is its quotient by 6000. -/
theorem cover (i : S600000x128.Idx) : ∃ t : Fin cfg12.N, (cfg12.win 4).flush t = true ∧ i ∈ ((cfg12.win 4).blk t).view.set := by
  have hi0 : (i 0).val < 600000 := (i 0).isLt
  have hi1 : (i 1).val < 128 := (i 1).isLt
  let t : Fin cfg12.N := ⟨(i 0).val / 6000, by rw [show cfg12.N = 100 from N_12]; omega⟩
  obtain ⟨-, -, -, -, -, -, -, -, e0, e1⟩ := idx_facts t
  refine ⟨t, flush12_4 t, ?_⟩
  show i ∈ ((View.whole main_v184).slice (win12_4.rect t)).set
  rw [View.set_slice_whole, Rect.mem_set_unit]
  intro a
  match a with
  | ⟨0, _⟩ =>
    show win12_4.index t (0 : Fin 2) * 6000 ≤ (i 0).val ∧ (i 0).val < win12_4.index t (0 : Fin 2) * 6000 + 6000
    rw [e0]; show (i 0).val / 6000 * 6000 ≤ (i 0).val ∧ (i 0).val < (i 0).val / 6000 * 6000 + 6000; omega
  | ⟨1, _⟩ =>
    show win12_4.index t (1 : Fin 2) * 128 ≤ (i 1).val ∧ (i 1).val < win12_4.index t (1 : Fin 2) * 128 + 128
    rw [e1]; omega

/-- The region's result array is the message array of its four input arrays. -/
theorem final4 (c : Dev nD) :
    (dat12 V c).arrAt 4 cfg12.N = out4 (V c main_v182) (V c main_arg1) (V c main_v159) (V c main_v183) :=
  (dat12 V c).arrAt_eq_of_cover 4 _ (fun t _ => flushed_eq V c t) cover

end Cert.KernelIdeal.Reg12

end
-- ==== Proof.Reg13.lean ====
/-
  Region 13: the node MLP of a layer and the running column sums. Point `t` of the grid (25 points) holds rows
  4000·t … 4000·t + 3999 of the layer's input [100000, 128] and of the aggregated messages, the scalar eps [1, 1] and the two
  weight matrices and bias rows, and stores rows 4000·t … of
      h2[r, j] = Σ_k max (Σ_l ((1 + eps) · x[r, l] + agg[r, l]) · w1[l, k] + b1[0, k]) 0 · w2[k, j] + b2[0, j];
  two further results [1, 128] are carried from point to point: zeroed at point 0, then at every point the block's column
  sums of h2, and of h2 squared, are added; they are written back once, after the last point. So the first result is h2
  row by row (`final7`), and the other two are the column sums over all 100000 rows of h2 and of its square
  (`final8`, `final9`): after point n the carried sum is the sum over rows 0 … 4000·(n + 1) − 1, by induction on n.
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem Idealize.ShloMosaic.Tactic
open Idealize.ShloMosaic.Pipeline (Dat)
open Idealize.ShloMosaic.ValueIdx

namespace Cert.KernelIdeal.Reg13

open Cert.KernelIdeal Cert.KernelIdeal.Gen Cert.LibDot

theorem hz : (![0, 0] : Fin 2 → Nat) = fun _ => 0 := funext fun a => by fin_cases a <;> rfl

/-! ## What each control case leaves in each output's staging buffer -/

section Pieces
variable {F : FTy → Type} [FloatOps F]

theorem outA7 (c : Dev nD) (i : grid13.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond13_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out13_A_7 (F := F) c i arg1 harg1 arg2 harg2 arg3 harg3 arg4 harg4 arg5 harg5 arg6 harg6 arg7 harg7 arg8 harg8 arg9 harg9 arg10 harg10 hc0 x0 x1 x2 x3 x4 x5 x6 = k13_pay5 x0 x1 x2 x3 x4 x5 x6 := by
  unfold out13_A_7
  rw [View.read_writes_eq_canon _ _ _ (cover13_A_7 c i arg1 harg1 arg2 harg2 arg3 harg3 arg4 harg4 arg5 harg5 arg6 harg6 arg7 harg7 arg8 harg8 arg9 harg9 arg10 harg10 hc0 x0 x1 x2 x3 x4 x5 x6)]
  unfold kernelRun13_A
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outA8 (c : Dev nD) (i : grid13.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond13_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out13_A_8 (F := F) c i arg1 harg1 arg2 harg2 arg3 harg3 arg4 harg4 arg5 harg5 arg6 harg6 arg7 harg7 arg8 harg8 arg9 harg9 arg10 harg10 hc0 x0 x1 x2 x3 x4 x5 x6 = k13_pay1 (k13_pay5 x0 x1 x2 x3 x4 x5 x6) k13_pay3 := by
  unfold out13_A_8
  rw [View.read_writes_eq_canon _ _ _ (cover13_A_8 c i arg1 harg1 arg2 harg2 arg3 harg3 arg4 harg4 arg5 harg5 arg6 harg6 arg7 harg7 arg8 harg8 arg9 harg9 arg10 harg10 hc0 x0 x1 x2 x3 x4 x5 x6)]
  unfold kernelRun13_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outA9 (c : Dev nD) (i : grid13.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : cond13_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) :
    out13_A_9 (F := F) c i arg1 harg1 arg2 harg2 arg3 harg3 arg4 harg4 arg5 harg5 arg6 harg6 arg7 harg7 arg8 harg8 arg9 harg9 arg10 harg10 hc0 x0 x1 x2 x3 x4 x5 x6 = k13_pay2 (k13_pay5 x0 x1 x2 x3 x4 x5 x6) k13_pay4 := by
  unfold out13_A_9
  rw [View.read_writes_eq_canon _ _ _ (cover13_A_9 c i arg1 harg1 arg2 harg2 arg3 harg3 arg4 harg4 arg5 harg5 arg6 harg6 arg7 harg7 arg8 harg8 arg9 harg9 arg10 harg10 hc0 x0 x1 x2 x3 x4 x5 x6)]
  unfold kernelRun13_A
  dsimp only
  try sl_unfold_words
  rw [View.canon_cons_unit_zero hz, View.readCov_unit_zero (S := S1x128) _ hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB7 (c : Dev nD) (i : grid13.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond13_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out13_B_7 (F := F) c i arg1 harg1 arg2 harg2 arg3 harg3 arg4 harg4 arg5 harg5 arg6 harg6 arg7 harg7 arg8 harg8 arg9 harg9 arg10 harg10 hc0 x0 x1 x2 x3 x4 x5 x6 xo8 xo9 = k13_pay5 x0 x1 x2 x3 x4 x5 x6 := by
  unfold out13_B_7
  rw [View.read_writes_eq_canon _ _ _ (cover13_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun13_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB8 (c : Dev nD) (i : grid13.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond13_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out13_B_8 (F := F) c i arg1 harg1 arg2 harg2 arg3 harg3 arg4 harg4 arg5 harg5 arg6 harg6 arg7 harg7 arg8 harg8 arg9 harg9 arg10 harg10 hc0 x0 x1 x2 x3 x4 x5 x6 xo8 xo9 = k13_pay1 (k13_pay5 x0 x1 x2 x3 x4 x5 x6) xo8 := by
  unfold out13_B_8
  rw [View.read_writes_eq_canon _ _ _ (cover13_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun13_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

theorem outB9 (c : Dev nD) (i : grid13.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole) (arg9 : Memref sig .tc .vmem S1x128 .f32) (harg9 : arg9.IsWhole) (arg10 : Memref sig .tc .vmem S1x128 .f32) (harg10 : arg10.IsWhole) (hc0 : ¬cond13_0 i) (x0 : Vec F S4000x128 .f32) (x1 : Vec F S4000x128 .f32) (x2 : Vec F S1x1 .f32) (x3 : Vec F S128x128 .f32) (x4 : Vec F S1x128 .f32) (x5 : Vec F S128x128 .f32) (x6 : Vec F S1x128 .f32) (xo8 : Vec F S1x128 .f32) (xo9 : Vec F S1x128 .f32) :
    out13_B_9 (F := F) c i arg1 harg1 arg2 harg2 arg3 harg3 arg4 harg4 arg5 harg5 arg6 harg6 arg7 harg7 arg8 harg8 arg9 harg9 arg10 harg10 hc0 x0 x1 x2 x3 x4 x5 x6 xo8 xo9 = k13_pay2 (k13_pay5 x0 x1 x2 x3 x4 x5 x6) xo9 := by
  unfold out13_B_9
  rw [View.read_writes_eq_canon _ _ _ (cover13_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun13_B
  dsimp only
  try sl_unfold_words
  rw [View.canon_unit_zero hz]
  simp only [View.readAt_eq_ld, harg1.read_unread, harg2.read_unread, harg3.read_unread, harg4.read_unread, harg5.read_unread, harg6.read_unread, harg7.read_unread, harg9.read_unread, harg10.read_unread,
    View.ld_unit_zero (S := S4000x128) hz, View.ld_unit_zero (S := S1x1) hz, View.ld_unit_zero (S := S128x128) hz, View.ld_unit_zero (S := S1x128) hz, View.ld_unit_zero (S := S128x128) hz]

end Pieces

/-! ## The payloads at an entry -/

theorem plain_1 : Plain dot_S4000x128_S128x128_S4000x128_1_0_0_1_n_n :=
  ⟨rfl, rfl, fun _ _ => rfl, fun j k => DotDims.lhsIdx_val_of_single _ rfl j k, fun j k => DotDims.rhsIdx_val_of_single _ rfl j k, fun _ _ => rfl⟩

/-- A [1,1] block broadcast over [a,b] reads its one entry. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- Entry (p, q) of the block's MLP output. -/
theorem pay5_apply (x agg : Vec Ideal S4000x128 .f32) (eps : Vec Ideal S1x1 .f32) (w1 : Vec Ideal S128x128 .f32)
    (b1 : Vec Ideal S1x128 .f32) (w2 : Vec Ideal S128x128 .f32) (b2 : Vec Ideal S1x128 .f32) (p : Fin 4000) (q : Fin 128) :
    k13_pay5 x agg eps w1 b1 w2 b2 (ix2 p q)
      = (∑ k : Fin 128,
          max ((∑ l : Fin 128, ((Ideal.ofBits .f32 0x3F800000#32 + eps (ix2 (0 : Fin 1) (0 : Fin 1))) * x (ix2 p l) + agg (ix2 p l)) * w1 (ix2 l k))
                + b1 (ix2 (0 : Fin 1) k)) (Ideal.ofBits .f32 0x00000000#32) * w2 (ix2 k q))
        + b2 (ix2 (0 : Fin 1) q) := by
  unfold k13_pay5
  simp only [shapeCast_self]
  rw [addf_apply, matmul_ix2 plain_1, broadcastTo_1b_ab_apply]
  refine congrArg (· + _) (Finset.sum_congr rfl fun k _ => ?_)
  rw [truncf_apply, truncf_apply, maximumf_apply, addf_apply, matmul_ix2 plain_1, broadcastTo_1b_ab_apply, broadcast_apply]
  refine congrArg (fun z => max (z + _) _ * _) (Finset.sum_congr rfl fun l _ => ?_)
  rw [truncf_apply, truncf_apply, addf_apply, mulf_apply, broadcastTo_11_ab_apply, addf_apply, broadcast_apply]
  rfl

/-! ## The results as functions of the region's input arrays -/

section Values

variable (V : (c : Dev nD) → (b : Ref sig .tc) → Buf (Elt Ideal) ((c : Thread nD τ).loc b))

/-- Row `r`, column `j` of the MLP output, from the whole input arrays. -/
def h2 (x agg : S100000x128.Idx → EReal) (eps : S1x1.Idx → EReal) (w1 : S128x128.Idx → EReal) (b1 : S1x128.Idx → EReal)
    (w2 : S128x128.Idx → EReal) (b2 : S1x128.Idx → EReal) (r : Fin 100000) (j : Fin 128) : EReal :=
  (∑ k : Fin 128,
      max ((∑ l : Fin 128, ((Ideal.ofBits .f32 0x3F800000#32 + eps (ix2 (0 : Fin 1) (0 : Fin 1))) * x (ix2 r l) + agg (ix2 r l)) * w1 (ix2 l k))
            + b1 (ix2 (0 : Fin 1) k)) (Ideal.ofBits .f32 0x00000000#32) * w2 (ix2 k j))
    + b2 (ix2 (0 : Fin 1) j)

/-- The MLP output array. -/
def out7 (x agg : S100000x128.Idx → EReal) (eps : S1x1.Idx → EReal) (w1 : S128x128.Idx → EReal) (b1 : S1x128.Idx → EReal)
    (w2 : S128x128.Idx → EReal) (b2 : S1x128.Idx → EReal) : S100000x128.Idx → EReal :=
  fun i => h2 x agg eps w1 b1 w2 b2 (i 0 : Fin 100000) (i 1 : Fin 128)

/-- The column sums of the MLP output. -/
def out8 (x agg : S100000x128.Idx → EReal) (eps : S1x1.Idx → EReal) (w1 : S128x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128)

/-- The column sums of its squares. -/
def out9 (x agg : S100000x128.Idx → EReal) (eps : S1x1.Idx → EReal) (w1 : S128x128.Idx → EReal) (b1 : S1x128.Idx → EReal)
    (w2 : S128x128.Idx → EReal) (b2 : S1x128.Idx → EReal) : S1x128.Idx → EReal :=
  fun i => ∑ r : Fin 100000, h2 x agg eps w1 b1 w2 b2 r (i 1 : Fin 128) * h2 x agg eps w1 b1 w2 b2 r (i 1 : Fin 128)

/-- Where each window's block sits at point `t`. -/
theorem idx_facts : ∀ t : Fin cfg13.N, win13_0.index t (0 : Fin 2) = t.val
    ∧ win13_0.index t (1 : Fin 2) = 0
    ∧ win13_1.index t (0 : Fin 2) = t.val
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = 0
    ∧ win13_5.index t (1 : Fin 2) = 0
    ∧ win13_6.index t (0 : Fin 2) = 0
    ∧ win13_6.index t (1 : Fin 2) = 0
    ∧ win13_7.index t (0 : Fin 2) = t.val
    ∧ win13_7.index t (1 : Fin 2) = 0
    ∧ win13_8.index t (0 : Fin 2) = 0
    ∧ win13_8.index t (1 : Fin 2) = 0
    ∧ win13_9.index t (0 : Fin 2) = 0
    ∧ win13_9.index t (1 : Fin 2) = 0 :=
  (by decide +kernel : ∀ t : Fin grid13.N, _)

/-- Row `p` of point `t`'s block is row 4000·t + p of the array. -/
def row (t : Fin cfg13.N) (p : Fin 4000) : Fin 100000 :=
  ⟨4000 * t.val + p.val, by have h : t.val < 25 := lt_of_lt_of_eq t.isLt N_13; have := p.isLt; omega⟩

theorem rd0 (c : Dev nD) (t : Fin cfg13.N) (p : Fin 4000) (q : Fin 128) :
    (iblk13 V c 0 t : Vec Ideal S4000x128 .f32) (ix2 p q) = (V c main_v157 : S100000x128.Idx → EReal) (ix2 (row t p) q) := by
  obtain ⟨e0, e1, -⟩ := idx_facts t
  unfold iblk13
  rw [View.read_apply]
  show V c main_v157 _ = V c main_v157 _
  refine congrArg _ (funext fun a => Fin.ext ?_)
  match a with
  | ⟨0, _⟩ => show win13_0.index t (0 : Fin 2) * 4000 + 1 * p.val = 4000 * t.val + p.val; rw [e0]; omega
  | ⟨1, _⟩ => show win13_0.index t (1 : Fin 2) * 128 + 1 * q.val = q.val; rw [e1]; omega

theorem rd1 (c : Dev nD) (t : Fin cfg13.N) (p : Fin 4000) (q : Fin 128) :
    (iblk13 V c 1 t : Vec Ideal S4000x128 .f32) (ix2 p q) = (V c main_v187 : S100000x128.Idx → EReal) (ix2 (row t p) q) := by
  obtain ⟨-, -, e0, e1, -⟩ := idx_facts t
  unfold iblk13
  rw [View.read_apply]
  show V c main_v187 _ = V c main_v187 _
  refine congrArg _ (funext fun a => Fin.ext ?_)
  match a with
  | ⟨0, _⟩ => show win13_1.index t (0 : Fin 2) * 4000 + 1 * p.val = 4000 * t.val + p.val; rw [e0]; omega
  | ⟨1, _⟩ => show win13_1.index t (1 : Fin 2) * 128 + 1 * q.val = q.val; rw [e1]; omega

theorem rd2 (c : Dev nD) (t : Fin cfg13.N) (p : Fin 1) (q : Fin 1) :
    (iblk13 V c 2 t : Vec Ideal S1x1 .f32) (ix2 p q) = (V c main_v188 : S1x1.Idx → EReal) (ix2 p q) := by
  obtain ⟨-, -, -, -, e0, e1, -⟩ := idx_facts t
  unfold iblk13
  rw [View.read_apply]
  show V c main_v188 _ = V c main_v188 _
  refine congrArg _ (funext fun a => Fin.ext ?_)
  match a with
  | ⟨0, _⟩ => show win13_2.index t (0 : Fin 2) * 1 + 1 * p.val = p.val; rw [e0]; omega
  | ⟨1, _⟩ => show win13_2.index t (1 : Fin 2) * 1 + 1 * q.val = q.val; rw [e1]; omega

theorem rd3 (c : Dev nD) (t : Fin cfg13.N) (p : Fin 128) (q : Fin 128) :
    (iblk13 V c 3 t : Vec Ideal S128x128 .f32) (ix2 p q) = (V c main_v165 : S128x128.Idx → EReal) (ix2 p q) := by
  obtain ⟨-, -, -, -, -, -, e0, e1, -⟩ := idx_facts t
  unfold iblk13
  rw [View.read_apply]
  show V c main_v165 _ = V c main_v165 _
  refine congrArg _ (funext fun a => Fin.ext ?_)
  match a with
  | ⟨0, _⟩ => show win13_3.index t (0 : Fin 2) * 128 + 1 * p.val = p.val; rw [e0]; omega
  | ⟨1, _⟩ => show win13_3.index t (1 : Fin 2) * 128 + 1 * q.val = q.val; rw [e1]; omega

theorem rd4 (c : Dev nD) (t : Fin cfg13.N) (p : Fin 1) (q : Fin 128) :
    (iblk13 V c 4 t : Vec Ideal S1x128 .f32) (ix2 p q) = (V c main_v189 : S1x128.Idx → EReal) (ix2 p q) := by
  obtain ⟨-, -, -, -, -, -, -, -, e0, e1, -⟩ := idx_facts t
  unfold iblk13
  rw [View.read_apply]
  show V c main_v189 _ = V c main_v189 _
  refine congrArg _ (funext fun a => Fin.ext ?_)
  match a with
  | ⟨0, _⟩ => show win13_4.index t (0 : Fin 2) * 1 + 1 * p.val = p.val; rw [e0]; omega
  | ⟨1, _⟩ => show win13_4.index t (1 : Fin 2) * 128 + 1 * q.val = q.val; rw [e1]; omega

theorem rd5 (c : Dev nD) (t : Fin cfg13.N) (p : Fin 128) (q : Fin 128) :
    (iblk13 V c 5 t : Vec Ideal S128x128 .f32) (ix2 p q) = (V c main_v169 : S128x128.Idx → EReal) (ix2 p q) := by
  obtain ⟨-, -, -, -, -, -, -, -, -, -, e0, e1, -⟩ := idx_facts t
  unfold iblk13
  rw [View.read_apply]
  show V c main_v169 _ = V c main_v169 _
  refine congrArg _ (funext fun a => Fin.ext ?_)
  match a with
  | ⟨0, _⟩ => show win13_5.index t (0 : Fin 2) * 128 + 1 * p.val = p.val; rw [e0]; omega
  | ⟨1, _⟩ => show win13_5.index t (1 : Fin 2) * 128 + 1 * q.val = q.val; rw [e1]; omega

theorem rd6 (c : Dev nD) (t : Fin cfg13.N) (p : Fin 1) (q : Fin 128) :
    (iblk13 V c 6 t : Vec Ideal S1x128 .f32) (ix2 p q) = (V c main_v190 : S1x128.Idx → EReal) (ix2 p q) := by
  obtain ⟨-, -, -, -, -, -, -, -, -, -, -, -, e0, e1, -⟩ := idx_facts t
  unfold iblk13
  rw [View.read_apply]
  show V c main_v190 _ = V c main_v190 _
  refine congrArg _ (funext fun a => Fin.ext ?_)
  match a with
  | ⟨0, _⟩ => show win13_6.index t (0 : Fin 2) * 1 + 1 * p.val = p.val; rw [e0]; omega
  | ⟨1, _⟩ => show win13_6.index t (1 : Fin 2) * 128 + 1 * q.val = q.val; rw [e1]; omega

/-- The MLP block of point `t`, entry (p, q): row 4000·t + p of the MLP output. -/
theorem blk_apply (c : Dev nD) (t : Fin cfg13.N) (p : Fin 4000) (q : Fin 128) :
    k13_pay5 (iblk13 V c 0 t) (iblk13 V c 1 t) (iblk13 V c 2 t) (iblk13 V c 3 t) (iblk13 V c 4 t) (iblk13 V c 5 t) (iblk13 V c 6 t) (ix2 p q) = h2 (V c main_v157) (V c main_v187) (V c main_v188) (V c main_v165) (V c main_v189) (V c main_v169) (V c main_v190) (row t p) q := by
  rw [pay5_apply]
  unfold h2
  simp only [rd0, rd1, rd2, rd3, rd4, rd5, rd6]

/-- Whatever the control case, the first output's buffer after point `t` is the point's MLP block. -/
theorem outs7 (c : Dev nD) (t : Fin cfg13.N) : (outsAt13 V c t.val t.isLt).1 = k13_pay5 (iblk13 V c 0 t) (iblk13 V c 1 t) (iblk13 V c 2 t) (iblk13 V c 3 t) (iblk13 V c 4 t) (iblk13 V c 5 t) (iblk13 V c 6 t) := by
  by_cases h0 : t.val % 25 = 0
  · rw [outsAt13_A V c t h0]
    dsimp only
    exact outA7 (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr h0) (iblk13 V c 0 t) (iblk13 V c 1 t) (iblk13 V c 2 t) (iblk13 V c 3 t) (iblk13 V c 4 t) (iblk13 V c 5 t) (iblk13 V c 6 t)
  · rw [outsAt13_B V c t h0]
    dsimp only
    exact outB7 (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2

/-- The output block's entry (p, q) at point `t` is entry (4000·t + p, q) of the array. -/
theorem emb7 (t : Fin cfg13.N) (p : Fin 4000) (q : Fin 128) :
    ((cfg13.win 7).blk t).view.emb (ix2 p q) = (ix2 (row t p) q : S100000x128.Idx) := by
  obtain ⟨-, -, -, -, -, -, -, -, -, -, -, -, -, -, e0, e1, -⟩ := idx_facts t
  refine funext fun a => Fin.ext ?_
  match a with
  | ⟨0, _⟩ => show win13_7.index t (0 : Fin 2) * 4000 + 1 * p.val = 4000 * t.val + p.val; rw [e0]; omega
  | ⟨1, _⟩ => show win13_7.index t (1 : Fin 2) * 128 + 1 * q.val = q.val; rw [e1]; omega

theorem flushed7_eq (c : Dev nD) (t : Fin cfg13.N) :
    (dat13 V c).flushed 7 t = ((cfg13.win 7).blk t).view.read (Elt Ideal) (out7 (V c main_v157) (V c main_v187) (V c main_v188) (V c main_v165) (V c main_v189) (V c main_v169) (V c main_v190)) := by
  show (cfg13.win 7).cut (grid13.coords t) ((dat13 V c).after 7 t) = _
  rw [after13_7, outs7]
  funext j
  obtain ⟨p, q, rfl⟩ : ∃ (p : Fin 4000) (q : Fin 128), j = ix2 p q := ⟨j 0, j 1, eq_ix2 j⟩
  show k13_pay5 (iblk13 V c 0 t) (iblk13 V c 1 t) (iblk13 V c 2 t) (iblk13 V c 3 t) (iblk13 V c 4 t) (iblk13 V c 5 t) (iblk13 V c 6 t) (ix2 p q) = out7 (V c main_v157) (V c main_v187) (V c main_v188) (V c main_v165) (V c main_v189) (V c main_v169) (V c main_v190) (((cfg13.win 7).blk t).view.emb (ix2 p q))
  rw [emb7, blk_apply]
  rfl

theorem cover7 (i : S100000x128.Idx) : ∃ t : Fin cfg13.N, (cfg13.win 7).flush t = true ∧ i ∈ ((cfg13.win 7).blk t).view.set := by
  have hi0 : (i 0).val < 100000 := (i 0).isLt
  have hi1 : (i 1).val < 128 := (i 1).isLt
  let t : Fin cfg13.N := ⟨(i 0).val / 4000, by rw [show cfg13.N = 25 from N_13]; omega⟩
  obtain ⟨-, -, -, -, -, -, -, -, -, -, -, -, -, -, e0, e1, -⟩ := idx_facts t
  refine ⟨t, flush13_7 t, ?_⟩
  show i ∈ ((View.whole main_v191_0).slice (win13_7.rect t)).set
  rw [View.set_slice_whole, Rect.mem_set_unit]
  intro a
  match a with
  | ⟨0, _⟩ =>
    show win13_7.index t (0 : Fin 2) * 4000 ≤ (i 0).val ∧ (i 0).val < win13_7.index t (0 : Fin 2) * 4000 + 4000
    rw [e0]; show (i 0).val / 4000 * 4000 ≤ (i 0).val ∧ (i 0).val < (i 0).val / 4000 * 4000 + 4000; omega
  | ⟨1, _⟩ =>
    show win13_7.index t (1 : Fin 2) * 128 ≤ (i 1).val ∧ (i 1).val < win13_7.index t (1 : Fin 2) * 128 + 128
    rw [e1]; omega

/-- The first result array is the MLP output of the input arrays. -/
theorem final7 (c : Dev nD) : (dat13 V c).arrAt 7 cfg13.N = out7 (V c main_v157) (V c main_v187) (V c main_v188) (V c main_v165) (V c main_v189) (V c main_v169) (V c main_v190) :=
  (dat13 V c).arrAt_eq_of_cover 7 _ (fun t _ => flushed7_eq V c t) (cover7)

end Values

/-! ## The carried column sums -/

section Sums

variable (V : (c : Dev nD) → (b : Ref sig .tc) → Buf (Elt Ideal) ((c : Thread nD τ).loc b))

/-- The lane sum's inserted index: row `r` of column `q`. -/
theorem lift_eq (q : Fin 128) (r : Fin 4000) : reduces_S4000x128_S128.lift (ix1 q) r = (ix2 r q : S4000x128.Idx) := by
  funext a; apply Fin.ext
  match a with
  | ⟨0, _⟩ => rfl
  | ⟨1, _⟩ => rfl

/-- The sum payload: what the carried row held plus the block's column sum. -/
theorem pay1_apply (v30 : FVec Ideal S4000x128 .f32) (v32 : Vec Ideal S1x128 .f32) (u : Fin 1) (q : Fin 128) :
    k13_pay1 v30 v32 (ix2 u q) = v32 (ix2 u q) + ∑ r : Fin 4000, v30 (ix2 r q) := by
  unfold k13_pay1
  simp only [shapeCast_self]
  rw [addf_apply, shapeCast_a_1a_apply]
  refine congrArg (_ + ·) ?_
  refine (Ideal.multiReduction_add_single v30 0x00000000#32 reduces_S4000x128_S128 (.inl rfl) rfl (ix1 q)).trans ?_
  exact Finset.sum_congr rfl fun r _ => congrArg v30 (lift_eq q r)

/-- The sum-of-squares payload. -/
theorem pay2_apply (v30 : FVec Ideal S4000x128 .f32) (v38 : Vec Ideal S1x128 .f32) (u : Fin 1) (q : Fin 128) :
    k13_pay2 v30 v38 (ix2 u q) = v38 (ix2 u q) + ∑ r : Fin 4000, v30 (ix2 r q) * v30 (ix2 r q) := by
  unfold k13_pay2
  simp only [shapeCast_self]
  rw [addf_apply, shapeCast_a_1a_apply]
  refine congrArg (_ + ·) ?_
  refine (Ideal.multiReduction_add_single (mulf v30 v30) 0x00000000#32 reduces_S4000x128_S128 (.inl rfl) rfl (ix1 q)).trans ?_
  exact Finset.sum_congr rfl fun r _ => congrArg (fun z => v30 z * v30 z) (lift_eq q r)

/-- Row `n` of the MLP output as a function of a natural number (0 beyond the array). -/
def g (c : Dev nD) (q : Fin 128) (n : ℕ) : EReal :=
  if h : n < 100000 then h2 (V c main_v157) (V c main_v187) (V c main_v188) (V c main_v165) (V c main_v189) (V c main_v169) (V c main_v190) ⟨n, h⟩ q else 0

theorem g_row (c : Dev nD) (q : Fin 128) (t : Fin cfg13.N) (p : Fin 4000) :
    h2 (V c main_v157) (V c main_v187) (V c main_v188) (V c main_v165) (V c main_v189) (V c main_v169) (V c main_v190) (row t p) q = g V c q (4000 * t.val + p.val) := by
  unfold g
  rw [dif_pos (show 4000 * t.val + p.val < 100000 from (row t p).isLt)]
  rfl

/-- The block's column sum at point `t` is the sum of rows 4000·t … 4000·t + 3999. -/
theorem blk_sum (c : Dev nD) (q : Fin 128) (t : Fin cfg13.N) :
    ∑ r : Fin 4000, k13_pay5 (iblk13 V c 0 t) (iblk13 V c 1 t) (iblk13 V c 2 t) (iblk13 V c 3 t) (iblk13 V c 4 t) (iblk13 V c 5 t) (iblk13 V c 6 t) (ix2 r q) = ∑ p ∈ Finset.range 4000, g V c q (4000 * t.val + p) := by
  rw [← Fin.sum_univ_eq_sum_range (fun p => g V c q (4000 * t.val + p)) 4000]
  exact Finset.sum_congr rfl fun r _ => by rw [blk_apply, g_row]

theorem blk_sumsq (c : Dev nD) (q : Fin 128) (t : Fin cfg13.N) :
    ∑ r : Fin 4000, k13_pay5 (iblk13 V c 0 t) (iblk13 V c 1 t) (iblk13 V c 2 t) (iblk13 V c 3 t) (iblk13 V c 4 t) (iblk13 V c 5 t) (iblk13 V c 6 t) (ix2 r q) * k13_pay5 (iblk13 V c 0 t) (iblk13 V c 1 t) (iblk13 V c 2 t) (iblk13 V c 3 t) (iblk13 V c 4 t) (iblk13 V c 5 t) (iblk13 V c 6 t) (ix2 r q)
      = ∑ p ∈ Finset.range 4000, g V c q (4000 * t.val + p) * g V c q (4000 * t.val + p) := by
  rw [← Fin.sum_univ_eq_sum_range (fun p => g V c q (4000 * t.val + p) * g V c q (4000 * t.val + p)) 4000]
  exact Finset.sum_congr rfl fun r _ => by rw [blk_apply, g_row]

/-- After point `n` the carried rows hold the column sums over rows 0 … 4000·(n + 1) − 1. -/
theorem acc (c : Dev nD) (q : Fin 128) : ∀ (n : ℕ) (hn : n < cfg13.N),
    (outsAt13 V c n hn).2.1 (ix2 (0 : Fin 1) q) = ∑ r ∈ Finset.range (4000 * (n + 1)), g V c q r
    ∧ (outsAt13 V c n hn).2.2 (ix2 (0 : Fin 1) q) = ∑ r ∈ Finset.range (4000 * (n + 1)), g V c q r * g V c q r := by
  intro n
  induction n with
  | zero =>
    intro hn
    let t : Fin cfg13.N := ⟨0, hn⟩
    have hA := outsAt13_A V c t (Nat.zero_mod _)
    have e8 := outA8 (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr (Nat.zero_mod _)) (iblk13 V c 0 t) (iblk13 V c 1 t) (iblk13 V c 2 t) (iblk13 V c 3 t) (iblk13 V c 4 t) (iblk13 V c 5 t) (iblk13 V c 6 t)
    have e9 := outA9 (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) ((hcond13_0 t).mpr (Nat.zero_mod _)) (iblk13 V c 0 t) (iblk13 V c 1 t) (iblk13 V c 2 t) (iblk13 V c 3 t) (iblk13 V c 4 t) (iblk13 V c 5 t) (iblk13 V c 6 t)
    have h1 : (outsAt13 V c 0 hn).2.1 = _ := (congrArg (fun z => z.2.1) hA).trans e8
    have h2' : (outsAt13 V c 0 hn).2.2 = _ := (congrArg (fun z => z.2.2) hA).trans e9
    constructor
    · rw [h1, pay1_apply, blk_sum V c q t]
      show Ideal.ofBits .f32 0x00000000#32 + _ = _
      rw [Ideal.ofBits_zero_f32, zero_add]
      show ∑ p ∈ Finset.range 4000, g V c q (4000 * 0 + p) = _
      simp
    · rw [h2', pay2_apply, blk_sumsq V c q t]
      show Ideal.ofBits .f32 0x00000000#32 + _ = _
      rw [Ideal.ofBits_zero_f32, zero_add]
      show ∑ p ∈ Finset.range 4000, g V c q (4000 * 0 + p) * g V c q (4000 * 0 + p) = _
      simp
  | succ n ih =>
    intro hn
    have hN : cfg13.N = 25 := N_13
    let t : Fin cfg13.N := ⟨n + 1, hn⟩
    have h0 : ¬ t.val % 25 = 0 := by show ¬ (n + 1) % 25 = 0; omega
    have hB := outsAt13_B V c t h0
    have e8 := outB8 (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2
    have e9 := outB9 (F := Ideal) c (grid13.coords t) (ms13_0 t) (hs13_0 t) (ms13_1 t) (hs13_1 t) (ms13_2 t) (hs13_2 t) (ms13_3 t) (hs13_3 t) (ms13_4 t) (hs13_4 t) (ms13_5 t) (hs13_5 t) (ms13_6 t) (hs13_6 t) (ms13_7 t) (hs13_7 t) (ms13_8 t) (hs13_8 t) (ms13_9 t) (hs13_9 t) (fun h => h0 ((hcond13_0 t).mp h)) (iblk13 V c 0 t) (iblk13 V c 1 t) (iblk13 V c 2 t) (iblk13 V c 3 t) (iblk13 V c 4 t) (iblk13 V c 5 t) (iblk13 V c 6 t) (outsAt13 V c (t.val - 1) (Nat.lt_of_le_of_lt (Nat.sub_le _ _) t.isLt)).2.1 (outsAt13 V c (t.val - 1) (Nat.lt_of_le_of_lt (Nat.sub_le _ _) t.isLt)).2.2
    have h1 : (outsAt13 V c (n + 1) hn).2.1 = _ := (congrArg (fun z => z.2.1) hB).trans e8
    have h2' : (outsAt13 V c (n + 1) hn).2.2 = _ := (congrArg (fun z => z.2.2) hB).trans e9
    obtain ⟨i1, i2⟩ := ih (Nat.lt_of_succ_lt hn)
    have hp : (outsAt13 V c (t.val - 1) (Nat.lt_of_le_of_lt (Nat.sub_le _ _) t.isLt)) = outsAt13 V c n (Nat.lt_of_succ_lt hn) := rfl
    constructor
    · rw [h1, pay1_apply, blk_sum V c q t, hp, i1]
      show _ + ∑ p ∈ Finset.range 4000, g V c q (4000 * (n + 1) + p) = _
      rw [show 4000 * (n + 1 + 1) = 4000 * (n + 1) + 4000 from by ring, Finset.sum_range_add]
    · rw [h2', pay2_apply, blk_sumsq V c q t, hp, i2]
      show _ + ∑ p ∈ Finset.range 4000, g V c q (4000 * (n + 1) + p) * g V c q (4000 * (n + 1) + p) = _
      rw [show 4000 * (n + 1 + 1) = 4000 * (n + 1) + 4000 from by ring, Finset.sum_range_add]

end Sums

/-! ## The carried sums, written back after the last point -/

section Finals

variable (V : (c : Dev nD) → (b : Ref sig .tc) → Buf (Elt Ideal) ((c : Thread nD τ).loc b))

theorem out8_apply (x agg eps w1 b1 w2 b2) (u : Fin 1) (q : Fin 128) :
    out8 x agg eps w1 b1 w2 b2 (ix2 u q) = ∑ r : Fin 100000, h2 x agg eps w1 b1 w2 b2 r q := rfl
theorem out9_apply (x agg eps w1 b1 w2 b2) (u : Fin 1) (q : Fin 128) :
    out9 x agg eps w1 b1 w2 b2 (ix2 u q) = ∑ r : Fin 100000, h2 x agg eps w1 b1 w2 b2 r q * h2 x agg eps w1 b1 w2 b2 r q := rfl

-- the sums range over 100000 rows: never unfolded by a definitional check
attribute [local irreducible] out8 out9

theorem emb8 (t : Fin cfg13.N) (u : Fin 1) (q : Fin 128) :
    ((cfg13.win 8).blk t).view.emb (ix2 u q) = (ix2 u q : S1x128.Idx) := by
  obtain ⟨-, -, -, -, -, -, -, -, -, -, -, -, -, -, -, -, e0, e1, -⟩ := idx_facts t
  refine funext fun a => Fin.ext ?_
  match a with
  | ⟨0, _⟩ => show win13_8.index t (0 : Fin 2) * 1 + 1 * u.val = u.val; rw [e0]; omega
  | ⟨1, _⟩ => show win13_8.index t (1 : Fin 2) * 128 + 1 * q.val = q.val; rw [e1]; omega

theorem flushed8_eq (c : Dev nD) (t : Fin cfg13.N) (hf : (cfg13.win 8).flush t = true) :
    (dat13 V c).flushed 8 t = ((cfg13.win 8).blk t).view.read (Elt Ideal) (out8 (V c main_v157) (V c main_v187) (V c main_v188) (V c main_v165) (V c main_v189) (V c main_v169) (V c main_v190)) := by
  have h24 : t.val = 24 := by have h1 := (flush13_8 t).mp hf; have h2 : t.val < 25 := lt_of_lt_of_eq t.isLt N_13; omega
  show (cfg13.win 8).cut (grid13.coords t) ((dat13 V c).after 8 t) = _
  rw [after13_8]
  funext j
  obtain ⟨u, q, rfl⟩ : ∃ (u : Fin 1) (q : Fin 128), j = ix2 u q := ⟨j 0, j 1, eq_ix2 j⟩
  obtain rfl : u = 0 := Subsingleton.elim _ _
  show (outsAt13 V c t.val t.isLt).2.1 (ix2 (0 : Fin 1) q) = out8 (V c main_v157) (V c main_v187) (V c main_v188) (V c main_v165) (V c main_v189) (V c main_v169) (V c main_v190) (((cfg13.win 8).blk t).view.emb (ix2 (0 : Fin 1) q))
  rw [emb8, (acc V c q t.val t.isLt).1, h24, out8_apply, show 4000 * (24 + 1) = 100000 from rfl]
  rw [← Fin.sum_univ_eq_sum_range (fun r => g V c q r) 100000]
  exact Finset.sum_congr rfl fun r _ => by unfold g; rw [dif_pos r.isLt]

theorem cover8 (i : S1x128.Idx) : ∃ t : Fin cfg13.N, (cfg13.win 8).flush t = true ∧ i ∈ ((cfg13.win 8).blk t).view.set := by
  have hi0 : (i 0).val < 1 := (i 0).isLt
  have hi1 : (i 1).val < 128 := (i 1).isLt
  let t : Fin cfg13.N := ⟨24, by rw [show cfg13.N = 25 from N_13]; omega⟩
  obtain ⟨-, -, -, -, -, -, -, -, -, -, -, -, -, -, -, -, e0, e1, -⟩ := idx_facts t
  refine ⟨t, (flush13_8 t).mpr rfl, ?_⟩
  show i ∈ ((View.whole main_v191_1).slice (win13_8.rect t)).set
  rw [View.set_slice_whole, Rect.mem_set_unit]
  intro a
  match a with
  | ⟨0, _⟩ =>
    show win13_8.index t (0 : Fin 2) * 1 ≤ (i 0).val ∧ (i 0).val < win13_8.index t (0 : Fin 2) * 1 + 1
    rw [e0]; omega
  | ⟨1, _⟩ =>
    show win13_8.index t (1 : Fin 2) * 128 ≤ (i 1).val ∧ (i 1).val < win13_8.index t (1 : Fin 2) * 128 + 128
    rw [e1]; omega

theorem final8 (c : Dev nD) : (dat13 V c).arrAt 8 cfg13.N = out8 (V c main_v157) (V c main_v187) (V c main_v188) (V c main_v165) (V c main_v189) (V c main_v169) (V c main_v190) :=
  (dat13 V c).arrAt_eq_of_cover 8 _ (fun t hf => flushed8_eq V c t hf) (cover8)

theorem emb9 (t : Fin cfg13.N) (u : Fin 1) (q : Fin 128) :
    ((cfg13.win 9).blk t).view.emb (ix2 u q) = (ix2 u q : S1x128.Idx) := by
  obtain ⟨-, -, -, -, -, -, -, -, -, -, -, -, -, -, -, -, -, -, e0, e1⟩ := idx_facts t
  refine funext fun a => Fin.ext ?_
  match a with
  | ⟨0, _⟩ => show win13_9.index t (0 : Fin 2) * 1 + 1 * u.val = u.val; rw [e0]; omega
  | ⟨1, _⟩ => show win13_9.index t (1 : Fin 2) * 128 + 1 * q.val = q.val; rw [e1]; omega

theorem flushed9_eq (c : Dev nD) (t : Fin cfg13.N) (hf : (cfg13.win 9).flush t = true) :
    (dat13 V c).flushed 9 t = ((cfg13.win 9).blk t).view.read (Elt Ideal) (out9 (V c main_v157) (V c main_v187) (V c main_v188) (V c main_v165) (V c main_v189) (V c main_v169) (V c main_v190)) := by
  have h24 : t.val = 24 := by have h1 := (flush13_9 t).mp hf; have h2 : t.val < 25 := lt_of_lt_of_eq t.isLt N_13; omega
  show (cfg13.win 9).cut (grid13.coords t) ((dat13 V c).after 9 t) = _
  rw [after13_9]
  funext j
  obtain ⟨u, q, rfl⟩ : ∃ (u : Fin 1) (q : Fin 128), j = ix2 u q := ⟨j 0, j 1, eq_ix2 j⟩
  obtain rfl : u = 0 := Subsingleton.elim _ _
  show (outsAt13 V c t.val t.isLt).2.2 (ix2 (0 : Fin 1) q) = out9 (V c main_v157) (V c main_v187) (V c main_v188) (V c main_v165) (V c main_v189) (V c main_v169) (V c main_v190) (((cfg13.win 9).blk t).view.emb (ix2 (0 : Fin 1) q))
  rw [emb9, (acc V c q t.val t.isLt).2, h24, out9_apply, show 4000 * (24 + 1) = 100000 from rfl]
  rw [← Fin.sum_univ_eq_sum_range (fun r => g V c q r * g V c q r) 100000]
  exact Finset.sum_congr rfl fun r _ => by unfold g; rw [dif_pos r.isLt]

theorem cover9 (i : S1x128.Idx) : ∃ t : Fin cfg13.N, (cfg13.win 9).flush t = true ∧ i ∈ ((cfg13.win 9).blk t).view.set := by
  have hi0 : (i 0).val < 1 := (i 0).isLt
  have hi1 : (i 1).val < 128 := (i 1).isLt
  let t : Fin cfg13.N := ⟨24, by rw [show cfg13.N = 25 from N_13]; omega⟩
  obtain ⟨-, -, -, -, -, -, -, -, -, -, -, -, -, -, -, -, -, -, e0, e1⟩ := idx_facts t
  refine ⟨t, (flush13_9 t).mpr rfl, ?_⟩
  show i ∈ ((View.whole main_v191_2).slice (win13_9.rect t)).set
  rw [View.set_slice_whole, Rect.mem_set_unit]
  intro a
  match a with
  | ⟨0, _⟩ =>
    show win13_9.index t (0 : Fin 2) * 1 ≤ (i 0).val ∧ (i 0).val < win13_9.index t (0 : Fin 2) * 1 + 1
    rw [e0]; omega
  | ⟨1, _⟩ =>
    show win13_9.index t (1 : Fin 2) * 128 ≤ (i 1).val ∧ (i 1).val < win13_9.index t (1 : Fin 2) * 128 + 128
    rw [e1]; omega

theorem final9 (c : Dev nD) : (dat13 V c).arrAt 9 cfg13.N = out9 (V c main_v157) (V c main_v187) (V c main_v188) (V c main_v165) (V c main_v189) (V c main_v169) (V c main_v190) :=
  (dat13 V c).arrAt_eq_of_cover 9 _ (fun t hf => flushed9_eq V c t hf) (cover9)

end Finals

end Cert.KernelIdeal.Reg13

end
-- ==== Proof.Reg14.lean ====
/-
  Region 14: the normalisation of a layer's MLP output. Point `t` of the grid (25 points) holds rows 4000·t … 4000·t + 3999 of
  the MLP output [100000, 128] and of the layer's input (the residual), and the whole rows [1, 128] of the mean, the variance, the scale and the shift,
  and stores rows 4000·t … of the result. Entry (r, j) of what it stores is
      max ((h[r, j] − mean[0, j]) · rsqrt (var[0, j] + 1e-5) · gamma[0, j] + beta[0, j]) 0 + resid[r, j],
  which depends on row r of the row inputs only; so the result array is that function of the input arrays (`final6`).
-/
import proofs.«162690_j78211354460181_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg14

open Cert.KernelIdeal Cert.KernelIdeal.Gen

variable (V : (c : Dev nD) → (b : Ref sig .tc) → Buf (Elt Ideal) ((c : Thread nD τ).loc b))

/-- The normalised array as a function of the region's input arrays. -/
def out6 (h resid : S100000x128.Idx → EReal) (mean var gamma beta : S1x128.Idx → EReal) : S100000x128.Idx → EReal := fun i =>
  max ((h (ix2 (i 0 : Fin 100000) (i 1 : Fin 128)) - mean (ix2 (0 : Fin 1) (i 1 : Fin 128)))
        * Ideal.rsqrt (var (ix2 (0 : Fin 1) (i 1 : Fin 128)) + Ideal.ofBits .f32 0x3727C5AC#32)
        * gamma (ix2 (0 : Fin 1) (i 1 : Fin 128)) + beta (ix2 (0 : Fin 1) (i 1 : Fin 128)))
      (Ideal.ofBits .f32 0x00000000#32)
    + resid (ix2 (i 0 : Fin 100000) (i 1 : Fin 128))

theorem hz : (![0, 0] : Fin 2 → Nat) = fun _ => 0 := funext fun a => by fin_cases a <;> rfl

/-- The body's stored value at row `p` and column `q` of the block, from the loaded blocks. -/
theorem pay_apply (x0 x1 : Vec Ideal S4000x128 .f32) (x2 x3 x4 x5 : Vec Ideal S1x128 .f32) (p : Fin 4000) (q : Fin 128) :
    k14_pay1 x0 x2 x3 x4 x5 x1 (ix2 p q)
      = max ((x0 (ix2 p q) - x2 (ix2 (0 : Fin 1) q)) * Ideal.rsqrt (x3 (ix2 (0 : Fin 1) q) + Ideal.ofBits .f32 0x3727C5AC#32)
            * x4 (ix2 (0 : Fin 1) q) + x5 (ix2 (0 : Fin 1) q)) (Ideal.ofBits .f32 0x00000000#32) + x1 (ix2 p q) := by
  unfold k14_pay1
  simp only [shapeCast_self, maximumf_apply, addf_apply, mulf_apply, subf_apply, broadcast_apply, broadcastTo_1b_ab_apply]
  rfl

/-- Where each window's block sits at point `t`: the row windows at block `t`, the row vectors at block 0. -/
theorem idx_facts : ∀ t : Fin cfg14.N, win14_0.index t (0 : Fin 2) = t.val
    ∧ win14_0.index t (1 : Fin 2) = 0
    ∧ win14_1.index t (0 : Fin 2) = t.val
    ∧ win14_1.index t (1 : Fin 2) = 0
    ∧ win14_2.index t (0 : Fin 2) = 0
    ∧ win14_2.index t (1 : Fin 2) = 0
    ∧ win14_3.index t (0 : Fin 2) = 0
    ∧ win14_3.index t (1 : Fin 2) = 0
    ∧ win14_4.index t (0 : Fin 2) = 0
    ∧ win14_4.index t (1 : Fin 2) = 0
    ∧ win14_5.index t (0 : Fin 2) = 0
    ∧ win14_5.index t (1 : Fin 2) = 0
    ∧ win14_6.index t (0 : Fin 2) = t.val
    ∧ win14_6.index t (1 : Fin 2) = 0 :=
  (by decide +kernel : ∀ t : Fin grid14.N, _)

/-- Row `p` of point `t`'s block is row 4000·t + p of the array. -/
def row (t : Fin cfg14.N) (p : Fin 4000) : Fin 100000 :=
  ⟨4000 * t.val + p.val, by have h : t.val < 25 := lt_of_lt_of_eq t.isLt N_14; have := p.isLt; omega⟩

theorem rd0 (c : Dev nD) (t : Fin cfg14.N) (p : Fin 4000) (q : Fin 128) :
    (iblk14 V c 0 t : Vec Ideal S4000x128 .f32) (ix2 p q) = (V c main_v191_0 : S100000x128.Idx → EReal) (ix2 (row t p) q) := by
  obtain ⟨e0, e1, -⟩ := idx_facts t
  unfold iblk14
  rw [View.read_apply]
  show V c main_v191_0 _ = V c main_v191_0 _
  refine congrArg _ (funext fun a => Fin.ext ?_)
  match a with
  | ⟨0, _⟩ => show win14_0.index t (0 : Fin 2) * 4000 + 1 * p.val = 4000 * t.val + p.val; rw [e0]; omega
  | ⟨1, _⟩ => show win14_0.index t (1 : Fin 2) * 128 + 1 * q.val = q.val; rw [e1]; omega

theorem rd1 (c : Dev nD) (t : Fin cfg14.N) (p : Fin 4000) (q : Fin 128) :
    (iblk14 V c 1 t : Vec Ideal S4000x128 .f32) (ix2 p q) = (V c main_v157 : S100000x128.Idx → EReal) (ix2 (row t p) q) := by
  obtain ⟨-, -, e0, e1, -⟩ := idx_facts t
  unfold iblk14
  rw [View.read_apply]
  show V c main_v157 _ = V c main_v157 _
  refine congrArg _ (funext fun a => Fin.ext ?_)
  match a with
  | ⟨0, _⟩ => show win14_1.index t (0 : Fin 2) * 4000 + 1 * p.val = 4000 * t.val + p.val; rw [e0]; omega
  | ⟨1, _⟩ => show win14_1.index t (1 : Fin 2) * 128 + 1 * q.val = q.val; rw [e1]; omega

theorem rd2 (c : Dev nD) (t : Fin cfg14.N) (q : Fin 128) :
    (iblk14 V c 2 t : Vec Ideal S1x128 .f32) (ix2 (0 : Fin 1) q) = (V c main_v193 : S1x128.Idx → EReal) (ix2 (0 : Fin 1) q) := by
  obtain ⟨-, -, -, -, e0, e1, -⟩ := idx_facts t
  unfold iblk14
  rw [View.read_apply]
  show V c main_v193 _ = V c main_v193 _
  refine congrArg _ (funext fun a => Fin.ext ?_)
  match a with
  | ⟨0, _⟩ => show win14_2.index t (0 : Fin 2) * 1 + 1 * (0 : Fin 1).val = (0 : Fin 1).val; rw [e0]; rfl
  | ⟨1, _⟩ => show win14_2.index t (1 : Fin 2) * 128 + 1 * q.val = q.val; rw [e1]; omega

theorem rd3 (c : Dev nD) (t : Fin cfg14.N) (q : Fin 128) :
    (iblk14 V c 3 t : Vec Ideal S1x128 .f32) (ix2 (0 : Fin 1) q) = (V c main_v197 : S1x128.Idx → EReal) (ix2 (0 : Fin 1) q) := by
  obtain ⟨-, -, -, -, -, -, e0, e1, -⟩ := idx_facts t
  unfold iblk14
  rw [View.read_apply]
  show V c main_v197 _ = V c main_v197 _
  refine congrArg _ (funext fun a => Fin.ext ?_)
  match a with
  | ⟨0, _⟩ => show win14_3.index t (0 : Fin 2) * 1 + 1 * (0 : Fin 1).val = (0 : Fin 1).val; rw [e0]; rfl
  | ⟨1, _⟩ => show win14_3.index t (1 : Fin 2) * 128 + 1 * q.val = q.val; rw [e1]; omega

theorem rd4 (c : Dev nD) (t : Fin cfg14.N) (q : Fin 128) :
    (iblk14 V c 4 t : Vec Ideal S1x128 .f32) (ix2 (0 : Fin 1) q) = (V c main_v198 : S1x128.Idx → EReal) (ix2 (0 : Fin 1) q) := by
  obtain ⟨-, -, -, -, -, -, -, -, e0, e1, -⟩ := idx_facts t
  unfold iblk14
  rw [View.read_apply]
  show V c main_v198 _ = V c main_v198 _
  refine congrArg _ (funext fun a => Fin.ext ?_)
  match a with
  | ⟨0, _⟩ => show win14_4.index t (0 : Fin 2) * 1 + 1 * (0 : Fin 1).val = (0 : Fin 1).val; rw [e0]; rfl
  | ⟨1, _⟩ => show win14_4.index t (1 : Fin 2) * 128 + 1 * q.val = q.val; rw [e1]; omega

theorem rd5 (c : Dev nD) (t : Fin cfg14.N) (q : Fin 128) :
    (iblk14 V c 5 t : Vec Ideal S1x128 .f32) (ix2 (0 : Fin 1) q) = (V c main_v199 : S1x128.Idx → EReal) (ix2 (0 : Fin 1) q) := by
  obtain ⟨-, -, -, -, -, -, -, -, -, -, e0, e1, -⟩ := idx_facts t
  unfold iblk14
  rw [View.read_apply]
  show V c main_v199 _ = V c main_v199 _
  refine congrArg _ (funext fun a => Fin.ext ?_)
  match a with
  | ⟨0, _⟩ => show win14_5.index t (0 : Fin 2) * 1 + 1 * (0 : Fin 1).val = (0 : Fin 1).val; rw [e0]; rfl
  | ⟨1, _⟩ => show win14_5.index t (1 : Fin 2) * 128 + 1 * q.val = q.val; rw [e1]; omega

/-- The output block's entry (p, q) at point `t` is entry (4000·t + p, q) of the array. -/
theorem emb_out (t : Fin cfg14.N) (p : Fin 4000) (q : Fin 128) :
    ((cfg14.win 6).blk t).view.emb (ix2 p q) = (ix2 (row t p) q : S100000x128.Idx) := by
  obtain ⟨-, -, -, -, -, -, -, -, -, -, -, -, e0, e1⟩ := idx_facts t
  refine funext fun a => Fin.ext ?_
  match a with
  | ⟨0, _⟩ => show win14_6.index t (0 : Fin 2) * 4000 + 1 * p.val = 4000 * t.val + p.val; rw [e0]; omega
  | ⟨1, _⟩ => show win14_6.index t (1 : Fin 2) * 128 + 1 * q.val = q.val; rw [e1]; omega

/-- What point `t` writes back is block `t` of the normalised array of the input arrays as the region finds them. -/
theorem flushed_eq (c : Dev nD) (t : Fin cfg14.N) :
    (dat14 V c).flushed 6 t = ((cfg14.win 6).blk t).view.read (Elt Ideal) (out6 (V c main_v191_0) (V c main_v157) (V c main_v193) (V c main_v197) (V c main_v198) (V c main_v199)) := by
  show (cfg14.win 6).cut (grid14.coords t) ((dat14 V c).after 6 t) = _
  rw [after14_6]
  unfold out14_6
  rw [View.canon_unit_zero hz]
  simp only [View.ld_unit_zero (S := S4000x128) hz, View.ld_unit_zero (S := S1x128) hz]
  funext j
  obtain ⟨p, q, rfl⟩ : ∃ (p : Fin 4000) (q : Fin 128), j = ix2 p q := ⟨j 0, j 1, eq_ix2 j⟩
  show k14_pay1 (iblk14 V c 0 t) (iblk14 V c 2 t) (iblk14 V c 3 t) (iblk14 V c 4 t) (iblk14 V c 5 t) (iblk14 V c 1 t) (ix2 p q)
    = out6 (V c main_v191_0) (V c main_v157) (V c main_v193) (V c main_v197) (V c main_v198) (V c main_v199) (((cfg14.win 6).blk t).view.emb (ix2 p q))
  rw [emb_out, pay_apply]
  simp only [rd0, rd1, rd2, rd3, rd4, rd5]
  rfl

/-- Every row of the array lies in the block of the point that is its quotient by 4000. -/
theorem cover (i : S100000x128.Idx) : ∃ t : Fin cfg14.N, (cfg14.win 6).flush t = true ∧ i ∈ ((cfg14.win 6).blk t).view.set := by
  have hi0 : (i 0).val < 100000 := (i 0).isLt
  have hi1 : (i 1).val < 128 := (i 1).isLt
  let t : Fin cfg14.N := ⟨(i 0).val / 4000, by rw [show cfg14.N = 25 from N_14]; omega⟩
  obtain ⟨-, -, -, -, -, -, -, -, -, -, -, -, e0, e1⟩ := idx_facts t
  refine ⟨t, flush14_6 t, ?_⟩
  show i ∈ ((View.whole main_v200).slice (win14_6.rect t)).set
  rw [View.set_slice_whole, Rect.mem_set_unit]
  intro a
  match a with
  | ⟨0, _⟩ =>
    show win14_6.index t (0 : Fin 2) * 4000 ≤ (i 0).val ∧ (i 0).val < win14_6.index t (0 : Fin 2) * 4000 + 4000
    rw [e0]; show (i 0).val / 4000 * 4000 ≤ (i 0).val ∧ (i 0).val < (i 0).val / 4000 * 4000 + 4000; omega
  | ⟨1, _⟩ =>
    show win14_6.index t (1 : Fin 2) * 128 ≤ (i 1).val ∧ (i 1).val < win14_6.index t (1 : Fin 2) * 128 + 128
    rw [e1]; omega

/-- The region's result array is the normalised array of its input arrays. -/
theorem final6 (c : Dev nD) :
    (dat14 V c).arrAt 6 cfg14.N = out6 (V c main_v191_0) (V c main_v157) (V c main_v193) (V c main_v197) (V c main_v198) (V c main_v199) :=
  (dat14 V c).arrAt_eq_of_cover 6 _ (fun t _ => flushed_eq V c t) cover

end Cert.KernelIdeal.Reg14

end
-- ==== Proof.Reg15.lean ====
/-
  Region 15: the head. Point `t` of the grid (5 points) holds rows 1000·t … 1000·t + 999 of the pooled features
  [5000, 128] and the whole of the three weight matrices and bias rows, and stores rows 1000·t … of the result [5000, 1].
  Row r of what it stores is
      Σ_k max (Σ_j max (Σ_l p[r, l] · w1[l, j] + b1[0, j]) 0 · w2[j, k] + b2[0, k]) 0 · w3[k, 0] + b3[0, 0],
  which depends on row r of the pooled features only; so the result array is that function of the input arrays (`final7`).
-/
import proofs.«162690_j78211354460181_1_alg».proof.Proof.Gen.KernelIdeal.Frame
import proofs.«162690_j78211354460181_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reg15

open Cert.KernelIdeal Cert.KernelIdeal.Gen Cert.LibDot

variable (V : (c : Dev nD) → (b : Ref sig .tc) → Buf (Elt Ideal) ((c : Thread nD τ).loc b))

/-- The head's output as a function of the pooled features, the weights and the bias rows. -/
def out7 (p : S5000x128.Idx → EReal) (w1 : S128x128.Idx → EReal) (b1 : S1x128.Idx → EReal) (w2 : S128x128.Idx → EReal)
    (b2 : S1x128.Idx → EReal) (w3 : S128x1.Idx → EReal) (b3 : S1x1.Idx → EReal) : S5000x1.Idx → EReal := fun i =>
  (∑ k : Fin 128,
      max ((∑ j : Fin 128,
              max ((∑ l : Fin 128, p (ix2 (i 0 : Fin 5000) l) * w1 (ix2 l j)) + b1 (ix2 (0 : Fin 1) j)) (Ideal.ofBits .f32 0x00000000#32)
                * w2 (ix2 j k)) + b2 (ix2 (0 : Fin 1) k)) (Ideal.ofBits .f32 0x00000000#32) * w3 (ix2 k (i 1 : Fin 1)))
    + b3 (ix2 (0 : Fin 1) (i 1 : Fin 1))

theorem hz : (![0, 0] : Fin 2 → Nat) = fun _ => 0 := funext fun a => by fin_cases a <;> rfl

theorem plain_a : Plain dot_S1000x128_S128x128_S1000x128_1_0_0_1_n_n :=
  ⟨rfl, rfl, fun _ _ => rfl, fun j k => DotDims.lhsIdx_val_of_single _ rfl j k, fun j k => DotDims.rhsIdx_val_of_single _ rfl j k, fun _ _ => rfl⟩
theorem plain_b : Plain dot_S1000x128_S128x1_S1000x1_1_0_0_1_n_n :=
  ⟨rfl, rfl, fun _ _ => rfl, fun j k => DotDims.lhsIdx_val_of_single _ rfl j k, fun j k => DotDims.rhsIdx_val_of_single _ rfl j k, fun _ _ => rfl⟩

/-- The body's stored value at row `r` of the block, from the loaded blocks. -/
theorem pay_apply (x0 : Vec Ideal S1000x128 .f32) (x1 : Vec Ideal S128x128 .f32) (x2 : Vec Ideal S1x128 .f32)
    (x3 : Vec Ideal S128x128 .f32) (x4 : Vec Ideal S1x128 .f32) (x5 : Vec Ideal S128x1 .f32) (x6 : Vec Ideal S1x1 .f32)
    (r : Fin 1000) (q : Fin 1) :
    k15_pay1 x0 x1 x2 x3 x4 x5 x6 (ix2 r q)
      = (∑ k : Fin 128,
          max ((∑ j : Fin 128,
                  max ((∑ l : Fin 128, x0 (ix2 r l) * x1 (ix2 l j)) + x2 (ix2 (0 : Fin 1) j)) (Ideal.ofBits .f32 0x00000000#32)
                    * x3 (ix2 j k)) + x4 (ix2 (0 : Fin 1) k)) (Ideal.ofBits .f32 0x00000000#32) * x5 (ix2 k q))
        + x6 (ix2 (0 : Fin 1) q) := by
  unfold k15_pay1
  simp only [shapeCast_self]
  rw [addf_apply, matmul_ix2 plain_b, broadcastTo_1b_ab_apply]
  refine congrArg (· + _) (Finset.sum_congr rfl fun k _ => ?_)
  rw [truncf_apply, truncf_apply, maximumf_apply, addf_apply, matmul_ix2 plain_a, broadcastTo_1b_ab_apply, broadcast_apply]
  refine congrArg (fun z => max (z + _) _ * _) (Finset.sum_congr rfl fun j _ => ?_)
  rw [truncf_apply, truncf_apply, maximumf_apply, addf_apply, matmul_ix2 plain_a, broadcastTo_1b_ab_apply, broadcast_apply]
  refine congrArg (fun z => max (z + _) _ * _) (Finset.sum_congr rfl fun l _ => ?_)
  rw [truncf_apply, truncf_apply]

/-- Where each window's block sits at point `t`: the row windows at block `t`, everything else at block 0. -/
theorem idx_facts : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = 0 ∧ win15_6.index t (1 : Fin 2) = 0
    ∧ win15_7.index t (0 : Fin 2) = t.val ∧ win15_7.index t (1 : Fin 2) = 0 :=
  (by decide +kernel : ∀ t : Fin grid15.N, _)

/-- Row `r` of point `t`'s block is row 1000·t + r of the array. -/
def row (t : Fin cfg15.N) (r : Fin 1000) : Fin 5000 :=
  ⟨1000 * t.val + r.val, by have h : t.val < 5 := lt_of_lt_of_eq t.isLt N_15; have := r.isLt; omega⟩

theorem rd0 (c : Dev nD) (t : Fin cfg15.N) (r : Fin 1000) (l : Fin 128) :
    (iblk15 V c 0 t : Vec Ideal S1000x128 .f32) (ix2 r l) = (V c main_v212 : S5000x128.Idx → EReal) (ix2 (row t r) l) := by
  obtain ⟨e0, e1, -⟩ := idx_facts t
  unfold iblk15
  rw [View.read_apply]
  show V c main_v212 _ = V c main_v212 _
  refine congrArg _ (funext fun a => Fin.ext ?_)
  match a with
  | ⟨0, _⟩ => show win15_0.index t (0 : Fin 2) * 1000 + 1 * r.val = 1000 * t.val + r.val; rw [e0]; omega
  | ⟨1, _⟩ => show win15_0.index t (1 : Fin 2) * 128 + 1 * l.val = l.val; rw [e1]; omega

theorem rd1 (c : Dev nD) (t : Fin cfg15.N) (l j : Fin 128) :
    (iblk15 V c 1 t : Vec Ideal S128x128 .f32) (ix2 l j) = (V c main_arg20 : S128x128.Idx → EReal) (ix2 l j) := by
  obtain ⟨-, -, e0, e1, -⟩ := idx_facts t
  unfold iblk15
  rw [View.read_apply]
  show V c main_arg20 _ = V c main_arg20 _
  refine congrArg _ (funext fun a => Fin.ext ?_)
  match a with
  | ⟨0, _⟩ => show win15_1.index t (0 : Fin 2) * 128 + 1 * l.val = l.val; rw [e0]; omega
  | ⟨1, _⟩ => show win15_1.index t (1 : Fin 2) * 128 + 1 * j.val = j.val; rw [e1]; omega

theorem rd2 (c : Dev nD) (t : Fin cfg15.N) (j : Fin 128) :
    (iblk15 V c 2 t : Vec Ideal S1x128 .f32) (ix2 (0 : Fin 1) j) = (V c main_v213 : S1x128.Idx → EReal) (ix2 (0 : Fin 1) j) := by
  obtain ⟨-, -, -, -, e0, e1, -⟩ := idx_facts t
  unfold iblk15
  rw [View.read_apply]
  show V c main_v213 _ = V c main_v213 _
  refine congrArg _ (funext fun a => Fin.ext ?_)
  match a with
  | ⟨0, _⟩ => show win15_2.index t (0 : Fin 2) * 1 + 1 * (0 : Fin 1).val = (0 : Fin 1).val; rw [e0]; rfl
  | ⟨1, _⟩ => show win15_2.index t (1 : Fin 2) * 128 + 1 * j.val = j.val; rw [e1]; omega

theorem rd3 (c : Dev nD) (t : Fin cfg15.N) (j k : Fin 128) :
    (iblk15 V c 3 t : Vec Ideal S128x128 .f32) (ix2 j k) = (V c main_arg22 : S128x128.Idx → EReal) (ix2 j k) := by
  obtain ⟨-, -, -, -, -, -, e0, e1, -⟩ := idx_facts t
  unfold iblk15
  rw [View.read_apply]
  show V c main_arg22 _ = V c main_arg22 _
  refine congrArg _ (funext fun a => Fin.ext ?_)
  match a with
  | ⟨0, _⟩ => show win15_3.index t (0 : Fin 2) * 128 + 1 * j.val = j.val; rw [e0]; omega
  | ⟨1, _⟩ => show win15_3.index t (1 : Fin 2) * 128 + 1 * k.val = k.val; rw [e1]; omega

theorem rd4 (c : Dev nD) (t : Fin cfg15.N) (k : Fin 128) :
    (iblk15 V c 4 t : Vec Ideal S1x128 .f32) (ix2 (0 : Fin 1) k) = (V c main_v214 : S1x128.Idx → EReal) (ix2 (0 : Fin 1) k) := by
  obtain ⟨-, -, -, -, -, -, -, -, e0, e1, -⟩ := idx_facts t
  unfold iblk15
  rw [View.read_apply]
  show V c main_v214 _ = V c main_v214 _
  refine congrArg _ (funext fun a => Fin.ext ?_)
  match a with
  | ⟨0, _⟩ => show win15_4.index t (0 : Fin 2) * 1 + 1 * (0 : Fin 1).val = (0 : Fin 1).val; rw [e0]; rfl
  | ⟨1, _⟩ => show win15_4.index t (1 : Fin 2) * 128 + 1 * k.val = k.val; rw [e1]; omega

theorem rd5 (c : Dev nD) (t : Fin cfg15.N) (k : Fin 128) (q : Fin 1) :
    (iblk15 V c 5 t : Vec Ideal S128x1 .f32) (ix2 k q) = (V c main_arg24 : S128x1.Idx → EReal) (ix2 k q) := by
  obtain ⟨-, -, -, -, -, -, -, -, -, -, e0, e1, -⟩ := idx_facts t
  unfold iblk15
  rw [View.read_apply]
  show V c main_arg24 _ = V c main_arg24 _
  refine congrArg _ (funext fun a => Fin.ext ?_)
  match a with
  | ⟨0, _⟩ => show win15_5.index t (0 : Fin 2) * 128 + 1 * k.val = k.val; rw [e0]; omega
  | ⟨1, _⟩ => show win15_5.index t (1 : Fin 2) * 1 + 1 * q.val = q.val; rw [e1]; omega

theorem rd6 (c : Dev nD) (t : Fin cfg15.N) (q : Fin 1) :
    (iblk15 V c 6 t : Vec Ideal S1x1 .f32) (ix2 (0 : Fin 1) q) = (V c main_v215 : S1x1.Idx → EReal) (ix2 (0 : Fin 1) q) := by
  obtain ⟨-, -, -, -, -, -, -, -, -, -, -, -, e0, e1, -⟩ := idx_facts t
  unfold iblk15
  rw [View.read_apply]
  show V c main_v215 _ = V c main_v215 _
  refine congrArg _ (funext fun a => Fin.ext ?_)
  match a with
  | ⟨0, _⟩ => show win15_6.index t (0 : Fin 2) * 1 + 1 * (0 : Fin 1).val = (0 : Fin 1).val; rw [e0]; rfl
  | ⟨1, _⟩ => show win15_6.index t (1 : Fin 2) * 1 + 1 * q.val = q.val; rw [e1]; omega

/-- The output block's entry (r, q) at point `t` is entry (1000·t + r, q) of the array. -/
theorem emb_out (t : Fin cfg15.N) (r : Fin 1000) (q : Fin 1) :
    ((cfg15.win 7).blk t).view.emb (ix2 r q) = (ix2 (row t r) q : S5000x1.Idx) := by
  obtain ⟨-, -, -, -, -, -, -, -, -, -, -, -, -, -, e0, e1⟩ := idx_facts t
  refine funext fun a => Fin.ext ?_
  match a with
  | ⟨0, _⟩ => show win15_7.index t (0 : Fin 2) * 1000 + 1 * r.val = 1000 * t.val + r.val; rw [e0]; omega
  | ⟨1, _⟩ => show win15_7.index t (1 : Fin 2) * 1 + 1 * q.val = q.val; rw [e1]; omega

/-- What point `t` writes back is block `t` of the head's output of the input arrays as the region finds them. -/
theorem flushed_eq (c : Dev nD) (t : Fin cfg15.N) :
    (dat15 V c).flushed 7 t = ((cfg15.win 7).blk t).view.read (Elt Ideal)
      (out7 (V c main_v212) (V c main_arg20) (V c main_v213) (V c main_arg22) (V c main_v214) (V c main_arg24) (V c main_v215)) := by
  show (cfg15.win 7).cut (grid15.coords t) ((dat15 V c).after 7 t) = _
  rw [after15_7]
  unfold out15_7
  rw [View.canon_unit_zero hz]
  simp only [View.ld_unit_zero (S := S1000x128) hz, View.ld_unit_zero (S := S128x128) hz, View.ld_unit_zero (S := S1x128) hz,
    View.ld_unit_zero (S := S128x1) hz, View.ld_unit_zero (S := S1x1) hz]
  funext j
  obtain ⟨r, q, rfl⟩ : ∃ (r : Fin 1000) (q : Fin 1), j = ix2 r q := ⟨j 0, j 1, eq_ix2 j⟩
  show k15_pay1 (iblk15 V c 0 t) (iblk15 V c 1 t) (iblk15 V c 2 t) (iblk15 V c 3 t) (iblk15 V c 4 t) (iblk15 V c 5 t) (iblk15 V c 6 t) (ix2 r q)
    = out7 (V c main_v212) (V c main_arg20) (V c main_v213) (V c main_arg22) (V c main_v214) (V c main_arg24) (V c main_v215)
        (((cfg15.win 7).blk t).view.emb (ix2 r q))
  rw [emb_out, pay_apply]
  simp only [rd0, rd1, rd2, rd3, rd4, rd5, rd6]
  rfl

/-- Every row of the array lies in the block of the point that is its quotient by 1000. -/
theorem cover (i : S5000x1.Idx) : ∃ t : Fin cfg15.N, (cfg15.win 7).flush t = true ∧ i ∈ ((cfg15.win 7).blk t).view.set := by
  have hi0 : (i 0).val < 5000 := (i 0).isLt
  have hi1 : (i 1).val < 1 := (i 1).isLt
  let t : Fin cfg15.N := ⟨(i 0).val / 1000, by rw [show cfg15.N = 5 from N_15]; omega⟩
  obtain ⟨-, -, -, -, -, -, -, -, -, -, -, -, -, -, e0, e1⟩ := idx_facts t
  refine ⟨t, flush15_7 t, ?_⟩
  show i ∈ ((View.whole main_v216).slice (win15_7.rect t)).set
  rw [View.set_slice_whole, Rect.mem_set_unit]
  intro a
  match a with
  | ⟨0, _⟩ =>
    show win15_7.index t (0 : Fin 2) * 1000 ≤ (i 0).val ∧ (i 0).val < win15_7.index t (0 : Fin 2) * 1000 + 1000
    rw [e0]; show (i 0).val / 1000 * 1000 ≤ (i 0).val ∧ (i 0).val < (i 0).val / 1000 * 1000 + 1000; omega
  | ⟨1, _⟩ =>
    show win15_7.index t (1 : Fin 2) * 1 ≤ (i 1).val ∧ (i 1).val < win15_7.index t (1 : Fin 2) * 1 + 1
    rw [e1]; omega

/-- The region's result array is the head's output of its input arrays. -/
theorem final7 (c : Dev nD) :
    (dat15 V c).arrAt 7 cfg15.N
      = out7 (V c main_v212) (V c main_arg20) (V c main_v213) (V c main_arg22) (V c main_v214) (V c main_arg24) (V c main_v215) :=
  (dat15 V c).arrAt_eq_of_cover 7 _ (fun t _ => flushed_eq V c t) cover

end Cert.KernelIdeal.Reg15

end
-- ==== Proof.KerRead0.lean ====
/- The idealised kernel program's result read off the fold of its segment boundaries: each needed buffer's value as a
   definition over the launch arguments, and the boundary after it is written holding it there. -/
import proofs.«162690_j78211354460181_1_alg».proof.Proof.Gen.KernelIdeal.Frame
import proofs.«162690_j78211354460181_1_alg».proof.Proof.Reg0
import proofs.«162690_j78211354460181_1_alg».proof.Proof.Reg1
import proofs.«162690_j78211354460181_1_alg».proof.Proof.Reg2
import proofs.«162690_j78211354460181_1_alg».proof.Proof.Reg3
import proofs.«162690_j78211354460181_1_alg».proof.Proof.Reg4
import proofs.«162690_j78211354460181_1_alg».proof.Proof.Reg5
import proofs.«162690_j78211354460181_1_alg».proof.Proof.Reg6
import proofs.«162690_j78211354460181_1_alg».proof.Proof.Reg7
import proofs.«162690_j78211354460181_1_alg».proof.Proof.Reg8
import proofs.«162690_j78211354460181_1_alg».proof.Proof.Reg9
import proofs.«162690_j78211354460181_1_alg».proof.Proof.Reg10
import proofs.«162690_j78211354460181_1_alg».proof.Proof.Reg11
import proofs.«162690_j78211354460181_1_alg».proof.Proof.Reg12
import proofs.«162690_j78211354460181_1_alg».proof.Proof.Reg13
import proofs.«162690_j78211354460181_1_alg».proof.Proof.Reg14
import proofs.«162690_j78211354460181_1_alg».proof.Proof.Reg15
import Idealize.ShloMosaic.Lib.StableHlo.Run
import Idealize.ShloMosaic.PureOps.Ideal

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

abbrev written0 : List (Ref sig .tc) := [main_v0, main_v1, main_v2, main_v3, main_c, main_v4, main_v5, main_c_0, main_v6, main_v7, main_v8, main_v9, main_v10, main_v11]
theorem wr0 {y : Ref sig .tc} (h : y ∈ written0) : ({Proc.devRef .tc y} : Finset (DevRef τ sig)) ⊆ (written0.map (Proc.devRef (τ := τ) .tc)).toFinset :=
  Finset.singleton_subset_iff.mpr (List.mem_toFinset.mpr (List.mem_map_of_mem h))
theorem writes0 : (hostOps0 : List (HloOp τ sig (Elt Ideal))).Forall fun op => op.writes ⊆ (written0.map (Proc.devRef (τ := τ) .tc)).toFinset :=
  ⟨wr0 (List.getElem_mem (l := written0) (n := 0) (by decide)), wr0 (List.getElem_mem (l := written0) (n := 1) (by decide)), wr0 (List.getElem_mem (l := written0) (n := 2) (by decide)), wr0 (List.getElem_mem (l := written0) (n := 3) (by decide)), wr0 (List.getElem_mem (l := written0) (n := 4) (by decide)), wr0 (List.getElem_mem (l := written0) (n := 5) (by decide)), wr0 (List.getElem_mem (l := written0) (n := 6) (by decide)), wr0 (List.getElem_mem (l := written0) (n := 7) (by decide)), wr0 (List.getElem_mem (l := written0) (n := 8) (by decide)), wr0 (List.getElem_mem (l := written0) (n := 9) (by decide)), wr0 (List.getElem_mem (l := written0) (n := 10) (by decide)), wr0 (List.getElem_mem (l := written0) (n := 11) (by decide)), wr0 (List.getElem_mem (l := written0) (n := 12) (by decide)), wr0 (List.getElem_mem (l := written0) (n := 13) (by decide))⟩
/-- A buffer that host stretch 0 does not write keeps its contents through it. -/
theorem keep0 (V : Valuation τ sig (Elt Ideal)) (r : Ref sig .tc) (hr : r ∉ written0) : after hostOps0 V (Proc.devRef .tc r) = V (Proc.devRef .tc r) :=
  after_of_writes_sub hostOps0 V writes0 hr

abbrev written1 : List (Ref sig .tc) := [main_cst, main_v13, main_v14, main_v15, main_v16, main_v17, main_v18]
theorem wr1 {y : Ref sig .tc} (h : y ∈ written1) : ({Proc.devRef .tc y} : Finset (DevRef τ sig)) ⊆ (written1.map (Proc.devRef (τ := τ) .tc)).toFinset :=
  Finset.singleton_subset_iff.mpr (List.mem_toFinset.mpr (List.mem_map_of_mem h))
theorem writes1 : (hostOps1 : List (HloOp τ sig (Elt Ideal))).Forall fun op => op.writes ⊆ (written1.map (Proc.devRef (τ := τ) .tc)).toFinset :=
  ⟨wr1 (List.getElem_mem (l := written1) (n := 0) (by decide)), wr1 (List.getElem_mem (l := written1) (n := 1) (by decide)), wr1 (List.getElem_mem (l := written1) (n := 2) (by decide)), wr1 (List.getElem_mem (l := written1) (n := 3) (by decide)), wr1 (List.getElem_mem (l := written1) (n := 4) (by decide)), wr1 (List.getElem_mem (l := written1) (n := 5) (by decide)), wr1 (List.getElem_mem (l := written1) (n := 6) (by decide))⟩
/-- A buffer that host stretch 1 does not write keeps its contents through it. -/
theorem keep1 (V : Valuation τ sig (Elt Ideal)) (r : Ref sig .tc) (hr : r ∉ written1) : after hostOps1 V (Proc.devRef .tc r) = V (Proc.devRef .tc r) :=
  after_of_writes_sub hostOps1 V writes1 hr

abbrev written2 : List (Ref sig .tc) := [main_cst_1, main_v20, main_v21, main_cst_2, main_v22, main_v23, main_v24, main_v25, main_v26, main_v27]
theorem wr2 {y : Ref sig .tc} (h : y ∈ written2) : ({Proc.devRef .tc y} : Finset (DevRef τ sig)) ⊆ (written2.map (Proc.devRef (τ := τ) .tc)).toFinset :=
  Finset.singleton_subset_iff.mpr (List.mem_toFinset.mpr (List.mem_map_of_mem h))
theorem writes2 : (hostOps2 : List (HloOp τ sig (Elt Ideal))).Forall fun op => op.writes ⊆ (written2.map (Proc.devRef (τ := τ) .tc)).toFinset :=
  ⟨wr2 (List.getElem_mem (l := written2) (n := 0) (by decide)), wr2 (List.getElem_mem (l := written2) (n := 1) (by decide)), wr2 (List.getElem_mem (l := written2) (n := 2) (by decide)), wr2 (List.getElem_mem (l := written2) (n := 3) (by decide)), wr2 (List.getElem_mem (l := written2) (n := 4) (by decide)), wr2 (List.getElem_mem (l := written2) (n := 5) (by decide)), wr2 (List.getElem_mem (l := written2) (n := 6) (by decide)), wr2 (List.getElem_mem (l := written2) (n := 7) (by decide)), wr2 (List.getElem_mem (l := written2) (n := 8) (by decide)), wr2 (List.getElem_mem (l := written2) (n := 9) (by decide))⟩
/-- A buffer that host stretch 2 does not write keeps its contents through it. -/
theorem keep2 (V : Valuation τ sig (Elt Ideal)) (r : Ref sig .tc) (hr : r ∉ written2) : after hostOps2 V (Proc.devRef .tc r) = V (Proc.devRef .tc r) :=
  after_of_writes_sub hostOps2 V writes2 hr

abbrev written3 : List (Ref sig .tc) := [main_v29, main_v30, main_v31, main_v32, main_v33, main_v34, main_v35, main_v36, main_v37, main_v38, main_v39, main_v40, main_v41, main_v42, main_v43, main_v44, main_v45, main_v46, main_c_3, main_v47, main_v48, main_c_4, main_v49, main_v50, main_v51, main_v52, main_v53, main_v54]
theorem wr3 {y : Ref sig .tc} (h : y ∈ written3) : ({Proc.devRef .tc y} : Finset (DevRef τ sig)) ⊆ (written3.map (Proc.devRef (τ := τ) .tc)).toFinset :=
  Finset.singleton_subset_iff.mpr (List.mem_toFinset.mpr (List.mem_map_of_mem h))
theorem writes3 : (hostOps3 : List (HloOp τ sig (Elt Ideal))).Forall fun op => op.writes ⊆ (written3.map (Proc.devRef (τ := τ) .tc)).toFinset :=
  ⟨wr3 (List.getElem_mem (l := written3) (n := 0) (by decide)), wr3 (List.getElem_mem (l := written3) (n := 1) (by decide)), wr3 (List.getElem_mem (l := written3) (n := 2) (by decide)), wr3 (List.getElem_mem (l := written3) (n := 3) (by decide)), wr3 (List.getElem_mem (l := written3) (n := 4) (by decide)), wr3 (List.getElem_mem (l := written3) (n := 5) (by decide)), wr3 (List.getElem_mem (l := written3) (n := 6) (by decide)), wr3 (List.getElem_mem (l := written3) (n := 7) (by decide)), wr3 (List.getElem_mem (l := written3) (n := 8) (by decide)), wr3 (List.getElem_mem (l := written3) (n := 9) (by decide)), wr3 (List.getElem_mem (l := written3) (n := 10) (by decide)), wr3 (List.getElem_mem (l := written3) (n := 11) (by decide)), wr3 (List.getElem_mem (l := written3) (n := 12) (by decide)), wr3 (List.getElem_mem (l := written3) (n := 13) (by decide)), wr3 (List.getElem_mem (l := written3) (n := 14) (by decide)), wr3 (List.getElem_mem (l := written3) (n := 15) (by decide)), wr3 (List.getElem_mem (l := written3) (n := 16) (by decide)), wr3 (List.getElem_mem (l := written3) (n := 17) (by decide)), wr3 (List.getElem_mem (l := written3) (n := 18) (by decide)), wr3 (List.getElem_mem (l := written3) (n := 19) (by decide)), wr3 (List.getElem_mem (l := written3) (n := 20) (by decide)), wr3 (List.getElem_mem (l := written3) (n := 21) (by decide)), wr3 (List.getElem_mem (l := written3) (n := 22) (by decide)), wr3 (List.getElem_mem (l := written3) (n := 23) (by decide)), wr3 (List.getElem_mem (l := written3) (n := 24) (by decide)), wr3 (List.getElem_mem (l := written3) (n := 25) (by decide)), wr3 (List.getElem_mem (l := written3) (n := 26) (by decide)), wr3 (List.getElem_mem (l := written3) (n := 27) (by decide))⟩
/-- A buffer that host stretch 3 does not write keeps its contents through it. -/
theorem keep3 (V : Valuation τ sig (Elt Ideal)) (r : Ref sig .tc) (hr : r ∉ written3) : after hostOps3 V (Proc.devRef .tc r) = V (Proc.devRef .tc r) :=
  after_of_writes_sub hostOps3 V writes3 hr

abbrev written4 : List (Ref sig .tc) := [main_cst_5, main_v56, main_v57, main_v58, main_v59, main_v60, main_v61]
theorem wr4 {y : Ref sig .tc} (h : y ∈ written4) : ({Proc.devRef .tc y} : Finset (DevRef τ sig)) ⊆ (written4.map (Proc.devRef (τ := τ) .tc)).toFinset :=
  Finset.singleton_subset_iff.mpr (List.mem_toFinset.mpr (List.mem_map_of_mem h))
theorem writes4 : (hostOps4 : List (HloOp τ sig (Elt Ideal))).Forall fun op => op.writes ⊆ (written4.map (Proc.devRef (τ := τ) .tc)).toFinset :=
  ⟨wr4 (List.getElem_mem (l := written4) (n := 0) (by decide)), wr4 (List.getElem_mem (l := written4) (n := 1) (by decide)), wr4 (List.getElem_mem (l := written4) (n := 2) (by decide)), wr4 (List.getElem_mem (l := written4) (n := 3) (by decide)), wr4 (List.getElem_mem (l := written4) (n := 4) (by decide)), wr4 (List.getElem_mem (l := written4) (n := 5) (by decide)), wr4 (List.getElem_mem (l := written4) (n := 6) (by decide))⟩
/-- A buffer that host stretch 4 does not write keeps its contents through it. -/
theorem keep4 (V : Valuation τ sig (Elt Ideal)) (r : Ref sig .tc) (hr : r ∉ written4) : after hostOps4 V (Proc.devRef .tc r) = V (Proc.devRef .tc r) :=
  after_of_writes_sub hostOps4 V writes4 hr

abbrev written5 : List (Ref sig .tc) := [main_cst_6, main_v63, main_v64, main_cst_7, main_v65, main_v66, main_v67, main_v68, main_v69, main_v70]
theorem wr5 {y : Ref sig .tc} (h : y ∈ written5) : ({Proc.devRef .tc y} : Finset (DevRef τ sig)) ⊆ (written5.map (Proc.devRef (τ := τ) .tc)).toFinset :=
  Finset.singleton_subset_iff.mpr (List.mem_toFinset.mpr (List.mem_map_of_mem h))
theorem writes5 : (hostOps5 : List (HloOp τ sig (Elt Ideal))).Forall fun op => op.writes ⊆ (written5.map (Proc.devRef (τ := τ) .tc)).toFinset :=
  ⟨wr5 (List.getElem_mem (l := written5) (n := 0) (by decide)), wr5 (List.getElem_mem (l := written5) (n := 1) (by decide)), wr5 (List.getElem_mem (l := written5) (n := 2) (by decide)), wr5 (List.getElem_mem (l := written5) (n := 3) (by decide)), wr5 (List.getElem_mem (l := written5) (n := 4) (by decide)), wr5 (List.getElem_mem (l := written5) (n := 5) (by decide)), wr5 (List.getElem_mem (l := written5) (n := 6) (by decide)), wr5 (List.getElem_mem (l := written5) (n := 7) (by decide)), wr5 (List.getElem_mem (l := written5) (n := 8) (by decide)), wr5 (List.getElem_mem (l := written5) (n := 9) (by decide))⟩
/-- A buffer that host stretch 5 does not write keeps its contents through it. -/
theorem keep5 (V : Valuation τ sig (Elt Ideal)) (r : Ref sig .tc) (hr : r ∉ written5) : after hostOps5 V (Proc.devRef .tc r) = V (Proc.devRef .tc r) :=
  after_of_writes_sub hostOps5 V writes5 hr

abbrev written6 : List (Ref sig .tc) := [main_v72, main_v73, main_v74, main_v75, main_v76, main_v77, main_v78, main_v79, main_v80, main_v81, main_v82, main_v83, main_v84, main_v85, main_v86, main_v87, main_v88, main_v89, main_c_8, main_v90, main_v91, main_c_9, main_v92, main_v93, main_v94, main_v95, main_v96, main_v97]
theorem wr6 {y : Ref sig .tc} (h : y ∈ written6) : ({Proc.devRef .tc y} : Finset (DevRef τ sig)) ⊆ (written6.map (Proc.devRef (τ := τ) .tc)).toFinset :=
  Finset.singleton_subset_iff.mpr (List.mem_toFinset.mpr (List.mem_map_of_mem h))
theorem writes6 : (hostOps6 : List (HloOp τ sig (Elt Ideal))).Forall fun op => op.writes ⊆ (written6.map (Proc.devRef (τ := τ) .tc)).toFinset :=
  ⟨wr6 (List.getElem_mem (l := written6) (n := 0) (by decide)), wr6 (List.getElem_mem (l := written6) (n := 1) (by decide)), wr6 (List.getElem_mem (l := written6) (n := 2) (by decide)), wr6 (List.getElem_mem (l := written6) (n := 3) (by decide)), wr6 (List.getElem_mem (l := written6) (n := 4) (by decide)), wr6 (List.getElem_mem (l := written6) (n := 5) (by decide)), wr6 (List.getElem_mem (l := written6) (n := 6) (by decide)), wr6 (List.getElem_mem (l := written6) (n := 7) (by decide)), wr6 (List.getElem_mem (l := written6) (n := 8) (by decide)), wr6 (List.getElem_mem (l := written6) (n := 9) (by decide)), wr6 (List.getElem_mem (l := written6) (n := 10) (by decide)), wr6 (List.getElem_mem (l := written6) (n := 11) (by decide)), wr6 (List.getElem_mem (l := written6) (n := 12) (by decide)), wr6 (List.getElem_mem (l := written6) (n := 13) (by decide)), wr6 (List.getElem_mem (l := written6) (n := 14) (by decide)), wr6 (List.getElem_mem (l := written6) (n := 15) (by decide)), wr6 (List.getElem_mem (l := written6) (n := 16) (by decide)), wr6 (List.getElem_mem (l := written6) (n := 17) (by decide)), wr6 (List.getElem_mem (l := written6) (n := 18) (by decide)), wr6 (List.getElem_mem (l := written6) (n := 19) (by decide)), wr6 (List.getElem_mem (l := written6) (n := 20) (by decide)), wr6 (List.getElem_mem (l := written6) (n := 21) (by decide)), wr6 (List.getElem_mem (l := written6) (n := 22) (by decide)), wr6 (List.getElem_mem (l := written6) (n := 23) (by decide)), wr6 (List.getElem_mem (l := written6) (n := 24) (by decide)), wr6 (List.getElem_mem (l := written6) (n := 25) (by decide)), wr6 (List.getElem_mem (l := written6) (n := 26) (by decide)), wr6 (List.getElem_mem (l := written6) (n := 27) (by decide))⟩
/-- A buffer that host stretch 6 does not write keeps its contents through it. -/
theorem keep6 (V : Valuation τ sig (Elt Ideal)) (r : Ref sig .tc) (hr : r ∉ written6) : after hostOps6 V (Proc.devRef .tc r) = V (Proc.devRef .tc r) :=
  after_of_writes_sub hostOps6 V writes6 hr

abbrev written7 : List (Ref sig .tc) := [main_cst_10, main_v99, main_v100, main_v101, main_v102, main_v103, main_v104]
theorem wr7 {y : Ref sig .tc} (h : y ∈ written7) : ({Proc.devRef .tc y} : Finset (DevRef τ sig)) ⊆ (written7.map (Proc.devRef (τ := τ) .tc)).toFinset :=
  Finset.singleton_subset_iff.mpr (List.mem_toFinset.mpr (List.mem_map_of_mem h))
theorem writes7 : (hostOps7 : List (HloOp τ sig (Elt Ideal))).Forall fun op => op.writes ⊆ (written7.map (Proc.devRef (τ := τ) .tc)).toFinset :=
  ⟨wr7 (List.getElem_mem (l := written7) (n := 0) (by decide)), wr7 (List.getElem_mem (l := written7) (n := 1) (by decide)), wr7 (List.getElem_mem (l := written7) (n := 2) (by decide)), wr7 (List.getElem_mem (l := written7) (n := 3) (by decide)), wr7 (List.getElem_mem (l := written7) (n := 4) (by decide)), wr7 (List.getElem_mem (l := written7) (n := 5) (by decide)), wr7 (List.getElem_mem (l := written7) (n := 6) (by decide))⟩
/-- A buffer that host stretch 7 does not write keeps its contents through it. -/
theorem keep7 (V : Valuation τ sig (Elt Ideal)) (r : Ref sig .tc) (hr : r ∉ written7) : after hostOps7 V (Proc.devRef .tc r) = V (Proc.devRef .tc r) :=
  after_of_writes_sub hostOps7 V writes7 hr

abbrev written8 : List (Ref sig .tc) := [main_cst_11, main_v106, main_v107, main_cst_12, main_v108, main_v109, main_v110, main_v111, main_v112, main_v113]
theorem wr8 {y : Ref sig .tc} (h : y ∈ written8) : ({Proc.devRef .tc y} : Finset (DevRef τ sig)) ⊆ (written8.map (Proc.devRef (τ := τ) .tc)).toFinset :=
  Finset.singleton_subset_iff.mpr (List.mem_toFinset.mpr (List.mem_map_of_mem h))
theorem writes8 : (hostOps8 : List (HloOp τ sig (Elt Ideal))).Forall fun op => op.writes ⊆ (written8.map (Proc.devRef (τ := τ) .tc)).toFinset :=
  ⟨wr8 (List.getElem_mem (l := written8) (n := 0) (by decide)), wr8 (List.getElem_mem (l := written8) (n := 1) (by decide)), wr8 (List.getElem_mem (l := written8) (n := 2) (by decide)), wr8 (List.getElem_mem (l := written8) (n := 3) (by decide)), wr8 (List.getElem_mem (l := written8) (n := 4) (by decide)), wr8 (List.getElem_mem (l := written8) (n := 5) (by decide)), wr8 (List.getElem_mem (l := written8) (n := 6) (by decide)), wr8 (List.getElem_mem (l := written8) (n := 7) (by decide)), wr8 (List.getElem_mem (l := written8) (n := 8) (by decide)), wr8 (List.getElem_mem (l := written8) (n := 9) (by decide))⟩
/-- A buffer that host stretch 8 does not write keeps its contents through it. -/
theorem keep8 (V : Valuation τ sig (Elt Ideal)) (r : Ref sig .tc) (hr : r ∉ written8) : after hostOps8 V (Proc.devRef .tc r) = V (Proc.devRef .tc r) :=
  after_of_writes_sub hostOps8 V writes8 hr

abbrev written9 : List (Ref sig .tc) := [main_v115, main_v116, main_v117, main_v118, main_v119, main_v120, main_v121, main_v122, main_v123, main_v124, main_v125, main_v126, main_v127, main_v128, main_v129, main_v130, main_v131, main_v132, main_c_13, main_v133, main_v134, main_c_14, main_v135, main_v136, main_v137, main_v138, main_v139, main_v140]
theorem wr9 {y : Ref sig .tc} (h : y ∈ written9) : ({Proc.devRef .tc y} : Finset (DevRef τ sig)) ⊆ (written9.map (Proc.devRef (τ := τ) .tc)).toFinset :=
  Finset.singleton_subset_iff.mpr (List.mem_toFinset.mpr (List.mem_map_of_mem h))
theorem writes9 : (hostOps9 : List (HloOp τ sig (Elt Ideal))).Forall fun op => op.writes ⊆ (written9.map (Proc.devRef (τ := τ) .tc)).toFinset :=
  ⟨wr9 (List.getElem_mem (l := written9) (n := 0) (by decide)), wr9 (List.getElem_mem (l := written9) (n := 1) (by decide)), wr9 (List.getElem_mem (l := written9) (n := 2) (by decide)), wr9 (List.getElem_mem (l := written9) (n := 3) (by decide)), wr9 (List.getElem_mem (l := written9) (n := 4) (by decide)), wr9 (List.getElem_mem (l := written9) (n := 5) (by decide)), wr9 (List.getElem_mem (l := written9) (n := 6) (by decide)), wr9 (List.getElem_mem (l := written9) (n := 7) (by decide)), wr9 (List.getElem_mem (l := written9) (n := 8) (by decide)), wr9 (List.getElem_mem (l := written9) (n := 9) (by decide)), wr9 (List.getElem_mem (l := written9) (n := 10) (by decide)), wr9 (List.getElem_mem (l := written9) (n := 11) (by decide)), wr9 (List.getElem_mem (l := written9) (n := 12) (by decide)), wr9 (List.getElem_mem (l := written9) (n := 13) (by decide)), wr9 (List.getElem_mem (l := written9) (n := 14) (by decide)), wr9 (List.getElem_mem (l := written9) (n := 15) (by decide)), wr9 (List.getElem_mem (l := written9) (n := 16) (by decide)), wr9 (List.getElem_mem (l := written9) (n := 17) (by decide)), wr9 (List.getElem_mem (l := written9) (n := 18) (by decide)), wr9 (List.getElem_mem (l := written9) (n := 19) (by decide)), wr9 (List.getElem_mem (l := written9) (n := 20) (by decide)), wr9 (List.getElem_mem (l := written9) (n := 21) (by decide)), wr9 (List.getElem_mem (l := written9) (n := 22) (by decide)), wr9 (List.getElem_mem (l := written9) (n := 23) (by decide)), wr9 (List.getElem_mem (l := written9) (n := 24) (by decide)), wr9 (List.getElem_mem (l := written9) (n := 25) (by decide)), wr9 (List.getElem_mem (l := written9) (n := 26) (by decide)), wr9 (List.getElem_mem (l := written9) (n := 27) (by decide))⟩
/-- A buffer that host stretch 9 does not write keeps its contents through it. -/
theorem keep9 (V : Valuation τ sig (Elt Ideal)) (r : Ref sig .tc) (hr : r ∉ written9) : after hostOps9 V (Proc.devRef .tc r) = V (Proc.devRef .tc r) :=
  after_of_writes_sub hostOps9 V writes9 hr

abbrev written10 : List (Ref sig .tc) := [main_cst_15, main_v142, main_v143, main_v144, main_v145, main_v146, main_v147]
theorem wr10 {y : Ref sig .tc} (h : y ∈ written10) : ({Proc.devRef .tc y} : Finset (DevRef τ sig)) ⊆ (written10.map (Proc.devRef (τ := τ) .tc)).toFinset :=
  Finset.singleton_subset_iff.mpr (List.mem_toFinset.mpr (List.mem_map_of_mem h))
theorem writes10 : (hostOps10 : List (HloOp τ sig (Elt Ideal))).Forall fun op => op.writes ⊆ (written10.map (Proc.devRef (τ := τ) .tc)).toFinset :=
  ⟨wr10 (List.getElem_mem (l := written10) (n := 0) (by decide)), wr10 (List.getElem_mem (l := written10) (n := 1) (by decide)), wr10 (List.getElem_mem (l := written10) (n := 2) (by decide)), wr10 (List.getElem_mem (l := written10) (n := 3) (by decide)), wr10 (List.getElem_mem (l := written10) (n := 4) (by decide)), wr10 (List.getElem_mem (l := written10) (n := 5) (by decide)), wr10 (List.getElem_mem (l := written10) (n := 6) (by decide))⟩
/-- A buffer that host stretch 10 does not write keeps its contents through it. -/
theorem keep10 (V : Valuation τ sig (Elt Ideal)) (r : Ref sig .tc) (hr : r ∉ written10) : after hostOps10 V (Proc.devRef .tc r) = V (Proc.devRef .tc r) :=
  after_of_writes_sub hostOps10 V writes10 hr

abbrev written11 : List (Ref sig .tc) := [main_cst_16, main_v149, main_v150, main_cst_17, main_v151, main_v152, main_v153, main_v154, main_v155, main_v156]
theorem wr11 {y : Ref sig .tc} (h : y ∈ written11) : ({Proc.devRef .tc y} : Finset (DevRef τ sig)) ⊆ (written11.map (Proc.devRef (τ := τ) .tc)).toFinset :=
  Finset.singleton_subset_iff.mpr (List.mem_toFinset.mpr (List.mem_map_of_mem h))
theorem writes11 : (hostOps11 : List (HloOp τ sig (Elt Ideal))).Forall fun op => op.writes ⊆ (written11.map (Proc.devRef (τ := τ) .tc)).toFinset :=
  ⟨wr11 (List.getElem_mem (l := written11) (n := 0) (by decide)), wr11 (List.getElem_mem (l := written11) (n := 1) (by decide)), wr11 (List.getElem_mem (l := written11) (n := 2) (by decide)), wr11 (List.getElem_mem (l := written11) (n := 3) (by decide)), wr11 (List.getElem_mem (l := written11) (n := 4) (by decide)), wr11 (List.getElem_mem (l := written11) (n := 5) (by decide)), wr11 (List.getElem_mem (l := written11) (n := 6) (by decide)), wr11 (List.getElem_mem (l := written11) (n := 7) (by decide)), wr11 (List.getElem_mem (l := written11) (n := 8) (by decide)), wr11 (List.getElem_mem (l := written11) (n := 9) (by decide))⟩
/-- A buffer that host stretch 11 does not write keeps its contents through it. -/
theorem keep11 (V : Valuation τ sig (Elt Ideal)) (r : Ref sig .tc) (hr : r ∉ written11) : after hostOps11 V (Proc.devRef .tc r) = V (Proc.devRef .tc r) :=
  after_of_writes_sub hostOps11 V writes11 hr

abbrev written12 : List (Ref sig .tc) := [main_v158, main_v159, main_v160, main_v161, main_v162, main_v163, main_v164, main_v165, main_v166, main_v167, main_v168, main_v169, main_v170, main_v171, main_v172, main_v173, main_v174, main_v175, main_c_18, main_v176, main_v177, main_c_19, main_v178, main_v179, main_v180, main_v181, main_v182, main_v183]
theorem wr12 {y : Ref sig .tc} (h : y ∈ written12) : ({Proc.devRef .tc y} : Finset (DevRef τ sig)) ⊆ (written12.map (Proc.devRef (τ := τ) .tc)).toFinset :=
  Finset.singleton_subset_iff.mpr (List.mem_toFinset.mpr (List.mem_map_of_mem h))
theorem writes12 : (hostOps12 : List (HloOp τ sig (Elt Ideal))).Forall fun op => op.writes ⊆ (written12.map (Proc.devRef (τ := τ) .tc)).toFinset :=
  ⟨wr12 (List.getElem_mem (l := written12) (n := 0) (by decide)), wr12 (List.getElem_mem (l := written12) (n := 1) (by decide)), wr12 (List.getElem_mem (l := written12) (n := 2) (by decide)), wr12 (List.getElem_mem (l := written12) (n := 3) (by decide)), wr12 (List.getElem_mem (l := written12) (n := 4) (by decide)), wr12 (List.getElem_mem (l := written12) (n := 5) (by decide)), wr12 (List.getElem_mem (l := written12) (n := 6) (by decide)), wr12 (List.getElem_mem (l := written12) (n := 7) (by decide)), wr12 (List.getElem_mem (l := written12) (n := 8) (by decide)), wr12 (List.getElem_mem (l := written12) (n := 9) (by decide)), wr12 (List.getElem_mem (l := written12) (n := 10) (by decide)), wr12 (List.getElem_mem (l := written12) (n := 11) (by decide)), wr12 (List.getElem_mem (l := written12) (n := 12) (by decide)), wr12 (List.getElem_mem (l := written12) (n := 13) (by decide)), wr12 (List.getElem_mem (l := written12) (n := 14) (by decide)), wr12 (List.getElem_mem (l := written12) (n := 15) (by decide)), wr12 (List.getElem_mem (l := written12) (n := 16) (by decide)), wr12 (List.getElem_mem (l := written12) (n := 17) (by decide)), wr12 (List.getElem_mem (l := written12) (n := 18) (by decide)), wr12 (List.getElem_mem (l := written12) (n := 19) (by decide)), wr12 (List.getElem_mem (l := written12) (n := 20) (by decide)), wr12 (List.getElem_mem (l := written12) (n := 21) (by decide)), wr12 (List.getElem_mem (l := written12) (n := 22) (by decide)), wr12 (List.getElem_mem (l := written12) (n := 23) (by decide)), wr12 (List.getElem_mem (l := written12) (n := 24) (by decide)), wr12 (List.getElem_mem (l := written12) (n := 25) (by decide)), wr12 (List.getElem_mem (l := written12) (n := 26) (by decide)), wr12 (List.getElem_mem (l := written12) (n := 27) (by decide))⟩
/-- A buffer that host stretch 12 does not write keeps its contents through it. -/
theorem keep12 (V : Valuation τ sig (Elt Ideal)) (r : Ref sig .tc) (hr : r ∉ written12) : after hostOps12 V (Proc.devRef .tc r) = V (Proc.devRef .tc r) :=
  after_of_writes_sub hostOps12 V writes12 hr

abbrev written13 : List (Ref sig .tc) := [main_cst_20, main_v185, main_v186, main_v187, main_v188, main_v189, main_v190]
theorem wr13 {y : Ref sig .tc} (h : y ∈ written13) : ({Proc.devRef .tc y} : Finset (DevRef τ sig)) ⊆ (written13.map (Proc.devRef (τ := τ) .tc)).toFinset :=
  Finset.singleton_subset_iff.mpr (List.mem_toFinset.mpr (List.mem_map_of_mem h))
theorem writes13 : (hostOps13 : List (HloOp τ sig (Elt Ideal))).Forall fun op => op.writes ⊆ (written13.map (Proc.devRef (τ := τ) .tc)).toFinset :=
  ⟨wr13 (List.getElem_mem (l := written13) (n := 0) (by decide)), wr13 (List.getElem_mem (l := written13) (n := 1) (by decide)), wr13 (List.getElem_mem (l := written13) (n := 2) (by decide)), wr13 (List.getElem_mem (l := written13) (n := 3) (by decide)), wr13 (List.getElem_mem (l := written13) (n := 4) (by decide)), wr13 (List.getElem_mem (l := written13) (n := 5) (by decide)), wr13 (List.getElem_mem (l := written13) (n := 6) (by decide))⟩
/-- A buffer that host stretch 13 does not write keeps its contents through it. -/
theorem keep13 (V : Valuation τ sig (Elt Ideal)) (r : Ref sig .tc) (hr : r ∉ written13) : after hostOps13 V (Proc.devRef .tc r) = V (Proc.devRef .tc r) :=
  after_of_writes_sub hostOps13 V writes13 hr

abbrev written14 : List (Ref sig .tc) := [main_cst_21, main_v192, main_v193, main_cst_22, main_v194, main_v195, main_v196, main_v197, main_v198, main_v199]
theorem wr14 {y : Ref sig .tc} (h : y ∈ written14) : ({Proc.devRef .tc y} : Finset (DevRef τ sig)) ⊆ (written14.map (Proc.devRef (τ := τ) .tc)).toFinset :=
  Finset.singleton_subset_iff.mpr (List.mem_toFinset.mpr (List.mem_map_of_mem h))
theorem writes14 : (hostOps14 : List (HloOp τ sig (Elt Ideal))).Forall fun op => op.writes ⊆ (written14.map (Proc.devRef (τ := τ) .tc)).toFinset :=
  ⟨wr14 (List.getElem_mem (l := written14) (n := 0) (by decide)), wr14 (List.getElem_mem (l := written14) (n := 1) (by decide)), wr14 (List.getElem_mem (l := written14) (n := 2) (by decide)), wr14 (List.getElem_mem (l := written14) (n := 3) (by decide)), wr14 (List.getElem_mem (l := written14) (n := 4) (by decide)), wr14 (List.getElem_mem (l := written14) (n := 5) (by decide)), wr14 (List.getElem_mem (l := written14) (n := 6) (by decide)), wr14 (List.getElem_mem (l := written14) (n := 7) (by decide)), wr14 (List.getElem_mem (l := written14) (n := 8) (by decide)), wr14 (List.getElem_mem (l := written14) (n := 9) (by decide))⟩
/-- A buffer that host stretch 14 does not write keeps its contents through it. -/
theorem keep14 (V : Valuation τ sig (Elt Ideal)) (r : Ref sig .tc) (hr : r ∉ written14) : after hostOps14 V (Proc.devRef .tc r) = V (Proc.devRef .tc r) :=
  after_of_writes_sub hostOps14 V writes14 hr

abbrev written15 : List (Ref sig .tc) := [main_cst_23, main_v201, main_v202, main_v203, main_cst_24, main_v204, main_cst_25, main_v205, main_v206, main_v207, main_cst_26, main_v208, main_v209, main_v210, main_v211, main_v212, main_v213, main_v214, main_v215]
theorem wr15 {y : Ref sig .tc} (h : y ∈ written15) : ({Proc.devRef .tc y} : Finset (DevRef τ sig)) ⊆ (written15.map (Proc.devRef (τ := τ) .tc)).toFinset :=
  Finset.singleton_subset_iff.mpr (List.mem_toFinset.mpr (List.mem_map_of_mem h))
theorem writes15 : (hostOps15 : List (HloOp τ sig (Elt Ideal))).Forall fun op => op.writes ⊆ (written15.map (Proc.devRef (τ := τ) .tc)).toFinset :=
  ⟨wr15 (List.getElem_mem (l := written15) (n := 0) (by decide)), wr15 (List.getElem_mem (l := written15) (n := 1) (by decide)), wr15 (List.getElem_mem (l := written15) (n := 2) (by decide)), wr15 (List.getElem_mem (l := written15) (n := 3) (by decide)), wr15 (List.getElem_mem (l := written15) (n := 4) (by decide)), wr15 (List.getElem_mem (l := written15) (n := 5) (by decide)), wr15 (List.getElem_mem (l := written15) (n := 6) (by decide)), wr15 (List.getElem_mem (l := written15) (n := 7) (by decide)), wr15 (List.getElem_mem (l := written15) (n := 8) (by decide)), wr15 (List.getElem_mem (l := written15) (n := 9) (by decide)), wr15 (List.getElem_mem (l := written15) (n := 10) (by decide)), wr15 (List.getElem_mem (l := written15) (n := 11) (by decide)), wr15 (List.getElem_mem (l := written15) (n := 12) (by decide)), wr15 (List.getElem_mem (l := written15) (n := 13) (by decide)), wr15 (List.getElem_mem (l := written15) (n := 14) (by decide)), wr15 (List.getElem_mem (l := written15) (n := 15) (by decide)), wr15 (List.getElem_mem (l := written15) (n := 16) (by decide)), wr15 (List.getElem_mem (l := written15) (n := 17) (by decide)), wr15 (List.getElem_mem (l := written15) (n := 18) (by decide))⟩
/-- A buffer that host stretch 15 does not write keeps its contents through it. -/
theorem keep15 (V : Valuation τ sig (Elt Ideal)) (r : Ref sig .tc) (hr : r ∉ written15) : after hostOps15 V (Proc.devRef .tc r) = V (Proc.devRef .tc r) :=
  after_of_writes_sub hostOps15 V writes15 hr

/-- The value of main_v1 as a function of the launch arguments. -/
def G_v1 (a26 : IVec S2x600000 32) : IVec S600000 32 :=
  ((shapeCast _ (((((extractStridedSlice S1x600000 ![0, 0] · slices_S2x600000_S1x600000_0_0))) : (IVec S2x600000 32) → (IVec S1x600000 32)) a26) shapeCasts_S1x600000_S600000) : IVec S600000 32)

/-- The value of main_v3 as a function of the launch arguments. -/
def G_v3 (a26 : IVec S2x600000 32) : IVec S600000 32 :=
  ((shapeCast _ (((((extractStridedSlice S1x600000 ![1, 0] · slices_S2x600000_S1x600000_1_0))) : (IVec S2x600000 32) → (IVec S1x600000 32)) a26) shapeCasts_S1x600000_S600000) : IVec S600000 32)

/-- The value of main_v10 as a function of the launch arguments. -/
def G_v10 (a0 : FVec Ideal S100000x11 .f32) (a26 : IVec S2x600000 32) : FVec Ideal S600000x11 .f32 :=
  (((((fun x i => Host.gather gather_S100000x11_S600000x1_S600000x11_1_0_n_n_0_1_111 x i))) : (FVec Ideal S100000x11 .f32) → (IVec S600000x1 32) → (FVec Ideal S600000x11 .f32)) a0 ((((broadcastInDim S600000x1 ![0] bcast_S600000_S600000x1_0)) : (IVec S600000 32) → (IVec S600000x1 32)) ((((select)) : (IVec S600000 1) → (IVec S600000 32) → (IVec S600000 32) → (IVec S600000 32)) ((((cmpi .slt)) : (IVec S600000 32) → (IVec S600000 32) → (IVec S600000 1)) (G_v1 a26) ((((broadcastInDim S600000 ![] bcast_S_S600000)) : (IVec S_ 32) → (IVec S600000 32)) (((constantI S_ 32 0#32)) : IVec S_ 32))) ((((addi)) : (IVec S600000 32) → (IVec S600000 32) → (IVec S600000 32)) (G_v1 a26) ((((broadcastInDim S600000 ![] bcast_S_S600000)) : (IVec S_ 32) → (IVec S600000 32)) (((constantI S_ 32 100000#32)) : IVec S_ 32))) (G_v1 a26))))

/-- The value of main_v11 as a function of the launch arguments. -/
def G_v11 (a3 : FVec Ideal S11 .f32) : FVec Ideal S1x11 .f32 :=
  ((shapeCast _ a3 shapeCasts_S11_S1x11) : FVec Ideal S1x11 .f32)

/-- The value of main_v12 as a function of the launch arguments. -/
def G_v12 (a0 : FVec Ideal S100000x11 .f32) (a1 : FVec Ideal S600000x3 .f32) (a2 : FVec Ideal S3x11 .f32) (a3 : FVec Ideal S11 .f32) (a26 : IVec S2x600000 32) : FVec Ideal S600000x11 .f32 :=
  Cert.KernelIdeal.Reg0.out4 (G_v10 a0 a26) a1 a2 (G_v11 a3)

/-- The value of main_v15 as a function of the launch arguments. -/
def G_v15 (a0 : FVec Ideal S100000x11 .f32) (a1 : FVec Ideal S600000x3 .f32) (a2 : FVec Ideal S3x11 .f32) (a3 : FVec Ideal S11 .f32) (a26 : IVec S2x600000 32) : FVec Ideal S100000x11 .f32 :=
  (((((fun x i u => Host.scatterAdd scatter_S100000x11_S600000x1_S600000x11_1_0_0_1 x i u))) : (FVec Ideal S100000x11 .f32) → (IVec S600000x1 32) → (FVec Ideal S600000x11 .f32) → (FVec Ideal S100000x11 .f32)) ((((broadcastInDim S100000x11 ![] bcast_S_S100000x11)) : (FVec Ideal S_ .f32) → (FVec Ideal S100000x11 .f32)) (((constant S_ .f32 0x00000000#32)) : FVec Ideal S_ .f32)) ((((broadcastInDim S600000x1 ![0] bcast_S600000_S600000x1_0)) : (IVec S600000 32) → (IVec S600000x1 32)) (G_v3 a26)) (G_v12 a0 a1 a2 a3 a26))

/-- The value of main_v16 as a function of the launch arguments. -/
def G_v16 (a10 : FVec Ideal S_ .f32) : FVec Ideal S1x1 .f32 :=
  ((shapeCast _ a10 shapeCasts_S_S1x1) : FVec Ideal S1x1 .f32)

/-- The value of main_v17 as a function of the launch arguments. -/
def G_v17 (a5 : FVec Ideal S128 .f32) : FVec Ideal S1x128 .f32 :=
  ((shapeCast _ a5 shapeCasts_S128_S1x128) : FVec Ideal S1x128 .f32)

/-- The value of main_v18 as a function of the launch arguments. -/
def G_v18 (a7 : FVec Ideal S128 .f32) : FVec Ideal S1x128 .f32 :=
  ((shapeCast _ a7 shapeCasts_S128_S1x128) : FVec Ideal S1x128 .f32)

/-- The value of main_v19_0 as a function of the launch arguments. -/
def G_v19_0 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a10 : FVec Ideal S_ .f32) (a26 : IVec S2x600000 32) : FVec Ideal S100000x128 .f32 :=
  Cert.KernelIdeal.Reg1.out7 a0 (G_v15 a0 a1 a2 a3 a26) (G_v16 a10) a4 (G_v17 a5) a6 (G_v18 a7)

/-- The value of main_v19_1 as a function of the launch arguments. -/
def G_v19_1 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a10 : FVec Ideal S_ .f32) (a26 : IVec S2x600000 32) : FVec Ideal S1x128 .f32 :=
  Cert.KernelIdeal.Reg1.out8 a0 (G_v15 a0 a1 a2 a3 a26) (G_v16 a10) a4 (G_v17 a5) a6 (G_v18 a7)

/-- The value of main_v19_2 as a function of the launch arguments. -/
def G_v19_2 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a10 : FVec Ideal S_ .f32) (a26 : IVec S2x600000 32) : FVec Ideal S1x128 .f32 :=
  Cert.KernelIdeal.Reg1.out9 a0 (G_v15 a0 a1 a2 a3 a26) (G_v16 a10) a4 (G_v17 a5) a6 (G_v18 a7)

/-- The value of main_v21 as a function of the launch arguments. -/
def G_v21 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a10 : FVec Ideal S_ .f32) (a26 : IVec S2x600000 32) : FVec Ideal S1x128 .f32 :=
  ((((Host.divf)) : (FVec Ideal S1x128 .f32) → (FVec Ideal S1x128 .f32) → (FVec Ideal S1x128 .f32)) (G_v19_1 a0 a1 a2 a3 a4 a5 a6 a7 a10 a26) ((((broadcastInDim S1x128 ![] bcast_S_S1x128)) : (FVec Ideal S_ .f32) → (FVec Ideal S1x128 .f32)) (((constant S_ .f32 0x47C35000#32)) : FVec Ideal S_ .f32)))

/-- The value of main_v25 as a function of the launch arguments. -/
def G_v25 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a10 : FVec Ideal S_ .f32) (a26 : IVec S2x600000 32) : FVec Ideal S1x128 .f32 :=
  ((((subf)) : (FVec Ideal S1x128 .f32) → (FVec Ideal S1x128 .f32) → (FVec Ideal S1x128 .f32)) ((((Host.divf)) : (FVec Ideal S1x128 .f32) → (FVec Ideal S1x128 .f32) → (FVec Ideal S1x128 .f32)) (G_v19_2 a0 a1 a2 a3 a4 a5 a6 a7 a10 a26) ((((broadcastInDim S1x128 ![] bcast_S_S1x128)) : (FVec Ideal S_ .f32) → (FVec Ideal S1x128 .f32)) (((constant S_ .f32 0x47C35000#32)) : FVec Ideal S_ .f32))) ((((mulf)) : (FVec Ideal S1x128 .f32) → (FVec Ideal S1x128 .f32) → (FVec Ideal S1x128 .f32)) (G_v21 a0 a1 a2 a3 a4 a5 a6 a7 a10 a26) (G_v21 a0 a1 a2 a3 a4 a5 a6 a7 a10 a26)))

/-- The value of main_v26 as a function of the launch arguments. -/
def G_v26 (a8 : FVec Ideal S128 .f32) : FVec Ideal S1x128 .f32 :=
  ((shapeCast _ a8 shapeCasts_S128_S1x128) : FVec Ideal S1x128 .f32)

/-- The value of main_v27 as a function of the launch arguments. -/
def G_v27 (a9 : FVec Ideal S128 .f32) : FVec Ideal S1x128 .f32 :=
  ((shapeCast _ a9 shapeCasts_S128_S1x128) : FVec Ideal S1x128 .f32)

/-- The value of main_v28 as a function of the launch arguments. -/
def G_v28 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a26 : IVec S2x600000 32) : FVec Ideal S100000x128 .f32 :=
  Cert.KernelIdeal.Reg2.out5 (G_v19_0 a0 a1 a2 a3 a4 a5 a6 a7 a10 a26) (G_v21 a0 a1 a2 a3 a4 a5 a6 a7 a10 a26) (G_v25 a0 a1 a2 a3 a4 a5 a6 a7 a10 a26) (G_v26 a8) (G_v27 a9)

/-- The value of main_v30 as a function of the launch arguments. -/
def G_v30 (a11 : FVec Ideal S4x3x128 .f32) : FVec Ideal S3x128 .f32 :=
  ((shapeCast _ (((((extractStridedSlice S1x3x128 ![0, 0, 0] · slices_S4x3x128_S1x3x128_0_0_0))) : (FVec Ideal S4x3x128 .f32) → (FVec Ideal S1x3x128 .f32)) a11) shapeCasts_S1x3x128_S3x128) : FVec Ideal S3x128 .f32)

/-- The value of main_v34 as a function of the launch arguments. -/
def G_v34 (a19 : FVec Ideal S4 .f32) : FVec Ideal S_ .f32 :=
  ((shapeCast _ (((((extractStridedSlice S1 ![0] · slices_S4_S1_0))) : (FVec Ideal S4 .f32) → (FVec Ideal S1 .f32)) a19) shapeCasts_S1_S_) : FVec Ideal S_ .f32)

/-- The value of main_v36 as a function of the launch arguments. -/
def G_v36 (a13 : FVec Ideal S4x128x128 .f32) : FVec Ideal S128x128 .f32 :=
  ((shapeCast _ (((((extractStridedSlice S1x128x128 ![0, 0, 0] · slices_S4x128x128_S1x128x128_0_0_0))) : (FVec Ideal S4x128x128 .f32) → (FVec Ideal S1x128x128 .f32)) a13) shapeCasts_S1x128x128_S128x128) : FVec Ideal S128x128 .f32)

/-- The value of main_v38 as a function of the launch arguments. -/
def G_v38 (a14 : FVec Ideal S4x128 .f32) : FVec Ideal S128 .f32 :=
  ((shapeCast _ (((((extractStridedSlice S1x128 ![0, 0] · slices_S4x128_S1x128_0_0))) : (FVec Ideal S4x128 .f32) → (FVec Ideal S1x128 .f32)) a14) shapeCasts_S1x128_S128) : FVec Ideal S128 .f32)

/-- The value of main_v40 as a function of the launch arguments. -/
def G_v40 (a15 : FVec Ideal S4x128x128 .f32) : FVec Ideal S128x128 .f32 :=
  ((shapeCast _ (((((extractStridedSlice S1x128x128 ![0, 0, 0] · slices_S4x128x128_S1x128x128_0_0_0))) : (FVec Ideal S4x128x128 .f32) → (FVec Ideal S1x128x128 .f32)) a15) shapeCasts_S1x128x128_S128x128) : FVec Ideal S128x128 .f32)

/-- The value of main_v42 as a function of the launch arguments. -/
def G_v42 (a16 : FVec Ideal S4x128 .f32) : FVec Ideal S128 .f32 :=
  ((shapeCast _ (((((extractStridedSlice S1x128 ![0, 0] · slices_S4x128_S1x128_0_0))) : (FVec Ideal S4x128 .f32) → (FVec Ideal S1x128 .f32)) a16) shapeCasts_S1x128_S128) : FVec Ideal S128 .f32)

/-- The value of main_v44 as a function of the launch arguments. -/
def G_v44 (a17 : FVec Ideal S4x128 .f32) : FVec Ideal S128 .f32 :=
  ((shapeCast _ (((((extractStridedSlice S1x128 ![0, 0] · slices_S4x128_S1x128_0_0))) : (FVec Ideal S4x128 .f32) → (FVec Ideal S1x128 .f32)) a17) shapeCasts_S1x128_S128) : FVec Ideal S128 .f32)

/-- The value of main_v46 as a function of the launch arguments. -/
def G_v46 (a18 : FVec Ideal S4x128 .f32) : FVec Ideal S128 .f32 :=
  ((shapeCast _ (((((extractStridedSlice S1x128 ![0, 0] · slices_S4x128_S1x128_0_0))) : (FVec Ideal S4x128 .f32) → (FVec Ideal S1x128 .f32)) a18) shapeCasts_S1x128_S128) : FVec Ideal S128 .f32)

/-- The value of main_v53 as a function of the launch arguments. -/
def G_v53 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a26 : IVec S2x600000 32) : FVec Ideal S600000x128 .f32 :=
  (((((fun x i => Host.gather gather_S100000x128_S600000x1_S600000x128_1_0_n_n_0_1_1128 x i))) : (FVec Ideal S100000x128 .f32) → (IVec S600000x1 32) → (FVec Ideal S600000x128 .f32)) (G_v28 a0 a1 a2 a3 a4 a5 a6 a7 a8 a9 a10 a26) ((((broadcastInDim S600000x1 ![0] bcast_S600000_S600000x1_0)) : (IVec S600000 32) → (IVec S600000x1 32)) ((((select)) : (IVec S600000 1) → (IVec S600000 32) → (IVec S600000 32) → (IVec S600000 32)) ((((cmpi .slt)) : (IVec S600000 32) → (IVec S600000 32) → (IVec S600000 1)) (G_v1 a26) ((((broadcastInDim S600000 ![] bcast_S_S600000)) : (IVec S_ 32) → (IVec S600000 32)) (((constantI S_ 32 0#32)) : IVec S_ 32))) ((((addi)) : (IVec S600000 32) → (IVec S600000 32) → (IVec S600000 32)) (G_v1 a26) ((((broadcastInDim S600000 ![] bcast_S_S600000)) : (IVec S_ 32) → (IVec S600000 32)) (((constantI S_ 32 100000#32)) : IVec S_ 32))) (G_v1 a26))))

/-- The value of main_v54 as a function of the launch arguments. -/
def G_v54 (a12 : FVec Ideal S4x128 .f32) : FVec Ideal S1x128 .f32 :=
  ((shapeCast _ ((shapeCast _ (((((extractStridedSlice S1x128 ![0, 0] · slices_S4x128_S1x128_0_0))) : (FVec Ideal S4x128 .f32) → (FVec Ideal S1x128 .f32)) a12) shapeCasts_S1x128_S128) : FVec Ideal S128 .f32) shapeCasts_S128_S1x128) : FVec Ideal S1x128 .f32)

/-- The value of main_v55 as a function of the launch arguments. -/
def G_v55 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a26 : IVec S2x600000 32) : FVec Ideal S600000x128 .f32 :=
  Cert.KernelIdeal.Reg3.out4 (G_v53 a0 a1 a2 a3 a4 a5 a6 a7 a8 a9 a10 a26) a1 (G_v30 a11) (G_v54 a12)

/-- The value of main_v58 as a function of the launch arguments. -/
def G_v58 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a26 : IVec S2x600000 32) : FVec Ideal S100000x128 .f32 :=
  (((((fun x i u => Host.scatterAdd scatter_S100000x128_S600000x1_S600000x128_1_0_0_1 x i u))) : (FVec Ideal S100000x128 .f32) → (IVec S600000x1 32) → (FVec Ideal S600000x128 .f32) → (FVec Ideal S100000x128 .f32)) ((((broadcastInDim S100000x128 ![] bcast_S_S100000x128)) : (FVec Ideal S_ .f32) → (FVec Ideal S100000x128 .f32)) (((constant S_ .f32 0x00000000#32)) : FVec Ideal S_ .f32)) ((((broadcastInDim S600000x1 ![0] bcast_S600000_S600000x1_0)) : (IVec S600000 32) → (IVec S600000x1 32)) (G_v3 a26)) (G_v55 a0 a1 a2 a3 a4 a5 a6 a7 a8 a9 a10 a11 a12 a26))

/-- The value of main_v59 as a function of the launch arguments. -/
def G_v59 (a19 : FVec Ideal S4 .f32) : FVec Ideal S1x1 .f32 :=
  ((shapeCast _ (G_v34 a19) shapeCasts_S_S1x1) : FVec Ideal S1x1 .f32)

/-- The value of main_v60 as a function of the launch arguments. -/
def G_v60 (a14 : FVec Ideal S4x128 .f32) : FVec Ideal S1x128 .f32 :=
  ((shapeCast _ (G_v38 a14) shapeCasts_S128_S1x128) : FVec Ideal S1x128 .f32)

/-- The value of main_v61 as a function of the launch arguments. -/
def G_v61 (a16 : FVec Ideal S4x128 .f32) : FVec Ideal S1x128 .f32 :=
  ((shapeCast _ (G_v42 a16) shapeCasts_S128_S1x128) : FVec Ideal S1x128 .f32)

/-- The value of main_v62_0 as a function of the launch arguments. -/
def G_v62_0 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a19 : FVec Ideal S4 .f32) (a26 : IVec S2x600000 32) : FVec Ideal S100000x128 .f32 :=
  Cert.KernelIdeal.Reg4.out7 (G_v28 a0 a1 a2 a3 a4 a5 a6 a7 a8 a9 a10 a26) (G_v58 a0 a1 a2 a3 a4 a5 a6 a7 a8 a9 a10 a11 a12 a26) (G_v59 a19) (G_v36 a13) (G_v60 a14) (G_v40 a15) (G_v61 a16)

/-- The value of main_v62_1 as a function of the launch arguments. -/
def G_v62_1 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a19 : FVec Ideal S4 .f32) (a26 : IVec S2x600000 32) : FVec Ideal S1x128 .f32 :=
  Cert.KernelIdeal.Reg4.out8 (G_v28 a0 a1 a2 a3 a4 a5 a6 a7 a8 a9 a10 a26) (G_v58 a0 a1 a2 a3 a4 a5 a6 a7 a8 a9 a10 a11 a12 a26) (G_v59 a19) (G_v36 a13) (G_v60 a14) (G_v40 a15) (G_v61 a16)

/-- The value of main_v62_2 as a function of the launch arguments. -/
def G_v62_2 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a19 : FVec Ideal S4 .f32) (a26 : IVec S2x600000 32) : FVec Ideal S1x128 .f32 :=
  Cert.KernelIdeal.Reg4.out9 (G_v28 a0 a1 a2 a3 a4 a5 a6 a7 a8 a9 a10 a26) (G_v58 a0 a1 a2 a3 a4 a5 a6 a7 a8 a9 a10 a11 a12 a26) (G_v59 a19) (G_v36 a13) (G_v60 a14) (G_v40 a15) (G_v61 a16)

/-- The value of main_v64 as a function of the launch arguments. -/
def G_v64 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a19 : FVec Ideal S4 .f32) (a26 : IVec S2x600000 32) : FVec Ideal S1x128 .f32 :=
  ((((Host.divf)) : (FVec Ideal S1x128 .f32) → (FVec Ideal S1x128 .f32) → (FVec Ideal S1x128 .f32)) (G_v62_1 a0 a1 a2 a3 a4 a5 a6 a7 a8 a9 a10 a11 a12 a13 a14 a15 a16 a19 a26) ((((broadcastInDim S1x128 ![] bcast_S_S1x128)) : (FVec Ideal S_ .f32) → (FVec Ideal S1x128 .f32)) (((constant S_ .f32 0x47C35000#32)) : FVec Ideal S_ .f32)))

/-- The value of main_v68 as a function of the launch arguments. -/
def G_v68 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a19 : FVec Ideal S4 .f32) (a26 : IVec S2x600000 32) : FVec Ideal S1x128 .f32 :=
  ((((subf)) : (FVec Ideal S1x128 .f32) → (FVec Ideal S1x128 .f32) → (FVec Ideal S1x128 .f32)) ((((Host.divf)) : (FVec Ideal S1x128 .f32) → (FVec Ideal S1x128 .f32) → (FVec Ideal S1x128 .f32)) (G_v62_2 a0 a1 a2 a3 a4 a5 a6 a7 a8 a9 a10 a11 a12 a13 a14 a15 a16 a19 a26) ((((broadcastInDim S1x128 ![] bcast_S_S1x128)) : (FVec Ideal S_ .f32) → (FVec Ideal S1x128 .f32)) (((constant S_ .f32 0x47C35000#32)) : FVec Ideal S_ .f32))) ((((mulf)) : (FVec Ideal S1x128 .f32) → (FVec Ideal S1x128 .f32) → (FVec Ideal S1x128 .f32)) (G_v64 a0 a1 a2 a3 a4 a5 a6 a7 a8 a9 a10 a11 a12 a13 a14 a15 a16 a19 a26) (G_v64 a0 a1 a2 a3 a4 a5 a6 a7 a8 a9 a10 a11 a12 a13 a14 a15 a16 a19 a26)))

/-- The value of main_v69 as a function of the launch arguments. -/
def G_v69 (a17 : FVec Ideal S4x128 .f32) : FVec Ideal S1x128 .f32 :=
  ((shapeCast _ (G_v44 a17) shapeCasts_S128_S1x128) : FVec Ideal S1x128 .f32)

/-- The value of main_v70 as a function of the launch arguments. -/
def G_v70 (a18 : FVec Ideal S4x128 .f32) : FVec Ideal S1x128 .f32 :=
  ((shapeCast _ (G_v46 a18) shapeCasts_S128_S1x128) : FVec Ideal S1x128 .f32)

/-- The value of main_v71 as a function of the launch arguments. -/
def G_v71 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  Cert.KernelIdeal.Reg5.out6 (G_v62_0 a0 a1 a2 a3 a4 a5 a6 a7 a8 a9 a10 a11 a12 a13 a14 a15 a16 a19 a26) (G_v28 a0 a1 a2 a3 a4 a5 a6 a7 a8 a9 a10 a26) (G_v64 a0 a1 a2 a3 a4 a5 a6 a7 a8 a9 a10 a11 a12 a13 a14 a15 a16 a19 a26) (G_v68 a0 a1 a2 a3 a4 a5 a6 a7 a8 a9 a10 a11 a12 a13 a14 a15 a16 a19 a26) (G_v69 a17) (G_v70 a18)

/-- The value of main_v73 as a function of the launch arguments. -/
def G_v73 (a11 : FVec Ideal S4x3x128 .f32) : FVec Ideal S3x128 .f32 :=
  ((shapeCast _ (((((extractStridedSlice S1x3x128 ![1, 0, 0] · slices_S4x3x128_S1x3x128_1_0_0))) : (FVec Ideal S4x3x128 .f32) → (FVec Ideal S1x3x128 .f32)) a11) shapeCasts_S1x3x128_S3x128) : FVec Ideal S3x128 .f32)

/-- The value of main_v77 as a function of the launch arguments. -/
def G_v77 (a19 : FVec Ideal S4 .f32) : FVec Ideal S_ .f32 :=
  ((shapeCast _ (((((extractStridedSlice S1 ![1] · slices_S4_S1_1))) : (FVec Ideal S4 .f32) → (FVec Ideal S1 .f32)) a19) shapeCasts_S1_S_) : FVec Ideal S_ .f32)

/-- The value of main_v79 as a function of the launch arguments. -/
def G_v79 (a13 : FVec Ideal S4x128x128 .f32) : FVec Ideal S128x128 .f32 :=
  ((shapeCast _ (((((extractStridedSlice S1x128x128 ![1, 0, 0] · slices_S4x128x128_S1x128x128_1_0_0))) : (FVec Ideal S4x128x128 .f32) → (FVec Ideal S1x128x128 .f32)) a13) shapeCasts_S1x128x128_S128x128) : FVec Ideal S128x128 .f32)

/-- The value of main_v81 as a function of the launch arguments. -/
def G_v81 (a14 : FVec Ideal S4x128 .f32) : FVec Ideal S128 .f32 :=
  ((shapeCast _ (((((extractStridedSlice S1x128 ![1, 0] · slices_S4x128_S1x128_1_0))) : (FVec Ideal S4x128 .f32) → (FVec Ideal S1x128 .f32)) a14) shapeCasts_S1x128_S128) : FVec Ideal S128 .f32)

/-- The value of main_v83 as a function of the launch arguments. -/
def G_v83 (a15 : FVec Ideal S4x128x128 .f32) : FVec Ideal S128x128 .f32 :=
  ((shapeCast _ (((((extractStridedSlice S1x128x128 ![1, 0, 0] · slices_S4x128x128_S1x128x128_1_0_0))) : (FVec Ideal S4x128x128 .f32) → (FVec Ideal S1x128x128 .f32)) a15) shapeCasts_S1x128x128_S128x128) : FVec Ideal S128x128 .f32)

/-- The value of main_v85 as a function of the launch arguments. -/
def G_v85 (a16 : FVec Ideal S4x128 .f32) : FVec Ideal S128 .f32 :=
  ((shapeCast _ (((((extractStridedSlice S1x128 ![1, 0] · slices_S4x128_S1x128_1_0))) : (FVec Ideal S4x128 .f32) → (FVec Ideal S1x128 .f32)) a16) shapeCasts_S1x128_S128) : FVec Ideal S128 .f32)

/-- The value of main_v87 as a function of the launch arguments. -/
def G_v87 (a17 : FVec Ideal S4x128 .f32) : FVec Ideal S128 .f32 :=
  ((shapeCast _ (((((extractStridedSlice S1x128 ![1, 0] · slices_S4x128_S1x128_1_0))) : (FVec Ideal S4x128 .f32) → (FVec Ideal S1x128 .f32)) a17) shapeCasts_S1x128_S128) : FVec Ideal S128 .f32)

/-- The value of main_v89 as a function of the launch arguments. -/
def G_v89 (a18 : FVec Ideal S4x128 .f32) : FVec Ideal S128 .f32 :=
  ((shapeCast _ (((((extractStridedSlice S1x128 ![1, 0] · slices_S4x128_S1x128_1_0))) : (FVec Ideal S4x128 .f32) → (FVec Ideal S1x128 .f32)) a18) shapeCasts_S1x128_S128) : FVec Ideal S128 .f32)

/-- The value of main_v96 as a function of the launch arguments. -/
def G_v96 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S600000x128 .f32 :=
  (((((fun x i => Host.gather gather_S100000x128_S600000x1_S600000x128_1_0_n_n_0_1_1128 x i))) : (FVec Ideal S100000x128 .f32) → (IVec S600000x1 32) → (FVec Ideal S600000x128 .f32)) (G_v71 a0 a1 a2 a3 a4 a5 a6 a7 a8 a9 a10 a11 a12 a13 a14 a15 a16 a17 a18 a19 a26) ((((broadcastInDim S600000x1 ![0] bcast_S600000_S600000x1_0)) : (IVec S600000 32) → (IVec S600000x1 32)) ((((select)) : (IVec S600000 1) → (IVec S600000 32) → (IVec S600000 32) → (IVec S600000 32)) ((((cmpi .slt)) : (IVec S600000 32) → (IVec S600000 32) → (IVec S600000 1)) (G_v1 a26) ((((broadcastInDim S600000 ![] bcast_S_S600000)) : (IVec S_ 32) → (IVec S600000 32)) (((constantI S_ 32 0#32)) : IVec S_ 32))) ((((addi)) : (IVec S600000 32) → (IVec S600000 32) → (IVec S600000 32)) (G_v1 a26) ((((broadcastInDim S600000 ![] bcast_S_S600000)) : (IVec S_ 32) → (IVec S600000 32)) (((constantI S_ 32 100000#32)) : IVec S_ 32))) (G_v1 a26))))

/-- The value of main_v97 as a function of the launch arguments. -/
def G_v97 (a12 : FVec Ideal S4x128 .f32) : FVec Ideal S1x128 .f32 :=
  ((shapeCast _ ((shapeCast _ (((((extractStridedSlice S1x128 ![1, 0] · slices_S4x128_S1x128_1_0))) : (FVec Ideal S4x128 .f32) → (FVec Ideal S1x128 .f32)) a12) shapeCasts_S1x128_S128) : FVec Ideal S128 .f32) shapeCasts_S128_S1x128) : FVec Ideal S1x128 .f32)

/-- The value of main_v98 as a function of the launch arguments. -/
def G_v98 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S600000x128 .f32 :=
  Cert.KernelIdeal.Reg6.out4 (G_v96 a0 a1 a2 a3 a4 a5 a6 a7 a8 a9 a10 a11 a12 a13 a14 a15 a16 a17 a18 a19 a26) a1 (G_v73 a11) (G_v97 a12)

/-- The value of main_v101 as a function of the launch arguments. -/
def G_v101 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  (((((fun x i u => Host.scatterAdd scatter_S100000x128_S600000x1_S600000x128_1_0_0_1 x i u))) : (FVec Ideal S100000x128 .f32) → (IVec S600000x1 32) → (FVec Ideal S600000x128 .f32) → (FVec Ideal S100000x128 .f32)) ((((broadcastInDim S100000x128 ![] bcast_S_S100000x128)) : (FVec Ideal S_ .f32) → (FVec Ideal S100000x128 .f32)) (((constant S_ .f32 0x00000000#32)) : FVec Ideal S_ .f32)) ((((broadcastInDim S600000x1 ![0] bcast_S600000_S600000x1_0)) : (IVec S600000 32) → (IVec S600000x1 32)) (G_v3 a26)) (G_v98 a0 a1 a2 a3 a4 a5 a6 a7 a8 a9 a10 a11 a12 a13 a14 a15 a16 a17 a18 a19 a26))

/-- The value of main_v102 as a function of the launch arguments. -/
def G_v102 (a19 : FVec Ideal S4 .f32) : FVec Ideal S1x1 .f32 :=
  ((shapeCast _ (G_v77 a19) shapeCasts_S_S1x1) : FVec Ideal S1x1 .f32)

/-- The value of main_v103 as a function of the launch arguments. -/
def G_v103 (a14 : FVec Ideal S4x128 .f32) : FVec Ideal S1x128 .f32 :=
  ((shapeCast _ (G_v81 a14) shapeCasts_S128_S1x128) : FVec Ideal S1x128 .f32)

/-- The value of main_v104 as a function of the launch arguments. -/
def G_v104 (a16 : FVec Ideal S4x128 .f32) : FVec Ideal S1x128 .f32 :=
  ((shapeCast _ (G_v85 a16) shapeCasts_S128_S1x128) : FVec Ideal S1x128 .f32)

/-- The value of main_v105_0 as a function of the launch arguments. -/
def G_v105_0 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  Cert.KernelIdeal.Reg7.out7 (G_v71 a0 a1 a2 a3 a4 a5 a6 a7 a8 a9 a10 a11 a12 a13 a14 a15 a16 a17 a18 a19 a26) (G_v101 a0 a1 a2 a3 a4 a5 a6 a7 a8 a9 a10 a11 a12 a13 a14 a15 a16 a17 a18 a19 a26) (G_v102 a19) (G_v79 a13) (G_v103 a14) (G_v83 a15) (G_v104 a16)

/-- The value of main_v105_1 as a function of the launch arguments. -/
def G_v105_1 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  Cert.KernelIdeal.Reg7.out8 (G_v71 a0 a1 a2 a3 a4 a5 a6 a7 a8 a9 a10 a11 a12 a13 a14 a15 a16 a17 a18 a19 a26) (G_v101 a0 a1 a2 a3 a4 a5 a6 a7 a8 a9 a10 a11 a12 a13 a14 a15 a16 a17 a18 a19 a26) (G_v102 a19) (G_v79 a13) (G_v103 a14) (G_v83 a15) (G_v104 a16)

/-- The value of main_v105_2 as a function of the launch arguments. -/
def G_v105_2 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  Cert.KernelIdeal.Reg7.out9 (G_v71 a0 a1 a2 a3 a4 a5 a6 a7 a8 a9 a10 a11 a12 a13 a14 a15 a16 a17 a18 a19 a26) (G_v101 a0 a1 a2 a3 a4 a5 a6 a7 a8 a9 a10 a11 a12 a13 a14 a15 a16 a17 a18 a19 a26) (G_v102 a19) (G_v79 a13) (G_v103 a14) (G_v83 a15) (G_v104 a16)

/-- The value of main_v107 as a function of the launch arguments. -/
def G_v107 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  ((((Host.divf)) : (FVec Ideal S1x128 .f32) → (FVec Ideal S1x128 .f32) → (FVec Ideal S1x128 .f32)) (G_v105_1 a0 a1 a2 a3 a4 a5 a6 a7 a8 a9 a10 a11 a12 a13 a14 a15 a16 a17 a18 a19 a26) ((((broadcastInDim S1x128 ![] bcast_S_S1x128)) : (FVec Ideal S_ .f32) → (FVec Ideal S1x128 .f32)) (((constant S_ .f32 0x47C35000#32)) : FVec Ideal S_ .f32)))

/-- The value of main_v111 as a function of the launch arguments. -/
def G_v111 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  ((((subf)) : (FVec Ideal S1x128 .f32) → (FVec Ideal S1x128 .f32) → (FVec Ideal S1x128 .f32)) ((((Host.divf)) : (FVec Ideal S1x128 .f32) → (FVec Ideal S1x128 .f32) → (FVec Ideal S1x128 .f32)) (G_v105_2 a0 a1 a2 a3 a4 a5 a6 a7 a8 a9 a10 a11 a12 a13 a14 a15 a16 a17 a18 a19 a26) ((((broadcastInDim S1x128 ![] bcast_S_S1x128)) : (FVec Ideal S_ .f32) → (FVec Ideal S1x128 .f32)) (((constant S_ .f32 0x47C35000#32)) : FVec Ideal S_ .f32))) ((((mulf)) : (FVec Ideal S1x128 .f32) → (FVec Ideal S1x128 .f32) → (FVec Ideal S1x128 .f32)) (G_v107 a0 a1 a2 a3 a4 a5 a6 a7 a8 a9 a10 a11 a12 a13 a14 a15 a16 a17 a18 a19 a26) (G_v107 a0 a1 a2 a3 a4 a5 a6 a7 a8 a9 a10 a11 a12 a13 a14 a15 a16 a17 a18 a19 a26)))

/-- The value of main_v112 as a function of the launch arguments. -/
def G_v112 (a17 : FVec Ideal S4x128 .f32) : FVec Ideal S1x128 .f32 :=
  ((shapeCast _ (G_v87 a17) shapeCasts_S128_S1x128) : FVec Ideal S1x128 .f32)

/-- The value of main_v113 as a function of the launch arguments. -/
def G_v113 (a18 : FVec Ideal S4x128 .f32) : FVec Ideal S1x128 .f32 :=
  ((shapeCast _ (G_v89 a18) shapeCasts_S128_S1x128) : FVec Ideal S1x128 .f32)

/-- The value of main_v114 as a function of the launch arguments. -/
def G_v114 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  Cert.KernelIdeal.Reg8.out6 (G_v105_0 a0 a1 a2 a3 a4 a5 a6 a7 a8 a9 a10 a11 a12 a13 a14 a15 a16 a17 a18 a19 a26) (G_v71 a0 a1 a2 a3 a4 a5 a6 a7 a8 a9 a10 a11 a12 a13 a14 a15 a16 a17 a18 a19 a26) (G_v107 a0 a1 a2 a3 a4 a5 a6 a7 a8 a9 a10 a11 a12 a13 a14 a15 a16 a17 a18 a19 a26) (G_v111 a0 a1 a2 a3 a4 a5 a6 a7 a8 a9 a10 a11 a12 a13 a14 a15 a16 a17 a18 a19 a26) (G_v112 a17) (G_v113 a18)

/-- The value of main_v116 as a function of the launch arguments. -/
def G_v116 (a11 : FVec Ideal S4x3x128 .f32) : FVec Ideal S3x128 .f32 :=
  ((shapeCast _ (((((extractStridedSlice S1x3x128 ![2, 0, 0] · slices_S4x3x128_S1x3x128_2_0_0))) : (FVec Ideal S4x3x128 .f32) → (FVec Ideal S1x3x128 .f32)) a11) shapeCasts_S1x3x128_S3x128) : FVec Ideal S3x128 .f32)

/-- The value of main_v120 as a function of the launch arguments. -/
def G_v120 (a19 : FVec Ideal S4 .f32) : FVec Ideal S_ .f32 :=
  ((shapeCast _ (((((extractStridedSlice S1 ![2] · slices_S4_S1_2))) : (FVec Ideal S4 .f32) → (FVec Ideal S1 .f32)) a19) shapeCasts_S1_S_) : FVec Ideal S_ .f32)

/-- The value of main_v122 as a function of the launch arguments. -/
def G_v122 (a13 : FVec Ideal S4x128x128 .f32) : FVec Ideal S128x128 .f32 :=
  ((shapeCast _ (((((extractStridedSlice S1x128x128 ![2, 0, 0] · slices_S4x128x128_S1x128x128_2_0_0))) : (FVec Ideal S4x128x128 .f32) → (FVec Ideal S1x128x128 .f32)) a13) shapeCasts_S1x128x128_S128x128) : FVec Ideal S128x128 .f32)

/-- The value of main_v124 as a function of the launch arguments. -/
def G_v124 (a14 : FVec Ideal S4x128 .f32) : FVec Ideal S128 .f32 :=
  ((shapeCast _ (((((extractStridedSlice S1x128 ![2, 0] · slices_S4x128_S1x128_2_0))) : (FVec Ideal S4x128 .f32) → (FVec Ideal S1x128 .f32)) a14) shapeCasts_S1x128_S128) : FVec Ideal S128 .f32)

/-- The value of main_v126 as a function of the launch arguments. -/
def G_v126 (a15 : FVec Ideal S4x128x128 .f32) : FVec Ideal S128x128 .f32 :=
  ((shapeCast _ (((((extractStridedSlice S1x128x128 ![2, 0, 0] · slices_S4x128x128_S1x128x128_2_0_0))) : (FVec Ideal S4x128x128 .f32) → (FVec Ideal S1x128x128 .f32)) a15) shapeCasts_S1x128x128_S128x128) : FVec Ideal S128x128 .f32)

/-- The value of main_v128 as a function of the launch arguments. -/
def G_v128 (a16 : FVec Ideal S4x128 .f32) : FVec Ideal S128 .f32 :=
  ((shapeCast _ (((((extractStridedSlice S1x128 ![2, 0] · slices_S4x128_S1x128_2_0))) : (FVec Ideal S4x128 .f32) → (FVec Ideal S1x128 .f32)) a16) shapeCasts_S1x128_S128) : FVec Ideal S128 .f32)

/-- The value of main_v130 as a function of the launch arguments. -/
def G_v130 (a17 : FVec Ideal S4x128 .f32) : FVec Ideal S128 .f32 :=
  ((shapeCast _ (((((extractStridedSlice S1x128 ![2, 0] · slices_S4x128_S1x128_2_0))) : (FVec Ideal S4x128 .f32) → (FVec Ideal S1x128 .f32)) a17) shapeCasts_S1x128_S128) : FVec Ideal S128 .f32)

/-- The value of main_v132 as a function of the launch arguments. -/
def G_v132 (a18 : FVec Ideal S4x128 .f32) : FVec Ideal S128 .f32 :=
  ((shapeCast _ (((((extractStridedSlice S1x128 ![2, 0] · slices_S4x128_S1x128_2_0))) : (FVec Ideal S4x128 .f32) → (FVec Ideal S1x128 .f32)) a18) shapeCasts_S1x128_S128) : FVec Ideal S128 .f32)

/-- The value of main_v139 as a function of the launch arguments. -/
def G_v139 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S600000x128 .f32 :=
  (((((fun x i => Host.gather gather_S100000x128_S600000x1_S600000x128_1_0_n_n_0_1_1128 x i))) : (FVec Ideal S100000x128 .f32) → (IVec S600000x1 32) → (FVec Ideal S600000x128 .f32)) (G_v114 a0 a1 a2 a3 a4 a5 a6 a7 a8 a9 a10 a11 a12 a13 a14 a15 a16 a17 a18 a19 a26) ((((broadcastInDim S600000x1 ![0] bcast_S600000_S600000x1_0)) : (IVec S600000 32) → (IVec S600000x1 32)) ((((select)) : (IVec S600000 1) → (IVec S600000 32) → (IVec S600000 32) → (IVec S600000 32)) ((((cmpi .slt)) : (IVec S600000 32) → (IVec S600000 32) → (IVec S600000 1)) (G_v1 a26) ((((broadcastInDim S600000 ![] bcast_S_S600000)) : (IVec S_ 32) → (IVec S600000 32)) (((constantI S_ 32 0#32)) : IVec S_ 32))) ((((addi)) : (IVec S600000 32) → (IVec S600000 32) → (IVec S600000 32)) (G_v1 a26) ((((broadcastInDim S600000 ![] bcast_S_S600000)) : (IVec S_ 32) → (IVec S600000 32)) (((constantI S_ 32 100000#32)) : IVec S_ 32))) (G_v1 a26))))

/-- The value of main_v140 as a function of the launch arguments. -/
def G_v140 (a12 : FVec Ideal S4x128 .f32) : FVec Ideal S1x128 .f32 :=
  ((shapeCast _ ((shapeCast _ (((((extractStridedSlice S1x128 ![2, 0] · slices_S4x128_S1x128_2_0))) : (FVec Ideal S4x128 .f32) → (FVec Ideal S1x128 .f32)) a12) shapeCasts_S1x128_S128) : FVec Ideal S128 .f32) shapeCasts_S128_S1x128) : FVec Ideal S1x128 .f32)

/-- The value of main_v141 as a function of the launch arguments. -/
def G_v141 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S600000x128 .f32 :=
  Cert.KernelIdeal.Reg9.out4 (G_v139 a0 a1 a2 a3 a4 a5 a6 a7 a8 a9 a10 a11 a12 a13 a14 a15 a16 a17 a18 a19 a26) a1 (G_v116 a11) (G_v140 a12)

/-- The value of main_v144 as a function of the launch arguments. -/
def G_v144 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  (((((fun x i u => Host.scatterAdd scatter_S100000x128_S600000x1_S600000x128_1_0_0_1 x i u))) : (FVec Ideal S100000x128 .f32) → (IVec S600000x1 32) → (FVec Ideal S600000x128 .f32) → (FVec Ideal S100000x128 .f32)) ((((broadcastInDim S100000x128 ![] bcast_S_S100000x128)) : (FVec Ideal S_ .f32) → (FVec Ideal S100000x128 .f32)) (((constant S_ .f32 0x00000000#32)) : FVec Ideal S_ .f32)) ((((broadcastInDim S600000x1 ![0] bcast_S600000_S600000x1_0)) : (IVec S600000 32) → (IVec S600000x1 32)) (G_v3 a26)) (G_v141 a0 a1 a2 a3 a4 a5 a6 a7 a8 a9 a10 a11 a12 a13 a14 a15 a16 a17 a18 a19 a26))

/-- The value of main_v145 as a function of the launch arguments. -/
def G_v145 (a19 : FVec Ideal S4 .f32) : FVec Ideal S1x1 .f32 :=
  ((shapeCast _ (G_v120 a19) shapeCasts_S_S1x1) : FVec Ideal S1x1 .f32)

/-- The value of main_v146 as a function of the launch arguments. -/
def G_v146 (a14 : FVec Ideal S4x128 .f32) : FVec Ideal S1x128 .f32 :=
  ((shapeCast _ (G_v124 a14) shapeCasts_S128_S1x128) : FVec Ideal S1x128 .f32)

/-- The value of main_v147 as a function of the launch arguments. -/
def G_v147 (a16 : FVec Ideal S4x128 .f32) : FVec Ideal S1x128 .f32 :=
  ((shapeCast _ (G_v128 a16) shapeCasts_S128_S1x128) : FVec Ideal S1x128 .f32)

/-- The value of main_v148_0 as a function of the launch arguments. -/
def G_v148_0 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  Cert.KernelIdeal.Reg10.out7 (G_v114 a0 a1 a2 a3 a4 a5 a6 a7 a8 a9 a10 a11 a12 a13 a14 a15 a16 a17 a18 a19 a26) (G_v144 a0 a1 a2 a3 a4 a5 a6 a7 a8 a9 a10 a11 a12 a13 a14 a15 a16 a17 a18 a19 a26) (G_v145 a19) (G_v122 a13) (G_v146 a14) (G_v126 a15) (G_v147 a16)

/-- The value of main_v148_1 as a function of the launch arguments. -/
def G_v148_1 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  Cert.KernelIdeal.Reg10.out8 (G_v114 a0 a1 a2 a3 a4 a5 a6 a7 a8 a9 a10 a11 a12 a13 a14 a15 a16 a17 a18 a19 a26) (G_v144 a0 a1 a2 a3 a4 a5 a6 a7 a8 a9 a10 a11 a12 a13 a14 a15 a16 a17 a18 a19 a26) (G_v145 a19) (G_v122 a13) (G_v146 a14) (G_v126 a15) (G_v147 a16)

/-- The value of main_v148_2 as a function of the launch arguments. -/
def G_v148_2 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  Cert.KernelIdeal.Reg10.out9 (G_v114 a0 a1 a2 a3 a4 a5 a6 a7 a8 a9 a10 a11 a12 a13 a14 a15 a16 a17 a18 a19 a26) (G_v144 a0 a1 a2 a3 a4 a5 a6 a7 a8 a9 a10 a11 a12 a13 a14 a15 a16 a17 a18 a19 a26) (G_v145 a19) (G_v122 a13) (G_v146 a14) (G_v126 a15) (G_v147 a16)

/-- The value of main_v150 as a function of the launch arguments. -/
def G_v150 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  ((((Host.divf)) : (FVec Ideal S1x128 .f32) → (FVec Ideal S1x128 .f32) → (FVec Ideal S1x128 .f32)) (G_v148_1 a0 a1 a2 a3 a4 a5 a6 a7 a8 a9 a10 a11 a12 a13 a14 a15 a16 a17 a18 a19 a26) ((((broadcastInDim S1x128 ![] bcast_S_S1x128)) : (FVec Ideal S_ .f32) → (FVec Ideal S1x128 .f32)) (((constant S_ .f32 0x47C35000#32)) : FVec Ideal S_ .f32)))

/-- The value of main_v154 as a function of the launch arguments. -/
def G_v154 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  ((((subf)) : (FVec Ideal S1x128 .f32) → (FVec Ideal S1x128 .f32) → (FVec Ideal S1x128 .f32)) ((((Host.divf)) : (FVec Ideal S1x128 .f32) → (FVec Ideal S1x128 .f32) → (FVec Ideal S1x128 .f32)) (G_v148_2 a0 a1 a2 a3 a4 a5 a6 a7 a8 a9 a10 a11 a12 a13 a14 a15 a16 a17 a18 a19 a26) ((((broadcastInDim S1x128 ![] bcast_S_S1x128)) : (FVec Ideal S_ .f32) → (FVec Ideal S1x128 .f32)) (((constant S_ .f32 0x47C35000#32)) : FVec Ideal S_ .f32))) ((((mulf)) : (FVec Ideal S1x128 .f32) → (FVec Ideal S1x128 .f32) → (FVec Ideal S1x128 .f32)) (G_v150 a0 a1 a2 a3 a4 a5 a6 a7 a8 a9 a10 a11 a12 a13 a14 a15 a16 a17 a18 a19 a26) (G_v150 a0 a1 a2 a3 a4 a5 a6 a7 a8 a9 a10 a11 a12 a13 a14 a15 a16 a17 a18 a19 a26)))

/-- The value of main_v155 as a function of the launch arguments. -/
def G_v155 (a17 : FVec Ideal S4x128 .f32) : FVec Ideal S1x128 .f32 :=
  ((shapeCast _ (G_v130 a17) shapeCasts_S128_S1x128) : FVec Ideal S1x128 .f32)

/-- The value of main_v156 as a function of the launch arguments. -/
def G_v156 (a18 : FVec Ideal S4x128 .f32) : FVec Ideal S1x128 .f32 :=
  ((shapeCast _ (G_v132 a18) shapeCasts_S128_S1x128) : FVec Ideal S1x128 .f32)

/-- The value of main_v157 as a function of the launch arguments. -/
def G_v157 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  Cert.KernelIdeal.Reg11.out6 (G_v148_0 a0 a1 a2 a3 a4 a5 a6 a7 a8 a9 a10 a11 a12 a13 a14 a15 a16 a17 a18 a19 a26) (G_v114 a0 a1 a2 a3 a4 a5 a6 a7 a8 a9 a10 a11 a12 a13 a14 a15 a16 a17 a18 a19 a26) (G_v150 a0 a1 a2 a3 a4 a5 a6 a7 a8 a9 a10 a11 a12 a13 a14 a15 a16 a17 a18 a19 a26) (G_v154 a0 a1 a2 a3 a4 a5 a6 a7 a8 a9 a10 a11 a12 a13 a14 a15 a16 a17 a18 a19 a26) (G_v155 a17) (G_v156 a18)

/-- The value of main_v159 as a function of the launch arguments. -/
def G_v159 (a11 : FVec Ideal S4x3x128 .f32) : FVec Ideal S3x128 .f32 :=
  ((shapeCast _ (((((extractStridedSlice S1x3x128 ![3, 0, 0] · slices_S4x3x128_S1x3x128_3_0_0))) : (FVec Ideal S4x3x128 .f32) → (FVec Ideal S1x3x128 .f32)) a11) shapeCasts_S1x3x128_S3x128) : FVec Ideal S3x128 .f32)

/-- The value of main_v163 as a function of the launch arguments. -/
def G_v163 (a19 : FVec Ideal S4 .f32) : FVec Ideal S_ .f32 :=
  ((shapeCast _ (((((extractStridedSlice S1 ![3] · slices_S4_S1_3))) : (FVec Ideal S4 .f32) → (FVec Ideal S1 .f32)) a19) shapeCasts_S1_S_) : FVec Ideal S_ .f32)

/-- The value of main_v165 as a function of the launch arguments. -/
def G_v165 (a13 : FVec Ideal S4x128x128 .f32) : FVec Ideal S128x128 .f32 :=
  ((shapeCast _ (((((extractStridedSlice S1x128x128 ![3, 0, 0] · slices_S4x128x128_S1x128x128_3_0_0))) : (FVec Ideal S4x128x128 .f32) → (FVec Ideal S1x128x128 .f32)) a13) shapeCasts_S1x128x128_S128x128) : FVec Ideal S128x128 .f32)

/-- The value of main_v167 as a function of the launch arguments. -/
def G_v167 (a14 : FVec Ideal S4x128 .f32) : FVec Ideal S128 .f32 :=
  ((shapeCast _ (((((extractStridedSlice S1x128 ![3, 0] · slices_S4x128_S1x128_3_0))) : (FVec Ideal S4x128 .f32) → (FVec Ideal S1x128 .f32)) a14) shapeCasts_S1x128_S128) : FVec Ideal S128 .f32)

/-- The value of main_v169 as a function of the launch arguments. -/
def G_v169 (a15 : FVec Ideal S4x128x128 .f32) : FVec Ideal S128x128 .f32 :=
  ((shapeCast _ (((((extractStridedSlice S1x128x128 ![3, 0, 0] · slices_S4x128x128_S1x128x128_3_0_0))) : (FVec Ideal S4x128x128 .f32) → (FVec Ideal S1x128x128 .f32)) a15) shapeCasts_S1x128x128_S128x128) : FVec Ideal S128x128 .f32)

/-- The value of main_v171 as a function of the launch arguments. -/
def G_v171 (a16 : FVec Ideal S4x128 .f32) : FVec Ideal S128 .f32 :=
  ((shapeCast _ (((((extractStridedSlice S1x128 ![3, 0] · slices_S4x128_S1x128_3_0))) : (FVec Ideal S4x128 .f32) → (FVec Ideal S1x128 .f32)) a16) shapeCasts_S1x128_S128) : FVec Ideal S128 .f32)

/-- The value of main_v173 as a function of the launch arguments. -/
def G_v173 (a17 : FVec Ideal S4x128 .f32) : FVec Ideal S128 .f32 :=
  ((shapeCast _ (((((extractStridedSlice S1x128 ![3, 0] · slices_S4x128_S1x128_3_0))) : (FVec Ideal S4x128 .f32) → (FVec Ideal S1x128 .f32)) a17) shapeCasts_S1x128_S128) : FVec Ideal S128 .f32)

/-- The value of main_v175 as a function of the launch arguments. -/
def G_v175 (a18 : FVec Ideal S4x128 .f32) : FVec Ideal S128 .f32 :=
  ((shapeCast _ (((((extractStridedSlice S1x128 ![3, 0] · slices_S4x128_S1x128_3_0))) : (FVec Ideal S4x128 .f32) → (FVec Ideal S1x128 .f32)) a18) shapeCasts_S1x128_S128) : FVec Ideal S128 .f32)

/-- The value of main_v182 as a function of the launch arguments. -/
def G_v182 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S600000x128 .f32 :=
  (((((fun x i => Host.gather gather_S100000x128_S600000x1_S600000x128_1_0_n_n_0_1_1128 x i))) : (FVec Ideal S100000x128 .f32) → (IVec S600000x1 32) → (FVec Ideal S600000x128 .f32)) (G_v157 a0 a1 a2 a3 a4 a5 a6 a7 a8 a9 a10 a11 a12 a13 a14 a15 a16 a17 a18 a19 a26) ((((broadcastInDim S600000x1 ![0] bcast_S600000_S600000x1_0)) : (IVec S600000 32) → (IVec S600000x1 32)) ((((select)) : (IVec S600000 1) → (IVec S600000 32) → (IVec S600000 32) → (IVec S600000 32)) ((((cmpi .slt)) : (IVec S600000 32) → (IVec S600000 32) → (IVec S600000 1)) (G_v1 a26) ((((broadcastInDim S600000 ![] bcast_S_S600000)) : (IVec S_ 32) → (IVec S600000 32)) (((constantI S_ 32 0#32)) : IVec S_ 32))) ((((addi)) : (IVec S600000 32) → (IVec S600000 32) → (IVec S600000 32)) (G_v1 a26) ((((broadcastInDim S600000 ![] bcast_S_S600000)) : (IVec S_ 32) → (IVec S600000 32)) (((constantI S_ 32 100000#32)) : IVec S_ 32))) (G_v1 a26))))

/-- The value of main_v183 as a function of the launch arguments. -/
def G_v183 (a12 : FVec Ideal S4x128 .f32) : FVec Ideal S1x128 .f32 :=
  ((shapeCast _ ((shapeCast _ (((((extractStridedSlice S1x128 ![3, 0] · slices_S4x128_S1x128_3_0))) : (FVec Ideal S4x128 .f32) → (FVec Ideal S1x128 .f32)) a12) shapeCasts_S1x128_S128) : FVec Ideal S128 .f32) shapeCasts_S128_S1x128) : FVec Ideal S1x128 .f32)

/-- The value of main_v184 as a function of the launch arguments. -/
def G_v184 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S600000x128 .f32 :=
  Cert.KernelIdeal.Reg12.out4 (G_v182 a0 a1 a2 a3 a4 a5 a6 a7 a8 a9 a10 a11 a12 a13 a14 a15 a16 a17 a18 a19 a26) a1 (G_v159 a11) (G_v183 a12)

/-- The value of main_v187 as a function of the launch arguments. -/
def G_v187 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  (((((fun x i u => Host.scatterAdd scatter_S100000x128_S600000x1_S600000x128_1_0_0_1 x i u))) : (FVec Ideal S100000x128 .f32) → (IVec S600000x1 32) → (FVec Ideal S600000x128 .f32) → (FVec Ideal S100000x128 .f32)) ((((broadcastInDim S100000x128 ![] bcast_S_S100000x128)) : (FVec Ideal S_ .f32) → (FVec Ideal S100000x128 .f32)) (((constant S_ .f32 0x00000000#32)) : FVec Ideal S_ .f32)) ((((broadcastInDim S600000x1 ![0] bcast_S600000_S600000x1_0)) : (IVec S600000 32) → (IVec S600000x1 32)) (G_v3 a26)) (G_v184 a0 a1 a2 a3 a4 a5 a6 a7 a8 a9 a10 a11 a12 a13 a14 a15 a16 a17 a18 a19 a26))

/-- The value of main_v188 as a function of the launch arguments. -/
def G_v188 (a19 : FVec Ideal S4 .f32) : FVec Ideal S1x1 .f32 :=
  ((shapeCast _ (G_v163 a19) shapeCasts_S_S1x1) : FVec Ideal S1x1 .f32)

/-- The value of main_v189 as a function of the launch arguments. -/
def G_v189 (a14 : FVec Ideal S4x128 .f32) : FVec Ideal S1x128 .f32 :=
  ((shapeCast _ (G_v167 a14) shapeCasts_S128_S1x128) : FVec Ideal S1x128 .f32)

/-- The value of main_v190 as a function of the launch arguments. -/
def G_v190 (a16 : FVec Ideal S4x128 .f32) : FVec Ideal S1x128 .f32 :=
  ((shapeCast _ (G_v171 a16) shapeCasts_S128_S1x128) : FVec Ideal S1x128 .f32)

/-- The value of main_v191_0 as a function of the launch arguments. -/
def G_v191_0 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  Cert.KernelIdeal.Reg13.out7 (G_v157 a0 a1 a2 a3 a4 a5 a6 a7 a8 a9 a10 a11 a12 a13 a14 a15 a16 a17 a18 a19 a26) (G_v187 a0 a1 a2 a3 a4 a5 a6 a7 a8 a9 a10 a11 a12 a13 a14 a15 a16 a17 a18 a19 a26) (G_v188 a19) (G_v165 a13) (G_v189 a14) (G_v169 a15) (G_v190 a16)

/-- The value of main_v191_1 as a function of the launch arguments. -/
def G_v191_1 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  Cert.KernelIdeal.Reg13.out8 (G_v157 a0 a1 a2 a3 a4 a5 a6 a7 a8 a9 a10 a11 a12 a13 a14 a15 a16 a17 a18 a19 a26) (G_v187 a0 a1 a2 a3 a4 a5 a6 a7 a8 a9 a10 a11 a12 a13 a14 a15 a16 a17 a18 a19 a26) (G_v188 a19) (G_v165 a13) (G_v189 a14) (G_v169 a15) (G_v190 a16)

/-- The value of main_v191_2 as a function of the launch arguments. -/
def G_v191_2 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  Cert.KernelIdeal.Reg13.out9 (G_v157 a0 a1 a2 a3 a4 a5 a6 a7 a8 a9 a10 a11 a12 a13 a14 a15 a16 a17 a18 a19 a26) (G_v187 a0 a1 a2 a3 a4 a5 a6 a7 a8 a9 a10 a11 a12 a13 a14 a15 a16 a17 a18 a19 a26) (G_v188 a19) (G_v165 a13) (G_v189 a14) (G_v169 a15) (G_v190 a16)

/-- The value of main_v193 as a function of the launch arguments. -/
def G_v193 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  ((((Host.divf)) : (FVec Ideal S1x128 .f32) → (FVec Ideal S1x128 .f32) → (FVec Ideal S1x128 .f32)) (G_v191_1 a0 a1 a2 a3 a4 a5 a6 a7 a8 a9 a10 a11 a12 a13 a14 a15 a16 a17 a18 a19 a26) ((((broadcastInDim S1x128 ![] bcast_S_S1x128)) : (FVec Ideal S_ .f32) → (FVec Ideal S1x128 .f32)) (((constant S_ .f32 0x47C35000#32)) : FVec Ideal S_ .f32)))

/-- The value of main_v197 as a function of the launch arguments. -/
def G_v197 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S1x128 .f32 :=
  ((((subf)) : (FVec Ideal S1x128 .f32) → (FVec Ideal S1x128 .f32) → (FVec Ideal S1x128 .f32)) ((((Host.divf)) : (FVec Ideal S1x128 .f32) → (FVec Ideal S1x128 .f32) → (FVec Ideal S1x128 .f32)) (G_v191_2 a0 a1 a2 a3 a4 a5 a6 a7 a8 a9 a10 a11 a12 a13 a14 a15 a16 a17 a18 a19 a26) ((((broadcastInDim S1x128 ![] bcast_S_S1x128)) : (FVec Ideal S_ .f32) → (FVec Ideal S1x128 .f32)) (((constant S_ .f32 0x47C35000#32)) : FVec Ideal S_ .f32))) ((((mulf)) : (FVec Ideal S1x128 .f32) → (FVec Ideal S1x128 .f32) → (FVec Ideal S1x128 .f32)) (G_v193 a0 a1 a2 a3 a4 a5 a6 a7 a8 a9 a10 a11 a12 a13 a14 a15 a16 a17 a18 a19 a26) (G_v193 a0 a1 a2 a3 a4 a5 a6 a7 a8 a9 a10 a11 a12 a13 a14 a15 a16 a17 a18 a19 a26)))

/-- The value of main_v198 as a function of the launch arguments. -/
def G_v198 (a17 : FVec Ideal S4x128 .f32) : FVec Ideal S1x128 .f32 :=
  ((shapeCast _ (G_v173 a17) shapeCasts_S128_S1x128) : FVec Ideal S1x128 .f32)

/-- The value of main_v199 as a function of the launch arguments. -/
def G_v199 (a18 : FVec Ideal S4x128 .f32) : FVec Ideal S1x128 .f32 :=
  ((shapeCast _ (G_v175 a18) shapeCasts_S128_S1x128) : FVec Ideal S1x128 .f32)

/-- The value of main_v200 as a function of the launch arguments. -/
def G_v200 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) : FVec Ideal S100000x128 .f32 :=
  Cert.KernelIdeal.Reg14.out6 (G_v191_0 a0 a1 a2 a3 a4 a5 a6 a7 a8 a9 a10 a11 a12 a13 a14 a15 a16 a17 a18 a19 a26) (G_v157 a0 a1 a2 a3 a4 a5 a6 a7 a8 a9 a10 a11 a12 a13 a14 a15 a16 a17 a18 a19 a26) (G_v193 a0 a1 a2 a3 a4 a5 a6 a7 a8 a9 a10 a11 a12 a13 a14 a15 a16 a17 a18 a19 a26) (G_v197 a0 a1 a2 a3 a4 a5 a6 a7 a8 a9 a10 a11 a12 a13 a14 a15 a16 a17 a18 a19 a26) (G_v198 a17) (G_v199 a18)

/-- The value of main_v212 as a function of the launch arguments. -/
def G_v212 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a26 : IVec S2x600000 32) (a27 : IVec S100000 32) : FVec Ideal S5000x128 .f32 :=
  ((((Host.divf)) : (FVec Ideal S5000x128 .f32) → (FVec Ideal S5000x128 .f32) → (FVec Ideal S5000x128 .f32)) (((((fun x i u => Host.scatterAdd scatter_S5000x128_S100000x1_S100000x128_1_0_0_1 x i u))) : (FVec Ideal S5000x128 .f32) → (IVec S100000x1 32) → (FVec Ideal S100000x128 .f32) → (FVec Ideal S5000x128 .f32)) ((((broadcastInDim S5000x128 ![] bcast_S_S5000x128)) : (FVec Ideal S_ .f32) → (FVec Ideal S5000x128 .f32)) (((constant S_ .f32 0x00000000#32)) : FVec Ideal S_ .f32)) ((((broadcastInDim S100000x1 ![0] bcast_S100000_S100000x1_0)) : (IVec S100000 32) → (IVec S100000x1 32)) a27) (G_v200 a0 a1 a2 a3 a4 a5 a6 a7 a8 a9 a10 a11 a12 a13 a14 a15 a16 a17 a18 a19 a26)) ((((broadcastInDim S5000x128 ![0, 1] bcast_S5000x1_S5000x128_0_1)) : (FVec Ideal S5000x1 .f32) → (FVec Ideal S5000x128 .f32)) ((((broadcastInDim S5000x1 ![0] bcast_S5000_S5000x1_0)) : (FVec Ideal S5000 .f32) → (FVec Ideal S5000x1 .f32)) ((((maximumf)) : (FVec Ideal S5000 .f32) → (FVec Ideal S5000 .f32) → (FVec Ideal S5000 .f32)) (((((fun x i u => Host.scatterAdd scatter_S5000_S100000x1_S100000_n_0_0_1 x i u))) : (FVec Ideal S5000 .f32) → (IVec S100000x1 32) → (FVec Ideal S100000 .f32) → (FVec Ideal S5000 .f32)) ((((broadcastInDim S5000 ![] bcast_S_S5000)) : (FVec Ideal S_ .f32) → (FVec Ideal S5000 .f32)) (((constant S_ .f32 0x00000000#32)) : FVec Ideal S_ .f32)) ((((broadcastInDim S100000x1 ![0] bcast_S100000_S100000x1_0)) : (IVec S100000 32) → (IVec S100000x1 32)) a27) ((((broadcastInDim S100000 ![] bcast_S_S100000)) : (FVec Ideal S_ .f32) → (FVec Ideal S100000 .f32)) (((constant S_ .f32 0x3F800000#32)) : FVec Ideal S_ .f32))) ((((broadcastInDim S5000 ![] bcast_S_S5000)) : (FVec Ideal S_ .f32) → (FVec Ideal S5000 .f32)) (((constant S_ .f32 0x3F800000#32)) : FVec Ideal S_ .f32))))))

/-- The value of main_v213 as a function of the launch arguments. -/
def G_v213 (a21 : FVec Ideal S128 .f32) : FVec Ideal S1x128 .f32 :=
  ((shapeCast _ a21 shapeCasts_S128_S1x128) : FVec Ideal S1x128 .f32)

/-- The value of main_v214 as a function of the launch arguments. -/
def G_v214 (a23 : FVec Ideal S128 .f32) : FVec Ideal S1x128 .f32 :=
  ((shapeCast _ a23 shapeCasts_S128_S1x128) : FVec Ideal S1x128 .f32)

/-- The value of main_v215 as a function of the launch arguments. -/
def G_v215 (a25 : FVec Ideal S1 .f32) : FVec Ideal S1x1 .f32 :=
  ((shapeCast _ a25 shapeCasts_S1_S1x1) : FVec Ideal S1x1 .f32)

/-- The value of main_v216 as a function of the launch arguments. -/
def G_v216 (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a20 : FVec Ideal S128x128 .f32) (a21 : FVec Ideal S128 .f32) (a22 : FVec Ideal S128x128 .f32) (a23 : FVec Ideal S128 .f32) (a24 : FVec Ideal S128x1 .f32) (a25 : FVec Ideal S1 .f32) (a26 : IVec S2x600000 32) (a27 : IVec S100000 32) : FVec Ideal S5000x1 .f32 :=
  Cert.KernelIdeal.Reg15.out7 (G_v212 a0 a1 a2 a3 a4 a5 a6 a7 a8 a9 a10 a11 a12 a13 a14 a15 a16 a17 a18 a19 a26 a27) a20 (G_v213 a21) a22 (G_v214 a23) a24 (G_v215 a25)

end Cert.KernelIdeal.KerRead

end
-- ==== Proof.KerRead1.lean ====
/- The boundaries' contents, continued: see part 0. -/
import proofs.«162690_j78211354460181_1_alg».proof.Proof.KerRead0

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

set_option maxHeartbeats 4000000 in
theorem T_v1 (c : Dev nD) : W1 m ρ c (Proc.devRef .tc main_v1) = G_v1 (m ((c : Thread nD τ).loc main_arg26)) := by
  show after hostOps0 (W0 m ρ c) (Proc.devRef .tc main_v1) = _
  after_results
  rw [show W0 m ρ c (Proc.devRef .tc main_arg26) = _ from (show W0 m ρ c (Proc.devRef .tc main_arg26) = m ((c : Thread nD τ).loc main_arg26) from rfl)]
  rfl

set_option maxHeartbeats 4000000 in
theorem T_v3 (c : Dev nD) : W1 m ρ c (Proc.devRef .tc main_v3) = G_v3 (m ((c : Thread nD τ).loc main_arg26)) := by
  show after hostOps0 (W0 m ρ c) (Proc.devRef .tc main_v3) = _
  after_results
  rw [show W0 m ρ c (Proc.devRef .tc main_arg26) = _ from (show W0 m ρ c (Proc.devRef .tc main_arg26) = m ((c : Thread nD τ).loc main_arg26) from rfl)]
  rfl

set_option maxHeartbeats 4000000 in
theorem T_v10 (c : Dev nD) : W1 m ρ c (Proc.devRef .tc main_v10) = G_v10 (m ((c : Thread nD τ).loc main_arg0)) (m ((c : Thread nD τ).loc main_arg26)) := by
  show after hostOps0 (W0 m ρ c) (Proc.devRef .tc main_v10) = _
  after_results
  rw [show W0 m ρ c (Proc.devRef .tc main_arg0) = _ from (show W0 m ρ c (Proc.devRef .tc main_arg0) = m ((c : Thread nD τ).loc main_arg0) from rfl)]
  rw [show W0 m ρ c (Proc.devRef .tc main_arg26) = _ from (show W0 m ρ c (Proc.devRef .tc main_arg26) = m ((c : Thread nD τ).loc main_arg26) from rfl)]
  rfl

set_option maxHeartbeats 4000000 in
theorem T_v11 (c : Dev nD) : W1 m ρ c (Proc.devRef .tc main_v11) = G_v11 (m ((c : Thread nD τ).loc main_arg3)) := by
  show after hostOps0 (W0 m ρ c) (Proc.devRef .tc main_v11) = _
  after_results
  rw [show W0 m ρ c (Proc.devRef .tc main_arg3) = _ from (show W0 m ρ c (Proc.devRef .tc main_arg3) = m ((c : Thread nD τ).loc main_arg3) from rfl)]
  rfl

theorem ch_arg1_1 (c : Dev nD) : W1 m ρ c (Proc.devRef .tc main_arg1) = W0 m ρ c (Proc.devRef .tc main_arg1) :=
  (keep0 (W0 m ρ c) main_arg1 (by decide))

theorem ch_arg2_1 (c : Dev nD) : W1 m ρ c (Proc.devRef .tc main_arg2) = W0 m ρ c (Proc.devRef .tc main_arg2) :=
  (keep0 (W0 m ρ c) main_arg2 (by decide))

set_option maxHeartbeats 4000000 in
theorem T_v12 (c : Dev nD) : W2 m ρ c (Proc.devRef .tc main_v12) = G_v12 (m ((c : Thread nD τ).loc main_arg0)) (m ((c : Thread nD τ).loc main_arg1)) (m ((c : Thread nD τ).loc main_arg2)) (m ((c : Thread nD τ).loc main_arg3)) (m ((c : Thread nD τ).loc main_arg26)) := by
  refine (W2_arr m ρ c 4).trans ((Cert.KernelIdeal.Reg0.final4 (V1 m ρ) c).trans ?_)
  unfold G_v12
  rw [show V1 m ρ c main_v10 = _ from (T_v10 m ρ c)]
  rw [show V1 m ρ c main_arg1 = _ from ((ch_arg1_1 m ρ c).trans (show W0 m ρ c (Proc.devRef .tc main_arg1) = m ((c : Thread nD τ).loc main_arg1) from rfl))]
  rw [show V1 m ρ c main_arg2 = _ from ((ch_arg2_1 m ρ c).trans (show W0 m ρ c (Proc.devRef .tc main_arg2) = m ((c : Thread nD τ).loc main_arg2) from rfl))]
  rw [show V1 m ρ c main_v11 = _ from (T_v11 m ρ c)]

theorem ch_v3_2 (c : Dev nD) : W2 m ρ c (Proc.devRef .tc main_v3) = W1 m ρ c (Proc.devRef .tc main_v3) :=
  (W2_of_ne m ρ c main_v3 (by decide))

set_option maxHeartbeats 4000000 in
theorem T_v15 (c : Dev nD) : W3 m ρ c (Proc.devRef .tc main_v15) = G_v15 (m ((c : Thread nD τ).loc main_arg0)) (m ((c : Thread nD τ).loc main_arg1)) (m ((c : Thread nD τ).loc main_arg2)) (m ((c : Thread nD τ).loc main_arg3)) (m ((c : Thread nD τ).loc main_arg26)) := by
  show after hostOps1 (W2 m ρ c) (Proc.devRef .tc main_v15) = _
  after_results
  rw [show W2 m ρ c (Proc.devRef .tc main_v3) = _ from ((ch_v3_2 m ρ c).trans (T_v3 m ρ c))]
  rw [show W2 m ρ c (Proc.devRef .tc main_v12) = _ from (T_v12 m ρ c)]
  rfl

theorem ch_arg10_2 (c : Dev nD) : W2 m ρ c (Proc.devRef .tc main_arg10) = W0 m ρ c (Proc.devRef .tc main_arg10) :=
  (W2_of_ne m ρ c main_arg10 (by decide)).trans ((keep0 (W0 m ρ c) main_arg10 (by decide)))

set_option maxHeartbeats 4000000 in
theorem T_v16 (c : Dev nD) : W3 m ρ c (Proc.devRef .tc main_v16) = G_v16 (m ((c : Thread nD τ).loc main_arg10)) := by
  show after hostOps1 (W2 m ρ c) (Proc.devRef .tc main_v16) = _
  after_results
  rw [show W2 m ρ c (Proc.devRef .tc main_arg10) = _ from ((ch_arg10_2 m ρ c).trans (show W0 m ρ c (Proc.devRef .tc main_arg10) = m ((c : Thread nD τ).loc main_arg10) from rfl))]
  rfl

theorem ch_arg5_2 (c : Dev nD) : W2 m ρ c (Proc.devRef .tc main_arg5) = W0 m ρ c (Proc.devRef .tc main_arg5) :=
  (W2_of_ne m ρ c main_arg5 (by decide)).trans ((keep0 (W0 m ρ c) main_arg5 (by decide)))

set_option maxHeartbeats 4000000 in
theorem T_v17 (c : Dev nD) : W3 m ρ c (Proc.devRef .tc main_v17) = G_v17 (m ((c : Thread nD τ).loc main_arg5)) := by
  show after hostOps1 (W2 m ρ c) (Proc.devRef .tc main_v17) = _
  after_results
  rw [show W2 m ρ c (Proc.devRef .tc main_arg5) = _ from ((ch_arg5_2 m ρ c).trans (show W0 m ρ c (Proc.devRef .tc main_arg5) = m ((c : Thread nD τ).loc main_arg5) from rfl))]
  rfl

theorem ch_arg7_2 (c : Dev nD) : W2 m ρ c (Proc.devRef .tc main_arg7) = W0 m ρ c (Proc.devRef .tc main_arg7) :=
  (W2_of_ne m ρ c main_arg7 (by decide)).trans ((keep0 (W0 m ρ c) main_arg7 (by decide)))

set_option maxHeartbeats 4000000 in
theorem T_v18 (c : Dev nD) : W3 m ρ c (Proc.devRef .tc main_v18) = G_v18 (m ((c : Thread nD τ).loc main_arg7)) := by
  show after hostOps1 (W2 m ρ c) (Proc.devRef .tc main_v18) = _
  after_results
  rw [show W2 m ρ c (Proc.devRef .tc main_arg7) = _ from ((ch_arg7_2 m ρ c).trans (show W0 m ρ c (Proc.devRef .tc main_arg7) = m ((c : Thread nD τ).loc main_arg7) from rfl))]
  rfl

theorem ch_arg0_3 (c : Dev nD) : W3 m ρ c (Proc.devRef .tc main_arg0) = W0 m ρ c (Proc.devRef .tc main_arg0) :=
  (keep1 (W2 m ρ c) main_arg0 (by decide)).trans ((W2_of_ne m ρ c main_arg0 (by decide)).trans ((keep0 (W0 m ρ c) main_arg0 (by decide))))

theorem ch_arg4_3 (c : Dev nD) : W3 m ρ c (Proc.devRef .tc main_arg4) = W0 m ρ c (Proc.devRef .tc main_arg4) :=
  (keep1 (W2 m ρ c) main_arg4 (by decide)).trans ((W2_of_ne m ρ c main_arg4 (by decide)).trans ((keep0 (W0 m ρ c) main_arg4 (by decide))))

theorem ch_arg6_3 (c : Dev nD) : W3 m ρ c (Proc.devRef .tc main_arg6) = W0 m ρ c (Proc.devRef .tc main_arg6) :=
  (keep1 (W2 m ρ c) main_arg6 (by decide)).trans ((W2_of_ne m ρ c main_arg6 (by decide)).trans ((keep0 (W0 m ρ c) main_arg6 (by decide))))

set_option maxHeartbeats 4000000 in
theorem T_v19_0 (c : Dev nD) : W4 m ρ c (Proc.devRef .tc main_v19_0) = G_v19_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg26)) := by
  refine (W4_arr m ρ c 7).trans ((Cert.KernelIdeal.Reg1.final7 (V3 m ρ) c).trans ?_)
  unfold G_v19_0
  rw [show V3 m ρ c main_arg0 = _ from ((ch_arg0_3 m ρ c).trans (show W0 m ρ c (Proc.devRef .tc main_arg0) = m ((c : Thread nD τ).loc main_arg0) from rfl))]
  rw [show V3 m ρ c main_v15 = _ from (T_v15 m ρ c)]
  rw [show V3 m ρ c main_v16 = _ from (T_v16 m ρ c)]
  rw [show V3 m ρ c main_arg4 = _ from ((ch_arg4_3 m ρ c).trans (show W0 m ρ c (Proc.devRef .tc main_arg4) = m ((c : Thread nD τ).loc main_arg4) from rfl))]
  rw [show V3 m ρ c main_v17 = _ from (T_v17 m ρ c)]
  rw [show V3 m ρ c main_arg6 = _ from ((ch_arg6_3 m ρ c).trans (show W0 m ρ c (Proc.devRef .tc main_arg6) = m ((c : Thread nD τ).loc main_arg6) from rfl))]
  rw [show V3 m ρ c main_v18 = _ from (T_v18 m ρ c)]

set_option maxHeartbeats 4000000 in
theorem T_v19_1 (c : Dev nD) : W4 m ρ c (Proc.devRef .tc main_v19_1) = G_v19_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg26)) := by
  refine (W4_arr m ρ c 8).trans ((Cert.KernelIdeal.Reg1.final8 (V3 m ρ) c).trans ?_)
  unfold G_v19_1
  rw [show V3 m ρ c main_arg0 = _ from ((ch_arg0_3 m ρ c).trans (show W0 m ρ c (Proc.devRef .tc main_arg0) = m ((c : Thread nD τ).loc main_arg0) from rfl))]
  rw [show V3 m ρ c main_v15 = _ from (T_v15 m ρ c)]
  rw [show V3 m ρ c main_v16 = _ from (T_v16 m ρ c)]
  rw [show V3 m ρ c main_arg4 = _ from ((ch_arg4_3 m ρ c).trans (show W0 m ρ c (Proc.devRef .tc main_arg4) = m ((c : Thread nD τ).loc main_arg4) from rfl))]
  rw [show V3 m ρ c main_v17 = _ from (T_v17 m ρ c)]
  rw [show V3 m ρ c main_arg6 = _ from ((ch_arg6_3 m ρ c).trans (show W0 m ρ c (Proc.devRef .tc main_arg6) = m ((c : Thread nD τ).loc main_arg6) from rfl))]
  rw [show V3 m ρ c main_v18 = _ from (T_v18 m ρ c)]

set_option maxHeartbeats 4000000 in
theorem T_v19_2 (c : Dev nD) : W4 m ρ c (Proc.devRef .tc main_v19_2) = G_v19_2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg26)) := by
  refine (W4_arr m ρ c 9).trans ((Cert.KernelIdeal.Reg1.final9 (V3 m ρ) c).trans ?_)
  unfold G_v19_2
  rw [show V3 m ρ c main_arg0 = _ from ((ch_arg0_3 m ρ c).trans (show W0 m ρ c (Proc.devRef .tc main_arg0) = m ((c : Thread nD τ).loc main_arg0) from rfl))]
  rw [show V3 m ρ c main_v15 = _ from (T_v15 m ρ c)]
  rw [show V3 m ρ c main_v16 = _ from (T_v16 m ρ c)]
  rw [show V3 m ρ c main_arg4 = _ from ((ch_arg4_3 m ρ c).trans (show W0 m ρ c (Proc.devRef .tc main_arg4) = m ((c : Thread nD τ).loc main_arg4) from rfl))]
  rw [show V3 m ρ c main_v17 = _ from (T_v17 m ρ c)]
  rw [show V3 m ρ c main_arg6 = _ from ((ch_arg6_3 m ρ c).trans (show W0 m ρ c (Proc.devRef .tc main_arg6) = m ((c : Thread nD τ).loc main_arg6) from rfl))]
  rw [show V3 m ρ c main_v18 = _ from (T_v18 m ρ c)]

end Cert.KernelIdeal.KerRead

end
-- ==== Proof.KerRead2.lean ====
/- The boundaries' contents, continued: see part 0. -/
import proofs.«162690_j78211354460181_1_alg».proof.Proof.KerRead1

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

set_option maxHeartbeats 4000000 in
theorem T_v21 (c : Dev nD) : W5 m ρ c (Proc.devRef .tc main_v21) = G_v21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg26)) := by
  show after hostOps2 (W4 m ρ c) (Proc.devRef .tc main_v21) = _
  after_results
  rw [show W4 m ρ c (Proc.devRef .tc main_v19_1) = _ from (T_v19_1 m ρ c)]
  rfl

set_option maxHeartbeats 4000000 in
theorem T_v25 (c : Dev nD) : W5 m ρ c (Proc.devRef .tc main_v25) = G_v25 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg26)) := by
  show after hostOps2 (W4 m ρ c) (Proc.devRef .tc main_v25) = _
  after_results
  rw [show W4 m ρ c (Proc.devRef .tc main_v19_2) = _ from (T_v19_2 m ρ c)]
  rw [show W4 m ρ c (Proc.devRef .tc main_v19_1) = _ from (T_v19_1 m ρ c)]
  rfl

theorem ch_arg8_4 (c : Dev nD) : W4 m ρ c (Proc.devRef .tc main_arg8) = W0 m ρ c (Proc.devRef .tc main_arg8) :=
  (W4_of_ne m ρ c main_arg8 (by decide)).trans ((keep1 (W2 m ρ c) main_arg8 (by decide)).trans ((W2_of_ne m ρ c main_arg8 (by decide)).trans ((keep0 (W0 m ρ c) main_arg8 (by decide)))))

set_option maxHeartbeats 4000000 in
theorem T_v26 (c : Dev nD) : W5 m ρ c (Proc.devRef .tc main_v26) = G_v26 (m ((c : Thread nD τ).loc main_arg8)) := by
  show after hostOps2 (W4 m ρ c) (Proc.devRef .tc main_v26) = _
  after_results
  rw [show W4 m ρ c (Proc.devRef .tc main_arg8) = _ from ((ch_arg8_4 m ρ c).trans (show W0 m ρ c (Proc.devRef .tc main_arg8) = m ((c : Thread nD τ).loc main_arg8) from rfl))]
  rfl

theorem ch_arg9_4 (c : Dev nD) : W4 m ρ c (Proc.devRef .tc main_arg9) = W0 m ρ c (Proc.devRef .tc main_arg9) :=
  (W4_of_ne m ρ c main_arg9 (by decide)).trans ((keep1 (W2 m ρ c) main_arg9 (by decide)).trans ((W2_of_ne m ρ c main_arg9 (by decide)).trans ((keep0 (W0 m ρ c) main_arg9 (by decide)))))

set_option maxHeartbeats 4000000 in
theorem T_v27 (c : Dev nD) : W5 m ρ c (Proc.devRef .tc main_v27) = G_v27 (m ((c : Thread nD τ).loc main_arg9)) := by
  show after hostOps2 (W4 m ρ c) (Proc.devRef .tc main_v27) = _
  after_results
  rw [show W4 m ρ c (Proc.devRef .tc main_arg9) = _ from ((ch_arg9_4 m ρ c).trans (show W0 m ρ c (Proc.devRef .tc main_arg9) = m ((c : Thread nD τ).loc main_arg9) from rfl))]
  rfl

theorem ch_v19_0_5 (c : Dev nD) : W5 m ρ c (Proc.devRef .tc main_v19_0) = W4 m ρ c (Proc.devRef .tc main_v19_0) :=
  (keep2 (W4 m ρ c) main_v19_0 (by decide))

set_option maxHeartbeats 4000000 in
theorem T_v28 (c : Dev nD) : W6 m ρ c (Proc.devRef .tc main_v28) = G_v28 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg26)) := by
  refine (W6_arr m ρ c 5).trans ((Cert.KernelIdeal.Reg2.final5 (V5 m ρ) c).trans ?_)
  unfold G_v28
  rw [show V5 m ρ c main_v19_0 = _ from ((ch_v19_0_5 m ρ c).trans (T_v19_0 m ρ c))]
  rw [show V5 m ρ c main_v21 = _ from (T_v21 m ρ c)]
  rw [show V5 m ρ c main_v25 = _ from (T_v25 m ρ c)]
  rw [show V5 m ρ c main_v26 = _ from (T_v26 m ρ c)]
  rw [show V5 m ρ c main_v27 = _ from (T_v27 m ρ c)]

theorem ch_arg11_6 (c : Dev nD) : W6 m ρ c (Proc.devRef .tc main_arg11) = W0 m ρ c (Proc.devRef .tc main_arg11) :=
  (W6_of_ne m ρ c main_arg11 (by decide)).trans ((keep2 (W4 m ρ c) main_arg11 (by decide)).trans ((W4_of_ne m ρ c main_arg11 (by decide)).trans ((keep1 (W2 m ρ c) main_arg11 (by decide)).trans ((W2_of_ne m ρ c main_arg11 (by decide)).trans ((keep0 (W0 m ρ c) main_arg11 (by decide)))))))

set_option maxHeartbeats 4000000 in
theorem T_v30 (c : Dev nD) : W7 m ρ c (Proc.devRef .tc main_v30) = G_v30 (m ((c : Thread nD τ).loc main_arg11)) := by
  show after hostOps3 (W6 m ρ c) (Proc.devRef .tc main_v30) = _
  after_results
  rw [show W6 m ρ c (Proc.devRef .tc main_arg11) = _ from ((ch_arg11_6 m ρ c).trans (show W0 m ρ c (Proc.devRef .tc main_arg11) = m ((c : Thread nD τ).loc main_arg11) from rfl))]
  rfl

theorem ch_arg19_6 (c : Dev nD) : W6 m ρ c (Proc.devRef .tc main_arg19) = W0 m ρ c (Proc.devRef .tc main_arg19) :=
  (W6_of_ne m ρ c main_arg19 (by decide)).trans ((keep2 (W4 m ρ c) main_arg19 (by decide)).trans ((W4_of_ne m ρ c main_arg19 (by decide)).trans ((keep1 (W2 m ρ c) main_arg19 (by decide)).trans ((W2_of_ne m ρ c main_arg19 (by decide)).trans ((keep0 (W0 m ρ c) main_arg19 (by decide)))))))

set_option maxHeartbeats 4000000 in
theorem T_v34 (c : Dev nD) : W7 m ρ c (Proc.devRef .tc main_v34) = G_v34 (m ((c : Thread nD τ).loc main_arg19)) := by
  show after hostOps3 (W6 m ρ c) (Proc.devRef .tc main_v34) = _
  after_results
  rw [show W6 m ρ c (Proc.devRef .tc main_arg19) = _ from ((ch_arg19_6 m ρ c).trans (show W0 m ρ c (Proc.devRef .tc main_arg19) = m ((c : Thread nD τ).loc main_arg19) from rfl))]
  rfl

theorem ch_arg13_6 (c : Dev nD) : W6 m ρ c (Proc.devRef .tc main_arg13) = W0 m ρ c (Proc.devRef .tc main_arg13) :=
  (W6_of_ne m ρ c main_arg13 (by decide)).trans ((keep2 (W4 m ρ c) main_arg13 (by decide)).trans ((W4_of_ne m ρ c main_arg13 (by decide)).trans ((keep1 (W2 m ρ c) main_arg13 (by decide)).trans ((W2_of_ne m ρ c main_arg13 (by decide)).trans ((keep0 (W0 m ρ c) main_arg13 (by decide)))))))

set_option maxHeartbeats 4000000 in
theorem T_v36 (c : Dev nD) : W7 m ρ c (Proc.devRef .tc main_v36) = G_v36 (m ((c : Thread nD τ).loc main_arg13)) := by
  show after hostOps3 (W6 m ρ c) (Proc.devRef .tc main_v36) = _
  after_results
  rw [show W6 m ρ c (Proc.devRef .tc main_arg13) = _ from ((ch_arg13_6 m ρ c).trans (show W0 m ρ c (Proc.devRef .tc main_arg13) = m ((c : Thread nD τ).loc main_arg13) from rfl))]
  rfl

theorem ch_arg14_6 (c : Dev nD) : W6 m ρ c (Proc.devRef .tc main_arg14) = W0 m ρ c (Proc.devRef .tc main_arg14) :=
  (W6_of_ne m ρ c main_arg14 (by decide)).trans ((keep2 (W4 m ρ c) main_arg14 (by decide)).trans ((W4_of_ne m ρ c main_arg14 (by decide)).trans ((keep1 (W2 m ρ c) main_arg14 (by decide)).trans ((W2_of_ne m ρ c main_arg14 (by decide)).trans ((keep0 (W0 m ρ c) main_arg14 (by decide)))))))

set_option maxHeartbeats 4000000 in
theorem T_v38 (c : Dev nD) : W7 m ρ c (Proc.devRef .tc main_v38) = G_v38 (m ((c : Thread nD τ).loc main_arg14)) := by
  show after hostOps3 (W6 m ρ c) (Proc.devRef .tc main_v38) = _
  after_results
  rw [show W6 m ρ c (Proc.devRef .tc main_arg14) = _ from ((ch_arg14_6 m ρ c).trans (show W0 m ρ c (Proc.devRef .tc main_arg14) = m ((c : Thread nD τ).loc main_arg14) from rfl))]
  rfl

theorem ch_arg15_6 (c : Dev nD) : W6 m ρ c (Proc.devRef .tc main_arg15) = W0 m ρ c (Proc.devRef .tc main_arg15) :=
  (W6_of_ne m ρ c main_arg15 (by decide)).trans ((keep2 (W4 m ρ c) main_arg15 (by decide)).trans ((W4_of_ne m ρ c main_arg15 (by decide)).trans ((keep1 (W2 m ρ c) main_arg15 (by decide)).trans ((W2_of_ne m ρ c main_arg15 (by decide)).trans ((keep0 (W0 m ρ c) main_arg15 (by decide)))))))

set_option maxHeartbeats 4000000 in
theorem T_v40 (c : Dev nD) : W7 m ρ c (Proc.devRef .tc main_v40) = G_v40 (m ((c : Thread nD τ).loc main_arg15)) := by
  show after hostOps3 (W6 m ρ c) (Proc.devRef .tc main_v40) = _
  after_results
  rw [show W6 m ρ c (Proc.devRef .tc main_arg15) = _ from ((ch_arg15_6 m ρ c).trans (show W0 m ρ c (Proc.devRef .tc main_arg15) = m ((c : Thread nD τ).loc main_arg15) from rfl))]
  rfl

theorem ch_arg16_6 (c : Dev nD) : W6 m ρ c (Proc.devRef .tc main_arg16) = W0 m ρ c (Proc.devRef .tc main_arg16) :=
  (W6_of_ne m ρ c main_arg16 (by decide)).trans ((keep2 (W4 m ρ c) main_arg16 (by decide)).trans ((W4_of_ne m ρ c main_arg16 (by decide)).trans ((keep1 (W2 m ρ c) main_arg16 (by decide)).trans ((W2_of_ne m ρ c main_arg16 (by decide)).trans ((keep0 (W0 m ρ c) main_arg16 (by decide)))))))

set_option maxHeartbeats 4000000 in
theorem T_v42 (c : Dev nD) : W7 m ρ c (Proc.devRef .tc main_v42) = G_v42 (m ((c : Thread nD τ).loc main_arg16)) := by
  show after hostOps3 (W6 m ρ c) (Proc.devRef .tc main_v42) = _
  after_results
  rw [show W6 m ρ c (Proc.devRef .tc main_arg16) = _ from ((ch_arg16_6 m ρ c).trans (show W0 m ρ c (Proc.devRef .tc main_arg16) = m ((c : Thread nD τ).loc main_arg16) from rfl))]
  rfl

theorem ch_arg17_6 (c : Dev nD) : W6 m ρ c (Proc.devRef .tc main_arg17) = W0 m ρ c (Proc.devRef .tc main_arg17) :=
  (W6_of_ne m ρ c main_arg17 (by decide)).trans ((keep2 (W4 m ρ c) main_arg17 (by decide)).trans ((W4_of_ne m ρ c main_arg17 (by decide)).trans ((keep1 (W2 m ρ c) main_arg17 (by decide)).trans ((W2_of_ne m ρ c main_arg17 (by decide)).trans ((keep0 (W0 m ρ c) main_arg17 (by decide)))))))

set_option maxHeartbeats 4000000 in
theorem T_v44 (c : Dev nD) : W7 m ρ c (Proc.devRef .tc main_v44) = G_v44 (m ((c : Thread nD τ).loc main_arg17)) := by
  show after hostOps3 (W6 m ρ c) (Proc.devRef .tc main_v44) = _
  after_results
  rw [show W6 m ρ c (Proc.devRef .tc main_arg17) = _ from ((ch_arg17_6 m ρ c).trans (show W0 m ρ c (Proc.devRef .tc main_arg17) = m ((c : Thread nD τ).loc main_arg17) from rfl))]
  rfl

end Cert.KernelIdeal.KerRead

end
-- ==== Proof.KerRead3.lean ====
/- The boundaries' contents, continued: see part 0. -/
import proofs.«162690_j78211354460181_1_alg».proof.Proof.KerRead2

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem ch_arg18_6 (c : Dev nD) : W6 m ρ c (Proc.devRef .tc main_arg18) = W0 m ρ c (Proc.devRef .tc main_arg18) :=
  (W6_of_ne m ρ c main_arg18 (by decide)).trans ((keep2 (W4 m ρ c) main_arg18 (by decide)).trans ((W4_of_ne m ρ c main_arg18 (by decide)).trans ((keep1 (W2 m ρ c) main_arg18 (by decide)).trans ((W2_of_ne m ρ c main_arg18 (by decide)).trans ((keep0 (W0 m ρ c) main_arg18 (by decide)))))))

set_option maxHeartbeats 4000000 in
theorem T_v46 (c : Dev nD) : W7 m ρ c (Proc.devRef .tc main_v46) = G_v46 (m ((c : Thread nD τ).loc main_arg18)) := by
  show after hostOps3 (W6 m ρ c) (Proc.devRef .tc main_v46) = _
  after_results
  rw [show W6 m ρ c (Proc.devRef .tc main_arg18) = _ from ((ch_arg18_6 m ρ c).trans (show W0 m ρ c (Proc.devRef .tc main_arg18) = m ((c : Thread nD τ).loc main_arg18) from rfl))]
  rfl

theorem ch_v1_6 (c : Dev nD) : W6 m ρ c (Proc.devRef .tc main_v1) = W1 m ρ c (Proc.devRef .tc main_v1) :=
  (W6_of_ne m ρ c main_v1 (by decide)).trans ((keep2 (W4 m ρ c) main_v1 (by decide)).trans ((W4_of_ne m ρ c main_v1 (by decide)).trans ((keep1 (W2 m ρ c) main_v1 (by decide)).trans ((W2_of_ne m ρ c main_v1 (by decide))))))

set_option maxHeartbeats 4000000 in
theorem T_v53 (c : Dev nD) : W7 m ρ c (Proc.devRef .tc main_v53) = G_v53 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg26)) := by
  show after hostOps3 (W6 m ρ c) (Proc.devRef .tc main_v53) = _
  after_results
  rw [show W6 m ρ c (Proc.devRef .tc main_v28) = _ from (T_v28 m ρ c)]
  rw [show W6 m ρ c (Proc.devRef .tc main_v1) = _ from ((ch_v1_6 m ρ c).trans (T_v1 m ρ c))]
  rfl

theorem ch_arg12_6 (c : Dev nD) : W6 m ρ c (Proc.devRef .tc main_arg12) = W0 m ρ c (Proc.devRef .tc main_arg12) :=
  (W6_of_ne m ρ c main_arg12 (by decide)).trans ((keep2 (W4 m ρ c) main_arg12 (by decide)).trans ((W4_of_ne m ρ c main_arg12 (by decide)).trans ((keep1 (W2 m ρ c) main_arg12 (by decide)).trans ((W2_of_ne m ρ c main_arg12 (by decide)).trans ((keep0 (W0 m ρ c) main_arg12 (by decide)))))))

set_option maxHeartbeats 4000000 in
theorem T_v54 (c : Dev nD) : W7 m ρ c (Proc.devRef .tc main_v54) = G_v54 (m ((c : Thread nD τ).loc main_arg12)) := by
  show after hostOps3 (W6 m ρ c) (Proc.devRef .tc main_v54) = _
  after_results
  rw [show W6 m ρ c (Proc.devRef .tc main_arg12) = _ from ((ch_arg12_6 m ρ c).trans (show W0 m ρ c (Proc.devRef .tc main_arg12) = m ((c : Thread nD τ).loc main_arg12) from rfl))]
  rfl

theorem ch_arg1_7 (c : Dev nD) : W7 m ρ c (Proc.devRef .tc main_arg1) = W0 m ρ c (Proc.devRef .tc main_arg1) :=
  (keep3 (W6 m ρ c) main_arg1 (by decide)).trans ((W6_of_ne m ρ c main_arg1 (by decide)).trans ((keep2 (W4 m ρ c) main_arg1 (by decide)).trans ((W4_of_ne m ρ c main_arg1 (by decide)).trans ((keep1 (W2 m ρ c) main_arg1 (by decide)).trans (((W2_arr m ρ c 1).trans (((dat0 (V1 m ρ) c).arrAt_in 1 rfl _).trans (A_eq0 (V1 m ρ) c 1))).trans ((keep0 (W0 m ρ c) main_arg1 (by decide))))))))

set_option maxHeartbeats 4000000 in
theorem T_v55 (c : Dev nD) : W8 m ρ c (Proc.devRef .tc main_v55) = G_v55 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg26)) := by
  refine (W8_arr m ρ c 4).trans ((Cert.KernelIdeal.Reg3.final4 (V7 m ρ) c).trans ?_)
  unfold G_v55
  rw [show V7 m ρ c main_v53 = _ from (T_v53 m ρ c)]
  rw [show V7 m ρ c main_arg1 = _ from ((ch_arg1_7 m ρ c).trans (show W0 m ρ c (Proc.devRef .tc main_arg1) = m ((c : Thread nD τ).loc main_arg1) from rfl))]
  rw [show V7 m ρ c main_v30 = _ from (T_v30 m ρ c)]
  rw [show V7 m ρ c main_v54 = _ from (T_v54 m ρ c)]

theorem ch_v3_8 (c : Dev nD) : W8 m ρ c (Proc.devRef .tc main_v3) = W1 m ρ c (Proc.devRef .tc main_v3) :=
  (W8_of_ne m ρ c main_v3 (by decide)).trans ((keep3 (W6 m ρ c) main_v3 (by decide)).trans ((W6_of_ne m ρ c main_v3 (by decide)).trans ((keep2 (W4 m ρ c) main_v3 (by decide)).trans ((W4_of_ne m ρ c main_v3 (by decide)).trans ((keep1 (W2 m ρ c) main_v3 (by decide)).trans ((W2_of_ne m ρ c main_v3 (by decide))))))))

set_option maxHeartbeats 4000000 in
theorem T_v58 (c : Dev nD) : W9 m ρ c (Proc.devRef .tc main_v58) = G_v58 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg26)) := by
  show after hostOps4 (W8 m ρ c) (Proc.devRef .tc main_v58) = _
  after_results
  rw [show W8 m ρ c (Proc.devRef .tc main_v3) = _ from ((ch_v3_8 m ρ c).trans (T_v3 m ρ c))]
  rw [show W8 m ρ c (Proc.devRef .tc main_v55) = _ from (T_v55 m ρ c)]
  rfl

theorem ch_v34_8 (c : Dev nD) : W8 m ρ c (Proc.devRef .tc main_v34) = W7 m ρ c (Proc.devRef .tc main_v34) :=
  (W8_of_ne m ρ c main_v34 (by decide))

set_option maxHeartbeats 4000000 in
theorem T_v59 (c : Dev nD) : W9 m ρ c (Proc.devRef .tc main_v59) = G_v59 (m ((c : Thread nD τ).loc main_arg19)) := by
  show after hostOps4 (W8 m ρ c) (Proc.devRef .tc main_v59) = _
  after_results
  rw [show W8 m ρ c (Proc.devRef .tc main_v34) = _ from ((ch_v34_8 m ρ c).trans (T_v34 m ρ c))]
  rfl

theorem ch_v38_8 (c : Dev nD) : W8 m ρ c (Proc.devRef .tc main_v38) = W7 m ρ c (Proc.devRef .tc main_v38) :=
  (W8_of_ne m ρ c main_v38 (by decide))

set_option maxHeartbeats 4000000 in
theorem T_v60 (c : Dev nD) : W9 m ρ c (Proc.devRef .tc main_v60) = G_v60 (m ((c : Thread nD τ).loc main_arg14)) := by
  show after hostOps4 (W8 m ρ c) (Proc.devRef .tc main_v60) = _
  after_results
  rw [show W8 m ρ c (Proc.devRef .tc main_v38) = _ from ((ch_v38_8 m ρ c).trans (T_v38 m ρ c))]
  rfl

theorem ch_v42_8 (c : Dev nD) : W8 m ρ c (Proc.devRef .tc main_v42) = W7 m ρ c (Proc.devRef .tc main_v42) :=
  (W8_of_ne m ρ c main_v42 (by decide))

set_option maxHeartbeats 4000000 in
theorem T_v61 (c : Dev nD) : W9 m ρ c (Proc.devRef .tc main_v61) = G_v61 (m ((c : Thread nD τ).loc main_arg16)) := by
  show after hostOps4 (W8 m ρ c) (Proc.devRef .tc main_v61) = _
  after_results
  rw [show W8 m ρ c (Proc.devRef .tc main_v42) = _ from ((ch_v42_8 m ρ c).trans (T_v42 m ρ c))]
  rfl

theorem ch_v28_9 (c : Dev nD) : W9 m ρ c (Proc.devRef .tc main_v28) = W6 m ρ c (Proc.devRef .tc main_v28) :=
  (keep4 (W8 m ρ c) main_v28 (by decide)).trans ((W8_of_ne m ρ c main_v28 (by decide)).trans ((keep3 (W6 m ρ c) main_v28 (by decide))))

theorem ch_v36_9 (c : Dev nD) : W9 m ρ c (Proc.devRef .tc main_v36) = W7 m ρ c (Proc.devRef .tc main_v36) :=
  (keep4 (W8 m ρ c) main_v36 (by decide)).trans ((W8_of_ne m ρ c main_v36 (by decide)))

theorem ch_v40_9 (c : Dev nD) : W9 m ρ c (Proc.devRef .tc main_v40) = W7 m ρ c (Proc.devRef .tc main_v40) :=
  (keep4 (W8 m ρ c) main_v40 (by decide)).trans ((W8_of_ne m ρ c main_v40 (by decide)))

set_option maxHeartbeats 4000000 in
theorem T_v62_0 (c : Dev nD) : W10 m ρ c (Proc.devRef .tc main_v62_0) = G_v62_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg26)) := by
  refine (W10_arr m ρ c 7).trans ((Cert.KernelIdeal.Reg4.final7 (V9 m ρ) c).trans ?_)
  unfold G_v62_0
  rw [show V9 m ρ c main_v28 = _ from ((ch_v28_9 m ρ c).trans (T_v28 m ρ c))]
  rw [show V9 m ρ c main_v58 = _ from (T_v58 m ρ c)]
  rw [show V9 m ρ c main_v59 = _ from (T_v59 m ρ c)]
  rw [show V9 m ρ c main_v36 = _ from ((ch_v36_9 m ρ c).trans (T_v36 m ρ c))]
  rw [show V9 m ρ c main_v60 = _ from (T_v60 m ρ c)]
  rw [show V9 m ρ c main_v40 = _ from ((ch_v40_9 m ρ c).trans (T_v40 m ρ c))]
  rw [show V9 m ρ c main_v61 = _ from (T_v61 m ρ c)]

set_option maxHeartbeats 4000000 in
theorem T_v62_1 (c : Dev nD) : W10 m ρ c (Proc.devRef .tc main_v62_1) = G_v62_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg26)) := by
  refine (W10_arr m ρ c 8).trans ((Cert.KernelIdeal.Reg4.final8 (V9 m ρ) c).trans ?_)
  unfold G_v62_1
  rw [show V9 m ρ c main_v28 = _ from ((ch_v28_9 m ρ c).trans (T_v28 m ρ c))]
  rw [show V9 m ρ c main_v58 = _ from (T_v58 m ρ c)]
  rw [show V9 m ρ c main_v59 = _ from (T_v59 m ρ c)]
  rw [show V9 m ρ c main_v36 = _ from ((ch_v36_9 m ρ c).trans (T_v36 m ρ c))]
  rw [show V9 m ρ c main_v60 = _ from (T_v60 m ρ c)]
  rw [show V9 m ρ c main_v40 = _ from ((ch_v40_9 m ρ c).trans (T_v40 m ρ c))]
  rw [show V9 m ρ c main_v61 = _ from (T_v61 m ρ c)]

set_option maxHeartbeats 4000000 in
theorem T_v62_2 (c : Dev nD) : W10 m ρ c (Proc.devRef .tc main_v62_2) = G_v62_2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg26)) := by
  refine (W10_arr m ρ c 9).trans ((Cert.KernelIdeal.Reg4.final9 (V9 m ρ) c).trans ?_)
  unfold G_v62_2
  rw [show V9 m ρ c main_v28 = _ from ((ch_v28_9 m ρ c).trans (T_v28 m ρ c))]
  rw [show V9 m ρ c main_v58 = _ from (T_v58 m ρ c)]
  rw [show V9 m ρ c main_v59 = _ from (T_v59 m ρ c)]
  rw [show V9 m ρ c main_v36 = _ from ((ch_v36_9 m ρ c).trans (T_v36 m ρ c))]
  rw [show V9 m ρ c main_v60 = _ from (T_v60 m ρ c)]
  rw [show V9 m ρ c main_v40 = _ from ((ch_v40_9 m ρ c).trans (T_v40 m ρ c))]
  rw [show V9 m ρ c main_v61 = _ from (T_v61 m ρ c)]

set_option maxHeartbeats 4000000 in
theorem T_v64 (c : Dev nD) : W11 m ρ c (Proc.devRef .tc main_v64) = G_v64 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg26)) := by
  show after hostOps5 (W10 m ρ c) (Proc.devRef .tc main_v64) = _
  after_results
  rw [show W10 m ρ c (Proc.devRef .tc main_v62_1) = _ from (T_v62_1 m ρ c)]
  rfl

end Cert.KernelIdeal.KerRead

end
-- ==== Proof.KerRead4.lean ====
/- The boundaries' contents, continued: see part 0. -/
import proofs.«162690_j78211354460181_1_alg».proof.Proof.KerRead3

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

set_option maxHeartbeats 4000000 in
theorem T_v68 (c : Dev nD) : W11 m ρ c (Proc.devRef .tc main_v68) = G_v68 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg19)) (m ((c : Thread nD τ).loc main_arg26)) := by
  show after hostOps5 (W10 m ρ c) (Proc.devRef .tc main_v68) = _
  after_results
  rw [show W10 m ρ c (Proc.devRef .tc main_v62_2) = _ from (T_v62_2 m ρ c)]
  rw [show W10 m ρ c (Proc.devRef .tc main_v62_1) = _ from (T_v62_1 m ρ c)]
  rfl

theorem ch_v44_10 (c : Dev nD) : W10 m ρ c (Proc.devRef .tc main_v44) = W7 m ρ c (Proc.devRef .tc main_v44) :=
  (W10_of_ne m ρ c main_v44 (by decide)).trans ((keep4 (W8 m ρ c) main_v44 (by decide)).trans ((W8_of_ne m ρ c main_v44 (by decide))))

set_option maxHeartbeats 4000000 in
theorem T_v69 (c : Dev nD) : W11 m ρ c (Proc.devRef .tc main_v69) = G_v69 (m ((c : Thread nD τ).loc main_arg17)) := by
  show after hostOps5 (W10 m ρ c) (Proc.devRef .tc main_v69) = _
  after_results
  rw [show W10 m ρ c (Proc.devRef .tc main_v44) = _ from ((ch_v44_10 m ρ c).trans (T_v44 m ρ c))]
  rfl

theorem ch_v46_10 (c : Dev nD) : W10 m ρ c (Proc.devRef .tc main_v46) = W7 m ρ c (Proc.devRef .tc main_v46) :=
  (W10_of_ne m ρ c main_v46 (by decide)).trans ((keep4 (W8 m ρ c) main_v46 (by decide)).trans ((W8_of_ne m ρ c main_v46 (by decide))))

set_option maxHeartbeats 4000000 in
theorem T_v70 (c : Dev nD) : W11 m ρ c (Proc.devRef .tc main_v70) = G_v70 (m ((c : Thread nD τ).loc main_arg18)) := by
  show after hostOps5 (W10 m ρ c) (Proc.devRef .tc main_v70) = _
  after_results
  rw [show W10 m ρ c (Proc.devRef .tc main_v46) = _ from ((ch_v46_10 m ρ c).trans (T_v46 m ρ c))]
  rfl

theorem ch_v62_0_11 (c : Dev nD) : W11 m ρ c (Proc.devRef .tc main_v62_0) = W10 m ρ c (Proc.devRef .tc main_v62_0) :=
  (keep5 (W10 m ρ c) main_v62_0 (by decide))

theorem ch_v28_11 (c : Dev nD) : W11 m ρ c (Proc.devRef .tc main_v28) = W6 m ρ c (Proc.devRef .tc main_v28) :=
  (keep5 (W10 m ρ c) main_v28 (by decide)).trans (((W10_arr m ρ c 0).trans (((dat4 (V9 m ρ) c).arrAt_in 0 rfl _).trans (A_eq4 (V9 m ρ) c 0))).trans ((keep4 (W8 m ρ c) main_v28 (by decide)).trans ((W8_of_ne m ρ c main_v28 (by decide)).trans ((keep3 (W6 m ρ c) main_v28 (by decide))))))

set_option maxHeartbeats 4000000 in
theorem T_v71 (c : Dev nD) : W12 m ρ c (Proc.devRef .tc main_v71) = G_v71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W12_arr m ρ c 6).trans ((Cert.KernelIdeal.Reg5.final6 (V11 m ρ) c).trans ?_)
  unfold G_v71
  rw [show V11 m ρ c main_v62_0 = _ from ((ch_v62_0_11 m ρ c).trans (T_v62_0 m ρ c))]
  rw [show V11 m ρ c main_v28 = _ from ((ch_v28_11 m ρ c).trans (T_v28 m ρ c))]
  rw [show V11 m ρ c main_v64 = _ from (T_v64 m ρ c)]
  rw [show V11 m ρ c main_v68 = _ from (T_v68 m ρ c)]
  rw [show V11 m ρ c main_v69 = _ from (T_v69 m ρ c)]
  rw [show V11 m ρ c main_v70 = _ from (T_v70 m ρ c)]

theorem ch_arg11_12 (c : Dev nD) : W12 m ρ c (Proc.devRef .tc main_arg11) = W0 m ρ c (Proc.devRef .tc main_arg11) :=
  (W12_of_ne m ρ c main_arg11 (by decide)).trans ((keep5 (W10 m ρ c) main_arg11 (by decide)).trans ((W10_of_ne m ρ c main_arg11 (by decide)).trans ((keep4 (W8 m ρ c) main_arg11 (by decide)).trans ((W8_of_ne m ρ c main_arg11 (by decide)).trans ((keep3 (W6 m ρ c) main_arg11 (by decide)).trans ((W6_of_ne m ρ c main_arg11 (by decide)).trans ((keep2 (W4 m ρ c) main_arg11 (by decide)).trans ((W4_of_ne m ρ c main_arg11 (by decide)).trans ((keep1 (W2 m ρ c) main_arg11 (by decide)).trans ((W2_of_ne m ρ c main_arg11 (by decide)).trans ((keep0 (W0 m ρ c) main_arg11 (by decide)))))))))))))

set_option maxHeartbeats 4000000 in
theorem T_v73 (c : Dev nD) : W13 m ρ c (Proc.devRef .tc main_v73) = G_v73 (m ((c : Thread nD τ).loc main_arg11)) := by
  show after hostOps6 (W12 m ρ c) (Proc.devRef .tc main_v73) = _
  after_results
  rw [show W12 m ρ c (Proc.devRef .tc main_arg11) = _ from ((ch_arg11_12 m ρ c).trans (show W0 m ρ c (Proc.devRef .tc main_arg11) = m ((c : Thread nD τ).loc main_arg11) from rfl))]
  rfl

theorem ch_arg19_12 (c : Dev nD) : W12 m ρ c (Proc.devRef .tc main_arg19) = W0 m ρ c (Proc.devRef .tc main_arg19) :=
  (W12_of_ne m ρ c main_arg19 (by decide)).trans ((keep5 (W10 m ρ c) main_arg19 (by decide)).trans ((W10_of_ne m ρ c main_arg19 (by decide)).trans ((keep4 (W8 m ρ c) main_arg19 (by decide)).trans ((W8_of_ne m ρ c main_arg19 (by decide)).trans ((keep3 (W6 m ρ c) main_arg19 (by decide)).trans ((W6_of_ne m ρ c main_arg19 (by decide)).trans ((keep2 (W4 m ρ c) main_arg19 (by decide)).trans ((W4_of_ne m ρ c main_arg19 (by decide)).trans ((keep1 (W2 m ρ c) main_arg19 (by decide)).trans ((W2_of_ne m ρ c main_arg19 (by decide)).trans ((keep0 (W0 m ρ c) main_arg19 (by decide)))))))))))))

set_option maxHeartbeats 4000000 in
theorem T_v77 (c : Dev nD) : W13 m ρ c (Proc.devRef .tc main_v77) = G_v77 (m ((c : Thread nD τ).loc main_arg19)) := by
  show after hostOps6 (W12 m ρ c) (Proc.devRef .tc main_v77) = _
  after_results
  rw [show W12 m ρ c (Proc.devRef .tc main_arg19) = _ from ((ch_arg19_12 m ρ c).trans (show W0 m ρ c (Proc.devRef .tc main_arg19) = m ((c : Thread nD τ).loc main_arg19) from rfl))]
  rfl

theorem ch_arg13_12 (c : Dev nD) : W12 m ρ c (Proc.devRef .tc main_arg13) = W0 m ρ c (Proc.devRef .tc main_arg13) :=
  (W12_of_ne m ρ c main_arg13 (by decide)).trans ((keep5 (W10 m ρ c) main_arg13 (by decide)).trans ((W10_of_ne m ρ c main_arg13 (by decide)).trans ((keep4 (W8 m ρ c) main_arg13 (by decide)).trans ((W8_of_ne m ρ c main_arg13 (by decide)).trans ((keep3 (W6 m ρ c) main_arg13 (by decide)).trans ((W6_of_ne m ρ c main_arg13 (by decide)).trans ((keep2 (W4 m ρ c) main_arg13 (by decide)).trans ((W4_of_ne m ρ c main_arg13 (by decide)).trans ((keep1 (W2 m ρ c) main_arg13 (by decide)).trans ((W2_of_ne m ρ c main_arg13 (by decide)).trans ((keep0 (W0 m ρ c) main_arg13 (by decide)))))))))))))

set_option maxHeartbeats 4000000 in
theorem T_v79 (c : Dev nD) : W13 m ρ c (Proc.devRef .tc main_v79) = G_v79 (m ((c : Thread nD τ).loc main_arg13)) := by
  show after hostOps6 (W12 m ρ c) (Proc.devRef .tc main_v79) = _
  after_results
  rw [show W12 m ρ c (Proc.devRef .tc main_arg13) = _ from ((ch_arg13_12 m ρ c).trans (show W0 m ρ c (Proc.devRef .tc main_arg13) = m ((c : Thread nD τ).loc main_arg13) from rfl))]
  rfl

theorem ch_arg14_12 (c : Dev nD) : W12 m ρ c (Proc.devRef .tc main_arg14) = W0 m ρ c (Proc.devRef .tc main_arg14) :=
  (W12_of_ne m ρ c main_arg14 (by decide)).trans ((keep5 (W10 m ρ c) main_arg14 (by decide)).trans ((W10_of_ne m ρ c main_arg14 (by decide)).trans ((keep4 (W8 m ρ c) main_arg14 (by decide)).trans ((W8_of_ne m ρ c main_arg14 (by decide)).trans ((keep3 (W6 m ρ c) main_arg14 (by decide)).trans ((W6_of_ne m ρ c main_arg14 (by decide)).trans ((keep2 (W4 m ρ c) main_arg14 (by decide)).trans ((W4_of_ne m ρ c main_arg14 (by decide)).trans ((keep1 (W2 m ρ c) main_arg14 (by decide)).trans ((W2_of_ne m ρ c main_arg14 (by decide)).trans ((keep0 (W0 m ρ c) main_arg14 (by decide)))))))))))))

set_option maxHeartbeats 4000000 in
theorem T_v81 (c : Dev nD) : W13 m ρ c (Proc.devRef .tc main_v81) = G_v81 (m ((c : Thread nD τ).loc main_arg14)) := by
  show after hostOps6 (W12 m ρ c) (Proc.devRef .tc main_v81) = _
  after_results
  rw [show W12 m ρ c (Proc.devRef .tc main_arg14) = _ from ((ch_arg14_12 m ρ c).trans (show W0 m ρ c (Proc.devRef .tc main_arg14) = m ((c : Thread nD τ).loc main_arg14) from rfl))]
  rfl

theorem ch_arg15_12 (c : Dev nD) : W12 m ρ c (Proc.devRef .tc main_arg15) = W0 m ρ c (Proc.devRef .tc main_arg15) :=
  (W12_of_ne m ρ c main_arg15 (by decide)).trans ((keep5 (W10 m ρ c) main_arg15 (by decide)).trans ((W10_of_ne m ρ c main_arg15 (by decide)).trans ((keep4 (W8 m ρ c) main_arg15 (by decide)).trans ((W8_of_ne m ρ c main_arg15 (by decide)).trans ((keep3 (W6 m ρ c) main_arg15 (by decide)).trans ((W6_of_ne m ρ c main_arg15 (by decide)).trans ((keep2 (W4 m ρ c) main_arg15 (by decide)).trans ((W4_of_ne m ρ c main_arg15 (by decide)).trans ((keep1 (W2 m ρ c) main_arg15 (by decide)).trans ((W2_of_ne m ρ c main_arg15 (by decide)).trans ((keep0 (W0 m ρ c) main_arg15 (by decide)))))))))))))

set_option maxHeartbeats 4000000 in
theorem T_v83 (c : Dev nD) : W13 m ρ c (Proc.devRef .tc main_v83) = G_v83 (m ((c : Thread nD τ).loc main_arg15)) := by
  show after hostOps6 (W12 m ρ c) (Proc.devRef .tc main_v83) = _
  after_results
  rw [show W12 m ρ c (Proc.devRef .tc main_arg15) = _ from ((ch_arg15_12 m ρ c).trans (show W0 m ρ c (Proc.devRef .tc main_arg15) = m ((c : Thread nD τ).loc main_arg15) from rfl))]
  rfl

theorem ch_arg16_12 (c : Dev nD) : W12 m ρ c (Proc.devRef .tc main_arg16) = W0 m ρ c (Proc.devRef .tc main_arg16) :=
  (W12_of_ne m ρ c main_arg16 (by decide)).trans ((keep5 (W10 m ρ c) main_arg16 (by decide)).trans ((W10_of_ne m ρ c main_arg16 (by decide)).trans ((keep4 (W8 m ρ c) main_arg16 (by decide)).trans ((W8_of_ne m ρ c main_arg16 (by decide)).trans ((keep3 (W6 m ρ c) main_arg16 (by decide)).trans ((W6_of_ne m ρ c main_arg16 (by decide)).trans ((keep2 (W4 m ρ c) main_arg16 (by decide)).trans ((W4_of_ne m ρ c main_arg16 (by decide)).trans ((keep1 (W2 m ρ c) main_arg16 (by decide)).trans ((W2_of_ne m ρ c main_arg16 (by decide)).trans ((keep0 (W0 m ρ c) main_arg16 (by decide)))))))))))))

set_option maxHeartbeats 4000000 in
theorem T_v85 (c : Dev nD) : W13 m ρ c (Proc.devRef .tc main_v85) = G_v85 (m ((c : Thread nD τ).loc main_arg16)) := by
  show after hostOps6 (W12 m ρ c) (Proc.devRef .tc main_v85) = _
  after_results
  rw [show W12 m ρ c (Proc.devRef .tc main_arg16) = _ from ((ch_arg16_12 m ρ c).trans (show W0 m ρ c (Proc.devRef .tc main_arg16) = m ((c : Thread nD τ).loc main_arg16) from rfl))]
  rfl

theorem ch_arg17_12 (c : Dev nD) : W12 m ρ c (Proc.devRef .tc main_arg17) = W0 m ρ c (Proc.devRef .tc main_arg17) :=
  (W12_of_ne m ρ c main_arg17 (by decide)).trans ((keep5 (W10 m ρ c) main_arg17 (by decide)).trans ((W10_of_ne m ρ c main_arg17 (by decide)).trans ((keep4 (W8 m ρ c) main_arg17 (by decide)).trans ((W8_of_ne m ρ c main_arg17 (by decide)).trans ((keep3 (W6 m ρ c) main_arg17 (by decide)).trans ((W6_of_ne m ρ c main_arg17 (by decide)).trans ((keep2 (W4 m ρ c) main_arg17 (by decide)).trans ((W4_of_ne m ρ c main_arg17 (by decide)).trans ((keep1 (W2 m ρ c) main_arg17 (by decide)).trans ((W2_of_ne m ρ c main_arg17 (by decide)).trans ((keep0 (W0 m ρ c) main_arg17 (by decide)))))))))))))

set_option maxHeartbeats 4000000 in
theorem T_v87 (c : Dev nD) : W13 m ρ c (Proc.devRef .tc main_v87) = G_v87 (m ((c : Thread nD τ).loc main_arg17)) := by
  show after hostOps6 (W12 m ρ c) (Proc.devRef .tc main_v87) = _
  after_results
  rw [show W12 m ρ c (Proc.devRef .tc main_arg17) = _ from ((ch_arg17_12 m ρ c).trans (show W0 m ρ c (Proc.devRef .tc main_arg17) = m ((c : Thread nD τ).loc main_arg17) from rfl))]
  rfl

theorem ch_arg18_12 (c : Dev nD) : W12 m ρ c (Proc.devRef .tc main_arg18) = W0 m ρ c (Proc.devRef .tc main_arg18) :=
  (W12_of_ne m ρ c main_arg18 (by decide)).trans ((keep5 (W10 m ρ c) main_arg18 (by decide)).trans ((W10_of_ne m ρ c main_arg18 (by decide)).trans ((keep4 (W8 m ρ c) main_arg18 (by decide)).trans ((W8_of_ne m ρ c main_arg18 (by decide)).trans ((keep3 (W6 m ρ c) main_arg18 (by decide)).trans ((W6_of_ne m ρ c main_arg18 (by decide)).trans ((keep2 (W4 m ρ c) main_arg18 (by decide)).trans ((W4_of_ne m ρ c main_arg18 (by decide)).trans ((keep1 (W2 m ρ c) main_arg18 (by decide)).trans ((W2_of_ne m ρ c main_arg18 (by decide)).trans ((keep0 (W0 m ρ c) main_arg18 (by decide)))))))))))))

set_option maxHeartbeats 4000000 in
theorem T_v89 (c : Dev nD) : W13 m ρ c (Proc.devRef .tc main_v89) = G_v89 (m ((c : Thread nD τ).loc main_arg18)) := by
  show after hostOps6 (W12 m ρ c) (Proc.devRef .tc main_v89) = _
  after_results
  rw [show W12 m ρ c (Proc.devRef .tc main_arg18) = _ from ((ch_arg18_12 m ρ c).trans (show W0 m ρ c (Proc.devRef .tc main_arg18) = m ((c : Thread nD τ).loc main_arg18) from rfl))]
  rfl

end Cert.KernelIdeal.KerRead

end
-- ==== Proof.KerRead5.lean ====
/- The boundaries' contents, continued: see part 0. -/
import proofs.«162690_j78211354460181_1_alg».proof.Proof.KerRead4

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem ch_v1_12 (c : Dev nD) : W12 m ρ c (Proc.devRef .tc main_v1) = W1 m ρ c (Proc.devRef .tc main_v1) :=
  (W12_of_ne m ρ c main_v1 (by decide)).trans ((keep5 (W10 m ρ c) main_v1 (by decide)).trans ((W10_of_ne m ρ c main_v1 (by decide)).trans ((keep4 (W8 m ρ c) main_v1 (by decide)).trans ((W8_of_ne m ρ c main_v1 (by decide)).trans ((keep3 (W6 m ρ c) main_v1 (by decide)).trans ((W6_of_ne m ρ c main_v1 (by decide)).trans ((keep2 (W4 m ρ c) main_v1 (by decide)).trans ((W4_of_ne m ρ c main_v1 (by decide)).trans ((keep1 (W2 m ρ c) main_v1 (by decide)).trans ((W2_of_ne m ρ c main_v1 (by decide))))))))))))

set_option maxHeartbeats 4000000 in
theorem T_v96 (c : Dev nD) : W13 m ρ c (Proc.devRef .tc main_v96) = G_v96 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps6 (W12 m ρ c) (Proc.devRef .tc main_v96) = _
  after_results
  rw [show W12 m ρ c (Proc.devRef .tc main_v71) = _ from (T_v71 m ρ c)]
  rw [show W12 m ρ c (Proc.devRef .tc main_v1) = _ from ((ch_v1_12 m ρ c).trans (T_v1 m ρ c))]
  rfl

theorem ch_arg12_12 (c : Dev nD) : W12 m ρ c (Proc.devRef .tc main_arg12) = W0 m ρ c (Proc.devRef .tc main_arg12) :=
  (W12_of_ne m ρ c main_arg12 (by decide)).trans ((keep5 (W10 m ρ c) main_arg12 (by decide)).trans ((W10_of_ne m ρ c main_arg12 (by decide)).trans ((keep4 (W8 m ρ c) main_arg12 (by decide)).trans ((W8_of_ne m ρ c main_arg12 (by decide)).trans ((keep3 (W6 m ρ c) main_arg12 (by decide)).trans ((W6_of_ne m ρ c main_arg12 (by decide)).trans ((keep2 (W4 m ρ c) main_arg12 (by decide)).trans ((W4_of_ne m ρ c main_arg12 (by decide)).trans ((keep1 (W2 m ρ c) main_arg12 (by decide)).trans ((W2_of_ne m ρ c main_arg12 (by decide)).trans ((keep0 (W0 m ρ c) main_arg12 (by decide)))))))))))))

set_option maxHeartbeats 4000000 in
theorem T_v97 (c : Dev nD) : W13 m ρ c (Proc.devRef .tc main_v97) = G_v97 (m ((c : Thread nD τ).loc main_arg12)) := by
  show after hostOps6 (W12 m ρ c) (Proc.devRef .tc main_v97) = _
  after_results
  rw [show W12 m ρ c (Proc.devRef .tc main_arg12) = _ from ((ch_arg12_12 m ρ c).trans (show W0 m ρ c (Proc.devRef .tc main_arg12) = m ((c : Thread nD τ).loc main_arg12) from rfl))]
  rfl

theorem ch_arg1_13 (c : Dev nD) : W13 m ρ c (Proc.devRef .tc main_arg1) = W0 m ρ c (Proc.devRef .tc main_arg1) :=
  (keep6 (W12 m ρ c) main_arg1 (by decide)).trans ((W12_of_ne m ρ c main_arg1 (by decide)).trans ((keep5 (W10 m ρ c) main_arg1 (by decide)).trans ((W10_of_ne m ρ c main_arg1 (by decide)).trans ((keep4 (W8 m ρ c) main_arg1 (by decide)).trans (((W8_arr m ρ c 1).trans (((dat3 (V7 m ρ) c).arrAt_in 1 rfl _).trans (A_eq3 (V7 m ρ) c 1))).trans ((keep3 (W6 m ρ c) main_arg1 (by decide)).trans ((W6_of_ne m ρ c main_arg1 (by decide)).trans ((keep2 (W4 m ρ c) main_arg1 (by decide)).trans ((W4_of_ne m ρ c main_arg1 (by decide)).trans ((keep1 (W2 m ρ c) main_arg1 (by decide)).trans (((W2_arr m ρ c 1).trans (((dat0 (V1 m ρ) c).arrAt_in 1 rfl _).trans (A_eq0 (V1 m ρ) c 1))).trans ((keep0 (W0 m ρ c) main_arg1 (by decide))))))))))))))

set_option maxHeartbeats 4000000 in
theorem T_v98 (c : Dev nD) : W14 m ρ c (Proc.devRef .tc main_v98) = G_v98 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W14_arr m ρ c 4).trans ((Cert.KernelIdeal.Reg6.final4 (V13 m ρ) c).trans ?_)
  unfold G_v98
  rw [show V13 m ρ c main_v96 = _ from (T_v96 m ρ c)]
  rw [show V13 m ρ c main_arg1 = _ from ((ch_arg1_13 m ρ c).trans (show W0 m ρ c (Proc.devRef .tc main_arg1) = m ((c : Thread nD τ).loc main_arg1) from rfl))]
  rw [show V13 m ρ c main_v73 = _ from (T_v73 m ρ c)]
  rw [show V13 m ρ c main_v97 = _ from (T_v97 m ρ c)]

theorem ch_v3_14 (c : Dev nD) : W14 m ρ c (Proc.devRef .tc main_v3) = W1 m ρ c (Proc.devRef .tc main_v3) :=
  (W14_of_ne m ρ c main_v3 (by decide)).trans ((keep6 (W12 m ρ c) main_v3 (by decide)).trans ((W12_of_ne m ρ c main_v3 (by decide)).trans ((keep5 (W10 m ρ c) main_v3 (by decide)).trans ((W10_of_ne m ρ c main_v3 (by decide)).trans ((keep4 (W8 m ρ c) main_v3 (by decide)).trans ((W8_of_ne m ρ c main_v3 (by decide)).trans ((keep3 (W6 m ρ c) main_v3 (by decide)).trans ((W6_of_ne m ρ c main_v3 (by decide)).trans ((keep2 (W4 m ρ c) main_v3 (by decide)).trans ((W4_of_ne m ρ c main_v3 (by decide)).trans ((keep1 (W2 m ρ c) main_v3 (by decide)).trans ((W2_of_ne m ρ c main_v3 (by decide))))))))))))))

set_option maxHeartbeats 4000000 in
theorem T_v101 (c : Dev nD) : W15 m ρ c (Proc.devRef .tc main_v101) = G_v101 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps7 (W14 m ρ c) (Proc.devRef .tc main_v101) = _
  after_results
  rw [show W14 m ρ c (Proc.devRef .tc main_v3) = _ from ((ch_v3_14 m ρ c).trans (T_v3 m ρ c))]
  rw [show W14 m ρ c (Proc.devRef .tc main_v98) = _ from (T_v98 m ρ c)]
  rfl

theorem ch_v77_14 (c : Dev nD) : W14 m ρ c (Proc.devRef .tc main_v77) = W13 m ρ c (Proc.devRef .tc main_v77) :=
  (W14_of_ne m ρ c main_v77 (by decide))

set_option maxHeartbeats 4000000 in
theorem T_v102 (c : Dev nD) : W15 m ρ c (Proc.devRef .tc main_v102) = G_v102 (m ((c : Thread nD τ).loc main_arg19)) := by
  show after hostOps7 (W14 m ρ c) (Proc.devRef .tc main_v102) = _
  after_results
  rw [show W14 m ρ c (Proc.devRef .tc main_v77) = _ from ((ch_v77_14 m ρ c).trans (T_v77 m ρ c))]
  rfl

theorem ch_v81_14 (c : Dev nD) : W14 m ρ c (Proc.devRef .tc main_v81) = W13 m ρ c (Proc.devRef .tc main_v81) :=
  (W14_of_ne m ρ c main_v81 (by decide))

set_option maxHeartbeats 4000000 in
theorem T_v103 (c : Dev nD) : W15 m ρ c (Proc.devRef .tc main_v103) = G_v103 (m ((c : Thread nD τ).loc main_arg14)) := by
  show after hostOps7 (W14 m ρ c) (Proc.devRef .tc main_v103) = _
  after_results
  rw [show W14 m ρ c (Proc.devRef .tc main_v81) = _ from ((ch_v81_14 m ρ c).trans (T_v81 m ρ c))]
  rfl

theorem ch_v85_14 (c : Dev nD) : W14 m ρ c (Proc.devRef .tc main_v85) = W13 m ρ c (Proc.devRef .tc main_v85) :=
  (W14_of_ne m ρ c main_v85 (by decide))

set_option maxHeartbeats 4000000 in
theorem T_v104 (c : Dev nD) : W15 m ρ c (Proc.devRef .tc main_v104) = G_v104 (m ((c : Thread nD τ).loc main_arg16)) := by
  show after hostOps7 (W14 m ρ c) (Proc.devRef .tc main_v104) = _
  after_results
  rw [show W14 m ρ c (Proc.devRef .tc main_v85) = _ from ((ch_v85_14 m ρ c).trans (T_v85 m ρ c))]
  rfl

theorem ch_v71_15 (c : Dev nD) : W15 m ρ c (Proc.devRef .tc main_v71) = W12 m ρ c (Proc.devRef .tc main_v71) :=
  (keep7 (W14 m ρ c) main_v71 (by decide)).trans ((W14_of_ne m ρ c main_v71 (by decide)).trans ((keep6 (W12 m ρ c) main_v71 (by decide))))

theorem ch_v79_15 (c : Dev nD) : W15 m ρ c (Proc.devRef .tc main_v79) = W13 m ρ c (Proc.devRef .tc main_v79) :=
  (keep7 (W14 m ρ c) main_v79 (by decide)).trans ((W14_of_ne m ρ c main_v79 (by decide)))

theorem ch_v83_15 (c : Dev nD) : W15 m ρ c (Proc.devRef .tc main_v83) = W13 m ρ c (Proc.devRef .tc main_v83) :=
  (keep7 (W14 m ρ c) main_v83 (by decide)).trans ((W14_of_ne m ρ c main_v83 (by decide)))

set_option maxHeartbeats 4000000 in
theorem T_v105_0 (c : Dev nD) : W16 m ρ c (Proc.devRef .tc main_v105_0) = G_v105_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W16_arr m ρ c 7).trans ((Cert.KernelIdeal.Reg7.final7 (V15 m ρ) c).trans ?_)
  unfold G_v105_0
  rw [show V15 m ρ c main_v71 = _ from ((ch_v71_15 m ρ c).trans (T_v71 m ρ c))]
  rw [show V15 m ρ c main_v101 = _ from (T_v101 m ρ c)]
  rw [show V15 m ρ c main_v102 = _ from (T_v102 m ρ c)]
  rw [show V15 m ρ c main_v79 = _ from ((ch_v79_15 m ρ c).trans (T_v79 m ρ c))]
  rw [show V15 m ρ c main_v103 = _ from (T_v103 m ρ c)]
  rw [show V15 m ρ c main_v83 = _ from ((ch_v83_15 m ρ c).trans (T_v83 m ρ c))]
  rw [show V15 m ρ c main_v104 = _ from (T_v104 m ρ c)]

set_option maxHeartbeats 4000000 in
theorem T_v105_1 (c : Dev nD) : W16 m ρ c (Proc.devRef .tc main_v105_1) = G_v105_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W16_arr m ρ c 8).trans ((Cert.KernelIdeal.Reg7.final8 (V15 m ρ) c).trans ?_)
  unfold G_v105_1
  rw [show V15 m ρ c main_v71 = _ from ((ch_v71_15 m ρ c).trans (T_v71 m ρ c))]
  rw [show V15 m ρ c main_v101 = _ from (T_v101 m ρ c)]
  rw [show V15 m ρ c main_v102 = _ from (T_v102 m ρ c)]
  rw [show V15 m ρ c main_v79 = _ from ((ch_v79_15 m ρ c).trans (T_v79 m ρ c))]
  rw [show V15 m ρ c main_v103 = _ from (T_v103 m ρ c)]
  rw [show V15 m ρ c main_v83 = _ from ((ch_v83_15 m ρ c).trans (T_v83 m ρ c))]
  rw [show V15 m ρ c main_v104 = _ from (T_v104 m ρ c)]

set_option maxHeartbeats 4000000 in
theorem T_v105_2 (c : Dev nD) : W16 m ρ c (Proc.devRef .tc main_v105_2) = G_v105_2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W16_arr m ρ c 9).trans ((Cert.KernelIdeal.Reg7.final9 (V15 m ρ) c).trans ?_)
  unfold G_v105_2
  rw [show V15 m ρ c main_v71 = _ from ((ch_v71_15 m ρ c).trans (T_v71 m ρ c))]
  rw [show V15 m ρ c main_v101 = _ from (T_v101 m ρ c)]
  rw [show V15 m ρ c main_v102 = _ from (T_v102 m ρ c)]
  rw [show V15 m ρ c main_v79 = _ from ((ch_v79_15 m ρ c).trans (T_v79 m ρ c))]
  rw [show V15 m ρ c main_v103 = _ from (T_v103 m ρ c)]
  rw [show V15 m ρ c main_v83 = _ from ((ch_v83_15 m ρ c).trans (T_v83 m ρ c))]
  rw [show V15 m ρ c main_v104 = _ from (T_v104 m ρ c)]

set_option maxHeartbeats 4000000 in
theorem T_v107 (c : Dev nD) : W17 m ρ c (Proc.devRef .tc main_v107) = G_v107 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps8 (W16 m ρ c) (Proc.devRef .tc main_v107) = _
  after_results
  rw [show W16 m ρ c (Proc.devRef .tc main_v105_1) = _ from (T_v105_1 m ρ c)]
  rfl

set_option maxHeartbeats 4000000 in
theorem T_v111 (c : Dev nD) : W17 m ρ c (Proc.devRef .tc main_v111) = G_v111 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps8 (W16 m ρ c) (Proc.devRef .tc main_v111) = _
  after_results
  rw [show W16 m ρ c (Proc.devRef .tc main_v105_2) = _ from (T_v105_2 m ρ c)]
  rw [show W16 m ρ c (Proc.devRef .tc main_v105_1) = _ from (T_v105_1 m ρ c)]
  rfl

end Cert.KernelIdeal.KerRead

end
-- ==== Proof.KerRead6.lean ====
/- The boundaries' contents, continued: see part 0. -/
import proofs.«162690_j78211354460181_1_alg».proof.Proof.KerRead5

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem ch_v87_16 (c : Dev nD) : W16 m ρ c (Proc.devRef .tc main_v87) = W13 m ρ c (Proc.devRef .tc main_v87) :=
  (W16_of_ne m ρ c main_v87 (by decide)).trans ((keep7 (W14 m ρ c) main_v87 (by decide)).trans ((W14_of_ne m ρ c main_v87 (by decide))))

set_option maxHeartbeats 4000000 in
theorem T_v112 (c : Dev nD) : W17 m ρ c (Proc.devRef .tc main_v112) = G_v112 (m ((c : Thread nD τ).loc main_arg17)) := by
  show after hostOps8 (W16 m ρ c) (Proc.devRef .tc main_v112) = _
  after_results
  rw [show W16 m ρ c (Proc.devRef .tc main_v87) = _ from ((ch_v87_16 m ρ c).trans (T_v87 m ρ c))]
  rfl

theorem ch_v89_16 (c : Dev nD) : W16 m ρ c (Proc.devRef .tc main_v89) = W13 m ρ c (Proc.devRef .tc main_v89) :=
  (W16_of_ne m ρ c main_v89 (by decide)).trans ((keep7 (W14 m ρ c) main_v89 (by decide)).trans ((W14_of_ne m ρ c main_v89 (by decide))))

set_option maxHeartbeats 4000000 in
theorem T_v113 (c : Dev nD) : W17 m ρ c (Proc.devRef .tc main_v113) = G_v113 (m ((c : Thread nD τ).loc main_arg18)) := by
  show after hostOps8 (W16 m ρ c) (Proc.devRef .tc main_v113) = _
  after_results
  rw [show W16 m ρ c (Proc.devRef .tc main_v89) = _ from ((ch_v89_16 m ρ c).trans (T_v89 m ρ c))]
  rfl

theorem ch_v105_0_17 (c : Dev nD) : W17 m ρ c (Proc.devRef .tc main_v105_0) = W16 m ρ c (Proc.devRef .tc main_v105_0) :=
  (keep8 (W16 m ρ c) main_v105_0 (by decide))

theorem ch_v71_17 (c : Dev nD) : W17 m ρ c (Proc.devRef .tc main_v71) = W12 m ρ c (Proc.devRef .tc main_v71) :=
  (keep8 (W16 m ρ c) main_v71 (by decide)).trans (((W16_arr m ρ c 0).trans (((dat7 (V15 m ρ) c).arrAt_in 0 rfl _).trans (A_eq7 (V15 m ρ) c 0))).trans ((keep7 (W14 m ρ c) main_v71 (by decide)).trans ((W14_of_ne m ρ c main_v71 (by decide)).trans ((keep6 (W12 m ρ c) main_v71 (by decide))))))

set_option maxHeartbeats 4000000 in
theorem T_v114 (c : Dev nD) : W18 m ρ c (Proc.devRef .tc main_v114) = G_v114 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W18_arr m ρ c 6).trans ((Cert.KernelIdeal.Reg8.final6 (V17 m ρ) c).trans ?_)
  unfold G_v114
  rw [show V17 m ρ c main_v105_0 = _ from ((ch_v105_0_17 m ρ c).trans (T_v105_0 m ρ c))]
  rw [show V17 m ρ c main_v71 = _ from ((ch_v71_17 m ρ c).trans (T_v71 m ρ c))]
  rw [show V17 m ρ c main_v107 = _ from (T_v107 m ρ c)]
  rw [show V17 m ρ c main_v111 = _ from (T_v111 m ρ c)]
  rw [show V17 m ρ c main_v112 = _ from (T_v112 m ρ c)]
  rw [show V17 m ρ c main_v113 = _ from (T_v113 m ρ c)]

theorem ch_arg11_18 (c : Dev nD) : W18 m ρ c (Proc.devRef .tc main_arg11) = W0 m ρ c (Proc.devRef .tc main_arg11) :=
  (W18_of_ne m ρ c main_arg11 (by decide)).trans ((keep8 (W16 m ρ c) main_arg11 (by decide)).trans ((W16_of_ne m ρ c main_arg11 (by decide)).trans ((keep7 (W14 m ρ c) main_arg11 (by decide)).trans ((W14_of_ne m ρ c main_arg11 (by decide)).trans ((keep6 (W12 m ρ c) main_arg11 (by decide)).trans ((W12_of_ne m ρ c main_arg11 (by decide)).trans ((keep5 (W10 m ρ c) main_arg11 (by decide)).trans ((W10_of_ne m ρ c main_arg11 (by decide)).trans ((keep4 (W8 m ρ c) main_arg11 (by decide)).trans ((W8_of_ne m ρ c main_arg11 (by decide)).trans ((keep3 (W6 m ρ c) main_arg11 (by decide)).trans ((W6_of_ne m ρ c main_arg11 (by decide)).trans ((keep2 (W4 m ρ c) main_arg11 (by decide)).trans ((W4_of_ne m ρ c main_arg11 (by decide)).trans ((keep1 (W2 m ρ c) main_arg11 (by decide)).trans ((W2_of_ne m ρ c main_arg11 (by decide)).trans ((keep0 (W0 m ρ c) main_arg11 (by decide)))))))))))))))))))

set_option maxHeartbeats 4000000 in
theorem T_v116 (c : Dev nD) : W19 m ρ c (Proc.devRef .tc main_v116) = G_v116 (m ((c : Thread nD τ).loc main_arg11)) := by
  show after hostOps9 (W18 m ρ c) (Proc.devRef .tc main_v116) = _
  after_results
  rw [show W18 m ρ c (Proc.devRef .tc main_arg11) = _ from ((ch_arg11_18 m ρ c).trans (show W0 m ρ c (Proc.devRef .tc main_arg11) = m ((c : Thread nD τ).loc main_arg11) from rfl))]
  rfl

theorem ch_arg19_18 (c : Dev nD) : W18 m ρ c (Proc.devRef .tc main_arg19) = W0 m ρ c (Proc.devRef .tc main_arg19) :=
  (W18_of_ne m ρ c main_arg19 (by decide)).trans ((keep8 (W16 m ρ c) main_arg19 (by decide)).trans ((W16_of_ne m ρ c main_arg19 (by decide)).trans ((keep7 (W14 m ρ c) main_arg19 (by decide)).trans ((W14_of_ne m ρ c main_arg19 (by decide)).trans ((keep6 (W12 m ρ c) main_arg19 (by decide)).trans ((W12_of_ne m ρ c main_arg19 (by decide)).trans ((keep5 (W10 m ρ c) main_arg19 (by decide)).trans ((W10_of_ne m ρ c main_arg19 (by decide)).trans ((keep4 (W8 m ρ c) main_arg19 (by decide)).trans ((W8_of_ne m ρ c main_arg19 (by decide)).trans ((keep3 (W6 m ρ c) main_arg19 (by decide)).trans ((W6_of_ne m ρ c main_arg19 (by decide)).trans ((keep2 (W4 m ρ c) main_arg19 (by decide)).trans ((W4_of_ne m ρ c main_arg19 (by decide)).trans ((keep1 (W2 m ρ c) main_arg19 (by decide)).trans ((W2_of_ne m ρ c main_arg19 (by decide)).trans ((keep0 (W0 m ρ c) main_arg19 (by decide)))))))))))))))))))

set_option maxHeartbeats 4000000 in
theorem T_v120 (c : Dev nD) : W19 m ρ c (Proc.devRef .tc main_v120) = G_v120 (m ((c : Thread nD τ).loc main_arg19)) := by
  show after hostOps9 (W18 m ρ c) (Proc.devRef .tc main_v120) = _
  after_results
  rw [show W18 m ρ c (Proc.devRef .tc main_arg19) = _ from ((ch_arg19_18 m ρ c).trans (show W0 m ρ c (Proc.devRef .tc main_arg19) = m ((c : Thread nD τ).loc main_arg19) from rfl))]
  rfl

theorem ch_arg13_18 (c : Dev nD) : W18 m ρ c (Proc.devRef .tc main_arg13) = W0 m ρ c (Proc.devRef .tc main_arg13) :=
  (W18_of_ne m ρ c main_arg13 (by decide)).trans ((keep8 (W16 m ρ c) main_arg13 (by decide)).trans ((W16_of_ne m ρ c main_arg13 (by decide)).trans ((keep7 (W14 m ρ c) main_arg13 (by decide)).trans ((W14_of_ne m ρ c main_arg13 (by decide)).trans ((keep6 (W12 m ρ c) main_arg13 (by decide)).trans ((W12_of_ne m ρ c main_arg13 (by decide)).trans ((keep5 (W10 m ρ c) main_arg13 (by decide)).trans ((W10_of_ne m ρ c main_arg13 (by decide)).trans ((keep4 (W8 m ρ c) main_arg13 (by decide)).trans ((W8_of_ne m ρ c main_arg13 (by decide)).trans ((keep3 (W6 m ρ c) main_arg13 (by decide)).trans ((W6_of_ne m ρ c main_arg13 (by decide)).trans ((keep2 (W4 m ρ c) main_arg13 (by decide)).trans ((W4_of_ne m ρ c main_arg13 (by decide)).trans ((keep1 (W2 m ρ c) main_arg13 (by decide)).trans ((W2_of_ne m ρ c main_arg13 (by decide)).trans ((keep0 (W0 m ρ c) main_arg13 (by decide)))))))))))))))))))

set_option maxHeartbeats 4000000 in
theorem T_v122 (c : Dev nD) : W19 m ρ c (Proc.devRef .tc main_v122) = G_v122 (m ((c : Thread nD τ).loc main_arg13)) := by
  show after hostOps9 (W18 m ρ c) (Proc.devRef .tc main_v122) = _
  after_results
  rw [show W18 m ρ c (Proc.devRef .tc main_arg13) = _ from ((ch_arg13_18 m ρ c).trans (show W0 m ρ c (Proc.devRef .tc main_arg13) = m ((c : Thread nD τ).loc main_arg13) from rfl))]
  rfl

theorem ch_arg14_18 (c : Dev nD) : W18 m ρ c (Proc.devRef .tc main_arg14) = W0 m ρ c (Proc.devRef .tc main_arg14) :=
  (W18_of_ne m ρ c main_arg14 (by decide)).trans ((keep8 (W16 m ρ c) main_arg14 (by decide)).trans ((W16_of_ne m ρ c main_arg14 (by decide)).trans ((keep7 (W14 m ρ c) main_arg14 (by decide)).trans ((W14_of_ne m ρ c main_arg14 (by decide)).trans ((keep6 (W12 m ρ c) main_arg14 (by decide)).trans ((W12_of_ne m ρ c main_arg14 (by decide)).trans ((keep5 (W10 m ρ c) main_arg14 (by decide)).trans ((W10_of_ne m ρ c main_arg14 (by decide)).trans ((keep4 (W8 m ρ c) main_arg14 (by decide)).trans ((W8_of_ne m ρ c main_arg14 (by decide)).trans ((keep3 (W6 m ρ c) main_arg14 (by decide)).trans ((W6_of_ne m ρ c main_arg14 (by decide)).trans ((keep2 (W4 m ρ c) main_arg14 (by decide)).trans ((W4_of_ne m ρ c main_arg14 (by decide)).trans ((keep1 (W2 m ρ c) main_arg14 (by decide)).trans ((W2_of_ne m ρ c main_arg14 (by decide)).trans ((keep0 (W0 m ρ c) main_arg14 (by decide)))))))))))))))))))

set_option maxHeartbeats 4000000 in
theorem T_v124 (c : Dev nD) : W19 m ρ c (Proc.devRef .tc main_v124) = G_v124 (m ((c : Thread nD τ).loc main_arg14)) := by
  show after hostOps9 (W18 m ρ c) (Proc.devRef .tc main_v124) = _
  after_results
  rw [show W18 m ρ c (Proc.devRef .tc main_arg14) = _ from ((ch_arg14_18 m ρ c).trans (show W0 m ρ c (Proc.devRef .tc main_arg14) = m ((c : Thread nD τ).loc main_arg14) from rfl))]
  rfl

theorem ch_arg15_18 (c : Dev nD) : W18 m ρ c (Proc.devRef .tc main_arg15) = W0 m ρ c (Proc.devRef .tc main_arg15) :=
  (W18_of_ne m ρ c main_arg15 (by decide)).trans ((keep8 (W16 m ρ c) main_arg15 (by decide)).trans ((W16_of_ne m ρ c main_arg15 (by decide)).trans ((keep7 (W14 m ρ c) main_arg15 (by decide)).trans ((W14_of_ne m ρ c main_arg15 (by decide)).trans ((keep6 (W12 m ρ c) main_arg15 (by decide)).trans ((W12_of_ne m ρ c main_arg15 (by decide)).trans ((keep5 (W10 m ρ c) main_arg15 (by decide)).trans ((W10_of_ne m ρ c main_arg15 (by decide)).trans ((keep4 (W8 m ρ c) main_arg15 (by decide)).trans ((W8_of_ne m ρ c main_arg15 (by decide)).trans ((keep3 (W6 m ρ c) main_arg15 (by decide)).trans ((W6_of_ne m ρ c main_arg15 (by decide)).trans ((keep2 (W4 m ρ c) main_arg15 (by decide)).trans ((W4_of_ne m ρ c main_arg15 (by decide)).trans ((keep1 (W2 m ρ c) main_arg15 (by decide)).trans ((W2_of_ne m ρ c main_arg15 (by decide)).trans ((keep0 (W0 m ρ c) main_arg15 (by decide)))))))))))))))))))

set_option maxHeartbeats 4000000 in
theorem T_v126 (c : Dev nD) : W19 m ρ c (Proc.devRef .tc main_v126) = G_v126 (m ((c : Thread nD τ).loc main_arg15)) := by
  show after hostOps9 (W18 m ρ c) (Proc.devRef .tc main_v126) = _
  after_results
  rw [show W18 m ρ c (Proc.devRef .tc main_arg15) = _ from ((ch_arg15_18 m ρ c).trans (show W0 m ρ c (Proc.devRef .tc main_arg15) = m ((c : Thread nD τ).loc main_arg15) from rfl))]
  rfl

theorem ch_arg16_18 (c : Dev nD) : W18 m ρ c (Proc.devRef .tc main_arg16) = W0 m ρ c (Proc.devRef .tc main_arg16) :=
  (W18_of_ne m ρ c main_arg16 (by decide)).trans ((keep8 (W16 m ρ c) main_arg16 (by decide)).trans ((W16_of_ne m ρ c main_arg16 (by decide)).trans ((keep7 (W14 m ρ c) main_arg16 (by decide)).trans ((W14_of_ne m ρ c main_arg16 (by decide)).trans ((keep6 (W12 m ρ c) main_arg16 (by decide)).trans ((W12_of_ne m ρ c main_arg16 (by decide)).trans ((keep5 (W10 m ρ c) main_arg16 (by decide)).trans ((W10_of_ne m ρ c main_arg16 (by decide)).trans ((keep4 (W8 m ρ c) main_arg16 (by decide)).trans ((W8_of_ne m ρ c main_arg16 (by decide)).trans ((keep3 (W6 m ρ c) main_arg16 (by decide)).trans ((W6_of_ne m ρ c main_arg16 (by decide)).trans ((keep2 (W4 m ρ c) main_arg16 (by decide)).trans ((W4_of_ne m ρ c main_arg16 (by decide)).trans ((keep1 (W2 m ρ c) main_arg16 (by decide)).trans ((W2_of_ne m ρ c main_arg16 (by decide)).trans ((keep0 (W0 m ρ c) main_arg16 (by decide)))))))))))))))))))

set_option maxHeartbeats 4000000 in
theorem T_v128 (c : Dev nD) : W19 m ρ c (Proc.devRef .tc main_v128) = G_v128 (m ((c : Thread nD τ).loc main_arg16)) := by
  show after hostOps9 (W18 m ρ c) (Proc.devRef .tc main_v128) = _
  after_results
  rw [show W18 m ρ c (Proc.devRef .tc main_arg16) = _ from ((ch_arg16_18 m ρ c).trans (show W0 m ρ c (Proc.devRef .tc main_arg16) = m ((c : Thread nD τ).loc main_arg16) from rfl))]
  rfl

theorem ch_arg17_18 (c : Dev nD) : W18 m ρ c (Proc.devRef .tc main_arg17) = W0 m ρ c (Proc.devRef .tc main_arg17) :=
  (W18_of_ne m ρ c main_arg17 (by decide)).trans ((keep8 (W16 m ρ c) main_arg17 (by decide)).trans ((W16_of_ne m ρ c main_arg17 (by decide)).trans ((keep7 (W14 m ρ c) main_arg17 (by decide)).trans ((W14_of_ne m ρ c main_arg17 (by decide)).trans ((keep6 (W12 m ρ c) main_arg17 (by decide)).trans ((W12_of_ne m ρ c main_arg17 (by decide)).trans ((keep5 (W10 m ρ c) main_arg17 (by decide)).trans ((W10_of_ne m ρ c main_arg17 (by decide)).trans ((keep4 (W8 m ρ c) main_arg17 (by decide)).trans ((W8_of_ne m ρ c main_arg17 (by decide)).trans ((keep3 (W6 m ρ c) main_arg17 (by decide)).trans ((W6_of_ne m ρ c main_arg17 (by decide)).trans ((keep2 (W4 m ρ c) main_arg17 (by decide)).trans ((W4_of_ne m ρ c main_arg17 (by decide)).trans ((keep1 (W2 m ρ c) main_arg17 (by decide)).trans ((W2_of_ne m ρ c main_arg17 (by decide)).trans ((keep0 (W0 m ρ c) main_arg17 (by decide)))))))))))))))))))

set_option maxHeartbeats 4000000 in
theorem T_v130 (c : Dev nD) : W19 m ρ c (Proc.devRef .tc main_v130) = G_v130 (m ((c : Thread nD τ).loc main_arg17)) := by
  show after hostOps9 (W18 m ρ c) (Proc.devRef .tc main_v130) = _
  after_results
  rw [show W18 m ρ c (Proc.devRef .tc main_arg17) = _ from ((ch_arg17_18 m ρ c).trans (show W0 m ρ c (Proc.devRef .tc main_arg17) = m ((c : Thread nD τ).loc main_arg17) from rfl))]
  rfl

theorem ch_arg18_18 (c : Dev nD) : W18 m ρ c (Proc.devRef .tc main_arg18) = W0 m ρ c (Proc.devRef .tc main_arg18) :=
  (W18_of_ne m ρ c main_arg18 (by decide)).trans ((keep8 (W16 m ρ c) main_arg18 (by decide)).trans ((W16_of_ne m ρ c main_arg18 (by decide)).trans ((keep7 (W14 m ρ c) main_arg18 (by decide)).trans ((W14_of_ne m ρ c main_arg18 (by decide)).trans ((keep6 (W12 m ρ c) main_arg18 (by decide)).trans ((W12_of_ne m ρ c main_arg18 (by decide)).trans ((keep5 (W10 m ρ c) main_arg18 (by decide)).trans ((W10_of_ne m ρ c main_arg18 (by decide)).trans ((keep4 (W8 m ρ c) main_arg18 (by decide)).trans ((W8_of_ne m ρ c main_arg18 (by decide)).trans ((keep3 (W6 m ρ c) main_arg18 (by decide)).trans ((W6_of_ne m ρ c main_arg18 (by decide)).trans ((keep2 (W4 m ρ c) main_arg18 (by decide)).trans ((W4_of_ne m ρ c main_arg18 (by decide)).trans ((keep1 (W2 m ρ c) main_arg18 (by decide)).trans ((W2_of_ne m ρ c main_arg18 (by decide)).trans ((keep0 (W0 m ρ c) main_arg18 (by decide)))))))))))))))))))

set_option maxHeartbeats 4000000 in
theorem T_v132 (c : Dev nD) : W19 m ρ c (Proc.devRef .tc main_v132) = G_v132 (m ((c : Thread nD τ).loc main_arg18)) := by
  show after hostOps9 (W18 m ρ c) (Proc.devRef .tc main_v132) = _
  after_results
  rw [show W18 m ρ c (Proc.devRef .tc main_arg18) = _ from ((ch_arg18_18 m ρ c).trans (show W0 m ρ c (Proc.devRef .tc main_arg18) = m ((c : Thread nD τ).loc main_arg18) from rfl))]
  rfl

theorem ch_v1_18 (c : Dev nD) : W18 m ρ c (Proc.devRef .tc main_v1) = W1 m ρ c (Proc.devRef .tc main_v1) :=
  (W18_of_ne m ρ c main_v1 (by decide)).trans ((keep8 (W16 m ρ c) main_v1 (by decide)).trans ((W16_of_ne m ρ c main_v1 (by decide)).trans ((keep7 (W14 m ρ c) main_v1 (by decide)).trans ((W14_of_ne m ρ c main_v1 (by decide)).trans ((keep6 (W12 m ρ c) main_v1 (by decide)).trans ((W12_of_ne m ρ c main_v1 (by decide)).trans ((keep5 (W10 m ρ c) main_v1 (by decide)).trans ((W10_of_ne m ρ c main_v1 (by decide)).trans ((keep4 (W8 m ρ c) main_v1 (by decide)).trans ((W8_of_ne m ρ c main_v1 (by decide)).trans ((keep3 (W6 m ρ c) main_v1 (by decide)).trans ((W6_of_ne m ρ c main_v1 (by decide)).trans ((keep2 (W4 m ρ c) main_v1 (by decide)).trans ((W4_of_ne m ρ c main_v1 (by decide)).trans ((keep1 (W2 m ρ c) main_v1 (by decide)).trans ((W2_of_ne m ρ c main_v1 (by decide))))))))))))))))))

set_option maxHeartbeats 4000000 in
theorem T_v139 (c : Dev nD) : W19 m ρ c (Proc.devRef .tc main_v139) = G_v139 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps9 (W18 m ρ c) (Proc.devRef .tc main_v139) = _
  after_results
  rw [show W18 m ρ c (Proc.devRef .tc main_v114) = _ from (T_v114 m ρ c)]
  rw [show W18 m ρ c (Proc.devRef .tc main_v1) = _ from ((ch_v1_18 m ρ c).trans (T_v1 m ρ c))]
  rfl

end Cert.KernelIdeal.KerRead

end
-- ==== Proof.KerRead7.lean ====
/- The boundaries' contents, continued: see part 0. -/
import proofs.«162690_j78211354460181_1_alg».proof.Proof.KerRead6

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem ch_arg12_18 (c : Dev nD) : W18 m ρ c (Proc.devRef .tc main_arg12) = W0 m ρ c (Proc.devRef .tc main_arg12) :=
  (W18_of_ne m ρ c main_arg12 (by decide)).trans ((keep8 (W16 m ρ c) main_arg12 (by decide)).trans ((W16_of_ne m ρ c main_arg12 (by decide)).trans ((keep7 (W14 m ρ c) main_arg12 (by decide)).trans ((W14_of_ne m ρ c main_arg12 (by decide)).trans ((keep6 (W12 m ρ c) main_arg12 (by decide)).trans ((W12_of_ne m ρ c main_arg12 (by decide)).trans ((keep5 (W10 m ρ c) main_arg12 (by decide)).trans ((W10_of_ne m ρ c main_arg12 (by decide)).trans ((keep4 (W8 m ρ c) main_arg12 (by decide)).trans ((W8_of_ne m ρ c main_arg12 (by decide)).trans ((keep3 (W6 m ρ c) main_arg12 (by decide)).trans ((W6_of_ne m ρ c main_arg12 (by decide)).trans ((keep2 (W4 m ρ c) main_arg12 (by decide)).trans ((W4_of_ne m ρ c main_arg12 (by decide)).trans ((keep1 (W2 m ρ c) main_arg12 (by decide)).trans ((W2_of_ne m ρ c main_arg12 (by decide)).trans ((keep0 (W0 m ρ c) main_arg12 (by decide)))))))))))))))))))

set_option maxHeartbeats 4000000 in
theorem T_v140 (c : Dev nD) : W19 m ρ c (Proc.devRef .tc main_v140) = G_v140 (m ((c : Thread nD τ).loc main_arg12)) := by
  show after hostOps9 (W18 m ρ c) (Proc.devRef .tc main_v140) = _
  after_results
  rw [show W18 m ρ c (Proc.devRef .tc main_arg12) = _ from ((ch_arg12_18 m ρ c).trans (show W0 m ρ c (Proc.devRef .tc main_arg12) = m ((c : Thread nD τ).loc main_arg12) from rfl))]
  rfl

theorem ch_arg1_19 (c : Dev nD) : W19 m ρ c (Proc.devRef .tc main_arg1) = W0 m ρ c (Proc.devRef .tc main_arg1) :=
  (keep9 (W18 m ρ c) main_arg1 (by decide)).trans ((W18_of_ne m ρ c main_arg1 (by decide)).trans ((keep8 (W16 m ρ c) main_arg1 (by decide)).trans ((W16_of_ne m ρ c main_arg1 (by decide)).trans ((keep7 (W14 m ρ c) main_arg1 (by decide)).trans (((W14_arr m ρ c 1).trans (((dat6 (V13 m ρ) c).arrAt_in 1 rfl _).trans (A_eq6 (V13 m ρ) c 1))).trans ((keep6 (W12 m ρ c) main_arg1 (by decide)).trans ((W12_of_ne m ρ c main_arg1 (by decide)).trans ((keep5 (W10 m ρ c) main_arg1 (by decide)).trans ((W10_of_ne m ρ c main_arg1 (by decide)).trans ((keep4 (W8 m ρ c) main_arg1 (by decide)).trans (((W8_arr m ρ c 1).trans (((dat3 (V7 m ρ) c).arrAt_in 1 rfl _).trans (A_eq3 (V7 m ρ) c 1))).trans ((keep3 (W6 m ρ c) main_arg1 (by decide)).trans ((W6_of_ne m ρ c main_arg1 (by decide)).trans ((keep2 (W4 m ρ c) main_arg1 (by decide)).trans ((W4_of_ne m ρ c main_arg1 (by decide)).trans ((keep1 (W2 m ρ c) main_arg1 (by decide)).trans (((W2_arr m ρ c 1).trans (((dat0 (V1 m ρ) c).arrAt_in 1 rfl _).trans (A_eq0 (V1 m ρ) c 1))).trans ((keep0 (W0 m ρ c) main_arg1 (by decide))))))))))))))))))))

set_option maxHeartbeats 4000000 in
theorem T_v141 (c : Dev nD) : W20 m ρ c (Proc.devRef .tc main_v141) = G_v141 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W20_arr m ρ c 4).trans ((Cert.KernelIdeal.Reg9.final4 (V19 m ρ) c).trans ?_)
  unfold G_v141
  rw [show V19 m ρ c main_v139 = _ from (T_v139 m ρ c)]
  rw [show V19 m ρ c main_arg1 = _ from ((ch_arg1_19 m ρ c).trans (show W0 m ρ c (Proc.devRef .tc main_arg1) = m ((c : Thread nD τ).loc main_arg1) from rfl))]
  rw [show V19 m ρ c main_v116 = _ from (T_v116 m ρ c)]
  rw [show V19 m ρ c main_v140 = _ from (T_v140 m ρ c)]

theorem ch_v3_20 (c : Dev nD) : W20 m ρ c (Proc.devRef .tc main_v3) = W1 m ρ c (Proc.devRef .tc main_v3) :=
  (W20_of_ne m ρ c main_v3 (by decide)).trans ((keep9 (W18 m ρ c) main_v3 (by decide)).trans ((W18_of_ne m ρ c main_v3 (by decide)).trans ((keep8 (W16 m ρ c) main_v3 (by decide)).trans ((W16_of_ne m ρ c main_v3 (by decide)).trans ((keep7 (W14 m ρ c) main_v3 (by decide)).trans ((W14_of_ne m ρ c main_v3 (by decide)).trans ((keep6 (W12 m ρ c) main_v3 (by decide)).trans ((W12_of_ne m ρ c main_v3 (by decide)).trans ((keep5 (W10 m ρ c) main_v3 (by decide)).trans ((W10_of_ne m ρ c main_v3 (by decide)).trans ((keep4 (W8 m ρ c) main_v3 (by decide)).trans ((W8_of_ne m ρ c main_v3 (by decide)).trans ((keep3 (W6 m ρ c) main_v3 (by decide)).trans ((W6_of_ne m ρ c main_v3 (by decide)).trans ((keep2 (W4 m ρ c) main_v3 (by decide)).trans ((W4_of_ne m ρ c main_v3 (by decide)).trans ((keep1 (W2 m ρ c) main_v3 (by decide)).trans ((W2_of_ne m ρ c main_v3 (by decide))))))))))))))))))))

set_option maxHeartbeats 4000000 in
theorem T_v144 (c : Dev nD) : W21 m ρ c (Proc.devRef .tc main_v144) = G_v144 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps10 (W20 m ρ c) (Proc.devRef .tc main_v144) = _
  after_results
  rw [show W20 m ρ c (Proc.devRef .tc main_v3) = _ from ((ch_v3_20 m ρ c).trans (T_v3 m ρ c))]
  rw [show W20 m ρ c (Proc.devRef .tc main_v141) = _ from (T_v141 m ρ c)]
  rfl

theorem ch_v120_20 (c : Dev nD) : W20 m ρ c (Proc.devRef .tc main_v120) = W19 m ρ c (Proc.devRef .tc main_v120) :=
  (W20_of_ne m ρ c main_v120 (by decide))

set_option maxHeartbeats 4000000 in
theorem T_v145 (c : Dev nD) : W21 m ρ c (Proc.devRef .tc main_v145) = G_v145 (m ((c : Thread nD τ).loc main_arg19)) := by
  show after hostOps10 (W20 m ρ c) (Proc.devRef .tc main_v145) = _
  after_results
  rw [show W20 m ρ c (Proc.devRef .tc main_v120) = _ from ((ch_v120_20 m ρ c).trans (T_v120 m ρ c))]
  rfl

theorem ch_v124_20 (c : Dev nD) : W20 m ρ c (Proc.devRef .tc main_v124) = W19 m ρ c (Proc.devRef .tc main_v124) :=
  (W20_of_ne m ρ c main_v124 (by decide))

set_option maxHeartbeats 4000000 in
theorem T_v146 (c : Dev nD) : W21 m ρ c (Proc.devRef .tc main_v146) = G_v146 (m ((c : Thread nD τ).loc main_arg14)) := by
  show after hostOps10 (W20 m ρ c) (Proc.devRef .tc main_v146) = _
  after_results
  rw [show W20 m ρ c (Proc.devRef .tc main_v124) = _ from ((ch_v124_20 m ρ c).trans (T_v124 m ρ c))]
  rfl

theorem ch_v128_20 (c : Dev nD) : W20 m ρ c (Proc.devRef .tc main_v128) = W19 m ρ c (Proc.devRef .tc main_v128) :=
  (W20_of_ne m ρ c main_v128 (by decide))

set_option maxHeartbeats 4000000 in
theorem T_v147 (c : Dev nD) : W21 m ρ c (Proc.devRef .tc main_v147) = G_v147 (m ((c : Thread nD τ).loc main_arg16)) := by
  show after hostOps10 (W20 m ρ c) (Proc.devRef .tc main_v147) = _
  after_results
  rw [show W20 m ρ c (Proc.devRef .tc main_v128) = _ from ((ch_v128_20 m ρ c).trans (T_v128 m ρ c))]
  rfl

theorem ch_v114_21 (c : Dev nD) : W21 m ρ c (Proc.devRef .tc main_v114) = W18 m ρ c (Proc.devRef .tc main_v114) :=
  (keep10 (W20 m ρ c) main_v114 (by decide)).trans ((W20_of_ne m ρ c main_v114 (by decide)).trans ((keep9 (W18 m ρ c) main_v114 (by decide))))

theorem ch_v122_21 (c : Dev nD) : W21 m ρ c (Proc.devRef .tc main_v122) = W19 m ρ c (Proc.devRef .tc main_v122) :=
  (keep10 (W20 m ρ c) main_v122 (by decide)).trans ((W20_of_ne m ρ c main_v122 (by decide)))

theorem ch_v126_21 (c : Dev nD) : W21 m ρ c (Proc.devRef .tc main_v126) = W19 m ρ c (Proc.devRef .tc main_v126) :=
  (keep10 (W20 m ρ c) main_v126 (by decide)).trans ((W20_of_ne m ρ c main_v126 (by decide)))

set_option maxHeartbeats 4000000 in
theorem T_v148_0 (c : Dev nD) : W22 m ρ c (Proc.devRef .tc main_v148_0) = G_v148_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W22_arr m ρ c 7).trans ((Cert.KernelIdeal.Reg10.final7 (V21 m ρ) c).trans ?_)
  unfold G_v148_0
  rw [show V21 m ρ c main_v114 = _ from ((ch_v114_21 m ρ c).trans (T_v114 m ρ c))]
  rw [show V21 m ρ c main_v144 = _ from (T_v144 m ρ c)]
  rw [show V21 m ρ c main_v145 = _ from (T_v145 m ρ c)]
  rw [show V21 m ρ c main_v122 = _ from ((ch_v122_21 m ρ c).trans (T_v122 m ρ c))]
  rw [show V21 m ρ c main_v146 = _ from (T_v146 m ρ c)]
  rw [show V21 m ρ c main_v126 = _ from ((ch_v126_21 m ρ c).trans (T_v126 m ρ c))]
  rw [show V21 m ρ c main_v147 = _ from (T_v147 m ρ c)]

set_option maxHeartbeats 4000000 in
theorem T_v148_1 (c : Dev nD) : W22 m ρ c (Proc.devRef .tc main_v148_1) = G_v148_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W22_arr m ρ c 8).trans ((Cert.KernelIdeal.Reg10.final8 (V21 m ρ) c).trans ?_)
  unfold G_v148_1
  rw [show V21 m ρ c main_v114 = _ from ((ch_v114_21 m ρ c).trans (T_v114 m ρ c))]
  rw [show V21 m ρ c main_v144 = _ from (T_v144 m ρ c)]
  rw [show V21 m ρ c main_v145 = _ from (T_v145 m ρ c)]
  rw [show V21 m ρ c main_v122 = _ from ((ch_v122_21 m ρ c).trans (T_v122 m ρ c))]
  rw [show V21 m ρ c main_v146 = _ from (T_v146 m ρ c)]
  rw [show V21 m ρ c main_v126 = _ from ((ch_v126_21 m ρ c).trans (T_v126 m ρ c))]
  rw [show V21 m ρ c main_v147 = _ from (T_v147 m ρ c)]

set_option maxHeartbeats 4000000 in
theorem T_v148_2 (c : Dev nD) : W22 m ρ c (Proc.devRef .tc main_v148_2) = G_v148_2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W22_arr m ρ c 9).trans ((Cert.KernelIdeal.Reg10.final9 (V21 m ρ) c).trans ?_)
  unfold G_v148_2
  rw [show V21 m ρ c main_v114 = _ from ((ch_v114_21 m ρ c).trans (T_v114 m ρ c))]
  rw [show V21 m ρ c main_v144 = _ from (T_v144 m ρ c)]
  rw [show V21 m ρ c main_v145 = _ from (T_v145 m ρ c)]
  rw [show V21 m ρ c main_v122 = _ from ((ch_v122_21 m ρ c).trans (T_v122 m ρ c))]
  rw [show V21 m ρ c main_v146 = _ from (T_v146 m ρ c)]
  rw [show V21 m ρ c main_v126 = _ from ((ch_v126_21 m ρ c).trans (T_v126 m ρ c))]
  rw [show V21 m ρ c main_v147 = _ from (T_v147 m ρ c)]

set_option maxHeartbeats 4000000 in
theorem T_v150 (c : Dev nD) : W23 m ρ c (Proc.devRef .tc main_v150) = G_v150 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps11 (W22 m ρ c) (Proc.devRef .tc main_v150) = _
  after_results
  rw [show W22 m ρ c (Proc.devRef .tc main_v148_1) = _ from (T_v148_1 m ρ c)]
  rfl

set_option maxHeartbeats 4000000 in
theorem T_v154 (c : Dev nD) : W23 m ρ c (Proc.devRef .tc main_v154) = G_v154 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps11 (W22 m ρ c) (Proc.devRef .tc main_v154) = _
  after_results
  rw [show W22 m ρ c (Proc.devRef .tc main_v148_2) = _ from (T_v148_2 m ρ c)]
  rw [show W22 m ρ c (Proc.devRef .tc main_v148_1) = _ from (T_v148_1 m ρ c)]
  rfl

theorem ch_v130_22 (c : Dev nD) : W22 m ρ c (Proc.devRef .tc main_v130) = W19 m ρ c (Proc.devRef .tc main_v130) :=
  (W22_of_ne m ρ c main_v130 (by decide)).trans ((keep10 (W20 m ρ c) main_v130 (by decide)).trans ((W20_of_ne m ρ c main_v130 (by decide))))

set_option maxHeartbeats 4000000 in
theorem T_v155 (c : Dev nD) : W23 m ρ c (Proc.devRef .tc main_v155) = G_v155 (m ((c : Thread nD τ).loc main_arg17)) := by
  show after hostOps11 (W22 m ρ c) (Proc.devRef .tc main_v155) = _
  after_results
  rw [show W22 m ρ c (Proc.devRef .tc main_v130) = _ from ((ch_v130_22 m ρ c).trans (T_v130 m ρ c))]
  rfl

end Cert.KernelIdeal.KerRead

end
-- ==== Proof.KerRead8.lean ====
/- The boundaries' contents, continued: see part 0. -/
import proofs.«162690_j78211354460181_1_alg».proof.Proof.KerRead7

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem ch_v132_22 (c : Dev nD) : W22 m ρ c (Proc.devRef .tc main_v132) = W19 m ρ c (Proc.devRef .tc main_v132) :=
  (W22_of_ne m ρ c main_v132 (by decide)).trans ((keep10 (W20 m ρ c) main_v132 (by decide)).trans ((W20_of_ne m ρ c main_v132 (by decide))))

set_option maxHeartbeats 4000000 in
theorem T_v156 (c : Dev nD) : W23 m ρ c (Proc.devRef .tc main_v156) = G_v156 (m ((c : Thread nD τ).loc main_arg18)) := by
  show after hostOps11 (W22 m ρ c) (Proc.devRef .tc main_v156) = _
  after_results
  rw [show W22 m ρ c (Proc.devRef .tc main_v132) = _ from ((ch_v132_22 m ρ c).trans (T_v132 m ρ c))]
  rfl

theorem ch_v148_0_23 (c : Dev nD) : W23 m ρ c (Proc.devRef .tc main_v148_0) = W22 m ρ c (Proc.devRef .tc main_v148_0) :=
  (keep11 (W22 m ρ c) main_v148_0 (by decide))

theorem ch_v114_23 (c : Dev nD) : W23 m ρ c (Proc.devRef .tc main_v114) = W18 m ρ c (Proc.devRef .tc main_v114) :=
  (keep11 (W22 m ρ c) main_v114 (by decide)).trans (((W22_arr m ρ c 0).trans (((dat10 (V21 m ρ) c).arrAt_in 0 rfl _).trans (A_eq10 (V21 m ρ) c 0))).trans ((keep10 (W20 m ρ c) main_v114 (by decide)).trans ((W20_of_ne m ρ c main_v114 (by decide)).trans ((keep9 (W18 m ρ c) main_v114 (by decide))))))

set_option maxHeartbeats 4000000 in
theorem T_v157 (c : Dev nD) : W24 m ρ c (Proc.devRef .tc main_v157) = G_v157 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W24_arr m ρ c 6).trans ((Cert.KernelIdeal.Reg11.final6 (V23 m ρ) c).trans ?_)
  unfold G_v157
  rw [show V23 m ρ c main_v148_0 = _ from ((ch_v148_0_23 m ρ c).trans (T_v148_0 m ρ c))]
  rw [show V23 m ρ c main_v114 = _ from ((ch_v114_23 m ρ c).trans (T_v114 m ρ c))]
  rw [show V23 m ρ c main_v150 = _ from (T_v150 m ρ c)]
  rw [show V23 m ρ c main_v154 = _ from (T_v154 m ρ c)]
  rw [show V23 m ρ c main_v155 = _ from (T_v155 m ρ c)]
  rw [show V23 m ρ c main_v156 = _ from (T_v156 m ρ c)]

theorem ch_arg11_24 (c : Dev nD) : W24 m ρ c (Proc.devRef .tc main_arg11) = W0 m ρ c (Proc.devRef .tc main_arg11) :=
  (W24_of_ne m ρ c main_arg11 (by decide)).trans ((keep11 (W22 m ρ c) main_arg11 (by decide)).trans ((W22_of_ne m ρ c main_arg11 (by decide)).trans ((keep10 (W20 m ρ c) main_arg11 (by decide)).trans ((W20_of_ne m ρ c main_arg11 (by decide)).trans ((keep9 (W18 m ρ c) main_arg11 (by decide)).trans ((W18_of_ne m ρ c main_arg11 (by decide)).trans ((keep8 (W16 m ρ c) main_arg11 (by decide)).trans ((W16_of_ne m ρ c main_arg11 (by decide)).trans ((keep7 (W14 m ρ c) main_arg11 (by decide)).trans ((W14_of_ne m ρ c main_arg11 (by decide)).trans ((keep6 (W12 m ρ c) main_arg11 (by decide)).trans ((W12_of_ne m ρ c main_arg11 (by decide)).trans ((keep5 (W10 m ρ c) main_arg11 (by decide)).trans ((W10_of_ne m ρ c main_arg11 (by decide)).trans ((keep4 (W8 m ρ c) main_arg11 (by decide)).trans ((W8_of_ne m ρ c main_arg11 (by decide)).trans ((keep3 (W6 m ρ c) main_arg11 (by decide)).trans ((W6_of_ne m ρ c main_arg11 (by decide)).trans ((keep2 (W4 m ρ c) main_arg11 (by decide)).trans ((W4_of_ne m ρ c main_arg11 (by decide)).trans ((keep1 (W2 m ρ c) main_arg11 (by decide)).trans ((W2_of_ne m ρ c main_arg11 (by decide)).trans ((keep0 (W0 m ρ c) main_arg11 (by decide)))))))))))))))))))))))))

set_option maxHeartbeats 4000000 in
theorem T_v159 (c : Dev nD) : W25 m ρ c (Proc.devRef .tc main_v159) = G_v159 (m ((c : Thread nD τ).loc main_arg11)) := by
  show after hostOps12 (W24 m ρ c) (Proc.devRef .tc main_v159) = _
  after_results
  rw [show W24 m ρ c (Proc.devRef .tc main_arg11) = _ from ((ch_arg11_24 m ρ c).trans (show W0 m ρ c (Proc.devRef .tc main_arg11) = m ((c : Thread nD τ).loc main_arg11) from rfl))]
  rfl

theorem ch_arg19_24 (c : Dev nD) : W24 m ρ c (Proc.devRef .tc main_arg19) = W0 m ρ c (Proc.devRef .tc main_arg19) :=
  (W24_of_ne m ρ c main_arg19 (by decide)).trans ((keep11 (W22 m ρ c) main_arg19 (by decide)).trans ((W22_of_ne m ρ c main_arg19 (by decide)).trans ((keep10 (W20 m ρ c) main_arg19 (by decide)).trans ((W20_of_ne m ρ c main_arg19 (by decide)).trans ((keep9 (W18 m ρ c) main_arg19 (by decide)).trans ((W18_of_ne m ρ c main_arg19 (by decide)).trans ((keep8 (W16 m ρ c) main_arg19 (by decide)).trans ((W16_of_ne m ρ c main_arg19 (by decide)).trans ((keep7 (W14 m ρ c) main_arg19 (by decide)).trans ((W14_of_ne m ρ c main_arg19 (by decide)).trans ((keep6 (W12 m ρ c) main_arg19 (by decide)).trans ((W12_of_ne m ρ c main_arg19 (by decide)).trans ((keep5 (W10 m ρ c) main_arg19 (by decide)).trans ((W10_of_ne m ρ c main_arg19 (by decide)).trans ((keep4 (W8 m ρ c) main_arg19 (by decide)).trans ((W8_of_ne m ρ c main_arg19 (by decide)).trans ((keep3 (W6 m ρ c) main_arg19 (by decide)).trans ((W6_of_ne m ρ c main_arg19 (by decide)).trans ((keep2 (W4 m ρ c) main_arg19 (by decide)).trans ((W4_of_ne m ρ c main_arg19 (by decide)).trans ((keep1 (W2 m ρ c) main_arg19 (by decide)).trans ((W2_of_ne m ρ c main_arg19 (by decide)).trans ((keep0 (W0 m ρ c) main_arg19 (by decide)))))))))))))))))))))))))

set_option maxHeartbeats 4000000 in
theorem T_v163 (c : Dev nD) : W25 m ρ c (Proc.devRef .tc main_v163) = G_v163 (m ((c : Thread nD τ).loc main_arg19)) := by
  show after hostOps12 (W24 m ρ c) (Proc.devRef .tc main_v163) = _
  after_results
  rw [show W24 m ρ c (Proc.devRef .tc main_arg19) = _ from ((ch_arg19_24 m ρ c).trans (show W0 m ρ c (Proc.devRef .tc main_arg19) = m ((c : Thread nD τ).loc main_arg19) from rfl))]
  rfl

theorem ch_arg13_24 (c : Dev nD) : W24 m ρ c (Proc.devRef .tc main_arg13) = W0 m ρ c (Proc.devRef .tc main_arg13) :=
  (W24_of_ne m ρ c main_arg13 (by decide)).trans ((keep11 (W22 m ρ c) main_arg13 (by decide)).trans ((W22_of_ne m ρ c main_arg13 (by decide)).trans ((keep10 (W20 m ρ c) main_arg13 (by decide)).trans ((W20_of_ne m ρ c main_arg13 (by decide)).trans ((keep9 (W18 m ρ c) main_arg13 (by decide)).trans ((W18_of_ne m ρ c main_arg13 (by decide)).trans ((keep8 (W16 m ρ c) main_arg13 (by decide)).trans ((W16_of_ne m ρ c main_arg13 (by decide)).trans ((keep7 (W14 m ρ c) main_arg13 (by decide)).trans ((W14_of_ne m ρ c main_arg13 (by decide)).trans ((keep6 (W12 m ρ c) main_arg13 (by decide)).trans ((W12_of_ne m ρ c main_arg13 (by decide)).trans ((keep5 (W10 m ρ c) main_arg13 (by decide)).trans ((W10_of_ne m ρ c main_arg13 (by decide)).trans ((keep4 (W8 m ρ c) main_arg13 (by decide)).trans ((W8_of_ne m ρ c main_arg13 (by decide)).trans ((keep3 (W6 m ρ c) main_arg13 (by decide)).trans ((W6_of_ne m ρ c main_arg13 (by decide)).trans ((keep2 (W4 m ρ c) main_arg13 (by decide)).trans ((W4_of_ne m ρ c main_arg13 (by decide)).trans ((keep1 (W2 m ρ c) main_arg13 (by decide)).trans ((W2_of_ne m ρ c main_arg13 (by decide)).trans ((keep0 (W0 m ρ c) main_arg13 (by decide)))))))))))))))))))))))))

set_option maxHeartbeats 4000000 in
theorem T_v165 (c : Dev nD) : W25 m ρ c (Proc.devRef .tc main_v165) = G_v165 (m ((c : Thread nD τ).loc main_arg13)) := by
  show after hostOps12 (W24 m ρ c) (Proc.devRef .tc main_v165) = _
  after_results
  rw [show W24 m ρ c (Proc.devRef .tc main_arg13) = _ from ((ch_arg13_24 m ρ c).trans (show W0 m ρ c (Proc.devRef .tc main_arg13) = m ((c : Thread nD τ).loc main_arg13) from rfl))]
  rfl

theorem ch_arg14_24 (c : Dev nD) : W24 m ρ c (Proc.devRef .tc main_arg14) = W0 m ρ c (Proc.devRef .tc main_arg14) :=
  (W24_of_ne m ρ c main_arg14 (by decide)).trans ((keep11 (W22 m ρ c) main_arg14 (by decide)).trans ((W22_of_ne m ρ c main_arg14 (by decide)).trans ((keep10 (W20 m ρ c) main_arg14 (by decide)).trans ((W20_of_ne m ρ c main_arg14 (by decide)).trans ((keep9 (W18 m ρ c) main_arg14 (by decide)).trans ((W18_of_ne m ρ c main_arg14 (by decide)).trans ((keep8 (W16 m ρ c) main_arg14 (by decide)).trans ((W16_of_ne m ρ c main_arg14 (by decide)).trans ((keep7 (W14 m ρ c) main_arg14 (by decide)).trans ((W14_of_ne m ρ c main_arg14 (by decide)).trans ((keep6 (W12 m ρ c) main_arg14 (by decide)).trans ((W12_of_ne m ρ c main_arg14 (by decide)).trans ((keep5 (W10 m ρ c) main_arg14 (by decide)).trans ((W10_of_ne m ρ c main_arg14 (by decide)).trans ((keep4 (W8 m ρ c) main_arg14 (by decide)).trans ((W8_of_ne m ρ c main_arg14 (by decide)).trans ((keep3 (W6 m ρ c) main_arg14 (by decide)).trans ((W6_of_ne m ρ c main_arg14 (by decide)).trans ((keep2 (W4 m ρ c) main_arg14 (by decide)).trans ((W4_of_ne m ρ c main_arg14 (by decide)).trans ((keep1 (W2 m ρ c) main_arg14 (by decide)).trans ((W2_of_ne m ρ c main_arg14 (by decide)).trans ((keep0 (W0 m ρ c) main_arg14 (by decide)))))))))))))))))))))))))

set_option maxHeartbeats 4000000 in
theorem T_v167 (c : Dev nD) : W25 m ρ c (Proc.devRef .tc main_v167) = G_v167 (m ((c : Thread nD τ).loc main_arg14)) := by
  show after hostOps12 (W24 m ρ c) (Proc.devRef .tc main_v167) = _
  after_results
  rw [show W24 m ρ c (Proc.devRef .tc main_arg14) = _ from ((ch_arg14_24 m ρ c).trans (show W0 m ρ c (Proc.devRef .tc main_arg14) = m ((c : Thread nD τ).loc main_arg14) from rfl))]
  rfl

theorem ch_arg15_24 (c : Dev nD) : W24 m ρ c (Proc.devRef .tc main_arg15) = W0 m ρ c (Proc.devRef .tc main_arg15) :=
  (W24_of_ne m ρ c main_arg15 (by decide)).trans ((keep11 (W22 m ρ c) main_arg15 (by decide)).trans ((W22_of_ne m ρ c main_arg15 (by decide)).trans ((keep10 (W20 m ρ c) main_arg15 (by decide)).trans ((W20_of_ne m ρ c main_arg15 (by decide)).trans ((keep9 (W18 m ρ c) main_arg15 (by decide)).trans ((W18_of_ne m ρ c main_arg15 (by decide)).trans ((keep8 (W16 m ρ c) main_arg15 (by decide)).trans ((W16_of_ne m ρ c main_arg15 (by decide)).trans ((keep7 (W14 m ρ c) main_arg15 (by decide)).trans ((W14_of_ne m ρ c main_arg15 (by decide)).trans ((keep6 (W12 m ρ c) main_arg15 (by decide)).trans ((W12_of_ne m ρ c main_arg15 (by decide)).trans ((keep5 (W10 m ρ c) main_arg15 (by decide)).trans ((W10_of_ne m ρ c main_arg15 (by decide)).trans ((keep4 (W8 m ρ c) main_arg15 (by decide)).trans ((W8_of_ne m ρ c main_arg15 (by decide)).trans ((keep3 (W6 m ρ c) main_arg15 (by decide)).trans ((W6_of_ne m ρ c main_arg15 (by decide)).trans ((keep2 (W4 m ρ c) main_arg15 (by decide)).trans ((W4_of_ne m ρ c main_arg15 (by decide)).trans ((keep1 (W2 m ρ c) main_arg15 (by decide)).trans ((W2_of_ne m ρ c main_arg15 (by decide)).trans ((keep0 (W0 m ρ c) main_arg15 (by decide)))))))))))))))))))))))))

set_option maxHeartbeats 4000000 in
theorem T_v169 (c : Dev nD) : W25 m ρ c (Proc.devRef .tc main_v169) = G_v169 (m ((c : Thread nD τ).loc main_arg15)) := by
  show after hostOps12 (W24 m ρ c) (Proc.devRef .tc main_v169) = _
  after_results
  rw [show W24 m ρ c (Proc.devRef .tc main_arg15) = _ from ((ch_arg15_24 m ρ c).trans (show W0 m ρ c (Proc.devRef .tc main_arg15) = m ((c : Thread nD τ).loc main_arg15) from rfl))]
  rfl

theorem ch_arg16_24 (c : Dev nD) : W24 m ρ c (Proc.devRef .tc main_arg16) = W0 m ρ c (Proc.devRef .tc main_arg16) :=
  (W24_of_ne m ρ c main_arg16 (by decide)).trans ((keep11 (W22 m ρ c) main_arg16 (by decide)).trans ((W22_of_ne m ρ c main_arg16 (by decide)).trans ((keep10 (W20 m ρ c) main_arg16 (by decide)).trans ((W20_of_ne m ρ c main_arg16 (by decide)).trans ((keep9 (W18 m ρ c) main_arg16 (by decide)).trans ((W18_of_ne m ρ c main_arg16 (by decide)).trans ((keep8 (W16 m ρ c) main_arg16 (by decide)).trans ((W16_of_ne m ρ c main_arg16 (by decide)).trans ((keep7 (W14 m ρ c) main_arg16 (by decide)).trans ((W14_of_ne m ρ c main_arg16 (by decide)).trans ((keep6 (W12 m ρ c) main_arg16 (by decide)).trans ((W12_of_ne m ρ c main_arg16 (by decide)).trans ((keep5 (W10 m ρ c) main_arg16 (by decide)).trans ((W10_of_ne m ρ c main_arg16 (by decide)).trans ((keep4 (W8 m ρ c) main_arg16 (by decide)).trans ((W8_of_ne m ρ c main_arg16 (by decide)).trans ((keep3 (W6 m ρ c) main_arg16 (by decide)).trans ((W6_of_ne m ρ c main_arg16 (by decide)).trans ((keep2 (W4 m ρ c) main_arg16 (by decide)).trans ((W4_of_ne m ρ c main_arg16 (by decide)).trans ((keep1 (W2 m ρ c) main_arg16 (by decide)).trans ((W2_of_ne m ρ c main_arg16 (by decide)).trans ((keep0 (W0 m ρ c) main_arg16 (by decide)))))))))))))))))))))))))

set_option maxHeartbeats 4000000 in
theorem T_v171 (c : Dev nD) : W25 m ρ c (Proc.devRef .tc main_v171) = G_v171 (m ((c : Thread nD τ).loc main_arg16)) := by
  show after hostOps12 (W24 m ρ c) (Proc.devRef .tc main_v171) = _
  after_results
  rw [show W24 m ρ c (Proc.devRef .tc main_arg16) = _ from ((ch_arg16_24 m ρ c).trans (show W0 m ρ c (Proc.devRef .tc main_arg16) = m ((c : Thread nD τ).loc main_arg16) from rfl))]
  rfl

theorem ch_arg17_24 (c : Dev nD) : W24 m ρ c (Proc.devRef .tc main_arg17) = W0 m ρ c (Proc.devRef .tc main_arg17) :=
  (W24_of_ne m ρ c main_arg17 (by decide)).trans ((keep11 (W22 m ρ c) main_arg17 (by decide)).trans ((W22_of_ne m ρ c main_arg17 (by decide)).trans ((keep10 (W20 m ρ c) main_arg17 (by decide)).trans ((W20_of_ne m ρ c main_arg17 (by decide)).trans ((keep9 (W18 m ρ c) main_arg17 (by decide)).trans ((W18_of_ne m ρ c main_arg17 (by decide)).trans ((keep8 (W16 m ρ c) main_arg17 (by decide)).trans ((W16_of_ne m ρ c main_arg17 (by decide)).trans ((keep7 (W14 m ρ c) main_arg17 (by decide)).trans ((W14_of_ne m ρ c main_arg17 (by decide)).trans ((keep6 (W12 m ρ c) main_arg17 (by decide)).trans ((W12_of_ne m ρ c main_arg17 (by decide)).trans ((keep5 (W10 m ρ c) main_arg17 (by decide)).trans ((W10_of_ne m ρ c main_arg17 (by decide)).trans ((keep4 (W8 m ρ c) main_arg17 (by decide)).trans ((W8_of_ne m ρ c main_arg17 (by decide)).trans ((keep3 (W6 m ρ c) main_arg17 (by decide)).trans ((W6_of_ne m ρ c main_arg17 (by decide)).trans ((keep2 (W4 m ρ c) main_arg17 (by decide)).trans ((W4_of_ne m ρ c main_arg17 (by decide)).trans ((keep1 (W2 m ρ c) main_arg17 (by decide)).trans ((W2_of_ne m ρ c main_arg17 (by decide)).trans ((keep0 (W0 m ρ c) main_arg17 (by decide)))))))))))))))))))))))))

set_option maxHeartbeats 4000000 in
theorem T_v173 (c : Dev nD) : W25 m ρ c (Proc.devRef .tc main_v173) = G_v173 (m ((c : Thread nD τ).loc main_arg17)) := by
  show after hostOps12 (W24 m ρ c) (Proc.devRef .tc main_v173) = _
  after_results
  rw [show W24 m ρ c (Proc.devRef .tc main_arg17) = _ from ((ch_arg17_24 m ρ c).trans (show W0 m ρ c (Proc.devRef .tc main_arg17) = m ((c : Thread nD τ).loc main_arg17) from rfl))]
  rfl

theorem ch_arg18_24 (c : Dev nD) : W24 m ρ c (Proc.devRef .tc main_arg18) = W0 m ρ c (Proc.devRef .tc main_arg18) :=
  (W24_of_ne m ρ c main_arg18 (by decide)).trans ((keep11 (W22 m ρ c) main_arg18 (by decide)).trans ((W22_of_ne m ρ c main_arg18 (by decide)).trans ((keep10 (W20 m ρ c) main_arg18 (by decide)).trans ((W20_of_ne m ρ c main_arg18 (by decide)).trans ((keep9 (W18 m ρ c) main_arg18 (by decide)).trans ((W18_of_ne m ρ c main_arg18 (by decide)).trans ((keep8 (W16 m ρ c) main_arg18 (by decide)).trans ((W16_of_ne m ρ c main_arg18 (by decide)).trans ((keep7 (W14 m ρ c) main_arg18 (by decide)).trans ((W14_of_ne m ρ c main_arg18 (by decide)).trans ((keep6 (W12 m ρ c) main_arg18 (by decide)).trans ((W12_of_ne m ρ c main_arg18 (by decide)).trans ((keep5 (W10 m ρ c) main_arg18 (by decide)).trans ((W10_of_ne m ρ c main_arg18 (by decide)).trans ((keep4 (W8 m ρ c) main_arg18 (by decide)).trans ((W8_of_ne m ρ c main_arg18 (by decide)).trans ((keep3 (W6 m ρ c) main_arg18 (by decide)).trans ((W6_of_ne m ρ c main_arg18 (by decide)).trans ((keep2 (W4 m ρ c) main_arg18 (by decide)).trans ((W4_of_ne m ρ c main_arg18 (by decide)).trans ((keep1 (W2 m ρ c) main_arg18 (by decide)).trans ((W2_of_ne m ρ c main_arg18 (by decide)).trans ((keep0 (W0 m ρ c) main_arg18 (by decide)))))))))))))))))))))))))

set_option maxHeartbeats 4000000 in
theorem T_v175 (c : Dev nD) : W25 m ρ c (Proc.devRef .tc main_v175) = G_v175 (m ((c : Thread nD τ).loc main_arg18)) := by
  show after hostOps12 (W24 m ρ c) (Proc.devRef .tc main_v175) = _
  after_results
  rw [show W24 m ρ c (Proc.devRef .tc main_arg18) = _ from ((ch_arg18_24 m ρ c).trans (show W0 m ρ c (Proc.devRef .tc main_arg18) = m ((c : Thread nD τ).loc main_arg18) from rfl))]
  rfl

theorem ch_v1_24 (c : Dev nD) : W24 m ρ c (Proc.devRef .tc main_v1) = W1 m ρ c (Proc.devRef .tc main_v1) :=
  (W24_of_ne m ρ c main_v1 (by decide)).trans ((keep11 (W22 m ρ c) main_v1 (by decide)).trans ((W22_of_ne m ρ c main_v1 (by decide)).trans ((keep10 (W20 m ρ c) main_v1 (by decide)).trans ((W20_of_ne m ρ c main_v1 (by decide)).trans ((keep9 (W18 m ρ c) main_v1 (by decide)).trans ((W18_of_ne m ρ c main_v1 (by decide)).trans ((keep8 (W16 m ρ c) main_v1 (by decide)).trans ((W16_of_ne m ρ c main_v1 (by decide)).trans ((keep7 (W14 m ρ c) main_v1 (by decide)).trans ((W14_of_ne m ρ c main_v1 (by decide)).trans ((keep6 (W12 m ρ c) main_v1 (by decide)).trans ((W12_of_ne m ρ c main_v1 (by decide)).trans ((keep5 (W10 m ρ c) main_v1 (by decide)).trans ((W10_of_ne m ρ c main_v1 (by decide)).trans ((keep4 (W8 m ρ c) main_v1 (by decide)).trans ((W8_of_ne m ρ c main_v1 (by decide)).trans ((keep3 (W6 m ρ c) main_v1 (by decide)).trans ((W6_of_ne m ρ c main_v1 (by decide)).trans ((keep2 (W4 m ρ c) main_v1 (by decide)).trans ((W4_of_ne m ρ c main_v1 (by decide)).trans ((keep1 (W2 m ρ c) main_v1 (by decide)).trans ((W2_of_ne m ρ c main_v1 (by decide))))))))))))))))))))))))

set_option maxHeartbeats 4000000 in
theorem T_v182 (c : Dev nD) : W25 m ρ c (Proc.devRef .tc main_v182) = G_v182 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps12 (W24 m ρ c) (Proc.devRef .tc main_v182) = _
  after_results
  rw [show W24 m ρ c (Proc.devRef .tc main_v157) = _ from (T_v157 m ρ c)]
  rw [show W24 m ρ c (Proc.devRef .tc main_v1) = _ from ((ch_v1_24 m ρ c).trans (T_v1 m ρ c))]
  rfl

theorem ch_arg12_24 (c : Dev nD) : W24 m ρ c (Proc.devRef .tc main_arg12) = W0 m ρ c (Proc.devRef .tc main_arg12) :=
  (W24_of_ne m ρ c main_arg12 (by decide)).trans ((keep11 (W22 m ρ c) main_arg12 (by decide)).trans ((W22_of_ne m ρ c main_arg12 (by decide)).trans ((keep10 (W20 m ρ c) main_arg12 (by decide)).trans ((W20_of_ne m ρ c main_arg12 (by decide)).trans ((keep9 (W18 m ρ c) main_arg12 (by decide)).trans ((W18_of_ne m ρ c main_arg12 (by decide)).trans ((keep8 (W16 m ρ c) main_arg12 (by decide)).trans ((W16_of_ne m ρ c main_arg12 (by decide)).trans ((keep7 (W14 m ρ c) main_arg12 (by decide)).trans ((W14_of_ne m ρ c main_arg12 (by decide)).trans ((keep6 (W12 m ρ c) main_arg12 (by decide)).trans ((W12_of_ne m ρ c main_arg12 (by decide)).trans ((keep5 (W10 m ρ c) main_arg12 (by decide)).trans ((W10_of_ne m ρ c main_arg12 (by decide)).trans ((keep4 (W8 m ρ c) main_arg12 (by decide)).trans ((W8_of_ne m ρ c main_arg12 (by decide)).trans ((keep3 (W6 m ρ c) main_arg12 (by decide)).trans ((W6_of_ne m ρ c main_arg12 (by decide)).trans ((keep2 (W4 m ρ c) main_arg12 (by decide)).trans ((W4_of_ne m ρ c main_arg12 (by decide)).trans ((keep1 (W2 m ρ c) main_arg12 (by decide)).trans ((W2_of_ne m ρ c main_arg12 (by decide)).trans ((keep0 (W0 m ρ c) main_arg12 (by decide)))))))))))))))))))))))))

set_option maxHeartbeats 4000000 in
theorem T_v183 (c : Dev nD) : W25 m ρ c (Proc.devRef .tc main_v183) = G_v183 (m ((c : Thread nD τ).loc main_arg12)) := by
  show after hostOps12 (W24 m ρ c) (Proc.devRef .tc main_v183) = _
  after_results
  rw [show W24 m ρ c (Proc.devRef .tc main_arg12) = _ from ((ch_arg12_24 m ρ c).trans (show W0 m ρ c (Proc.devRef .tc main_arg12) = m ((c : Thread nD τ).loc main_arg12) from rfl))]
  rfl

end Cert.KernelIdeal.KerRead

end
-- ==== Proof.KerRead9.lean ====
/- The boundaries' contents, continued: see part 0. -/
import proofs.«162690_j78211354460181_1_alg».proof.Proof.KerRead8

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem ch_arg1_25 (c : Dev nD) : W25 m ρ c (Proc.devRef .tc main_arg1) = W0 m ρ c (Proc.devRef .tc main_arg1) :=
  (keep12 (W24 m ρ c) main_arg1 (by decide)).trans ((W24_of_ne m ρ c main_arg1 (by decide)).trans ((keep11 (W22 m ρ c) main_arg1 (by decide)).trans ((W22_of_ne m ρ c main_arg1 (by decide)).trans ((keep10 (W20 m ρ c) main_arg1 (by decide)).trans (((W20_arr m ρ c 1).trans (((dat9 (V19 m ρ) c).arrAt_in 1 rfl _).trans (A_eq9 (V19 m ρ) c 1))).trans ((keep9 (W18 m ρ c) main_arg1 (by decide)).trans ((W18_of_ne m ρ c main_arg1 (by decide)).trans ((keep8 (W16 m ρ c) main_arg1 (by decide)).trans ((W16_of_ne m ρ c main_arg1 (by decide)).trans ((keep7 (W14 m ρ c) main_arg1 (by decide)).trans (((W14_arr m ρ c 1).trans (((dat6 (V13 m ρ) c).arrAt_in 1 rfl _).trans (A_eq6 (V13 m ρ) c 1))).trans ((keep6 (W12 m ρ c) main_arg1 (by decide)).trans ((W12_of_ne m ρ c main_arg1 (by decide)).trans ((keep5 (W10 m ρ c) main_arg1 (by decide)).trans ((W10_of_ne m ρ c main_arg1 (by decide)).trans ((keep4 (W8 m ρ c) main_arg1 (by decide)).trans (((W8_arr m ρ c 1).trans (((dat3 (V7 m ρ) c).arrAt_in 1 rfl _).trans (A_eq3 (V7 m ρ) c 1))).trans ((keep3 (W6 m ρ c) main_arg1 (by decide)).trans ((W6_of_ne m ρ c main_arg1 (by decide)).trans ((keep2 (W4 m ρ c) main_arg1 (by decide)).trans ((W4_of_ne m ρ c main_arg1 (by decide)).trans ((keep1 (W2 m ρ c) main_arg1 (by decide)).trans (((W2_arr m ρ c 1).trans (((dat0 (V1 m ρ) c).arrAt_in 1 rfl _).trans (A_eq0 (V1 m ρ) c 1))).trans ((keep0 (W0 m ρ c) main_arg1 (by decide))))))))))))))))))))))))))

set_option maxHeartbeats 4000000 in
theorem T_v184 (c : Dev nD) : W26 m ρ c (Proc.devRef .tc main_v184) = G_v184 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W26_arr m ρ c 4).trans ((Cert.KernelIdeal.Reg12.final4 (V25 m ρ) c).trans ?_)
  unfold G_v184
  rw [show V25 m ρ c main_v182 = _ from (T_v182 m ρ c)]
  rw [show V25 m ρ c main_arg1 = _ from ((ch_arg1_25 m ρ c).trans (show W0 m ρ c (Proc.devRef .tc main_arg1) = m ((c : Thread nD τ).loc main_arg1) from rfl))]
  rw [show V25 m ρ c main_v159 = _ from (T_v159 m ρ c)]
  rw [show V25 m ρ c main_v183 = _ from (T_v183 m ρ c)]

theorem ch_v3_26 (c : Dev nD) : W26 m ρ c (Proc.devRef .tc main_v3) = W1 m ρ c (Proc.devRef .tc main_v3) :=
  (W26_of_ne m ρ c main_v3 (by decide)).trans ((keep12 (W24 m ρ c) main_v3 (by decide)).trans ((W24_of_ne m ρ c main_v3 (by decide)).trans ((keep11 (W22 m ρ c) main_v3 (by decide)).trans ((W22_of_ne m ρ c main_v3 (by decide)).trans ((keep10 (W20 m ρ c) main_v3 (by decide)).trans ((W20_of_ne m ρ c main_v3 (by decide)).trans ((keep9 (W18 m ρ c) main_v3 (by decide)).trans ((W18_of_ne m ρ c main_v3 (by decide)).trans ((keep8 (W16 m ρ c) main_v3 (by decide)).trans ((W16_of_ne m ρ c main_v3 (by decide)).trans ((keep7 (W14 m ρ c) main_v3 (by decide)).trans ((W14_of_ne m ρ c main_v3 (by decide)).trans ((keep6 (W12 m ρ c) main_v3 (by decide)).trans ((W12_of_ne m ρ c main_v3 (by decide)).trans ((keep5 (W10 m ρ c) main_v3 (by decide)).trans ((W10_of_ne m ρ c main_v3 (by decide)).trans ((keep4 (W8 m ρ c) main_v3 (by decide)).trans ((W8_of_ne m ρ c main_v3 (by decide)).trans ((keep3 (W6 m ρ c) main_v3 (by decide)).trans ((W6_of_ne m ρ c main_v3 (by decide)).trans ((keep2 (W4 m ρ c) main_v3 (by decide)).trans ((W4_of_ne m ρ c main_v3 (by decide)).trans ((keep1 (W2 m ρ c) main_v3 (by decide)).trans ((W2_of_ne m ρ c main_v3 (by decide))))))))))))))))))))))))))

set_option maxHeartbeats 4000000 in
theorem T_v187 (c : Dev nD) : W27 m ρ c (Proc.devRef .tc main_v187) = G_v187 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps13 (W26 m ρ c) (Proc.devRef .tc main_v187) = _
  after_results
  rw [show W26 m ρ c (Proc.devRef .tc main_v3) = _ from ((ch_v3_26 m ρ c).trans (T_v3 m ρ c))]
  rw [show W26 m ρ c (Proc.devRef .tc main_v184) = _ from (T_v184 m ρ c)]
  rfl

theorem ch_v163_26 (c : Dev nD) : W26 m ρ c (Proc.devRef .tc main_v163) = W25 m ρ c (Proc.devRef .tc main_v163) :=
  (W26_of_ne m ρ c main_v163 (by decide))

set_option maxHeartbeats 4000000 in
theorem T_v188 (c : Dev nD) : W27 m ρ c (Proc.devRef .tc main_v188) = G_v188 (m ((c : Thread nD τ).loc main_arg19)) := by
  show after hostOps13 (W26 m ρ c) (Proc.devRef .tc main_v188) = _
  after_results
  rw [show W26 m ρ c (Proc.devRef .tc main_v163) = _ from ((ch_v163_26 m ρ c).trans (T_v163 m ρ c))]
  rfl

theorem ch_v167_26 (c : Dev nD) : W26 m ρ c (Proc.devRef .tc main_v167) = W25 m ρ c (Proc.devRef .tc main_v167) :=
  (W26_of_ne m ρ c main_v167 (by decide))

set_option maxHeartbeats 4000000 in
theorem T_v189 (c : Dev nD) : W27 m ρ c (Proc.devRef .tc main_v189) = G_v189 (m ((c : Thread nD τ).loc main_arg14)) := by
  show after hostOps13 (W26 m ρ c) (Proc.devRef .tc main_v189) = _
  after_results
  rw [show W26 m ρ c (Proc.devRef .tc main_v167) = _ from ((ch_v167_26 m ρ c).trans (T_v167 m ρ c))]
  rfl

theorem ch_v171_26 (c : Dev nD) : W26 m ρ c (Proc.devRef .tc main_v171) = W25 m ρ c (Proc.devRef .tc main_v171) :=
  (W26_of_ne m ρ c main_v171 (by decide))

set_option maxHeartbeats 4000000 in
theorem T_v190 (c : Dev nD) : W27 m ρ c (Proc.devRef .tc main_v190) = G_v190 (m ((c : Thread nD τ).loc main_arg16)) := by
  show after hostOps13 (W26 m ρ c) (Proc.devRef .tc main_v190) = _
  after_results
  rw [show W26 m ρ c (Proc.devRef .tc main_v171) = _ from ((ch_v171_26 m ρ c).trans (T_v171 m ρ c))]
  rfl

theorem ch_v157_27 (c : Dev nD) : W27 m ρ c (Proc.devRef .tc main_v157) = W24 m ρ c (Proc.devRef .tc main_v157) :=
  (keep13 (W26 m ρ c) main_v157 (by decide)).trans ((W26_of_ne m ρ c main_v157 (by decide)).trans ((keep12 (W24 m ρ c) main_v157 (by decide))))

theorem ch_v165_27 (c : Dev nD) : W27 m ρ c (Proc.devRef .tc main_v165) = W25 m ρ c (Proc.devRef .tc main_v165) :=
  (keep13 (W26 m ρ c) main_v165 (by decide)).trans ((W26_of_ne m ρ c main_v165 (by decide)))

theorem ch_v169_27 (c : Dev nD) : W27 m ρ c (Proc.devRef .tc main_v169) = W25 m ρ c (Proc.devRef .tc main_v169) :=
  (keep13 (W26 m ρ c) main_v169 (by decide)).trans ((W26_of_ne m ρ c main_v169 (by decide)))

set_option maxHeartbeats 4000000 in
theorem T_v191_0 (c : Dev nD) : W28 m ρ c (Proc.devRef .tc main_v191_0) = G_v191_0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W28_arr m ρ c 7).trans ((Cert.KernelIdeal.Reg13.final7 (V27 m ρ) c).trans ?_)
  unfold G_v191_0
  rw [show V27 m ρ c main_v157 = _ from ((ch_v157_27 m ρ c).trans (T_v157 m ρ c))]
  rw [show V27 m ρ c main_v187 = _ from (T_v187 m ρ c)]
  rw [show V27 m ρ c main_v188 = _ from (T_v188 m ρ c)]
  rw [show V27 m ρ c main_v165 = _ from ((ch_v165_27 m ρ c).trans (T_v165 m ρ c))]
  rw [show V27 m ρ c main_v189 = _ from (T_v189 m ρ c)]
  rw [show V27 m ρ c main_v169 = _ from ((ch_v169_27 m ρ c).trans (T_v169 m ρ c))]
  rw [show V27 m ρ c main_v190 = _ from (T_v190 m ρ c)]

set_option maxHeartbeats 4000000 in
theorem T_v191_1 (c : Dev nD) : W28 m ρ c (Proc.devRef .tc main_v191_1) = G_v191_1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W28_arr m ρ c 8).trans ((Cert.KernelIdeal.Reg13.final8 (V27 m ρ) c).trans ?_)
  unfold G_v191_1
  rw [show V27 m ρ c main_v157 = _ from ((ch_v157_27 m ρ c).trans (T_v157 m ρ c))]
  rw [show V27 m ρ c main_v187 = _ from (T_v187 m ρ c)]
  rw [show V27 m ρ c main_v188 = _ from (T_v188 m ρ c)]
  rw [show V27 m ρ c main_v165 = _ from ((ch_v165_27 m ρ c).trans (T_v165 m ρ c))]
  rw [show V27 m ρ c main_v189 = _ from (T_v189 m ρ c)]
  rw [show V27 m ρ c main_v169 = _ from ((ch_v169_27 m ρ c).trans (T_v169 m ρ c))]
  rw [show V27 m ρ c main_v190 = _ from (T_v190 m ρ c)]

set_option maxHeartbeats 4000000 in
theorem T_v191_2 (c : Dev nD) : W28 m ρ c (Proc.devRef .tc main_v191_2) = G_v191_2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W28_arr m ρ c 9).trans ((Cert.KernelIdeal.Reg13.final9 (V27 m ρ) c).trans ?_)
  unfold G_v191_2
  rw [show V27 m ρ c main_v157 = _ from ((ch_v157_27 m ρ c).trans (T_v157 m ρ c))]
  rw [show V27 m ρ c main_v187 = _ from (T_v187 m ρ c)]
  rw [show V27 m ρ c main_v188 = _ from (T_v188 m ρ c)]
  rw [show V27 m ρ c main_v165 = _ from ((ch_v165_27 m ρ c).trans (T_v165 m ρ c))]
  rw [show V27 m ρ c main_v189 = _ from (T_v189 m ρ c)]
  rw [show V27 m ρ c main_v169 = _ from ((ch_v169_27 m ρ c).trans (T_v169 m ρ c))]
  rw [show V27 m ρ c main_v190 = _ from (T_v190 m ρ c)]

set_option maxHeartbeats 4000000 in
theorem T_v193 (c : Dev nD) : W29 m ρ c (Proc.devRef .tc main_v193) = G_v193 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps14 (W28 m ρ c) (Proc.devRef .tc main_v193) = _
  after_results
  rw [show W28 m ρ c (Proc.devRef .tc main_v191_1) = _ from (T_v191_1 m ρ c)]
  rfl

set_option maxHeartbeats 4000000 in
theorem T_v197 (c : Dev nD) : W29 m ρ c (Proc.devRef .tc main_v197) = G_v197 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  show after hostOps14 (W28 m ρ c) (Proc.devRef .tc main_v197) = _
  after_results
  rw [show W28 m ρ c (Proc.devRef .tc main_v191_2) = _ from (T_v191_2 m ρ c)]
  rw [show W28 m ρ c (Proc.devRef .tc main_v191_1) = _ from (T_v191_1 m ρ c)]
  rfl

theorem ch_v173_28 (c : Dev nD) : W28 m ρ c (Proc.devRef .tc main_v173) = W25 m ρ c (Proc.devRef .tc main_v173) :=
  (W28_of_ne m ρ c main_v173 (by decide)).trans ((keep13 (W26 m ρ c) main_v173 (by decide)).trans ((W26_of_ne m ρ c main_v173 (by decide))))

set_option maxHeartbeats 4000000 in
theorem T_v198 (c : Dev nD) : W29 m ρ c (Proc.devRef .tc main_v198) = G_v198 (m ((c : Thread nD τ).loc main_arg17)) := by
  show after hostOps14 (W28 m ρ c) (Proc.devRef .tc main_v198) = _
  after_results
  rw [show W28 m ρ c (Proc.devRef .tc main_v173) = _ from ((ch_v173_28 m ρ c).trans (T_v173 m ρ c))]
  rfl

theorem ch_v175_28 (c : Dev nD) : W28 m ρ c (Proc.devRef .tc main_v175) = W25 m ρ c (Proc.devRef .tc main_v175) :=
  (W28_of_ne m ρ c main_v175 (by decide)).trans ((keep13 (W26 m ρ c) main_v175 (by decide)).trans ((W26_of_ne m ρ c main_v175 (by decide))))

set_option maxHeartbeats 4000000 in
theorem T_v199 (c : Dev nD) : W29 m ρ c (Proc.devRef .tc main_v199) = G_v199 (m ((c : Thread nD τ).loc main_arg18)) := by
  show after hostOps14 (W28 m ρ c) (Proc.devRef .tc main_v199) = _
  after_results
  rw [show W28 m ρ c (Proc.devRef .tc main_v175) = _ from ((ch_v175_28 m ρ c).trans (T_v175 m ρ c))]
  rfl

end Cert.KernelIdeal.KerRead

end
-- ==== Proof.KerRead10.lean ====
/- The boundaries' contents, continued: see part 0. -/
import proofs.«162690_j78211354460181_1_alg».proof.Proof.KerRead9

set_option Elab.async false
set_option maxRecDepth 16384

noncomputable section

namespace Cert.KernelIdeal.KerRead

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

theorem ch_v191_0_29 (c : Dev nD) : W29 m ρ c (Proc.devRef .tc main_v191_0) = W28 m ρ c (Proc.devRef .tc main_v191_0) :=
  (keep14 (W28 m ρ c) main_v191_0 (by decide))

theorem ch_v157_29 (c : Dev nD) : W29 m ρ c (Proc.devRef .tc main_v157) = W24 m ρ c (Proc.devRef .tc main_v157) :=
  (keep14 (W28 m ρ c) main_v157 (by decide)).trans (((W28_arr m ρ c 0).trans (((dat13 (V27 m ρ) c).arrAt_in 0 rfl _).trans (A_eq13 (V27 m ρ) c 0))).trans ((keep13 (W26 m ρ c) main_v157 (by decide)).trans ((W26_of_ne m ρ c main_v157 (by decide)).trans ((keep12 (W24 m ρ c) main_v157 (by decide))))))

set_option maxHeartbeats 4000000 in
theorem T_v200 (c : Dev nD) : W30 m ρ c (Proc.devRef .tc main_v200) = G_v200 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) := by
  refine (W30_arr m ρ c 6).trans ((Cert.KernelIdeal.Reg14.final6 (V29 m ρ) c).trans ?_)
  unfold G_v200
  rw [show V29 m ρ c main_v191_0 = _ from ((ch_v191_0_29 m ρ c).trans (T_v191_0 m ρ c))]
  rw [show V29 m ρ c main_v157 = _ from ((ch_v157_29 m ρ c).trans (T_v157 m ρ c))]
  rw [show V29 m ρ c main_v193 = _ from (T_v193 m ρ c)]
  rw [show V29 m ρ c main_v197 = _ from (T_v197 m ρ c)]
  rw [show V29 m ρ c main_v198 = _ from (T_v198 m ρ c)]
  rw [show V29 m ρ c main_v199 = _ from (T_v199 m ρ c)]

theorem ch_arg27_30 (c : Dev nD) : W30 m ρ c (Proc.devRef .tc main_arg27) = W0 m ρ c (Proc.devRef .tc main_arg27) :=
  (W30_of_ne m ρ c main_arg27 (by decide)).trans ((keep14 (W28 m ρ c) main_arg27 (by decide)).trans ((W28_of_ne m ρ c main_arg27 (by decide)).trans ((keep13 (W26 m ρ c) main_arg27 (by decide)).trans ((W26_of_ne m ρ c main_arg27 (by decide)).trans ((keep12 (W24 m ρ c) main_arg27 (by decide)).trans ((W24_of_ne m ρ c main_arg27 (by decide)).trans ((keep11 (W22 m ρ c) main_arg27 (by decide)).trans ((W22_of_ne m ρ c main_arg27 (by decide)).trans ((keep10 (W20 m ρ c) main_arg27 (by decide)).trans ((W20_of_ne m ρ c main_arg27 (by decide)).trans ((keep9 (W18 m ρ c) main_arg27 (by decide)).trans ((W18_of_ne m ρ c main_arg27 (by decide)).trans ((keep8 (W16 m ρ c) main_arg27 (by decide)).trans ((W16_of_ne m ρ c main_arg27 (by decide)).trans ((keep7 (W14 m ρ c) main_arg27 (by decide)).trans ((W14_of_ne m ρ c main_arg27 (by decide)).trans ((keep6 (W12 m ρ c) main_arg27 (by decide)).trans ((W12_of_ne m ρ c main_arg27 (by decide)).trans ((keep5 (W10 m ρ c) main_arg27 (by decide)).trans ((W10_of_ne m ρ c main_arg27 (by decide)).trans ((keep4 (W8 m ρ c) main_arg27 (by decide)).trans ((W8_of_ne m ρ c main_arg27 (by decide)).trans ((keep3 (W6 m ρ c) main_arg27 (by decide)).trans ((W6_of_ne m ρ c main_arg27 (by decide)).trans ((keep2 (W4 m ρ c) main_arg27 (by decide)).trans ((W4_of_ne m ρ c main_arg27 (by decide)).trans ((keep1 (W2 m ρ c) main_arg27 (by decide)).trans ((W2_of_ne m ρ c main_arg27 (by decide)).trans ((keep0 (W0 m ρ c) main_arg27 (by decide)))))))))))))))))))))))))))))))

set_option maxHeartbeats 4000000 in
theorem T_v212 (c : Dev nD) : W31 m ρ c (Proc.devRef .tc main_v212) = G_v212 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg26)) (m ((c : Thread nD τ).loc main_arg27)) := by
  show after hostOps15 (W30 m ρ c) (Proc.devRef .tc main_v212) = _
  after_results
  rw [show W30 m ρ c (Proc.devRef .tc main_arg27) = _ from ((ch_arg27_30 m ρ c).trans (show W0 m ρ c (Proc.devRef .tc main_arg27) = m ((c : Thread nD τ).loc main_arg27) from rfl))]
  rw [show W30 m ρ c (Proc.devRef .tc main_v200) = _ from (T_v200 m ρ c)]
  rfl

theorem ch_arg21_30 (c : Dev nD) : W30 m ρ c (Proc.devRef .tc main_arg21) = W0 m ρ c (Proc.devRef .tc main_arg21) :=
  (W30_of_ne m ρ c main_arg21 (by decide)).trans ((keep14 (W28 m ρ c) main_arg21 (by decide)).trans ((W28_of_ne m ρ c main_arg21 (by decide)).trans ((keep13 (W26 m ρ c) main_arg21 (by decide)).trans ((W26_of_ne m ρ c main_arg21 (by decide)).trans ((keep12 (W24 m ρ c) main_arg21 (by decide)).trans ((W24_of_ne m ρ c main_arg21 (by decide)).trans ((keep11 (W22 m ρ c) main_arg21 (by decide)).trans ((W22_of_ne m ρ c main_arg21 (by decide)).trans ((keep10 (W20 m ρ c) main_arg21 (by decide)).trans ((W20_of_ne m ρ c main_arg21 (by decide)).trans ((keep9 (W18 m ρ c) main_arg21 (by decide)).trans ((W18_of_ne m ρ c main_arg21 (by decide)).trans ((keep8 (W16 m ρ c) main_arg21 (by decide)).trans ((W16_of_ne m ρ c main_arg21 (by decide)).trans ((keep7 (W14 m ρ c) main_arg21 (by decide)).trans ((W14_of_ne m ρ c main_arg21 (by decide)).trans ((keep6 (W12 m ρ c) main_arg21 (by decide)).trans ((W12_of_ne m ρ c main_arg21 (by decide)).trans ((keep5 (W10 m ρ c) main_arg21 (by decide)).trans ((W10_of_ne m ρ c main_arg21 (by decide)).trans ((keep4 (W8 m ρ c) main_arg21 (by decide)).trans ((W8_of_ne m ρ c main_arg21 (by decide)).trans ((keep3 (W6 m ρ c) main_arg21 (by decide)).trans ((W6_of_ne m ρ c main_arg21 (by decide)).trans ((keep2 (W4 m ρ c) main_arg21 (by decide)).trans ((W4_of_ne m ρ c main_arg21 (by decide)).trans ((keep1 (W2 m ρ c) main_arg21 (by decide)).trans ((W2_of_ne m ρ c main_arg21 (by decide)).trans ((keep0 (W0 m ρ c) main_arg21 (by decide)))))))))))))))))))))))))))))))

set_option maxHeartbeats 4000000 in
theorem T_v213 (c : Dev nD) : W31 m ρ c (Proc.devRef .tc main_v213) = G_v213 (m ((c : Thread nD τ).loc main_arg21)) := by
  show after hostOps15 (W30 m ρ c) (Proc.devRef .tc main_v213) = _
  after_results
  rw [show W30 m ρ c (Proc.devRef .tc main_arg21) = _ from ((ch_arg21_30 m ρ c).trans (show W0 m ρ c (Proc.devRef .tc main_arg21) = m ((c : Thread nD τ).loc main_arg21) from rfl))]
  rfl

theorem ch_arg23_30 (c : Dev nD) : W30 m ρ c (Proc.devRef .tc main_arg23) = W0 m ρ c (Proc.devRef .tc main_arg23) :=
  (W30_of_ne m ρ c main_arg23 (by decide)).trans ((keep14 (W28 m ρ c) main_arg23 (by decide)).trans ((W28_of_ne m ρ c main_arg23 (by decide)).trans ((keep13 (W26 m ρ c) main_arg23 (by decide)).trans ((W26_of_ne m ρ c main_arg23 (by decide)).trans ((keep12 (W24 m ρ c) main_arg23 (by decide)).trans ((W24_of_ne m ρ c main_arg23 (by decide)).trans ((keep11 (W22 m ρ c) main_arg23 (by decide)).trans ((W22_of_ne m ρ c main_arg23 (by decide)).trans ((keep10 (W20 m ρ c) main_arg23 (by decide)).trans ((W20_of_ne m ρ c main_arg23 (by decide)).trans ((keep9 (W18 m ρ c) main_arg23 (by decide)).trans ((W18_of_ne m ρ c main_arg23 (by decide)).trans ((keep8 (W16 m ρ c) main_arg23 (by decide)).trans ((W16_of_ne m ρ c main_arg23 (by decide)).trans ((keep7 (W14 m ρ c) main_arg23 (by decide)).trans ((W14_of_ne m ρ c main_arg23 (by decide)).trans ((keep6 (W12 m ρ c) main_arg23 (by decide)).trans ((W12_of_ne m ρ c main_arg23 (by decide)).trans ((keep5 (W10 m ρ c) main_arg23 (by decide)).trans ((W10_of_ne m ρ c main_arg23 (by decide)).trans ((keep4 (W8 m ρ c) main_arg23 (by decide)).trans ((W8_of_ne m ρ c main_arg23 (by decide)).trans ((keep3 (W6 m ρ c) main_arg23 (by decide)).trans ((W6_of_ne m ρ c main_arg23 (by decide)).trans ((keep2 (W4 m ρ c) main_arg23 (by decide)).trans ((W4_of_ne m ρ c main_arg23 (by decide)).trans ((keep1 (W2 m ρ c) main_arg23 (by decide)).trans ((W2_of_ne m ρ c main_arg23 (by decide)).trans ((keep0 (W0 m ρ c) main_arg23 (by decide)))))))))))))))))))))))))))))))

set_option maxHeartbeats 4000000 in
theorem T_v214 (c : Dev nD) : W31 m ρ c (Proc.devRef .tc main_v214) = G_v214 (m ((c : Thread nD τ).loc main_arg23)) := by
  show after hostOps15 (W30 m ρ c) (Proc.devRef .tc main_v214) = _
  after_results
  rw [show W30 m ρ c (Proc.devRef .tc main_arg23) = _ from ((ch_arg23_30 m ρ c).trans (show W0 m ρ c (Proc.devRef .tc main_arg23) = m ((c : Thread nD τ).loc main_arg23) from rfl))]
  rfl

theorem ch_arg25_30 (c : Dev nD) : W30 m ρ c (Proc.devRef .tc main_arg25) = W0 m ρ c (Proc.devRef .tc main_arg25) :=
  (W30_of_ne m ρ c main_arg25 (by decide)).trans ((keep14 (W28 m ρ c) main_arg25 (by decide)).trans ((W28_of_ne m ρ c main_arg25 (by decide)).trans ((keep13 (W26 m ρ c) main_arg25 (by decide)).trans ((W26_of_ne m ρ c main_arg25 (by decide)).trans ((keep12 (W24 m ρ c) main_arg25 (by decide)).trans ((W24_of_ne m ρ c main_arg25 (by decide)).trans ((keep11 (W22 m ρ c) main_arg25 (by decide)).trans ((W22_of_ne m ρ c main_arg25 (by decide)).trans ((keep10 (W20 m ρ c) main_arg25 (by decide)).trans ((W20_of_ne m ρ c main_arg25 (by decide)).trans ((keep9 (W18 m ρ c) main_arg25 (by decide)).trans ((W18_of_ne m ρ c main_arg25 (by decide)).trans ((keep8 (W16 m ρ c) main_arg25 (by decide)).trans ((W16_of_ne m ρ c main_arg25 (by decide)).trans ((keep7 (W14 m ρ c) main_arg25 (by decide)).trans ((W14_of_ne m ρ c main_arg25 (by decide)).trans ((keep6 (W12 m ρ c) main_arg25 (by decide)).trans ((W12_of_ne m ρ c main_arg25 (by decide)).trans ((keep5 (W10 m ρ c) main_arg25 (by decide)).trans ((W10_of_ne m ρ c main_arg25 (by decide)).trans ((keep4 (W8 m ρ c) main_arg25 (by decide)).trans ((W8_of_ne m ρ c main_arg25 (by decide)).trans ((keep3 (W6 m ρ c) main_arg25 (by decide)).trans ((W6_of_ne m ρ c main_arg25 (by decide)).trans ((keep2 (W4 m ρ c) main_arg25 (by decide)).trans ((W4_of_ne m ρ c main_arg25 (by decide)).trans ((keep1 (W2 m ρ c) main_arg25 (by decide)).trans ((W2_of_ne m ρ c main_arg25 (by decide)).trans ((keep0 (W0 m ρ c) main_arg25 (by decide)))))))))))))))))))))))))))))))

set_option maxHeartbeats 4000000 in
theorem T_v215 (c : Dev nD) : W31 m ρ c (Proc.devRef .tc main_v215) = G_v215 (m ((c : Thread nD τ).loc main_arg25)) := by
  show after hostOps15 (W30 m ρ c) (Proc.devRef .tc main_v215) = _
  after_results
  rw [show W30 m ρ c (Proc.devRef .tc main_arg25) = _ from ((ch_arg25_30 m ρ c).trans (show W0 m ρ c (Proc.devRef .tc main_arg25) = m ((c : Thread nD τ).loc main_arg25) from rfl))]
  rfl

theorem ch_arg20_31 (c : Dev nD) : W31 m ρ c (Proc.devRef .tc main_arg20) = W0 m ρ c (Proc.devRef .tc main_arg20) :=
  (keep15 (W30 m ρ c) main_arg20 (by decide)).trans ((W30_of_ne m ρ c main_arg20 (by decide)).trans ((keep14 (W28 m ρ c) main_arg20 (by decide)).trans ((W28_of_ne m ρ c main_arg20 (by decide)).trans ((keep13 (W26 m ρ c) main_arg20 (by decide)).trans ((W26_of_ne m ρ c main_arg20 (by decide)).trans ((keep12 (W24 m ρ c) main_arg20 (by decide)).trans ((W24_of_ne m ρ c main_arg20 (by decide)).trans ((keep11 (W22 m ρ c) main_arg20 (by decide)).trans ((W22_of_ne m ρ c main_arg20 (by decide)).trans ((keep10 (W20 m ρ c) main_arg20 (by decide)).trans ((W20_of_ne m ρ c main_arg20 (by decide)).trans ((keep9 (W18 m ρ c) main_arg20 (by decide)).trans ((W18_of_ne m ρ c main_arg20 (by decide)).trans ((keep8 (W16 m ρ c) main_arg20 (by decide)).trans ((W16_of_ne m ρ c main_arg20 (by decide)).trans ((keep7 (W14 m ρ c) main_arg20 (by decide)).trans ((W14_of_ne m ρ c main_arg20 (by decide)).trans ((keep6 (W12 m ρ c) main_arg20 (by decide)).trans ((W12_of_ne m ρ c main_arg20 (by decide)).trans ((keep5 (W10 m ρ c) main_arg20 (by decide)).trans ((W10_of_ne m ρ c main_arg20 (by decide)).trans ((keep4 (W8 m ρ c) main_arg20 (by decide)).trans ((W8_of_ne m ρ c main_arg20 (by decide)).trans ((keep3 (W6 m ρ c) main_arg20 (by decide)).trans ((W6_of_ne m ρ c main_arg20 (by decide)).trans ((keep2 (W4 m ρ c) main_arg20 (by decide)).trans ((W4_of_ne m ρ c main_arg20 (by decide)).trans ((keep1 (W2 m ρ c) main_arg20 (by decide)).trans ((W2_of_ne m ρ c main_arg20 (by decide)).trans ((keep0 (W0 m ρ c) main_arg20 (by decide))))))))))))))))))))))))))))))))

theorem ch_arg22_31 (c : Dev nD) : W31 m ρ c (Proc.devRef .tc main_arg22) = W0 m ρ c (Proc.devRef .tc main_arg22) :=
  (keep15 (W30 m ρ c) main_arg22 (by decide)).trans ((W30_of_ne m ρ c main_arg22 (by decide)).trans ((keep14 (W28 m ρ c) main_arg22 (by decide)).trans ((W28_of_ne m ρ c main_arg22 (by decide)).trans ((keep13 (W26 m ρ c) main_arg22 (by decide)).trans ((W26_of_ne m ρ c main_arg22 (by decide)).trans ((keep12 (W24 m ρ c) main_arg22 (by decide)).trans ((W24_of_ne m ρ c main_arg22 (by decide)).trans ((keep11 (W22 m ρ c) main_arg22 (by decide)).trans ((W22_of_ne m ρ c main_arg22 (by decide)).trans ((keep10 (W20 m ρ c) main_arg22 (by decide)).trans ((W20_of_ne m ρ c main_arg22 (by decide)).trans ((keep9 (W18 m ρ c) main_arg22 (by decide)).trans ((W18_of_ne m ρ c main_arg22 (by decide)).trans ((keep8 (W16 m ρ c) main_arg22 (by decide)).trans ((W16_of_ne m ρ c main_arg22 (by decide)).trans ((keep7 (W14 m ρ c) main_arg22 (by decide)).trans ((W14_of_ne m ρ c main_arg22 (by decide)).trans ((keep6 (W12 m ρ c) main_arg22 (by decide)).trans ((W12_of_ne m ρ c main_arg22 (by decide)).trans ((keep5 (W10 m ρ c) main_arg22 (by decide)).trans ((W10_of_ne m ρ c main_arg22 (by decide)).trans ((keep4 (W8 m ρ c) main_arg22 (by decide)).trans ((W8_of_ne m ρ c main_arg22 (by decide)).trans ((keep3 (W6 m ρ c) main_arg22 (by decide)).trans ((W6_of_ne m ρ c main_arg22 (by decide)).trans ((keep2 (W4 m ρ c) main_arg22 (by decide)).trans ((W4_of_ne m ρ c main_arg22 (by decide)).trans ((keep1 (W2 m ρ c) main_arg22 (by decide)).trans ((W2_of_ne m ρ c main_arg22 (by decide)).trans ((keep0 (W0 m ρ c) main_arg22 (by decide))))))))))))))))))))))))))))))))

theorem ch_arg24_31 (c : Dev nD) : W31 m ρ c (Proc.devRef .tc main_arg24) = W0 m ρ c (Proc.devRef .tc main_arg24) :=
  (keep15 (W30 m ρ c) main_arg24 (by decide)).trans ((W30_of_ne m ρ c main_arg24 (by decide)).trans ((keep14 (W28 m ρ c) main_arg24 (by decide)).trans ((W28_of_ne m ρ c main_arg24 (by decide)).trans ((keep13 (W26 m ρ c) main_arg24 (by decide)).trans ((W26_of_ne m ρ c main_arg24 (by decide)).trans ((keep12 (W24 m ρ c) main_arg24 (by decide)).trans ((W24_of_ne m ρ c main_arg24 (by decide)).trans ((keep11 (W22 m ρ c) main_arg24 (by decide)).trans ((W22_of_ne m ρ c main_arg24 (by decide)).trans ((keep10 (W20 m ρ c) main_arg24 (by decide)).trans ((W20_of_ne m ρ c main_arg24 (by decide)).trans ((keep9 (W18 m ρ c) main_arg24 (by decide)).trans ((W18_of_ne m ρ c main_arg24 (by decide)).trans ((keep8 (W16 m ρ c) main_arg24 (by decide)).trans ((W16_of_ne m ρ c main_arg24 (by decide)).trans ((keep7 (W14 m ρ c) main_arg24 (by decide)).trans ((W14_of_ne m ρ c main_arg24 (by decide)).trans ((keep6 (W12 m ρ c) main_arg24 (by decide)).trans ((W12_of_ne m ρ c main_arg24 (by decide)).trans ((keep5 (W10 m ρ c) main_arg24 (by decide)).trans ((W10_of_ne m ρ c main_arg24 (by decide)).trans ((keep4 (W8 m ρ c) main_arg24 (by decide)).trans ((W8_of_ne m ρ c main_arg24 (by decide)).trans ((keep3 (W6 m ρ c) main_arg24 (by decide)).trans ((W6_of_ne m ρ c main_arg24 (by decide)).trans ((keep2 (W4 m ρ c) main_arg24 (by decide)).trans ((W4_of_ne m ρ c main_arg24 (by decide)).trans ((keep1 (W2 m ρ c) main_arg24 (by decide)).trans ((W2_of_ne m ρ c main_arg24 (by decide)).trans ((keep0 (W0 m ρ c) main_arg24 (by decide))))))))))))))))))))))))))))))))

set_option maxHeartbeats 4000000 in
theorem T_v216 (c : Dev nD) : W32 m ρ c (Proc.devRef .tc main_v216) = G_v216 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  refine (W32_arr m ρ c 7).trans ((Cert.KernelIdeal.Reg15.final7 (V31 m ρ) c).trans ?_)
  unfold G_v216
  rw [show V31 m ρ c main_v212 = _ from (T_v212 m ρ c)]
  rw [show V31 m ρ c main_arg20 = _ from ((ch_arg20_31 m ρ c).trans (show W0 m ρ c (Proc.devRef .tc main_arg20) = m ((c : Thread nD τ).loc main_arg20) from rfl))]
  rw [show V31 m ρ c main_v213 = _ from (T_v213 m ρ c)]
  rw [show V31 m ρ c main_arg22 = _ from ((ch_arg22_31 m ρ c).trans (show W0 m ρ c (Proc.devRef .tc main_arg22) = m ((c : Thread nD τ).loc main_arg22) from rfl))]
  rw [show V31 m ρ c main_v214 = _ from (T_v214 m ρ c)]
  rw [show V31 m ρ c main_arg24 = _ from ((ch_arg24_31 m ρ c).trans (show W0 m ρ c (Proc.devRef .tc main_arg24) = m ((c : Thread nD τ).loc main_arg24) from rfl))]
  rw [show V31 m ρ c main_v215 = _ from (T_v215 m ρ c)]

end Cert.KernelIdeal.KerRead

end
-- ==== Proof.RefRun.lean ====
/- The reference's @main as a straight line of host operations: its windows in order, every outlined function (the
   ReLUs, the variance and the select inside it) written out at its call over that call's buffers. From the line:
   every weakly fair execution terminates with each buffer at the fold of the operations over the launch contents
   (run_all). -/
import proofs.«162690_j78211354460181_1_alg».proof.Defs
import proofs.«162690_j78211354460181_1_alg».proof.Proof.Gen.ReferenceIdeal
import proofs.«162690_j78211354460181_1_alg».proof.Proof.Gen.Pre_finite_inputs
import Idealize.ShloMosaic.Lib.StableHlo.Run

-- one declaration at a time: the operation lists are long
set_option Elab.async false

noncomputable section

namespace Cert.ReferenceIdeal.RefRun

open Idealize.ShloMosaic Idealize.ShloMosaic.TcCoe Idealize.SL.Sem Idealize.ShloMosaic.StableHlo Cert.ReferenceIdeal Cert.ReferenceIdeal.Gen

variable {F : FTy → Type} [FloatOps F]

/-- The operations of window 0 of @main (85 of them). -/
abbrev ops0 : List (HloOp τ sig (Elt F)) :=
  [ StableHlo.unary main_arg26 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg26 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S100000x11_S600000x1_S600000x11_1_0_n_n_0_1_111 x i) : (⟨S100000x11, .f32⟩ : BufTy).Contents (Elt F) → (⟨S600000x1, .i32⟩ : BufTy).Contents (Elt F) → (⟨S600000x11, .f32⟩ : BufTy).Contents (Elt F)),
    StableHlo.binary main_arg1 main_arg2 main_v11 ((fun l r => Host.dotGeneral dot_S600000x3_S3x11_S600000x11_1_0_0_1_n_n none l r) : (⟨S600000x3, .f32⟩ : BufTy).Contents (Elt F) → (⟨S3x11, .f32⟩ : BufTy).Contents (Elt F) → (⟨S600000x11, .f32⟩ : BufTy).Contents (Elt F)),
    StableHlo.binary main_v10 main_v11 main_v12 (addf : (⟨S600000x11, .f32⟩ : BufTy).Contents (Elt F) → (⟨S600000x11, .f32⟩ : BufTy).Contents (Elt F) → (⟨S600000x11, .f32⟩ : BufTy).Contents (Elt F)),
    StableHlo.unary main_arg3 main_v13 (broadcastInDim S1x11 ![1] bcast_S11_S1x11_1 : (⟨S11, .f32⟩ : BufTy).Contents (Elt F) → (⟨S1x11, .f32⟩ : BufTy).Contents (Elt F)),
    StableHlo.unary main_v13 main_v14 (broadcastInDim S600000x11 ![0, 1] bcast_S1x11_S600000x11_0_1 : (⟨S1x11, .f32⟩ : BufTy).Contents (Elt F) → (⟨S600000x11, .f32⟩ : BufTy).Contents (Elt F)),
    StableHlo.binary main_v12 main_v14 main_v15 (addf : (⟨S600000x11, .f32⟩ : BufTy).Contents (Elt F) → (⟨S600000x11, .f32⟩ : BufTy).Contents (Elt F) → (⟨S600000x11, .f32⟩ : BufTy).Contents (Elt F)),
    StableHlo.TRef.nullary main_call0.cst (constant S_ .f32 0x00000000#32),
    StableHlo.TRef.unary main_call0.cst main_call0.v0 (broadcastInDim S600000x11 ![] bcast_S_S600000x11),
    StableHlo.TRef.binary (.of main_v15) main_call0.v0 main_call0.v1 maximumf,
    StableHlo.nullary main_cst (constant S_ .f32 0x00000000#32),
    StableHlo.unary main_cst main_v17 (broadcastInDim S100000x11 ![] bcast_S_S100000x11 : (⟨S_, .f32⟩ : BufTy).Contents (Elt F) → (⟨S100000x11, .f32⟩ : BufTy).Contents (Elt F)),
    StableHlo.unary main_v3 main_v18 (broadcastInDim S600000x1 ![0] bcast_S600000_S600000x1_0 : (⟨S600000, .i32⟩ : BufTy).Contents (Elt F) → (⟨S600000x1, .i32⟩ : BufTy).Contents (Elt F)),
    StableHlo.ternary main_v17 main_v18 main_v16 main_v19 ((fun x i u => Host.scatterAdd scatter_S100000x11_S600000x1_S600000x11_1_0_0_1 x i u) : (⟨S100000x11, .f32⟩ : BufTy).Contents (Elt F) → (⟨S600000x1, .i32⟩ : BufTy).Contents (Elt F) → (⟨S600000x11, .f32⟩ : BufTy).Contents (Elt F) → (⟨S100000x11, .f32⟩ : BufTy).Contents (Elt F)),
    StableHlo.nullary main_cst_1 (constant S_ .f32 0x3F800000#32),
    StableHlo.binary main_cst_1 main_arg10 main_v20 (addf : (⟨S_, .f32⟩ : BufTy).Contents (Elt F) → (⟨S_, .f32⟩ : BufTy).Contents (Elt F) → (⟨S_, .f32⟩ : BufTy).Contents (Elt F)),
    StableHlo.unary main_v20 main_v21 (broadcastInDim S100000x11 ![] bcast_S_S100000x11 : (⟨S_, .f32⟩ : BufTy).Contents (Elt F) → (⟨S100000x11, .f32⟩ : BufTy).Contents (Elt F)),
    StableHlo.binary main_v21 main_arg0 main_v22 (mulf : (⟨S100000x11, .f32⟩ : BufTy).Contents (Elt F) → (⟨S100000x11, .f32⟩ : BufTy).Contents (Elt F) → (⟨S100000x11, .f32⟩ : BufTy).Contents (Elt F)),
    StableHlo.binary main_v22 main_v19 main_v23 (addf : (⟨S100000x11, .f32⟩ : BufTy).Contents (Elt F) → (⟨S100000x11, .f32⟩ : BufTy).Contents (Elt F) → (⟨S100000x11, .f32⟩ : BufTy).Contents (Elt F)),
    StableHlo.binary main_v23 main_arg4 main_v24 ((fun l r => Host.dotGeneral dot_S100000x11_S11x128_S100000x128_1_0_0_1_n_n none l r) : (⟨S100000x11, .f32⟩ : BufTy).Contents (Elt F) → (⟨S11x128, .f32⟩ : BufTy).Contents (Elt F) → (⟨S100000x128, .f32⟩ : BufTy).Contents (Elt F)),
    StableHlo.unary main_arg5 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v27) main_call1.v0 main_call1.v1 maximumf,
    StableHlo.binary main_v28 main_arg6 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v32 main_cst_2 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call2.cst (constant S_ .f32 0x00000000#32),
    StableHlo.TRef.binary (.of main_v32) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v32) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v38 main_v39 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v44 main_v45 (mulf : (⟨S100000x128, .f32⟩ : BufTy).Contents (Elt F) → (⟨S100000x128, .f32⟩ : BufTy).Contents (Elt F) → (⟨S100000x128, .f32⟩ : BufTy).Contents (Elt F)),
    StableHlo.unary main_arg8 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (mulf : (⟨S100000x128, .f32⟩ : BufTy).Contents (Elt F) → (⟨S100000x128, .f32⟩ : BufTy).Contents (Elt F) → (⟨S100000x128, .f32⟩ : BufTy).Contents (Elt F)),
    StableHlo.unary main_arg9 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)) ]

/-- The operations of window 1 of @main (87 of them). -/
abbrev ops1 : List (HloOp τ sig (Elt F)) :=
  [ StableHlo.TRef.nullary main_call3.cst (constant S_ .f32 0x00000000#32),
    StableHlo.TRef.unary main_call3.cst main_call3.v0 (broadcastInDim S100000x128 ![] bcast_S_S100000x128),
    StableHlo.TRef.binary (.of main_v51) main_call3.v0 main_call3.v1 maximumf,
    StableHlo.unary main_arg11 main_v53 ((extractStridedSlice S1x3x128 ![0, 0, 0] · slices_S4x3x128_S1x3x128_0_0_0) : (⟨S4x3x128, .f32⟩ : BufTy).Contents (Elt F) → (⟨S1x3x128, .f32⟩ : BufTy).Contents (Elt F)),
    StableHlo.reshape main_v53 main_v54 rfl shapeCasts_S1x3x128_S3x128,
    StableHlo.unary main_arg12 main_v55 ((extractStridedSlice S1x128 ![0, 0] · slices_S4x128_S1x128_0_0) : (⟨S4x128, .f32⟩ : BufTy).Contents (Elt F) → (⟨S1x128, .f32⟩ : BufTy).Contents (Elt F)),
    StableHlo.reshape main_v55 main_v56 rfl shapeCasts_S1x128_S128,
    StableHlo.unary main_arg19 main_v57 ((extractStridedSlice S1 ![0] · slices_S4_S1_0) : (⟨S4, .f32⟩ : BufTy).Contents (Elt F) → (⟨S1, .f32⟩ : BufTy).Contents (Elt F)),
    StableHlo.reshape main_v57 main_v58 rfl shapeCasts_S1_S_,
    StableHlo.unary main_arg13 main_v59 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v59 main_v60 rfl shapeCasts_S1x128x128_S128x128,
    StableHlo.unary main_arg14 main_v61 ((extractStridedSlice S1x128 ![0, 0] · slices_S4x128_S1x128_0_0) : (⟨S4x128, .f32⟩ : BufTy).Contents (Elt F) → (⟨S1x128, .f32⟩ : BufTy).Contents (Elt F)),
    StableHlo.reshape main_v61 main_v62 rfl shapeCasts_S1x128_S128,
    StableHlo.unary main_arg15 main_v63 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v63 main_v64 rfl shapeCasts_S1x128x128_S128x128,
    StableHlo.unary main_arg16 main_v65 ((extractStridedSlice S1x128 ![0, 0] · slices_S4x128_S1x128_0_0) : (⟨S4x128, .f32⟩ : BufTy).Contents (Elt F) → (⟨S1x128, .f32⟩ : BufTy).Contents (Elt F)),
    StableHlo.reshape main_v65 main_v66 rfl shapeCasts_S1x128_S128,
    StableHlo.unary main_arg17 main_v67 ((extractStridedSlice S1x128 ![0, 0] · slices_S4x128_S1x128_0_0) : (⟨S4x128, .f32⟩ : BufTy).Contents (Elt F) → (⟨S1x128, .f32⟩ : BufTy).Contents (Elt F)),
    StableHlo.reshape main_v67 main_v68 rfl shapeCasts_S1x128_S128,
    StableHlo.unary main_arg18 main_v69 ((extractStridedSlice S1x128 ![0, 0] · slices_S4x128_S1x128_0_0) : (⟨S4x128, .f32⟩ : BufTy).Contents (Elt F) → (⟨S1x128, .f32⟩ : BufTy).Contents (Elt F)),
    StableHlo.reshape main_v69 main_v70 rfl shapeCasts_S1x128_S128,
    StableHlo.nullary main_c_6 (constantI S_ 32 0#32),
    StableHlo.unary main_c_6 main_v71 (broadcastInDim S600000 ![] bcast_S_S600000 : (⟨S_, .i32⟩ : BufTy).Contents (Elt F) → (⟨S600000, .i32⟩ : BufTy).Contents (Elt F)),
    StableHlo.binary main_v1 main_v71 main_v72 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 100000#32),
    StableHlo.unary main_c_7 main_v73 (broadcastInDim S600000 ![] bcast_S_S600000 : (⟨S_, .i32⟩ : BufTy).Contents (Elt F) → (⟨S600000, .i32⟩ : BufTy).Contents (Elt F)),
    StableHlo.binary main_v1 main_v73 main_v74 (addi : (⟨S600000, .i32⟩ : BufTy).Contents (Elt F) → (⟨S600000, .i32⟩ : BufTy).Contents (Elt F) → (⟨S600000, .i32⟩ : BufTy).Contents (Elt F)),
    StableHlo.ternary main_v72 main_v74 main_v1 main_v75 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v75 main_v76 (broadcastInDim S600000x1 ![0] bcast_S600000_S600000x1_0 : (⟨S600000, .i32⟩ : BufTy).Contents (Elt F) → (⟨S600000x1, .i32⟩ : BufTy).Contents (Elt F)),
    StableHlo.binary main_v52 main_v76 main_v77 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_arg1 main_v54 main_v78 ((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F)),
    StableHlo.binary main_v77 main_v78 main_v79 (addf : (⟨S600000x128, .f32⟩ : BufTy).Contents (Elt F) → (⟨S600000x128, .f32⟩ : BufTy).Contents (Elt F) → (⟨S600000x128, .f32⟩ : BufTy).Contents (Elt F)),
    StableHlo.unary main_v56 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S600000x128 ![0, 1] bcast_S1x128_S600000x128_0_1 : (⟨S1x128, .f32⟩ : BufTy).Contents (Elt F) → (⟨S600000x128, .f32⟩ : BufTy).Contents (Elt F)),
    StableHlo.binary main_v79 main_v81 main_v82 (addf : (⟨S600000x128, .f32⟩ : BufTy).Contents (Elt F) → (⟨S600000x128, .f32⟩ : BufTy).Contents (Elt F) → (⟨S600000x128, .f32⟩ : BufTy).Contents (Elt F)),
    StableHlo.TRef.nullary main_call4.cst (constant S_ .f32 0x00000000#32),
    StableHlo.TRef.unary main_call4.cst main_call4.v0 (broadcastInDim S600000x128 ![] bcast_S_S600000x128),
    StableHlo.TRef.binary (.of main_v82) main_call4.v0 main_call4.v1 maximumf,
    StableHlo.nullary main_cst_8 (constant S_ .f32 0x00000000#32),
    StableHlo.unary main_cst_8 main_v84 (broadcastInDim S100000x128 ![] bcast_S_S100000x128 : (⟨S_, .f32⟩ : BufTy).Contents (Elt F) → (⟨S100000x128, .f32⟩ : BufTy).Contents (Elt F)),
    StableHlo.unary main_v3 main_v85 (broadcastInDim S600000x1 ![0] bcast_S600000_S600000x1_0 : (⟨S600000, .i32⟩ : BufTy).Contents (Elt F) → (⟨S600000x1, .i32⟩ : BufTy).Contents (Elt F)),
    StableHlo.ternary main_v84 main_v85 main_v83 main_v86 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_9 (constant S_ .f32 0x3F800000#32),
    StableHlo.binary main_cst_9 main_v58 main_v87 (addf : (⟨S_, .f32⟩ : BufTy).Contents (Elt F) → (⟨S_, .f32⟩ : BufTy).Contents (Elt F) → (⟨S_, .f32⟩ : BufTy).Contents (Elt F)),
    StableHlo.unary main_v87 main_v88 (broadcastInDim S100000x128 ![] bcast_S_S100000x128 : (⟨S_, .f32⟩ : BufTy).Contents (Elt F) → (⟨S100000x128, .f32⟩ : BufTy).Contents (Elt F)),
    StableHlo.binary main_v88 main_v52 main_v89 (mulf : (⟨S100000x128, .f32⟩ : BufTy).Contents (Elt F) → (⟨S100000x128, .f32⟩ : BufTy).Contents (Elt F) → (⟨S100000x128, .f32⟩ : BufTy).Contents (Elt F)),
    StableHlo.binary main_v89 main_v86 main_v90 (addf : (⟨S100000x128, .f32⟩ : BufTy).Contents (Elt F) → (⟨S100000x128, .f32⟩ : BufTy).Contents (Elt F) → (⟨S100000x128, .f32⟩ : BufTy).Contents (Elt F)),
    StableHlo.binary main_v90 main_v60 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v62 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v94) main_call5.v0 main_call5.v1 maximumf,
    StableHlo.binary main_v95 main_v64 main_v96 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v66 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v99 main_cst_10 main_v100 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v101 (broadcastInDim S128 ![] bcast_S_S128 : (⟨S_, .f32⟩ : BufTy).Contents (Elt F) → (⟨S128, .f32⟩ : BufTy).Contents (Elt F)),
    StableHlo.binary main_v100 main_v101 main_v102 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call6.cst (constant S_ .f32 0x00000000#32),
    StableHlo.TRef.binary (.of main_v99) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v99) main_call6.v4 main_call6.v5 subf,
    StableHlo.TRef.binary main_call6.v5 main_call6.v5 main_call6.v6 mulf,
    StableHlo.TRef.unary (.of main_c_12) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v102 main_v104 (broadcastInDim S1x128 ![1] bcast_S128_S1x128_1 : (⟨S128, .f32⟩ : BufTy).Contents (Elt F) → (⟨S1x128, .f32⟩ : BufTy).Contents (Elt F)) ]

/-- The operations of window 2 of @main (64 of them). -/
abbrev ops2 : List (HloOp τ sig (Elt F)) :=
  [ StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v105 main_v106 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v107 (broadcastInDim S128 ![] bcast_S_S128 : (⟨S_, .f32⟩ : BufTy).Contents (Elt F) → (⟨S128, .f32⟩ : BufTy).Contents (Elt F)),
    StableHlo.binary main_v103 main_v107 main_v108 (addf : (⟨S128, .f32⟩ : BufTy).Contents (Elt F) → (⟨S128, .f32⟩ : BufTy).Contents (Elt F) → (⟨S128, .f32⟩ : BufTy).Contents (Elt F)),
    StableHlo.unary main_v108 main_v109 (Host.rsqrt : (⟨S128, .f32⟩ : BufTy).Contents (Elt F) → (⟨S128, .f32⟩ : BufTy).Contents (Elt F)),
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v111 main_v112 (mulf : (⟨S100000x128, .f32⟩ : BufTy).Contents (Elt F) → (⟨S100000x128, .f32⟩ : BufTy).Contents (Elt F) → (⟨S100000x128, .f32⟩ : BufTy).Contents (Elt F)),
    StableHlo.unary main_v68 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v114 main_v115 (mulf : (⟨S100000x128, .f32⟩ : BufTy).Contents (Elt F) → (⟨S100000x128, .f32⟩ : BufTy).Contents (Elt F) → (⟨S100000x128, .f32⟩ : BufTy).Contents (Elt F)),
    StableHlo.unary main_v70 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v118) main_call7.v0 main_call7.v1 maximumf,
    StableHlo.binary main_v119 main_v52 main_v120 (addf : (⟨S100000x128, .f32⟩ : BufTy).Contents (Elt F) → (⟨S100000x128, .f32⟩ : BufTy).Contents (Elt F) → (⟨S100000x128, .f32⟩ : BufTy).Contents (Elt F)),
    StableHlo.unary main_arg11 main_v121 ((extractStridedSlice S1x3x128 ![1, 0, 0] · slices_S4x3x128_S1x3x128_1_0_0) : (⟨S4x3x128, .f32⟩ : BufTy).Contents (Elt F) → (⟨S1x3x128, .f32⟩ : BufTy).Contents (Elt F)),
    StableHlo.reshape main_v121 main_v122 rfl shapeCasts_S1x3x128_S3x128,
    StableHlo.unary main_arg12 main_v123 ((extractStridedSlice S1x128 ![1, 0] · slices_S4x128_S1x128_1_0) : (⟨S4x128, .f32⟩ : BufTy).Contents (Elt F) → (⟨S1x128, .f32⟩ : BufTy).Contents (Elt F)),
    StableHlo.reshape main_v123 main_v124 rfl shapeCasts_S1x128_S128,
    StableHlo.unary main_arg19 main_v125 ((extractStridedSlice S1 ![1] · slices_S4_S1_1) : (⟨S4, .f32⟩ : BufTy).Contents (Elt F) → (⟨S1, .f32⟩ : BufTy).Contents (Elt F)),
    StableHlo.reshape main_v125 main_v126 rfl shapeCasts_S1_S_,
    StableHlo.unary main_arg13 main_v127 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v127 main_v128 rfl shapeCasts_S1x128x128_S128x128,
    StableHlo.unary main_arg14 main_v129 ((extractStridedSlice S1x128 ![1, 0] · slices_S4x128_S1x128_1_0) : (⟨S4x128, .f32⟩ : BufTy).Contents (Elt F) → (⟨S1x128, .f32⟩ : BufTy).Contents (Elt F)),
    StableHlo.reshape main_v129 main_v130 rfl shapeCasts_S1x128_S128,
    StableHlo.unary main_arg15 main_v131 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v131 main_v132 rfl shapeCasts_S1x128x128_S128x128,
    StableHlo.unary main_arg16 main_v133 ((extractStridedSlice S1x128 ![1, 0] · slices_S4x128_S1x128_1_0) : (⟨S4x128, .f32⟩ : BufTy).Contents (Elt F) → (⟨S1x128, .f32⟩ : BufTy).Contents (Elt F)),
    StableHlo.reshape main_v133 main_v134 rfl shapeCasts_S1x128_S128,
    StableHlo.unary main_arg17 main_v135 ((extractStridedSlice S1x128 ![1, 0] · slices_S4x128_S1x128_1_0) : (⟨S4x128, .f32⟩ : BufTy).Contents (Elt F) → (⟨S1x128, .f32⟩ : BufTy).Contents (Elt F)),
    StableHlo.reshape main_v135 main_v136 rfl shapeCasts_S1x128_S128,
    StableHlo.unary main_arg18 main_v137 ((extractStridedSlice S1x128 ![1, 0] · slices_S4x128_S1x128_1_0) : (⟨S4x128, .f32⟩ : BufTy).Contents (Elt F) → (⟨S1x128, .f32⟩ : BufTy).Contents (Elt F)),
    StableHlo.reshape main_v137 main_v138 rfl shapeCasts_S1x128_S128,
    StableHlo.nullary main_c_14 (constantI S_ 32 0#32),
    StableHlo.unary main_c_14 main_v139 (broadcastInDim S600000 ![] bcast_S_S600000 : (⟨S_, .i32⟩ : BufTy).Contents (Elt F) → (⟨S600000, .i32⟩ : BufTy).Contents (Elt F)),
    StableHlo.binary main_v1 main_v139 main_v140 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 100000#32),
    StableHlo.unary main_c_15 main_v141 (broadcastInDim S600000 ![] bcast_S_S600000 : (⟨S_, .i32⟩ : BufTy).Contents (Elt F) → (⟨S600000, .i32⟩ : BufTy).Contents (Elt F)),
    StableHlo.binary main_v1 main_v141 main_v142 (addi : (⟨S600000, .i32⟩ : BufTy).Contents (Elt F) → (⟨S600000, .i32⟩ : BufTy).Contents (Elt F) → (⟨S600000, .i32⟩ : BufTy).Contents (Elt F)),
    StableHlo.ternary main_v140 main_v142 main_v1 main_v143 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v143 main_v144 (broadcastInDim S600000x1 ![0] bcast_S600000_S600000x1_0 : (⟨S600000, .i32⟩ : BufTy).Contents (Elt F) → (⟨S600000x1, .i32⟩ : BufTy).Contents (Elt F)),
    StableHlo.binary main_v120 main_v144 main_v145 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_arg1 main_v122 main_v146 ((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F)),
    StableHlo.binary main_v145 main_v146 main_v147 (addf : (⟨S600000x128, .f32⟩ : BufTy).Contents (Elt F) → (⟨S600000x128, .f32⟩ : BufTy).Contents (Elt F) → (⟨S600000x128, .f32⟩ : BufTy).Contents (Elt F)),
    StableHlo.unary main_v124 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S600000x128 ![0, 1] bcast_S1x128_S600000x128_0_1 : (⟨S1x128, .f32⟩ : BufTy).Contents (Elt F) → (⟨S600000x128, .f32⟩ : BufTy).Contents (Elt F)),
    StableHlo.binary main_v147 main_v149 main_v150 (addf : (⟨S600000x128, .f32⟩ : BufTy).Contents (Elt F) → (⟨S600000x128, .f32⟩ : BufTy).Contents (Elt F) → (⟨S600000x128, .f32⟩ : BufTy).Contents (Elt F)),
    StableHlo.TRef.nullary main_call8.cst (constant S_ .f32 0x00000000#32),
    StableHlo.TRef.unary main_call8.cst main_call8.v0 (broadcastInDim S600000x128 ![] bcast_S_S600000x128),
    StableHlo.TRef.binary (.of main_v150) main_call8.v0 main_call8.v1 maximumf,
    StableHlo.nullary main_cst_16 (constant S_ .f32 0x00000000#32),
    StableHlo.unary main_cst_16 main_v152 (broadcastInDim S100000x128 ![] bcast_S_S100000x128 : (⟨S_, .f32⟩ : BufTy).Contents (Elt F) → (⟨S100000x128, .f32⟩ : BufTy).Contents (Elt F)),
    StableHlo.unary main_v3 main_v153 (broadcastInDim S600000x1 ![0] bcast_S600000_S600000x1_0 : (⟨S600000, .i32⟩ : BufTy).Contents (Elt F) → (⟨S600000x1, .i32⟩ : BufTy).Contents (Elt F)),
    StableHlo.ternary main_v152 main_v153 main_v151 main_v154 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_17 (constant S_ .f32 0x3F800000#32),
    StableHlo.binary main_cst_17 main_v126 main_v155 (addf : (⟨S_, .f32⟩ : BufTy).Contents (Elt F) → (⟨S_, .f32⟩ : BufTy).Contents (Elt F) → (⟨S_, .f32⟩ : BufTy).Contents (Elt F)),
    StableHlo.unary main_v155 main_v156 (broadcastInDim S100000x128 ![] bcast_S_S100000x128 : (⟨S_, .f32⟩ : BufTy).Contents (Elt F) → (⟨S100000x128, .f32⟩ : BufTy).Contents (Elt F)),
    StableHlo.binary main_v156 main_v120 main_v157 (mulf : (⟨S100000x128, .f32⟩ : BufTy).Contents (Elt F) → (⟨S100000x128, .f32⟩ : BufTy).Contents (Elt F) → (⟨S100000x128, .f32⟩ : BufTy).Contents (Elt F)),
    StableHlo.binary main_v157 main_v154 main_v158 (addf : (⟨S100000x128, .f32⟩ : BufTy).Contents (Elt F) → (⟨S100000x128, .f32⟩ : BufTy).Contents (Elt F) → (⟨S100000x128, .f32⟩ : BufTy).Contents (Elt F)),
    StableHlo.binary main_v158 main_v128 main_v159 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The operations of window 3 of @main (85 of them). -/
abbrev ops3 : List (HloOp τ sig (Elt F)) :=
  [ StableHlo.unary main_v130 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v159 main_v161 main_v162 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v162) main_call9.v0 main_call9.v1 maximumf,
    StableHlo.binary main_v163 main_v132 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v134 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v164 main_v166 main_v167 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x00000000#32),
    StableHlo.binary main_v167 main_cst_18 main_v168 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v169 (broadcastInDim S128 ![] bcast_S_S128 : (⟨S_, .f32⟩ : BufTy).Contents (Elt F) → (⟨S128, .f32⟩ : BufTy).Contents (Elt F)),
    StableHlo.binary main_v168 main_v169 main_v170 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call10.cst (constant S_ .f32 0x00000000#32),
    StableHlo.TRef.binary (.of main_v167) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (.of main_v167) main_call10.v4 main_call10.v5 subf,
    StableHlo.TRef.binary main_call10.v5 main_call10.v5 main_call10.v6 mulf,
    StableHlo.TRef.unary (.of main_c_20) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v170 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v173 main_v174 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v175 (broadcastInDim S128 ![] bcast_S_S128 : (⟨S_, .f32⟩ : BufTy).Contents (Elt F) → (⟨S128, .f32⟩ : BufTy).Contents (Elt F)),
    StableHlo.binary main_v171 main_v175 main_v176 (addf : (⟨S128, .f32⟩ : BufTy).Contents (Elt F) → (⟨S128, .f32⟩ : BufTy).Contents (Elt F) → (⟨S128, .f32⟩ : BufTy).Contents (Elt F)),
    StableHlo.unary main_v176 main_v177 (Host.rsqrt : (⟨S128, .f32⟩ : BufTy).Contents (Elt F) → (⟨S128, .f32⟩ : BufTy).Contents (Elt F)),
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S100000x128 ![0, 1] bcast_S1x128_S100000x128_0_1 : (⟨S1x128, .f32⟩ : BufTy).Contents (Elt F) → (⟨S100000x128, .f32⟩ : BufTy).Contents (Elt F)),
    StableHlo.binary main_v174 main_v179 main_v180 (mulf : (⟨S100000x128, .f32⟩ : BufTy).Contents (Elt F) → (⟨S100000x128, .f32⟩ : BufTy).Contents (Elt F) → (⟨S100000x128, .f32⟩ : BufTy).Contents (Elt F)),
    StableHlo.unary main_v136 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v182 main_v183 (mulf : (⟨S100000x128, .f32⟩ : BufTy).Contents (Elt F) → (⟨S100000x128, .f32⟩ : BufTy).Contents (Elt F) → (⟨S100000x128, .f32⟩ : BufTy).Contents (Elt F)),
    StableHlo.unary main_v138 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S100000x128 ![0, 1] bcast_S1x128_S100000x128_0_1 : (⟨S1x128, .f32⟩ : BufTy).Contents (Elt F) → (⟨S100000x128, .f32⟩ : BufTy).Contents (Elt F)),
    StableHlo.binary main_v183 main_v185 main_v186 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (.of main_v186) main_call11.v0 main_call11.v1 maximumf,
    StableHlo.binary main_v187 main_v120 main_v188 (addf : (⟨S100000x128, .f32⟩ : BufTy).Contents (Elt F) → (⟨S100000x128, .f32⟩ : BufTy).Contents (Elt F) → (⟨S100000x128, .f32⟩ : BufTy).Contents (Elt F)),
    StableHlo.unary main_arg11 main_v189 ((extractStridedSlice S1x3x128 ![2, 0, 0] · slices_S4x3x128_S1x3x128_2_0_0) : (⟨S4x3x128, .f32⟩ : BufTy).Contents (Elt F) → (⟨S1x3x128, .f32⟩ : BufTy).Contents (Elt F)),
    StableHlo.reshape main_v189 main_v190 rfl shapeCasts_S1x3x128_S3x128,
    StableHlo.unary main_arg12 main_v191 ((extractStridedSlice S1x128 ![2, 0] · slices_S4x128_S1x128_2_0) : (⟨S4x128, .f32⟩ : BufTy).Contents (Elt F) → (⟨S1x128, .f32⟩ : BufTy).Contents (Elt F)),
    StableHlo.reshape main_v191 main_v192 rfl shapeCasts_S1x128_S128,
    StableHlo.unary main_arg19 main_v193 ((extractStridedSlice S1 ![2] · slices_S4_S1_2) : (⟨S4, .f32⟩ : BufTy).Contents (Elt F) → (⟨S1, .f32⟩ : BufTy).Contents (Elt F)),
    StableHlo.reshape main_v193 main_v194 rfl shapeCasts_S1_S_,
    StableHlo.unary main_arg13 main_v195 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v195 main_v196 rfl shapeCasts_S1x128x128_S128x128,
    StableHlo.unary main_arg14 main_v197 ((extractStridedSlice S1x128 ![2, 0] · slices_S4x128_S1x128_2_0) : (⟨S4x128, .f32⟩ : BufTy).Contents (Elt F) → (⟨S1x128, .f32⟩ : BufTy).Contents (Elt F)),
    StableHlo.reshape main_v197 main_v198 rfl shapeCasts_S1x128_S128,
    StableHlo.unary main_arg15 main_v199 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v199 main_v200 rfl shapeCasts_S1x128x128_S128x128,
    StableHlo.unary main_arg16 main_v201 ((extractStridedSlice S1x128 ![2, 0] · slices_S4x128_S1x128_2_0) : (⟨S4x128, .f32⟩ : BufTy).Contents (Elt F) → (⟨S1x128, .f32⟩ : BufTy).Contents (Elt F)),
    StableHlo.reshape main_v201 main_v202 rfl shapeCasts_S1x128_S128,
    StableHlo.unary main_arg17 main_v203 ((extractStridedSlice S1x128 ![2, 0] · slices_S4x128_S1x128_2_0) : (⟨S4x128, .f32⟩ : BufTy).Contents (Elt F) → (⟨S1x128, .f32⟩ : BufTy).Contents (Elt F)),
    StableHlo.reshape main_v203 main_v204 rfl shapeCasts_S1x128_S128,
    StableHlo.unary main_arg18 main_v205 ((extractStridedSlice S1x128 ![2, 0] · slices_S4x128_S1x128_2_0) : (⟨S4x128, .f32⟩ : BufTy).Contents (Elt F) → (⟨S1x128, .f32⟩ : BufTy).Contents (Elt F)),
    StableHlo.reshape main_v205 main_v206 rfl shapeCasts_S1x128_S128,
    StableHlo.nullary main_c_22 (constantI S_ 32 0#32),
    StableHlo.unary main_c_22 main_v207 (broadcastInDim S600000 ![] bcast_S_S600000 : (⟨S_, .i32⟩ : BufTy).Contents (Elt F) → (⟨S600000, .i32⟩ : BufTy).Contents (Elt F)),
    StableHlo.binary main_v1 main_v207 main_v208 (cmpi .slt : (⟨S600000, .i32⟩ : BufTy).Contents (Elt F) → (⟨S600000, .i32⟩ : BufTy).Contents (Elt F) → (⟨S600000, .i1⟩ : BufTy).Contents (Elt F)),
    StableHlo.nullary main_c_23 (constantI S_ 32 100000#32),
    StableHlo.unary main_c_23 main_v209 (broadcastInDim S600000 ![] bcast_S_S600000 : (⟨S_, .i32⟩ : BufTy).Contents (Elt F) → (⟨S600000, .i32⟩ : BufTy).Contents (Elt F)),
    StableHlo.binary main_v1 main_v209 main_v210 (addi : (⟨S600000, .i32⟩ : BufTy).Contents (Elt F) → (⟨S600000, .i32⟩ : BufTy).Contents (Elt F) → (⟨S600000, .i32⟩ : BufTy).Contents (Elt F)),
    StableHlo.ternary main_v208 main_v210 main_v1 main_v211 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v211 main_v212 (broadcastInDim S600000x1 ![0] bcast_S600000_S600000x1_0 : (⟨S600000, .i32⟩ : BufTy).Contents (Elt F) → (⟨S600000x1, .i32⟩ : BufTy).Contents (Elt F)),
    StableHlo.binary main_v188 main_v212 main_v213 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) ]

/-- The operations of window 4 of @main (87 of them). -/
abbrev ops4 : List (HloOp τ sig (Elt F)) :=
  [ StableHlo.binary main_arg1 main_v190 main_v214 ((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F)),
    StableHlo.binary main_v213 main_v214 main_v215 (addf : (⟨S600000x128, .f32⟩ : BufTy).Contents (Elt F) → (⟨S600000x128, .f32⟩ : BufTy).Contents (Elt F) → (⟨S600000x128, .f32⟩ : BufTy).Contents (Elt F)),
    StableHlo.unary main_v192 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S600000x128 ![0, 1] bcast_S1x128_S600000x128_0_1 : (⟨S1x128, .f32⟩ : BufTy).Contents (Elt F) → (⟨S600000x128, .f32⟩ : BufTy).Contents (Elt F)),
    StableHlo.binary main_v215 main_v217 main_v218 (addf : (⟨S600000x128, .f32⟩ : BufTy).Contents (Elt F) → (⟨S600000x128, .f32⟩ : BufTy).Contents (Elt F) → (⟨S600000x128, .f32⟩ : BufTy).Contents (Elt F)),
    StableHlo.TRef.nullary main_call12.cst (constant S_ .f32 0x00000000#32),
    StableHlo.TRef.unary main_call12.cst main_call12.v0 (broadcastInDim S600000x128 ![] bcast_S_S600000x128),
    StableHlo.TRef.binary (.of main_v218) main_call12.v0 main_call12.v1 maximumf,
    StableHlo.nullary main_cst_24 (constant S_ .f32 0x00000000#32),
    StableHlo.unary main_cst_24 main_v220 (broadcastInDim S100000x128 ![] bcast_S_S100000x128 : (⟨S_, .f32⟩ : BufTy).Contents (Elt F) → (⟨S100000x128, .f32⟩ : BufTy).Contents (Elt F)),
    StableHlo.unary main_v3 main_v221 (broadcastInDim S600000x1 ![0] bcast_S600000_S600000x1_0 : (⟨S600000, .i32⟩ : BufTy).Contents (Elt F) → (⟨S600000x1, .i32⟩ : BufTy).Contents (Elt F)),
    StableHlo.ternary main_v220 main_v221 main_v219 main_v222 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_25 (constant S_ .f32 0x3F800000#32),
    StableHlo.binary main_cst_25 main_v194 main_v223 (addf : (⟨S_, .f32⟩ : BufTy).Contents (Elt F) → (⟨S_, .f32⟩ : BufTy).Contents (Elt F) → (⟨S_, .f32⟩ : BufTy).Contents (Elt F)),
    StableHlo.unary main_v223 main_v224 (broadcastInDim S100000x128 ![] bcast_S_S100000x128 : (⟨S_, .f32⟩ : BufTy).Contents (Elt F) → (⟨S100000x128, .f32⟩ : BufTy).Contents (Elt F)),
    StableHlo.binary main_v224 main_v188 main_v225 (mulf : (⟨S100000x128, .f32⟩ : BufTy).Contents (Elt F) → (⟨S100000x128, .f32⟩ : BufTy).Contents (Elt F) → (⟨S100000x128, .f32⟩ : BufTy).Contents (Elt F)),
    StableHlo.binary main_v225 main_v222 main_v226 (addf : (⟨S100000x128, .f32⟩ : BufTy).Contents (Elt F) → (⟨S100000x128, .f32⟩ : BufTy).Contents (Elt F) → (⟨S100000x128, .f32⟩ : BufTy).Contents (Elt F)),
    StableHlo.binary main_v226 main_v196 main_v227 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v198 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S100000x128 ![0, 1] bcast_S1x128_S100000x128_0_1 : (⟨S1x128, .f32⟩ : BufTy).Contents (Elt F) → (⟨S100000x128, .f32⟩ : BufTy).Contents (Elt F)),
    StableHlo.binary main_v227 main_v229 main_v230 (addf : (⟨S100000x128, .f32⟩ : BufTy).Contents (Elt F) → (⟨S100000x128, .f32⟩ : BufTy).Contents (Elt F) → (⟨S100000x128, .f32⟩ : BufTy).Contents (Elt F)),
    StableHlo.TRef.nullary main_call13.cst (constant S_ .f32 0x00000000#32),
    StableHlo.TRef.unary main_call13.cst main_call13.v0 (broadcastInDim S100000x128 ![] bcast_S_S100000x128),
    StableHlo.TRef.binary (.of main_v230) main_call13.v0 main_call13.v1 maximumf,
    StableHlo.binary main_v231 main_v200 main_v232 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v202 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S100000x128 ![0, 1] bcast_S1x128_S100000x128_0_1 : (⟨S1x128, .f32⟩ : BufTy).Contents (Elt F) → (⟨S100000x128, .f32⟩ : BufTy).Contents (Elt F)),
    StableHlo.binary main_v232 main_v234 main_v235 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v235 main_cst_26 main_v236 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v237 (broadcastInDim S128 ![] bcast_S_S128 : (⟨S_, .f32⟩ : BufTy).Contents (Elt F) → (⟨S128, .f32⟩ : BufTy).Contents (Elt F)),
    StableHlo.binary main_v236 main_v237 main_v238 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call14.cst (constant S_ .f32 0x00000000#32),
    StableHlo.TRef.binary (.of main_v235) main_call14.cst main_call14.v0 (fun x v => Host.reduceAdd x v reducesTo_S100000x128_S128_d0 h_S_),
    StableHlo.TRef.unary main_call14.v0 main_call14.v1 (broadcastInDim S1x128 ![1] bcast_S128_S1x128_1),
    StableHlo.TRef.nullary main_call14.cst_0 (constant S_ .f32 0x47C35000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S100000x128 ![0, 1] bcast_S1x128_S100000x128_0_1),
    StableHlo.TRef.binary (.of main_v235) main_call14.v4 main_call14.v5 subf,
    StableHlo.TRef.binary main_call14.v5 main_call14.v5 main_call14.v6 mulf,
    StableHlo.TRef.unary (.of main_c_28) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v238 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S100000x128 ![0, 1] bcast_S1x128_S100000x128_0_1 : (⟨S1x128, .f32⟩ : BufTy).Contents (Elt F) → (⟨S100000x128, .f32⟩ : BufTy).Contents (Elt F)),
    StableHlo.binary main_v235 main_v241 main_v242 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v243 (broadcastInDim S128 ![] bcast_S_S128 : (⟨S_, .f32⟩ : BufTy).Contents (Elt F) → (⟨S128, .f32⟩ : BufTy).Contents (Elt F)),
    StableHlo.binary main_v239 main_v243 main_v244 (addf : (⟨S128, .f32⟩ : BufTy).Contents (Elt F) → (⟨S128, .f32⟩ : BufTy).Contents (Elt F) → (⟨S128, .f32⟩ : BufTy).Contents (Elt F)),
    StableHlo.unary main_v244 main_v245 (Host.rsqrt : (⟨S128, .f32⟩ : BufTy).Contents (Elt F) → (⟨S128, .f32⟩ : BufTy).Contents (Elt F)),
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S100000x128 ![0, 1] bcast_S1x128_S100000x128_0_1 : (⟨S1x128, .f32⟩ : BufTy).Contents (Elt F) → (⟨S100000x128, .f32⟩ : BufTy).Contents (Elt F)),
    StableHlo.binary main_v242 main_v247 main_v248 (mulf : (⟨S100000x128, .f32⟩ : BufTy).Contents (Elt F) → (⟨S100000x128, .f32⟩ : BufTy).Contents (Elt F) → (⟨S100000x128, .f32⟩ : BufTy).Contents (Elt F)),
    StableHlo.unary main_v204 main_v249 (broadcastInDim S1x128 ![1] bcast_S128_S1x128_1 : (⟨S128, .f32⟩ : BufTy).Contents (Elt F) → (⟨S1x128, .f32⟩ : BufTy).Contents (Elt F)),
    StableHlo.unary main_v249 main_v250 (broadcastInDim S100000x128 ![0, 1] bcast_S1x128_S100000x128_0_1 : (⟨S1x128, .f32⟩ : BufTy).Contents (Elt F) → (⟨S100000x128, .f32⟩ : BufTy).Contents (Elt F)),
    StableHlo.binary main_v248 main_v250 main_v251 (mulf : (⟨S100000x128, .f32⟩ : BufTy).Contents (Elt F) → (⟨S100000x128, .f32⟩ : BufTy).Contents (Elt F) → (⟨S100000x128, .f32⟩ : BufTy).Contents (Elt F)),
    StableHlo.unary main_v206 main_v252 (broadcastInDim S1x128 ![1] bcast_S128_S1x128_1 : (⟨S128, .f32⟩ : BufTy).Contents (Elt F) → (⟨S1x128, .f32⟩ : BufTy).Contents (Elt F)),
    StableHlo.unary main_v252 main_v253 (broadcastInDim S100000x128 ![0, 1] bcast_S1x128_S100000x128_0_1 : (⟨S1x128, .f32⟩ : BufTy).Contents (Elt F) → (⟨S100000x128, .f32⟩ : BufTy).Contents (Elt F)),
    StableHlo.binary main_v251 main_v253 main_v254 (addf : (⟨S100000x128, .f32⟩ : BufTy).Contents (Elt F) → (⟨S100000x128, .f32⟩ : BufTy).Contents (Elt F) → (⟨S100000x128, .f32⟩ : BufTy).Contents (Elt F)),
    StableHlo.TRef.nullary main_call15.cst (constant S_ .f32 0x00000000#32),
    StableHlo.TRef.unary main_call15.cst main_call15.v0 (broadcastInDim S100000x128 ![] bcast_S_S100000x128),
    StableHlo.TRef.binary (.of main_v254) main_call15.v0 main_call15.v1 maximumf,
    StableHlo.binary main_v255 main_v188 main_v256 (addf : (⟨S100000x128, .f32⟩ : BufTy).Contents (Elt F) → (⟨S100000x128, .f32⟩ : BufTy).Contents (Elt F) → (⟨S100000x128, .f32⟩ : BufTy).Contents (Elt F)),
    StableHlo.unary main_arg11 main_v257 ((extractStridedSlice S1x3x128 ![3, 0, 0] · slices_S4x3x128_S1x3x128_3_0_0) : (⟨S4x3x128, .f32⟩ : BufTy).Contents (Elt F) → (⟨S1x3x128, .f32⟩ : BufTy).Contents (Elt F)),
    StableHlo.reshape main_v257 main_v258 rfl shapeCasts_S1x3x128_S3x128,
    StableHlo.unary main_arg12 main_v259 ((extractStridedSlice S1x128 ![3, 0] · slices_S4x128_S1x128_3_0) : (⟨S4x128, .f32⟩ : BufTy).Contents (Elt F) → (⟨S1x128, .f32⟩ : BufTy).Contents (Elt F)),
    StableHlo.reshape main_v259 main_v260 rfl shapeCasts_S1x128_S128,
    StableHlo.unary main_arg19 main_v261 ((extractStridedSlice S1 ![3] · slices_S4_S1_3) : (⟨S4, .f32⟩ : BufTy).Contents (Elt F) → (⟨S1, .f32⟩ : BufTy).Contents (Elt F)),
    StableHlo.reshape main_v261 main_v262 rfl shapeCasts_S1_S_,
    StableHlo.unary main_arg13 main_v263 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v263 main_v264 rfl shapeCasts_S1x128x128_S128x128,
    StableHlo.unary main_arg14 main_v265 ((extractStridedSlice S1x128 ![3, 0] · slices_S4x128_S1x128_3_0) : (⟨S4x128, .f32⟩ : BufTy).Contents (Elt F) → (⟨S1x128, .f32⟩ : BufTy).Contents (Elt F)),
    StableHlo.reshape main_v265 main_v266 rfl shapeCasts_S1x128_S128,
    StableHlo.unary main_arg15 main_v267 ((extractStridedSlice S1x128x128 ![3, 0, 0] · slices_S4x128x128_S1x128x128_3_0_0) : (⟨S4x128x128, .f32⟩ : BufTy).Contents (Elt F) → (⟨S1x128x128, .f32⟩ : BufTy).Contents (Elt F)) ]

/-- The operations of window 5 of @main (85 of them). -/
abbrev ops5 : List (HloOp τ sig (Elt F)) :=
  [ StableHlo.reshape main_v267 main_v268 rfl shapeCasts_S1x128x128_S128x128,
    StableHlo.unary main_arg16 main_v269 ((extractStridedSlice S1x128 ![3, 0] · slices_S4x128_S1x128_3_0) : (⟨S4x128, .f32⟩ : BufTy).Contents (Elt F) → (⟨S1x128, .f32⟩ : BufTy).Contents (Elt F)),
    StableHlo.reshape main_v269 main_v270 rfl shapeCasts_S1x128_S128,
    StableHlo.unary main_arg17 main_v271 ((extractStridedSlice S1x128 ![3, 0] · slices_S4x128_S1x128_3_0) : (⟨S4x128, .f32⟩ : BufTy).Contents (Elt F) → (⟨S1x128, .f32⟩ : BufTy).Contents (Elt F)),
    StableHlo.reshape main_v271 main_v272 rfl shapeCasts_S1x128_S128,
    StableHlo.unary main_arg18 main_v273 ((extractStridedSlice S1x128 ![3, 0] · slices_S4x128_S1x128_3_0) : (⟨S4x128, .f32⟩ : BufTy).Contents (Elt F) → (⟨S1x128, .f32⟩ : BufTy).Contents (Elt F)),
    StableHlo.reshape main_v273 main_v274 rfl shapeCasts_S1x128_S128,
    StableHlo.nullary main_c_30 (constantI S_ 32 0#32),
    StableHlo.unary main_c_30 main_v275 (broadcastInDim S600000 ![] bcast_S_S600000 : (⟨S_, .i32⟩ : BufTy).Contents (Elt F) → (⟨S600000, .i32⟩ : BufTy).Contents (Elt F)),
    StableHlo.binary main_v1 main_v275 main_v276 (cmpi .slt : (⟨S600000, .i32⟩ : BufTy).Contents (Elt F) → (⟨S600000, .i32⟩ : BufTy).Contents (Elt F) → (⟨S600000, .i1⟩ : BufTy).Contents (Elt F)),
    StableHlo.nullary main_c_31 (constantI S_ 32 100000#32),
    StableHlo.unary main_c_31 main_v277 (broadcastInDim S600000 ![] bcast_S_S600000 : (⟨S_, .i32⟩ : BufTy).Contents (Elt F) → (⟨S600000, .i32⟩ : BufTy).Contents (Elt F)),
    StableHlo.binary main_v1 main_v277 main_v278 (addi : (⟨S600000, .i32⟩ : BufTy).Contents (Elt F) → (⟨S600000, .i32⟩ : BufTy).Contents (Elt F) → (⟨S600000, .i32⟩ : BufTy).Contents (Elt F)),
    StableHlo.ternary main_v276 main_v278 main_v1 main_v279 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v279 main_v280 (broadcastInDim S600000x1 ![0] bcast_S600000_S600000x1_0 : (⟨S600000, .i32⟩ : BufTy).Contents (Elt F) → (⟨S600000x1, .i32⟩ : BufTy).Contents (Elt F)),
    StableHlo.binary main_v256 main_v280 main_v281 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_arg1 main_v258 main_v282 ((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F)),
    StableHlo.binary main_v281 main_v282 main_v283 (addf : (⟨S600000x128, .f32⟩ : BufTy).Contents (Elt F) → (⟨S600000x128, .f32⟩ : BufTy).Contents (Elt F) → (⟨S600000x128, .f32⟩ : BufTy).Contents (Elt F)),
    StableHlo.unary main_v260 main_v284 (broadcastInDim S1x128 ![1] bcast_S128_S1x128_1 : (⟨S128, .f32⟩ : BufTy).Contents (Elt F) → (⟨S1x128, .f32⟩ : BufTy).Contents (Elt F)),
    StableHlo.unary main_v284 main_v285 (broadcastInDim S600000x128 ![0, 1] bcast_S1x128_S600000x128_0_1 : (⟨S1x128, .f32⟩ : BufTy).Contents (Elt F) → (⟨S600000x128, .f32⟩ : BufTy).Contents (Elt F)),
    StableHlo.binary main_v283 main_v285 main_v286 (addf : (⟨S600000x128, .f32⟩ : BufTy).Contents (Elt F) → (⟨S600000x128, .f32⟩ : BufTy).Contents (Elt F) → (⟨S600000x128, .f32⟩ : BufTy).Contents (Elt F)),
    StableHlo.TRef.nullary main_call16.cst (constant S_ .f32 0x00000000#32),
    StableHlo.TRef.unary main_call16.cst main_call16.v0 (broadcastInDim S600000x128 ![] bcast_S_S600000x128),
    StableHlo.TRef.binary (.of main_v286) main_call16.v0 main_call16.v1 maximumf,
    StableHlo.nullary main_cst_32 (constant S_ .f32 0x00000000#32),
    StableHlo.unary main_cst_32 main_v288 (broadcastInDim S100000x128 ![] bcast_S_S100000x128 : (⟨S_, .f32⟩ : BufTy).Contents (Elt F) → (⟨S100000x128, .f32⟩ : BufTy).Contents (Elt F)),
    StableHlo.unary main_v3 main_v289 (broadcastInDim S600000x1 ![0] bcast_S600000_S600000x1_0 : (⟨S600000, .i32⟩ : BufTy).Contents (Elt F) → (⟨S600000x1, .i32⟩ : BufTy).Contents (Elt F)),
    StableHlo.ternary main_v288 main_v289 main_v287 main_v290 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_33 (constant S_ .f32 0x3F800000#32),
    StableHlo.binary main_cst_33 main_v262 main_v291 (addf : (⟨S_, .f32⟩ : BufTy).Contents (Elt F) → (⟨S_, .f32⟩ : BufTy).Contents (Elt F) → (⟨S_, .f32⟩ : BufTy).Contents (Elt F)),
    StableHlo.unary main_v291 main_v292 (broadcastInDim S100000x128 ![] bcast_S_S100000x128 : (⟨S_, .f32⟩ : BufTy).Contents (Elt F) → (⟨S100000x128, .f32⟩ : BufTy).Contents (Elt F)),
    StableHlo.binary main_v292 main_v256 main_v293 (mulf : (⟨S100000x128, .f32⟩ : BufTy).Contents (Elt F) → (⟨S100000x128, .f32⟩ : BufTy).Contents (Elt F) → (⟨S100000x128, .f32⟩ : BufTy).Contents (Elt F)),
    StableHlo.binary main_v293 main_v290 main_v294 (addf : (⟨S100000x128, .f32⟩ : BufTy).Contents (Elt F) → (⟨S100000x128, .f32⟩ : BufTy).Contents (Elt F) → (⟨S100000x128, .f32⟩ : BufTy).Contents (Elt F)),
    StableHlo.binary main_v294 main_v264 main_v295 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v266 main_v296 (broadcastInDim S1x128 ![1] bcast_S128_S1x128_1 : (⟨S128, .f32⟩ : BufTy).Contents (Elt F) → (⟨S1x128, .f32⟩ : BufTy).Contents (Elt F)),
    StableHlo.unary main_v296 main_v297 (broadcastInDim S100000x128 ![0, 1] bcast_S1x128_S100000x128_0_1 : (⟨S1x128, .f32⟩ : BufTy).Contents (Elt F) → (⟨S100000x128, .f32⟩ : BufTy).Contents (Elt F)),
    StableHlo.binary main_v295 main_v297 main_v298 (addf : (⟨S100000x128, .f32⟩ : BufTy).Contents (Elt F) → (⟨S100000x128, .f32⟩ : BufTy).Contents (Elt F) → (⟨S100000x128, .f32⟩ : BufTy).Contents (Elt F)),
    StableHlo.TRef.nullary main_call17.cst (constant S_ .f32 0x00000000#32),
    StableHlo.TRef.unary main_call17.cst main_call17.v0 (broadcastInDim S100000x128 ![] bcast_S_S100000x128),
    StableHlo.TRef.binary (.of main_v298) main_call17.v0 main_call17.v1 maximumf,
    StableHlo.binary main_v299 main_v268 main_v300 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v270 main_v301 (broadcastInDim S1x128 ![1] bcast_S128_S1x128_1 : (⟨S128, .f32⟩ : BufTy).Contents (Elt F) → (⟨S1x128, .f32⟩ : BufTy).Contents (Elt F)),
    StableHlo.unary main_v301 main_v302 (broadcastInDim S100000x128 ![0, 1] bcast_S1x128_S100000x128_0_1 : (⟨S1x128, .f32⟩ : BufTy).Contents (Elt F) → (⟨S100000x128, .f32⟩ : BufTy).Contents (Elt F)),
    StableHlo.binary main_v300 main_v302 main_v303 (addf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x00000000#32),
    StableHlo.binary main_v303 main_cst_34 main_v304 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_35 (constant S_ .f32 0x47C35000#32),
    StableHlo.unary main_cst_35 main_v305 (broadcastInDim S128 ![] bcast_S_S128 : (⟨S_, .f32⟩ : BufTy).Contents (Elt F) → (⟨S128, .f32⟩ : BufTy).Contents (Elt F)),
    StableHlo.binary main_v304 main_v305 main_v306 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call18.cst (constant S_ .f32 0x00000000#32),
    StableHlo.TRef.binary (.of main_v303) main_call18.cst main_call18.v0 (fun x v => Host.reduceAdd x v reducesTo_S100000x128_S128_d0 h_S_),
    StableHlo.TRef.unary main_call18.v0 main_call18.v1 (broadcastInDim S1x128 ![1] bcast_S128_S1x128_1),
    StableHlo.TRef.nullary main_call18.cst_0 (constant S_ .f32 0x47C35000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S100000x128 ![0, 1] bcast_S1x128_S100000x128_0_1),
    StableHlo.TRef.binary (.of main_v303) main_call18.v4 main_call18.v5 subf,
    StableHlo.TRef.binary main_call18.v5 main_call18.v5 main_call18.v6 mulf,
    StableHlo.TRef.unary (.of main_c_36) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v306 main_v308 (broadcastInDim S1x128 ![1] bcast_S128_S1x128_1 : (⟨S128, .f32⟩ : BufTy).Contents (Elt F) → (⟨S1x128, .f32⟩ : BufTy).Contents (Elt F)),
    StableHlo.unary main_v308 main_v309 (broadcastInDim S100000x128 ![0, 1] bcast_S1x128_S100000x128_0_1 : (⟨S1x128, .f32⟩ : BufTy).Contents (Elt F) → (⟨S100000x128, .f32⟩ : BufTy).Contents (Elt F)),
    StableHlo.binary main_v303 main_v309 main_v310 (subf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3727C5AC#32),
    StableHlo.unary main_cst_37 main_v311 (broadcastInDim S128 ![] bcast_S_S128 : (⟨S_, .f32⟩ : BufTy).Contents (Elt F) → (⟨S128, .f32⟩ : BufTy).Contents (Elt F)),
    StableHlo.binary main_v307 main_v311 main_v312 (addf : (⟨S128, .f32⟩ : BufTy).Contents (Elt F) → (⟨S128, .f32⟩ : BufTy).Contents (Elt F) → (⟨S128, .f32⟩ : BufTy).Contents (Elt F)),
    StableHlo.unary main_v312 main_v313 (Host.rsqrt : (⟨S128, .f32⟩ : BufTy).Contents (Elt F) → (⟨S128, .f32⟩ : BufTy).Contents (Elt F)),
    StableHlo.unary main_v313 main_v314 (broadcastInDim S1x128 ![1] bcast_S128_S1x128_1 : (⟨S128, .f32⟩ : BufTy).Contents (Elt F) → (⟨S1x128, .f32⟩ : BufTy).Contents (Elt F)),
    StableHlo.unary main_v314 main_v315 (broadcastInDim S100000x128 ![0, 1] bcast_S1x128_S100000x128_0_1 : (⟨S1x128, .f32⟩ : BufTy).Contents (Elt F) → (⟨S100000x128, .f32⟩ : BufTy).Contents (Elt F)),
    StableHlo.binary main_v310 main_v315 main_v316 (mulf : (⟨S100000x128, .f32⟩ : BufTy).Contents (Elt F) → (⟨S100000x128, .f32⟩ : BufTy).Contents (Elt F) → (⟨S100000x128, .f32⟩ : BufTy).Contents (Elt F)),
    StableHlo.unary main_v272 main_v317 (broadcastInDim S1x128 ![1] bcast_S128_S1x128_1 : (⟨S128, .f32⟩ : BufTy).Contents (Elt F) → (⟨S1x128, .f32⟩ : BufTy).Contents (Elt F)),
    StableHlo.unary main_v317 main_v318 (broadcastInDim S100000x128 ![0, 1] bcast_S1x128_S100000x128_0_1 : (⟨S1x128, .f32⟩ : BufTy).Contents (Elt F) → (⟨S100000x128, .f32⟩ : BufTy).Contents (Elt F)),
    StableHlo.binary main_v316 main_v318 main_v319 (mulf : (⟨S100000x128, .f32⟩ : BufTy).Contents (Elt F) → (⟨S100000x128, .f32⟩ : BufTy).Contents (Elt F) → (⟨S100000x128, .f32⟩ : BufTy).Contents (Elt F)) ]

/-- The operations of window 6 of @main (41 of them). -/
abbrev ops6 : List (HloOp τ sig (Elt F)) :=
  [ StableHlo.unary main_v274 main_v320 (broadcastInDim S1x128 ![1] bcast_S128_S1x128_1 : (⟨S128, .f32⟩ : BufTy).Contents (Elt F) → (⟨S1x128, .f32⟩ : BufTy).Contents (Elt F)),
    StableHlo.unary main_v320 main_v321 (broadcastInDim S100000x128 ![0, 1] bcast_S1x128_S100000x128_0_1 : (⟨S1x128, .f32⟩ : BufTy).Contents (Elt F) → (⟨S100000x128, .f32⟩ : BufTy).Contents (Elt F)),
    StableHlo.binary main_v319 main_v321 main_v322 (addf : (⟨S100000x128, .f32⟩ : BufTy).Contents (Elt F) → (⟨S100000x128, .f32⟩ : BufTy).Contents (Elt F) → (⟨S100000x128, .f32⟩ : BufTy).Contents (Elt F)),
    StableHlo.TRef.nullary main_call19.cst (constant S_ .f32 0x00000000#32),
    StableHlo.TRef.unary main_call19.cst main_call19.v0 (broadcastInDim S100000x128 ![] bcast_S_S100000x128),
    StableHlo.TRef.binary (.of main_v322) main_call19.v0 main_call19.v1 maximumf,
    StableHlo.binary main_v323 main_v256 main_v324 (addf : (⟨S100000x128, .f32⟩ : BufTy).Contents (Elt F) → (⟨S100000x128, .f32⟩ : BufTy).Contents (Elt F) → (⟨S100000x128, .f32⟩ : BufTy).Contents (Elt F)),
    StableHlo.nullary main_cst_38 (constant S_ .f32 0x00000000#32),
    StableHlo.unary main_cst_38 main_v325 (broadcastInDim S5000x128 ![] bcast_S_S5000x128 : (⟨S_, .f32⟩ : BufTy).Contents (Elt F) → (⟨S5000x128, .f32⟩ : BufTy).Contents (Elt F)),
    StableHlo.unary main_arg27 main_v326 (broadcastInDim S100000x1 ![0] bcast_S100000_S100000x1_0 : (⟨S100000, .i32⟩ : BufTy).Contents (Elt F) → (⟨S100000x1, .i32⟩ : BufTy).Contents (Elt F)),
    StableHlo.ternary main_v325 main_v326 main_v324 main_v327 ((fun x i u => Host.scatterAdd scatter_S5000x128_S100000x1_S100000x128_1_0_0_1 x i u) : (⟨S5000x128, .f32⟩ : BufTy).Contents (Elt F) → (⟨S100000x1, .i32⟩ : BufTy).Contents (Elt F) → (⟨S100000x128, .f32⟩ : BufTy).Contents (Elt F) → (⟨S5000x128, .f32⟩ : BufTy).Contents (Elt F)),
    StableHlo.nullary main_cst_39 (constant S_ .f32 0x3F800000#32),
    StableHlo.unary main_cst_39 main_v328 (broadcastInDim S100000 ![] bcast_S_S100000 : (⟨S_, .f32⟩ : BufTy).Contents (Elt F) → (⟨S100000, .f32⟩ : BufTy).Contents (Elt F)),
    StableHlo.nullary main_cst_40 (constant S_ .f32 0x00000000#32),
    StableHlo.unary main_cst_40 main_v329 (broadcastInDim S5000 ![] bcast_S_S5000 : (⟨S_, .f32⟩ : BufTy).Contents (Elt F) → (⟨S5000, .f32⟩ : BufTy).Contents (Elt F)),
    StableHlo.unary main_arg27 main_v330 (broadcastInDim S100000x1 ![0] bcast_S100000_S100000x1_0 : (⟨S100000, .i32⟩ : BufTy).Contents (Elt F) → (⟨S100000x1, .i32⟩ : BufTy).Contents (Elt F)),
    StableHlo.ternary main_v329 main_v330 main_v328 main_v331 ((fun x i u => Host.scatterAdd scatter_S5000_S100000x1_S100000_n_0_0_1 x i u) : (⟨S5000, .f32⟩ : BufTy).Contents (Elt F) → (⟨S100000x1, .i32⟩ : BufTy).Contents (Elt F) → (⟨S100000, .f32⟩ : BufTy).Contents (Elt F) → (⟨S5000, .f32⟩ : BufTy).Contents (Elt F)),
    StableHlo.nullary main_cst_41 (constant S_ .f32 0x3F800000#32),
    StableHlo.unary main_cst_41 main_v332 (broadcastInDim S5000 ![] bcast_S_S5000 : (⟨S_, .f32⟩ : BufTy).Contents (Elt F) → (⟨S5000, .f32⟩ : BufTy).Contents (Elt F)),
    StableHlo.binary main_v331 main_v332 main_v333 (maximumf : (⟨S5000, .f32⟩ : BufTy).Contents (Elt F) → (⟨S5000, .f32⟩ : BufTy).Contents (Elt F) → (⟨S5000, .f32⟩ : BufTy).Contents (Elt F)),
    StableHlo.unary main_v333 main_v334 (broadcastInDim S5000x1 ![0] bcast_S5000_S5000x1_0 : (⟨S5000, .f32⟩ : BufTy).Contents (Elt F) → (⟨S5000x1, .f32⟩ : BufTy).Contents (Elt F)),
    StableHlo.unary main_v334 main_v335 (broadcastInDim S5000x128 ![0, 1] bcast_S5000x1_S5000x128_0_1 : (⟨S5000x1, .f32⟩ : BufTy).Contents (Elt F) → (⟨S5000x128, .f32⟩ : BufTy).Contents (Elt F)),
    StableHlo.binary main_v327 main_v335 main_v336 (Host.divf : (⟨S5000x128, .f32⟩ : BufTy).Contents (Elt F) → (⟨S5000x128, .f32⟩ : BufTy).Contents (Elt F) → (⟨S5000x128, .f32⟩ : BufTy).Contents (Elt F)),
    StableHlo.binary main_v336 main_arg20 main_v337 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.unary main_arg21 main_v338 (broadcastInDim S1x128 ![1] bcast_S128_S1x128_1 : (⟨S128, .f32⟩ : BufTy).Contents (Elt F) → (⟨S1x128, .f32⟩ : BufTy).Contents (Elt F)),
    StableHlo.unary main_v338 main_v339 (broadcastInDim S5000x128 ![0, 1] bcast_S1x128_S5000x128_0_1 : (⟨S1x128, .f32⟩ : BufTy).Contents (Elt F) → (⟨S5000x128, .f32⟩ : BufTy).Contents (Elt F)),
    StableHlo.binary main_v337 main_v339 main_v340 (addf : (⟨S5000x128, .f32⟩ : BufTy).Contents (Elt F) → (⟨S5000x128, .f32⟩ : BufTy).Contents (Elt F) → (⟨S5000x128, .f32⟩ : BufTy).Contents (Elt F)),
    StableHlo.TRef.nullary main_call20.cst (constant S_ .f32 0x00000000#32),
    StableHlo.TRef.unary main_call20.cst main_call20.v0 (broadcastInDim S5000x128 ![] bcast_S_S5000x128),
    StableHlo.TRef.binary (.of main_v340) main_call20.v0 main_call20.v1 maximumf,
    StableHlo.binary main_v341 main_arg22 main_v342 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.unary main_arg23 main_v343 (broadcastInDim S1x128 ![1] bcast_S128_S1x128_1 : (⟨S128, .f32⟩ : BufTy).Contents (Elt F) → (⟨S1x128, .f32⟩ : BufTy).Contents (Elt F)),
    StableHlo.unary main_v343 main_v344 (broadcastInDim S5000x128 ![0, 1] bcast_S1x128_S5000x128_0_1 : (⟨S1x128, .f32⟩ : BufTy).Contents (Elt F) → (⟨S5000x128, .f32⟩ : BufTy).Contents (Elt F)),
    StableHlo.binary main_v342 main_v344 main_v345 (addf : (⟨S5000x128, .f32⟩ : BufTy).Contents (Elt F) → (⟨S5000x128, .f32⟩ : BufTy).Contents (Elt F) → (⟨S5000x128, .f32⟩ : BufTy).Contents (Elt F)),
    StableHlo.TRef.nullary main_call21.cst (constant S_ .f32 0x00000000#32),
    StableHlo.TRef.unary main_call21.cst main_call21.v0 (broadcastInDim S5000x128 ![] bcast_S_S5000x128),
    StableHlo.TRef.binary (.of main_v345) main_call21.v0 main_call21.v1 maximumf,
    StableHlo.binary main_v346 main_arg24 main_v347 ((fun l r => Host.dotGeneral dot_S5000x128_S128x1_S5000x1_1_0_0_1_n_n none l r) : (⟨S5000x128, .f32⟩ : BufTy).Contents (Elt F) → (⟨S128x1, .f32⟩ : BufTy).Contents (Elt F) → (⟨S5000x1, .f32⟩ : BufTy).Contents (Elt F)),
    StableHlo.unary main_arg25 main_v348 (broadcastInDim S1x1 ![1] bcast_S1_S1x1_1 : (⟨S1, .f32⟩ : BufTy).Contents (Elt F) → (⟨S1x1, .f32⟩ : BufTy).Contents (Elt F)),
    StableHlo.unary main_v348 main_v349 (broadcastInDim S5000x1 ![0, 1] bcast_S1x1_S5000x1_0_1 : (⟨S1x1, .f32⟩ : BufTy).Contents (Elt F) → (⟨S5000x1, .f32⟩ : BufTy).Contents (Elt F)),
    StableHlo.binary main_v347 main_v349 main_v350 (addf : (⟨S5000x1, .f32⟩ : BufTy).Contents (Elt F) → (⟨S5000x1, .f32⟩ : BufTy).Contents (Elt F) → (⟨S5000x1, .f32⟩ : BufTy).Contents (Elt F)) ]

/-- All of @main's operations, in order. -/
abbrev ops : List (HloOp τ sig (Elt F)) := ops0 ++ ops1 ++ ops2 ++ ops3 ++ ops4 ++ ops5 ++ ops6

set_option maxRecDepth 65536 in
set_option maxHeartbeats 4000000 in
theorem main_part0_eq (c : Dev nD) : main_part0 (F := F) c = seq ops0 := rfl
set_option maxRecDepth 65536 in
set_option maxHeartbeats 4000000 in
theorem main_part1_eq (c : Dev nD) : main_part1 (F := F) c = seq ops1 := rfl
set_option maxRecDepth 65536 in
set_option maxHeartbeats 4000000 in
theorem main_part2_eq (c : Dev nD) : main_part2 (F := F) c = seq ops2 := rfl
set_option maxRecDepth 65536 in
set_option maxHeartbeats 4000000 in
theorem main_part3_eq (c : Dev nD) : main_part3 (F := F) c = seq ops3 := rfl
set_option maxRecDepth 65536 in
set_option maxHeartbeats 4000000 in
theorem main_part4_eq (c : Dev nD) : main_part4 (F := F) c = seq ops4 := rfl
set_option maxRecDepth 65536 in
set_option maxHeartbeats 4000000 in
theorem main_part5_eq (c : Dev nD) : main_part5 (F := F) c = seq ops5 := rfl
set_option maxRecDepth 65536 in
set_option maxHeartbeats 4000000 in
theorem main_part6_eq (c : Dev nD) : main_part6 (F := F) c = seq ops6 := rfl

set_option maxRecDepth 65536 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops1_sub : (ops1 : List (HloOp τ sig (Elt F))).Forall fun op => op.bufs ⊆ tcRefs τ sig :=
  ⟨nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
theorem ops2_sub : (ops2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub ..⟩
theorem ops3_sub : (ops3 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem ops4_sub : (ops4 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub ..⟩
theorem ops5_sub : (ops5 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem ops6_sub : (ops6 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig := by
  refine List.forall_iff_forall_mem.mpr fun op h => ?_
  rcases List.mem_append.mp h with h | h
  swap; · exact List.forall_iff_forall_mem.mp ops6_sub op h
  rcases List.mem_append.mp h with h | h
  swap; · exact List.forall_iff_forall_mem.mp ops5_sub op h
  rcases List.mem_append.mp h with h | h
  swap; · exact List.forall_iff_forall_mem.mp ops4_sub op h
  rcases List.mem_append.mp h with h | h
  swap; · exact List.forall_iff_forall_mem.mp ops3_sub op h
  rcases List.mem_append.mp h with h | h
  swap; · exact List.forall_iff_forall_mem.mp ops2_sub op h
  rcases List.mem_append.mp h with h | h
  swap; · exact List.forall_iff_forall_mem.mp ops1_sub op h
  exact List.forall_iff_forall_mem.mp ops0_sub op h

/-- Every weakly fair execution of the reference terminates, and every buffer of a TensorCore ends at the fold of the
    operations over what the launch found there. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every buffer that some operation writes, in order. -/
abbrev written : List (Ref sig .tc) :=
  [main_v0, main_v1, main_v2, main_v3, main_c, main_v4, main_v5, main_c_0, main_v6, main_v7, main_v8, main_v9, main_v10, main_v11, main_v12, main_v13, main_v14, main_v15, main_call0.cst.ref, main_call0.v0.ref, main_call0.v1.ref, main_cst, main_v17, main_v18, main_v19, main_cst_1, main_v20, main_v21, main_v22, main_v23, main_v24, main_v25, main_v26, main_v27, main_call1.cst.ref, main_call1.v0.ref, main_call1.v1.ref, main_v29, main_v30, main_v31, main_v32, main_cst_2, main_v33, main_cst_3, main_v34, main_v35, main_c_4, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v37, main_v38, main_v39, main_cst_5, main_v40, main_v41, main_v42, main_v43, main_v44, main_v45, main_v46, main_v47, main_v48, main_v49, main_v50, main_v51, main_call3.cst.ref, main_call3.v0.ref, main_call3.v1.ref, main_v53, main_v54, main_v55, main_v56, main_v57, main_v58, main_v59, main_v60, main_v61, main_v62, main_v63, main_v64, main_v65, main_v66, main_v67, main_v68, main_v69, main_v70, main_c_6, main_v71, main_v72, main_c_7, main_v73, main_v74, main_v75, main_v76, main_v77, main_v78, main_v79, main_v80, main_v81, main_v82, main_call4.cst.ref, main_call4.v0.ref, main_call4.v1.ref, main_cst_8, main_v84, main_v85, main_v86, main_cst_9, main_v87, main_v88, main_v89, main_v90, main_v91, main_v92, main_v93, main_v94, main_call5.cst.ref, main_call5.v0.ref, main_call5.v1.ref, main_v96, main_v97, main_v98, main_v99, main_cst_10, main_v100, main_cst_11, main_v101, main_v102, main_c_12, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v104, main_v105, main_v106, main_cst_13, main_v107, main_v108, main_v109, main_v110, main_v111, main_v112, main_v113, main_v114, main_v115, main_v116, main_v117, main_v118, main_call7.cst.ref, main_call7.v0.ref, main_call7.v1.ref, main_v120, main_v121, main_v122, main_v123, main_v124, main_v125, main_v126, main_v127, main_v128, main_v129, main_v130, main_v131, main_v132, main_v133, main_v134, main_v135, main_v136, main_v137, main_v138, main_c_14, main_v139, main_v140, main_c_15, main_v141, main_v142, main_v143, main_v144, main_v145, main_v146, main_v147, main_v148, main_v149, main_v150, main_call8.cst.ref, main_call8.v0.ref, main_call8.v1.ref, main_cst_16, main_v152, main_v153, main_v154, main_cst_17, main_v155, main_v156, main_v157, main_v158, main_v159, main_v160, main_v161, main_v162, main_call9.cst.ref, main_call9.v0.ref, main_call9.v1.ref, main_v164, main_v165, main_v166, main_v167, main_cst_18, main_v168, main_cst_19, main_v169, main_v170, main_c_20, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v172, main_v173, main_v174, main_cst_21, main_v175, main_v176, main_v177, main_v178, main_v179, main_v180, main_v181, main_v182, main_v183, main_v184, main_v185, main_v186, main_call11.cst.ref, main_call11.v0.ref, main_call11.v1.ref, main_v188, main_v189, main_v190, main_v191, main_v192, main_v193, main_v194, main_v195, main_v196, main_v197, main_v198, main_v199, main_v200, main_v201, main_v202, main_v203, main_v204, main_v205, main_v206, main_c_22, main_v207, main_v208, main_c_23, main_v209, main_v210, main_v211, main_v212, main_v213, main_v214, main_v215, main_v216, main_v217, main_v218, main_call12.cst.ref, main_call12.v0.ref, main_call12.v1.ref, main_cst_24, main_v220, main_v221, main_v222, main_cst_25, main_v223, main_v224, main_v225, main_v226, main_v227, main_v228, main_v229, main_v230, main_call13.cst.ref, main_call13.v0.ref, main_call13.v1.ref, main_v232, main_v233, main_v234, main_v235, main_cst_26, main_v236, main_cst_27, main_v237, main_v238, main_c_28, main_call14.cst.ref, main_call14.v0.ref, main_call14.v1.ref, main_call14.cst_0.ref, main_call14.v2.ref, main_call14.v3.ref, main_call14.v4.ref, main_call14.v5.ref, main_call14.v6.ref, main_call14.v7.ref, main_call14.cst_1.ref, main_call14.v8.ref, main_call14.cst_2.ref, main_call14.v9.ref, main_call14.v10.ref, main_call14.v11.ref, main_call14.cst_3.ref, main_call14.v12.ref, main_call14.cst_4.ref, main_call14.call0.v0.ref, main_call14.call0.v1.ref, main_call14.call0.v2.ref, main_v240, main_v241, main_v242, main_cst_29, main_v243, main_v244, main_v245, main_v246, main_v247, main_v248, main_v249, main_v250, main_v251, main_v252, main_v253, main_v254, main_call15.cst.ref, main_call15.v0.ref, main_call15.v1.ref, main_v256, main_v257, main_v258, main_v259, main_v260, main_v261, main_v262, main_v263, main_v264, main_v265, main_v266, main_v267, main_v268, main_v269, main_v270, main_v271, main_v272, main_v273, main_v274, main_c_30, main_v275, main_v276, main_c_31, main_v277, main_v278, main_v279, main_v280, main_v281, main_v282, main_v283, main_v284, main_v285, main_v286, main_call16.cst.ref, main_call16.v0.ref, main_call16.v1.ref, main_cst_32, main_v288, main_v289, main_v290, main_cst_33, main_v291, main_v292, main_v293, main_v294, main_v295, main_v296, main_v297, main_v298, main_call17.cst.ref, main_call17.v0.ref, main_call17.v1.ref, main_v300, main_v301, main_v302, main_v303, main_cst_34, main_v304, main_cst_35, main_v305, main_v306, main_c_36, main_call18.cst.ref, main_call18.v0.ref, main_call18.v1.ref, main_call18.cst_0.ref, main_call18.v2.ref, main_call18.v3.ref, main_call18.v4.ref, main_call18.v5.ref, main_call18.v6.ref, main_call18.v7.ref, main_call18.cst_1.ref, main_call18.v8.ref, main_call18.cst_2.ref, main_call18.v9.ref, main_call18.v10.ref, main_call18.v11.ref, main_call18.cst_3.ref, main_call18.v12.ref, main_call18.cst_4.ref, main_call18.call0.v0.ref, main_call18.call0.v1.ref, main_call18.call0.v2.ref, main_v308, main_v309, main_v310, main_cst_37, main_v311, main_v312, main_v313, main_v314, main_v315, main_v316, main_v317, main_v318, main_v319, main_v320, main_v321, main_v322, main_call19.cst.ref, main_call19.v0.ref, main_call19.v1.ref, main_v324, main_cst_38, main_v325, main_v326, main_v327, main_cst_39, main_v328, main_cst_40, main_v329, main_v330, main_v331, main_cst_41, main_v332, main_v333, main_v334, main_v335, main_v336, main_v337, main_v338, main_v339, main_v340, main_call20.cst.ref, main_call20.v0.ref, main_call20.v1.ref, main_v342, main_v343, main_v344, main_v345, main_call21.cst.ref, main_call21.v0.ref, main_call21.v1.ref, main_v347, main_v348, main_v349, main_v350]

theorem wr {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

set_option maxRecDepth 65536 in
theorem ops0_writes : (ops0 : List (HloOp τ sig (Elt F))).Forall fun op => op.writes ⊆ (written.map (Proc.devRef (τ := τ) .tc)).toFinset :=
  ⟨wr (List.getElem_mem (l := written) (n := 0) (by decide)), wr (List.getElem_mem (l := written) (n := 1) (by decide)), wr (List.getElem_mem (l := written) (n := 2) (by decide)), wr (List.getElem_mem (l := written) (n := 3) (by decide)), wr (List.getElem_mem (l := written) (n := 4) (by decide)), wr (List.getElem_mem (l := written) (n := 5) (by decide)), wr (List.getElem_mem (l := written) (n := 6) (by decide)), wr (List.getElem_mem (l := written) (n := 7) (by decide)), wr (List.getElem_mem (l := written) (n := 8) (by decide)), wr (List.getElem_mem (l := written) (n := 9) (by decide)), wr (List.getElem_mem (l := written) (n := 10) (by decide)), wr (List.getElem_mem (l := written) (n := 11) (by decide)), wr (List.getElem_mem (l := written) (n := 12) (by decide)), wr (List.getElem_mem (l := written) (n := 13) (by decide)), wr (List.getElem_mem (l := written) (n := 14) (by decide)), wr (List.getElem_mem (l := written) (n := 15) (by decide)), wr (List.getElem_mem (l := written) (n := 16) (by decide)), wr (List.getElem_mem (l := written) (n := 17) (by decide)), wr (List.getElem_mem (l := written) (n := 18) (by decide)), wr (List.getElem_mem (l := written) (n := 19) (by decide)), wr (List.getElem_mem (l := written) (n := 20) (by decide)), wr (List.getElem_mem (l := written) (n := 21) (by decide)), wr (List.getElem_mem (l := written) (n := 22) (by decide)), wr (List.getElem_mem (l := written) (n := 23) (by decide)), wr (List.getElem_mem (l := written) (n := 24) (by decide)), wr (List.getElem_mem (l := written) (n := 25) (by decide)), wr (List.getElem_mem (l := written) (n := 26) (by decide)), wr (List.getElem_mem (l := written) (n := 27) (by decide)), wr (List.getElem_mem (l := written) (n := 28) (by decide)), wr (List.getElem_mem (l := written) (n := 29) (by decide)), wr (List.getElem_mem (l := written) (n := 30) (by decide)), wr (List.getElem_mem (l := written) (n := 31) (by decide)), wr (List.getElem_mem (l := written) (n := 32) (by decide)), wr (List.getElem_mem (l := written) (n := 33) (by decide)), wr (List.getElem_mem (l := written) (n := 34) (by decide)), wr (List.getElem_mem (l := written) (n := 35) (by decide)), wr (List.getElem_mem (l := written) (n := 36) (by decide)), wr (List.getElem_mem (l := written) (n := 37) (by decide)), wr (List.getElem_mem (l := written) (n := 38) (by decide)), wr (List.getElem_mem (l := written) (n := 39) (by decide)), wr (List.getElem_mem (l := written) (n := 40) (by decide)), wr (List.getElem_mem (l := written) (n := 41) (by decide)), wr (List.getElem_mem (l := written) (n := 42) (by decide)), wr (List.getElem_mem (l := written) (n := 43) (by decide)), wr (List.getElem_mem (l := written) (n := 44) (by decide)), wr (List.getElem_mem (l := written) (n := 45) (by decide)), wr (List.getElem_mem (l := written) (n := 46) (by decide)), wr (List.getElem_mem (l := written) (n := 47) (by decide)), wr (List.getElem_mem (l := written) (n := 48) (by decide)), wr (List.getElem_mem (l := written) (n := 49) (by decide)), wr (List.getElem_mem (l := written) (n := 50) (by decide)), wr (List.getElem_mem (l := written) (n := 51) (by decide)), wr (List.getElem_mem (l := written) (n := 52) (by decide)), wr (List.getElem_mem (l := written) (n := 53) (by decide)), wr (List.getElem_mem (l := written) (n := 54) (by decide)), wr (List.getElem_mem (l := written) (n := 55) (by decide)), wr (List.getElem_mem (l := written) (n := 56) (by decide)), wr (List.getElem_mem (l := written) (n := 57) (by decide)), wr (List.getElem_mem (l := written) (n := 58) (by decide)), wr (List.getElem_mem (l := written) (n := 59) (by decide)), wr (List.getElem_mem (l := written) (n := 60) (by decide)), wr (List.getElem_mem (l := written) (n := 61) (by decide)), wr (List.getElem_mem (l := written) (n := 62) (by decide)), wr (List.getElem_mem (l := written) (n := 63) (by decide)), wr (List.getElem_mem (l := written) (n := 64) (by decide)), wr (List.getElem_mem (l := written) (n := 65) (by decide)), wr (List.getElem_mem (l := written) (n := 66) (by decide)), wr (List.getElem_mem (l := written) (n := 67) (by decide)), wr (List.getElem_mem (l := written) (n := 68) (by decide)), wr (List.getElem_mem (l := written) (n := 69) (by decide)), wr (List.getElem_mem (l := written) (n := 70) (by decide)), wr (List.getElem_mem (l := written) (n := 71) (by decide)), wr (List.getElem_mem (l := written) (n := 72) (by decide)), wr (List.getElem_mem (l := written) (n := 73) (by decide)), wr (List.getElem_mem (l := written) (n := 74) (by decide)), wr (List.getElem_mem (l := written) (n := 75) (by decide)), wr (List.getElem_mem (l := written) (n := 76) (by decide)), wr (List.getElem_mem (l := written) (n := 77) (by decide)), wr (List.getElem_mem (l := written) (n := 78) (by decide)), wr (List.getElem_mem (l := written) (n := 79) (by decide)), wr (List.getElem_mem (l := written) (n := 80) (by decide)), wr (List.getElem_mem (l := written) (n := 81) (by decide)), wr (List.getElem_mem (l := written) (n := 82) (by decide)), wr (List.getElem_mem (l := written) (n := 83) (by decide)), wr (List.getElem_mem (l := written) (n := 84) (by decide))⟩
set_option maxRecDepth 65536 in
theorem ops1_writes : (ops1 : List (HloOp τ sig (Elt F))).Forall fun op => op.writes ⊆ (written.map (Proc.devRef (τ := τ) .tc)).toFinset :=
  ⟨wr (List.getElem_mem (l := written) (n := 85) (by decide)), wr (List.getElem_mem (l := written) (n := 86) (by decide)), wr (List.getElem_mem (l := written) (n := 87) (by decide)), wr (List.getElem_mem (l := written) (n := 88) (by decide)), wr (List.getElem_mem (l := written) (n := 89) (by decide)), wr (List.getElem_mem (l := written) (n := 90) (by decide)), wr (List.getElem_mem (l := written) (n := 91) (by decide)), wr (List.getElem_mem (l := written) (n := 92) (by decide)), wr (List.getElem_mem (l := written) (n := 93) (by decide)), wr (List.getElem_mem (l := written) (n := 94) (by decide)), wr (List.getElem_mem (l := written) (n := 95) (by decide)), wr (List.getElem_mem (l := written) (n := 96) (by decide)), wr (List.getElem_mem (l := written) (n := 97) (by decide)), wr (List.getElem_mem (l := written) (n := 98) (by decide)), wr (List.getElem_mem (l := written) (n := 99) (by decide)), wr (List.getElem_mem (l := written) (n := 100) (by decide)), wr (List.getElem_mem (l := written) (n := 101) (by decide)), wr (List.getElem_mem (l := written) (n := 102) (by decide)), wr (List.getElem_mem (l := written) (n := 103) (by decide)), wr (List.getElem_mem (l := written) (n := 104) (by decide)), wr (List.getElem_mem (l := written) (n := 105) (by decide)), wr (List.getElem_mem (l := written) (n := 106) (by decide)), wr (List.getElem_mem (l := written) (n := 107) (by decide)), wr (List.getElem_mem (l := written) (n := 108) (by decide)), wr (List.getElem_mem (l := written) (n := 109) (by decide)), wr (List.getElem_mem (l := written) (n := 110) (by decide)), wr (List.getElem_mem (l := written) (n := 111) (by decide)), wr (List.getElem_mem (l := written) (n := 112) (by decide)), wr (List.getElem_mem (l := written) (n := 113) (by decide)), wr (List.getElem_mem (l := written) (n := 114) (by decide)), wr (List.getElem_mem (l := written) (n := 115) (by decide)), wr (List.getElem_mem (l := written) (n := 116) (by decide)), wr (List.getElem_mem (l := written) (n := 117) (by decide)), wr (List.getElem_mem (l := written) (n := 118) (by decide)), wr (List.getElem_mem (l := written) (n := 119) (by decide)), wr (List.getElem_mem (l := written) (n := 120) (by decide)), wr (List.getElem_mem (l := written) (n := 121) (by decide)), wr (List.getElem_mem (l := written) (n := 122) (by decide)), wr (List.getElem_mem (l := written) (n := 123) (by decide)), wr (List.getElem_mem (l := written) (n := 124) (by decide)), wr (List.getElem_mem (l := written) (n := 125) (by decide)), wr (List.getElem_mem (l := written) (n := 126) (by decide)), wr (List.getElem_mem (l := written) (n := 127) (by decide)), wr (List.getElem_mem (l := written) (n := 128) (by decide)), wr (List.getElem_mem (l := written) (n := 129) (by decide)), wr (List.getElem_mem (l := written) (n := 130) (by decide)), wr (List.getElem_mem (l := written) (n := 131) (by decide)), wr (List.getElem_mem (l := written) (n := 132) (by decide)), wr (List.getElem_mem (l := written) (n := 133) (by decide)), wr (List.getElem_mem (l := written) (n := 134) (by decide)), wr (List.getElem_mem (l := written) (n := 135) (by decide)), wr (List.getElem_mem (l := written) (n := 136) (by decide)), wr (List.getElem_mem (l := written) (n := 137) (by decide)), wr (List.getElem_mem (l := written) (n := 138) (by decide)), wr (List.getElem_mem (l := written) (n := 139) (by decide)), wr (List.getElem_mem (l := written) (n := 140) (by decide)), wr (List.getElem_mem (l := written) (n := 141) (by decide)), wr (List.getElem_mem (l := written) (n := 142) (by decide)), wr (List.getElem_mem (l := written) (n := 143) (by decide)), wr (List.getElem_mem (l := written) (n := 144) (by decide)), wr (List.getElem_mem (l := written) (n := 145) (by decide)), wr (List.getElem_mem (l := written) (n := 146) (by decide)), wr (List.getElem_mem (l := written) (n := 147) (by decide)), wr (List.getElem_mem (l := written) (n := 148) (by decide)), wr (List.getElem_mem (l := written) (n := 149) (by decide)), wr (List.getElem_mem (l := written) (n := 150) (by decide)), wr (List.getElem_mem (l := written) (n := 151) (by decide)), wr (List.getElem_mem (l := written) (n := 152) (by decide)), wr (List.getElem_mem (l := written) (n := 153) (by decide)), wr (List.getElem_mem (l := written) (n := 154) (by decide)), wr (List.getElem_mem (l := written) (n := 155) (by decide)), wr (List.getElem_mem (l := written) (n := 156) (by decide)), wr (List.getElem_mem (l := written) (n := 157) (by decide)), wr (List.getElem_mem (l := written) (n := 158) (by decide)), wr (List.getElem_mem (l := written) (n := 159) (by decide)), wr (List.getElem_mem (l := written) (n := 160) (by decide)), wr (List.getElem_mem (l := written) (n := 161) (by decide)), wr (List.getElem_mem (l := written) (n := 162) (by decide)), wr (List.getElem_mem (l := written) (n := 163) (by decide)), wr (List.getElem_mem (l := written) (n := 164) (by decide)), wr (List.getElem_mem (l := written) (n := 165) (by decide)), wr (List.getElem_mem (l := written) (n := 166) (by decide)), wr (List.getElem_mem (l := written) (n := 167) (by decide)), wr (List.getElem_mem (l := written) (n := 168) (by decide)), wr (List.getElem_mem (l := written) (n := 169) (by decide)), wr (List.getElem_mem (l := written) (n := 170) (by decide)), wr (List.getElem_mem (l := written) (n := 171) (by decide))⟩
set_option maxRecDepth 65536 in
theorem ops2_writes : (ops2 : List (HloOp τ sig (Elt F))).Forall fun op => op.writes ⊆ (written.map (Proc.devRef (τ := τ) .tc)).toFinset :=
  ⟨wr (List.getElem_mem (l := written) (n := 172) (by decide)), wr (List.getElem_mem (l := written) (n := 173) (by decide)), wr (List.getElem_mem (l := written) (n := 174) (by decide)), wr (List.getElem_mem (l := written) (n := 175) (by decide)), wr (List.getElem_mem (l := written) (n := 176) (by decide)), wr (List.getElem_mem (l := written) (n := 177) (by decide)), wr (List.getElem_mem (l := written) (n := 178) (by decide)), wr (List.getElem_mem (l := written) (n := 179) (by decide)), wr (List.getElem_mem (l := written) (n := 180) (by decide)), wr (List.getElem_mem (l := written) (n := 181) (by decide)), wr (List.getElem_mem (l := written) (n := 182) (by decide)), wr (List.getElem_mem (l := written) (n := 183) (by decide)), wr (List.getElem_mem (l := written) (n := 184) (by decide)), wr (List.getElem_mem (l := written) (n := 185) (by decide)), wr (List.getElem_mem (l := written) (n := 186) (by decide)), wr (List.getElem_mem (l := written) (n := 187) (by decide)), wr (List.getElem_mem (l := written) (n := 188) (by decide)), wr (List.getElem_mem (l := written) (n := 189) (by decide)), wr (List.getElem_mem (l := written) (n := 190) (by decide)), wr (List.getElem_mem (l := written) (n := 191) (by decide)), wr (List.getElem_mem (l := written) (n := 192) (by decide)), wr (List.getElem_mem (l := written) (n := 193) (by decide)), wr (List.getElem_mem (l := written) (n := 194) (by decide)), wr (List.getElem_mem (l := written) (n := 195) (by decide)), wr (List.getElem_mem (l := written) (n := 196) (by decide)), wr (List.getElem_mem (l := written) (n := 197) (by decide)), wr (List.getElem_mem (l := written) (n := 198) (by decide)), wr (List.getElem_mem (l := written) (n := 199) (by decide)), wr (List.getElem_mem (l := written) (n := 200) (by decide)), wr (List.getElem_mem (l := written) (n := 201) (by decide)), wr (List.getElem_mem (l := written) (n := 202) (by decide)), wr (List.getElem_mem (l := written) (n := 203) (by decide)), wr (List.getElem_mem (l := written) (n := 204) (by decide)), wr (List.getElem_mem (l := written) (n := 205) (by decide)), wr (List.getElem_mem (l := written) (n := 206) (by decide)), wr (List.getElem_mem (l := written) (n := 207) (by decide)), wr (List.getElem_mem (l := written) (n := 208) (by decide)), wr (List.getElem_mem (l := written) (n := 209) (by decide)), wr (List.getElem_mem (l := written) (n := 210) (by decide)), wr (List.getElem_mem (l := written) (n := 211) (by decide)), wr (List.getElem_mem (l := written) (n := 212) (by decide)), wr (List.getElem_mem (l := written) (n := 213) (by decide)), wr (List.getElem_mem (l := written) (n := 214) (by decide)), wr (List.getElem_mem (l := written) (n := 215) (by decide)), wr (List.getElem_mem (l := written) (n := 216) (by decide)), wr (List.getElem_mem (l := written) (n := 217) (by decide)), wr (List.getElem_mem (l := written) (n := 218) (by decide)), wr (List.getElem_mem (l := written) (n := 219) (by decide)), wr (List.getElem_mem (l := written) (n := 220) (by decide)), wr (List.getElem_mem (l := written) (n := 221) (by decide)), wr (List.getElem_mem (l := written) (n := 222) (by decide)), wr (List.getElem_mem (l := written) (n := 223) (by decide)), wr (List.getElem_mem (l := written) (n := 224) (by decide)), wr (List.getElem_mem (l := written) (n := 225) (by decide)), wr (List.getElem_mem (l := written) (n := 226) (by decide)), wr (List.getElem_mem (l := written) (n := 227) (by decide)), wr (List.getElem_mem (l := written) (n := 228) (by decide)), wr (List.getElem_mem (l := written) (n := 229) (by decide)), wr (List.getElem_mem (l := written) (n := 230) (by decide)), wr (List.getElem_mem (l := written) (n := 231) (by decide)), wr (List.getElem_mem (l := written) (n := 232) (by decide)), wr (List.getElem_mem (l := written) (n := 233) (by decide)), wr (List.getElem_mem (l := written) (n := 234) (by decide)), wr (List.getElem_mem (l := written) (n := 235) (by decide))⟩
set_option maxRecDepth 65536 in
theorem ops3_writes : (ops3 : List (HloOp τ sig (Elt F))).Forall fun op => op.writes ⊆ (written.map (Proc.devRef (τ := τ) .tc)).toFinset :=
  ⟨wr (List.getElem_mem (l := written) (n := 236) (by decide)), wr (List.getElem_mem (l := written) (n := 237) (by decide)), wr (List.getElem_mem (l := written) (n := 238) (by decide)), wr (List.getElem_mem (l := written) (n := 239) (by decide)), wr (List.getElem_mem (l := written) (n := 240) (by decide)), wr (List.getElem_mem (l := written) (n := 241) (by decide)), wr (List.getElem_mem (l := written) (n := 242) (by decide)), wr (List.getElem_mem (l := written) (n := 243) (by decide)), wr (List.getElem_mem (l := written) (n := 244) (by decide)), wr (List.getElem_mem (l := written) (n := 245) (by decide)), wr (List.getElem_mem (l := written) (n := 246) (by decide)), wr (List.getElem_mem (l := written) (n := 247) (by decide)), wr (List.getElem_mem (l := written) (n := 248) (by decide)), wr (List.getElem_mem (l := written) (n := 249) (by decide)), wr (List.getElem_mem (l := written) (n := 250) (by decide)), wr (List.getElem_mem (l := written) (n := 251) (by decide)), wr (List.getElem_mem (l := written) (n := 252) (by decide)), wr (List.getElem_mem (l := written) (n := 253) (by decide)), wr (List.getElem_mem (l := written) (n := 254) (by decide)), wr (List.getElem_mem (l := written) (n := 255) (by decide)), wr (List.getElem_mem (l := written) (n := 256) (by decide)), wr (List.getElem_mem (l := written) (n := 257) (by decide)), wr (List.getElem_mem (l := written) (n := 258) (by decide)), wr (List.getElem_mem (l := written) (n := 259) (by decide)), wr (List.getElem_mem (l := written) (n := 260) (by decide)), wr (List.getElem_mem (l := written) (n := 261) (by decide)), wr (List.getElem_mem (l := written) (n := 262) (by decide)), wr (List.getElem_mem (l := written) (n := 263) (by decide)), wr (List.getElem_mem (l := written) (n := 264) (by decide)), wr (List.getElem_mem (l := written) (n := 265) (by decide)), wr (List.getElem_mem (l := written) (n := 266) (by decide)), wr (List.getElem_mem (l := written) (n := 267) (by decide)), wr (List.getElem_mem (l := written) (n := 268) (by decide)), wr (List.getElem_mem (l := written) (n := 269) (by decide)), wr (List.getElem_mem (l := written) (n := 270) (by decide)), wr (List.getElem_mem (l := written) (n := 271) (by decide)), wr (List.getElem_mem (l := written) (n := 272) (by decide)), wr (List.getElem_mem (l := written) (n := 273) (by decide)), wr (List.getElem_mem (l := written) (n := 274) (by decide)), wr (List.getElem_mem (l := written) (n := 275) (by decide)), wr (List.getElem_mem (l := written) (n := 276) (by decide)), wr (List.getElem_mem (l := written) (n := 277) (by decide)), wr (List.getElem_mem (l := written) (n := 278) (by decide)), wr (List.getElem_mem (l := written) (n := 279) (by decide)), wr (List.getElem_mem (l := written) (n := 280) (by decide)), wr (List.getElem_mem (l := written) (n := 281) (by decide)), wr (List.getElem_mem (l := written) (n := 282) (by decide)), wr (List.getElem_mem (l := written) (n := 283) (by decide)), wr (List.getElem_mem (l := written) (n := 284) (by decide)), wr (List.getElem_mem (l := written) (n := 285) (by decide)), wr (List.getElem_mem (l := written) (n := 286) (by decide)), wr (List.getElem_mem (l := written) (n := 287) (by decide)), wr (List.getElem_mem (l := written) (n := 288) (by decide)), wr (List.getElem_mem (l := written) (n := 289) (by decide)), wr (List.getElem_mem (l := written) (n := 290) (by decide)), wr (List.getElem_mem (l := written) (n := 291) (by decide)), wr (List.getElem_mem (l := written) (n := 292) (by decide)), wr (List.getElem_mem (l := written) (n := 293) (by decide)), wr (List.getElem_mem (l := written) (n := 294) (by decide)), wr (List.getElem_mem (l := written) (n := 295) (by decide)), wr (List.getElem_mem (l := written) (n := 296) (by decide)), wr (List.getElem_mem (l := written) (n := 297) (by decide)), wr (List.getElem_mem (l := written) (n := 298) (by decide)), wr (List.getElem_mem (l := written) (n := 299) (by decide)), wr (List.getElem_mem (l := written) (n := 300) (by decide)), wr (List.getElem_mem (l := written) (n := 301) (by decide)), wr (List.getElem_mem (l := written) (n := 302) (by decide)), wr (List.getElem_mem (l := written) (n := 303) (by decide)), wr (List.getElem_mem (l := written) (n := 304) (by decide)), wr (List.getElem_mem (l := written) (n := 305) (by decide)), wr (List.getElem_mem (l := written) (n := 306) (by decide)), wr (List.getElem_mem (l := written) (n := 307) (by decide)), wr (List.getElem_mem (l := written) (n := 308) (by decide)), wr (List.getElem_mem (l := written) (n := 309) (by decide)), wr (List.getElem_mem (l := written) (n := 310) (by decide)), wr (List.getElem_mem (l := written) (n := 311) (by decide)), wr (List.getElem_mem (l := written) (n := 312) (by decide)), wr (List.getElem_mem (l := written) (n := 313) (by decide)), wr (List.getElem_mem (l := written) (n := 314) (by decide)), wr (List.getElem_mem (l := written) (n := 315) (by decide)), wr (List.getElem_mem (l := written) (n := 316) (by decide)), wr (List.getElem_mem (l := written) (n := 317) (by decide)), wr (List.getElem_mem (l := written) (n := 318) (by decide)), wr (List.getElem_mem (l := written) (n := 319) (by decide)), wr (List.getElem_mem (l := written) (n := 320) (by decide))⟩
set_option maxRecDepth 65536 in
theorem ops4_writes : (ops4 : List (HloOp τ sig (Elt F))).Forall fun op => op.writes ⊆ (written.map (Proc.devRef (τ := τ) .tc)).toFinset :=
  ⟨wr (List.getElem_mem (l := written) (n := 321) (by decide)), wr (List.getElem_mem (l := written) (n := 322) (by decide)), wr (List.getElem_mem (l := written) (n := 323) (by decide)), wr (List.getElem_mem (l := written) (n := 324) (by decide)), wr (List.getElem_mem (l := written) (n := 325) (by decide)), wr (List.getElem_mem (l := written) (n := 326) (by decide)), wr (List.getElem_mem (l := written) (n := 327) (by decide)), wr (List.getElem_mem (l := written) (n := 328) (by decide)), wr (List.getElem_mem (l := written) (n := 329) (by decide)), wr (List.getElem_mem (l := written) (n := 330) (by decide)), wr (List.getElem_mem (l := written) (n := 331) (by decide)), wr (List.getElem_mem (l := written) (n := 332) (by decide)), wr (List.getElem_mem (l := written) (n := 333) (by decide)), wr (List.getElem_mem (l := written) (n := 334) (by decide)), wr (List.getElem_mem (l := written) (n := 335) (by decide)), wr (List.getElem_mem (l := written) (n := 336) (by decide)), wr (List.getElem_mem (l := written) (n := 337) (by decide)), wr (List.getElem_mem (l := written) (n := 338) (by decide)), wr (List.getElem_mem (l := written) (n := 339) (by decide)), wr (List.getElem_mem (l := written) (n := 340) (by decide)), wr (List.getElem_mem (l := written) (n := 341) (by decide)), wr (List.getElem_mem (l := written) (n := 342) (by decide)), wr (List.getElem_mem (l := written) (n := 343) (by decide)), wr (List.getElem_mem (l := written) (n := 344) (by decide)), wr (List.getElem_mem (l := written) (n := 345) (by decide)), wr (List.getElem_mem (l := written) (n := 346) (by decide)), wr (List.getElem_mem (l := written) (n := 347) (by decide)), wr (List.getElem_mem (l := written) (n := 348) (by decide)), wr (List.getElem_mem (l := written) (n := 349) (by decide)), wr (List.getElem_mem (l := written) (n := 350) (by decide)), wr (List.getElem_mem (l := written) (n := 351) (by decide)), wr (List.getElem_mem (l := written) (n := 352) (by decide)), wr (List.getElem_mem (l := written) (n := 353) (by decide)), wr (List.getElem_mem (l := written) (n := 354) (by decide)), wr (List.getElem_mem (l := written) (n := 355) (by decide)), wr (List.getElem_mem (l := written) (n := 356) (by decide)), wr (List.getElem_mem (l := written) (n := 357) (by decide)), wr (List.getElem_mem (l := written) (n := 358) (by decide)), wr (List.getElem_mem (l := written) (n := 359) (by decide)), wr (List.getElem_mem (l := written) (n := 360) (by decide)), wr (List.getElem_mem (l := written) (n := 361) (by decide)), wr (List.getElem_mem (l := written) (n := 362) (by decide)), wr (List.getElem_mem (l := written) (n := 363) (by decide)), wr (List.getElem_mem (l := written) (n := 364) (by decide)), wr (List.getElem_mem (l := written) (n := 365) (by decide)), wr (List.getElem_mem (l := written) (n := 366) (by decide)), wr (List.getElem_mem (l := written) (n := 367) (by decide)), wr (List.getElem_mem (l := written) (n := 368) (by decide)), wr (List.getElem_mem (l := written) (n := 369) (by decide)), wr (List.getElem_mem (l := written) (n := 370) (by decide)), wr (List.getElem_mem (l := written) (n := 371) (by decide)), wr (List.getElem_mem (l := written) (n := 372) (by decide)), wr (List.getElem_mem (l := written) (n := 373) (by decide)), wr (List.getElem_mem (l := written) (n := 374) (by decide)), wr (List.getElem_mem (l := written) (n := 375) (by decide)), wr (List.getElem_mem (l := written) (n := 376) (by decide)), wr (List.getElem_mem (l := written) (n := 377) (by decide)), wr (List.getElem_mem (l := written) (n := 378) (by decide)), wr (List.getElem_mem (l := written) (n := 379) (by decide)), wr (List.getElem_mem (l := written) (n := 380) (by decide)), wr (List.getElem_mem (l := written) (n := 381) (by decide)), wr (List.getElem_mem (l := written) (n := 382) (by decide)), wr (List.getElem_mem (l := written) (n := 383) (by decide)), wr (List.getElem_mem (l := written) (n := 384) (by decide)), wr (List.getElem_mem (l := written) (n := 385) (by decide)), wr (List.getElem_mem (l := written) (n := 386) (by decide)), wr (List.getElem_mem (l := written) (n := 387) (by decide)), wr (List.getElem_mem (l := written) (n := 388) (by decide)), wr (List.getElem_mem (l := written) (n := 389) (by decide)), wr (List.getElem_mem (l := written) (n := 390) (by decide)), wr (List.getElem_mem (l := written) (n := 391) (by decide)), wr (List.getElem_mem (l := written) (n := 392) (by decide)), wr (List.getElem_mem (l := written) (n := 393) (by decide)), wr (List.getElem_mem (l := written) (n := 394) (by decide)), wr (List.getElem_mem (l := written) (n := 395) (by decide)), wr (List.getElem_mem (l := written) (n := 396) (by decide)), wr (List.getElem_mem (l := written) (n := 397) (by decide)), wr (List.getElem_mem (l := written) (n := 398) (by decide)), wr (List.getElem_mem (l := written) (n := 399) (by decide)), wr (List.getElem_mem (l := written) (n := 400) (by decide)), wr (List.getElem_mem (l := written) (n := 401) (by decide)), wr (List.getElem_mem (l := written) (n := 402) (by decide)), wr (List.getElem_mem (l := written) (n := 403) (by decide)), wr (List.getElem_mem (l := written) (n := 404) (by decide)), wr (List.getElem_mem (l := written) (n := 405) (by decide)), wr (List.getElem_mem (l := written) (n := 406) (by decide)), wr (List.getElem_mem (l := written) (n := 407) (by decide))⟩
set_option maxRecDepth 65536 in
theorem ops5_writes : (ops5 : List (HloOp τ sig (Elt F))).Forall fun op => op.writes ⊆ (written.map (Proc.devRef (τ := τ) .tc)).toFinset :=
  ⟨wr (List.getElem_mem (l := written) (n := 408) (by decide)), wr (List.getElem_mem (l := written) (n := 409) (by decide)), wr (List.getElem_mem (l := written) (n := 410) (by decide)), wr (List.getElem_mem (l := written) (n := 411) (by decide)), wr (List.getElem_mem (l := written) (n := 412) (by decide)), wr (List.getElem_mem (l := written) (n := 413) (by decide)), wr (List.getElem_mem (l := written) (n := 414) (by decide)), wr (List.getElem_mem (l := written) (n := 415) (by decide)), wr (List.getElem_mem (l := written) (n := 416) (by decide)), wr (List.getElem_mem (l := written) (n := 417) (by decide)), wr (List.getElem_mem (l := written) (n := 418) (by decide)), wr (List.getElem_mem (l := written) (n := 419) (by decide)), wr (List.getElem_mem (l := written) (n := 420) (by decide)), wr (List.getElem_mem (l := written) (n := 421) (by decide)), wr (List.getElem_mem (l := written) (n := 422) (by decide)), wr (List.getElem_mem (l := written) (n := 423) (by decide)), wr (List.getElem_mem (l := written) (n := 424) (by decide)), wr (List.getElem_mem (l := written) (n := 425) (by decide)), wr (List.getElem_mem (l := written) (n := 426) (by decide)), wr (List.getElem_mem (l := written) (n := 427) (by decide)), wr (List.getElem_mem (l := written) (n := 428) (by decide)), wr (List.getElem_mem (l := written) (n := 429) (by decide)), wr (List.getElem_mem (l := written) (n := 430) (by decide)), wr (List.getElem_mem (l := written) (n := 431) (by decide)), wr (List.getElem_mem (l := written) (n := 432) (by decide)), wr (List.getElem_mem (l := written) (n := 433) (by decide)), wr (List.getElem_mem (l := written) (n := 434) (by decide)), wr (List.getElem_mem (l := written) (n := 435) (by decide)), wr (List.getElem_mem (l := written) (n := 436) (by decide)), wr (List.getElem_mem (l := written) (n := 437) (by decide)), wr (List.getElem_mem (l := written) (n := 438) (by decide)), wr (List.getElem_mem (l := written) (n := 439) (by decide)), wr (List.getElem_mem (l := written) (n := 440) (by decide)), wr (List.getElem_mem (l := written) (n := 441) (by decide)), wr (List.getElem_mem (l := written) (n := 442) (by decide)), wr (List.getElem_mem (l := written) (n := 443) (by decide)), wr (List.getElem_mem (l := written) (n := 444) (by decide)), wr (List.getElem_mem (l := written) (n := 445) (by decide)), wr (List.getElem_mem (l := written) (n := 446) (by decide)), wr (List.getElem_mem (l := written) (n := 447) (by decide)), wr (List.getElem_mem (l := written) (n := 448) (by decide)), wr (List.getElem_mem (l := written) (n := 449) (by decide)), wr (List.getElem_mem (l := written) (n := 450) (by decide)), wr (List.getElem_mem (l := written) (n := 451) (by decide)), wr (List.getElem_mem (l := written) (n := 452) (by decide)), wr (List.getElem_mem (l := written) (n := 453) (by decide)), wr (List.getElem_mem (l := written) (n := 454) (by decide)), wr (List.getElem_mem (l := written) (n := 455) (by decide)), wr (List.getElem_mem (l := written) (n := 456) (by decide)), wr (List.getElem_mem (l := written) (n := 457) (by decide)), wr (List.getElem_mem (l := written) (n := 458) (by decide)), wr (List.getElem_mem (l := written) (n := 459) (by decide)), wr (List.getElem_mem (l := written) (n := 460) (by decide)), wr (List.getElem_mem (l := written) (n := 461) (by decide)), wr (List.getElem_mem (l := written) (n := 462) (by decide)), wr (List.getElem_mem (l := written) (n := 463) (by decide)), wr (List.getElem_mem (l := written) (n := 464) (by decide)), wr (List.getElem_mem (l := written) (n := 465) (by decide)), wr (List.getElem_mem (l := written) (n := 466) (by decide)), wr (List.getElem_mem (l := written) (n := 467) (by decide)), wr (List.getElem_mem (l := written) (n := 468) (by decide)), wr (List.getElem_mem (l := written) (n := 469) (by decide)), wr (List.getElem_mem (l := written) (n := 470) (by decide)), wr (List.getElem_mem (l := written) (n := 471) (by decide)), wr (List.getElem_mem (l := written) (n := 472) (by decide)), wr (List.getElem_mem (l := written) (n := 473) (by decide)), wr (List.getElem_mem (l := written) (n := 474) (by decide)), wr (List.getElem_mem (l := written) (n := 475) (by decide)), wr (List.getElem_mem (l := written) (n := 476) (by decide)), wr (List.getElem_mem (l := written) (n := 477) (by decide)), wr (List.getElem_mem (l := written) (n := 478) (by decide)), wr (List.getElem_mem (l := written) (n := 479) (by decide)), wr (List.getElem_mem (l := written) (n := 480) (by decide)), wr (List.getElem_mem (l := written) (n := 481) (by decide)), wr (List.getElem_mem (l := written) (n := 482) (by decide)), wr (List.getElem_mem (l := written) (n := 483) (by decide)), wr (List.getElem_mem (l := written) (n := 484) (by decide)), wr (List.getElem_mem (l := written) (n := 485) (by decide)), wr (List.getElem_mem (l := written) (n := 486) (by decide)), wr (List.getElem_mem (l := written) (n := 487) (by decide)), wr (List.getElem_mem (l := written) (n := 488) (by decide)), wr (List.getElem_mem (l := written) (n := 489) (by decide)), wr (List.getElem_mem (l := written) (n := 490) (by decide)), wr (List.getElem_mem (l := written) (n := 491) (by decide)), wr (List.getElem_mem (l := written) (n := 492) (by decide))⟩
set_option maxRecDepth 65536 in
theorem ops6_writes : (ops6 : List (HloOp τ sig (Elt F))).Forall fun op => op.writes ⊆ (written.map (Proc.devRef (τ := τ) .tc)).toFinset :=
  ⟨wr (List.getElem_mem (l := written) (n := 493) (by decide)), wr (List.getElem_mem (l := written) (n := 494) (by decide)), wr (List.getElem_mem (l := written) (n := 495) (by decide)), wr (List.getElem_mem (l := written) (n := 496) (by decide)), wr (List.getElem_mem (l := written) (n := 497) (by decide)), wr (List.getElem_mem (l := written) (n := 498) (by decide)), wr (List.getElem_mem (l := written) (n := 499) (by decide)), wr (List.getElem_mem (l := written) (n := 500) (by decide)), wr (List.getElem_mem (l := written) (n := 501) (by decide)), wr (List.getElem_mem (l := written) (n := 502) (by decide)), wr (List.getElem_mem (l := written) (n := 503) (by decide)), wr (List.getElem_mem (l := written) (n := 504) (by decide)), wr (List.getElem_mem (l := written) (n := 505) (by decide)), wr (List.getElem_mem (l := written) (n := 506) (by decide)), wr (List.getElem_mem (l := written) (n := 507) (by decide)), wr (List.getElem_mem (l := written) (n := 508) (by decide)), wr (List.getElem_mem (l := written) (n := 509) (by decide)), wr (List.getElem_mem (l := written) (n := 510) (by decide)), wr (List.getElem_mem (l := written) (n := 511) (by decide)), wr (List.getElem_mem (l := written) (n := 512) (by decide)), wr (List.getElem_mem (l := written) (n := 513) (by decide)), wr (List.getElem_mem (l := written) (n := 514) (by decide)), wr (List.getElem_mem (l := written) (n := 515) (by decide)), wr (List.getElem_mem (l := written) (n := 516) (by decide)), wr (List.getElem_mem (l := written) (n := 517) (by decide)), wr (List.getElem_mem (l := written) (n := 518) (by decide)), wr (List.getElem_mem (l := written) (n := 519) (by decide)), wr (List.getElem_mem (l := written) (n := 520) (by decide)), wr (List.getElem_mem (l := written) (n := 521) (by decide)), wr (List.getElem_mem (l := written) (n := 522) (by decide)), wr (List.getElem_mem (l := written) (n := 523) (by decide)), wr (List.getElem_mem (l := written) (n := 524) (by decide)), wr (List.getElem_mem (l := written) (n := 525) (by decide)), wr (List.getElem_mem (l := written) (n := 526) (by decide)), wr (List.getElem_mem (l := written) (n := 527) (by decide)), wr (List.getElem_mem (l := written) (n := 528) (by decide)), wr (List.getElem_mem (l := written) (n := 529) (by decide)), wr (List.getElem_mem (l := written) (n := 530) (by decide)), wr (List.getElem_mem (l := written) (n := 531) (by decide)), wr (List.getElem_mem (l := written) (n := 532) (by decide)), wr (List.getElem_mem (l := written) (n := 533) (by decide))⟩

theorem ops_writes : (ops : List (HloOp τ sig (Elt F))).Forall fun op => op.writes ⊆ (written.map (Proc.devRef (τ := τ) .tc)).toFinset := by
  refine List.forall_iff_forall_mem.mpr fun op h => ?_
  rcases List.mem_append.mp h with h | h
  swap; · exact List.forall_iff_forall_mem.mp ops6_writes op h
  rcases List.mem_append.mp h with h | h
  swap; · exact List.forall_iff_forall_mem.mp ops5_writes op h
  rcases List.mem_append.mp h with h | h
  swap; · exact List.forall_iff_forall_mem.mp ops4_writes op h
  rcases List.mem_append.mp h with h | h
  swap; · exact List.forall_iff_forall_mem.mp ops3_writes op h
  rcases List.mem_append.mp h with h | h
  swap; · exact List.forall_iff_forall_mem.mp ops2_writes op h
  rcases List.mem_append.mp h with h | h
  swap; · exact List.forall_iff_forall_mem.mp ops1_writes op h
  exact List.forall_iff_forall_mem.mp ops0_writes op h

/-- A buffer no operation writes keeps its contents through the whole line. -/
theorem kept (V : Valuation τ sig (Elt F)) (r : Ref sig .tc) (hr : r ∉ written) :
    after ops V (Proc.devRef .tc r) = V (Proc.devRef .tc r) := after_of_writes_sub ops V ops_writes hr

/-- The reference runs, faults nowhere, and leaves its twenty-eight arguments as launched: none is ever written. -/
theorem frame : Cert.frame_ReferenceIdeal := fun m ρ _ =>
  (θ_run defs _ _).mono (fun r h c =>
    ⟨(h c main_arg0).trans (kept _ main_arg0 (by decide)), (h c main_arg1).trans (kept _ main_arg1 (by decide)), (h c main_arg2).trans (kept _ main_arg2 (by decide)), (h c main_arg3).trans (kept _ main_arg3 (by decide)), (h c main_arg4).trans (kept _ main_arg4 (by decide)), (h c main_arg5).trans (kept _ main_arg5 (by decide)), (h c main_arg6).trans (kept _ main_arg6 (by decide)), (h c main_arg7).trans (kept _ main_arg7 (by decide)), (h c main_arg8).trans (kept _ main_arg8 (by decide)), (h c main_arg9).trans (kept _ main_arg9 (by decide)), (h c main_arg10).trans (kept _ main_arg10 (by decide)), (h c main_arg11).trans (kept _ main_arg11 (by decide)), (h c main_arg12).trans (kept _ main_arg12 (by decide)), (h c main_arg13).trans (kept _ main_arg13 (by decide)), (h c main_arg14).trans (kept _ main_arg14 (by decide)), (h c main_arg15).trans (kept _ main_arg15 (by decide)), (h c main_arg16).trans (kept _ main_arg16 (by decide)), (h c main_arg17).trans (kept _ main_arg17 (by decide)), (h c main_arg18).trans (kept _ main_arg18 (by decide)), (h c main_arg19).trans (kept _ main_arg19 (by decide)), (h c main_arg20).trans (kept _ main_arg20 (by decide)), (h c main_arg21).trans (kept _ main_arg21 (by decide)), (h c main_arg22).trans (kept _ main_arg22 (by decide)), (h c main_arg23).trans (kept _ main_arg23 (by decide)), (h c main_arg24).trans (kept _ main_arg24 (by decide)), (h c main_arg25).trans (kept _ main_arg25 (by decide)), (h c main_arg26).trans (kept _ main_arg26 (by decide)), (h c main_arg27).trans (kept _ main_arg27 (by decide))⟩)
    (run_all (F := Ideal) m ρ)

end Cert.ReferenceIdeal.RefRun

end
-- ==== Proof.RefRead.lean ====
/- The reference's host operations read layer by layer: each chosen buffer of a layer as the composed term of the
   operations' functions over the layer's inputs, and the fold of the layer's operations leaving it there.
-/
import proofs.«162690_j78211354460181_1_alg».proof.Proof.RefRun
import Idealize.ShloMosaic.PureOps.Ideal

set_option Elab.async false

noncomputable section

namespace Cert.ReferenceIdeal.RefRead

open Idealize.ShloMosaic Idealize.ShloMosaic.TcCoe Idealize.SL.Sem Idealize.ShloMosaic.StableHlo Cert.ReferenceIdeal Cert.ReferenceIdeal.Gen

variable {F : FTy → Type} [FloatOps F]

/-- The operations of layer 0 (88 of them). -/
abbrev L0 : List (HloOp τ sig (Elt F)) :=
  [ StableHlo.unary main_arg26 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg26 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S100000x11_S600000x1_S600000x11_1_0_n_n_0_1_111 x i) : (⟨S100000x11, .f32⟩ : BufTy).Contents (Elt F) → (⟨S600000x1, .i32⟩ : BufTy).Contents (Elt F) → (⟨S600000x11, .f32⟩ : BufTy).Contents (Elt F)),
    StableHlo.binary main_arg1 main_arg2 main_v11 ((fun l r => Host.dotGeneral dot_S600000x3_S3x11_S600000x11_1_0_0_1_n_n none l r) : (⟨S600000x3, .f32⟩ : BufTy).Contents (Elt F) → (⟨S3x11, .f32⟩ : BufTy).Contents (Elt F) → (⟨S600000x11, .f32⟩ : BufTy).Contents (Elt F)),
    StableHlo.binary main_v10 main_v11 main_v12 (addf : (⟨S600000x11, .f32⟩ : BufTy).Contents (Elt F) → (⟨S600000x11, .f32⟩ : BufTy).Contents (Elt F) → (⟨S600000x11, .f32⟩ : BufTy).Contents (Elt F)),
    StableHlo.unary main_arg3 main_v13 (broadcastInDim S1x11 ![1] bcast_S11_S1x11_1 : (⟨S11, .f32⟩ : BufTy).Contents (Elt F) → (⟨S1x11, .f32⟩ : BufTy).Contents (Elt F)),
    StableHlo.unary main_v13 main_v14 (broadcastInDim S600000x11 ![0, 1] bcast_S1x11_S600000x11_0_1 : (⟨S1x11, .f32⟩ : BufTy).Contents (Elt F) → (⟨S600000x11, .f32⟩ : BufTy).Contents (Elt F)),
    StableHlo.binary main_v12 main_v14 main_v15 (addf : (⟨S600000x11, .f32⟩ : BufTy).Contents (Elt F) → (⟨S600000x11, .f32⟩ : BufTy).Contents (Elt F) → (⟨S600000x11, .f32⟩ : BufTy).Contents (Elt F)),
    StableHlo.TRef.nullary main_call0.cst (constant S_ .f32 0x00000000#32),
    StableHlo.TRef.unary main_call0.cst main_call0.v0 (broadcastInDim S600000x11 ![] bcast_S_S600000x11),
    StableHlo.TRef.binary (.of main_v15) main_call0.v0 main_call0.v1 maximumf,
    StableHlo.nullary main_cst (constant S_ .f32 0x00000000#32),
    StableHlo.unary main_cst main_v17 (broadcastInDim S100000x11 ![] bcast_S_S100000x11 : (⟨S_, .f32⟩ : BufTy).Contents (Elt F) → (⟨S100000x11, .f32⟩ : BufTy).Contents (Elt F)),
    StableHlo.unary main_v3 main_v18 (broadcastInDim S600000x1 ![0] bcast_S600000_S600000x1_0 : (⟨S600000, .i32⟩ : BufTy).Contents (Elt F) → (⟨S600000x1, .i32⟩ : BufTy).Contents (Elt F)),
    StableHlo.ternary main_v17 main_v18 main_v16 main_v19 ((fun x i u => Host.scatterAdd scatter_S100000x11_S600000x1_S600000x11_1_0_0_1 x i u) : (⟨S100000x11, .f32⟩ : BufTy).Contents (Elt F) → (⟨S600000x1, .i32⟩ : BufTy).Contents (Elt F) → (⟨S600000x11, .f32⟩ : BufTy).Contents (Elt F) → (⟨S100000x11, .f32⟩ : BufTy).Contents (Elt F)),
    StableHlo.nullary main_cst_1 (constant S_ .f32 0x3F800000#32),
    StableHlo.binary main_cst_1 main_arg10 main_v20 (addf : (⟨S_, .f32⟩ : BufTy).Contents (Elt F) → (⟨S_, .f32⟩ : BufTy).Contents (Elt F) → (⟨S_, .f32⟩ : BufTy).Contents (Elt F)),
    StableHlo.unary main_v20 main_v21 (broadcastInDim S100000x11 ![] bcast_S_S100000x11 : (⟨S_, .f32⟩ : BufTy).Contents (Elt F) → (⟨S100000x11, .f32⟩ : BufTy).Contents (Elt F)),
    StableHlo.binary main_v21 main_arg0 main_v22 (mulf : (⟨S100000x11, .f32⟩ : BufTy).Contents (Elt F) → (⟨S100000x11, .f32⟩ : BufTy).Contents (Elt F) → (⟨S100000x11, .f32⟩ : BufTy).Contents (Elt F)),
    StableHlo.binary main_v22 main_v19 main_v23 (addf : (⟨S100000x11, .f32⟩ : BufTy).Contents (Elt F) → (⟨S100000x11, .f32⟩ : BufTy).Contents (Elt F) → (⟨S100000x11, .f32⟩ : BufTy).Contents (Elt F)),
    StableHlo.binary main_v23 main_arg4 main_v24 ((fun l r => Host.dotGeneral dot_S100000x11_S11x128_S100000x128_1_0_0_1_n_n none l r) : (⟨S100000x11, .f32⟩ : BufTy).Contents (Elt F) → (⟨S11x128, .f32⟩ : BufTy).Contents (Elt F) → (⟨S100000x128, .f32⟩ : BufTy).Contents (Elt F)),
    StableHlo.unary main_arg5 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S100000x128 ![0, 1] bcast_S1x128_S100000x128_0_1 : (⟨S1x128, .f32⟩ : BufTy).Contents (Elt F) → (⟨S100000x128, .f32⟩ : BufTy).Contents (Elt F)),
    StableHlo.binary main_v24 main_v26 main_v27 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v27) main_call1.v0 main_call1.v1 maximumf,
    StableHlo.binary main_v28 main_arg6 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v29 main_v31 main_v32 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v32 main_cst_2 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call2.cst (constant S_ .f32 0x00000000#32),
    StableHlo.TRef.binary (.of main_v32) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v32) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v35 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v38 main_v39 (subf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v40 (broadcastInDim S128 ![] bcast_S_S128 : (⟨S_, .f32⟩ : BufTy).Contents (Elt F) → (⟨S128, .f32⟩ : BufTy).Contents (Elt F)),
    StableHlo.binary main_v36 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.rsqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v39 main_v44 main_v45 (mulf : (⟨S100000x128, .f32⟩ : BufTy).Contents (Elt F) → (⟨S100000x128, .f32⟩ : BufTy).Contents (Elt F) → (⟨S100000x128, .f32⟩ : BufTy).Contents (Elt F)),
    StableHlo.unary main_arg8 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (mulf : (⟨S100000x128, .f32⟩ : BufTy).Contents (Elt F) → (⟨S100000x128, .f32⟩ : BufTy).Contents (Elt F) → (⟨S100000x128, .f32⟩ : BufTy).Contents (Elt F)),
    StableHlo.unary main_arg9 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S100000x128 ![0, 1] bcast_S1x128_S100000x128_0_1 : (⟨S1x128, .f32⟩ : BufTy).Contents (Elt F) → (⟨S100000x128, .f32⟩ : BufTy).Contents (Elt F)),
    StableHlo.binary main_v48 main_v50 main_v51 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v51) main_call3.v0 main_call3.v1 maximumf ]

/-- The value of main_v1 from the inputs of layer 0. -/
def r0_v1 {F : FTy → Type} [FloatOps F] (x_arg26 : IVec S2x600000 32) : IVec S600000 32 :=
  ((shapeCast _ (((((extractStridedSlice S1x600000 ![0, 0] · slices_S2x600000_S1x600000_0_0) : (⟨S2x600000, .i32⟩ : BufTy).Contents (Elt F) → (⟨S1x600000, .i32⟩ : BufTy).Contents (Elt F))) : (IVec S2x600000 32) → (IVec S1x600000 32)) x_arg26) shapeCasts_S1x600000_S600000) : IVec S600000 32)

/-- The value of main_v3 from the inputs of layer 0. -/
def r0_v3 {F : FTy → Type} [FloatOps F] (x_arg26 : IVec S2x600000 32) : IVec S600000 32 :=
  ((shapeCast _ (((((extractStridedSlice S1x600000 ![1, 0] · slices_S2x600000_S1x600000_1_0) : (⟨S2x600000, .i32⟩ : BufTy).Contents (Elt F) → (⟨S1x600000, .i32⟩ : BufTy).Contents (Elt F))) : (IVec S2x600000 32) → (IVec S1x600000 32)) x_arg26) shapeCasts_S1x600000_S600000) : IVec S600000 32)

/-- The value of main_v10 from the inputs of layer 0. -/
def r0_v10 {F : FTy → Type} [FloatOps F] (x_arg0 : FVec F S100000x11 .f32) (x_arg26 : IVec S2x600000 32) : FVec F S600000x11 .f32 :=
  (((((fun x i => Host.gather gather_S100000x11_S600000x1_S600000x11_1_0_n_n_0_1_111 x i) : (⟨S100000x11, .f32⟩ : BufTy).Contents (Elt F) → (⟨S600000x1, .i32⟩ : BufTy).Contents (Elt F) → (⟨S600000x11, .f32⟩ : BufTy).Contents (Elt F))) : (FVec F S100000x11 .f32) → (IVec S600000x1 32) → (FVec F S600000x11 .f32)) x_arg0 ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) ((((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) : (IVec S600000 1) → (IVec S600000 32) → (IVec S600000 32) → (IVec S600000 32)) ((((cmpi .slt : (⟨S600000, .i32⟩ : BufTy).Contents (Elt F) → (⟨S600000, .i32⟩ : BufTy).Contents (Elt F) → (⟨S600000, .i1⟩ : BufTy).Contents (Elt F))) : (IVec S600000 32) → (IVec S600000 32) → (IVec S600000 1)) (r0_v1 (F := F) x_arg26) ((((broadcastInDim S600000 ![] bcast_S_S600000 : (⟨S_, .i32⟩ : BufTy).Contents (Elt F) → (⟨S600000, .i32⟩ : BufTy).Contents (Elt F))) : (IVec S_ 32) → (IVec S600000 32)) (((constantI S_ 32 0#32)) : IVec S_ 32))) ((((addi : (⟨S600000, .i32⟩ : BufTy).Contents (Elt F) → (⟨S600000, .i32⟩ : BufTy).Contents (Elt F) → (⟨S600000, .i32⟩ : BufTy).Contents (Elt F))) : (IVec S600000 32) → (IVec S600000 32) → (IVec S600000 32)) (r0_v1 (F := F) x_arg26) ((((broadcastInDim S600000 ![] bcast_S_S600000 : (⟨S_, .i32⟩ : BufTy).Contents (Elt F) → (⟨S600000, .i32⟩ : BufTy).Contents (Elt F))) : (IVec S_ 32) → (IVec S600000 32)) (((constantI S_ 32 100000#32)) : IVec S_ 32))) (r0_v1 (F := F) x_arg26))))

/-- The value of main_v16 from the inputs of layer 0. -/
def r0_v16 {F : FTy → Type} [FloatOps F] (x_arg0 : FVec F S100000x11 .f32) (x_arg26 : IVec S2x600000 32) (x_arg1 : FVec F S600000x3 .f32) (x_arg2 : FVec F S3x11 .f32) (x_arg3 : FVec F S11 .f32) : FVec F S600000x11 .f32 :=
  (((maximumf) : (FVec F S600000x11 .f32) → (FVec F S600000x11 .f32) → (FVec F S600000x11 .f32)) ((((addf : (⟨S600000x11, .f32⟩ : BufTy).Contents (Elt F) → (⟨S600000x11, .f32⟩ : BufTy).Contents (Elt F) → (⟨S600000x11, .f32⟩ : BufTy).Contents (Elt F))) : (FVec F S600000x11 .f32) → (FVec F S600000x11 .f32) → (FVec F S600000x11 .f32)) ((((addf : (⟨S600000x11, .f32⟩ : BufTy).Contents (Elt F) → (⟨S600000x11, .f32⟩ : BufTy).Contents (Elt F) → (⟨S600000x11, .f32⟩ : BufTy).Contents (Elt F))) : (FVec F S600000x11 .f32) → (FVec F S600000x11 .f32) → (FVec F S600000x11 .f32)) (r0_v10 (F := F) x_arg0 x_arg26) (((((fun l r => Host.dotGeneral dot_S600000x3_S3x11_S600000x11_1_0_0_1_n_n none l r) : (⟨S600000x3, .f32⟩ : BufTy).Contents (Elt F) → (⟨S3x11, .f32⟩ : BufTy).Contents (Elt F) → (⟨S600000x11, .f32⟩ : BufTy).Contents (Elt F))) : (FVec F S600000x3 .f32) → (FVec F S3x11 .f32) → (FVec F S600000x11 .f32)) x_arg1 x_arg2)) ((((broadcastInDim S600000x11 ![0, 1] bcast_S1x11_S600000x11_0_1 : (⟨S1x11, .f32⟩ : BufTy).Contents (Elt F) → (⟨S600000x11, .f32⟩ : BufTy).Contents (Elt F))) : (FVec F S1x11 .f32) → (FVec F S600000x11 .f32)) ((((broadcastInDim S1x11 ![1] bcast_S11_S1x11_1 : (⟨S11, .f32⟩ : BufTy).Contents (Elt F) → (⟨S1x11, .f32⟩ : BufTy).Contents (Elt F))) : (FVec F S11 .f32) → (FVec F S1x11 .f32)) x_arg3))) ((((broadcastInDim S600000x11 ![] bcast_S_S600000x11)) : (FVec F S_ .f32) → (FVec F S600000x11 .f32)) (((constant S_ .f32 0x00000000#32)) : FVec F S_ .f32)))

/-- The value of main_v19 from the inputs of layer 0. -/
def r0_v19 {F : FTy → Type} [FloatOps F] (x_arg26 : IVec S2x600000 32) (x_arg0 : FVec F S100000x11 .f32) (x_arg1 : FVec F S600000x3 .f32) (x_arg2 : FVec F S3x11 .f32) (x_arg3 : FVec F S11 .f32) : FVec F S100000x11 .f32 :=
  (((((fun x i u => Host.scatterAdd scatter_S100000x11_S600000x1_S600000x11_1_0_0_1 x i u) : (⟨S100000x11, .f32⟩ : BufTy).Contents (Elt F) → (⟨S600000x1, .i32⟩ : BufTy).Contents (Elt F) → (⟨S600000x11, .f32⟩ : BufTy).Contents (Elt F) → (⟨S100000x11, .f32⟩ : BufTy).Contents (Elt F))) : (FVec F S100000x11 .f32) → (IVec S600000x1 32) → (FVec F S600000x11 .f32) → (FVec F S100000x11 .f32)) ((((broadcastInDim S100000x11 ![] bcast_S_S100000x11 : (⟨S_, .f32⟩ : BufTy).Contents (Elt F) → (⟨S100000x11, .f32⟩ : BufTy).Contents (Elt F))) : (FVec F S_ .f32) → (FVec F S100000x11 .f32)) (((constant S_ .f32 0x00000000#32)) : FVec F S_ .f32)) ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) (r0_v3 (F := F) x_arg26)) (r0_v16 (F := F) x_arg0 x_arg26 x_arg1 x_arg2 x_arg3))

/-- The value of main_v32 from the inputs of layer 0. -/
def r0_v32 {F : FTy → Type} [FloatOps F] (x_arg10 : FVec F S_ .f32) (x_arg0 : FVec F S100000x11 .f32) (x_arg26 : IVec S2x600000 32) (x_arg1 : FVec F S600000x3 .f32) (x_arg2 : FVec F S3x11 .f32) (x_arg3 : FVec F S11 .f32) (x_arg4 : FVec F S11x128 .f32) (x_arg5 : FVec F S128 .f32) (x_arg6 : FVec F S128x128 .f32) (x_arg7 : FVec F S128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x11_S11x128_S100000x128_1_0_0_1_n_n none l r) : (⟨S100000x11, .f32⟩ : BufTy).Contents (Elt F) → (⟨S11x128, .f32⟩ : BufTy).Contents (Elt F) → (⟨S100000x128, .f32⟩ : BufTy).Contents (Elt F))) : (FVec F S100000x11 .f32) → (FVec F S11x128 .f32) → (FVec F S100000x128 .f32)) ((((addf : (⟨S100000x11, .f32⟩ : BufTy).Contents (Elt F) → (⟨S100000x11, .f32⟩ : BufTy).Contents (Elt F) → (⟨S100000x11, .f32⟩ : BufTy).Contents (Elt F))) : (FVec F S100000x11 .f32) → (FVec F S100000x11 .f32) → (FVec F S100000x11 .f32)) ((((mulf : (⟨S100000x11, .f32⟩ : BufTy).Contents (Elt F) → (⟨S100000x11, .f32⟩ : BufTy).Contents (Elt F) → (⟨S100000x11, .f32⟩ : BufTy).Contents (Elt F))) : (FVec F S100000x11 .f32) → (FVec F S100000x11 .f32) → (FVec F S100000x11 .f32)) ((((broadcastInDim S100000x11 ![] bcast_S_S100000x11 : (⟨S_, .f32⟩ : BufTy).Contents (Elt F) → (⟨S100000x11, .f32⟩ : BufTy).Contents (Elt F))) : (FVec F S_ .f32) → (FVec F S100000x11 .f32)) ((((addf : (⟨S_, .f32⟩ : BufTy).Contents (Elt F) → (⟨S_, .f32⟩ : BufTy).Contents (Elt F) → (⟨S_, .f32⟩ : BufTy).Contents (Elt F))) : (FVec F S_ .f32) → (FVec F S_ .f32) → (FVec F S_ .f32)) (((constant S_ .f32 0x3F800000#32)) : FVec F S_ .f32) x_arg10)) x_arg0) (r0_v19 (F := F) x_arg26 x_arg0 x_arg1 x_arg2 x_arg3)) x_arg4) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) x_arg5))) ((((broadcastInDim S100000x128 ![] bcast_S_S100000x128)) : (FVec F S_ .f32) → (FVec F S100000x128 .f32)) (((constant S_ .f32 0x00000000#32)) : FVec F S_ .f32))) x_arg6) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) x_arg7)))

/-- The value of main_v35 from the inputs of layer 0. -/
def r0_v35 {F : FTy → Type} [FloatOps F] (x_arg10 : FVec F S_ .f32) (x_arg0 : FVec F S100000x11 .f32) (x_arg26 : IVec S2x600000 32) (x_arg1 : FVec F S600000x3 .f32) (x_arg2 : FVec F S3x11 .f32) (x_arg3 : FVec F S11 .f32) (x_arg4 : FVec F S11x128 .f32) (x_arg5 : FVec F S128 .f32) (x_arg6 : FVec F S128x128 .f32) (x_arg7 : FVec F S128 .f32) : FVec F S128 .f32 :=
  ((((Host.divf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (((((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))) : (FVec F S100000x128 .f32) → (FVec F S_ .f32) → (FVec F S128 .f32)) (r0_v32 (F := F) x_arg10 x_arg0 x_arg26 x_arg1 x_arg2 x_arg3 x_arg4 x_arg5 x_arg6 x_arg7) (((constant S_ .f32 0x00000000#32)) : FVec F S_ .f32)) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x47C35000#32)) : FVec F S_ .f32)))

/-- The value of main_v36 from the inputs of layer 0. -/
def r0_v36 {F : FTy → Type} [FloatOps F] (x_arg10 : FVec F S_ .f32) (x_arg0 : FVec F S100000x11 .f32) (x_arg26 : IVec S2x600000 32) (x_arg1 : FVec F S600000x3 .f32) (x_arg2 : FVec F S3x11 .f32) (x_arg3 : FVec F S11 .f32) (x_arg4 : FVec F S11x128 .f32) (x_arg5 : FVec F S128 .f32) (x_arg6 : FVec F S128x128 .f32) (x_arg7 : FVec F S128 .f32) : FVec F S128 .f32 :=
  ((((fun p a b => select (broadcastInDim S128 ![] bcast_S_S128 p) a b)) : (IVec S_ 1) → (FVec F S128 .f32) → (FVec F S128 .f32) → (FVec F S128 .f32)) ((((cmpf .ogt)) : (FVec F S_ .f32) → (FVec F S_ .f32) → (IVec S_ 1)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))) (((constant S_ .f32 0x00000000#32)) : FVec F S_ .f32)) (((Host.divf) : (FVec F S128 .f32) → (FVec F S128 .f32) → (FVec F S128 .f32)) ((((fun x v => Host.reduceAdd x v reducesTo_S100000x128_S128_d0 h_S_)) : (FVec F S100000x128 .f32) → (FVec F S_ .f32) → (FVec F S128 .f32)) (((mulf) : (FVec F S100000x128 .f32) → (FVec F S100000x128 .f32) → (FVec F S100000x128 .f32)) (((subf) : (FVec F S100000x128 .f32) → (FVec F S100000x128 .f32) → (FVec F S100000x128 .f32)) (r0_v32 (F := F) x_arg10 x_arg0 x_arg26 x_arg1 x_arg2 x_arg3 x_arg4 x_arg5 x_arg6 x_arg7) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r0_v32 (F := F) x_arg10 x_arg0 x_arg26 x_arg1 x_arg2 x_arg3 x_arg4 x_arg5 x_arg6 x_arg7) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32))))) (((subf) : (FVec F S100000x128 .f32) → (FVec F S100000x128 .f32) → (FVec F S100000x128 .f32)) (r0_v32 (F := F) x_arg10 x_arg0 x_arg26 x_arg1 x_arg2 x_arg3 x_arg4 x_arg5 x_arg6 x_arg7) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r0_v32 (F := F) x_arg10 x_arg0 x_arg26 x_arg1 x_arg2 x_arg3 x_arg4 x_arg5 x_arg6 x_arg7) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32)))))) (((constant S_ .f32 0x00000000#32)) : FVec F S_ .f32)) ((((broadcastInDim S128 ![] bcast_S_S128)) : (FVec F S_ .f32) → (FVec F S128 .f32)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))))) ((((broadcastInDim S128 ![] bcast_S_S128)) : (FVec F S_ .f32) → (FVec F S128 .f32)) (((id) : (FVec F S_ .f32) → (FVec F S_ .f32)) (((constant S_ .f32 0x7FC00000#32)) : FVec F S_ .f32))))

/-- The value of main_v52 from the inputs of layer 0. -/
def r0_v52 {F : FTy → Type} [FloatOps F] (x_arg10 : FVec F S_ .f32) (x_arg0 : FVec F S100000x11 .f32) (x_arg26 : IVec S2x600000 32) (x_arg1 : FVec F S600000x3 .f32) (x_arg2 : FVec F S3x11 .f32) (x_arg3 : FVec F S11 .f32) (x_arg4 : FVec F S11x128 .f32) (x_arg5 : FVec F S128 .f32) (x_arg6 : FVec F S128x128 .f32) (x_arg7 : FVec F S128 .f32) (x_arg8 : FVec F S128 .f32) (x_arg9 : FVec F S128 .f32) : FVec F S100000x128 .f32 :=
  (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((subf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r0_v32 (F := F) x_arg10 x_arg0 x_arg26 x_arg1 x_arg2 x_arg3 x_arg4 x_arg5 x_arg6 x_arg7) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) (r0_v35 (F := F) x_arg10 x_arg0 x_arg26 x_arg1 x_arg2 x_arg3 x_arg4 x_arg5 x_arg6 x_arg7)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((((Host.rsqrt : (⟨S128, .f32⟩ : BufTy).Contents (Elt F) → (⟨S128, .f32⟩ : BufTy).Contents (Elt F))) : (FVec F S128 .f32) → (FVec F S128 .f32)) ((((addf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (r0_v36 (F := F) x_arg10 x_arg0 x_arg26 x_arg1 x_arg2 x_arg3 x_arg4 x_arg5 x_arg6 x_arg7) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x3727C5AC#32)) : FVec F S_ .f32))))))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) x_arg8))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) x_arg9))) ((((broadcastInDim S100000x128 ![] bcast_S_S100000x128)) : (FVec F S_ .f32) → (FVec F S100000x128 .f32)) (((constant S_ .f32 0x00000000#32)) : FVec F S_ .f32)))

set_option maxRecDepth 65536 in
set_option maxHeartbeats 20000000 in
theorem r0_read_v1 (V : Valuation τ sig (Elt F)) :
    after L0 V (Proc.devRef .tc main_v1) = r0_v1 (F := F) (V (Proc.devRef .tc main_arg26)) := by
  after_results_simp <;> rfl

set_option maxRecDepth 65536 in
set_option maxHeartbeats 20000000 in
theorem r0_read_v3 (V : Valuation τ sig (Elt F)) :
    after L0 V (Proc.devRef .tc main_v3) = r0_v3 (F := F) (V (Proc.devRef .tc main_arg26)) := by
  after_results_simp <;> rfl

set_option maxRecDepth 65536 in
set_option maxHeartbeats 20000000 in
theorem r0_read_v52 (V : Valuation τ sig (Elt F)) :
    after L0 V (Proc.devRef .tc main_v52) = r0_v52 (F := F) (V (Proc.devRef .tc main_arg10)) (V (Proc.devRef .tc main_arg0)) (V (Proc.devRef .tc main_arg26)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp <;> rfl

/-- The buffers that layer 0 writes. -/
abbrev r0_written : List (Ref sig .tc) := [main_v0, main_v1, main_v2, main_v3, main_c, main_v4, main_v5, main_c_0, main_v6, main_v7, main_v8, main_v9, main_v10, main_v11, main_v12, main_v13, main_v14, main_v15, main_call0_cst, main_call0_v0, main_v16, main_cst, main_v17, main_v18, main_v19, main_cst_1, main_v20, main_v21, main_v22, main_v23, main_v24, main_v25, main_v26, main_v27, main_call1_cst, main_call1_v0, main_v28, main_v29, main_v30, main_v31, main_v32, main_cst_2, main_v33, main_cst_3, main_v34, main_v35, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v36, main_v37, main_v38, main_v39, main_cst_5, main_v40, main_v41, main_v42, main_v43, main_v44, main_v45, main_v46, main_v47, main_v48, main_v49, main_v50, main_v51, main_call3_cst, main_call3_v0, main_v52]
theorem r0_wr {y : Ref sig .tc} (h : y ∈ r0_written) :
    ({Proc.devRef .tc y} : Finset (DevRef τ sig)) ⊆ (r0_written.map (Proc.devRef (τ := τ) .tc)).toFinset :=
  Finset.singleton_subset_iff.mpr (List.mem_toFinset.mpr (List.mem_map_of_mem h))
set_option maxRecDepth 65536 in
theorem r0_writes : (L0 : List (HloOp τ sig (Elt F))).Forall fun op => op.writes ⊆ (r0_written.map (Proc.devRef (τ := τ) .tc)).toFinset :=
  ⟨r0_wr (List.getElem_mem (l := r0_written) (n := 0) (by decide)), r0_wr (List.getElem_mem (l := r0_written) (n := 1) (by decide)), r0_wr (List.getElem_mem (l := r0_written) (n := 2) (by decide)), r0_wr (List.getElem_mem (l := r0_written) (n := 3) (by decide)), r0_wr (List.getElem_mem (l := r0_written) (n := 4) (by decide)), r0_wr (List.getElem_mem (l := r0_written) (n := 5) (by decide)), r0_wr (List.getElem_mem (l := r0_written) (n := 6) (by decide)), r0_wr (List.getElem_mem (l := r0_written) (n := 7) (by decide)), r0_wr (List.getElem_mem (l := r0_written) (n := 8) (by decide)), r0_wr (List.getElem_mem (l := r0_written) (n := 9) (by decide)), r0_wr (List.getElem_mem (l := r0_written) (n := 10) (by decide)), r0_wr (List.getElem_mem (l := r0_written) (n := 11) (by decide)), r0_wr (List.getElem_mem (l := r0_written) (n := 12) (by decide)), r0_wr (List.getElem_mem (l := r0_written) (n := 13) (by decide)), r0_wr (List.getElem_mem (l := r0_written) (n := 14) (by decide)), r0_wr (List.getElem_mem (l := r0_written) (n := 15) (by decide)), r0_wr (List.getElem_mem (l := r0_written) (n := 16) (by decide)), r0_wr (List.getElem_mem (l := r0_written) (n := 17) (by decide)), r0_wr (List.getElem_mem (l := r0_written) (n := 18) (by decide)), r0_wr (List.getElem_mem (l := r0_written) (n := 19) (by decide)), r0_wr (List.getElem_mem (l := r0_written) (n := 20) (by decide)), r0_wr (List.getElem_mem (l := r0_written) (n := 21) (by decide)), r0_wr (List.getElem_mem (l := r0_written) (n := 22) (by decide)), r0_wr (List.getElem_mem (l := r0_written) (n := 23) (by decide)), r0_wr (List.getElem_mem (l := r0_written) (n := 24) (by decide)), r0_wr (List.getElem_mem (l := r0_written) (n := 25) (by decide)), r0_wr (List.getElem_mem (l := r0_written) (n := 26) (by decide)), r0_wr (List.getElem_mem (l := r0_written) (n := 27) (by decide)), r0_wr (List.getElem_mem (l := r0_written) (n := 28) (by decide)), r0_wr (List.getElem_mem (l := r0_written) (n := 29) (by decide)), r0_wr (List.getElem_mem (l := r0_written) (n := 30) (by decide)), r0_wr (List.getElem_mem (l := r0_written) (n := 31) (by decide)), r0_wr (List.getElem_mem (l := r0_written) (n := 32) (by decide)), r0_wr (List.getElem_mem (l := r0_written) (n := 33) (by decide)), r0_wr (List.getElem_mem (l := r0_written) (n := 34) (by decide)), r0_wr (List.getElem_mem (l := r0_written) (n := 35) (by decide)), r0_wr (List.getElem_mem (l := r0_written) (n := 36) (by decide)), r0_wr (List.getElem_mem (l := r0_written) (n := 37) (by decide)), r0_wr (List.getElem_mem (l := r0_written) (n := 38) (by decide)), r0_wr (List.getElem_mem (l := r0_written) (n := 39) (by decide)), r0_wr (List.getElem_mem (l := r0_written) (n := 40) (by decide)), r0_wr (List.getElem_mem (l := r0_written) (n := 41) (by decide)), r0_wr (List.getElem_mem (l := r0_written) (n := 42) (by decide)), r0_wr (List.getElem_mem (l := r0_written) (n := 43) (by decide)), r0_wr (List.getElem_mem (l := r0_written) (n := 44) (by decide)), r0_wr (List.getElem_mem (l := r0_written) (n := 45) (by decide)), r0_wr (List.getElem_mem (l := r0_written) (n := 46) (by decide)), r0_wr (List.getElem_mem (l := r0_written) (n := 47) (by decide)), r0_wr (List.getElem_mem (l := r0_written) (n := 48) (by decide)), r0_wr (List.getElem_mem (l := r0_written) (n := 49) (by decide)), r0_wr (List.getElem_mem (l := r0_written) (n := 50) (by decide)), r0_wr (List.getElem_mem (l := r0_written) (n := 51) (by decide)), r0_wr (List.getElem_mem (l := r0_written) (n := 52) (by decide)), r0_wr (List.getElem_mem (l := r0_written) (n := 53) (by decide)), r0_wr (List.getElem_mem (l := r0_written) (n := 54) (by decide)), r0_wr (List.getElem_mem (l := r0_written) (n := 55) (by decide)), r0_wr (List.getElem_mem (l := r0_written) (n := 56) (by decide)), r0_wr (List.getElem_mem (l := r0_written) (n := 57) (by decide)), r0_wr (List.getElem_mem (l := r0_written) (n := 58) (by decide)), r0_wr (List.getElem_mem (l := r0_written) (n := 59) (by decide)), r0_wr (List.getElem_mem (l := r0_written) (n := 60) (by decide)), r0_wr (List.getElem_mem (l := r0_written) (n := 61) (by decide)), r0_wr (List.getElem_mem (l := r0_written) (n := 62) (by decide)), r0_wr (List.getElem_mem (l := r0_written) (n := 63) (by decide)), r0_wr (List.getElem_mem (l := r0_written) (n := 64) (by decide)), r0_wr (List.getElem_mem (l := r0_written) (n := 65) (by decide)), r0_wr (List.getElem_mem (l := r0_written) (n := 66) (by decide)), r0_wr (List.getElem_mem (l := r0_written) (n := 67) (by decide)), r0_wr (List.getElem_mem (l := r0_written) (n := 68) (by decide)), r0_wr (List.getElem_mem (l := r0_written) (n := 69) (by decide)), r0_wr (List.getElem_mem (l := r0_written) (n := 70) (by decide)), r0_wr (List.getElem_mem (l := r0_written) (n := 71) (by decide)), r0_wr (List.getElem_mem (l := r0_written) (n := 72) (by decide)), r0_wr (List.getElem_mem (l := r0_written) (n := 73) (by decide)), r0_wr (List.getElem_mem (l := r0_written) (n := 74) (by decide)), r0_wr (List.getElem_mem (l := r0_written) (n := 75) (by decide)), r0_wr (List.getElem_mem (l := r0_written) (n := 76) (by decide)), r0_wr (List.getElem_mem (l := r0_written) (n := 77) (by decide)), r0_wr (List.getElem_mem (l := r0_written) (n := 78) (by decide)), r0_wr (List.getElem_mem (l := r0_written) (n := 79) (by decide)), r0_wr (List.getElem_mem (l := r0_written) (n := 80) (by decide)), r0_wr (List.getElem_mem (l := r0_written) (n := 81) (by decide)), r0_wr (List.getElem_mem (l := r0_written) (n := 82) (by decide)), r0_wr (List.getElem_mem (l := r0_written) (n := 83) (by decide)), r0_wr (List.getElem_mem (l := r0_written) (n := 84) (by decide)), r0_wr (List.getElem_mem (l := r0_written) (n := 85) (by decide)), r0_wr (List.getElem_mem (l := r0_written) (n := 86) (by decide)), r0_wr (List.getElem_mem (l := r0_written) (n := 87) (by decide))⟩
/-- A buffer that layer 0 does not write keeps its contents through it. -/
theorem r0_keep (V : Valuation τ sig (Elt F)) (r : Ref sig .tc) (hr : r ∉ r0_written) :
    after L0 V (Proc.devRef .tc r) = V (Proc.devRef .tc r) := after_of_writes_sub L0 V r0_writes hr

/-- The operations of layer 1 (103 of them). -/
abbrev L1 : List (HloOp τ sig (Elt F)) :=
  [ StableHlo.unary main_arg11 main_v53 ((extractStridedSlice S1x3x128 ![0, 0, 0] · slices_S4x3x128_S1x3x128_0_0_0) : (⟨S4x3x128, .f32⟩ : BufTy).Contents (Elt F) → (⟨S1x3x128, .f32⟩ : BufTy).Contents (Elt F)),
    StableHlo.reshape main_v53 main_v54 rfl shapeCasts_S1x3x128_S3x128,
    StableHlo.unary main_arg12 main_v55 ((extractStridedSlice S1x128 ![0, 0] · slices_S4x128_S1x128_0_0) : (⟨S4x128, .f32⟩ : BufTy).Contents (Elt F) → (⟨S1x128, .f32⟩ : BufTy).Contents (Elt F)),
    StableHlo.reshape main_v55 main_v56 rfl shapeCasts_S1x128_S128,
    StableHlo.unary main_arg19 main_v57 ((extractStridedSlice S1 ![0] · slices_S4_S1_0) : (⟨S4, .f32⟩ : BufTy).Contents (Elt F) → (⟨S1, .f32⟩ : BufTy).Contents (Elt F)),
    StableHlo.reshape main_v57 main_v58 rfl shapeCasts_S1_S_,
    StableHlo.unary main_arg13 main_v59 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v59 main_v60 rfl shapeCasts_S1x128x128_S128x128,
    StableHlo.unary main_arg14 main_v61 ((extractStridedSlice S1x128 ![0, 0] · slices_S4x128_S1x128_0_0) : (⟨S4x128, .f32⟩ : BufTy).Contents (Elt F) → (⟨S1x128, .f32⟩ : BufTy).Contents (Elt F)),
    StableHlo.reshape main_v61 main_v62 rfl shapeCasts_S1x128_S128,
    StableHlo.unary main_arg15 main_v63 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v63 main_v64 rfl shapeCasts_S1x128x128_S128x128,
    StableHlo.unary main_arg16 main_v65 ((extractStridedSlice S1x128 ![0, 0] · slices_S4x128_S1x128_0_0) : (⟨S4x128, .f32⟩ : BufTy).Contents (Elt F) → (⟨S1x128, .f32⟩ : BufTy).Contents (Elt F)),
    StableHlo.reshape main_v65 main_v66 rfl shapeCasts_S1x128_S128,
    StableHlo.unary main_arg17 main_v67 ((extractStridedSlice S1x128 ![0, 0] · slices_S4x128_S1x128_0_0) : (⟨S4x128, .f32⟩ : BufTy).Contents (Elt F) → (⟨S1x128, .f32⟩ : BufTy).Contents (Elt F)),
    StableHlo.reshape main_v67 main_v68 rfl shapeCasts_S1x128_S128,
    StableHlo.unary main_arg18 main_v69 ((extractStridedSlice S1x128 ![0, 0] · slices_S4x128_S1x128_0_0) : (⟨S4x128, .f32⟩ : BufTy).Contents (Elt F) → (⟨S1x128, .f32⟩ : BufTy).Contents (Elt F)),
    StableHlo.reshape main_v69 main_v70 rfl shapeCasts_S1x128_S128,
    StableHlo.nullary main_c_6 (constantI S_ 32 0#32),
    StableHlo.unary main_c_6 main_v71 (broadcastInDim S600000 ![] bcast_S_S600000 : (⟨S_, .i32⟩ : BufTy).Contents (Elt F) → (⟨S600000, .i32⟩ : BufTy).Contents (Elt F)),
    StableHlo.binary main_v1 main_v71 main_v72 (cmpi .slt : (⟨S600000, .i32⟩ : BufTy).Contents (Elt F) → (⟨S600000, .i32⟩ : BufTy).Contents (Elt F) → (⟨S600000, .i1⟩ : BufTy).Contents (Elt F)),
    StableHlo.nullary main_c_7 (constantI S_ 32 100000#32),
    StableHlo.unary main_c_7 main_v73 (broadcastInDim S600000 ![] bcast_S_S600000 : (⟨S_, .i32⟩ : BufTy).Contents (Elt F) → (⟨S600000, .i32⟩ : BufTy).Contents (Elt F)),
    StableHlo.binary main_v1 main_v73 main_v74 (addi : (⟨S600000, .i32⟩ : BufTy).Contents (Elt F) → (⟨S600000, .i32⟩ : BufTy).Contents (Elt F) → (⟨S600000, .i32⟩ : BufTy).Contents (Elt F)),
    StableHlo.ternary main_v72 main_v74 main_v1 main_v75 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v75 main_v76 (broadcastInDim S600000x1 ![0] bcast_S600000_S600000x1_0 : (⟨S600000, .i32⟩ : BufTy).Contents (Elt F) → (⟨S600000x1, .i32⟩ : BufTy).Contents (Elt F)),
    StableHlo.binary main_v52 main_v76 main_v77 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_arg1 main_v54 main_v78 ((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F)),
    StableHlo.binary main_v77 main_v78 main_v79 (addf : (⟨S600000x128, .f32⟩ : BufTy).Contents (Elt F) → (⟨S600000x128, .f32⟩ : BufTy).Contents (Elt F) → (⟨S600000x128, .f32⟩ : BufTy).Contents (Elt F)),
    StableHlo.unary main_v56 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S600000x128 ![0, 1] bcast_S1x128_S600000x128_0_1 : (⟨S1x128, .f32⟩ : BufTy).Contents (Elt F) → (⟨S600000x128, .f32⟩ : BufTy).Contents (Elt F)),
    StableHlo.binary main_v79 main_v81 main_v82 (addf : (⟨S600000x128, .f32⟩ : BufTy).Contents (Elt F) → (⟨S600000x128, .f32⟩ : BufTy).Contents (Elt F) → (⟨S600000x128, .f32⟩ : BufTy).Contents (Elt F)),
    StableHlo.TRef.nullary main_call4.cst (constant S_ .f32 0x00000000#32),
    StableHlo.TRef.unary main_call4.cst main_call4.v0 (broadcastInDim S600000x128 ![] bcast_S_S600000x128),
    StableHlo.TRef.binary (.of main_v82) main_call4.v0 main_call4.v1 maximumf,
    StableHlo.nullary main_cst_8 (constant S_ .f32 0x00000000#32),
    StableHlo.unary main_cst_8 main_v84 (broadcastInDim S100000x128 ![] bcast_S_S100000x128 : (⟨S_, .f32⟩ : BufTy).Contents (Elt F) → (⟨S100000x128, .f32⟩ : BufTy).Contents (Elt F)),
    StableHlo.unary main_v3 main_v85 (broadcastInDim S600000x1 ![0] bcast_S600000_S600000x1_0 : (⟨S600000, .i32⟩ : BufTy).Contents (Elt F) → (⟨S600000x1, .i32⟩ : BufTy).Contents (Elt F)),
    StableHlo.ternary main_v84 main_v85 main_v83 main_v86 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_9 (constant S_ .f32 0x3F800000#32),
    StableHlo.binary main_cst_9 main_v58 main_v87 (addf : (⟨S_, .f32⟩ : BufTy).Contents (Elt F) → (⟨S_, .f32⟩ : BufTy).Contents (Elt F) → (⟨S_, .f32⟩ : BufTy).Contents (Elt F)),
    StableHlo.unary main_v87 main_v88 (broadcastInDim S100000x128 ![] bcast_S_S100000x128 : (⟨S_, .f32⟩ : BufTy).Contents (Elt F) → (⟨S100000x128, .f32⟩ : BufTy).Contents (Elt F)),
    StableHlo.binary main_v88 main_v52 main_v89 (mulf : (⟨S100000x128, .f32⟩ : BufTy).Contents (Elt F) → (⟨S100000x128, .f32⟩ : BufTy).Contents (Elt F) → (⟨S100000x128, .f32⟩ : BufTy).Contents (Elt F)),
    StableHlo.binary main_v89 main_v86 main_v90 (addf : (⟨S100000x128, .f32⟩ : BufTy).Contents (Elt F) → (⟨S100000x128, .f32⟩ : BufTy).Contents (Elt F) → (⟨S100000x128, .f32⟩ : BufTy).Contents (Elt F)),
    StableHlo.binary main_v90 main_v60 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v62 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S100000x128 ![0, 1] bcast_S1x128_S100000x128_0_1 : (⟨S1x128, .f32⟩ : BufTy).Contents (Elt F) → (⟨S100000x128, .f32⟩ : BufTy).Contents (Elt F)),
    StableHlo.binary main_v91 main_v93 main_v94 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v94) main_call5.v0 main_call5.v1 maximumf,
    StableHlo.binary main_v95 main_v64 main_v96 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v66 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.binary main_v99 main_cst_10 main_v100 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_11 (constant S_ .f32 0x47C35000#32),
    StableHlo.unary main_cst_11 main_v101 (broadcastInDim S128 ![] bcast_S_S128 : (⟨S_, .f32⟩ : BufTy).Contents (Elt F) → (⟨S128, .f32⟩ : BufTy).Contents (Elt F)),
    StableHlo.binary main_v100 main_v101 main_v102 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call6.cst (constant S_ .f32 0x00000000#32),
    StableHlo.TRef.binary (.of main_v99) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v99) main_call6.v4 main_call6.v5 subf,
    StableHlo.TRef.binary main_call6.v5 main_call6.v5 main_call6.v6 mulf,
    StableHlo.TRef.unary (.of main_c_12) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v102 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v105 main_v106 (subf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3727C5AC#32),
    StableHlo.unary main_cst_13 main_v107 (broadcastInDim S128 ![] bcast_S_S128 : (⟨S_, .f32⟩ : BufTy).Contents (Elt F) → (⟨S128, .f32⟩ : BufTy).Contents (Elt F)),
    StableHlo.binary main_v103 main_v107 main_v108 (addf : (⟨S128, .f32⟩ : BufTy).Contents (Elt F) → (⟨S128, .f32⟩ : BufTy).Contents (Elt F) → (⟨S128, .f32⟩ : BufTy).Contents (Elt F)),
    StableHlo.unary main_v108 main_v109 (Host.rsqrt : (⟨S128, .f32⟩ : BufTy).Contents (Elt F) → (⟨S128, .f32⟩ : BufTy).Contents (Elt F)),
    StableHlo.unary main_v109 main_v110 (broadcastInDim S1x128 ![1] bcast_S128_S1x128_1 : (⟨S128, .f32⟩ : BufTy).Contents (Elt F) → (⟨S1x128, .f32⟩ : BufTy).Contents (Elt F)),
    StableHlo.unary main_v110 main_v111 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v111 main_v112 (mulf : (⟨S100000x128, .f32⟩ : BufTy).Contents (Elt F) → (⟨S100000x128, .f32⟩ : BufTy).Contents (Elt F) → (⟨S100000x128, .f32⟩ : BufTy).Contents (Elt F)),
    StableHlo.unary main_v68 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S100000x128 ![0, 1] bcast_S1x128_S100000x128_0_1 : (⟨S1x128, .f32⟩ : BufTy).Contents (Elt F) → (⟨S100000x128, .f32⟩ : BufTy).Contents (Elt F)),
    StableHlo.binary main_v112 main_v114 main_v115 (mulf : (⟨S100000x128, .f32⟩ : BufTy).Contents (Elt F) → (⟨S100000x128, .f32⟩ : BufTy).Contents (Elt F) → (⟨S100000x128, .f32⟩ : BufTy).Contents (Elt F)),
    StableHlo.unary main_v70 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S100000x128 ![0, 1] bcast_S1x128_S100000x128_0_1 : (⟨S1x128, .f32⟩ : BufTy).Contents (Elt F) → (⟨S100000x128, .f32⟩ : BufTy).Contents (Elt F)),
    StableHlo.binary main_v115 main_v117 main_v118 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v118) main_call7.v0 main_call7.v1 maximumf,
    StableHlo.binary main_v119 main_v52 main_v120 (addf : (⟨S100000x128, .f32⟩ : BufTy).Contents (Elt F) → (⟨S100000x128, .f32⟩ : BufTy).Contents (Elt F) → (⟨S100000x128, .f32⟩ : BufTy).Contents (Elt F)) ]

/-- The value of main_v77 from the inputs of layer 1. -/
def r1_v77 {F : FTy → Type} [FloatOps F] (x_v52 : FVec F S100000x128 .f32) (x_v1 : IVec S600000 32) : FVec F S600000x128 .f32 :=
  (((((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))) : (FVec F S100000x128 .f32) → (IVec S600000x1 32) → (FVec F S600000x128 .f32)) x_v52 ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) ((((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) : (IVec S600000 1) → (IVec S600000 32) → (IVec S600000 32) → (IVec S600000 32)) ((((cmpi .slt : (⟨S600000, .i32⟩ : BufTy).Contents (Elt F) → (⟨S600000, .i32⟩ : BufTy).Contents (Elt F) → (⟨S600000, .i1⟩ : BufTy).Contents (Elt F))) : (IVec S600000 32) → (IVec S600000 32) → (IVec S600000 1)) x_v1 ((((broadcastInDim S600000 ![] bcast_S_S600000 : (⟨S_, .i32⟩ : BufTy).Contents (Elt F) → (⟨S600000, .i32⟩ : BufTy).Contents (Elt F))) : (IVec S_ 32) → (IVec S600000 32)) (((constantI S_ 32 0#32)) : IVec S_ 32))) ((((addi : (⟨S600000, .i32⟩ : BufTy).Contents (Elt F) → (⟨S600000, .i32⟩ : BufTy).Contents (Elt F) → (⟨S600000, .i32⟩ : BufTy).Contents (Elt F))) : (IVec S600000 32) → (IVec S600000 32) → (IVec S600000 32)) x_v1 ((((broadcastInDim S600000 ![] bcast_S_S600000 : (⟨S_, .i32⟩ : BufTy).Contents (Elt F) → (⟨S600000, .i32⟩ : BufTy).Contents (Elt F))) : (IVec S_ 32) → (IVec S600000 32)) (((constantI S_ 32 100000#32)) : IVec S_ 32))) x_v1)))

/-- The value of main_v83 from the inputs of layer 1. -/
def r1_v83 {F : FTy → Type} [FloatOps F] (x_v52 : FVec F S100000x128 .f32) (x_v1 : IVec S600000 32) (x_arg1 : FVec F S600000x3 .f32) (x_arg11 : FVec F S4x3x128 .f32) (x_arg12 : FVec F S4x128 .f32) : FVec F S600000x128 .f32 :=
  (((maximumf) : (FVec F S600000x128 .f32) → (FVec F S600000x128 .f32) → (FVec F S600000x128 .f32)) ((((addf : (⟨S600000x128, .f32⟩ : BufTy).Contents (Elt F) → (⟨S600000x128, .f32⟩ : BufTy).Contents (Elt F) → (⟨S600000x128, .f32⟩ : BufTy).Contents (Elt F))) : (FVec F S600000x128 .f32) → (FVec F S600000x128 .f32) → (FVec F S600000x128 .f32)) ((((addf : (⟨S600000x128, .f32⟩ : BufTy).Contents (Elt F) → (⟨S600000x128, .f32⟩ : BufTy).Contents (Elt F) → (⟨S600000x128, .f32⟩ : BufTy).Contents (Elt F))) : (FVec F S600000x128 .f32) → (FVec F S600000x128 .f32) → (FVec F S600000x128 .f32)) (r1_v77 (F := F) x_v52 x_v1) (((((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F))) : (FVec F S600000x3 .f32) → (FVec F S3x128 .f32) → (FVec F S600000x128 .f32)) x_arg1 ((shapeCast _ (((((extractStridedSlice S1x3x128 ![0, 0, 0] · slices_S4x3x128_S1x3x128_0_0_0) : (⟨S4x3x128, .f32⟩ : BufTy).Contents (Elt F) → (⟨S1x3x128, .f32⟩ : BufTy).Contents (Elt F))) : (FVec F S4x3x128 .f32) → (FVec F S1x3x128 .f32)) x_arg11) shapeCasts_S1x3x128_S3x128) : FVec F S3x128 .f32))) ((((broadcastInDim S600000x128 ![0, 1] bcast_S1x128_S600000x128_0_1 : (⟨S1x128, .f32⟩ : BufTy).Contents (Elt F) → (⟨S600000x128, .f32⟩ : BufTy).Contents (Elt F))) : (FVec F S1x128 .f32) → (FVec F S600000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![0, 0] · slices_S4x128_S1x128_0_0) : (⟨S4x128, .f32⟩ : BufTy).Contents (Elt F) → (⟨S1x128, .f32⟩ : BufTy).Contents (Elt F))) : (FVec F S4x128 .f32) → (FVec F S1x128 .f32)) x_arg12) shapeCasts_S1x128_S128) : FVec F S128 .f32)))) ((((broadcastInDim S600000x128 ![] bcast_S_S600000x128)) : (FVec F S_ .f32) → (FVec F S600000x128 .f32)) (((constant S_ .f32 0x00000000#32)) : FVec F S_ .f32)))

/-- The value of main_v86 from the inputs of layer 1. -/
def r1_v86 {F : FTy → Type} [FloatOps F] (x_v3 : IVec S600000 32) (x_v52 : FVec F S100000x128 .f32) (x_v1 : IVec S600000 32) (x_arg1 : FVec F S600000x3 .f32) (x_arg11 : FVec F S4x3x128 .f32) (x_arg12 : FVec F S4x128 .f32) : FVec F S100000x128 .f32 :=
  (((((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))) : (FVec F S100000x128 .f32) → (IVec S600000x1 32) → (FVec F S600000x128 .f32) → (FVec F S100000x128 .f32)) ((((broadcastInDim S100000x128 ![] bcast_S_S100000x128 : (⟨S_, .f32⟩ : BufTy).Contents (Elt F) → (⟨S100000x128, .f32⟩ : BufTy).Contents (Elt F))) : (FVec F S_ .f32) → (FVec F S100000x128 .f32)) (((constant S_ .f32 0x00000000#32)) : FVec F S_ .f32)) ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) x_v3) (r1_v83 (F := F) x_v52 x_v1 x_arg1 x_arg11 x_arg12))

/-- The value of main_v99 from the inputs of layer 1. -/
def r1_v99 {F : FTy → Type} [FloatOps F] (x_arg19 : FVec F S4 .f32) (x_v52 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((broadcastInDim S100000x128 ![] bcast_S_S100000x128 : (⟨S_, .f32⟩ : BufTy).Contents (Elt F) → (⟨S100000x128, .f32⟩ : BufTy).Contents (Elt F))) : (FVec F S_ .f32) → (FVec F S100000x128 .f32)) ((((addf : (⟨S_, .f32⟩ : BufTy).Contents (Elt F) → (⟨S_, .f32⟩ : BufTy).Contents (Elt F) → (⟨S_, .f32⟩ : BufTy).Contents (Elt F))) : (FVec F S_ .f32) → (FVec F S_ .f32) → (FVec F S_ .f32)) (((constant S_ .f32 0x3F800000#32)) : FVec F S_ .f32) ((shapeCast _ (((((extractStridedSlice S1 ![0] · slices_S4_S1_0) : (⟨S4, .f32⟩ : BufTy).Contents (Elt F) → (⟨S1, .f32⟩ : BufTy).Contents (Elt F))) : (FVec F S4 .f32) → (FVec F S1 .f32)) x_arg19) shapeCasts_S1_S_) : FVec F S_ .f32))) x_v52) (r1_v86 (F := F) x_v3 x_v52 x_v1 x_arg1 x_arg11 x_arg12)) ((shapeCast _ (((((extractStridedSlice S1x128x128 ![0, 0, 0] · slices_S4x128x128_S1x128x128_0_0_0) : (⟨S4x128x128, .f32⟩ : BufTy).Contents (Elt F) → (⟨S1x128x128, .f32⟩ : BufTy).Contents (Elt F))) : (FVec F S4x128x128 .f32) → (FVec F S1x128x128 .f32)) x_arg13) shapeCasts_S1x128x128_S128x128) : FVec F S128x128 .f32)) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![0, 0] · slices_S4x128_S1x128_0_0) : (⟨S4x128, .f32⟩ : BufTy).Contents (Elt F) → (⟨S1x128, .f32⟩ : BufTy).Contents (Elt F))) : (FVec F S4x128 .f32) → (FVec F S1x128 .f32)) x_arg14) shapeCasts_S1x128_S128) : FVec F S128 .f32)))) ((((broadcastInDim S100000x128 ![] bcast_S_S100000x128)) : (FVec F S_ .f32) → (FVec F S100000x128 .f32)) (((constant S_ .f32 0x00000000#32)) : FVec F S_ .f32))) ((shapeCast _ (((((extractStridedSlice S1x128x128 ![0, 0, 0] · slices_S4x128x128_S1x128x128_0_0_0) : (⟨S4x128x128, .f32⟩ : BufTy).Contents (Elt F) → (⟨S1x128x128, .f32⟩ : BufTy).Contents (Elt F))) : (FVec F S4x128x128 .f32) → (FVec F S1x128x128 .f32)) x_arg15) shapeCasts_S1x128x128_S128x128) : FVec F S128x128 .f32)) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![0, 0] · slices_S4x128_S1x128_0_0) : (⟨S4x128, .f32⟩ : BufTy).Contents (Elt F) → (⟨S1x128, .f32⟩ : BufTy).Contents (Elt F))) : (FVec F S4x128 .f32) → (FVec F S1x128 .f32)) x_arg16) shapeCasts_S1x128_S128) : FVec F S128 .f32))))

/-- The value of main_v102 from the inputs of layer 1. -/
def r1_v102 {F : FTy → Type} [FloatOps F] (x_arg19 : FVec F S4 .f32) (x_v52 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S128 .f32 :=
  ((((Host.divf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (((((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))) : (FVec F S100000x128 .f32) → (FVec F S_ .f32) → (FVec F S128 .f32)) (r1_v99 (F := F) x_arg19 x_v52 x_v3 x_v1 x_arg1 x_arg11 x_arg12 x_arg13 x_arg14 x_arg15 x_arg16) (((constant S_ .f32 0x00000000#32)) : FVec F S_ .f32)) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x47C35000#32)) : FVec F S_ .f32)))

/-- The value of main_v103 from the inputs of layer 1. -/
def r1_v103 {F : FTy → Type} [FloatOps F] (x_arg19 : FVec F S4 .f32) (x_v52 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S128 .f32 :=
  ((((fun p a b => select (broadcastInDim S128 ![] bcast_S_S128 p) a b)) : (IVec S_ 1) → (FVec F S128 .f32) → (FVec F S128 .f32) → (FVec F S128 .f32)) ((((cmpf .ogt)) : (FVec F S_ .f32) → (FVec F S_ .f32) → (IVec S_ 1)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))) (((constant S_ .f32 0x00000000#32)) : FVec F S_ .f32)) (((Host.divf) : (FVec F S128 .f32) → (FVec F S128 .f32) → (FVec F S128 .f32)) ((((fun x v => Host.reduceAdd x v reducesTo_S100000x128_S128_d0 h_S_)) : (FVec F S100000x128 .f32) → (FVec F S_ .f32) → (FVec F S128 .f32)) (((mulf) : (FVec F S100000x128 .f32) → (FVec F S100000x128 .f32) → (FVec F S100000x128 .f32)) (((subf) : (FVec F S100000x128 .f32) → (FVec F S100000x128 .f32) → (FVec F S100000x128 .f32)) (r1_v99 (F := F) x_arg19 x_v52 x_v3 x_v1 x_arg1 x_arg11 x_arg12 x_arg13 x_arg14 x_arg15 x_arg16) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r1_v99 (F := F) x_arg19 x_v52 x_v3 x_v1 x_arg1 x_arg11 x_arg12 x_arg13 x_arg14 x_arg15 x_arg16) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32))))) (((subf) : (FVec F S100000x128 .f32) → (FVec F S100000x128 .f32) → (FVec F S100000x128 .f32)) (r1_v99 (F := F) x_arg19 x_v52 x_v3 x_v1 x_arg1 x_arg11 x_arg12 x_arg13 x_arg14 x_arg15 x_arg16) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r1_v99 (F := F) x_arg19 x_v52 x_v3 x_v1 x_arg1 x_arg11 x_arg12 x_arg13 x_arg14 x_arg15 x_arg16) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32)))))) (((constant S_ .f32 0x00000000#32)) : FVec F S_ .f32)) ((((broadcastInDim S128 ![] bcast_S_S128)) : (FVec F S_ .f32) → (FVec F S128 .f32)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))))) ((((broadcastInDim S128 ![] bcast_S_S128)) : (FVec F S_ .f32) → (FVec F S128 .f32)) (((id) : (FVec F S_ .f32) → (FVec F S_ .f32)) (((constant S_ .f32 0x7FC00000#32)) : FVec F S_ .f32))))

/-- The value of main_v119 from the inputs of layer 1. -/
def r1_v119 {F : FTy → Type} [FloatOps F] (x_arg19 : FVec F S4 .f32) (x_v52 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) : FVec F S100000x128 .f32 :=
  (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((subf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r1_v99 (F := F) x_arg19 x_v52 x_v3 x_v1 x_arg1 x_arg11 x_arg12 x_arg13 x_arg14 x_arg15 x_arg16) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) (r1_v102 (F := F) x_arg19 x_v52 x_v3 x_v1 x_arg1 x_arg11 x_arg12 x_arg13 x_arg14 x_arg15 x_arg16)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((((Host.rsqrt : (⟨S128, .f32⟩ : BufTy).Contents (Elt F) → (⟨S128, .f32⟩ : BufTy).Contents (Elt F))) : (FVec F S128 .f32) → (FVec F S128 .f32)) ((((addf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (r1_v103 (F := F) x_arg19 x_v52 x_v3 x_v1 x_arg1 x_arg11 x_arg12 x_arg13 x_arg14 x_arg15 x_arg16) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x3727C5AC#32)) : FVec F S_ .f32))))))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![0, 0] · slices_S4x128_S1x128_0_0) : (⟨S4x128, .f32⟩ : BufTy).Contents (Elt F) → (⟨S1x128, .f32⟩ : BufTy).Contents (Elt F))) : (FVec F S4x128 .f32) → (FVec F S1x128 .f32)) x_arg17) shapeCasts_S1x128_S128) : FVec F S128 .f32)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![0, 0] · slices_S4x128_S1x128_0_0) : (⟨S4x128, .f32⟩ : BufTy).Contents (Elt F) → (⟨S1x128, .f32⟩ : BufTy).Contents (Elt F))) : (FVec F S4x128 .f32) → (FVec F S1x128 .f32)) x_arg18) shapeCasts_S1x128_S128) : FVec F S128 .f32)))) ((((broadcastInDim S100000x128 ![] bcast_S_S100000x128)) : (FVec F S_ .f32) → (FVec F S100000x128 .f32)) (((constant S_ .f32 0x00000000#32)) : FVec F S_ .f32)))

/-- The value of main_v120 from the inputs of layer 1. -/
def r1_v120 {F : FTy → Type} [FloatOps F] (x_arg19 : FVec F S4 .f32) (x_v52 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r1_v119 (F := F) x_arg19 x_v52 x_v3 x_v1 x_arg1 x_arg11 x_arg12 x_arg13 x_arg14 x_arg15 x_arg16 x_arg17 x_arg18) x_v52)

set_option maxRecDepth 65536 in
set_option maxHeartbeats 20000000 in
theorem r1_read_v120 (V : Valuation τ sig (Elt F)) :
    after L1 V (Proc.devRef .tc main_v120) = r1_v120 (F := F) (V (Proc.devRef .tc main_arg19)) (V (Proc.devRef .tc main_v52)) (V (Proc.devRef .tc main_v3)) (V (Proc.devRef .tc main_v1)) (V (Proc.devRef .tc main_arg1)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  after_results_simp <;> rfl

/-- The buffers that layer 1 writes. -/
abbrev r1_written : List (Ref sig .tc) := [main_v53, main_v54, main_v55, main_v56, main_v57, main_v58, main_v59, main_v60, main_v61, main_v62, main_v63, main_v64, main_v65, main_v66, main_v67, main_v68, main_v69, main_v70, main_c_6, main_v71, main_v72, main_c_7, main_v73, main_v74, main_v75, main_v76, main_v77, main_v78, main_v79, main_v80, main_v81, main_v82, main_call4_cst, main_call4_v0, main_v83, main_cst_8, main_v84, main_v85, main_v86, main_cst_9, main_v87, main_v88, main_v89, main_v90, main_v91, main_v92, main_v93, main_v94, main_call5_cst, main_call5_v0, main_v95, main_v96, main_v97, main_v98, main_v99, main_cst_10, main_v100, main_cst_11, main_v101, main_v102, main_c_12, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v103, main_v104, main_v105, main_v106, main_cst_13, main_v107, main_v108, main_v109, main_v110, main_v111, main_v112, main_v113, main_v114, main_v115, main_v116, main_v117, main_v118, main_call7_cst, main_call7_v0, main_v119, main_v120]
theorem r1_wr {y : Ref sig .tc} (h : y ∈ r1_written) :
    ({Proc.devRef .tc y} : Finset (DevRef τ sig)) ⊆ (r1_written.map (Proc.devRef (τ := τ) .tc)).toFinset :=
  Finset.singleton_subset_iff.mpr (List.mem_toFinset.mpr (List.mem_map_of_mem h))
set_option maxRecDepth 65536 in
theorem r1_writes : (L1 : List (HloOp τ sig (Elt F))).Forall fun op => op.writes ⊆ (r1_written.map (Proc.devRef (τ := τ) .tc)).toFinset :=
  ⟨r1_wr (List.getElem_mem (l := r1_written) (n := 0) (by decide)), r1_wr (List.getElem_mem (l := r1_written) (n := 1) (by decide)), r1_wr (List.getElem_mem (l := r1_written) (n := 2) (by decide)), r1_wr (List.getElem_mem (l := r1_written) (n := 3) (by decide)), r1_wr (List.getElem_mem (l := r1_written) (n := 4) (by decide)), r1_wr (List.getElem_mem (l := r1_written) (n := 5) (by decide)), r1_wr (List.getElem_mem (l := r1_written) (n := 6) (by decide)), r1_wr (List.getElem_mem (l := r1_written) (n := 7) (by decide)), r1_wr (List.getElem_mem (l := r1_written) (n := 8) (by decide)), r1_wr (List.getElem_mem (l := r1_written) (n := 9) (by decide)), r1_wr (List.getElem_mem (l := r1_written) (n := 10) (by decide)), r1_wr (List.getElem_mem (l := r1_written) (n := 11) (by decide)), r1_wr (List.getElem_mem (l := r1_written) (n := 12) (by decide)), r1_wr (List.getElem_mem (l := r1_written) (n := 13) (by decide)), r1_wr (List.getElem_mem (l := r1_written) (n := 14) (by decide)), r1_wr (List.getElem_mem (l := r1_written) (n := 15) (by decide)), r1_wr (List.getElem_mem (l := r1_written) (n := 16) (by decide)), r1_wr (List.getElem_mem (l := r1_written) (n := 17) (by decide)), r1_wr (List.getElem_mem (l := r1_written) (n := 18) (by decide)), r1_wr (List.getElem_mem (l := r1_written) (n := 19) (by decide)), r1_wr (List.getElem_mem (l := r1_written) (n := 20) (by decide)), r1_wr (List.getElem_mem (l := r1_written) (n := 21) (by decide)), r1_wr (List.getElem_mem (l := r1_written) (n := 22) (by decide)), r1_wr (List.getElem_mem (l := r1_written) (n := 23) (by decide)), r1_wr (List.getElem_mem (l := r1_written) (n := 24) (by decide)), r1_wr (List.getElem_mem (l := r1_written) (n := 25) (by decide)), r1_wr (List.getElem_mem (l := r1_written) (n := 26) (by decide)), r1_wr (List.getElem_mem (l := r1_written) (n := 27) (by decide)), r1_wr (List.getElem_mem (l := r1_written) (n := 28) (by decide)), r1_wr (List.getElem_mem (l := r1_written) (n := 29) (by decide)), r1_wr (List.getElem_mem (l := r1_written) (n := 30) (by decide)), r1_wr (List.getElem_mem (l := r1_written) (n := 31) (by decide)), r1_wr (List.getElem_mem (l := r1_written) (n := 32) (by decide)), r1_wr (List.getElem_mem (l := r1_written) (n := 33) (by decide)), r1_wr (List.getElem_mem (l := r1_written) (n := 34) (by decide)), r1_wr (List.getElem_mem (l := r1_written) (n := 35) (by decide)), r1_wr (List.getElem_mem (l := r1_written) (n := 36) (by decide)), r1_wr (List.getElem_mem (l := r1_written) (n := 37) (by decide)), r1_wr (List.getElem_mem (l := r1_written) (n := 38) (by decide)), r1_wr (List.getElem_mem (l := r1_written) (n := 39) (by decide)), r1_wr (List.getElem_mem (l := r1_written) (n := 40) (by decide)), r1_wr (List.getElem_mem (l := r1_written) (n := 41) (by decide)), r1_wr (List.getElem_mem (l := r1_written) (n := 42) (by decide)), r1_wr (List.getElem_mem (l := r1_written) (n := 43) (by decide)), r1_wr (List.getElem_mem (l := r1_written) (n := 44) (by decide)), r1_wr (List.getElem_mem (l := r1_written) (n := 45) (by decide)), r1_wr (List.getElem_mem (l := r1_written) (n := 46) (by decide)), r1_wr (List.getElem_mem (l := r1_written) (n := 47) (by decide)), r1_wr (List.getElem_mem (l := r1_written) (n := 48) (by decide)), r1_wr (List.getElem_mem (l := r1_written) (n := 49) (by decide)), r1_wr (List.getElem_mem (l := r1_written) (n := 50) (by decide)), r1_wr (List.getElem_mem (l := r1_written) (n := 51) (by decide)), r1_wr (List.getElem_mem (l := r1_written) (n := 52) (by decide)), r1_wr (List.getElem_mem (l := r1_written) (n := 53) (by decide)), r1_wr (List.getElem_mem (l := r1_written) (n := 54) (by decide)), r1_wr (List.getElem_mem (l := r1_written) (n := 55) (by decide)), r1_wr (List.getElem_mem (l := r1_written) (n := 56) (by decide)), r1_wr (List.getElem_mem (l := r1_written) (n := 57) (by decide)), r1_wr (List.getElem_mem (l := r1_written) (n := 58) (by decide)), r1_wr (List.getElem_mem (l := r1_written) (n := 59) (by decide)), r1_wr (List.getElem_mem (l := r1_written) (n := 60) (by decide)), r1_wr (List.getElem_mem (l := r1_written) (n := 61) (by decide)), r1_wr (List.getElem_mem (l := r1_written) (n := 62) (by decide)), r1_wr (List.getElem_mem (l := r1_written) (n := 63) (by decide)), r1_wr (List.getElem_mem (l := r1_written) (n := 64) (by decide)), r1_wr (List.getElem_mem (l := r1_written) (n := 65) (by decide)), r1_wr (List.getElem_mem (l := r1_written) (n := 66) (by decide)), r1_wr (List.getElem_mem (l := r1_written) (n := 67) (by decide)), r1_wr (List.getElem_mem (l := r1_written) (n := 68) (by decide)), r1_wr (List.getElem_mem (l := r1_written) (n := 69) (by decide)), r1_wr (List.getElem_mem (l := r1_written) (n := 70) (by decide)), r1_wr (List.getElem_mem (l := r1_written) (n := 71) (by decide)), r1_wr (List.getElem_mem (l := r1_written) (n := 72) (by decide)), r1_wr (List.getElem_mem (l := r1_written) (n := 73) (by decide)), r1_wr (List.getElem_mem (l := r1_written) (n := 74) (by decide)), r1_wr (List.getElem_mem (l := r1_written) (n := 75) (by decide)), r1_wr (List.getElem_mem (l := r1_written) (n := 76) (by decide)), r1_wr (List.getElem_mem (l := r1_written) (n := 77) (by decide)), r1_wr (List.getElem_mem (l := r1_written) (n := 78) (by decide)), r1_wr (List.getElem_mem (l := r1_written) (n := 79) (by decide)), r1_wr (List.getElem_mem (l := r1_written) (n := 80) (by decide)), r1_wr (List.getElem_mem (l := r1_written) (n := 81) (by decide)), r1_wr (List.getElem_mem (l := r1_written) (n := 82) (by decide)), r1_wr (List.getElem_mem (l := r1_written) (n := 83) (by decide)), r1_wr (List.getElem_mem (l := r1_written) (n := 84) (by decide)), r1_wr (List.getElem_mem (l := r1_written) (n := 85) (by decide)), r1_wr (List.getElem_mem (l := r1_written) (n := 86) (by decide)), r1_wr (List.getElem_mem (l := r1_written) (n := 87) (by decide)), r1_wr (List.getElem_mem (l := r1_written) (n := 88) (by decide)), r1_wr (List.getElem_mem (l := r1_written) (n := 89) (by decide)), r1_wr (List.getElem_mem (l := r1_written) (n := 90) (by decide)), r1_wr (List.getElem_mem (l := r1_written) (n := 91) (by decide)), r1_wr (List.getElem_mem (l := r1_written) (n := 92) (by decide)), r1_wr (List.getElem_mem (l := r1_written) (n := 93) (by decide)), r1_wr (List.getElem_mem (l := r1_written) (n := 94) (by decide)), r1_wr (List.getElem_mem (l := r1_written) (n := 95) (by decide)), r1_wr (List.getElem_mem (l := r1_written) (n := 96) (by decide)), r1_wr (List.getElem_mem (l := r1_written) (n := 97) (by decide)), r1_wr (List.getElem_mem (l := r1_written) (n := 98) (by decide)), r1_wr (List.getElem_mem (l := r1_written) (n := 99) (by decide)), r1_wr (List.getElem_mem (l := r1_written) (n := 100) (by decide)), r1_wr (List.getElem_mem (l := r1_written) (n := 101) (by decide)), r1_wr (List.getElem_mem (l := r1_written) (n := 102) (by decide))⟩
/-- A buffer that layer 1 does not write keeps its contents through it. -/
theorem r1_keep (V : Valuation τ sig (Elt F)) (r : Ref sig .tc) (hr : r ∉ r1_written) :
    after L1 V (Proc.devRef .tc r) = V (Proc.devRef .tc r) := after_of_writes_sub L1 V r1_writes hr

/-- The operations of layer 2 (103 of them). -/
abbrev L2 : List (HloOp τ sig (Elt F)) :=
  [ StableHlo.unary main_arg11 main_v121 ((extractStridedSlice S1x3x128 ![1, 0, 0] · slices_S4x3x128_S1x3x128_1_0_0) : (⟨S4x3x128, .f32⟩ : BufTy).Contents (Elt F) → (⟨S1x3x128, .f32⟩ : BufTy).Contents (Elt F)),
    StableHlo.reshape main_v121 main_v122 rfl shapeCasts_S1x3x128_S3x128,
    StableHlo.unary main_arg12 main_v123 ((extractStridedSlice S1x128 ![1, 0] · slices_S4x128_S1x128_1_0) : (⟨S4x128, .f32⟩ : BufTy).Contents (Elt F) → (⟨S1x128, .f32⟩ : BufTy).Contents (Elt F)),
    StableHlo.reshape main_v123 main_v124 rfl shapeCasts_S1x128_S128,
    StableHlo.unary main_arg19 main_v125 ((extractStridedSlice S1 ![1] · slices_S4_S1_1) : (⟨S4, .f32⟩ : BufTy).Contents (Elt F) → (⟨S1, .f32⟩ : BufTy).Contents (Elt F)),
    StableHlo.reshape main_v125 main_v126 rfl shapeCasts_S1_S_,
    StableHlo.unary main_arg13 main_v127 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v127 main_v128 rfl shapeCasts_S1x128x128_S128x128,
    StableHlo.unary main_arg14 main_v129 ((extractStridedSlice S1x128 ![1, 0] · slices_S4x128_S1x128_1_0) : (⟨S4x128, .f32⟩ : BufTy).Contents (Elt F) → (⟨S1x128, .f32⟩ : BufTy).Contents (Elt F)),
    StableHlo.reshape main_v129 main_v130 rfl shapeCasts_S1x128_S128,
    StableHlo.unary main_arg15 main_v131 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v131 main_v132 rfl shapeCasts_S1x128x128_S128x128,
    StableHlo.unary main_arg16 main_v133 ((extractStridedSlice S1x128 ![1, 0] · slices_S4x128_S1x128_1_0) : (⟨S4x128, .f32⟩ : BufTy).Contents (Elt F) → (⟨S1x128, .f32⟩ : BufTy).Contents (Elt F)),
    StableHlo.reshape main_v133 main_v134 rfl shapeCasts_S1x128_S128,
    StableHlo.unary main_arg17 main_v135 ((extractStridedSlice S1x128 ![1, 0] · slices_S4x128_S1x128_1_0) : (⟨S4x128, .f32⟩ : BufTy).Contents (Elt F) → (⟨S1x128, .f32⟩ : BufTy).Contents (Elt F)),
    StableHlo.reshape main_v135 main_v136 rfl shapeCasts_S1x128_S128,
    StableHlo.unary main_arg18 main_v137 ((extractStridedSlice S1x128 ![1, 0] · slices_S4x128_S1x128_1_0) : (⟨S4x128, .f32⟩ : BufTy).Contents (Elt F) → (⟨S1x128, .f32⟩ : BufTy).Contents (Elt F)),
    StableHlo.reshape main_v137 main_v138 rfl shapeCasts_S1x128_S128,
    StableHlo.nullary main_c_14 (constantI S_ 32 0#32),
    StableHlo.unary main_c_14 main_v139 (broadcastInDim S600000 ![] bcast_S_S600000 : (⟨S_, .i32⟩ : BufTy).Contents (Elt F) → (⟨S600000, .i32⟩ : BufTy).Contents (Elt F)),
    StableHlo.binary main_v1 main_v139 main_v140 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 100000#32),
    StableHlo.unary main_c_15 main_v141 (broadcastInDim S600000 ![] bcast_S_S600000 : (⟨S_, .i32⟩ : BufTy).Contents (Elt F) → (⟨S600000, .i32⟩ : BufTy).Contents (Elt F)),
    StableHlo.binary main_v1 main_v141 main_v142 (addi : (⟨S600000, .i32⟩ : BufTy).Contents (Elt F) → (⟨S600000, .i32⟩ : BufTy).Contents (Elt F) → (⟨S600000, .i32⟩ : BufTy).Contents (Elt F)),
    StableHlo.ternary main_v140 main_v142 main_v1 main_v143 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v143 main_v144 (broadcastInDim S600000x1 ![0] bcast_S600000_S600000x1_0 : (⟨S600000, .i32⟩ : BufTy).Contents (Elt F) → (⟨S600000x1, .i32⟩ : BufTy).Contents (Elt F)),
    StableHlo.binary main_v120 main_v144 main_v145 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_arg1 main_v122 main_v146 ((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F)),
    StableHlo.binary main_v145 main_v146 main_v147 (addf : (⟨S600000x128, .f32⟩ : BufTy).Contents (Elt F) → (⟨S600000x128, .f32⟩ : BufTy).Contents (Elt F) → (⟨S600000x128, .f32⟩ : BufTy).Contents (Elt F)),
    StableHlo.unary main_v124 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S600000x128 ![0, 1] bcast_S1x128_S600000x128_0_1 : (⟨S1x128, .f32⟩ : BufTy).Contents (Elt F) → (⟨S600000x128, .f32⟩ : BufTy).Contents (Elt F)),
    StableHlo.binary main_v147 main_v149 main_v150 (addf : (⟨S600000x128, .f32⟩ : BufTy).Contents (Elt F) → (⟨S600000x128, .f32⟩ : BufTy).Contents (Elt F) → (⟨S600000x128, .f32⟩ : BufTy).Contents (Elt F)),
    StableHlo.TRef.nullary main_call8.cst (constant S_ .f32 0x00000000#32),
    StableHlo.TRef.unary main_call8.cst main_call8.v0 (broadcastInDim S600000x128 ![] bcast_S_S600000x128),
    StableHlo.TRef.binary (.of main_v150) main_call8.v0 main_call8.v1 maximumf,
    StableHlo.nullary main_cst_16 (constant S_ .f32 0x00000000#32),
    StableHlo.unary main_cst_16 main_v152 (broadcastInDim S100000x128 ![] bcast_S_S100000x128 : (⟨S_, .f32⟩ : BufTy).Contents (Elt F) → (⟨S100000x128, .f32⟩ : BufTy).Contents (Elt F)),
    StableHlo.unary main_v3 main_v153 (broadcastInDim S600000x1 ![0] bcast_S600000_S600000x1_0 : (⟨S600000, .i32⟩ : BufTy).Contents (Elt F) → (⟨S600000x1, .i32⟩ : BufTy).Contents (Elt F)),
    StableHlo.ternary main_v152 main_v153 main_v151 main_v154 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_17 (constant S_ .f32 0x3F800000#32),
    StableHlo.binary main_cst_17 main_v126 main_v155 (addf : (⟨S_, .f32⟩ : BufTy).Contents (Elt F) → (⟨S_, .f32⟩ : BufTy).Contents (Elt F) → (⟨S_, .f32⟩ : BufTy).Contents (Elt F)),
    StableHlo.unary main_v155 main_v156 (broadcastInDim S100000x128 ![] bcast_S_S100000x128 : (⟨S_, .f32⟩ : BufTy).Contents (Elt F) → (⟨S100000x128, .f32⟩ : BufTy).Contents (Elt F)),
    StableHlo.binary main_v156 main_v120 main_v157 (mulf : (⟨S100000x128, .f32⟩ : BufTy).Contents (Elt F) → (⟨S100000x128, .f32⟩ : BufTy).Contents (Elt F) → (⟨S100000x128, .f32⟩ : BufTy).Contents (Elt F)),
    StableHlo.binary main_v157 main_v154 main_v158 (addf : (⟨S100000x128, .f32⟩ : BufTy).Contents (Elt F) → (⟨S100000x128, .f32⟩ : BufTy).Contents (Elt F) → (⟨S100000x128, .f32⟩ : BufTy).Contents (Elt F)),
    StableHlo.binary main_v158 main_v128 main_v159 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v130 main_v160 (broadcastInDim S1x128 ![1] bcast_S128_S1x128_1 : (⟨S128, .f32⟩ : BufTy).Contents (Elt F) → (⟨S1x128, .f32⟩ : BufTy).Contents (Elt F)),
    StableHlo.unary main_v160 main_v161 (broadcastInDim S100000x128 ![0, 1] bcast_S1x128_S100000x128_0_1 : (⟨S1x128, .f32⟩ : BufTy).Contents (Elt F) → (⟨S100000x128, .f32⟩ : BufTy).Contents (Elt F)),
    StableHlo.binary main_v159 main_v161 main_v162 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v162) main_call9.v0 main_call9.v1 maximumf,
    StableHlo.binary main_v163 main_v132 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v134 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S100000x128 ![0, 1] bcast_S1x128_S100000x128_0_1 : (⟨S1x128, .f32⟩ : BufTy).Contents (Elt F) → (⟨S100000x128, .f32⟩ : BufTy).Contents (Elt F)),
    StableHlo.binary main_v164 main_v166 main_v167 (addf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x00000000#32),
    StableHlo.binary main_v167 main_cst_18 main_v168 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_19 (constant S_ .f32 0x47C35000#32),
    StableHlo.unary main_cst_19 main_v169 (broadcastInDim S128 ![] bcast_S_S128 : (⟨S_, .f32⟩ : BufTy).Contents (Elt F) → (⟨S128, .f32⟩ : BufTy).Contents (Elt F)),
    StableHlo.binary main_v168 main_v169 main_v170 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call10.cst (constant S_ .f32 0x00000000#32),
    StableHlo.TRef.binary (.of main_v167) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (.of main_v167) main_call10.v4 main_call10.v5 subf,
    StableHlo.TRef.binary main_call10.v5 main_call10.v5 main_call10.v6 mulf,
    StableHlo.TRef.unary (.of main_c_20) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v170 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S100000x128 ![0, 1] bcast_S1x128_S100000x128_0_1 : (⟨S1x128, .f32⟩ : BufTy).Contents (Elt F) → (⟨S100000x128, .f32⟩ : BufTy).Contents (Elt F)),
    StableHlo.binary main_v167 main_v173 main_v174 (subf : (⟨S100000x128, .f32⟩ : BufTy).Contents (Elt F) → (⟨S100000x128, .f32⟩ : BufTy).Contents (Elt F) → (⟨S100000x128, .f32⟩ : BufTy).Contents (Elt F)),
    StableHlo.nullary main_cst_21 (constant S_ .f32 0x3727C5AC#32),
    StableHlo.unary main_cst_21 main_v175 (broadcastInDim S128 ![] bcast_S_S128 : (⟨S_, .f32⟩ : BufTy).Contents (Elt F) → (⟨S128, .f32⟩ : BufTy).Contents (Elt F)),
    StableHlo.binary main_v171 main_v175 main_v176 (addf : (⟨S128, .f32⟩ : BufTy).Contents (Elt F) → (⟨S128, .f32⟩ : BufTy).Contents (Elt F) → (⟨S128, .f32⟩ : BufTy).Contents (Elt F)),
    StableHlo.unary main_v176 main_v177 (Host.rsqrt : (⟨S128, .f32⟩ : BufTy).Contents (Elt F) → (⟨S128, .f32⟩ : BufTy).Contents (Elt F)),
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S100000x128 ![0, 1] bcast_S1x128_S100000x128_0_1 : (⟨S1x128, .f32⟩ : BufTy).Contents (Elt F) → (⟨S100000x128, .f32⟩ : BufTy).Contents (Elt F)),
    StableHlo.binary main_v174 main_v179 main_v180 (mulf : (⟨S100000x128, .f32⟩ : BufTy).Contents (Elt F) → (⟨S100000x128, .f32⟩ : BufTy).Contents (Elt F) → (⟨S100000x128, .f32⟩ : BufTy).Contents (Elt F)),
    StableHlo.unary main_v136 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S100000x128 ![0, 1] bcast_S1x128_S100000x128_0_1 : (⟨S1x128, .f32⟩ : BufTy).Contents (Elt F) → (⟨S100000x128, .f32⟩ : BufTy).Contents (Elt F)),
    StableHlo.binary main_v180 main_v182 main_v183 (mulf : (⟨S100000x128, .f32⟩ : BufTy).Contents (Elt F) → (⟨S100000x128, .f32⟩ : BufTy).Contents (Elt F) → (⟨S100000x128, .f32⟩ : BufTy).Contents (Elt F)),
    StableHlo.unary main_v138 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S100000x128 ![0, 1] bcast_S1x128_S100000x128_0_1 : (⟨S1x128, .f32⟩ : BufTy).Contents (Elt F) → (⟨S100000x128, .f32⟩ : BufTy).Contents (Elt F)),
    StableHlo.binary main_v183 main_v185 main_v186 (addf : (⟨S100000x128, .f32⟩ : BufTy).Contents (Elt F) → (⟨S100000x128, .f32⟩ : BufTy).Contents (Elt F) → (⟨S100000x128, .f32⟩ : BufTy).Contents (Elt F)),
    StableHlo.TRef.nullary main_call11.cst (constant S_ .f32 0x00000000#32),
    StableHlo.TRef.unary main_call11.cst main_call11.v0 (broadcastInDim S100000x128 ![] bcast_S_S100000x128),
    StableHlo.TRef.binary (.of main_v186) main_call11.v0 main_call11.v1 maximumf,
    StableHlo.binary main_v187 main_v120 main_v188 (addf : (⟨S100000x128, .f32⟩ : BufTy).Contents (Elt F) → (⟨S100000x128, .f32⟩ : BufTy).Contents (Elt F) → (⟨S100000x128, .f32⟩ : BufTy).Contents (Elt F)) ]

/-- The value of main_v145 from the inputs of layer 2. -/
def r2_v145 {F : FTy → Type} [FloatOps F] (x_v120 : FVec F S100000x128 .f32) (x_v1 : IVec S600000 32) : FVec F S600000x128 .f32 :=
  (((((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))) : (FVec F S100000x128 .f32) → (IVec S600000x1 32) → (FVec F S600000x128 .f32)) x_v120 ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) ((((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) : (IVec S600000 1) → (IVec S600000 32) → (IVec S600000 32) → (IVec S600000 32)) ((((cmpi .slt : (⟨S600000, .i32⟩ : BufTy).Contents (Elt F) → (⟨S600000, .i32⟩ : BufTy).Contents (Elt F) → (⟨S600000, .i1⟩ : BufTy).Contents (Elt F))) : (IVec S600000 32) → (IVec S600000 32) → (IVec S600000 1)) x_v1 ((((broadcastInDim S600000 ![] bcast_S_S600000 : (⟨S_, .i32⟩ : BufTy).Contents (Elt F) → (⟨S600000, .i32⟩ : BufTy).Contents (Elt F))) : (IVec S_ 32) → (IVec S600000 32)) (((constantI S_ 32 0#32)) : IVec S_ 32))) ((((addi : (⟨S600000, .i32⟩ : BufTy).Contents (Elt F) → (⟨S600000, .i32⟩ : BufTy).Contents (Elt F) → (⟨S600000, .i32⟩ : BufTy).Contents (Elt F))) : (IVec S600000 32) → (IVec S600000 32) → (IVec S600000 32)) x_v1 ((((broadcastInDim S600000 ![] bcast_S_S600000 : (⟨S_, .i32⟩ : BufTy).Contents (Elt F) → (⟨S600000, .i32⟩ : BufTy).Contents (Elt F))) : (IVec S_ 32) → (IVec S600000 32)) (((constantI S_ 32 100000#32)) : IVec S_ 32))) x_v1)))

/-- The value of main_v151 from the inputs of layer 2. -/
def r2_v151 {F : FTy → Type} [FloatOps F] (x_v120 : FVec F S100000x128 .f32) (x_v1 : IVec S600000 32) (x_arg1 : FVec F S600000x3 .f32) (x_arg11 : FVec F S4x3x128 .f32) (x_arg12 : FVec F S4x128 .f32) : FVec F S600000x128 .f32 :=
  (((maximumf) : (FVec F S600000x128 .f32) → (FVec F S600000x128 .f32) → (FVec F S600000x128 .f32)) ((((addf : (⟨S600000x128, .f32⟩ : BufTy).Contents (Elt F) → (⟨S600000x128, .f32⟩ : BufTy).Contents (Elt F) → (⟨S600000x128, .f32⟩ : BufTy).Contents (Elt F))) : (FVec F S600000x128 .f32) → (FVec F S600000x128 .f32) → (FVec F S600000x128 .f32)) ((((addf : (⟨S600000x128, .f32⟩ : BufTy).Contents (Elt F) → (⟨S600000x128, .f32⟩ : BufTy).Contents (Elt F) → (⟨S600000x128, .f32⟩ : BufTy).Contents (Elt F))) : (FVec F S600000x128 .f32) → (FVec F S600000x128 .f32) → (FVec F S600000x128 .f32)) (r2_v145 (F := F) x_v120 x_v1) (((((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F))) : (FVec F S600000x3 .f32) → (FVec F S3x128 .f32) → (FVec F S600000x128 .f32)) x_arg1 ((shapeCast _ (((((extractStridedSlice S1x3x128 ![1, 0, 0] · slices_S4x3x128_S1x3x128_1_0_0) : (⟨S4x3x128, .f32⟩ : BufTy).Contents (Elt F) → (⟨S1x3x128, .f32⟩ : BufTy).Contents (Elt F))) : (FVec F S4x3x128 .f32) → (FVec F S1x3x128 .f32)) x_arg11) shapeCasts_S1x3x128_S3x128) : FVec F S3x128 .f32))) ((((broadcastInDim S600000x128 ![0, 1] bcast_S1x128_S600000x128_0_1 : (⟨S1x128, .f32⟩ : BufTy).Contents (Elt F) → (⟨S600000x128, .f32⟩ : BufTy).Contents (Elt F))) : (FVec F S1x128 .f32) → (FVec F S600000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![1, 0] · slices_S4x128_S1x128_1_0) : (⟨S4x128, .f32⟩ : BufTy).Contents (Elt F) → (⟨S1x128, .f32⟩ : BufTy).Contents (Elt F))) : (FVec F S4x128 .f32) → (FVec F S1x128 .f32)) x_arg12) shapeCasts_S1x128_S128) : FVec F S128 .f32)))) ((((broadcastInDim S600000x128 ![] bcast_S_S600000x128)) : (FVec F S_ .f32) → (FVec F S600000x128 .f32)) (((constant S_ .f32 0x00000000#32)) : FVec F S_ .f32)))

/-- The value of main_v154 from the inputs of layer 2. -/
def r2_v154 {F : FTy → Type} [FloatOps F] (x_v3 : IVec S600000 32) (x_v120 : FVec F S100000x128 .f32) (x_v1 : IVec S600000 32) (x_arg1 : FVec F S600000x3 .f32) (x_arg11 : FVec F S4x3x128 .f32) (x_arg12 : FVec F S4x128 .f32) : FVec F S100000x128 .f32 :=
  (((((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))) : (FVec F S100000x128 .f32) → (IVec S600000x1 32) → (FVec F S600000x128 .f32) → (FVec F S100000x128 .f32)) ((((broadcastInDim S100000x128 ![] bcast_S_S100000x128 : (⟨S_, .f32⟩ : BufTy).Contents (Elt F) → (⟨S100000x128, .f32⟩ : BufTy).Contents (Elt F))) : (FVec F S_ .f32) → (FVec F S100000x128 .f32)) (((constant S_ .f32 0x00000000#32)) : FVec F S_ .f32)) ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) x_v3) (r2_v151 (F := F) x_v120 x_v1 x_arg1 x_arg11 x_arg12))

/-- The value of main_v167 from the inputs of layer 2. -/
def r2_v167 {F : FTy → Type} [FloatOps F] (x_arg19 : FVec F S4 .f32) (x_v120 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((broadcastInDim S100000x128 ![] bcast_S_S100000x128 : (⟨S_, .f32⟩ : BufTy).Contents (Elt F) → (⟨S100000x128, .f32⟩ : BufTy).Contents (Elt F))) : (FVec F S_ .f32) → (FVec F S100000x128 .f32)) ((((addf : (⟨S_, .f32⟩ : BufTy).Contents (Elt F) → (⟨S_, .f32⟩ : BufTy).Contents (Elt F) → (⟨S_, .f32⟩ : BufTy).Contents (Elt F))) : (FVec F S_ .f32) → (FVec F S_ .f32) → (FVec F S_ .f32)) (((constant S_ .f32 0x3F800000#32)) : FVec F S_ .f32) ((shapeCast _ (((((extractStridedSlice S1 ![1] · slices_S4_S1_1) : (⟨S4, .f32⟩ : BufTy).Contents (Elt F) → (⟨S1, .f32⟩ : BufTy).Contents (Elt F))) : (FVec F S4 .f32) → (FVec F S1 .f32)) x_arg19) shapeCasts_S1_S_) : FVec F S_ .f32))) x_v120) (r2_v154 (F := F) x_v3 x_v120 x_v1 x_arg1 x_arg11 x_arg12)) ((shapeCast _ (((((extractStridedSlice S1x128x128 ![1, 0, 0] · slices_S4x128x128_S1x128x128_1_0_0) : (⟨S4x128x128, .f32⟩ : BufTy).Contents (Elt F) → (⟨S1x128x128, .f32⟩ : BufTy).Contents (Elt F))) : (FVec F S4x128x128 .f32) → (FVec F S1x128x128 .f32)) x_arg13) shapeCasts_S1x128x128_S128x128) : FVec F S128x128 .f32)) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![1, 0] · slices_S4x128_S1x128_1_0) : (⟨S4x128, .f32⟩ : BufTy).Contents (Elt F) → (⟨S1x128, .f32⟩ : BufTy).Contents (Elt F))) : (FVec F S4x128 .f32) → (FVec F S1x128 .f32)) x_arg14) shapeCasts_S1x128_S128) : FVec F S128 .f32)))) ((((broadcastInDim S100000x128 ![] bcast_S_S100000x128)) : (FVec F S_ .f32) → (FVec F S100000x128 .f32)) (((constant S_ .f32 0x00000000#32)) : FVec F S_ .f32))) ((shapeCast _ (((((extractStridedSlice S1x128x128 ![1, 0, 0] · slices_S4x128x128_S1x128x128_1_0_0) : (⟨S4x128x128, .f32⟩ : BufTy).Contents (Elt F) → (⟨S1x128x128, .f32⟩ : BufTy).Contents (Elt F))) : (FVec F S4x128x128 .f32) → (FVec F S1x128x128 .f32)) x_arg15) shapeCasts_S1x128x128_S128x128) : FVec F S128x128 .f32)) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![1, 0] · slices_S4x128_S1x128_1_0) : (⟨S4x128, .f32⟩ : BufTy).Contents (Elt F) → (⟨S1x128, .f32⟩ : BufTy).Contents (Elt F))) : (FVec F S4x128 .f32) → (FVec F S1x128 .f32)) x_arg16) shapeCasts_S1x128_S128) : FVec F S128 .f32))))

/-- The value of main_v170 from the inputs of layer 2. -/
def r2_v170 {F : FTy → Type} [FloatOps F] (x_arg19 : FVec F S4 .f32) (x_v120 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S128 .f32 :=
  ((((Host.divf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (((((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))) : (FVec F S100000x128 .f32) → (FVec F S_ .f32) → (FVec F S128 .f32)) (r2_v167 (F := F) x_arg19 x_v120 x_v3 x_v1 x_arg1 x_arg11 x_arg12 x_arg13 x_arg14 x_arg15 x_arg16) (((constant S_ .f32 0x00000000#32)) : FVec F S_ .f32)) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x47C35000#32)) : FVec F S_ .f32)))

/-- The value of main_v171 from the inputs of layer 2. -/
def r2_v171 {F : FTy → Type} [FloatOps F] (x_arg19 : FVec F S4 .f32) (x_v120 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S128 .f32 :=
  ((((fun p a b => select (broadcastInDim S128 ![] bcast_S_S128 p) a b)) : (IVec S_ 1) → (FVec F S128 .f32) → (FVec F S128 .f32) → (FVec F S128 .f32)) ((((cmpf .ogt)) : (FVec F S_ .f32) → (FVec F S_ .f32) → (IVec S_ 1)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))) (((constant S_ .f32 0x00000000#32)) : FVec F S_ .f32)) (((Host.divf) : (FVec F S128 .f32) → (FVec F S128 .f32) → (FVec F S128 .f32)) ((((fun x v => Host.reduceAdd x v reducesTo_S100000x128_S128_d0 h_S_)) : (FVec F S100000x128 .f32) → (FVec F S_ .f32) → (FVec F S128 .f32)) (((mulf) : (FVec F S100000x128 .f32) → (FVec F S100000x128 .f32) → (FVec F S100000x128 .f32)) (((subf) : (FVec F S100000x128 .f32) → (FVec F S100000x128 .f32) → (FVec F S100000x128 .f32)) (r2_v167 (F := F) x_arg19 x_v120 x_v3 x_v1 x_arg1 x_arg11 x_arg12 x_arg13 x_arg14 x_arg15 x_arg16) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r2_v167 (F := F) x_arg19 x_v120 x_v3 x_v1 x_arg1 x_arg11 x_arg12 x_arg13 x_arg14 x_arg15 x_arg16) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32))))) (((subf) : (FVec F S100000x128 .f32) → (FVec F S100000x128 .f32) → (FVec F S100000x128 .f32)) (r2_v167 (F := F) x_arg19 x_v120 x_v3 x_v1 x_arg1 x_arg11 x_arg12 x_arg13 x_arg14 x_arg15 x_arg16) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r2_v167 (F := F) x_arg19 x_v120 x_v3 x_v1 x_arg1 x_arg11 x_arg12 x_arg13 x_arg14 x_arg15 x_arg16) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32)))))) (((constant S_ .f32 0x00000000#32)) : FVec F S_ .f32)) ((((broadcastInDim S128 ![] bcast_S_S128)) : (FVec F S_ .f32) → (FVec F S128 .f32)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))))) ((((broadcastInDim S128 ![] bcast_S_S128)) : (FVec F S_ .f32) → (FVec F S128 .f32)) (((id) : (FVec F S_ .f32) → (FVec F S_ .f32)) (((constant S_ .f32 0x7FC00000#32)) : FVec F S_ .f32))))

/-- The value of main_v187 from the inputs of layer 2. -/
def r2_v187 {F : FTy → Type} [FloatOps F] (x_arg19 : FVec F S4 .f32) (x_v120 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) : FVec F S100000x128 .f32 :=
  (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((subf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r2_v167 (F := F) x_arg19 x_v120 x_v3 x_v1 x_arg1 x_arg11 x_arg12 x_arg13 x_arg14 x_arg15 x_arg16) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) (r2_v170 (F := F) x_arg19 x_v120 x_v3 x_v1 x_arg1 x_arg11 x_arg12 x_arg13 x_arg14 x_arg15 x_arg16)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((((Host.rsqrt : (⟨S128, .f32⟩ : BufTy).Contents (Elt F) → (⟨S128, .f32⟩ : BufTy).Contents (Elt F))) : (FVec F S128 .f32) → (FVec F S128 .f32)) ((((addf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (r2_v171 (F := F) x_arg19 x_v120 x_v3 x_v1 x_arg1 x_arg11 x_arg12 x_arg13 x_arg14 x_arg15 x_arg16) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x3727C5AC#32)) : FVec F S_ .f32))))))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![1, 0] · slices_S4x128_S1x128_1_0) : (⟨S4x128, .f32⟩ : BufTy).Contents (Elt F) → (⟨S1x128, .f32⟩ : BufTy).Contents (Elt F))) : (FVec F S4x128 .f32) → (FVec F S1x128 .f32)) x_arg17) shapeCasts_S1x128_S128) : FVec F S128 .f32)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![1, 0] · slices_S4x128_S1x128_1_0) : (⟨S4x128, .f32⟩ : BufTy).Contents (Elt F) → (⟨S1x128, .f32⟩ : BufTy).Contents (Elt F))) : (FVec F S4x128 .f32) → (FVec F S1x128 .f32)) x_arg18) shapeCasts_S1x128_S128) : FVec F S128 .f32)))) ((((broadcastInDim S100000x128 ![] bcast_S_S100000x128)) : (FVec F S_ .f32) → (FVec F S100000x128 .f32)) (((constant S_ .f32 0x00000000#32)) : FVec F S_ .f32)))

/-- The value of main_v188 from the inputs of layer 2. -/
def r2_v188 {F : FTy → Type} [FloatOps F] (x_arg19 : FVec F S4 .f32) (x_v120 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r2_v187 (F := F) x_arg19 x_v120 x_v3 x_v1 x_arg1 x_arg11 x_arg12 x_arg13 x_arg14 x_arg15 x_arg16 x_arg17 x_arg18) x_v120)

set_option maxRecDepth 65536 in
set_option maxHeartbeats 20000000 in
theorem r2_read_v188 (V : Valuation τ sig (Elt F)) :
    after L2 V (Proc.devRef .tc main_v188) = r2_v188 (F := F) (V (Proc.devRef .tc main_arg19)) (V (Proc.devRef .tc main_v120)) (V (Proc.devRef .tc main_v3)) (V (Proc.devRef .tc main_v1)) (V (Proc.devRef .tc main_arg1)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  after_results_simp <;> rfl

/-- The buffers that layer 2 writes. -/
abbrev r2_written : List (Ref sig .tc) := [main_v121, main_v122, main_v123, main_v124, main_v125, main_v126, main_v127, main_v128, main_v129, main_v130, main_v131, main_v132, main_v133, main_v134, main_v135, main_v136, main_v137, main_v138, main_c_14, main_v139, main_v140, main_c_15, main_v141, main_v142, main_v143, main_v144, main_v145, main_v146, main_v147, main_v148, main_v149, main_v150, main_call8_cst, main_call8_v0, main_v151, main_cst_16, main_v152, main_v153, main_v154, main_cst_17, main_v155, main_v156, main_v157, main_v158, main_v159, main_v160, main_v161, main_v162, main_call9_cst, main_call9_v0, main_v163, main_v164, main_v165, main_v166, main_v167, main_cst_18, main_v168, main_cst_19, main_v169, main_v170, main_c_20, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v171, main_v172, main_v173, main_v174, main_cst_21, main_v175, main_v176, main_v177, main_v178, main_v179, main_v180, main_v181, main_v182, main_v183, main_v184, main_v185, main_v186, main_call11_cst, main_call11_v0, main_v187, main_v188]
theorem r2_wr {y : Ref sig .tc} (h : y ∈ r2_written) :
    ({Proc.devRef .tc y} : Finset (DevRef τ sig)) ⊆ (r2_written.map (Proc.devRef (τ := τ) .tc)).toFinset :=
  Finset.singleton_subset_iff.mpr (List.mem_toFinset.mpr (List.mem_map_of_mem h))
set_option maxRecDepth 65536 in
theorem r2_writes : (L2 : List (HloOp τ sig (Elt F))).Forall fun op => op.writes ⊆ (r2_written.map (Proc.devRef (τ := τ) .tc)).toFinset :=
  ⟨r2_wr (List.getElem_mem (l := r2_written) (n := 0) (by decide)), r2_wr (List.getElem_mem (l := r2_written) (n := 1) (by decide)), r2_wr (List.getElem_mem (l := r2_written) (n := 2) (by decide)), r2_wr (List.getElem_mem (l := r2_written) (n := 3) (by decide)), r2_wr (List.getElem_mem (l := r2_written) (n := 4) (by decide)), r2_wr (List.getElem_mem (l := r2_written) (n := 5) (by decide)), r2_wr (List.getElem_mem (l := r2_written) (n := 6) (by decide)), r2_wr (List.getElem_mem (l := r2_written) (n := 7) (by decide)), r2_wr (List.getElem_mem (l := r2_written) (n := 8) (by decide)), r2_wr (List.getElem_mem (l := r2_written) (n := 9) (by decide)), r2_wr (List.getElem_mem (l := r2_written) (n := 10) (by decide)), r2_wr (List.getElem_mem (l := r2_written) (n := 11) (by decide)), r2_wr (List.getElem_mem (l := r2_written) (n := 12) (by decide)), r2_wr (List.getElem_mem (l := r2_written) (n := 13) (by decide)), r2_wr (List.getElem_mem (l := r2_written) (n := 14) (by decide)), r2_wr (List.getElem_mem (l := r2_written) (n := 15) (by decide)), r2_wr (List.getElem_mem (l := r2_written) (n := 16) (by decide)), r2_wr (List.getElem_mem (l := r2_written) (n := 17) (by decide)), r2_wr (List.getElem_mem (l := r2_written) (n := 18) (by decide)), r2_wr (List.getElem_mem (l := r2_written) (n := 19) (by decide)), r2_wr (List.getElem_mem (l := r2_written) (n := 20) (by decide)), r2_wr (List.getElem_mem (l := r2_written) (n := 21) (by decide)), r2_wr (List.getElem_mem (l := r2_written) (n := 22) (by decide)), r2_wr (List.getElem_mem (l := r2_written) (n := 23) (by decide)), r2_wr (List.getElem_mem (l := r2_written) (n := 24) (by decide)), r2_wr (List.getElem_mem (l := r2_written) (n := 25) (by decide)), r2_wr (List.getElem_mem (l := r2_written) (n := 26) (by decide)), r2_wr (List.getElem_mem (l := r2_written) (n := 27) (by decide)), r2_wr (List.getElem_mem (l := r2_written) (n := 28) (by decide)), r2_wr (List.getElem_mem (l := r2_written) (n := 29) (by decide)), r2_wr (List.getElem_mem (l := r2_written) (n := 30) (by decide)), r2_wr (List.getElem_mem (l := r2_written) (n := 31) (by decide)), r2_wr (List.getElem_mem (l := r2_written) (n := 32) (by decide)), r2_wr (List.getElem_mem (l := r2_written) (n := 33) (by decide)), r2_wr (List.getElem_mem (l := r2_written) (n := 34) (by decide)), r2_wr (List.getElem_mem (l := r2_written) (n := 35) (by decide)), r2_wr (List.getElem_mem (l := r2_written) (n := 36) (by decide)), r2_wr (List.getElem_mem (l := r2_written) (n := 37) (by decide)), r2_wr (List.getElem_mem (l := r2_written) (n := 38) (by decide)), r2_wr (List.getElem_mem (l := r2_written) (n := 39) (by decide)), r2_wr (List.getElem_mem (l := r2_written) (n := 40) (by decide)), r2_wr (List.getElem_mem (l := r2_written) (n := 41) (by decide)), r2_wr (List.getElem_mem (l := r2_written) (n := 42) (by decide)), r2_wr (List.getElem_mem (l := r2_written) (n := 43) (by decide)), r2_wr (List.getElem_mem (l := r2_written) (n := 44) (by decide)), r2_wr (List.getElem_mem (l := r2_written) (n := 45) (by decide)), r2_wr (List.getElem_mem (l := r2_written) (n := 46) (by decide)), r2_wr (List.getElem_mem (l := r2_written) (n := 47) (by decide)), r2_wr (List.getElem_mem (l := r2_written) (n := 48) (by decide)), r2_wr (List.getElem_mem (l := r2_written) (n := 49) (by decide)), r2_wr (List.getElem_mem (l := r2_written) (n := 50) (by decide)), r2_wr (List.getElem_mem (l := r2_written) (n := 51) (by decide)), r2_wr (List.getElem_mem (l := r2_written) (n := 52) (by decide)), r2_wr (List.getElem_mem (l := r2_written) (n := 53) (by decide)), r2_wr (List.getElem_mem (l := r2_written) (n := 54) (by decide)), r2_wr (List.getElem_mem (l := r2_written) (n := 55) (by decide)), r2_wr (List.getElem_mem (l := r2_written) (n := 56) (by decide)), r2_wr (List.getElem_mem (l := r2_written) (n := 57) (by decide)), r2_wr (List.getElem_mem (l := r2_written) (n := 58) (by decide)), r2_wr (List.getElem_mem (l := r2_written) (n := 59) (by decide)), r2_wr (List.getElem_mem (l := r2_written) (n := 60) (by decide)), r2_wr (List.getElem_mem (l := r2_written) (n := 61) (by decide)), r2_wr (List.getElem_mem (l := r2_written) (n := 62) (by decide)), r2_wr (List.getElem_mem (l := r2_written) (n := 63) (by decide)), r2_wr (List.getElem_mem (l := r2_written) (n := 64) (by decide)), r2_wr (List.getElem_mem (l := r2_written) (n := 65) (by decide)), r2_wr (List.getElem_mem (l := r2_written) (n := 66) (by decide)), r2_wr (List.getElem_mem (l := r2_written) (n := 67) (by decide)), r2_wr (List.getElem_mem (l := r2_written) (n := 68) (by decide)), r2_wr (List.getElem_mem (l := r2_written) (n := 69) (by decide)), r2_wr (List.getElem_mem (l := r2_written) (n := 70) (by decide)), r2_wr (List.getElem_mem (l := r2_written) (n := 71) (by decide)), r2_wr (List.getElem_mem (l := r2_written) (n := 72) (by decide)), r2_wr (List.getElem_mem (l := r2_written) (n := 73) (by decide)), r2_wr (List.getElem_mem (l := r2_written) (n := 74) (by decide)), r2_wr (List.getElem_mem (l := r2_written) (n := 75) (by decide)), r2_wr (List.getElem_mem (l := r2_written) (n := 76) (by decide)), r2_wr (List.getElem_mem (l := r2_written) (n := 77) (by decide)), r2_wr (List.getElem_mem (l := r2_written) (n := 78) (by decide)), r2_wr (List.getElem_mem (l := r2_written) (n := 79) (by decide)), r2_wr (List.getElem_mem (l := r2_written) (n := 80) (by decide)), r2_wr (List.getElem_mem (l := r2_written) (n := 81) (by decide)), r2_wr (List.getElem_mem (l := r2_written) (n := 82) (by decide)), r2_wr (List.getElem_mem (l := r2_written) (n := 83) (by decide)), r2_wr (List.getElem_mem (l := r2_written) (n := 84) (by decide)), r2_wr (List.getElem_mem (l := r2_written) (n := 85) (by decide)), r2_wr (List.getElem_mem (l := r2_written) (n := 86) (by decide)), r2_wr (List.getElem_mem (l := r2_written) (n := 87) (by decide)), r2_wr (List.getElem_mem (l := r2_written) (n := 88) (by decide)), r2_wr (List.getElem_mem (l := r2_written) (n := 89) (by decide)), r2_wr (List.getElem_mem (l := r2_written) (n := 90) (by decide)), r2_wr (List.getElem_mem (l := r2_written) (n := 91) (by decide)), r2_wr (List.getElem_mem (l := r2_written) (n := 92) (by decide)), r2_wr (List.getElem_mem (l := r2_written) (n := 93) (by decide)), r2_wr (List.getElem_mem (l := r2_written) (n := 94) (by decide)), r2_wr (List.getElem_mem (l := r2_written) (n := 95) (by decide)), r2_wr (List.getElem_mem (l := r2_written) (n := 96) (by decide)), r2_wr (List.getElem_mem (l := r2_written) (n := 97) (by decide)), r2_wr (List.getElem_mem (l := r2_written) (n := 98) (by decide)), r2_wr (List.getElem_mem (l := r2_written) (n := 99) (by decide)), r2_wr (List.getElem_mem (l := r2_written) (n := 100) (by decide)), r2_wr (List.getElem_mem (l := r2_written) (n := 101) (by decide)), r2_wr (List.getElem_mem (l := r2_written) (n := 102) (by decide))⟩
/-- A buffer that layer 2 does not write keeps its contents through it. -/
theorem r2_keep (V : Valuation τ sig (Elt F)) (r : Ref sig .tc) (hr : r ∉ r2_written) :
    after L2 V (Proc.devRef .tc r) = V (Proc.devRef .tc r) := after_of_writes_sub L2 V r2_writes hr

/-- The operations of layer 3 (103 of them). -/
abbrev L3 : List (HloOp τ sig (Elt F)) :=
  [ StableHlo.unary main_arg11 main_v189 ((extractStridedSlice S1x3x128 ![2, 0, 0] · slices_S4x3x128_S1x3x128_2_0_0) : (⟨S4x3x128, .f32⟩ : BufTy).Contents (Elt F) → (⟨S1x3x128, .f32⟩ : BufTy).Contents (Elt F)),
    StableHlo.reshape main_v189 main_v190 rfl shapeCasts_S1x3x128_S3x128,
    StableHlo.unary main_arg12 main_v191 ((extractStridedSlice S1x128 ![2, 0] · slices_S4x128_S1x128_2_0) : (⟨S4x128, .f32⟩ : BufTy).Contents (Elt F) → (⟨S1x128, .f32⟩ : BufTy).Contents (Elt F)),
    StableHlo.reshape main_v191 main_v192 rfl shapeCasts_S1x128_S128,
    StableHlo.unary main_arg19 main_v193 ((extractStridedSlice S1 ![2] · slices_S4_S1_2) : (⟨S4, .f32⟩ : BufTy).Contents (Elt F) → (⟨S1, .f32⟩ : BufTy).Contents (Elt F)),
    StableHlo.reshape main_v193 main_v194 rfl shapeCasts_S1_S_,
    StableHlo.unary main_arg13 main_v195 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v195 main_v196 rfl shapeCasts_S1x128x128_S128x128,
    StableHlo.unary main_arg14 main_v197 ((extractStridedSlice S1x128 ![2, 0] · slices_S4x128_S1x128_2_0) : (⟨S4x128, .f32⟩ : BufTy).Contents (Elt F) → (⟨S1x128, .f32⟩ : BufTy).Contents (Elt F)),
    StableHlo.reshape main_v197 main_v198 rfl shapeCasts_S1x128_S128,
    StableHlo.unary main_arg15 main_v199 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v199 main_v200 rfl shapeCasts_S1x128x128_S128x128,
    StableHlo.unary main_arg16 main_v201 ((extractStridedSlice S1x128 ![2, 0] · slices_S4x128_S1x128_2_0) : (⟨S4x128, .f32⟩ : BufTy).Contents (Elt F) → (⟨S1x128, .f32⟩ : BufTy).Contents (Elt F)),
    StableHlo.reshape main_v201 main_v202 rfl shapeCasts_S1x128_S128,
    StableHlo.unary main_arg17 main_v203 ((extractStridedSlice S1x128 ![2, 0] · slices_S4x128_S1x128_2_0) : (⟨S4x128, .f32⟩ : BufTy).Contents (Elt F) → (⟨S1x128, .f32⟩ : BufTy).Contents (Elt F)),
    StableHlo.reshape main_v203 main_v204 rfl shapeCasts_S1x128_S128,
    StableHlo.unary main_arg18 main_v205 ((extractStridedSlice S1x128 ![2, 0] · slices_S4x128_S1x128_2_0) : (⟨S4x128, .f32⟩ : BufTy).Contents (Elt F) → (⟨S1x128, .f32⟩ : BufTy).Contents (Elt F)),
    StableHlo.reshape main_v205 main_v206 rfl shapeCasts_S1x128_S128,
    StableHlo.nullary main_c_22 (constantI S_ 32 0#32),
    StableHlo.unary main_c_22 main_v207 (broadcastInDim S600000 ![] bcast_S_S600000 : (⟨S_, .i32⟩ : BufTy).Contents (Elt F) → (⟨S600000, .i32⟩ : BufTy).Contents (Elt F)),
    StableHlo.binary main_v1 main_v207 main_v208 (cmpi .slt : (⟨S600000, .i32⟩ : BufTy).Contents (Elt F) → (⟨S600000, .i32⟩ : BufTy).Contents (Elt F) → (⟨S600000, .i1⟩ : BufTy).Contents (Elt F)),
    StableHlo.nullary main_c_23 (constantI S_ 32 100000#32),
    StableHlo.unary main_c_23 main_v209 (broadcastInDim S600000 ![] bcast_S_S600000 : (⟨S_, .i32⟩ : BufTy).Contents (Elt F) → (⟨S600000, .i32⟩ : BufTy).Contents (Elt F)),
    StableHlo.binary main_v1 main_v209 main_v210 (addi : (⟨S600000, .i32⟩ : BufTy).Contents (Elt F) → (⟨S600000, .i32⟩ : BufTy).Contents (Elt F) → (⟨S600000, .i32⟩ : BufTy).Contents (Elt F)),
    StableHlo.ternary main_v208 main_v210 main_v1 main_v211 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v211 main_v212 (broadcastInDim S600000x1 ![0] bcast_S600000_S600000x1_0 : (⟨S600000, .i32⟩ : BufTy).Contents (Elt F) → (⟨S600000x1, .i32⟩ : BufTy).Contents (Elt F)),
    StableHlo.binary main_v188 main_v212 main_v213 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_arg1 main_v190 main_v214 ((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F)),
    StableHlo.binary main_v213 main_v214 main_v215 (addf : (⟨S600000x128, .f32⟩ : BufTy).Contents (Elt F) → (⟨S600000x128, .f32⟩ : BufTy).Contents (Elt F) → (⟨S600000x128, .f32⟩ : BufTy).Contents (Elt F)),
    StableHlo.unary main_v192 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S600000x128 ![0, 1] bcast_S1x128_S600000x128_0_1 : (⟨S1x128, .f32⟩ : BufTy).Contents (Elt F) → (⟨S600000x128, .f32⟩ : BufTy).Contents (Elt F)),
    StableHlo.binary main_v215 main_v217 main_v218 (addf : (⟨S600000x128, .f32⟩ : BufTy).Contents (Elt F) → (⟨S600000x128, .f32⟩ : BufTy).Contents (Elt F) → (⟨S600000x128, .f32⟩ : BufTy).Contents (Elt F)),
    StableHlo.TRef.nullary main_call12.cst (constant S_ .f32 0x00000000#32),
    StableHlo.TRef.unary main_call12.cst main_call12.v0 (broadcastInDim S600000x128 ![] bcast_S_S600000x128),
    StableHlo.TRef.binary (.of main_v218) main_call12.v0 main_call12.v1 maximumf,
    StableHlo.nullary main_cst_24 (constant S_ .f32 0x00000000#32),
    StableHlo.unary main_cst_24 main_v220 (broadcastInDim S100000x128 ![] bcast_S_S100000x128 : (⟨S_, .f32⟩ : BufTy).Contents (Elt F) → (⟨S100000x128, .f32⟩ : BufTy).Contents (Elt F)),
    StableHlo.unary main_v3 main_v221 (broadcastInDim S600000x1 ![0] bcast_S600000_S600000x1_0 : (⟨S600000, .i32⟩ : BufTy).Contents (Elt F) → (⟨S600000x1, .i32⟩ : BufTy).Contents (Elt F)),
    StableHlo.ternary main_v220 main_v221 main_v219 main_v222 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_25 (constant S_ .f32 0x3F800000#32),
    StableHlo.binary main_cst_25 main_v194 main_v223 (addf : (⟨S_, .f32⟩ : BufTy).Contents (Elt F) → (⟨S_, .f32⟩ : BufTy).Contents (Elt F) → (⟨S_, .f32⟩ : BufTy).Contents (Elt F)),
    StableHlo.unary main_v223 main_v224 (broadcastInDim S100000x128 ![] bcast_S_S100000x128 : (⟨S_, .f32⟩ : BufTy).Contents (Elt F) → (⟨S100000x128, .f32⟩ : BufTy).Contents (Elt F)),
    StableHlo.binary main_v224 main_v188 main_v225 (mulf : (⟨S100000x128, .f32⟩ : BufTy).Contents (Elt F) → (⟨S100000x128, .f32⟩ : BufTy).Contents (Elt F) → (⟨S100000x128, .f32⟩ : BufTy).Contents (Elt F)),
    StableHlo.binary main_v225 main_v222 main_v226 (addf : (⟨S100000x128, .f32⟩ : BufTy).Contents (Elt F) → (⟨S100000x128, .f32⟩ : BufTy).Contents (Elt F) → (⟨S100000x128, .f32⟩ : BufTy).Contents (Elt F)),
    StableHlo.binary main_v226 main_v196 main_v227 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v198 main_v228 (broadcastInDim S1x128 ![1] bcast_S128_S1x128_1 : (⟨S128, .f32⟩ : BufTy).Contents (Elt F) → (⟨S1x128, .f32⟩ : BufTy).Contents (Elt F)),
    StableHlo.unary main_v228 main_v229 (broadcastInDim S100000x128 ![0, 1] bcast_S1x128_S100000x128_0_1 : (⟨S1x128, .f32⟩ : BufTy).Contents (Elt F) → (⟨S100000x128, .f32⟩ : BufTy).Contents (Elt F)),
    StableHlo.binary main_v227 main_v229 main_v230 (addf : (⟨S100000x128, .f32⟩ : BufTy).Contents (Elt F) → (⟨S100000x128, .f32⟩ : BufTy).Contents (Elt F) → (⟨S100000x128, .f32⟩ : BufTy).Contents (Elt F)),
    StableHlo.TRef.nullary main_call13.cst (constant S_ .f32 0x00000000#32),
    StableHlo.TRef.unary main_call13.cst main_call13.v0 (broadcastInDim S100000x128 ![] bcast_S_S100000x128),
    StableHlo.TRef.binary (.of main_v230) main_call13.v0 main_call13.v1 maximumf,
    StableHlo.binary main_v231 main_v200 main_v232 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v202 main_v233 (broadcastInDim S1x128 ![1] bcast_S128_S1x128_1 : (⟨S128, .f32⟩ : BufTy).Contents (Elt F) → (⟨S1x128, .f32⟩ : BufTy).Contents (Elt F)),
    StableHlo.unary main_v233 main_v234 (broadcastInDim S100000x128 ![0, 1] bcast_S1x128_S100000x128_0_1 : (⟨S1x128, .f32⟩ : BufTy).Contents (Elt F) → (⟨S100000x128, .f32⟩ : BufTy).Contents (Elt F)),
    StableHlo.binary main_v232 main_v234 main_v235 (addf : (⟨S100000x128, .f32⟩ : BufTy).Contents (Elt F) → (⟨S100000x128, .f32⟩ : BufTy).Contents (Elt F) → (⟨S100000x128, .f32⟩ : BufTy).Contents (Elt F)),
    StableHlo.nullary main_cst_26 (constant S_ .f32 0x00000000#32),
    StableHlo.binary main_v235 main_cst_26 main_v236 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_27 (constant S_ .f32 0x47C35000#32),
    StableHlo.unary main_cst_27 main_v237 (broadcastInDim S128 ![] bcast_S_S128 : (⟨S_, .f32⟩ : BufTy).Contents (Elt F) → (⟨S128, .f32⟩ : BufTy).Contents (Elt F)),
    StableHlo.binary main_v236 main_v237 main_v238 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary main_call14.cst (constant S_ .f32 0x00000000#32),
    StableHlo.TRef.binary (.of main_v235) main_call14.cst main_call14.v0 (fun x v => Host.reduceAdd x v reducesTo_S100000x128_S128_d0 h_S_),
    StableHlo.TRef.unary main_call14.v0 main_call14.v1 (broadcastInDim S1x128 ![1] bcast_S128_S1x128_1),
    StableHlo.TRef.nullary main_call14.cst_0 (constant S_ .f32 0x47C35000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S100000x128 ![0, 1] bcast_S1x128_S100000x128_0_1),
    StableHlo.TRef.binary (.of main_v235) main_call14.v4 main_call14.v5 subf,
    StableHlo.TRef.binary main_call14.v5 main_call14.v5 main_call14.v6 mulf,
    StableHlo.TRef.unary (.of main_c_28) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v238 main_v240 (broadcastInDim S1x128 ![1] bcast_S128_S1x128_1 : (⟨S128, .f32⟩ : BufTy).Contents (Elt F) → (⟨S1x128, .f32⟩ : BufTy).Contents (Elt F)),
    StableHlo.unary main_v240 main_v241 (broadcastInDim S100000x128 ![0, 1] bcast_S1x128_S100000x128_0_1 : (⟨S1x128, .f32⟩ : BufTy).Contents (Elt F) → (⟨S100000x128, .f32⟩ : BufTy).Contents (Elt F)),
    StableHlo.binary main_v235 main_v241 main_v242 (subf : (⟨S100000x128, .f32⟩ : BufTy).Contents (Elt F) → (⟨S100000x128, .f32⟩ : BufTy).Contents (Elt F) → (⟨S100000x128, .f32⟩ : BufTy).Contents (Elt F)),
    StableHlo.nullary main_cst_29 (constant S_ .f32 0x3727C5AC#32),
    StableHlo.unary main_cst_29 main_v243 (broadcastInDim S128 ![] bcast_S_S128 : (⟨S_, .f32⟩ : BufTy).Contents (Elt F) → (⟨S128, .f32⟩ : BufTy).Contents (Elt F)),
    StableHlo.binary main_v239 main_v243 main_v244 (addf : (⟨S128, .f32⟩ : BufTy).Contents (Elt F) → (⟨S128, .f32⟩ : BufTy).Contents (Elt F) → (⟨S128, .f32⟩ : BufTy).Contents (Elt F)),
    StableHlo.unary main_v244 main_v245 (Host.rsqrt : (⟨S128, .f32⟩ : BufTy).Contents (Elt F) → (⟨S128, .f32⟩ : BufTy).Contents (Elt F)),
    StableHlo.unary main_v245 main_v246 (broadcastInDim S1x128 ![1] bcast_S128_S1x128_1 : (⟨S128, .f32⟩ : BufTy).Contents (Elt F) → (⟨S1x128, .f32⟩ : BufTy).Contents (Elt F)),
    StableHlo.unary main_v246 main_v247 (broadcastInDim S100000x128 ![0, 1] bcast_S1x128_S100000x128_0_1 : (⟨S1x128, .f32⟩ : BufTy).Contents (Elt F) → (⟨S100000x128, .f32⟩ : BufTy).Contents (Elt F)),
    StableHlo.binary main_v242 main_v247 main_v248 (mulf : (⟨S100000x128, .f32⟩ : BufTy).Contents (Elt F) → (⟨S100000x128, .f32⟩ : BufTy).Contents (Elt F) → (⟨S100000x128, .f32⟩ : BufTy).Contents (Elt F)),
    StableHlo.unary main_v204 main_v249 (broadcastInDim S1x128 ![1] bcast_S128_S1x128_1 : (⟨S128, .f32⟩ : BufTy).Contents (Elt F) → (⟨S1x128, .f32⟩ : BufTy).Contents (Elt F)),
    StableHlo.unary main_v249 main_v250 (broadcastInDim S100000x128 ![0, 1] bcast_S1x128_S100000x128_0_1 : (⟨S1x128, .f32⟩ : BufTy).Contents (Elt F) → (⟨S100000x128, .f32⟩ : BufTy).Contents (Elt F)),
    StableHlo.binary main_v248 main_v250 main_v251 (mulf : (⟨S100000x128, .f32⟩ : BufTy).Contents (Elt F) → (⟨S100000x128, .f32⟩ : BufTy).Contents (Elt F) → (⟨S100000x128, .f32⟩ : BufTy).Contents (Elt F)),
    StableHlo.unary main_v206 main_v252 (broadcastInDim S1x128 ![1] bcast_S128_S1x128_1 : (⟨S128, .f32⟩ : BufTy).Contents (Elt F) → (⟨S1x128, .f32⟩ : BufTy).Contents (Elt F)),
    StableHlo.unary main_v252 main_v253 (broadcastInDim S100000x128 ![0, 1] bcast_S1x128_S100000x128_0_1 : (⟨S1x128, .f32⟩ : BufTy).Contents (Elt F) → (⟨S100000x128, .f32⟩ : BufTy).Contents (Elt F)),
    StableHlo.binary main_v251 main_v253 main_v254 (addf : (⟨S100000x128, .f32⟩ : BufTy).Contents (Elt F) → (⟨S100000x128, .f32⟩ : BufTy).Contents (Elt F) → (⟨S100000x128, .f32⟩ : BufTy).Contents (Elt F)),
    StableHlo.TRef.nullary main_call15.cst (constant S_ .f32 0x00000000#32),
    StableHlo.TRef.unary main_call15.cst main_call15.v0 (broadcastInDim S100000x128 ![] bcast_S_S100000x128),
    StableHlo.TRef.binary (.of main_v254) main_call15.v0 main_call15.v1 maximumf,
    StableHlo.binary main_v255 main_v188 main_v256 (addf : (⟨S100000x128, .f32⟩ : BufTy).Contents (Elt F) → (⟨S100000x128, .f32⟩ : BufTy).Contents (Elt F) → (⟨S100000x128, .f32⟩ : BufTy).Contents (Elt F)) ]

/-- The value of main_v213 from the inputs of layer 3. -/
def r3_v213 {F : FTy → Type} [FloatOps F] (x_v188 : FVec F S100000x128 .f32) (x_v1 : IVec S600000 32) : FVec F S600000x128 .f32 :=
  (((((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))) : (FVec F S100000x128 .f32) → (IVec S600000x1 32) → (FVec F S600000x128 .f32)) x_v188 ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) ((((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) : (IVec S600000 1) → (IVec S600000 32) → (IVec S600000 32) → (IVec S600000 32)) ((((cmpi .slt : (⟨S600000, .i32⟩ : BufTy).Contents (Elt F) → (⟨S600000, .i32⟩ : BufTy).Contents (Elt F) → (⟨S600000, .i1⟩ : BufTy).Contents (Elt F))) : (IVec S600000 32) → (IVec S600000 32) → (IVec S600000 1)) x_v1 ((((broadcastInDim S600000 ![] bcast_S_S600000 : (⟨S_, .i32⟩ : BufTy).Contents (Elt F) → (⟨S600000, .i32⟩ : BufTy).Contents (Elt F))) : (IVec S_ 32) → (IVec S600000 32)) (((constantI S_ 32 0#32)) : IVec S_ 32))) ((((addi : (⟨S600000, .i32⟩ : BufTy).Contents (Elt F) → (⟨S600000, .i32⟩ : BufTy).Contents (Elt F) → (⟨S600000, .i32⟩ : BufTy).Contents (Elt F))) : (IVec S600000 32) → (IVec S600000 32) → (IVec S600000 32)) x_v1 ((((broadcastInDim S600000 ![] bcast_S_S600000 : (⟨S_, .i32⟩ : BufTy).Contents (Elt F) → (⟨S600000, .i32⟩ : BufTy).Contents (Elt F))) : (IVec S_ 32) → (IVec S600000 32)) (((constantI S_ 32 100000#32)) : IVec S_ 32))) x_v1)))

/-- The value of main_v219 from the inputs of layer 3. -/
def r3_v219 {F : FTy → Type} [FloatOps F] (x_v188 : FVec F S100000x128 .f32) (x_v1 : IVec S600000 32) (x_arg1 : FVec F S600000x3 .f32) (x_arg11 : FVec F S4x3x128 .f32) (x_arg12 : FVec F S4x128 .f32) : FVec F S600000x128 .f32 :=
  (((maximumf) : (FVec F S600000x128 .f32) → (FVec F S600000x128 .f32) → (FVec F S600000x128 .f32)) ((((addf : (⟨S600000x128, .f32⟩ : BufTy).Contents (Elt F) → (⟨S600000x128, .f32⟩ : BufTy).Contents (Elt F) → (⟨S600000x128, .f32⟩ : BufTy).Contents (Elt F))) : (FVec F S600000x128 .f32) → (FVec F S600000x128 .f32) → (FVec F S600000x128 .f32)) ((((addf : (⟨S600000x128, .f32⟩ : BufTy).Contents (Elt F) → (⟨S600000x128, .f32⟩ : BufTy).Contents (Elt F) → (⟨S600000x128, .f32⟩ : BufTy).Contents (Elt F))) : (FVec F S600000x128 .f32) → (FVec F S600000x128 .f32) → (FVec F S600000x128 .f32)) (r3_v213 (F := F) x_v188 x_v1) (((((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F))) : (FVec F S600000x3 .f32) → (FVec F S3x128 .f32) → (FVec F S600000x128 .f32)) x_arg1 ((shapeCast _ (((((extractStridedSlice S1x3x128 ![2, 0, 0] · slices_S4x3x128_S1x3x128_2_0_0) : (⟨S4x3x128, .f32⟩ : BufTy).Contents (Elt F) → (⟨S1x3x128, .f32⟩ : BufTy).Contents (Elt F))) : (FVec F S4x3x128 .f32) → (FVec F S1x3x128 .f32)) x_arg11) shapeCasts_S1x3x128_S3x128) : FVec F S3x128 .f32))) ((((broadcastInDim S600000x128 ![0, 1] bcast_S1x128_S600000x128_0_1 : (⟨S1x128, .f32⟩ : BufTy).Contents (Elt F) → (⟨S600000x128, .f32⟩ : BufTy).Contents (Elt F))) : (FVec F S1x128 .f32) → (FVec F S600000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![2, 0] · slices_S4x128_S1x128_2_0) : (⟨S4x128, .f32⟩ : BufTy).Contents (Elt F) → (⟨S1x128, .f32⟩ : BufTy).Contents (Elt F))) : (FVec F S4x128 .f32) → (FVec F S1x128 .f32)) x_arg12) shapeCasts_S1x128_S128) : FVec F S128 .f32)))) ((((broadcastInDim S600000x128 ![] bcast_S_S600000x128)) : (FVec F S_ .f32) → (FVec F S600000x128 .f32)) (((constant S_ .f32 0x00000000#32)) : FVec F S_ .f32)))

/-- The value of main_v222 from the inputs of layer 3. -/
def r3_v222 {F : FTy → Type} [FloatOps F] (x_v3 : IVec S600000 32) (x_v188 : FVec F S100000x128 .f32) (x_v1 : IVec S600000 32) (x_arg1 : FVec F S600000x3 .f32) (x_arg11 : FVec F S4x3x128 .f32) (x_arg12 : FVec F S4x128 .f32) : FVec F S100000x128 .f32 :=
  (((((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))) : (FVec F S100000x128 .f32) → (IVec S600000x1 32) → (FVec F S600000x128 .f32) → (FVec F S100000x128 .f32)) ((((broadcastInDim S100000x128 ![] bcast_S_S100000x128 : (⟨S_, .f32⟩ : BufTy).Contents (Elt F) → (⟨S100000x128, .f32⟩ : BufTy).Contents (Elt F))) : (FVec F S_ .f32) → (FVec F S100000x128 .f32)) (((constant S_ .f32 0x00000000#32)) : FVec F S_ .f32)) ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) x_v3) (r3_v219 (F := F) x_v188 x_v1 x_arg1 x_arg11 x_arg12))

/-- The value of main_v235 from the inputs of layer 3. -/
def r3_v235 {F : FTy → Type} [FloatOps F] (x_arg19 : FVec F S4 .f32) (x_v188 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((broadcastInDim S100000x128 ![] bcast_S_S100000x128 : (⟨S_, .f32⟩ : BufTy).Contents (Elt F) → (⟨S100000x128, .f32⟩ : BufTy).Contents (Elt F))) : (FVec F S_ .f32) → (FVec F S100000x128 .f32)) ((((addf : (⟨S_, .f32⟩ : BufTy).Contents (Elt F) → (⟨S_, .f32⟩ : BufTy).Contents (Elt F) → (⟨S_, .f32⟩ : BufTy).Contents (Elt F))) : (FVec F S_ .f32) → (FVec F S_ .f32) → (FVec F S_ .f32)) (((constant S_ .f32 0x3F800000#32)) : FVec F S_ .f32) ((shapeCast _ (((((extractStridedSlice S1 ![2] · slices_S4_S1_2) : (⟨S4, .f32⟩ : BufTy).Contents (Elt F) → (⟨S1, .f32⟩ : BufTy).Contents (Elt F))) : (FVec F S4 .f32) → (FVec F S1 .f32)) x_arg19) shapeCasts_S1_S_) : FVec F S_ .f32))) x_v188) (r3_v222 (F := F) x_v3 x_v188 x_v1 x_arg1 x_arg11 x_arg12)) ((shapeCast _ (((((extractStridedSlice S1x128x128 ![2, 0, 0] · slices_S4x128x128_S1x128x128_2_0_0) : (⟨S4x128x128, .f32⟩ : BufTy).Contents (Elt F) → (⟨S1x128x128, .f32⟩ : BufTy).Contents (Elt F))) : (FVec F S4x128x128 .f32) → (FVec F S1x128x128 .f32)) x_arg13) shapeCasts_S1x128x128_S128x128) : FVec F S128x128 .f32)) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![2, 0] · slices_S4x128_S1x128_2_0) : (⟨S4x128, .f32⟩ : BufTy).Contents (Elt F) → (⟨S1x128, .f32⟩ : BufTy).Contents (Elt F))) : (FVec F S4x128 .f32) → (FVec F S1x128 .f32)) x_arg14) shapeCasts_S1x128_S128) : FVec F S128 .f32)))) ((((broadcastInDim S100000x128 ![] bcast_S_S100000x128)) : (FVec F S_ .f32) → (FVec F S100000x128 .f32)) (((constant S_ .f32 0x00000000#32)) : FVec F S_ .f32))) ((shapeCast _ (((((extractStridedSlice S1x128x128 ![2, 0, 0] · slices_S4x128x128_S1x128x128_2_0_0) : (⟨S4x128x128, .f32⟩ : BufTy).Contents (Elt F) → (⟨S1x128x128, .f32⟩ : BufTy).Contents (Elt F))) : (FVec F S4x128x128 .f32) → (FVec F S1x128x128 .f32)) x_arg15) shapeCasts_S1x128x128_S128x128) : FVec F S128x128 .f32)) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![2, 0] · slices_S4x128_S1x128_2_0) : (⟨S4x128, .f32⟩ : BufTy).Contents (Elt F) → (⟨S1x128, .f32⟩ : BufTy).Contents (Elt F))) : (FVec F S4x128 .f32) → (FVec F S1x128 .f32)) x_arg16) shapeCasts_S1x128_S128) : FVec F S128 .f32))))

/-- The value of main_v238 from the inputs of layer 3. -/
def r3_v238 {F : FTy → Type} [FloatOps F] (x_arg19 : FVec F S4 .f32) (x_v188 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S128 .f32 :=
  ((((Host.divf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (((((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))) : (FVec F S100000x128 .f32) → (FVec F S_ .f32) → (FVec F S128 .f32)) (r3_v235 (F := F) x_arg19 x_v188 x_v3 x_v1 x_arg1 x_arg11 x_arg12 x_arg13 x_arg14 x_arg15 x_arg16) (((constant S_ .f32 0x00000000#32)) : FVec F S_ .f32)) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x47C35000#32)) : FVec F S_ .f32)))

/-- The value of main_v239 from the inputs of layer 3. -/
def r3_v239 {F : FTy → Type} [FloatOps F] (x_arg19 : FVec F S4 .f32) (x_v188 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S128 .f32 :=
  ((((fun p a b => select (broadcastInDim S128 ![] bcast_S_S128 p) a b)) : (IVec S_ 1) → (FVec F S128 .f32) → (FVec F S128 .f32) → (FVec F S128 .f32)) ((((cmpf .ogt)) : (FVec F S_ .f32) → (FVec F S_ .f32) → (IVec S_ 1)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))) (((constant S_ .f32 0x00000000#32)) : FVec F S_ .f32)) (((Host.divf) : (FVec F S128 .f32) → (FVec F S128 .f32) → (FVec F S128 .f32)) ((((fun x v => Host.reduceAdd x v reducesTo_S100000x128_S128_d0 h_S_)) : (FVec F S100000x128 .f32) → (FVec F S_ .f32) → (FVec F S128 .f32)) (((mulf) : (FVec F S100000x128 .f32) → (FVec F S100000x128 .f32) → (FVec F S100000x128 .f32)) (((subf) : (FVec F S100000x128 .f32) → (FVec F S100000x128 .f32) → (FVec F S100000x128 .f32)) (r3_v235 (F := F) x_arg19 x_v188 x_v3 x_v1 x_arg1 x_arg11 x_arg12 x_arg13 x_arg14 x_arg15 x_arg16) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r3_v235 (F := F) x_arg19 x_v188 x_v3 x_v1 x_arg1 x_arg11 x_arg12 x_arg13 x_arg14 x_arg15 x_arg16) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32))))) (((subf) : (FVec F S100000x128 .f32) → (FVec F S100000x128 .f32) → (FVec F S100000x128 .f32)) (r3_v235 (F := F) x_arg19 x_v188 x_v3 x_v1 x_arg1 x_arg11 x_arg12 x_arg13 x_arg14 x_arg15 x_arg16) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r3_v235 (F := F) x_arg19 x_v188 x_v3 x_v1 x_arg1 x_arg11 x_arg12 x_arg13 x_arg14 x_arg15 x_arg16) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32)))))) (((constant S_ .f32 0x00000000#32)) : FVec F S_ .f32)) ((((broadcastInDim S128 ![] bcast_S_S128)) : (FVec F S_ .f32) → (FVec F S128 .f32)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))))) ((((broadcastInDim S128 ![] bcast_S_S128)) : (FVec F S_ .f32) → (FVec F S128 .f32)) (((id) : (FVec F S_ .f32) → (FVec F S_ .f32)) (((constant S_ .f32 0x7FC00000#32)) : FVec F S_ .f32))))

/-- The value of main_v255 from the inputs of layer 3. -/
def r3_v255 {F : FTy → Type} [FloatOps F] (x_arg19 : FVec F S4 .f32) (x_v188 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) : FVec F S100000x128 .f32 :=
  (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((subf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r3_v235 (F := F) x_arg19 x_v188 x_v3 x_v1 x_arg1 x_arg11 x_arg12 x_arg13 x_arg14 x_arg15 x_arg16) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) (r3_v238 (F := F) x_arg19 x_v188 x_v3 x_v1 x_arg1 x_arg11 x_arg12 x_arg13 x_arg14 x_arg15 x_arg16)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((((Host.rsqrt : (⟨S128, .f32⟩ : BufTy).Contents (Elt F) → (⟨S128, .f32⟩ : BufTy).Contents (Elt F))) : (FVec F S128 .f32) → (FVec F S128 .f32)) ((((addf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (r3_v239 (F := F) x_arg19 x_v188 x_v3 x_v1 x_arg1 x_arg11 x_arg12 x_arg13 x_arg14 x_arg15 x_arg16) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x3727C5AC#32)) : FVec F S_ .f32))))))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![2, 0] · slices_S4x128_S1x128_2_0) : (⟨S4x128, .f32⟩ : BufTy).Contents (Elt F) → (⟨S1x128, .f32⟩ : BufTy).Contents (Elt F))) : (FVec F S4x128 .f32) → (FVec F S1x128 .f32)) x_arg17) shapeCasts_S1x128_S128) : FVec F S128 .f32)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![2, 0] · slices_S4x128_S1x128_2_0) : (⟨S4x128, .f32⟩ : BufTy).Contents (Elt F) → (⟨S1x128, .f32⟩ : BufTy).Contents (Elt F))) : (FVec F S4x128 .f32) → (FVec F S1x128 .f32)) x_arg18) shapeCasts_S1x128_S128) : FVec F S128 .f32)))) ((((broadcastInDim S100000x128 ![] bcast_S_S100000x128)) : (FVec F S_ .f32) → (FVec F S100000x128 .f32)) (((constant S_ .f32 0x00000000#32)) : FVec F S_ .f32)))

/-- The value of main_v256 from the inputs of layer 3. -/
def r3_v256 {F : FTy → Type} [FloatOps F] (x_arg19 : FVec F S4 .f32) (x_v188 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r3_v255 (F := F) x_arg19 x_v188 x_v3 x_v1 x_arg1 x_arg11 x_arg12 x_arg13 x_arg14 x_arg15 x_arg16 x_arg17 x_arg18) x_v188)

set_option maxRecDepth 65536 in
set_option maxHeartbeats 20000000 in
theorem r3_read_v256 (V : Valuation τ sig (Elt F)) :
    after L3 V (Proc.devRef .tc main_v256) = r3_v256 (F := F) (V (Proc.devRef .tc main_arg19)) (V (Proc.devRef .tc main_v188)) (V (Proc.devRef .tc main_v3)) (V (Proc.devRef .tc main_v1)) (V (Proc.devRef .tc main_arg1)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  after_results_simp <;> rfl

/-- The buffers that layer 3 writes. -/
abbrev r3_written : List (Ref sig .tc) := [main_v189, main_v190, main_v191, main_v192, main_v193, main_v194, main_v195, main_v196, main_v197, main_v198, main_v199, main_v200, main_v201, main_v202, main_v203, main_v204, main_v205, main_v206, main_c_22, main_v207, main_v208, main_c_23, main_v209, main_v210, main_v211, main_v212, main_v213, main_v214, main_v215, main_v216, main_v217, main_v218, main_call12_cst, main_call12_v0, main_v219, main_cst_24, main_v220, main_v221, main_v222, main_cst_25, main_v223, main_v224, main_v225, main_v226, main_v227, main_v228, main_v229, main_v230, main_call13_cst, main_call13_v0, main_v231, main_v232, main_v233, main_v234, main_v235, main_cst_26, main_v236, main_cst_27, main_v237, main_v238, main_c_28, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v239, main_v240, main_v241, main_v242, main_cst_29, main_v243, main_v244, main_v245, main_v246, main_v247, main_v248, main_v249, main_v250, main_v251, main_v252, main_v253, main_v254, main_call15_cst, main_call15_v0, main_v255, main_v256]
theorem r3_wr {y : Ref sig .tc} (h : y ∈ r3_written) :
    ({Proc.devRef .tc y} : Finset (DevRef τ sig)) ⊆ (r3_written.map (Proc.devRef (τ := τ) .tc)).toFinset :=
  Finset.singleton_subset_iff.mpr (List.mem_toFinset.mpr (List.mem_map_of_mem h))
set_option maxRecDepth 65536 in
theorem r3_writes : (L3 : List (HloOp τ sig (Elt F))).Forall fun op => op.writes ⊆ (r3_written.map (Proc.devRef (τ := τ) .tc)).toFinset :=
  ⟨r3_wr (List.getElem_mem (l := r3_written) (n := 0) (by decide)), r3_wr (List.getElem_mem (l := r3_written) (n := 1) (by decide)), r3_wr (List.getElem_mem (l := r3_written) (n := 2) (by decide)), r3_wr (List.getElem_mem (l := r3_written) (n := 3) (by decide)), r3_wr (List.getElem_mem (l := r3_written) (n := 4) (by decide)), r3_wr (List.getElem_mem (l := r3_written) (n := 5) (by decide)), r3_wr (List.getElem_mem (l := r3_written) (n := 6) (by decide)), r3_wr (List.getElem_mem (l := r3_written) (n := 7) (by decide)), r3_wr (List.getElem_mem (l := r3_written) (n := 8) (by decide)), r3_wr (List.getElem_mem (l := r3_written) (n := 9) (by decide)), r3_wr (List.getElem_mem (l := r3_written) (n := 10) (by decide)), r3_wr (List.getElem_mem (l := r3_written) (n := 11) (by decide)), r3_wr (List.getElem_mem (l := r3_written) (n := 12) (by decide)), r3_wr (List.getElem_mem (l := r3_written) (n := 13) (by decide)), r3_wr (List.getElem_mem (l := r3_written) (n := 14) (by decide)), r3_wr (List.getElem_mem (l := r3_written) (n := 15) (by decide)), r3_wr (List.getElem_mem (l := r3_written) (n := 16) (by decide)), r3_wr (List.getElem_mem (l := r3_written) (n := 17) (by decide)), r3_wr (List.getElem_mem (l := r3_written) (n := 18) (by decide)), r3_wr (List.getElem_mem (l := r3_written) (n := 19) (by decide)), r3_wr (List.getElem_mem (l := r3_written) (n := 20) (by decide)), r3_wr (List.getElem_mem (l := r3_written) (n := 21) (by decide)), r3_wr (List.getElem_mem (l := r3_written) (n := 22) (by decide)), r3_wr (List.getElem_mem (l := r3_written) (n := 23) (by decide)), r3_wr (List.getElem_mem (l := r3_written) (n := 24) (by decide)), r3_wr (List.getElem_mem (l := r3_written) (n := 25) (by decide)), r3_wr (List.getElem_mem (l := r3_written) (n := 26) (by decide)), r3_wr (List.getElem_mem (l := r3_written) (n := 27) (by decide)), r3_wr (List.getElem_mem (l := r3_written) (n := 28) (by decide)), r3_wr (List.getElem_mem (l := r3_written) (n := 29) (by decide)), r3_wr (List.getElem_mem (l := r3_written) (n := 30) (by decide)), r3_wr (List.getElem_mem (l := r3_written) (n := 31) (by decide)), r3_wr (List.getElem_mem (l := r3_written) (n := 32) (by decide)), r3_wr (List.getElem_mem (l := r3_written) (n := 33) (by decide)), r3_wr (List.getElem_mem (l := r3_written) (n := 34) (by decide)), r3_wr (List.getElem_mem (l := r3_written) (n := 35) (by decide)), r3_wr (List.getElem_mem (l := r3_written) (n := 36) (by decide)), r3_wr (List.getElem_mem (l := r3_written) (n := 37) (by decide)), r3_wr (List.getElem_mem (l := r3_written) (n := 38) (by decide)), r3_wr (List.getElem_mem (l := r3_written) (n := 39) (by decide)), r3_wr (List.getElem_mem (l := r3_written) (n := 40) (by decide)), r3_wr (List.getElem_mem (l := r3_written) (n := 41) (by decide)), r3_wr (List.getElem_mem (l := r3_written) (n := 42) (by decide)), r3_wr (List.getElem_mem (l := r3_written) (n := 43) (by decide)), r3_wr (List.getElem_mem (l := r3_written) (n := 44) (by decide)), r3_wr (List.getElem_mem (l := r3_written) (n := 45) (by decide)), r3_wr (List.getElem_mem (l := r3_written) (n := 46) (by decide)), r3_wr (List.getElem_mem (l := r3_written) (n := 47) (by decide)), r3_wr (List.getElem_mem (l := r3_written) (n := 48) (by decide)), r3_wr (List.getElem_mem (l := r3_written) (n := 49) (by decide)), r3_wr (List.getElem_mem (l := r3_written) (n := 50) (by decide)), r3_wr (List.getElem_mem (l := r3_written) (n := 51) (by decide)), r3_wr (List.getElem_mem (l := r3_written) (n := 52) (by decide)), r3_wr (List.getElem_mem (l := r3_written) (n := 53) (by decide)), r3_wr (List.getElem_mem (l := r3_written) (n := 54) (by decide)), r3_wr (List.getElem_mem (l := r3_written) (n := 55) (by decide)), r3_wr (List.getElem_mem (l := r3_written) (n := 56) (by decide)), r3_wr (List.getElem_mem (l := r3_written) (n := 57) (by decide)), r3_wr (List.getElem_mem (l := r3_written) (n := 58) (by decide)), r3_wr (List.getElem_mem (l := r3_written) (n := 59) (by decide)), r3_wr (List.getElem_mem (l := r3_written) (n := 60) (by decide)), r3_wr (List.getElem_mem (l := r3_written) (n := 61) (by decide)), r3_wr (List.getElem_mem (l := r3_written) (n := 62) (by decide)), r3_wr (List.getElem_mem (l := r3_written) (n := 63) (by decide)), r3_wr (List.getElem_mem (l := r3_written) (n := 64) (by decide)), r3_wr (List.getElem_mem (l := r3_written) (n := 65) (by decide)), r3_wr (List.getElem_mem (l := r3_written) (n := 66) (by decide)), r3_wr (List.getElem_mem (l := r3_written) (n := 67) (by decide)), r3_wr (List.getElem_mem (l := r3_written) (n := 68) (by decide)), r3_wr (List.getElem_mem (l := r3_written) (n := 69) (by decide)), r3_wr (List.getElem_mem (l := r3_written) (n := 70) (by decide)), r3_wr (List.getElem_mem (l := r3_written) (n := 71) (by decide)), r3_wr (List.getElem_mem (l := r3_written) (n := 72) (by decide)), r3_wr (List.getElem_mem (l := r3_written) (n := 73) (by decide)), r3_wr (List.getElem_mem (l := r3_written) (n := 74) (by decide)), r3_wr (List.getElem_mem (l := r3_written) (n := 75) (by decide)), r3_wr (List.getElem_mem (l := r3_written) (n := 76) (by decide)), r3_wr (List.getElem_mem (l := r3_written) (n := 77) (by decide)), r3_wr (List.getElem_mem (l := r3_written) (n := 78) (by decide)), r3_wr (List.getElem_mem (l := r3_written) (n := 79) (by decide)), r3_wr (List.getElem_mem (l := r3_written) (n := 80) (by decide)), r3_wr (List.getElem_mem (l := r3_written) (n := 81) (by decide)), r3_wr (List.getElem_mem (l := r3_written) (n := 82) (by decide)), r3_wr (List.getElem_mem (l := r3_written) (n := 83) (by decide)), r3_wr (List.getElem_mem (l := r3_written) (n := 84) (by decide)), r3_wr (List.getElem_mem (l := r3_written) (n := 85) (by decide)), r3_wr (List.getElem_mem (l := r3_written) (n := 86) (by decide)), r3_wr (List.getElem_mem (l := r3_written) (n := 87) (by decide)), r3_wr (List.getElem_mem (l := r3_written) (n := 88) (by decide)), r3_wr (List.getElem_mem (l := r3_written) (n := 89) (by decide)), r3_wr (List.getElem_mem (l := r3_written) (n := 90) (by decide)), r3_wr (List.getElem_mem (l := r3_written) (n := 91) (by decide)), r3_wr (List.getElem_mem (l := r3_written) (n := 92) (by decide)), r3_wr (List.getElem_mem (l := r3_written) (n := 93) (by decide)), r3_wr (List.getElem_mem (l := r3_written) (n := 94) (by decide)), r3_wr (List.getElem_mem (l := r3_written) (n := 95) (by decide)), r3_wr (List.getElem_mem (l := r3_written) (n := 96) (by decide)), r3_wr (List.getElem_mem (l := r3_written) (n := 97) (by decide)), r3_wr (List.getElem_mem (l := r3_written) (n := 98) (by decide)), r3_wr (List.getElem_mem (l := r3_written) (n := 99) (by decide)), r3_wr (List.getElem_mem (l := r3_written) (n := 100) (by decide)), r3_wr (List.getElem_mem (l := r3_written) (n := 101) (by decide)), r3_wr (List.getElem_mem (l := r3_written) (n := 102) (by decide))⟩
/-- A buffer that layer 3 does not write keeps its contents through it. -/
theorem r3_keep (V : Valuation τ sig (Elt F)) (r : Ref sig .tc) (hr : r ∉ r3_written) :
    after L3 V (Proc.devRef .tc r) = V (Proc.devRef .tc r) := after_of_writes_sub L3 V r3_writes hr

/-- The operations of layer 4 (103 of them). -/
abbrev L4 : List (HloOp τ sig (Elt F)) :=
  [ StableHlo.unary main_arg11 main_v257 ((extractStridedSlice S1x3x128 ![3, 0, 0] · slices_S4x3x128_S1x3x128_3_0_0) : (⟨S4x3x128, .f32⟩ : BufTy).Contents (Elt F) → (⟨S1x3x128, .f32⟩ : BufTy).Contents (Elt F)),
    StableHlo.reshape main_v257 main_v258 rfl shapeCasts_S1x3x128_S3x128,
    StableHlo.unary main_arg12 main_v259 ((extractStridedSlice S1x128 ![3, 0] · slices_S4x128_S1x128_3_0) : (⟨S4x128, .f32⟩ : BufTy).Contents (Elt F) → (⟨S1x128, .f32⟩ : BufTy).Contents (Elt F)),
    StableHlo.reshape main_v259 main_v260 rfl shapeCasts_S1x128_S128,
    StableHlo.unary main_arg19 main_v261 ((extractStridedSlice S1 ![3] · slices_S4_S1_3) : (⟨S4, .f32⟩ : BufTy).Contents (Elt F) → (⟨S1, .f32⟩ : BufTy).Contents (Elt F)),
    StableHlo.reshape main_v261 main_v262 rfl shapeCasts_S1_S_,
    StableHlo.unary main_arg13 main_v263 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v263 main_v264 rfl shapeCasts_S1x128x128_S128x128,
    StableHlo.unary main_arg14 main_v265 ((extractStridedSlice S1x128 ![3, 0] · slices_S4x128_S1x128_3_0) : (⟨S4x128, .f32⟩ : BufTy).Contents (Elt F) → (⟨S1x128, .f32⟩ : BufTy).Contents (Elt F)),
    StableHlo.reshape main_v265 main_v266 rfl shapeCasts_S1x128_S128,
    StableHlo.unary main_arg15 main_v267 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v267 main_v268 rfl shapeCasts_S1x128x128_S128x128,
    StableHlo.unary main_arg16 main_v269 ((extractStridedSlice S1x128 ![3, 0] · slices_S4x128_S1x128_3_0) : (⟨S4x128, .f32⟩ : BufTy).Contents (Elt F) → (⟨S1x128, .f32⟩ : BufTy).Contents (Elt F)),
    StableHlo.reshape main_v269 main_v270 rfl shapeCasts_S1x128_S128,
    StableHlo.unary main_arg17 main_v271 ((extractStridedSlice S1x128 ![3, 0] · slices_S4x128_S1x128_3_0) : (⟨S4x128, .f32⟩ : BufTy).Contents (Elt F) → (⟨S1x128, .f32⟩ : BufTy).Contents (Elt F)),
    StableHlo.reshape main_v271 main_v272 rfl shapeCasts_S1x128_S128,
    StableHlo.unary main_arg18 main_v273 ((extractStridedSlice S1x128 ![3, 0] · slices_S4x128_S1x128_3_0) : (⟨S4x128, .f32⟩ : BufTy).Contents (Elt F) → (⟨S1x128, .f32⟩ : BufTy).Contents (Elt F)),
    StableHlo.reshape main_v273 main_v274 rfl shapeCasts_S1x128_S128,
    StableHlo.nullary main_c_30 (constantI S_ 32 0#32),
    StableHlo.unary main_c_30 main_v275 (broadcastInDim S600000 ![] bcast_S_S600000 : (⟨S_, .i32⟩ : BufTy).Contents (Elt F) → (⟨S600000, .i32⟩ : BufTy).Contents (Elt F)),
    StableHlo.binary main_v1 main_v275 main_v276 (cmpi .slt : (⟨S600000, .i32⟩ : BufTy).Contents (Elt F) → (⟨S600000, .i32⟩ : BufTy).Contents (Elt F) → (⟨S600000, .i1⟩ : BufTy).Contents (Elt F)),
    StableHlo.nullary main_c_31 (constantI S_ 32 100000#32),
    StableHlo.unary main_c_31 main_v277 (broadcastInDim S600000 ![] bcast_S_S600000 : (⟨S_, .i32⟩ : BufTy).Contents (Elt F) → (⟨S600000, .i32⟩ : BufTy).Contents (Elt F)),
    StableHlo.binary main_v1 main_v277 main_v278 (addi : (⟨S600000, .i32⟩ : BufTy).Contents (Elt F) → (⟨S600000, .i32⟩ : BufTy).Contents (Elt F) → (⟨S600000, .i32⟩ : BufTy).Contents (Elt F)),
    StableHlo.ternary main_v276 main_v278 main_v1 main_v279 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v279 main_v280 (broadcastInDim S600000x1 ![0] bcast_S600000_S600000x1_0 : (⟨S600000, .i32⟩ : BufTy).Contents (Elt F) → (⟨S600000x1, .i32⟩ : BufTy).Contents (Elt F)),
    StableHlo.binary main_v256 main_v280 main_v281 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.binary main_arg1 main_v258 main_v282 ((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F)),
    StableHlo.binary main_v281 main_v282 main_v283 (addf : (⟨S600000x128, .f32⟩ : BufTy).Contents (Elt F) → (⟨S600000x128, .f32⟩ : BufTy).Contents (Elt F) → (⟨S600000x128, .f32⟩ : BufTy).Contents (Elt F)),
    StableHlo.unary main_v260 main_v284 (broadcastInDim S1x128 ![1] bcast_S128_S1x128_1 : (⟨S128, .f32⟩ : BufTy).Contents (Elt F) → (⟨S1x128, .f32⟩ : BufTy).Contents (Elt F)),
    StableHlo.unary main_v284 main_v285 (broadcastInDim S600000x128 ![0, 1] bcast_S1x128_S600000x128_0_1 : (⟨S1x128, .f32⟩ : BufTy).Contents (Elt F) → (⟨S600000x128, .f32⟩ : BufTy).Contents (Elt F)),
    StableHlo.binary main_v283 main_v285 main_v286 (addf : (⟨S600000x128, .f32⟩ : BufTy).Contents (Elt F) → (⟨S600000x128, .f32⟩ : BufTy).Contents (Elt F) → (⟨S600000x128, .f32⟩ : BufTy).Contents (Elt F)),
    StableHlo.TRef.nullary main_call16.cst (constant S_ .f32 0x00000000#32),
    StableHlo.TRef.unary main_call16.cst main_call16.v0 (broadcastInDim S600000x128 ![] bcast_S_S600000x128),
    StableHlo.TRef.binary (.of main_v286) main_call16.v0 main_call16.v1 maximumf,
    StableHlo.nullary main_cst_32 (constant S_ .f32 0x00000000#32),
    StableHlo.unary main_cst_32 main_v288 (broadcastInDim S100000x128 ![] bcast_S_S100000x128 : (⟨S_, .f32⟩ : BufTy).Contents (Elt F) → (⟨S100000x128, .f32⟩ : BufTy).Contents (Elt F)),
    StableHlo.unary main_v3 main_v289 (broadcastInDim S600000x1 ![0] bcast_S600000_S600000x1_0 : (⟨S600000, .i32⟩ : BufTy).Contents (Elt F) → (⟨S600000x1, .i32⟩ : BufTy).Contents (Elt F)),
    StableHlo.ternary main_v288 main_v289 main_v287 main_v290 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_33 (constant S_ .f32 0x3F800000#32),
    StableHlo.binary main_cst_33 main_v262 main_v291 (addf : (⟨S_, .f32⟩ : BufTy).Contents (Elt F) → (⟨S_, .f32⟩ : BufTy).Contents (Elt F) → (⟨S_, .f32⟩ : BufTy).Contents (Elt F)),
    StableHlo.unary main_v291 main_v292 (broadcastInDim S100000x128 ![] bcast_S_S100000x128 : (⟨S_, .f32⟩ : BufTy).Contents (Elt F) → (⟨S100000x128, .f32⟩ : BufTy).Contents (Elt F)),
    StableHlo.binary main_v292 main_v256 main_v293 (mulf : (⟨S100000x128, .f32⟩ : BufTy).Contents (Elt F) → (⟨S100000x128, .f32⟩ : BufTy).Contents (Elt F) → (⟨S100000x128, .f32⟩ : BufTy).Contents (Elt F)),
    StableHlo.binary main_v293 main_v290 main_v294 (addf : (⟨S100000x128, .f32⟩ : BufTy).Contents (Elt F) → (⟨S100000x128, .f32⟩ : BufTy).Contents (Elt F) → (⟨S100000x128, .f32⟩ : BufTy).Contents (Elt F)),
    StableHlo.binary main_v294 main_v264 main_v295 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v266 main_v296 (broadcastInDim S1x128 ![1] bcast_S128_S1x128_1 : (⟨S128, .f32⟩ : BufTy).Contents (Elt F) → (⟨S1x128, .f32⟩ : BufTy).Contents (Elt F)),
    StableHlo.unary main_v296 main_v297 (broadcastInDim S100000x128 ![0, 1] bcast_S1x128_S100000x128_0_1 : (⟨S1x128, .f32⟩ : BufTy).Contents (Elt F) → (⟨S100000x128, .f32⟩ : BufTy).Contents (Elt F)),
    StableHlo.binary main_v295 main_v297 main_v298 (addf : (⟨S100000x128, .f32⟩ : BufTy).Contents (Elt F) → (⟨S100000x128, .f32⟩ : BufTy).Contents (Elt F) → (⟨S100000x128, .f32⟩ : BufTy).Contents (Elt F)),
    StableHlo.TRef.nullary main_call17.cst (constant S_ .f32 0x00000000#32),
    StableHlo.TRef.unary main_call17.cst main_call17.v0 (broadcastInDim S100000x128 ![] bcast_S_S100000x128),
    StableHlo.TRef.binary (.of main_v298) main_call17.v0 main_call17.v1 maximumf,
    StableHlo.binary main_v299 main_v268 main_v300 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v270 main_v301 (broadcastInDim S1x128 ![1] bcast_S128_S1x128_1 : (⟨S128, .f32⟩ : BufTy).Contents (Elt F) → (⟨S1x128, .f32⟩ : BufTy).Contents (Elt F)),
    StableHlo.unary main_v301 main_v302 (broadcastInDim S100000x128 ![0, 1] bcast_S1x128_S100000x128_0_1 : (⟨S1x128, .f32⟩ : BufTy).Contents (Elt F) → (⟨S100000x128, .f32⟩ : BufTy).Contents (Elt F)),
    StableHlo.binary main_v300 main_v302 main_v303 (addf : (⟨S100000x128, .f32⟩ : BufTy).Contents (Elt F) → (⟨S100000x128, .f32⟩ : BufTy).Contents (Elt F) → (⟨S100000x128, .f32⟩ : BufTy).Contents (Elt F)),
    StableHlo.nullary main_cst_34 (constant S_ .f32 0x00000000#32),
    StableHlo.binary main_v303 main_cst_34 main_v304 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_35 (constant S_ .f32 0x47C35000#32),
    StableHlo.unary main_cst_35 main_v305 (broadcastInDim S128 ![] bcast_S_S128 : (⟨S_, .f32⟩ : BufTy).Contents (Elt F) → (⟨S128, .f32⟩ : BufTy).Contents (Elt F)),
    StableHlo.binary main_v304 main_v305 main_v306 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call18.cst (constant S_ .f32 0x00000000#32),
    StableHlo.TRef.binary (.of main_v303) main_call18.cst main_call18.v0 (fun x v => Host.reduceAdd x v reducesTo_S100000x128_S128_d0 h_S_),
    StableHlo.TRef.unary main_call18.v0 main_call18.v1 (broadcastInDim S1x128 ![1] bcast_S128_S1x128_1),
    StableHlo.TRef.nullary main_call18.cst_0 (constant S_ .f32 0x47C35000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S100000x128 ![0, 1] bcast_S1x128_S100000x128_0_1),
    StableHlo.TRef.binary (.of main_v303) main_call18.v4 main_call18.v5 subf,
    StableHlo.TRef.binary main_call18.v5 main_call18.v5 main_call18.v6 mulf,
    StableHlo.TRef.unary (.of main_c_36) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v306 main_v308 (broadcastInDim S1x128 ![1] bcast_S128_S1x128_1 : (⟨S128, .f32⟩ : BufTy).Contents (Elt F) → (⟨S1x128, .f32⟩ : BufTy).Contents (Elt F)),
    StableHlo.unary main_v308 main_v309 (broadcastInDim S100000x128 ![0, 1] bcast_S1x128_S100000x128_0_1 : (⟨S1x128, .f32⟩ : BufTy).Contents (Elt F) → (⟨S100000x128, .f32⟩ : BufTy).Contents (Elt F)),
    StableHlo.binary main_v303 main_v309 main_v310 (subf : (⟨S100000x128, .f32⟩ : BufTy).Contents (Elt F) → (⟨S100000x128, .f32⟩ : BufTy).Contents (Elt F) → (⟨S100000x128, .f32⟩ : BufTy).Contents (Elt F)),
    StableHlo.nullary main_cst_37 (constant S_ .f32 0x3727C5AC#32),
    StableHlo.unary main_cst_37 main_v311 (broadcastInDim S128 ![] bcast_S_S128 : (⟨S_, .f32⟩ : BufTy).Contents (Elt F) → (⟨S128, .f32⟩ : BufTy).Contents (Elt F)),
    StableHlo.binary main_v307 main_v311 main_v312 (addf : (⟨S128, .f32⟩ : BufTy).Contents (Elt F) → (⟨S128, .f32⟩ : BufTy).Contents (Elt F) → (⟨S128, .f32⟩ : BufTy).Contents (Elt F)),
    StableHlo.unary main_v312 main_v313 (Host.rsqrt : (⟨S128, .f32⟩ : BufTy).Contents (Elt F) → (⟨S128, .f32⟩ : BufTy).Contents (Elt F)),
    StableHlo.unary main_v313 main_v314 (broadcastInDim S1x128 ![1] bcast_S128_S1x128_1 : (⟨S128, .f32⟩ : BufTy).Contents (Elt F) → (⟨S1x128, .f32⟩ : BufTy).Contents (Elt F)),
    StableHlo.unary main_v314 main_v315 (broadcastInDim S100000x128 ![0, 1] bcast_S1x128_S100000x128_0_1 : (⟨S1x128, .f32⟩ : BufTy).Contents (Elt F) → (⟨S100000x128, .f32⟩ : BufTy).Contents (Elt F)),
    StableHlo.binary main_v310 main_v315 main_v316 (mulf : (⟨S100000x128, .f32⟩ : BufTy).Contents (Elt F) → (⟨S100000x128, .f32⟩ : BufTy).Contents (Elt F) → (⟨S100000x128, .f32⟩ : BufTy).Contents (Elt F)),
    StableHlo.unary main_v272 main_v317 (broadcastInDim S1x128 ![1] bcast_S128_S1x128_1 : (⟨S128, .f32⟩ : BufTy).Contents (Elt F) → (⟨S1x128, .f32⟩ : BufTy).Contents (Elt F)),
    StableHlo.unary main_v317 main_v318 (broadcastInDim S100000x128 ![0, 1] bcast_S1x128_S100000x128_0_1 : (⟨S1x128, .f32⟩ : BufTy).Contents (Elt F) → (⟨S100000x128, .f32⟩ : BufTy).Contents (Elt F)),
    StableHlo.binary main_v316 main_v318 main_v319 (mulf : (⟨S100000x128, .f32⟩ : BufTy).Contents (Elt F) → (⟨S100000x128, .f32⟩ : BufTy).Contents (Elt F) → (⟨S100000x128, .f32⟩ : BufTy).Contents (Elt F)),
    StableHlo.unary main_v274 main_v320 (broadcastInDim S1x128 ![1] bcast_S128_S1x128_1 : (⟨S128, .f32⟩ : BufTy).Contents (Elt F) → (⟨S1x128, .f32⟩ : BufTy).Contents (Elt F)),
    StableHlo.unary main_v320 main_v321 (broadcastInDim S100000x128 ![0, 1] bcast_S1x128_S100000x128_0_1 : (⟨S1x128, .f32⟩ : BufTy).Contents (Elt F) → (⟨S100000x128, .f32⟩ : BufTy).Contents (Elt F)),
    StableHlo.binary main_v319 main_v321 main_v322 (addf : (⟨S100000x128, .f32⟩ : BufTy).Contents (Elt F) → (⟨S100000x128, .f32⟩ : BufTy).Contents (Elt F) → (⟨S100000x128, .f32⟩ : BufTy).Contents (Elt F)),
    StableHlo.TRef.nullary main_call19.cst (constant S_ .f32 0x00000000#32),
    StableHlo.TRef.unary main_call19.cst main_call19.v0 (broadcastInDim S100000x128 ![] bcast_S_S100000x128),
    StableHlo.TRef.binary (.of main_v322) main_call19.v0 main_call19.v1 maximumf,
    StableHlo.binary main_v323 main_v256 main_v324 (addf : (⟨S100000x128, .f32⟩ : BufTy).Contents (Elt F) → (⟨S100000x128, .f32⟩ : BufTy).Contents (Elt F) → (⟨S100000x128, .f32⟩ : BufTy).Contents (Elt F)) ]

/-- The value of main_v281 from the inputs of layer 4. -/
def r4_v281 {F : FTy → Type} [FloatOps F] (x_v256 : FVec F S100000x128 .f32) (x_v1 : IVec S600000 32) : FVec F S600000x128 .f32 :=
  (((((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F))) : (FVec F S100000x128 .f32) → (IVec S600000x1 32) → (FVec F S600000x128 .f32)) x_v256 ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) ((((select : (⟨S600000, .i1⟩ : BufTy).Contents (Elt F) → (⟨S600000, .i32⟩ : BufTy).Contents (Elt F) → (⟨S600000, .i32⟩ : BufTy).Contents (Elt F) → (⟨S600000, .i32⟩ : BufTy).Contents (Elt F))) : (IVec S600000 1) → (IVec S600000 32) → (IVec S600000 32) → (IVec S600000 32)) ((((cmpi .slt : (⟨S600000, .i32⟩ : BufTy).Contents (Elt F) → (⟨S600000, .i32⟩ : BufTy).Contents (Elt F) → (⟨S600000, .i1⟩ : BufTy).Contents (Elt F))) : (IVec S600000 32) → (IVec S600000 32) → (IVec S600000 1)) x_v1 ((((broadcastInDim S600000 ![] bcast_S_S600000 : (⟨S_, .i32⟩ : BufTy).Contents (Elt F) → (⟨S600000, .i32⟩ : BufTy).Contents (Elt F))) : (IVec S_ 32) → (IVec S600000 32)) (((constantI S_ 32 0#32)) : IVec S_ 32))) ((((addi : (⟨S600000, .i32⟩ : BufTy).Contents (Elt F) → (⟨S600000, .i32⟩ : BufTy).Contents (Elt F) → (⟨S600000, .i32⟩ : BufTy).Contents (Elt F))) : (IVec S600000 32) → (IVec S600000 32) → (IVec S600000 32)) x_v1 ((((broadcastInDim S600000 ![] bcast_S_S600000 : (⟨S_, .i32⟩ : BufTy).Contents (Elt F) → (⟨S600000, .i32⟩ : BufTy).Contents (Elt F))) : (IVec S_ 32) → (IVec S600000 32)) (((constantI S_ 32 100000#32)) : IVec S_ 32))) x_v1)))

/-- The value of main_v287 from the inputs of layer 4. -/
def r4_v287 {F : FTy → Type} [FloatOps F] (x_v256 : FVec F S100000x128 .f32) (x_v1 : IVec S600000 32) (x_arg1 : FVec F S600000x3 .f32) (x_arg11 : FVec F S4x3x128 .f32) (x_arg12 : FVec F S4x128 .f32) : FVec F S600000x128 .f32 :=
  (((maximumf) : (FVec F S600000x128 .f32) → (FVec F S600000x128 .f32) → (FVec F S600000x128 .f32)) ((((addf : (⟨S600000x128, .f32⟩ : BufTy).Contents (Elt F) → (⟨S600000x128, .f32⟩ : BufTy).Contents (Elt F) → (⟨S600000x128, .f32⟩ : BufTy).Contents (Elt F))) : (FVec F S600000x128 .f32) → (FVec F S600000x128 .f32) → (FVec F S600000x128 .f32)) ((((addf : (⟨S600000x128, .f32⟩ : BufTy).Contents (Elt F) → (⟨S600000x128, .f32⟩ : BufTy).Contents (Elt F) → (⟨S600000x128, .f32⟩ : BufTy).Contents (Elt F))) : (FVec F S600000x128 .f32) → (FVec F S600000x128 .f32) → (FVec F S600000x128 .f32)) (r4_v281 (F := F) x_v256 x_v1) (((((fun l r => Host.dotGeneral dot_S600000x3_S3x128_S600000x128_1_0_0_1_n_n none l r) : (⟨S600000x3, .f32⟩ : BufTy).Contents (Elt F) → (⟨S3x128, .f32⟩ : BufTy).Contents (Elt F) → (⟨S600000x128, .f32⟩ : BufTy).Contents (Elt F))) : (FVec F S600000x3 .f32) → (FVec F S3x128 .f32) → (FVec F S600000x128 .f32)) x_arg1 ((shapeCast _ (((((extractStridedSlice S1x3x128 ![3, 0, 0] · slices_S4x3x128_S1x3x128_3_0_0) : (⟨S4x3x128, .f32⟩ : BufTy).Contents (Elt F) → (⟨S1x3x128, .f32⟩ : BufTy).Contents (Elt F))) : (FVec F S4x3x128 .f32) → (FVec F S1x3x128 .f32)) x_arg11) shapeCasts_S1x3x128_S3x128) : FVec F S3x128 .f32))) ((((broadcastInDim S600000x128 ![0, 1] bcast_S1x128_S600000x128_0_1 : (⟨S1x128, .f32⟩ : BufTy).Contents (Elt F) → (⟨S600000x128, .f32⟩ : BufTy).Contents (Elt F))) : (FVec F S1x128 .f32) → (FVec F S600000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![3, 0] · slices_S4x128_S1x128_3_0) : (⟨S4x128, .f32⟩ : BufTy).Contents (Elt F) → (⟨S1x128, .f32⟩ : BufTy).Contents (Elt F))) : (FVec F S4x128 .f32) → (FVec F S1x128 .f32)) x_arg12) shapeCasts_S1x128_S128) : FVec F S128 .f32)))) ((((broadcastInDim S600000x128 ![] bcast_S_S600000x128)) : (FVec F S_ .f32) → (FVec F S600000x128 .f32)) (((constant S_ .f32 0x00000000#32)) : FVec F S_ .f32)))

/-- The value of main_v290 from the inputs of layer 4. -/
def r4_v290 {F : FTy → Type} [FloatOps F] (x_v3 : IVec S600000 32) (x_v256 : FVec F S100000x128 .f32) (x_v1 : IVec S600000 32) (x_arg1 : FVec F S600000x3 .f32) (x_arg11 : FVec F S4x3x128 .f32) (x_arg12 : FVec F S4x128 .f32) : FVec F S100000x128 .f32 :=
  (((((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F))) : (FVec F S100000x128 .f32) → (IVec S600000x1 32) → (FVec F S600000x128 .f32) → (FVec F S100000x128 .f32)) ((((broadcastInDim S100000x128 ![] bcast_S_S100000x128 : (⟨S_, .f32⟩ : BufTy).Contents (Elt F) → (⟨S100000x128, .f32⟩ : BufTy).Contents (Elt F))) : (FVec F S_ .f32) → (FVec F S100000x128 .f32)) (((constant S_ .f32 0x00000000#32)) : FVec F S_ .f32)) ((((broadcastInDim S600000x1 ![0] bcast_S600000_S600000x1_0 : (⟨S600000, .i32⟩ : BufTy).Contents (Elt F) → (⟨S600000x1, .i32⟩ : BufTy).Contents (Elt F))) : (IVec S600000 32) → (IVec S600000x1 32)) x_v3) (r4_v287 (F := F) x_v256 x_v1 x_arg1 x_arg11 x_arg12))

/-- The value of main_v303 from the inputs of layer 4. -/
def r4_v303 {F : FTy → Type} [FloatOps F] (x_arg19 : FVec F S4 .f32) (x_v256 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (((((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))) : (FVec F S100000x128 .f32) → (FVec F S128x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((broadcastInDim S100000x128 ![] bcast_S_S100000x128 : (⟨S_, .f32⟩ : BufTy).Contents (Elt F) → (⟨S100000x128, .f32⟩ : BufTy).Contents (Elt F))) : (FVec F S_ .f32) → (FVec F S100000x128 .f32)) ((((addf : (⟨S_, .f32⟩ : BufTy).Contents (Elt F) → (⟨S_, .f32⟩ : BufTy).Contents (Elt F) → (⟨S_, .f32⟩ : BufTy).Contents (Elt F))) : (FVec F S_ .f32) → (FVec F S_ .f32) → (FVec F S_ .f32)) (((constant S_ .f32 0x3F800000#32)) : FVec F S_ .f32) ((shapeCast _ (((((extractStridedSlice S1 ![3] · slices_S4_S1_3) : (⟨S4, .f32⟩ : BufTy).Contents (Elt F) → (⟨S1, .f32⟩ : BufTy).Contents (Elt F))) : (FVec F S4 .f32) → (FVec F S1 .f32)) x_arg19) shapeCasts_S1_S_) : FVec F S_ .f32))) x_v256) (r4_v290 (F := F) x_v3 x_v256 x_v1 x_arg1 x_arg11 x_arg12)) ((shapeCast _ (((((extractStridedSlice S1x128x128 ![3, 0, 0] · slices_S4x128x128_S1x128x128_3_0_0) : (⟨S4x128x128, .f32⟩ : BufTy).Contents (Elt F) → (⟨S1x128x128, .f32⟩ : BufTy).Contents (Elt F))) : (FVec F S4x128x128 .f32) → (FVec F S1x128x128 .f32)) x_arg13) shapeCasts_S1x128x128_S128x128) : FVec F S128x128 .f32)) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![3, 0] · slices_S4x128_S1x128_3_0) : (⟨S4x128, .f32⟩ : BufTy).Contents (Elt F) → (⟨S1x128, .f32⟩ : BufTy).Contents (Elt F))) : (FVec F S4x128 .f32) → (FVec F S1x128 .f32)) x_arg14) shapeCasts_S1x128_S128) : FVec F S128 .f32)))) ((((broadcastInDim S100000x128 ![] bcast_S_S100000x128)) : (FVec F S_ .f32) → (FVec F S100000x128 .f32)) (((constant S_ .f32 0x00000000#32)) : FVec F S_ .f32))) ((shapeCast _ (((((extractStridedSlice S1x128x128 ![3, 0, 0] · slices_S4x128x128_S1x128x128_3_0_0) : (⟨S4x128x128, .f32⟩ : BufTy).Contents (Elt F) → (⟨S1x128x128, .f32⟩ : BufTy).Contents (Elt F))) : (FVec F S4x128x128 .f32) → (FVec F S1x128x128 .f32)) x_arg15) shapeCasts_S1x128x128_S128x128) : FVec F S128x128 .f32)) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![3, 0] · slices_S4x128_S1x128_3_0) : (⟨S4x128, .f32⟩ : BufTy).Contents (Elt F) → (⟨S1x128, .f32⟩ : BufTy).Contents (Elt F))) : (FVec F S4x128 .f32) → (FVec F S1x128 .f32)) x_arg16) shapeCasts_S1x128_S128) : FVec F S128 .f32))))

/-- The value of main_v306 from the inputs of layer 4. -/
def r4_v306 {F : FTy → Type} [FloatOps F] (x_arg19 : FVec F S4 .f32) (x_v256 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S128 .f32 :=
  ((((Host.divf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (((((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))) : (FVec F S100000x128 .f32) → (FVec F S_ .f32) → (FVec F S128 .f32)) (r4_v303 (F := F) x_arg19 x_v256 x_v3 x_v1 x_arg1 x_arg11 x_arg12 x_arg13 x_arg14 x_arg15 x_arg16) (((constant S_ .f32 0x00000000#32)) : FVec F S_ .f32)) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x47C35000#32)) : FVec F S_ .f32)))

/-- The value of main_v307 from the inputs of layer 4. -/
def r4_v307 {F : FTy → Type} [FloatOps F] (x_arg19 : FVec F S4 .f32) (x_v256 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) : FVec F S128 .f32 :=
  ((((fun p a b => select (broadcastInDim S128 ![] bcast_S_S128 p) a b)) : (IVec S_ 1) → (FVec F S128 .f32) → (FVec F S128 .f32) → (FVec F S128 .f32)) ((((cmpf .ogt)) : (FVec F S_ .f32) → (FVec F S_ .f32) → (IVec S_ 1)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))) (((constant S_ .f32 0x00000000#32)) : FVec F S_ .f32)) (((Host.divf) : (FVec F S128 .f32) → (FVec F S128 .f32) → (FVec F S128 .f32)) ((((fun x v => Host.reduceAdd x v reducesTo_S100000x128_S128_d0 h_S_)) : (FVec F S100000x128 .f32) → (FVec F S_ .f32) → (FVec F S128 .f32)) (((mulf) : (FVec F S100000x128 .f32) → (FVec F S100000x128 .f32) → (FVec F S100000x128 .f32)) (((subf) : (FVec F S100000x128 .f32) → (FVec F S100000x128 .f32) → (FVec F S100000x128 .f32)) (r4_v303 (F := F) x_arg19 x_v256 x_v3 x_v1 x_arg1 x_arg11 x_arg12 x_arg13 x_arg14 x_arg15 x_arg16) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r4_v303 (F := F) x_arg19 x_v256 x_v3 x_v1 x_arg1 x_arg11 x_arg12 x_arg13 x_arg14 x_arg15 x_arg16) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32))))) (((subf) : (FVec F S100000x128 .f32) → (FVec F S100000x128 .f32) → (FVec F S100000x128 .f32)) (r4_v303 (F := F) x_arg19 x_v256 x_v3 x_v1 x_arg1 x_arg11 x_arg12 x_arg13 x_arg14 x_arg15 x_arg16) ((((broadcastInDim S100000x128 ![0, 1] bcast_S1x128_S100000x128_0_1)) : (FVec F S1x128 .f32) → (FVec F S100000x128 .f32)) (((Host.divf) : (FVec F S1x128 .f32) → (FVec F S1x128 .f32) → (FVec F S1x128 .f32)) ((((broadcastInDim S1x128 ![1] bcast_S128_S1x128_1)) : (FVec F S128 .f32) → (FVec F S1x128 .f32)) ((((fun x v => Host.reduceAdd x v reducesTo_S100000x128_S128_d0 h_S_)) : (FVec F S100000x128 .f32) → (FVec F S_ .f32) → (FVec F S128 .f32)) (r4_v303 (F := F) x_arg19 x_v256 x_v3 x_v1 x_arg1 x_arg11 x_arg12 x_arg13 x_arg14 x_arg15 x_arg16) (((constant S_ .f32 0x00000000#32)) : FVec F S_ .f32))) ((((broadcastInDim S1x128 ![] bcast_S_S1x128)) : (FVec F S_ .f32) → (FVec F S1x128 .f32)) (((constant S_ .f32 0x47C35000#32)) : FVec F S_ .f32)))))) (((constant S_ .f32 0x00000000#32)) : FVec F S_ .f32)) ((((broadcastInDim S128 ![] bcast_S_S128)) : (FVec F S_ .f32) → (FVec F S128 .f32)) (((subf) : (FVec F S_ .f32) → (FVec F S_ .f32) → (FVec F S_ .f32)) (((constant S_ .f32 0x47C35000#32)) : FVec F S_ .f32) ((((sitofp .f32)) : (IVec S_ 32) → (FVec F S_ .f32)) (((constantI S_ 32 0#32)) : IVec S_ 32))))) ((((broadcastInDim S128 ![] bcast_S_S128)) : (FVec F S_ .f32) → (FVec F S128 .f32)) (((id) : (FVec F S_ .f32) → (FVec F S_ .f32)) (((constant S_ .f32 0x7FC00000#32)) : FVec F S_ .f32))))

/-- The value of main_v323 from the inputs of layer 4. -/
def r4_v323 {F : FTy → Type} [FloatOps F] (x_arg19 : FVec F S4 .f32) (x_v256 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) : FVec F S100000x128 .f32 :=
  (((maximumf) : (FVec F S100000x128 .f32) → (FVec F S100000x128 .f32) → (FVec F S100000x128 .f32)) ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((mulf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) ((((subf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r4_v303 (F := F) x_arg19 x_v256 x_v3 x_v1 x_arg1 x_arg11 x_arg12 x_arg13 x_arg14 x_arg15 x_arg16) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) (r4_v306 (F := F) x_arg19 x_v256 x_v3 x_v1 x_arg1 x_arg11 x_arg12 x_arg13 x_arg14 x_arg15 x_arg16)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((((Host.rsqrt : (⟨S128, .f32⟩ : BufTy).Contents (Elt F) → (⟨S128, .f32⟩ : BufTy).Contents (Elt F))) : (FVec F S128 .f32) → (FVec F S128 .f32)) ((((addf : (⟨S128, .f32⟩ : BufTy).Contents (Elt F) → (⟨S128, .f32⟩ : BufTy).Contents (Elt F) → (⟨S128, .f32⟩ : BufTy).Contents (Elt F))) : (FVec F S128 .f32) → (FVec F S128 .f32) → (FVec F S128 .f32)) (r4_v307 (F := F) x_arg19 x_v256 x_v3 x_v1 x_arg1 x_arg11 x_arg12 x_arg13 x_arg14 x_arg15 x_arg16) ((((broadcastInDim S128 ![] bcast_S_S128 : (⟨S_, .f32⟩ : BufTy).Contents (Elt F) → (⟨S128, .f32⟩ : BufTy).Contents (Elt F))) : (FVec F S_ .f32) → (FVec F S128 .f32)) (((constant S_ .f32 0x3727C5AC#32)) : FVec F S_ .f32))))))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![3, 0] · slices_S4x128_S1x128_3_0) : (⟨S4x128, .f32⟩ : BufTy).Contents (Elt F) → (⟨S1x128, .f32⟩ : BufTy).Contents (Elt F))) : (FVec F S4x128 .f32) → (FVec F S1x128 .f32)) x_arg17) shapeCasts_S1x128_S128) : FVec F S128 .f32)))) ((((broadcastInDim S100000x128 ![0, 1] bcast_S1x128_S100000x128_0_1 : (⟨S1x128, .f32⟩ : BufTy).Contents (Elt F) → (⟨S100000x128, .f32⟩ : BufTy).Contents (Elt F))) : (FVec F S1x128 .f32) → (FVec F S100000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) ((shapeCast _ (((((extractStridedSlice S1x128 ![3, 0] · slices_S4x128_S1x128_3_0) : (⟨S4x128, .f32⟩ : BufTy).Contents (Elt F) → (⟨S1x128, .f32⟩ : BufTy).Contents (Elt F))) : (FVec F S4x128 .f32) → (FVec F S1x128 .f32)) x_arg18) shapeCasts_S1x128_S128) : FVec F S128 .f32)))) ((((broadcastInDim S100000x128 ![] bcast_S_S100000x128)) : (FVec F S_ .f32) → (FVec F S100000x128 .f32)) (((constant S_ .f32 0x00000000#32)) : FVec F S_ .f32)))

/-- The value of main_v324 from the inputs of layer 4. -/
def r4_v324 {F : FTy → Type} [FloatOps F] (x_arg19 : FVec F S4 .f32) (x_v256 : FVec F S100000x128 .f32) (x_v3 : IVec S600000 32) (x_v1 : IVec S600000 32) (x_arg1 : FVec F S600000x3 .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) : FVec F S100000x128 .f32 :=
  ((((addf : (⟨S100000x128, .f32⟩ : BufTy).Contents (Elt F) → (⟨S100000x128, .f32⟩ : BufTy).Contents (Elt F) → (⟨S100000x128, .f32⟩ : BufTy).Contents (Elt F))) : (FVec F S100000x128 .f32) → (FVec F S100000x128 .f32) → (FVec F S100000x128 .f32)) (r4_v323 (F := F) x_arg19 x_v256 x_v3 x_v1 x_arg1 x_arg11 x_arg12 x_arg13 x_arg14 x_arg15 x_arg16 x_arg17 x_arg18) x_v256)

set_option maxRecDepth 65536 in
set_option maxHeartbeats 20000000 in
theorem r4_read_v324 (V : Valuation τ sig (Elt F)) :
    after L4 V (Proc.devRef .tc main_v324) = r4_v324 (F := F) (V (Proc.devRef .tc main_arg19)) (V (Proc.devRef .tc main_v256)) (V (Proc.devRef .tc main_v3)) (V (Proc.devRef .tc main_v1)) (V (Proc.devRef .tc main_arg1)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  after_results_simp <;> rfl

/-- The buffers that layer 4 writes. -/
abbrev r4_written : List (Ref sig .tc) := [main_v257, main_v258, main_v259, main_v260, main_v261, main_v262, main_v263, main_v264, main_v265, main_v266, main_v267, main_v268, main_v269, main_v270, main_v271, main_v272, main_v273, main_v274, main_c_30, main_v275, main_v276, main_c_31, main_v277, main_v278, main_v279, main_v280, main_v281, main_v282, main_v283, main_v284, main_v285, main_v286, main_call16_cst, main_call16_v0, main_v287, main_cst_32, main_v288, main_v289, main_v290, main_cst_33, main_v291, main_v292, main_v293, main_v294, main_v295, main_v296, main_v297, main_v298, main_call17_cst, main_call17_v0, main_v299, main_v300, main_v301, main_v302, main_v303, main_cst_34, main_v304, main_cst_35, main_v305, main_v306, main_c_36, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v307, main_v308, main_v309, main_v310, main_cst_37, main_v311, main_v312, main_v313, main_v314, main_v315, main_v316, main_v317, main_v318, main_v319, main_v320, main_v321, main_v322, main_call19_cst, main_call19_v0, main_v323, main_v324]
theorem r4_wr {y : Ref sig .tc} (h : y ∈ r4_written) :
    ({Proc.devRef .tc y} : Finset (DevRef τ sig)) ⊆ (r4_written.map (Proc.devRef (τ := τ) .tc)).toFinset :=
  Finset.singleton_subset_iff.mpr (List.mem_toFinset.mpr (List.mem_map_of_mem h))
set_option maxRecDepth 65536 in
theorem r4_writes : (L4 : List (HloOp τ sig (Elt F))).Forall fun op => op.writes ⊆ (r4_written.map (Proc.devRef (τ := τ) .tc)).toFinset :=
  ⟨r4_wr (List.getElem_mem (l := r4_written) (n := 0) (by decide)), r4_wr (List.getElem_mem (l := r4_written) (n := 1) (by decide)), r4_wr (List.getElem_mem (l := r4_written) (n := 2) (by decide)), r4_wr (List.getElem_mem (l := r4_written) (n := 3) (by decide)), r4_wr (List.getElem_mem (l := r4_written) (n := 4) (by decide)), r4_wr (List.getElem_mem (l := r4_written) (n := 5) (by decide)), r4_wr (List.getElem_mem (l := r4_written) (n := 6) (by decide)), r4_wr (List.getElem_mem (l := r4_written) (n := 7) (by decide)), r4_wr (List.getElem_mem (l := r4_written) (n := 8) (by decide)), r4_wr (List.getElem_mem (l := r4_written) (n := 9) (by decide)), r4_wr (List.getElem_mem (l := r4_written) (n := 10) (by decide)), r4_wr (List.getElem_mem (l := r4_written) (n := 11) (by decide)), r4_wr (List.getElem_mem (l := r4_written) (n := 12) (by decide)), r4_wr (List.getElem_mem (l := r4_written) (n := 13) (by decide)), r4_wr (List.getElem_mem (l := r4_written) (n := 14) (by decide)), r4_wr (List.getElem_mem (l := r4_written) (n := 15) (by decide)), r4_wr (List.getElem_mem (l := r4_written) (n := 16) (by decide)), r4_wr (List.getElem_mem (l := r4_written) (n := 17) (by decide)), r4_wr (List.getElem_mem (l := r4_written) (n := 18) (by decide)), r4_wr (List.getElem_mem (l := r4_written) (n := 19) (by decide)), r4_wr (List.getElem_mem (l := r4_written) (n := 20) (by decide)), r4_wr (List.getElem_mem (l := r4_written) (n := 21) (by decide)), r4_wr (List.getElem_mem (l := r4_written) (n := 22) (by decide)), r4_wr (List.getElem_mem (l := r4_written) (n := 23) (by decide)), r4_wr (List.getElem_mem (l := r4_written) (n := 24) (by decide)), r4_wr (List.getElem_mem (l := r4_written) (n := 25) (by decide)), r4_wr (List.getElem_mem (l := r4_written) (n := 26) (by decide)), r4_wr (List.getElem_mem (l := r4_written) (n := 27) (by decide)), r4_wr (List.getElem_mem (l := r4_written) (n := 28) (by decide)), r4_wr (List.getElem_mem (l := r4_written) (n := 29) (by decide)), r4_wr (List.getElem_mem (l := r4_written) (n := 30) (by decide)), r4_wr (List.getElem_mem (l := r4_written) (n := 31) (by decide)), r4_wr (List.getElem_mem (l := r4_written) (n := 32) (by decide)), r4_wr (List.getElem_mem (l := r4_written) (n := 33) (by decide)), r4_wr (List.getElem_mem (l := r4_written) (n := 34) (by decide)), r4_wr (List.getElem_mem (l := r4_written) (n := 35) (by decide)), r4_wr (List.getElem_mem (l := r4_written) (n := 36) (by decide)), r4_wr (List.getElem_mem (l := r4_written) (n := 37) (by decide)), r4_wr (List.getElem_mem (l := r4_written) (n := 38) (by decide)), r4_wr (List.getElem_mem (l := r4_written) (n := 39) (by decide)), r4_wr (List.getElem_mem (l := r4_written) (n := 40) (by decide)), r4_wr (List.getElem_mem (l := r4_written) (n := 41) (by decide)), r4_wr (List.getElem_mem (l := r4_written) (n := 42) (by decide)), r4_wr (List.getElem_mem (l := r4_written) (n := 43) (by decide)), r4_wr (List.getElem_mem (l := r4_written) (n := 44) (by decide)), r4_wr (List.getElem_mem (l := r4_written) (n := 45) (by decide)), r4_wr (List.getElem_mem (l := r4_written) (n := 46) (by decide)), r4_wr (List.getElem_mem (l := r4_written) (n := 47) (by decide)), r4_wr (List.getElem_mem (l := r4_written) (n := 48) (by decide)), r4_wr (List.getElem_mem (l := r4_written) (n := 49) (by decide)), r4_wr (List.getElem_mem (l := r4_written) (n := 50) (by decide)), r4_wr (List.getElem_mem (l := r4_written) (n := 51) (by decide)), r4_wr (List.getElem_mem (l := r4_written) (n := 52) (by decide)), r4_wr (List.getElem_mem (l := r4_written) (n := 53) (by decide)), r4_wr (List.getElem_mem (l := r4_written) (n := 54) (by decide)), r4_wr (List.getElem_mem (l := r4_written) (n := 55) (by decide)), r4_wr (List.getElem_mem (l := r4_written) (n := 56) (by decide)), r4_wr (List.getElem_mem (l := r4_written) (n := 57) (by decide)), r4_wr (List.getElem_mem (l := r4_written) (n := 58) (by decide)), r4_wr (List.getElem_mem (l := r4_written) (n := 59) (by decide)), r4_wr (List.getElem_mem (l := r4_written) (n := 60) (by decide)), r4_wr (List.getElem_mem (l := r4_written) (n := 61) (by decide)), r4_wr (List.getElem_mem (l := r4_written) (n := 62) (by decide)), r4_wr (List.getElem_mem (l := r4_written) (n := 63) (by decide)), r4_wr (List.getElem_mem (l := r4_written) (n := 64) (by decide)), r4_wr (List.getElem_mem (l := r4_written) (n := 65) (by decide)), r4_wr (List.getElem_mem (l := r4_written) (n := 66) (by decide)), r4_wr (List.getElem_mem (l := r4_written) (n := 67) (by decide)), r4_wr (List.getElem_mem (l := r4_written) (n := 68) (by decide)), r4_wr (List.getElem_mem (l := r4_written) (n := 69) (by decide)), r4_wr (List.getElem_mem (l := r4_written) (n := 70) (by decide)), r4_wr (List.getElem_mem (l := r4_written) (n := 71) (by decide)), r4_wr (List.getElem_mem (l := r4_written) (n := 72) (by decide)), r4_wr (List.getElem_mem (l := r4_written) (n := 73) (by decide)), r4_wr (List.getElem_mem (l := r4_written) (n := 74) (by decide)), r4_wr (List.getElem_mem (l := r4_written) (n := 75) (by decide)), r4_wr (List.getElem_mem (l := r4_written) (n := 76) (by decide)), r4_wr (List.getElem_mem (l := r4_written) (n := 77) (by decide)), r4_wr (List.getElem_mem (l := r4_written) (n := 78) (by decide)), r4_wr (List.getElem_mem (l := r4_written) (n := 79) (by decide)), r4_wr (List.getElem_mem (l := r4_written) (n := 80) (by decide)), r4_wr (List.getElem_mem (l := r4_written) (n := 81) (by decide)), r4_wr (List.getElem_mem (l := r4_written) (n := 82) (by decide)), r4_wr (List.getElem_mem (l := r4_written) (n := 83) (by decide)), r4_wr (List.getElem_mem (l := r4_written) (n := 84) (by decide)), r4_wr (List.getElem_mem (l := r4_written) (n := 85) (by decide)), r4_wr (List.getElem_mem (l := r4_written) (n := 86) (by decide)), r4_wr (List.getElem_mem (l := r4_written) (n := 87) (by decide)), r4_wr (List.getElem_mem (l := r4_written) (n := 88) (by decide)), r4_wr (List.getElem_mem (l := r4_written) (n := 89) (by decide)), r4_wr (List.getElem_mem (l := r4_written) (n := 90) (by decide)), r4_wr (List.getElem_mem (l := r4_written) (n := 91) (by decide)), r4_wr (List.getElem_mem (l := r4_written) (n := 92) (by decide)), r4_wr (List.getElem_mem (l := r4_written) (n := 93) (by decide)), r4_wr (List.getElem_mem (l := r4_written) (n := 94) (by decide)), r4_wr (List.getElem_mem (l := r4_written) (n := 95) (by decide)), r4_wr (List.getElem_mem (l := r4_written) (n := 96) (by decide)), r4_wr (List.getElem_mem (l := r4_written) (n := 97) (by decide)), r4_wr (List.getElem_mem (l := r4_written) (n := 98) (by decide)), r4_wr (List.getElem_mem (l := r4_written) (n := 99) (by decide)), r4_wr (List.getElem_mem (l := r4_written) (n := 100) (by decide)), r4_wr (List.getElem_mem (l := r4_written) (n := 101) (by decide)), r4_wr (List.getElem_mem (l := r4_written) (n := 102) (by decide))⟩
/-- A buffer that layer 4 does not write keeps its contents through it. -/
theorem r4_keep (V : Valuation τ sig (Elt F)) (r : Ref sig .tc) (hr : r ∉ r4_written) :
    after L4 V (Proc.devRef .tc r) = V (Proc.devRef .tc r) := after_of_writes_sub L4 V r4_writes hr

/-- The operations of the pooling and the head (34 of them). -/
abbrev L5 : List (HloOp τ sig (Elt F)) :=
  [ StableHlo.nullary main_cst_38 (constant S_ .f32 0x00000000#32),
    StableHlo.unary main_cst_38 main_v325 (broadcastInDim S5000x128 ![] bcast_S_S5000x128 : (⟨S_, .f32⟩ : BufTy).Contents (Elt F) → (⟨S5000x128, .f32⟩ : BufTy).Contents (Elt F)),
    StableHlo.unary main_arg27 main_v326 (broadcastInDim S100000x1 ![0] bcast_S100000_S100000x1_0 : (⟨S100000, .i32⟩ : BufTy).Contents (Elt F) → (⟨S100000x1, .i32⟩ : BufTy).Contents (Elt F)),
    StableHlo.ternary main_v325 main_v326 main_v324 main_v327 ((fun x i u => Host.scatterAdd scatter_S5000x128_S100000x1_S100000x128_1_0_0_1 x i u) : (⟨S5000x128, .f32⟩ : BufTy).Contents (Elt F) → (⟨S100000x1, .i32⟩ : BufTy).Contents (Elt F) → (⟨S100000x128, .f32⟩ : BufTy).Contents (Elt F) → (⟨S5000x128, .f32⟩ : BufTy).Contents (Elt F)),
    StableHlo.nullary main_cst_39 (constant S_ .f32 0x3F800000#32),
    StableHlo.unary main_cst_39 main_v328 (broadcastInDim S100000 ![] bcast_S_S100000 : (⟨S_, .f32⟩ : BufTy).Contents (Elt F) → (⟨S100000, .f32⟩ : BufTy).Contents (Elt F)),
    StableHlo.nullary main_cst_40 (constant S_ .f32 0x00000000#32),
    StableHlo.unary main_cst_40 main_v329 (broadcastInDim S5000 ![] bcast_S_S5000 : (⟨S_, .f32⟩ : BufTy).Contents (Elt F) → (⟨S5000, .f32⟩ : BufTy).Contents (Elt F)),
    StableHlo.unary main_arg27 main_v330 (broadcastInDim S100000x1 ![0] bcast_S100000_S100000x1_0 : (⟨S100000, .i32⟩ : BufTy).Contents (Elt F) → (⟨S100000x1, .i32⟩ : BufTy).Contents (Elt F)),
    StableHlo.ternary main_v329 main_v330 main_v328 main_v331 ((fun x i u => Host.scatterAdd scatter_S5000_S100000x1_S100000_n_0_0_1 x i u) : (⟨S5000, .f32⟩ : BufTy).Contents (Elt F) → (⟨S100000x1, .i32⟩ : BufTy).Contents (Elt F) → (⟨S100000, .f32⟩ : BufTy).Contents (Elt F) → (⟨S5000, .f32⟩ : BufTy).Contents (Elt F)),
    StableHlo.nullary main_cst_41 (constant S_ .f32 0x3F800000#32),
    StableHlo.unary main_cst_41 main_v332 (broadcastInDim S5000 ![] bcast_S_S5000 : (⟨S_, .f32⟩ : BufTy).Contents (Elt F) → (⟨S5000, .f32⟩ : BufTy).Contents (Elt F)),
    StableHlo.binary main_v331 main_v332 main_v333 (maximumf : (⟨S5000, .f32⟩ : BufTy).Contents (Elt F) → (⟨S5000, .f32⟩ : BufTy).Contents (Elt F) → (⟨S5000, .f32⟩ : BufTy).Contents (Elt F)),
    StableHlo.unary main_v333 main_v334 (broadcastInDim S5000x1 ![0] bcast_S5000_S5000x1_0 : (⟨S5000, .f32⟩ : BufTy).Contents (Elt F) → (⟨S5000x1, .f32⟩ : BufTy).Contents (Elt F)),
    StableHlo.unary main_v334 main_v335 (broadcastInDim S5000x128 ![0, 1] bcast_S5000x1_S5000x128_0_1 : (⟨S5000x1, .f32⟩ : BufTy).Contents (Elt F) → (⟨S5000x128, .f32⟩ : BufTy).Contents (Elt F)),
    StableHlo.binary main_v327 main_v335 main_v336 (Host.divf : (⟨S5000x128, .f32⟩ : BufTy).Contents (Elt F) → (⟨S5000x128, .f32⟩ : BufTy).Contents (Elt F) → (⟨S5000x128, .f32⟩ : BufTy).Contents (Elt F)),
    StableHlo.binary main_v336 main_arg20 main_v337 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.unary main_arg21 main_v338 (broadcastInDim S1x128 ![1] bcast_S128_S1x128_1 : (⟨S128, .f32⟩ : BufTy).Contents (Elt F) → (⟨S1x128, .f32⟩ : BufTy).Contents (Elt F)),
    StableHlo.unary main_v338 main_v339 (broadcastInDim S5000x128 ![0, 1] bcast_S1x128_S5000x128_0_1 : (⟨S1x128, .f32⟩ : BufTy).Contents (Elt F) → (⟨S5000x128, .f32⟩ : BufTy).Contents (Elt F)),
    StableHlo.binary main_v337 main_v339 main_v340 (addf : (⟨S5000x128, .f32⟩ : BufTy).Contents (Elt F) → (⟨S5000x128, .f32⟩ : BufTy).Contents (Elt F) → (⟨S5000x128, .f32⟩ : BufTy).Contents (Elt F)),
    StableHlo.TRef.nullary main_call20.cst (constant S_ .f32 0x00000000#32),
    StableHlo.TRef.unary main_call20.cst main_call20.v0 (broadcastInDim S5000x128 ![] bcast_S_S5000x128),
    StableHlo.TRef.binary (.of main_v340) main_call20.v0 main_call20.v1 maximumf,
    StableHlo.binary main_v341 main_arg22 main_v342 ((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F)),
    StableHlo.unary main_arg23 main_v343 (broadcastInDim S1x128 ![1] bcast_S128_S1x128_1 : (⟨S128, .f32⟩ : BufTy).Contents (Elt F) → (⟨S1x128, .f32⟩ : BufTy).Contents (Elt F)),
    StableHlo.unary main_v343 main_v344 (broadcastInDim S5000x128 ![0, 1] bcast_S1x128_S5000x128_0_1 : (⟨S1x128, .f32⟩ : BufTy).Contents (Elt F) → (⟨S5000x128, .f32⟩ : BufTy).Contents (Elt F)),
    StableHlo.binary main_v342 main_v344 main_v345 (addf : (⟨S5000x128, .f32⟩ : BufTy).Contents (Elt F) → (⟨S5000x128, .f32⟩ : BufTy).Contents (Elt F) → (⟨S5000x128, .f32⟩ : BufTy).Contents (Elt F)),
    StableHlo.TRef.nullary main_call21.cst (constant S_ .f32 0x00000000#32),
    StableHlo.TRef.unary main_call21.cst main_call21.v0 (broadcastInDim S5000x128 ![] bcast_S_S5000x128),
    StableHlo.TRef.binary (.of main_v345) main_call21.v0 main_call21.v1 maximumf,
    StableHlo.binary main_v346 main_arg24 main_v347 ((fun l r => Host.dotGeneral dot_S5000x128_S128x1_S5000x1_1_0_0_1_n_n none l r) : (⟨S5000x128, .f32⟩ : BufTy).Contents (Elt F) → (⟨S128x1, .f32⟩ : BufTy).Contents (Elt F) → (⟨S5000x1, .f32⟩ : BufTy).Contents (Elt F)),
    StableHlo.unary main_arg25 main_v348 (broadcastInDim S1x1 ![1] bcast_S1_S1x1_1 : (⟨S1, .f32⟩ : BufTy).Contents (Elt F) → (⟨S1x1, .f32⟩ : BufTy).Contents (Elt F)),
    StableHlo.unary main_v348 main_v349 (broadcastInDim S5000x1 ![0, 1] bcast_S1x1_S5000x1_0_1 : (⟨S1x1, .f32⟩ : BufTy).Contents (Elt F) → (⟨S5000x1, .f32⟩ : BufTy).Contents (Elt F)),
    StableHlo.binary main_v347 main_v349 main_v350 (addf : (⟨S5000x1, .f32⟩ : BufTy).Contents (Elt F) → (⟨S5000x1, .f32⟩ : BufTy).Contents (Elt F) → (⟨S5000x1, .f32⟩ : BufTy).Contents (Elt F)) ]

/-- The value of main_v327 from the inputs of the pooling and the head. -/
def r5_v327 {F : FTy → Type} [FloatOps F] (x_arg27 : IVec S100000 32) (x_v324 : FVec F S100000x128 .f32) : FVec F S5000x128 .f32 :=
  (((((fun x i u => Host.scatterAdd scatter_S5000x128_S100000x1_S100000x128_1_0_0_1 x i u) : (⟨S5000x128, .f32⟩ : BufTy).Contents (Elt F) → (⟨S100000x1, .i32⟩ : BufTy).Contents (Elt F) → (⟨S100000x128, .f32⟩ : BufTy).Contents (Elt F) → (⟨S5000x128, .f32⟩ : BufTy).Contents (Elt F))) : (FVec F S5000x128 .f32) → (IVec S100000x1 32) → (FVec F S100000x128 .f32) → (FVec F S5000x128 .f32)) ((((broadcastInDim S5000x128 ![] bcast_S_S5000x128 : (⟨S_, .f32⟩ : BufTy).Contents (Elt F) → (⟨S5000x128, .f32⟩ : BufTy).Contents (Elt F))) : (FVec F S_ .f32) → (FVec F S5000x128 .f32)) (((constant S_ .f32 0x00000000#32)) : FVec F S_ .f32)) ((((broadcastInDim S100000x1 ![0] bcast_S100000_S100000x1_0 : (⟨S100000, .i32⟩ : BufTy).Contents (Elt F) → (⟨S100000x1, .i32⟩ : BufTy).Contents (Elt F))) : (IVec S100000 32) → (IVec S100000x1 32)) x_arg27) x_v324)

/-- The value of main_v331 from the inputs of the pooling and the head. -/
def r5_v331 {F : FTy → Type} [FloatOps F] (x_arg27 : IVec S100000 32) : FVec F S5000 .f32 :=
  (((((fun x i u => Host.scatterAdd scatter_S5000_S100000x1_S100000_n_0_0_1 x i u) : (⟨S5000, .f32⟩ : BufTy).Contents (Elt F) → (⟨S100000x1, .i32⟩ : BufTy).Contents (Elt F) → (⟨S100000, .f32⟩ : BufTy).Contents (Elt F) → (⟨S5000, .f32⟩ : BufTy).Contents (Elt F))) : (FVec F S5000 .f32) → (IVec S100000x1 32) → (FVec F S100000 .f32) → (FVec F S5000 .f32)) ((((broadcastInDim S5000 ![] bcast_S_S5000 : (⟨S_, .f32⟩ : BufTy).Contents (Elt F) → (⟨S5000, .f32⟩ : BufTy).Contents (Elt F))) : (FVec F S_ .f32) → (FVec F S5000 .f32)) (((constant S_ .f32 0x00000000#32)) : FVec F S_ .f32)) ((((broadcastInDim S100000x1 ![0] bcast_S100000_S100000x1_0 : (⟨S100000, .i32⟩ : BufTy).Contents (Elt F) → (⟨S100000x1, .i32⟩ : BufTy).Contents (Elt F))) : (IVec S100000 32) → (IVec S100000x1 32)) x_arg27) ((((broadcastInDim S100000 ![] bcast_S_S100000 : (⟨S_, .f32⟩ : BufTy).Contents (Elt F) → (⟨S100000, .f32⟩ : BufTy).Contents (Elt F))) : (FVec F S_ .f32) → (FVec F S100000 .f32)) (((constant S_ .f32 0x3F800000#32)) : FVec F S_ .f32)))

/-- The value of main_v336 from the inputs of the pooling and the head. -/
def r5_v336 {F : FTy → Type} [FloatOps F] (x_arg27 : IVec S100000 32) (x_v324 : FVec F S100000x128 .f32) : FVec F S5000x128 .f32 :=
  ((((Host.divf : (⟨S5000x128, .f32⟩ : BufTy).Contents (Elt F) → (⟨S5000x128, .f32⟩ : BufTy).Contents (Elt F) → (⟨S5000x128, .f32⟩ : BufTy).Contents (Elt F))) : (FVec F S5000x128 .f32) → (FVec F S5000x128 .f32) → (FVec F S5000x128 .f32)) (r5_v327 (F := F) x_arg27 x_v324) ((((broadcastInDim S5000x128 ![0, 1] bcast_S5000x1_S5000x128_0_1 : (⟨S5000x1, .f32⟩ : BufTy).Contents (Elt F) → (⟨S5000x128, .f32⟩ : BufTy).Contents (Elt F))) : (FVec F S5000x1 .f32) → (FVec F S5000x128 .f32)) ((((broadcastInDim S5000x1 ![0] bcast_S5000_S5000x1_0 : (⟨S5000, .f32⟩ : BufTy).Contents (Elt F) → (⟨S5000x1, .f32⟩ : BufTy).Contents (Elt F))) : (FVec F S5000 .f32) → (FVec F S5000x1 .f32)) ((((maximumf : (⟨S5000, .f32⟩ : BufTy).Contents (Elt F) → (⟨S5000, .f32⟩ : BufTy).Contents (Elt F) → (⟨S5000, .f32⟩ : BufTy).Contents (Elt F))) : (FVec F S5000 .f32) → (FVec F S5000 .f32) → (FVec F S5000 .f32)) (r5_v331 (F := F) x_arg27) ((((broadcastInDim S5000 ![] bcast_S_S5000 : (⟨S_, .f32⟩ : BufTy).Contents (Elt F) → (⟨S5000, .f32⟩ : BufTy).Contents (Elt F))) : (FVec F S_ .f32) → (FVec F S5000 .f32)) (((constant S_ .f32 0x3F800000#32)) : FVec F S_ .f32))))))

/-- The value of main_v350 from the inputs of the pooling and the head. -/
def r5_v350 {F : FTy → Type} [FloatOps F] (x_arg27 : IVec S100000 32) (x_v324 : FVec F S100000x128 .f32) (x_arg20 : FVec F S128x128 .f32) (x_arg21 : FVec F S128 .f32) (x_arg22 : FVec F S128x128 .f32) (x_arg23 : FVec F S128 .f32) (x_arg24 : FVec F S128x1 .f32) (x_arg25 : FVec F S1 .f32) : FVec F S5000x1 .f32 :=
  ((((addf : (⟨S5000x1, .f32⟩ : BufTy).Contents (Elt F) → (⟨S5000x1, .f32⟩ : BufTy).Contents (Elt F) → (⟨S5000x1, .f32⟩ : BufTy).Contents (Elt F))) : (FVec F S5000x1 .f32) → (FVec F S5000x1 .f32) → (FVec F S5000x1 .f32)) (((((fun l r => Host.dotGeneral dot_S5000x128_S128x1_S5000x1_1_0_0_1_n_n none l r) : (⟨S5000x128, .f32⟩ : BufTy).Contents (Elt F) → (⟨S128x1, .f32⟩ : BufTy).Contents (Elt F) → (⟨S5000x1, .f32⟩ : BufTy).Contents (Elt F))) : (FVec F S5000x128 .f32) → (FVec F S128x1 .f32) → (FVec F S5000x1 .f32)) (((maximumf) : (FVec F S5000x128 .f32) → (FVec F S5000x128 .f32) → (FVec F S5000x128 .f32)) ((((addf : (⟨S5000x128, .f32⟩ : BufTy).Contents (Elt F) → (⟨S5000x128, .f32⟩ : BufTy).Contents (Elt F) → (⟨S5000x128, .f32⟩ : BufTy).Contents (Elt F))) : (FVec F S5000x128 .f32) → (FVec F S5000x128 .f32) → (FVec F S5000x128 .f32)) (((((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F))) : (FVec F S5000x128 .f32) → (FVec F S128x128 .f32) → (FVec F S5000x128 .f32)) (((maximumf) : (FVec F S5000x128 .f32) → (FVec F S5000x128 .f32) → (FVec F S5000x128 .f32)) ((((addf : (⟨S5000x128, .f32⟩ : BufTy).Contents (Elt F) → (⟨S5000x128, .f32⟩ : BufTy).Contents (Elt F) → (⟨S5000x128, .f32⟩ : BufTy).Contents (Elt F))) : (FVec F S5000x128 .f32) → (FVec F S5000x128 .f32) → (FVec F S5000x128 .f32)) (((((fun l r => Host.dotGeneral dot_S5000x128_S128x128_S5000x128_1_0_0_1_n_n none l r) : (⟨S5000x128, .f32⟩ : BufTy).Contents (Elt F) → (⟨S128x128, .f32⟩ : BufTy).Contents (Elt F) → (⟨S5000x128, .f32⟩ : BufTy).Contents (Elt F))) : (FVec F S5000x128 .f32) → (FVec F S128x128 .f32) → (FVec F S5000x128 .f32)) (r5_v336 (F := F) x_arg27 x_v324) x_arg20) ((((broadcastInDim S5000x128 ![0, 1] bcast_S1x128_S5000x128_0_1 : (⟨S1x128, .f32⟩ : BufTy).Contents (Elt F) → (⟨S5000x128, .f32⟩ : BufTy).Contents (Elt F))) : (FVec F S1x128 .f32) → (FVec F S5000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) x_arg21))) ((((broadcastInDim S5000x128 ![] bcast_S_S5000x128)) : (FVec F S_ .f32) → (FVec F S5000x128 .f32)) (((constant S_ .f32 0x00000000#32)) : FVec F S_ .f32))) x_arg22) ((((broadcastInDim S5000x128 ![0, 1] bcast_S1x128_S5000x128_0_1 : (⟨S1x128, .f32⟩ : BufTy).Contents (Elt F) → (⟨S5000x128, .f32⟩ : BufTy).Contents (Elt F))) : (FVec F S1x128 .f32) → (FVec F S5000x128 .f32)) ((((broadcastInDim S1x128 ![1] bcast_S128_S1x128_1 : (⟨S128, .f32⟩ : BufTy).Contents (Elt F) → (⟨S1x128, .f32⟩ : BufTy).Contents (Elt F))) : (FVec F S128 .f32) → (FVec F S1x128 .f32)) x_arg23))) ((((broadcastInDim S5000x128 ![] bcast_S_S5000x128)) : (FVec F S_ .f32) → (FVec F S5000x128 .f32)) (((constant S_ .f32 0x00000000#32)) : FVec F S_ .f32))) x_arg24) ((((broadcastInDim S5000x1 ![0, 1] bcast_S1x1_S5000x1_0_1 : (⟨S1x1, .f32⟩ : BufTy).Contents (Elt F) → (⟨S5000x1, .f32⟩ : BufTy).Contents (Elt F))) : (FVec F S1x1 .f32) → (FVec F S5000x1 .f32)) ((((broadcastInDim S1x1 ![1] bcast_S1_S1x1_1 : (⟨S1, .f32⟩ : BufTy).Contents (Elt F) → (⟨S1x1, .f32⟩ : BufTy).Contents (Elt F))) : (FVec F S1 .f32) → (FVec F S1x1 .f32)) x_arg25)))

set_option maxRecDepth 65536 in
set_option maxHeartbeats 13600000 in
theorem r5_read_v350 (V : Valuation τ sig (Elt F)) :
    after L5 V (Proc.devRef .tc main_v350) = r5_v350 (F := F) (V (Proc.devRef .tc main_arg27)) (V (Proc.devRef .tc main_v324)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  after_results_simp <;> rfl

/-- The buffers that the pooling and the head writes. -/
abbrev r5_written : List (Ref sig .tc) := [main_cst_38, main_v325, main_v326, main_v327, main_cst_39, main_v328, main_cst_40, main_v329, main_v330, main_v331, main_cst_41, main_v332, main_v333, main_v334, main_v335, main_v336, main_v337, main_v338, main_v339, main_v340, main_call20_cst, main_call20_v0, main_v341, main_v342, main_v343, main_v344, main_v345, main_call21_cst, main_call21_v0, main_v346, main_v347, main_v348, main_v349, main_v350]
theorem r5_wr {y : Ref sig .tc} (h : y ∈ r5_written) :
    ({Proc.devRef .tc y} : Finset (DevRef τ sig)) ⊆ (r5_written.map (Proc.devRef (τ := τ) .tc)).toFinset :=
  Finset.singleton_subset_iff.mpr (List.mem_toFinset.mpr (List.mem_map_of_mem h))
set_option maxRecDepth 65536 in
theorem r5_writes : (L5 : List (HloOp τ sig (Elt F))).Forall fun op => op.writes ⊆ (r5_written.map (Proc.devRef (τ := τ) .tc)).toFinset :=
  ⟨r5_wr (List.getElem_mem (l := r5_written) (n := 0) (by decide)), r5_wr (List.getElem_mem (l := r5_written) (n := 1) (by decide)), r5_wr (List.getElem_mem (l := r5_written) (n := 2) (by decide)), r5_wr (List.getElem_mem (l := r5_written) (n := 3) (by decide)), r5_wr (List.getElem_mem (l := r5_written) (n := 4) (by decide)), r5_wr (List.getElem_mem (l := r5_written) (n := 5) (by decide)), r5_wr (List.getElem_mem (l := r5_written) (n := 6) (by decide)), r5_wr (List.getElem_mem (l := r5_written) (n := 7) (by decide)), r5_wr (List.getElem_mem (l := r5_written) (n := 8) (by decide)), r5_wr (List.getElem_mem (l := r5_written) (n := 9) (by decide)), r5_wr (List.getElem_mem (l := r5_written) (n := 10) (by decide)), r5_wr (List.getElem_mem (l := r5_written) (n := 11) (by decide)), r5_wr (List.getElem_mem (l := r5_written) (n := 12) (by decide)), r5_wr (List.getElem_mem (l := r5_written) (n := 13) (by decide)), r5_wr (List.getElem_mem (l := r5_written) (n := 14) (by decide)), r5_wr (List.getElem_mem (l := r5_written) (n := 15) (by decide)), r5_wr (List.getElem_mem (l := r5_written) (n := 16) (by decide)), r5_wr (List.getElem_mem (l := r5_written) (n := 17) (by decide)), r5_wr (List.getElem_mem (l := r5_written) (n := 18) (by decide)), r5_wr (List.getElem_mem (l := r5_written) (n := 19) (by decide)), r5_wr (List.getElem_mem (l := r5_written) (n := 20) (by decide)), r5_wr (List.getElem_mem (l := r5_written) (n := 21) (by decide)), r5_wr (List.getElem_mem (l := r5_written) (n := 22) (by decide)), r5_wr (List.getElem_mem (l := r5_written) (n := 23) (by decide)), r5_wr (List.getElem_mem (l := r5_written) (n := 24) (by decide)), r5_wr (List.getElem_mem (l := r5_written) (n := 25) (by decide)), r5_wr (List.getElem_mem (l := r5_written) (n := 26) (by decide)), r5_wr (List.getElem_mem (l := r5_written) (n := 27) (by decide)), r5_wr (List.getElem_mem (l := r5_written) (n := 28) (by decide)), r5_wr (List.getElem_mem (l := r5_written) (n := 29) (by decide)), r5_wr (List.getElem_mem (l := r5_written) (n := 30) (by decide)), r5_wr (List.getElem_mem (l := r5_written) (n := 31) (by decide)), r5_wr (List.getElem_mem (l := r5_written) (n := 32) (by decide)), r5_wr (List.getElem_mem (l := r5_written) (n := 33) (by decide))⟩
/-- A buffer that the pooling and the head does not write keeps its contents through it. -/
theorem r5_keep (V : Valuation τ sig (Elt F)) (r : Ref sig .tc) (hr : r ∉ r5_written) :
    after L5 V (Proc.devRef .tc r) = V (Proc.devRef .tc r) := after_of_writes_sub L5 V r5_writes hr

/-- The reference's result as a function of its arguments: the layers' functions composed. -/
def net {F : FTy → Type} [FloatOps F] (x_arg0 : FVec F S100000x11 .f32) (x_arg1 : FVec F S600000x3 .f32) (x_arg2 : FVec F S3x11 .f32) (x_arg3 : FVec F S11 .f32) (x_arg4 : FVec F S11x128 .f32) (x_arg5 : FVec F S128 .f32) (x_arg6 : FVec F S128x128 .f32) (x_arg7 : FVec F S128 .f32) (x_arg8 : FVec F S128 .f32) (x_arg9 : FVec F S128 .f32) (x_arg10 : FVec F S_ .f32) (x_arg11 : FVec F S4x3x128 .f32) (x_arg12 : FVec F S4x128 .f32) (x_arg13 : FVec F S4x128x128 .f32) (x_arg14 : FVec F S4x128 .f32) (x_arg15 : FVec F S4x128x128 .f32) (x_arg16 : FVec F S4x128 .f32) (x_arg17 : FVec F S4x128 .f32) (x_arg18 : FVec F S4x128 .f32) (x_arg19 : FVec F S4 .f32) (x_arg20 : FVec F S128x128 .f32) (x_arg21 : FVec F S128 .f32) (x_arg22 : FVec F S128x128 .f32) (x_arg23 : FVec F S128 .f32) (x_arg24 : FVec F S128x1 .f32) (x_arg25 : FVec F S1 .f32) (x_arg26 : IVec S2x600000 32) (x_arg27 : IVec S100000 32) : FVec F S5000x1 .f32 :=
  (r5_v350 (F := F) x_arg27 (r4_v324 (F := F) x_arg19 (r3_v256 (F := F) x_arg19 (r2_v188 (F := F) x_arg19 (r1_v120 (F := F) x_arg19 (r0_v52 (F := F) x_arg10 x_arg0 x_arg26 x_arg1 x_arg2 x_arg3 x_arg4 x_arg5 x_arg6 x_arg7 x_arg8 x_arg9) (r0_v3 (F := F) x_arg26) (r0_v1 (F := F) x_arg26) x_arg1 x_arg11 x_arg12 x_arg13 x_arg14 x_arg15 x_arg16 x_arg17 x_arg18) (r0_v3 (F := F) x_arg26) (r0_v1 (F := F) x_arg26) x_arg1 x_arg11 x_arg12 x_arg13 x_arg14 x_arg15 x_arg16 x_arg17 x_arg18) (r0_v3 (F := F) x_arg26) (r0_v1 (F := F) x_arg26) x_arg1 x_arg11 x_arg12 x_arg13 x_arg14 x_arg15 x_arg16 x_arg17 x_arg18) (r0_v3 (F := F) x_arg26) (r0_v1 (F := F) x_arg26) x_arg1 x_arg11 x_arg12 x_arg13 x_arg14 x_arg15 x_arg16 x_arg17 x_arg18) x_arg20 x_arg21 x_arg22 x_arg23 x_arg24 x_arg25)

/-- The fold over a concatenation is the fold over the second list of the fold over the first. -/
theorem after_app (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

set_option maxRecDepth 65536 in
set_option maxHeartbeats 16000000 in
/-- The fold of all the layers' operations leaves the result at the composed function of the arguments. -/
theorem net_read (V : Valuation τ sig (Elt F)) :
    after (L0 ++ L1 ++ L2 ++ L3 ++ L4 ++ L5) V (Proc.devRef .tc main_v350) = net (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) (V (Proc.devRef .tc main_arg26)) (V (Proc.devRef .tc main_arg27)) := by
  simp only [after_app]
  rw [r5_read_v350]
  rw [r4_keep _ main_arg27 (by decide)]
  rw [r4_read_v324]
  rw [r4_keep _ main_arg20 (by decide)]
  rw [r4_keep _ main_arg21 (by decide)]
  rw [r4_keep _ main_arg22 (by decide)]
  rw [r4_keep _ main_arg23 (by decide)]
  rw [r4_keep _ main_arg24 (by decide)]
  rw [r4_keep _ main_arg25 (by decide)]
  rw [r3_keep _ main_arg27 (by decide)]
  rw [r3_keep _ main_arg19 (by decide)]
  rw [r3_read_v256]
  rw [r3_keep _ main_v3 (by decide)]
  rw [r3_keep _ main_v1 (by decide)]
  rw [r3_keep _ main_arg1 (by decide)]
  rw [r3_keep _ main_arg11 (by decide)]
  rw [r3_keep _ main_arg12 (by decide)]
  rw [r3_keep _ main_arg13 (by decide)]
  rw [r3_keep _ main_arg14 (by decide)]
  rw [r3_keep _ main_arg15 (by decide)]
  rw [r3_keep _ main_arg16 (by decide)]
  rw [r3_keep _ main_arg17 (by decide)]
  rw [r3_keep _ main_arg18 (by decide)]
  rw [r3_keep _ main_arg20 (by decide)]
  rw [r3_keep _ main_arg21 (by decide)]
  rw [r3_keep _ main_arg22 (by decide)]
  rw [r3_keep _ main_arg23 (by decide)]
  rw [r3_keep _ main_arg24 (by decide)]
  rw [r3_keep _ main_arg25 (by decide)]
  rw [r2_keep _ main_arg27 (by decide)]
  rw [r2_keep _ main_arg19 (by decide)]
  rw [r2_read_v188]
  rw [r2_keep _ main_v3 (by decide)]
  rw [r2_keep _ main_v1 (by decide)]
  rw [r2_keep _ main_arg1 (by decide)]
  rw [r2_keep _ main_arg11 (by decide)]
  rw [r2_keep _ main_arg12 (by decide)]
  rw [r2_keep _ main_arg13 (by decide)]
  rw [r2_keep _ main_arg14 (by decide)]
  rw [r2_keep _ main_arg15 (by decide)]
  rw [r2_keep _ main_arg16 (by decide)]
  rw [r2_keep _ main_arg17 (by decide)]
  rw [r2_keep _ main_arg18 (by decide)]
  rw [r2_keep _ main_arg20 (by decide)]
  rw [r2_keep _ main_arg21 (by decide)]
  rw [r2_keep _ main_arg22 (by decide)]
  rw [r2_keep _ main_arg23 (by decide)]
  rw [r2_keep _ main_arg24 (by decide)]
  rw [r2_keep _ main_arg25 (by decide)]
  rw [r1_keep _ main_arg27 (by decide)]
  rw [r1_keep _ main_arg19 (by decide)]
  rw [r1_read_v120]
  rw [r1_keep _ main_v3 (by decide)]
  rw [r1_keep _ main_v1 (by decide)]
  rw [r1_keep _ main_arg1 (by decide)]
  rw [r1_keep _ main_arg11 (by decide)]
  rw [r1_keep _ main_arg12 (by decide)]
  rw [r1_keep _ main_arg13 (by decide)]
  rw [r1_keep _ main_arg14 (by decide)]
  rw [r1_keep _ main_arg15 (by decide)]
  rw [r1_keep _ main_arg16 (by decide)]
  rw [r1_keep _ main_arg17 (by decide)]
  rw [r1_keep _ main_arg18 (by decide)]
  rw [r1_keep _ main_arg20 (by decide)]
  rw [r1_keep _ main_arg21 (by decide)]
  rw [r1_keep _ main_arg22 (by decide)]
  rw [r1_keep _ main_arg23 (by decide)]
  rw [r1_keep _ main_arg24 (by decide)]
  rw [r1_keep _ main_arg25 (by decide)]
  rw [r0_keep _ main_arg27 (by decide)]
  rw [r0_keep _ main_arg19 (by decide)]
  rw [r0_read_v52]
  rw [r0_read_v3]
  rw [r0_read_v1]
  rw [r0_keep _ main_arg1 (by decide)]
  rw [r0_keep _ main_arg11 (by decide)]
  rw [r0_keep _ main_arg12 (by decide)]
  rw [r0_keep _ main_arg13 (by decide)]
  rw [r0_keep _ main_arg14 (by decide)]
  rw [r0_keep _ main_arg15 (by decide)]
  rw [r0_keep _ main_arg16 (by decide)]
  rw [r0_keep _ main_arg17 (by decide)]
  rw [r0_keep _ main_arg18 (by decide)]
  rw [r0_keep _ main_arg20 (by decide)]
  rw [r0_keep _ main_arg21 (by decide)]
  rw [r0_keep _ main_arg22 (by decide)]
  rw [r0_keep _ main_arg23 (by decide)]
  rw [r0_keep _ main_arg24 (by decide)]
  rw [r0_keep _ main_arg25 (by decide)]
  rfl

set_option maxRecDepth 65536 in
/-- The whole line is the layers' lines one after the other. -/
theorem ops_eq : (Cert.ReferenceIdeal.RefRun.ops (F := F) : List (HloOp τ sig (Elt F))) = L0 ++ L1 ++ L2 ++ L3 ++ L4 ++ L5 := rfl

end Cert.ReferenceIdeal.RefRead

end
-- ==== Proof.RefKept.lean ====
/-
  No operation of the reference writes an argument: each of the twenty-eight argument buffers keeps its launch contents
  through the whole line of operations (one lemma per argument, so that the comparison of the argument with the written
  buffers is made once).
-/
import proofs.«162690_j78211354460181_1_alg».proof.Proof.RefRun

set_option Elab.async false

noncomputable section

namespace Cert.ReferenceIdeal.RefRun

open Idealize.ShloMosaic Idealize.ShloMosaic.TcCoe Idealize.SL.Sem Idealize.ShloMosaic.StableHlo Cert.ReferenceIdeal

variable {F : FTy → Type} [FloatOps F]

theorem kept_arg0 (V : Valuation τ sig (Elt F)) : after ops V (Proc.devRef .tc main_arg0) = V (Proc.devRef .tc main_arg0) :=
  kept V main_arg0 (by decide)
theorem kept_arg1 (V : Valuation τ sig (Elt F)) : after ops V (Proc.devRef .tc main_arg1) = V (Proc.devRef .tc main_arg1) :=
  kept V main_arg1 (by decide)
theorem kept_arg2 (V : Valuation τ sig (Elt F)) : after ops V (Proc.devRef .tc main_arg2) = V (Proc.devRef .tc main_arg2) :=
  kept V main_arg2 (by decide)
theorem kept_arg3 (V : Valuation τ sig (Elt F)) : after ops V (Proc.devRef .tc main_arg3) = V (Proc.devRef .tc main_arg3) :=
  kept V main_arg3 (by decide)
theorem kept_arg4 (V : Valuation τ sig (Elt F)) : after ops V (Proc.devRef .tc main_arg4) = V (Proc.devRef .tc main_arg4) :=
  kept V main_arg4 (by decide)
theorem kept_arg5 (V : Valuation τ sig (Elt F)) : after ops V (Proc.devRef .tc main_arg5) = V (Proc.devRef .tc main_arg5) :=
  kept V main_arg5 (by decide)
theorem kept_arg6 (V : Valuation τ sig (Elt F)) : after ops V (Proc.devRef .tc main_arg6) = V (Proc.devRef .tc main_arg6) :=
  kept V main_arg6 (by decide)
theorem kept_arg7 (V : Valuation τ sig (Elt F)) : after ops V (Proc.devRef .tc main_arg7) = V (Proc.devRef .tc main_arg7) :=
  kept V main_arg7 (by decide)
theorem kept_arg8 (V : Valuation τ sig (Elt F)) : after ops V (Proc.devRef .tc main_arg8) = V (Proc.devRef .tc main_arg8) :=
  kept V main_arg8 (by decide)
theorem kept_arg9 (V : Valuation τ sig (Elt F)) : after ops V (Proc.devRef .tc main_arg9) = V (Proc.devRef .tc main_arg9) :=
  kept V main_arg9 (by decide)
theorem kept_arg10 (V : Valuation τ sig (Elt F)) : after ops V (Proc.devRef .tc main_arg10) = V (Proc.devRef .tc main_arg10) :=
  kept V main_arg10 (by decide)
theorem kept_arg11 (V : Valuation τ sig (Elt F)) : after ops V (Proc.devRef .tc main_arg11) = V (Proc.devRef .tc main_arg11) :=
  kept V main_arg11 (by decide)
theorem kept_arg12 (V : Valuation τ sig (Elt F)) : after ops V (Proc.devRef .tc main_arg12) = V (Proc.devRef .tc main_arg12) :=
  kept V main_arg12 (by decide)
theorem kept_arg13 (V : Valuation τ sig (Elt F)) : after ops V (Proc.devRef .tc main_arg13) = V (Proc.devRef .tc main_arg13) :=
  kept V main_arg13 (by decide)
theorem kept_arg14 (V : Valuation τ sig (Elt F)) : after ops V (Proc.devRef .tc main_arg14) = V (Proc.devRef .tc main_arg14) :=
  kept V main_arg14 (by decide)
theorem kept_arg15 (V : Valuation τ sig (Elt F)) : after ops V (Proc.devRef .tc main_arg15) = V (Proc.devRef .tc main_arg15) :=
  kept V main_arg15 (by decide)
theorem kept_arg16 (V : Valuation τ sig (Elt F)) : after ops V (Proc.devRef .tc main_arg16) = V (Proc.devRef .tc main_arg16) :=
  kept V main_arg16 (by decide)
theorem kept_arg17 (V : Valuation τ sig (Elt F)) : after ops V (Proc.devRef .tc main_arg17) = V (Proc.devRef .tc main_arg17) :=
  kept V main_arg17 (by decide)
theorem kept_arg18 (V : Valuation τ sig (Elt F)) : after ops V (Proc.devRef .tc main_arg18) = V (Proc.devRef .tc main_arg18) :=
  kept V main_arg18 (by decide)
theorem kept_arg19 (V : Valuation τ sig (Elt F)) : after ops V (Proc.devRef .tc main_arg19) = V (Proc.devRef .tc main_arg19) :=
  kept V main_arg19 (by decide)
theorem kept_arg20 (V : Valuation τ sig (Elt F)) : after ops V (Proc.devRef .tc main_arg20) = V (Proc.devRef .tc main_arg20) :=
  kept V main_arg20 (by decide)
theorem kept_arg21 (V : Valuation τ sig (Elt F)) : after ops V (Proc.devRef .tc main_arg21) = V (Proc.devRef .tc main_arg21) :=
  kept V main_arg21 (by decide)
theorem kept_arg22 (V : Valuation τ sig (Elt F)) : after ops V (Proc.devRef .tc main_arg22) = V (Proc.devRef .tc main_arg22) :=
  kept V main_arg22 (by decide)
theorem kept_arg23 (V : Valuation τ sig (Elt F)) : after ops V (Proc.devRef .tc main_arg23) = V (Proc.devRef .tc main_arg23) :=
  kept V main_arg23 (by decide)
theorem kept_arg24 (V : Valuation τ sig (Elt F)) : after ops V (Proc.devRef .tc main_arg24) = V (Proc.devRef .tc main_arg24) :=
  kept V main_arg24 (by decide)
theorem kept_arg25 (V : Valuation τ sig (Elt F)) : after ops V (Proc.devRef .tc main_arg25) = V (Proc.devRef .tc main_arg25) :=
  kept V main_arg25 (by decide)
theorem kept_arg26 (V : Valuation τ sig (Elt F)) : after ops V (Proc.devRef .tc main_arg26) = V (Proc.devRef .tc main_arg26) :=
  kept V main_arg26 (by decide)
theorem kept_arg27 (V : Valuation τ sig (Elt F)) : after ops V (Proc.devRef .tc main_arg27) = V (Proc.devRef .tc main_arg27) :=
  kept V main_arg27 (by decide)

end Cert.ReferenceIdeal.RefRun

end
-- ==== Proof.LibVariance.lean ====
/-
  Sums of real numbers inside the extended reals, and the law that joins the two ways of computing a
  variance: for real numbers `h i` over a finite set of `n` elements, with mean `μ = (∑ h) / n`,

      (∑ (h i − μ)²) / n  =  (∑ (h i)²) / n − μ²,

  first over ℝ, then over the extended reals with the division `Ideal.div` by the real `n ≠ 0`. Over the
  extended reals the law needs every `h i` real: with one entry `⊤` the left side is `⊤` and the right side
  `⊤ − ⊤ = ⊥`. Also here: the extended-real operations that occur around it send real arguments to real
  results (sums, products, differences, quotients by a nonzero real, the maximum, the reciprocal square root
  of a positive real), stated through the predicate "is the coercion of a real".
-/
import Mathlib
import Idealize.ShloMosaic.PureOps.Ideal

namespace Cert.LibVariance

open Idealize.ShloMosaic

/-- An extended real that is (the coercion of) a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rwa [max_eq_right h]
  · rwa [max_eq_left h]
theorem IsReal.div_coe {x : EReal} (hx : IsReal x) {n : ℝ} (hn : n ≠ 0) : IsReal (Ideal.div x (n : EReal)) := by
  rw [Ideal.div_coe hn]; exact hx.mul (IsReal.coe _)

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The reciprocal square root of a positive real is real. -/
theorem IsReal.rsqrt_pos {r : ℝ} (hr : 0 < r) : IsReal (Ideal.rsqrt (r : EReal)) := by
  rw [Ideal.rsqrt_coe, if_neg (not_lt.mpr hr.le), if_neg hr.ne']
  exact IsReal.coe _

/-- The variance law over ℝ: the mean of the squared deviations from the mean is the mean of the squares
    minus the square of the mean (`n` the number of terms). -/
theorem variance_real {ι : Type*} (s : Finset ι) (h : ι → ℝ) (n : ℝ) (hcard : (s.card : ℝ) = n) (hn : n ≠ 0) :
    (∑ i ∈ s, (h i - (∑ j ∈ s, h j) / n) * (h i - (∑ j ∈ s, h j) / n)) / n
      = (∑ i ∈ s, h i * h i) / n - (∑ j ∈ s, h j) / n * ((∑ j ∈ s, h j) / n) := by
  set S := ∑ j ∈ s, h j with hS
  have h1 : ∑ i ∈ s, (h i - S / n) * (h i - S / n)
      = ∑ i ∈ s, h i * h i - 2 * (S / n) * S + n * (S / n * (S / n)) := by
    have : ∀ i, (h i - S / n) * (h i - S / n) = h i * h i - 2 * (S / n) * h i + S / n * (S / n) := fun i => by ring
    simp only [this, Finset.sum_add_distrib, Finset.sum_sub_distrib, ← Finset.mul_sum, Finset.sum_const, nsmul_eq_mul,
      hcard, ← hS]
    ring
  rw [h1]
  field_simp
  ring

/-- The variance law over the extended reals, for REAL entries and the extended-real quotient by the real
    `n ≠ 0`, `n` the number of terms. -/
theorem variance_ereal {ι : Type*} (s : Finset ι) (h : ι → ℝ) (n : ℝ) (hcard : (s.card : ℝ) = n) (hn : n ≠ 0) :
    Ideal.div (∑ i ∈ s, ((h i : EReal) - Ideal.div (∑ j ∈ s, (h j : EReal)) (n : EReal))
                       * ((h i : EReal) - Ideal.div (∑ j ∈ s, (h j : EReal)) (n : EReal))) (n : EReal)
      = Ideal.div (∑ i ∈ s, (h i : EReal) * (h i : EReal)) (n : EReal)
          - Ideal.div (∑ j ∈ s, (h j : EReal)) (n : EReal) * Ideal.div (∑ j ∈ s, (h j : EReal)) (n : EReal) := by
  simp only [Ideal.div_coe hn, ← coe_sum, ← EReal.coe_mul, ← EReal.coe_sub]
  rw [EReal.coe_eq_coe_iff]
  simp only [one_div, ← div_eq_mul_inv]
  exact variance_real s h n hcard hn

end Cert.LibVariance
-- ==== Proof.PreReal.lean ====
/-
  The precondition read: every float argument has real entries. The precondition is a conjunction, one conjunct per float
  argument, of "every entry's absolute value is below +∞"; a value whose absolute value is below +∞ is neither infinity,
  so it is a real number.
-/
import proofs.«162690_j78211354460181_1_alg».proof.Pre_finite_inputs
import proofs.«162690_j78211354460181_1_alg».proof.Proof.Gen.Pre_finite_inputs
import proofs.«162690_j78211354460181_1_alg».proof.Proof.LibVariance
import Idealize.ShloMosaic.Lib.ReduceAll
import Idealize.ShloMosaic.Lib.Affine
import Idealize.ShloMosaic.Lib.ValueIdx
import Idealize.ShloMosaic.PureOps.Ideal.Laws

set_option maxRecDepth 16384

noncomputable section

open Idealize.ShloMosaic Idealize.ShloMosaic.ValueIdx Cert.LibVariance

namespace Cert.PreReal

open Cert.Pre_finite_inputs Cert.Pre_finite_inputs.Gen

instance : Subsingleton (S_.Idx) := ⟨fun a b => funext fun d => d.elim0⟩

/-- A value whose absolute value is below +∞ is a real number. -/
theorem real_of_abs_lt_top (x : EReal)
    (h : FloatOps.cmpf (F := Ideal) .olt (FloatOps.hostAbsf (F := Ideal) (φ := .f32) x) (Ideal.ofBits .f32 0x7F800000#32) = 1#1) : IsReal x := by
  have htop : Ideal.ofBits .f32 0x7F800000#32 = ⊤ := by simp [Ideal.ofBits, Ideal.ieee]
  have h' : BitVec.ofBool (decide (max x (-x) < (⊤ : EReal))) = 1#1 := by rw [← htop]; exact h
  have hlt : max x (-x) < (⊤ : EReal) := by
    by_contra hn
    rw [decide_eq_false hn] at h'
    exact absurd h' (by decide)
  induction x using EReal.rec with
  | bot => exact absurd hlt (by simp)
  | top => exact absurd hlt (by simp)
  | coe r => exact IsReal.coe r

/-- One conjunct of the precondition: `jnp.all (|a| < +∞)` is 1, so every entry of `a` is real. -/
theorem real_of_all {s : Shape} {axes : List (Fin s.rank)} (a : FVec Ideal s .f32) (hb : (⟨0, ![]⟩ : Shape).BroadcastsInDim s ![])
    (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ix0 = 1#1) (i : s.Idx) : IsReal (a i) :=
  real_of_abs_lt_top (a i) (Host.reduce_andi_all _ _ hr hu ix0 e i)

/-- The scalar argument's conjunct (no broadcast of +∞). -/
theorem real_of_scalar {axes : List (Fin S_.rank)} (a : FVec Ideal S_ .f32) (hr : S_.ReducesTo axes S_) (hu : 0 < S_.numel)
    (e : Host.reduce IntOp.andi (cmpf .olt (Host.absf a) (constant (F := Ideal) S_ .f32 0x7F800000#32)) (constantI S_ 1 1#1) hr hu ix0 = 1#1)
    (i : S_.Idx) : IsReal (a i) :=
  real_of_abs_lt_top (a i) (Host.reduce_andi_all _ _ hr hu ix0 e i)

set_option maxHeartbeats 4000000 in
/-- Under the precondition every float argument has real entries. -/
theorem args_real (a0 : FVec Ideal S100000x11 .f32) (a1 : FVec Ideal S600000x3 .f32) (a2 : FVec Ideal S3x11 .f32) (a3 : FVec Ideal S11 .f32) (a4 : FVec Ideal S11x128 .f32) (a5 : FVec Ideal S128 .f32) (a6 : FVec Ideal S128x128 .f32) (a7 : FVec Ideal S128 .f32) (a8 : FVec Ideal S128 .f32) (a9 : FVec Ideal S128 .f32) (a10 : FVec Ideal S_ .f32) (a11 : FVec Ideal S4x3x128 .f32) (a12 : FVec Ideal S4x128 .f32) (a13 : FVec Ideal S4x128x128 .f32) (a14 : FVec Ideal S4x128 .f32) (a15 : FVec Ideal S4x128x128 .f32) (a16 : FVec Ideal S4x128 .f32) (a17 : FVec Ideal S4x128 .f32) (a18 : FVec Ideal S4x128 .f32) (a19 : FVec Ideal S4 .f32) (a20 : FVec Ideal S128x128 .f32) (a21 : FVec Ideal S128 .f32) (a22 : FVec Ideal S128x128 .f32) (a23 : FVec Ideal S128 .f32) (a24 : FVec Ideal S128x1 .f32) (a25 : FVec Ideal S1 .f32) (a26 : IVec S2x600000 32) (a27 : IVec S100000 32)
    (h : fn (F := Ideal) a0 a1 a2 a3 a4 a5 a6 a7 a8 a9 a10 a11 a12 a13 a14 a15 a16 a17 a18 a19 a20 a21 a22 a23 a24 a25 a26 a27 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i)) ∧ (∀ i, IsReal (a22 i)) ∧ (∀ i, IsReal (a23 i)) ∧ (∀ i, IsReal (a24 i)) ∧ (∀ i, IsReal (a25 i)) := by
  have h0 := congrFun h ix0
  dsimp only [fn, fn_part1, fn_part2, fn_part3, fn_part4, fn_part5, fn_part6, fn_part7] at h0
  obtain ⟨h0, e25⟩ := IntOp.andi_eq_one.1 h0
  obtain ⟨h0, e24⟩ := IntOp.andi_eq_one.1 h0
  obtain ⟨h0, e23⟩ := IntOp.andi_eq_one.1 h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨h0, e1⟩ := IntOp.andi_eq_one.1 h0
  exact ⟨real_of_all a0 _ _ _ h0,
    real_of_all a1 _ _ _ e1,
    real_of_all a2 _ _ _ e2,
    real_of_all a3 _ _ _ e3,
    real_of_all a4 _ _ _ e4,
    real_of_all a5 _ _ _ e5,
    real_of_all a6 _ _ _ e6,
    real_of_all a7 _ _ _ e7,
    real_of_all a8 _ _ _ e8,
    real_of_all a9 _ _ _ e9,
    real_of_scalar a10 _ _ e10,
    real_of_all a11 _ _ _ e11,
    real_of_all a12 _ _ _ e12,
    real_of_all a13 _ _ _ e13,
    real_of_all a14 _ _ _ e14,
    real_of_all a15 _ _ _ e15,
    real_of_all a16 _ _ _ e16,
    real_of_all a17 _ _ _ e17,
    real_of_all a18 _ _ _ e18,
    real_of_all a19 _ _ _ e19,
    real_of_all a20 _ _ _ e20,
    real_of_all a21 _ _ _ e21,
    real_of_all a22 _ _ _ e22,
    real_of_all a23 _ _ _ e23,
    real_of_all a24 _ _ _ e24,
    real_of_all a25 _ _ _ e25⟩

end Cert.PreReal

end
-- ==== Proof.LibSpec.lean ====
/-
  The network's stages as functions of real-or-infinite entries indexed by plain coordinates, and what the proof
  needs of them: each stage sends real entries to real entries, and the two ways of taking a column's variance
  agree on real entries.

    msgF   xj ea ew eb  (e, j) = max (xj e j + Σ_k ea e k · ew k j + eb j) 0
    mlpF   c x agg w1 b1 w2 b2 (r, j) = Σ_k max (Σ_l (c · x r l + agg r l) · w1 l k + b1 k) 0 · w2 k j + b2 j
    colSum h j = Σ_r h r j
    bnF    h mean var gamma beta eps (r, j) = max ((h r j − mean j) · rsqrt (var j + eps) · gamma j + beta j) 0
-/
import Mathlib
import Idealize.ShloMosaic.PureOps.Ideal
import proofs.«162690_j78211354460181_1_alg».proof.Proof.LibVariance

noncomputable section

namespace Cert.LibSpec

open Idealize.ShloMosaic Cert.LibVariance

variable {E N D K H : ℕ}

/-- The edge message. -/
def msgF (xj : Fin E → Fin D → EReal) (ea : Fin E → Fin K → EReal) (ew : Fin K → Fin D → EReal) (eb : Fin D → EReal)
    (zero : EReal) (e : Fin E) (j : Fin D) : EReal :=
  max (xj e j + (∑ k : Fin K, ea e k * ew k j) + eb j) zero

/-- The node MLP: two matrix products with a ReLU between, on `c · x + agg`. -/
def mlpF (c : EReal) (x agg : Fin N → Fin D → EReal) (w1 : Fin D → Fin H → EReal) (b1 : Fin H → EReal)
    (w2 : Fin H → Fin H → EReal) (b2 : Fin H → EReal) (zero : EReal) (r : Fin N) (j : Fin H) : EReal :=
  (∑ k : Fin H, max ((∑ l : Fin D, (c * x r l + agg r l) * w1 l k) + b1 k) zero * w2 k j) + b2 j

/-- A column's sum. -/
def colSum (h : Fin N → Fin H → EReal) (j : Fin H) : EReal := ∑ r : Fin N, h r j

/-- Normalisation by a column mean and variance, scale, shift, ReLU. -/
def bnF (h : Fin N → Fin H → EReal) (mean var gamma beta : Fin H → EReal) (eps zero : EReal) (r : Fin N) (j : Fin H) : EReal :=
  max ((h r j - mean j) * Ideal.rsqrt (var j + eps) * gamma j + beta j) zero

/-- The mean of a column: its sum divided by `n`. -/
def meanF (n : EReal) (h : Fin N → Fin H → EReal) (j : Fin H) : EReal := Ideal.div (colSum h j) n

/-- The variance as the mean of the squares minus the square of the mean. -/
def varK (n : EReal) (h : Fin N → Fin H → EReal) (j : Fin H) : EReal :=
  Ideal.div (colSum (fun r j => h r j * h r j) j) n - meanF n h j * meanF n h j

/-- The variance as the mean of the squared deviations from the mean. -/
def varR (n : EReal) (h : Fin N → Fin H → EReal) (j : Fin H) : EReal :=
  Ideal.div (colSum (fun r j => (h r j - meanF n h j) * (h r j - meanF n h j)) j) n

/-! ## Real entries stay real -/

theorem msgF_real {xj : Fin E → Fin D → EReal} {ea : Fin E → Fin K → EReal} {ew : Fin K → Fin D → EReal} {eb : Fin D → EReal}
    {zero : EReal} (hx : ∀ e j, IsReal (xj e j)) (ha : ∀ e k, IsReal (ea e k)) (hw : ∀ k j, IsReal (ew k j))
    (hb : ∀ j, IsReal (eb j)) (hz : IsReal zero) (e : Fin E) (j : Fin D) : IsReal (msgF xj ea ew eb zero e j) :=
  (((hx e j).add (IsReal.sum _ _ fun k _ => (ha e k).mul (hw k j))).add (hb j)).max hz

theorem mlpF_real {c : EReal} {x agg : Fin N → Fin D → EReal} {w1 : Fin D → Fin H → EReal} {b1 : Fin H → EReal}
    {w2 : Fin H → Fin H → EReal} {b2 : Fin H → EReal} {zero : EReal} (hc : IsReal c) (hx : ∀ r l, IsReal (x r l))
    (ha : ∀ r l, IsReal (agg r l)) (hw1 : ∀ l k, IsReal (w1 l k)) (hb1 : ∀ k, IsReal (b1 k)) (hw2 : ∀ k j, IsReal (w2 k j))
    (hb2 : ∀ j, IsReal (b2 j)) (hz : IsReal zero) (r : Fin N) (j : Fin H) : IsReal (mlpF c x agg w1 b1 w2 b2 zero r j) :=
  (IsReal.sum _ _ fun k _ =>
    (((IsReal.sum _ _ fun l _ => (((hc.mul (hx r l)).add (ha r l)).mul (hw1 l k))).add (hb1 k)).max hz).mul (hw2 k j)).add (hb2 j)

theorem colSum_real {h : Fin N → Fin H → EReal} (hh : ∀ r j, IsReal (h r j)) (j : Fin H) : IsReal (colSum h j) :=
  IsReal.sum _ _ fun r _ => hh r j

/-- On real entries, with `n` the number of rows, the two variances agree. -/
theorem varK_eq_varR {h : Fin N → Fin H → EReal} (hh : ∀ r j, IsReal (h r j)) (n : ℝ) (hn : (N : ℝ) = n) (hn0 : n ≠ 0)
    (j : Fin H) : varK (n : EReal) h j = varR (n : EReal) h j := by
  choose g hg using hh
  have e : h = fun r j => (g r j : EReal) := funext fun r => funext fun j => hg r j
  subst e
  unfold varK varR meanF colSum
  exact (variance_ereal Finset.univ (fun r => g r j) n (by simpa using hn) hn0).symm

/-- On real entries the variance is a real number that is not negative. -/
theorem varR_real_nonneg {h : Fin N → Fin H → EReal} (hh : ∀ r j, IsReal (h r j)) (n : ℝ) (hn0 : 0 < n) (j : Fin H) :
    ∃ v : ℝ, 0 ≤ v ∧ varR (n : EReal) h j = (v : EReal) := by
  choose g hg using hh
  have e : h = fun r j => (g r j : EReal) := funext fun r => funext fun j => hg r j
  subst e
  refine ⟨(∑ r : Fin N, (g r j - (∑ r : Fin N, g r j) / n) * (g r j - (∑ r : Fin N, g r j) / n)) / n, ?_, ?_⟩
  · exact div_nonneg (Finset.sum_nonneg fun r _ => mul_self_nonneg _) hn0.le
  · unfold varR meanF colSum
    simp only [Ideal.div_coe hn0.ne', ← coe_sum, ← EReal.coe_mul, ← EReal.coe_sub]
    simp only [one_div, ← div_eq_mul_inv]

theorem bnF_real {h : Fin N → Fin H → EReal} {mean var gamma beta : Fin H → EReal} {eps zero : EReal}
    (hh : ∀ r j, IsReal (h r j)) (hm : ∀ j, IsReal (mean j)) (hv : ∀ j, ∃ v : ℝ, 0 ≤ v ∧ var j = (v : EReal))
    (hg : ∀ j, IsReal (gamma j)) (hb : ∀ j, IsReal (beta j)) (he : ∃ ε : ℝ, 0 < ε ∧ eps = (ε : EReal)) (hz : IsReal zero)
    (r : Fin N) (j : Fin H) : IsReal (bnF h mean var gamma beta eps zero r j) := by
  obtain ⟨v, hv0, hv⟩ := hv j
  obtain ⟨ε, hε, rfl⟩ := he
  have hr : IsReal (Ideal.rsqrt (var j + (ε : EReal))) := by
    rw [hv, ← EReal.coe_add]; exact IsReal.rsqrt_pos (by linarith)
  exact (((((hh r j).sub (hm j)).mul hr).mul (hg j)).add (hb j)).max hz

end Cert.LibSpec

end
-- ==== Proof.Consts.lean ====
/-
  The float constants the two programs spell, as the extended reals their bit patterns denote: 0, 1, 100000 (the
  number of rows) and the small positive number added to a variance before its reciprocal square root.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_n : Ideal.ofBits .f32 0x47C35000#32 = ((100000 : ℝ) : EReal) := by
  simp [Ideal.ofBits, Ideal.ieee, -EReal.coe_mul]; norm_num

theorem ofBits_eps : Ideal.ofBits .f32 0x3727C5AC#32 = ((10995116 / 2 ^ 40 : ℝ) : EReal) := by
  simp [Ideal.ofBits, Ideal.ieee, -EReal.coe_mul]; norm_num

theorem eps_pos : ∃ ε : ℝ, 0 < ε ∧ Ideal.ofBits .f32 0x3727C5AC#32 = (ε : EReal) :=
  ⟨10995116 / 2 ^ 40, by norm_num, ofBits_eps⟩

end Cert.Consts

end
-- ==== Proof.RefStage.lean ====
/-
  The reference's host operations, stage by stage, read at an entry: the edge message, the node MLP, a column sum, the
  mean, the variance (the mean of the squared deviations, selected against a not-a-number constant by a comparison that
  is true) and the normalisation, each as the corresponding function of LibSpec of the operand arrays' entries.
-/
import proofs.«162690_j78211354460181_1_alg».proof.Proof.LibSpec
import proofs.«162690_j78211354460181_1_alg».proof.Proof.LibDot
import proofs.«162690_j78211354460181_1_alg».proof.Proof.Consts
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open Idealize.ShloMosaic Idealize.ShloMosaic.TcCoe Idealize.SL.Sem
open Idealize.ShloMosaic.ValueIdx
namespace Cert.RefStage
open Cert.LibDot Cert.LibSpec

/-- A vector laid along every row of a matrix by two broadcasts, read at an entry. -/
theorem bcast_row_apply {α : Type} {n m : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  rw [broadcastInDim_oneRow_apply]
  refine broadcastInDim_apply ![1] h1 x _ (ix1 t) fun a => ?_
  match a with
  | ⟨0, _⟩ =>
    show t.val = if n = 1 then 0 else t.val
    split
    · have := t.isLt; omega
    · rfl

/-- A scalar broadcast to any shape, read at an entry. -/
theorem bcast_scalar_apply {α : Type} {t : Shape} (h : (⟨0, ![]⟩ : Shape).BroadcastsInDim t ![])
    (c : (⟨0, ![]⟩ : Shape).Idx → α) (i : t.Idx) : broadcastInDim t ![] h c i = c ix0 :=
  broadcastInDim_apply ![] h c i ix0 (fun a => a.elim0)

/-- The reference's edge message, entry by entry. -/
theorem msg_eq {E D K : ℕ} (d : DotDims ⟨2, ![E, K]⟩ ⟨2, ![K, D]⟩ ⟨2, ![E, D]⟩) (hd : Plain d)
    (h1 : (⟨1, ![D]⟩ : Shape).BroadcastsInDim ⟨2, ![1, D]⟩ ![1])
    (h2 : (⟨2, ![1, D]⟩ : Shape).BroadcastsInDim ⟨2, ![E, D]⟩ ![0, 1])
    (h0 : (⟨0, ![]⟩ : Shape).BroadcastsInDim ⟨2, ![E, D]⟩ ![])
    (xj : FVec Ideal ⟨2, ![E, D]⟩ .f32) (ea : FVec Ideal ⟨2, ![E, K]⟩ .f32) (ew : FVec Ideal ⟨2, ![K, D]⟩ .f32)
    (eb : FVec Ideal ⟨1, ![D]⟩ .f32) :
    maximumf (addf (addf xj (Host.dotGeneral d none ea ew))
        (broadcastInDim ⟨2, ![E, D]⟩ ![0, 1] h2 (broadcastInDim ⟨2, ![1, D]⟩ ![1] h1 eb)))
      (broadcastInDim ⟨2, ![E, D]⟩ ![] h0 (constant ⟨0, ![]⟩ .f32 0x00000000#32))
    = fun i => msgF (fun e j => xj (ix2 e j)) (fun e k => ea (ix2 e k)) (fun k j => ew (ix2 k j)) (fun j => eb (ix1 j))
        (Ideal.ofBits .f32 0x00000000#32) (i 0) (i 1) := by
  funext i
  obtain ⟨e, j, rfl⟩ : ∃ (e : Fin E) (j : Fin D), i = ix2 e j := ⟨i 0, i 1, eq_ix2 i⟩
  rw [maximumf_apply, addf_apply, addf_apply, dotGeneral_ix2 hd, bcast_row_apply]
  rfl

/-- The reference's node MLP, entry by entry. -/
theorem mlp_eq {N D H : ℕ} (d1 : DotDims ⟨2, ![N, D]⟩ ⟨2, ![D, H]⟩ ⟨2, ![N, H]⟩) (hd1 : Plain d1)
    (d2 : DotDims ⟨2, ![N, H]⟩ ⟨2, ![H, H]⟩ ⟨2, ![N, H]⟩) (hd2 : Plain d2)
    (hc : (⟨0, ![]⟩ : Shape).BroadcastsInDim ⟨2, ![N, D]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (h0 : (⟨0, ![]⟩ : Shape).BroadcastsInDim ⟨2, ![N, H]⟩ ![])
    (c : FVec Ideal ⟨0, ![]⟩ .f32) (x agg : FVec Ideal ⟨2, ![N, D]⟩ .f32) (w1 : FVec Ideal ⟨2, ![D, H]⟩ .f32)
    (b1 : FVec Ideal ⟨1, ![H]⟩ .f32) (w2 : FVec Ideal ⟨2, ![H, H]⟩ .f32) (b2 : FVec Ideal ⟨1, ![H]⟩ .f32) :
    addf (Host.dotGeneral d2 none
        (maximumf (addf (Host.dotGeneral d1 none (addf (mulf (broadcastInDim ⟨2, ![N, D]⟩ ![] hc c) x) agg) w1)
            (broadcastInDim ⟨2, ![N, H]⟩ ![0, 1] h2 (broadcastInDim ⟨2, ![1, H]⟩ ![1] h1 b1)))
          (broadcastInDim ⟨2, ![N, H]⟩ ![] h0 (constant ⟨0, ![]⟩ .f32 0x00000000#32))) w2)
      (broadcastInDim ⟨2, ![N, H]⟩ ![0, 1] h2 (broadcastInDim ⟨2, ![1, H]⟩ ![1] h1 b2))
    = fun i => mlpF (c ix0) (fun r l => x (ix2 r l)) (fun r l => agg (ix2 r l)) (fun l k => w1 (ix2 l k)) (fun k => b1 (ix1 k))
        (fun k j => w2 (ix2 k j)) (fun j => b2 (ix1 j)) (Ideal.ofBits .f32 0x00000000#32) (i 0) (i 1) := by
  funext i
  obtain ⟨r, j, rfl⟩ : ∃ (r : Fin N) (j : Fin H), i = ix2 r j := ⟨i 0, i 1, eq_ix2 i⟩
  rw [addf_apply, dotGeneral_ix2 hd2, bcast_row_apply]
  unfold mlpF
  refine congrArg (· + _) (Finset.sum_congr rfl fun k _ => ?_)
  rw [maximumf_apply, addf_apply, dotGeneral_ix2 hd1, bcast_row_apply, bcast_scalar_apply]
  refine congrArg (fun z => max (z + _) _ * _) (Finset.sum_congr rfl fun l _ => ?_)
  rw [addf_apply, mulf_apply, bcast_scalar_apply]
  rfl

/-- The reference's column sum from a zero initial value. -/
theorem reduce_eq {N H : ℕ} (h' : (⟨2, ![N, H]⟩ : Shape).ReducesTo [0] ⟨1, ![H]⟩) (h : (⟨2, ![N, H]⟩ : Shape).Reduces [0] ⟨1, ![H]⟩)
    (hl : ∀ (j : Fin H) (k : Fin N), h.lift (ix1 j) k = ix2 k j) (hu : 0 < (⟨0, ![]⟩ : Shape).numel)
    (x : FVec Ideal ⟨2, ![N, H]⟩ .f32) (j : Fin H) :
    Host.reduceAdd x (constant ⟨0, ![]⟩ .f32 0x00000000#32) h' hu (ix1 j) = colSum (fun r j => x (ix2 r j)) j := by
  show Ideal.hostReduceAdd h' x _ (ix1 j) = _
  rw [Ideal.hostReduceAdd_single h' h]
  show Ideal.ofBits .f32 0x00000000#32 + _ = _
  rw [Ideal.ofBits_zero_f32, zero_add]
  unfold colSum
  exact Finset.sum_congr rfl fun k _ => congrArg x (hl j k)

/-- The reference's mean of a column. -/
theorem mean_eq {N H : ℕ} (h' : (⟨2, ![N, H]⟩ : Shape).ReducesTo [0] ⟨1, ![H]⟩) (h : (⟨2, ![N, H]⟩ : Shape).Reduces [0] ⟨1, ![H]⟩)
    (hl : ∀ (j : Fin H) (k : Fin N), h.lift (ix1 j) k = ix2 k j) (hu : 0 < (⟨0, ![]⟩ : Shape).numel)
    (hv : (⟨0, ![]⟩ : Shape).BroadcastsInDim ⟨1, ![H]⟩ ![])
    (x : FVec Ideal ⟨2, ![N, H]⟩ .f32) (nb : BitVec 32) (j : Fin H) :
    Host.divf (Host.reduceAdd x (constant ⟨0, ![]⟩ .f32 0x00000000#32) h' hu)
        (broadcastInDim ⟨1, ![H]⟩ ![] hv (constant ⟨0, ![]⟩ .f32 nb)) (ix1 j)
      = meanF (Ideal.ofBits .f32 nb) (fun r j => x (ix2 r j)) j := by
  show Ideal.div (Host.reduceAdd (F := Ideal) x (constant (F := Ideal) ⟨0, ![]⟩ .f32 0x00000000#32) h' hu (ix1 j)) _ = _
  rw [reduce_eq h' h hl hu, bcast_scalar_apply]
  rfl

/-- The reference's normalisation, scale, shift and ReLU, entry by entry. -/
theorem bn_eq {N H : ℕ} (h1 : (⟨1, ![H]⟩ : Shape).BroadcastsInDim ⟨2, ![1, H]⟩ ![1])
    (h2 : (⟨2, ![1, H]⟩ : Shape).BroadcastsInDim ⟨2, ![N, H]⟩ ![0, 1])
    (h0 : (⟨0, ![]⟩ : Shape).BroadcastsInDim ⟨2, ![N, H]⟩ ![])
    (hv : (⟨0, ![]⟩ : Shape).BroadcastsInDim ⟨1, ![H]⟩ ![])
    (x : FVec Ideal ⟨2, ![N, H]⟩ .f32) (mean var gamma beta : FVec Ideal ⟨1, ![H]⟩ .f32) (eb : BitVec 32) :
    maximumf (addf (mulf (mulf (subf x (broadcastInDim ⟨2, ![N, H]⟩ ![0, 1] h2 (broadcastInDim ⟨2, ![1, H]⟩ ![1] h1 mean)))
            (broadcastInDim ⟨2, ![N, H]⟩ ![0, 1] h2 (broadcastInDim ⟨2, ![1, H]⟩ ![1] h1
              (Host.rsqrt (addf var (broadcastInDim ⟨1, ![H]⟩ ![] hv (constant ⟨0, ![]⟩ .f32 eb)))))))
          (broadcastInDim ⟨2, ![N, H]⟩ ![0, 1] h2 (broadcastInDim ⟨2, ![1, H]⟩ ![1] h1 gamma)))
        (broadcastInDim ⟨2, ![N, H]⟩ ![0, 1] h2 (broadcastInDim ⟨2, ![1, H]⟩ ![1] h1 beta)))
      (broadcastInDim ⟨2, ![N, H]⟩ ![] h0 (constant ⟨0, ![]⟩ .f32 0x00000000#32))
    = fun i => bnF (fun r j => x (ix2 r j)) (fun j => mean (ix1 j)) (fun j => var (ix1 j)) (fun j => gamma (ix1 j))
        (fun j => beta (ix1 j)) (Ideal.ofBits .f32 eb) (Ideal.ofBits .f32 0x00000000#32) (i 0) (i 1) := by
  funext i
  obtain ⟨r, j, rfl⟩ : ∃ (r : Fin N) (j : Fin H), i = ix2 r j := ⟨i 0, i 1, eq_ix2 i⟩
  rw [maximumf_apply, addf_apply, mulf_apply, mulf_apply, subf_apply, bcast_row_apply, bcast_row_apply, bcast_row_apply,
    bcast_row_apply, bcast_scalar_apply]
  rfl

/-- The reference's variance (jnp.var): the mean of the squared deviations from the mean, selected against a constant by
    the comparison `n − 0 > 0`, which holds. -/
theorem var_eq {N H : ℕ} (h' : (⟨2, ![N, H]⟩ : Shape).ReducesTo [0] ⟨1, ![H]⟩) (h : (⟨2, ![N, H]⟩ : Shape).Reduces [0] ⟨1, ![H]⟩)
    (hl : ∀ (j : Fin H) (k : Fin N), h.lift (ix1 j) k = ix2 k j) (hu : 0 < (⟨0, ![]⟩ : Shape).numel)
    (h1 : (⟨1, ![H]⟩ : Shape).BroadcastsInDim ⟨2, ![1, H]⟩ ![1])
    (h2 : (⟨2, ![1, H]⟩ : Shape).BroadcastsInDim ⟨2, ![N, H]⟩ ![0, 1])
    (hs1 : (⟨0, ![]⟩ : Shape).BroadcastsInDim ⟨2, ![1, H]⟩ ![])
    (hv : (⟨0, ![]⟩ : Shape).BroadcastsInDim ⟨1, ![H]⟩ ![])
    (x : FVec Ideal ⟨2, ![N, H]⟩ .f32) (nanb : BitVec 32) (j : Fin H) :
    (fun p a b => select (broadcastInDim ⟨1, ![H]⟩ ![] hv p) a b)
        (cmpf .ogt (subf (constant ⟨0, ![]⟩ .f32 0x47C35000#32) (sitofp .f32 (constantI ⟨0, ![]⟩ 32 0#32)))
          (constant (F := Ideal) ⟨0, ![]⟩ .f32 0x00000000#32))
        (Host.divf
          (Host.reduceAdd
            (mulf
              (subf x (broadcastInDim ⟨2, ![N, H]⟩ ![0, 1] h2
                (Host.divf (broadcastInDim ⟨2, ![1, H]⟩ ![1] h1 (Host.reduceAdd x (constant ⟨0, ![]⟩ .f32 0x00000000#32) h' hu))
                  (broadcastInDim ⟨2, ![1, H]⟩ ![] hs1 (constant ⟨0, ![]⟩ .f32 0x47C35000#32)))))
              (subf x (broadcastInDim ⟨2, ![N, H]⟩ ![0, 1] h2
                (Host.divf (broadcastInDim ⟨2, ![1, H]⟩ ![1] h1 (Host.reduceAdd x (constant ⟨0, ![]⟩ .f32 0x00000000#32) h' hu))
                  (broadcastInDim ⟨2, ![1, H]⟩ ![] hs1 (constant ⟨0, ![]⟩ .f32 0x47C35000#32))))))
            (constant ⟨0, ![]⟩ .f32 0x00000000#32) h' hu)
          (broadcastInDim ⟨1, ![H]⟩ ![] hv
            (subf (constant ⟨0, ![]⟩ .f32 0x47C35000#32) (sitofp .f32 (constantI ⟨0, ![]⟩ 32 0#32)))))
        (broadcastInDim ⟨1, ![H]⟩ ![] hv (id (constant (F := Ideal) ⟨0, ![]⟩ .f32 nanb))) (ix1 j)
      = varR (Ideal.ofBits .f32 0x47C35000#32) (fun r j => x (ix2 r j)) j := by
  have hn : (Ideal.ofBits .f32 0x47C35000#32 : EReal) - (((0#32 : BitVec 32).toInt : ℝ) : EReal) = Ideal.ofBits .f32 0x47C35000#32 := by
    rw [Cert.Consts.ofBits_n]; norm_num
  have hc : FloatOps.cmpf (F := Ideal) .ogt ((Ideal.ofBits .f32 0x47C35000#32 : EReal) - (((0#32 : BitVec 32).toInt : ℝ) : EReal))
      (Ideal.ofBits .f32 0x00000000#32) = 1#1 := by
    rw [hn, Cert.Consts.ofBits_n, Cert.Consts.ofBits_zero]
    show BitVec.ofBool (decide ((0 : EReal) < ((100000 : ℝ) : EReal))) = 1#1
    rw [decide_eq_true (by exact_mod_cast (by norm_num : (0 : ℝ) < 100000))]
    rfl
  show Scalar.select (FloatOps.cmpf (F := Ideal) .ogt ((Ideal.ofBits .f32 0x47C35000#32 : EReal) - (((0#32 : BitVec 32).toInt : ℝ) : EReal))
      (Ideal.ofBits .f32 0x00000000#32)) _ _ = _
  rw [hc]
  show Ideal.div (Host.reduceAdd (F := Ideal) _ (constant (F := Ideal) ⟨0, ![]⟩ .f32 0x00000000#32) h' hu (ix1 j))
      ((Ideal.ofBits .f32 0x47C35000#32 : EReal) - (((0#32 : BitVec 32).toInt : ℝ) : EReal)) = _
  rw [hn, reduce_eq h' h hl hu]
  unfold varR colSum
  refine congrArg (fun z => Ideal.div z _) (Finset.sum_congr rfl fun r _ => ?_)
  have hm : ∀ r : Fin N, (broadcastInDim ⟨2, ![N, H]⟩ ![0, 1] h2
      (Host.divf (broadcastInDim ⟨2, ![1, H]⟩ ![1] h1 (Host.reduceAdd x (constant ⟨0, ![]⟩ .f32 0x00000000#32) h' hu))
        (broadcastInDim ⟨2, ![1, H]⟩ ![] hs1 (constant ⟨0, ![]⟩ .f32 0x47C35000#32)))) (ix2 r j)
      = meanF (Ideal.ofBits .f32 0x47C35000#32) (fun r j => x (ix2 r j)) j := fun r => by
    rw [broadcastInDim_oneRow_apply]
    show Ideal.div (broadcastInDim ⟨2, ![1, H]⟩ ![1] h1 (Host.reduceAdd (F := Ideal) x (constant (F := Ideal) ⟨0, ![]⟩ .f32 0x00000000#32) h' hu) (ix2 (0 : Fin 1) j))
      (broadcastInDim ⟨2, ![1, H]⟩ ![] hs1 (constant (F := Ideal) ⟨0, ![]⟩ .f32 0x47C35000#32) (ix2 (0 : Fin 1) j)) = _
    rw [bcast_scalar_apply]
    have e : broadcastInDim ⟨2, ![1, H]⟩ ![1] h1 (Host.reduceAdd x (constant ⟨0, ![]⟩ .f32 0x00000000#32) h' hu) (ix2 (0 : Fin 1) j)
        = Host.reduceAdd x (constant ⟨0, ![]⟩ .f32 0x00000000#32) h' hu (ix1 j) := by
      refine broadcastInDim_apply ![1] h1 _ _ (ix1 j) fun a => ?_
      match a with
      | ⟨0, _⟩ =>
        show j.val = if H = 1 then 0 else j.val
        split
        · have := j.isLt; omega
        · rfl
    rw [e, reduce_eq h' h hl hu]
    rfl
  dsimp only
  rw [mulf_apply, subf_apply, hm r]

/-- The head: three matrix products with a ReLU after the first two. -/
def headF {N H : ℕ} (p : Fin N → Fin H → EReal) (w1 : Fin H → Fin H → EReal) (b1 : Fin H → EReal) (w2 : Fin H → Fin H → EReal)
    (b2 : Fin H → EReal) (w3 : Fin H → Fin 1 → EReal) (b3 : Fin 1 → EReal) (zero : EReal) (r : Fin N) (q : Fin 1) : EReal :=
  (∑ k : Fin H, max ((∑ j : Fin H, max ((∑ l : Fin H, p r l * w1 l j) + b1 j) zero * w2 j k) + b2 k) zero * w3 k q) + b3 q

/-- The reference's head, entry by entry. -/
theorem head_eq {N H : ℕ} (d1 : DotDims ⟨2, ![N, H]⟩ ⟨2, ![H, H]⟩ ⟨2, ![N, H]⟩) (hd1 : Plain d1)
    (d3 : DotDims ⟨2, ![N, H]⟩ ⟨2, ![H, 1]⟩ ⟨2, ![N, 1]⟩) (hd3 : Plain d3)
    (h1 : (⟨1, ![H]⟩ : Shape).BroadcastsInDim ⟨2, ![1, H]⟩ ![1])
    (h2 : (⟨2, ![1, H]⟩ : Shape).BroadcastsInDim ⟨2, ![N, H]⟩ ![0, 1])
    (h0 : (⟨0, ![]⟩ : Shape).BroadcastsInDim ⟨2, ![N, H]⟩ ![])
    (g1 : (⟨1, ![1]⟩ : Shape).BroadcastsInDim ⟨2, ![1, 1]⟩ ![1])
    (g2 : (⟨2, ![1, 1]⟩ : Shape).BroadcastsInDim ⟨2, ![N, 1]⟩ ![0, 1])
    (p : FVec Ideal ⟨2, ![N, H]⟩ .f32) (w1 : FVec Ideal ⟨2, ![H, H]⟩ .f32) (b1 : FVec Ideal ⟨1, ![H]⟩ .f32)
    (w2 : FVec Ideal ⟨2, ![H, H]⟩ .f32) (b2 : FVec Ideal ⟨1, ![H]⟩ .f32) (w3 : FVec Ideal ⟨2, ![H, 1]⟩ .f32)
    (b3 : FVec Ideal ⟨1, ![1]⟩ .f32) :
    addf (Host.dotGeneral d3 none
        (maximumf (addf (Host.dotGeneral d1 none
            (maximumf (addf (Host.dotGeneral d1 none p w1)
                (broadcastInDim ⟨2, ![N, H]⟩ ![0, 1] h2 (broadcastInDim ⟨2, ![1, H]⟩ ![1] h1 b1)))
              (broadcastInDim ⟨2, ![N, H]⟩ ![] h0 (constant ⟨0, ![]⟩ .f32 0x00000000#32))) w2)
            (broadcastInDim ⟨2, ![N, H]⟩ ![0, 1] h2 (broadcastInDim ⟨2, ![1, H]⟩ ![1] h1 b2)))
          (broadcastInDim ⟨2, ![N, H]⟩ ![] h0 (constant ⟨0, ![]⟩ .f32 0x00000000#32))) w3)
      (broadcastInDim ⟨2, ![N, 1]⟩ ![0, 1] g2 (broadcastInDim ⟨2, ![1, 1]⟩ ![1] g1 b3))
    = fun i => headF (fun r l => p (ix2 r l)) (fun l j => w1 (ix2 l j)) (fun j => b1 (ix1 j)) (fun j k => w2 (ix2 j k))
        (fun k => b2 (ix1 k)) (fun k q => w3 (ix2 k q)) (fun q => b3 (ix1 q)) (Ideal.ofBits .f32 0x00000000#32) (i 0) (i 1) := by
  funext i
  obtain ⟨r, q, rfl⟩ : ∃ (r : Fin N) (q : Fin 1), i = ix2 r q := ⟨i 0, i 1, eq_ix2 i⟩
  rw [addf_apply, dotGeneral_ix2 hd3, bcast_row_apply]
  unfold headF
  refine congrArg (· + _) (Finset.sum_congr rfl fun k _ => ?_)
  rw [maximumf_apply, addf_apply, dotGeneral_ix2 hd1, bcast_row_apply, bcast_scalar_apply]
  refine congrArg (fun z => max (z + _) _ * _) (Finset.sum_congr rfl fun j _ => ?_)
  rw [maximumf_apply, addf_apply, dotGeneral_ix2 hd1, bcast_row_apply, bcast_scalar_apply]
  rfl

end Cert.RefStage
end
-- ==== Proof.BridgeLib.lean ====
/-
  Small facts used by every layer's bridge: an array read at coordinates, a reshaped vector or scalar read at an entry,
  and that a gather and a scatter-add of real entries have real entries.
-/
import proofs.«162690_j78211354460181_1_alg».proof.Proof.RefStage
import proofs.«162690_j78211354460181_1_alg».proof.Proof.LibSpec
import proofs.«162690_j78211354460181_1_alg».proof.Proof.Consts

set_option maxRecDepth 16384

noncomputable section

open Idealize.ShloMosaic Idealize.ShloMosaic.ValueIdx
open Cert.LibSpec Cert.LibVariance Cert.LibDot

namespace Cert.Bridge

/-- A matrix read at coordinates. -/
abbrev M2 {n m : ℕ} (A : (⟨2, ![n, m]⟩ : Shape).Idx → EReal) : Fin n → Fin m → EReal := fun r j => A (ix2 r j)
/-- A vector read at a coordinate. -/
abbrev V1 {n : ℕ} (b : (⟨1, ![n]⟩ : Shape).Idx → EReal) : Fin n → EReal := fun j => b (ix1 j)
/-- The one row of a [1, n] array read at a coordinate. -/
abbrev R1 {n : ℕ} (b : (⟨2, ![1, n]⟩ : Shape).Idx → EReal) : Fin n → EReal := fun j => b (ix2 (0 : Fin 1) j)

abbrev zero : EReal := Ideal.ofBits .f32 0x00000000#32
abbrev nrows : EReal := Ideal.ofBits .f32 0x47C35000#32
abbrev epsv : EReal := Ideal.ofBits .f32 0x3727C5AC#32
abbrev one : EReal := Ideal.ofBits .f32 0x3F800000#32

theorem zero_real : IsReal zero := by unfold zero; rw [Cert.Consts.ofBits_zero]; exact IsReal.zero
theorem one_real : IsReal one := by unfold one; rw [Cert.Consts.ofBits_one]; exact IsReal.coe _

/-- A scalar reshaped to [1, 1], read at its one entry. -/
theorem shapeCast_scalar_11 {α : Type} (x : (⟨0, ![]⟩ : Shape).Idx → α) (h : (⟨0, ![]⟩ : Shape).ShapeCasts ⟨2, ![1, 1]⟩) (u v : Fin 1) :
    shapeCast ⟨2, ![1, 1]⟩ x h (ix2 u v) = x ix0 :=
  shapeCast_apply x h _ ix0 (by
    have hu : u.val = 0 := by omega
    have hv : v.val = 0 := by omega
    rw [Shape.rowMajor_val_two]
    show ((⟨0, ![]⟩ : Shape).rowMajor ix0).val = u.val * 1 + v.val
    rw [hu, hv]
    rfl)

/-- A [1]-vector reshaped to [1, 1], read at its one entry. -/
theorem shapeCast_1_11 {α : Type} (x : (⟨1, ![1]⟩ : Shape).Idx → α) (h : (⟨1, ![1]⟩ : Shape).ShapeCasts ⟨2, ![1, 1]⟩) (u v : Fin 1) :
    shapeCast ⟨2, ![1, 1]⟩ x h (ix2 u v) = x (ix1 v) := shapeCast_a_1a_apply x h u v

/-- A gather reads entries of its operand: real entries stay real. -/
theorem gather_real {s si t : Shape} {w : ℕ} (d : GatherDims s si t) (x : s.Idx → EReal) (idx : IVec si w)
    (hx : ∀ i, IsReal (x i)) (j : t.Idx) : IsReal (Host.gather d x idx j) := hx _

/-- A scatter-add of real updates onto real entries has real entries. -/
theorem scatterAdd_real {s si u : Shape} {w : ℕ} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

end Cert.Bridge

end
-- ==== Proof.Bridge0.lean ====
/-
  Layer 0, kernel against reference. Both sides form the same gathered rows, the same edge message, the same aggregate
  and the same MLP output h2 (entry by entry, `msgF` and `mlpF` of LibSpec); the kernel's mean is the reference's; the
  kernel's variance, the mean of the squares minus the square of the mean, is the reference's mean of squared deviations
  because every entry of h2 is a real number (LibSpec `varK_eq_varR`) — which holds when the arguments are real;
  and the normalised outputs then agree. The layer's output again has real entries.
-/
import proofs.«162690_j78211354460181_1_alg».proof.Proof.KerRead0
import proofs.«162690_j78211354460181_1_alg».proof.Proof.RefRead
import proofs.«162690_j78211354460181_1_alg».proof.Proof.RefStage
import proofs.«162690_j78211354460181_1_alg».proof.Proof.LibSpec
import proofs.«162690_j78211354460181_1_alg».proof.Proof.Consts
import proofs.«162690_j78211354460181_1_alg».proof.Proof.BridgeLib

set_option maxRecDepth 16384

noncomputable section

open Idealize.ShloMosaic Idealize.ShloMosaic.ValueIdx
open Cert.LibSpec Cert.LibVariance Cert.LibDot

namespace Cert.Bridge

open Cert.KernelIdeal.KerRead Cert.ReferenceIdeal.RefRead

/-! ## The reference's dimension records and reductions -/

theorem plainR_e11 : Plain Cert.ReferenceIdeal.dot_S600000x3_S3x11_S600000x11_1_0_0_1_n_n :=
  ⟨rfl, rfl, fun _ _ => rfl, fun j k => DotDims.lhsIdx_val_of_single _ rfl j k, fun j k => DotDims.rhsIdx_val_of_single _ rfl j k, fun _ _ => rfl⟩
theorem plainR_e128 : Plain Cert.ReferenceIdeal.dot_S600000x3_S3x128_S600000x128_1_0_0_1_n_n :=
  ⟨rfl, rfl, fun _ _ => rfl, fun j k => DotDims.lhsIdx_val_of_single _ rfl j k, fun j k => DotDims.rhsIdx_val_of_single _ rfl j k, fun _ _ => rfl⟩
theorem plainR_n11 : Plain Cert.ReferenceIdeal.dot_S100000x11_S11x128_S100000x128_1_0_0_1_n_n :=
  ⟨rfl, rfl, fun _ _ => rfl, fun j k => DotDims.lhsIdx_val_of_single _ rfl j k, fun j k => DotDims.rhsIdx_val_of_single _ rfl j k, fun _ _ => rfl⟩
theorem plainR_n128 : Plain Cert.ReferenceIdeal.dot_S100000x128_S128x128_S100000x128_1_0_0_1_n_n :=
  ⟨rfl, rfl, fun _ _ => rfl, fun j k => DotDims.lhsIdx_val_of_single _ rfl j k, fun j k => DotDims.rhsIdx_val_of_single _ rfl j k, fun _ _ => rfl⟩

/-- The column reduction of a [100000, 128] array, with the inserted index computed. -/
theorem red_n : (⟨2, ![100000, 128]⟩ : Shape).Reduces [0] ⟨1, ![128]⟩ := by decide
theorem red_n_lift (j : Fin 128) (k : Fin 100000) : red_n.lift (ix1 j) k = ix2 k j := by
  funext a; apply Fin.ext
  match a with
  | ⟨0, _⟩ => rfl
  | ⟨1, _⟩ => rfl

theorem n_eq : nrows = ((100000 : ℝ) : EReal) := Cert.Consts.ofBits_n

section Layer0

variable (a0 : (⟨2, ![100000, 11]⟩ : Shape).Idx → EReal) (a1 : (⟨2, ![600000, 3]⟩ : Shape).Idx → EReal)
  (a2 : (⟨2, ![3, 11]⟩ : Shape).Idx → EReal) (a3 : (⟨1, ![11]⟩ : Shape).Idx → EReal)
  (a4 : (⟨2, ![11, 128]⟩ : Shape).Idx → EReal) (a5 : (⟨1, ![128]⟩ : Shape).Idx → EReal)
  (a6 : (⟨2, ![128, 128]⟩ : Shape).Idx → EReal) (a7 a8 a9 : (⟨1, ![128]⟩ : Shape).Idx → EReal)
  (a10 : (⟨0, ![]⟩ : Shape).Idx → EReal) (a26 : IVec ⟨2, ![2, 600000]⟩ 32)

/-- The gathered rows are the same array on both sides. -/
theorem xj0 : G_v10 a0 a26 = r0_v10 (F := Ideal) a0 a26 := rfl

/-- The kernel's message, entry by entry. -/
theorem k_msg0 : G_v12 a0 a1 a2 a3 a26
    = fun i => msgF (M2 (G_v10 a0 a26)) (M2 a1) (M2 a2) (V1 a3) zero (i 0) (i 1) := by
  funext i
  obtain ⟨e, j, rfl⟩ : ∃ (e : Fin 600000) (j : Fin 11), i = ix2 e j := ⟨i 0, i 1, eq_ix2 i⟩
  unfold G_v12 Cert.KernelIdeal.Reg0.out4 msgF G_v11
  rw [shapeCast_a_1a_apply]

/-- The reference's message, entry by entry. -/
theorem r_msg0 : r0_v16 (F := Ideal) a0 a26 a1 a2 a3
    = fun i => msgF (M2 (r0_v10 (F := Ideal) a0 a26)) (M2 a1) (M2 a2) (V1 a3) zero (i 0) (i 1) := by
  unfold r0_v16
  exact Cert.RefStage.msg_eq _ plainR_e11 _ _ _ _ _ _ _

theorem msg0 : G_v12 a0 a1 a2 a3 a26 = r0_v16 (F := Ideal) a0 a26 a1 a2 a3 := by
  rw [k_msg0, r_msg0, xj0]

/-- The aggregate is the same scatter-add of the same messages. -/
theorem agg0 : G_v15 a0 a1 a2 a3 a26 = r0_v19 (F := Ideal) a26 a0 a1 a2 a3 := by
  unfold G_v15 r0_v19
  rw [msg0]
  rfl

/-- The kernel's MLP output, entry by entry. -/
theorem k_h2_0 : G_v19_0 a0 a1 a2 a3 a4 a5 a6 a7 a10 a26
    = fun i => mlpF (one + a10 ix0) (M2 a0) (M2 (G_v15 a0 a1 a2 a3 a26)) (M2 a4) (V1 a5) (M2 a6) (V1 a7) zero (i 0) (i 1) := by
  funext i
  obtain ⟨r, j, rfl⟩ : ∃ (r : Fin 100000) (j : Fin 128), i = ix2 r j := ⟨i 0, i 1, eq_ix2 i⟩
  unfold G_v19_0 Cert.KernelIdeal.Reg1.out7 Cert.KernelIdeal.Reg1.h2 mlpF G_v16 G_v17 G_v18
  simp only [shapeCast_a_1a_apply, shapeCast_scalar_11]

/-- The reference's MLP output, entry by entry. -/
theorem r_h2_0 : r0_v32 (F := Ideal) a10 a0 a26 a1 a2 a3 a4 a5 a6 a7
    = fun i => mlpF (one + a10 ix0) (M2 a0) (M2 (r0_v19 (F := Ideal) a26 a0 a1 a2 a3)) (M2 a4) (V1 a5) (M2 a6) (V1 a7) zero (i 0) (i 1) := by
  unfold r0_v32
  exact Cert.RefStage.mlp_eq _ plainR_n11 _ plainR_n128 _ _ _ _ _ _ _ _ _ _ _

theorem h2_0 : G_v19_0 a0 a1 a2 a3 a4 a5 a6 a7 a10 a26 = r0_v32 (F := Ideal) a10 a0 a26 a1 a2 a3 a4 a5 a6 a7 := by
  rw [k_h2_0, r_h2_0, agg0]

/-- The kernel's carried sums are the column sums of its MLP output and of the squares. -/
theorem k_s_0 (j : Fin 128) : G_v19_1 a0 a1 a2 a3 a4 a5 a6 a7 a10 a26 (ix2 (0 : Fin 1) j)
    = colSum (M2 (G_v19_0 a0 a1 a2 a3 a4 a5 a6 a7 a10 a26)) j := by
  unfold G_v19_1
  rw [Cert.KernelIdeal.Reg1.out8_apply]
  rfl
theorem k_q_0 (j : Fin 128) : G_v19_2 a0 a1 a2 a3 a4 a5 a6 a7 a10 a26 (ix2 (0 : Fin 1) j)
    = colSum (fun r j => M2 (G_v19_0 a0 a1 a2 a3 a4 a5 a6 a7 a10 a26) r j * M2 (G_v19_0 a0 a1 a2 a3 a4 a5 a6 a7 a10 a26) r j) j := by
  unfold G_v19_2
  rw [Cert.KernelIdeal.Reg1.out9_apply]
  rfl

theorem k_mean_0 (j : Fin 128) : G_v21 a0 a1 a2 a3 a4 a5 a6 a7 a10 a26 (ix2 (0 : Fin 1) j)
    = meanF nrows (M2 (G_v19_0 a0 a1 a2 a3 a4 a5 a6 a7 a10 a26)) j := by
  unfold G_v21 meanF
  show Ideal.div (G_v19_1 a0 a1 a2 a3 a4 a5 a6 a7 a10 a26 (ix2 (0 : Fin 1) j)) _ = _
  rw [k_s_0, Cert.RefStage.bcast_scalar_apply]
  rfl

theorem k_var_0 (j : Fin 128) : G_v25 a0 a1 a2 a3 a4 a5 a6 a7 a10 a26 (ix2 (0 : Fin 1) j)
    = varK nrows (M2 (G_v19_0 a0 a1 a2 a3 a4 a5 a6 a7 a10 a26)) j := by
  unfold G_v25 varK
  show Ideal.div (G_v19_2 a0 a1 a2 a3 a4 a5 a6 a7 a10 a26 (ix2 (0 : Fin 1) j)) _
      - G_v21 a0 a1 a2 a3 a4 a5 a6 a7 a10 a26 (ix2 (0 : Fin 1) j) * G_v21 a0 a1 a2 a3 a4 a5 a6 a7 a10 a26 (ix2 (0 : Fin 1) j) = _
  rw [k_q_0, k_mean_0, Cert.RefStage.bcast_scalar_apply]
  rfl

theorem r_mean_0 (j : Fin 128) : r0_v35 (F := Ideal) a10 a0 a26 a1 a2 a3 a4 a5 a6 a7 (ix1 j)
    = meanF nrows (M2 (r0_v32 (F := Ideal) a10 a0 a26 a1 a2 a3 a4 a5 a6 a7)) j := by
  unfold r0_v35
  exact Cert.RefStage.mean_eq _ red_n red_n_lift _ _ _ _ j

theorem r_var_0 (j : Fin 128) : r0_v36 (F := Ideal) a10 a0 a26 a1 a2 a3 a4 a5 a6 a7 (ix1 j)
    = varR nrows (M2 (r0_v32 (F := Ideal) a10 a0 a26 a1 a2 a3 a4 a5 a6 a7)) j := by
  unfold r0_v36
  exact Cert.RefStage.var_eq _ red_n red_n_lift _ _ _ _ _ _ _ j

/-- The kernel's layer output, entry by entry. -/
theorem k_out_0 : G_v28 a0 a1 a2 a3 a4 a5 a6 a7 a8 a9 a10 a26
    = fun i => bnF (M2 (G_v19_0 a0 a1 a2 a3 a4 a5 a6 a7 a10 a26)) (R1 (G_v21 a0 a1 a2 a3 a4 a5 a6 a7 a10 a26))
        (R1 (G_v25 a0 a1 a2 a3 a4 a5 a6 a7 a10 a26)) (V1 a8) (V1 a9) epsv zero (i 0) (i 1) := by
  funext i
  obtain ⟨r, j, rfl⟩ : ∃ (r : Fin 100000) (j : Fin 128), i = ix2 r j := ⟨i 0, i 1, eq_ix2 i⟩
  unfold G_v28 Cert.KernelIdeal.Reg2.out5 bnF G_v26 G_v27
  simp only [shapeCast_a_1a_apply]

/-- The reference's layer output, entry by entry. -/
theorem r_out_0 : r0_v52 (F := Ideal) a10 a0 a26 a1 a2 a3 a4 a5 a6 a7 a8 a9
    = fun i => bnF (M2 (r0_v32 (F := Ideal) a10 a0 a26 a1 a2 a3 a4 a5 a6 a7)) (V1 (r0_v35 (F := Ideal) a10 a0 a26 a1 a2 a3 a4 a5 a6 a7))
        (V1 (r0_v36 (F := Ideal) a10 a0 a26 a1 a2 a3 a4 a5 a6 a7)) (V1 a8) (V1 a9) epsv zero (i 0) (i 1) := by
  unfold r0_v52
  exact Cert.RefStage.bn_eq _ _ _ _ _ _ _ _ _ _

/-! ### Real entries -/

variable (h0 : ∀ i, IsReal (a0 i)) (h1 : ∀ i, IsReal (a1 i)) (h2 : ∀ i, IsReal (a2 i)) (h3 : ∀ i, IsReal (a3 i))
  (h4 : ∀ i, IsReal (a4 i)) (h5 : ∀ i, IsReal (a5 i)) (h6 : ∀ i, IsReal (a6 i)) (h7 : ∀ i, IsReal (a7 i))
  (h8 : ∀ i, IsReal (a8 i)) (h9 : ∀ i, IsReal (a9 i)) (h10 : ∀ i, IsReal (a10 i))

include h0 h1 h2 h3 in
theorem msg0_real (i) : IsReal (G_v12 a0 a1 a2 a3 a26 i) := by
  rw [k_msg0]
  exact msgF_real (fun e j => gather_real _ _ _ h0 _) (fun e k => h1 _) (fun k j => h2 _) (fun j => h3 _) zero_real _ _

include h0 h1 h2 h3 in
theorem agg0_real (i) : IsReal (G_v15 a0 a1 a2 a3 a26 i) := by
  unfold G_v15
  exact scatterAdd_real _ _ _ _ (fun _ => zero_real) (msg0_real a0 a1 a2 a3 a26 h0 h1 h2 h3) i

include h0 h1 h2 h3 h4 h5 h6 h7 h10 in
theorem h2_0_real (i) : IsReal (G_v19_0 a0 a1 a2 a3 a4 a5 a6 a7 a10 a26 i) := by
  rw [k_h2_0]
  exact mlpF_real (one_real.add (h10 _)) (fun r l => h0 _) (fun r l => agg0_real a0 a1 a2 a3 a26 h0 h1 h2 h3 _) (fun l k => h4 _)
    (fun k => h5 _) (fun k j => h6 _) (fun j => h7 _) zero_real _ _

include h0 h1 h2 h3 h4 h5 h6 h7 h10 in
/-- On real arguments the kernel's variance is the reference's. -/
theorem var_0 (j : Fin 128) : G_v25 a0 a1 a2 a3 a4 a5 a6 a7 a10 a26 (ix2 (0 : Fin 1) j)
    = r0_v36 (F := Ideal) a10 a0 a26 a1 a2 a3 a4 a5 a6 a7 (ix1 j) := by
  rw [k_var_0, r_var_0, ← h2_0, n_eq]
  exact varK_eq_varR (fun r j => h2_0_real a0 a1 a2 a3 a4 a5 a6 a7 a10 a26 h0 h1 h2 h3 h4 h5 h6 h7 h10 _) 100000 (by norm_num) (by norm_num) j

theorem mean_0 (j : Fin 128) : G_v21 a0 a1 a2 a3 a4 a5 a6 a7 a10 a26 (ix2 (0 : Fin 1) j)
    = r0_v35 (F := Ideal) a10 a0 a26 a1 a2 a3 a4 a5 a6 a7 (ix1 j) := by
  rw [k_mean_0, r_mean_0, ← h2_0]

include h0 h1 h2 h3 h4 h5 h6 h7 h10 in
/-- Layer 0's output is the same array on both sides. -/
theorem out_0 : G_v28 a0 a1 a2 a3 a4 a5 a6 a7 a8 a9 a10 a26 = r0_v52 (F := Ideal) a10 a0 a26 a1 a2 a3 a4 a5 a6 a7 a8 a9 := by
  rw [k_out_0, r_out_0, ← h2_0]
  have e1 : R1 (G_v21 a0 a1 a2 a3 a4 a5 a6 a7 a10 a26) = V1 (r0_v35 (F := Ideal) a10 a0 a26 a1 a2 a3 a4 a5 a6 a7) :=
    funext fun j => mean_0 a0 a1 a2 a3 a4 a5 a6 a7 a10 a26 j
  have e2 : R1 (G_v25 a0 a1 a2 a3 a4 a5 a6 a7 a10 a26) = V1 (r0_v36 (F := Ideal) a10 a0 a26 a1 a2 a3 a4 a5 a6 a7) :=
    funext fun j => var_0 a0 a1 a2 a3 a4 a5 a6 a7 a10 a26 h0 h1 h2 h3 h4 h5 h6 h7 h10 j
  rw [e1, e2]

include h0 h1 h2 h3 h4 h5 h6 h7 h8 h9 h10 in
/-- Layer 0's output has real entries. -/
theorem out_0_real (i) : IsReal (G_v28 a0 a1 a2 a3 a4 a5 a6 a7 a8 a9 a10 a26 i) := by
  rw [k_out_0]
  have hh := fun r j => h2_0_real a0 a1 a2 a3 a4 a5 a6 a7 a10 a26 h0 h1 h2 h3 h4 h5 h6 h7 h10 (ix2 r j)
  refine bnF_real hh (fun j => ?_) (fun j => ?_) (fun j => h8 _) (fun j => h9 _) Cert.Consts.eps_pos zero_real _ _
  · show IsReal (G_v21 a0 a1 a2 a3 a4 a5 a6 a7 a10 a26 (ix2 (0 : Fin 1) j))
    rw [k_mean_0, n_eq]
    exact (colSum_real hh j).div_coe (by norm_num)
  · show ∃ v : ℝ, 0 ≤ v ∧ G_v25 a0 a1 a2 a3 a4 a5 a6 a7 a10 a26 (ix2 (0 : Fin 1) j) = (v : EReal)
    rw [k_var_0, n_eq, varK_eq_varR hh 100000 (by norm_num) (by norm_num) j]
    exact varR_real_nonneg hh 100000 (by norm_num) j

end Layer0

end Cert.Bridge

end
-- ==== Proof.Bridge1.lean ====
/-
  Layer 1, kernel against reference, with the layer's input the kernel's own previous output: the gathered rows, the edge
  message, the aggregate and the MLP output agree entry by entry; the kernel's variance (mean of squares minus squared
  mean) is the reference's mean of squared deviations because the MLP output's entries are real numbers; the normalised
  output plus the layer's input then agrees, and has real entries.
-/
import proofs.«162690_j78211354460181_1_alg».proof.Proof.KerRead0
import proofs.«162690_j78211354460181_1_alg».proof.Proof.RefRead
import proofs.«162690_j78211354460181_1_alg».proof.Proof.RefStage
import proofs.«162690_j78211354460181_1_alg».proof.Proof.LibSpec
import proofs.«162690_j78211354460181_1_alg».proof.Proof.Consts
import proofs.«162690_j78211354460181_1_alg».proof.Proof.BridgeLib
import proofs.«162690_j78211354460181_1_alg».proof.Proof.Bridge0

set_option maxRecDepth 16384

noncomputable section

open Idealize.ShloMosaic Idealize.ShloMosaic.ValueIdx
open Cert.LibSpec Cert.LibVariance Cert.LibDot

namespace Cert.Bridge

open Cert.KernelIdeal.KerRead Cert.ReferenceIdeal.RefRead

section Layer1

variable (a0 : (⟨2, ![100000, 11]⟩ : Shape).Idx → EReal) (a1 : (⟨2, ![600000, 3]⟩ : Shape).Idx → EReal)
  (a2 : (⟨2, ![3, 11]⟩ : Shape).Idx → EReal) (a3 : (⟨1, ![11]⟩ : Shape).Idx → EReal)
  (a4 : (⟨2, ![11, 128]⟩ : Shape).Idx → EReal) (a5 : (⟨1, ![128]⟩ : Shape).Idx → EReal)
  (a6 : (⟨2, ![128, 128]⟩ : Shape).Idx → EReal) (a7 a8 a9 : (⟨1, ![128]⟩ : Shape).Idx → EReal)
  (a10 : (⟨0, ![]⟩ : Shape).Idx → EReal) (a11 : (⟨3, ![4, 3, 128]⟩ : Shape).Idx → EReal) (a12 : (⟨2, ![4, 128]⟩ : Shape).Idx → EReal)
  (a13 : (⟨3, ![4, 128, 128]⟩ : Shape).Idx → EReal) (a14 : (⟨2, ![4, 128]⟩ : Shape).Idx → EReal)
  (a15 : (⟨3, ![4, 128, 128]⟩ : Shape).Idx → EReal) (a16 a17 a18 : (⟨2, ![4, 128]⟩ : Shape).Idx → EReal)
  (a19 : (⟨1, ![4]⟩ : Shape).Idx → EReal) (a26 : IVec ⟨2, ![2, 600000]⟩ 32)

theorem xj1 : G_v53 a0 a1 a2 a3 a4 a5 a6 a7 a8 a9 a10 a26 = r1_v77 (F := Ideal) (G_v28 a0 a1 a2 a3 a4 a5 a6 a7 a8 a9 a10 a26) (G_v1 a26) := rfl

theorem msg1 : G_v55 a0 a1 a2 a3 a4 a5 a6 a7 a8 a9 a10 a11 a12 a26 = r1_v83 (F := Ideal) (G_v28 a0 a1 a2 a3 a4 a5 a6 a7 a8 a9 a10 a26) (G_v1 a26) a1 a11 a12 := by
  unfold r1_v83
  rw [Cert.RefStage.msg_eq _ plainR_e128]
  funext i
  obtain ⟨e, j, rfl⟩ : ∃ (e : Fin 600000) (j : Fin 128), i = ix2 e j := ⟨i 0, i 1, eq_ix2 i⟩
  unfold G_v55 Cert.KernelIdeal.Reg3.out4 msgF G_v54
  rw [shapeCast_a_1a_apply, xj1]
  rfl

theorem agg1 : G_v58 a0 a1 a2 a3 a4 a5 a6 a7 a8 a9 a10 a11 a12 a26 = r1_v86 (F := Ideal) (G_v3 a26) (G_v28 a0 a1 a2 a3 a4 a5 a6 a7 a8 a9 a10 a26) (G_v1 a26) a1 a11 a12 := by
  unfold G_v58 r1_v86
  rw [msg1]
  rfl

theorem h2_1 : G_v62_0 a0 a1 a2 a3 a4 a5 a6 a7 a8 a9 a10 a11 a12 a13 a14 a15 a16 a19 a26 = r1_v99 (F := Ideal) a19 (G_v28 a0 a1 a2 a3 a4 a5 a6 a7 a8 a9 a10 a26) (G_v3 a26) (G_v1 a26) a1 a11 a12 a13 a14 a15 a16 := by
  unfold r1_v99
  rw [Cert.RefStage.mlp_eq _ plainR_n128 _ plainR_n128]
  funext i
  obtain ⟨r, j, rfl⟩ : ∃ (r : Fin 100000) (j : Fin 128), i = ix2 r j := ⟨i 0, i 1, eq_ix2 i⟩
  unfold G_v62_0 Cert.KernelIdeal.Reg4.out7 Cert.KernelIdeal.Reg4.h2 mlpF G_v59 G_v60 G_v61
  simp only [shapeCast_a_1a_apply, shapeCast_scalar_11, agg1]
  rfl

theorem k_s_1 (j : Fin 128) : G_v62_1 a0 a1 a2 a3 a4 a5 a6 a7 a8 a9 a10 a11 a12 a13 a14 a15 a16 a19 a26 (ix2 (0 : Fin 1) j) = colSum (M2 (G_v62_0 a0 a1 a2 a3 a4 a5 a6 a7 a8 a9 a10 a11 a12 a13 a14 a15 a16 a19 a26)) j := by
  unfold G_v62_1
  rw [Cert.KernelIdeal.Reg4.out8_apply]
  rfl
theorem k_q_1 (j : Fin 128) : G_v62_2 a0 a1 a2 a3 a4 a5 a6 a7 a8 a9 a10 a11 a12 a13 a14 a15 a16 a19 a26 (ix2 (0 : Fin 1) j)
    = colSum (fun r j => M2 (G_v62_0 a0 a1 a2 a3 a4 a5 a6 a7 a8 a9 a10 a11 a12 a13 a14 a15 a16 a19 a26) r j * M2 (G_v62_0 a0 a1 a2 a3 a4 a5 a6 a7 a8 a9 a10 a11 a12 a13 a14 a15 a16 a19 a26) r j) j := by
  unfold G_v62_2
  rw [Cert.KernelIdeal.Reg4.out9_apply]
  rfl

theorem k_mean_1 (j : Fin 128) : G_v64 a0 a1 a2 a3 a4 a5 a6 a7 a8 a9 a10 a11 a12 a13 a14 a15 a16 a19 a26 (ix2 (0 : Fin 1) j) = meanF nrows (M2 (G_v62_0 a0 a1 a2 a3 a4 a5 a6 a7 a8 a9 a10 a11 a12 a13 a14 a15 a16 a19 a26)) j := by
  unfold G_v64 meanF
  show Ideal.div (G_v62_1 a0 a1 a2 a3 a4 a5 a6 a7 a8 a9 a10 a11 a12 a13 a14 a15 a16 a19 a26 (ix2 (0 : Fin 1) j)) _ = _
  rw [k_s_1, Cert.RefStage.bcast_scalar_apply]
  rfl

theorem k_var_1 (j : Fin 128) : G_v68 a0 a1 a2 a3 a4 a5 a6 a7 a8 a9 a10 a11 a12 a13 a14 a15 a16 a19 a26 (ix2 (0 : Fin 1) j) = varK nrows (M2 (G_v62_0 a0 a1 a2 a3 a4 a5 a6 a7 a8 a9 a10 a11 a12 a13 a14 a15 a16 a19 a26)) j := by
  unfold G_v68 varK
  show Ideal.div (G_v62_2 a0 a1 a2 a3 a4 a5 a6 a7 a8 a9 a10 a11 a12 a13 a14 a15 a16 a19 a26 (ix2 (0 : Fin 1) j)) _ - G_v64 a0 a1 a2 a3 a4 a5 a6 a7 a8 a9 a10 a11 a12 a13 a14 a15 a16 a19 a26 (ix2 (0 : Fin 1) j) * G_v64 a0 a1 a2 a3 a4 a5 a6 a7 a8 a9 a10 a11 a12 a13 a14 a15 a16 a19 a26 (ix2 (0 : Fin 1) j) = _
  rw [k_q_1, k_mean_1, Cert.RefStage.bcast_scalar_apply]
  rfl

theorem mean_1 (j : Fin 128) : G_v64 a0 a1 a2 a3 a4 a5 a6 a7 a8 a9 a10 a11 a12 a13 a14 a15 a16 a19 a26 (ix2 (0 : Fin 1) j) = r1_v102 (F := Ideal) a19 (G_v28 a0 a1 a2 a3 a4 a5 a6 a7 a8 a9 a10 a26) (G_v3 a26) (G_v1 a26) a1 a11 a12 a13 a14 a15 a16 (ix1 j) := by
  unfold r1_v102
  rw [Cert.RefStage.mean_eq _ red_n red_n_lift, k_mean_1, h2_1]

theorem r_var_1 (j : Fin 128) : r1_v103 (F := Ideal) a19 (G_v28 a0 a1 a2 a3 a4 a5 a6 a7 a8 a9 a10 a26) (G_v3 a26) (G_v1 a26) a1 a11 a12 a13 a14 a15 a16 (ix1 j) = varR nrows (M2 (r1_v99 (F := Ideal) a19 (G_v28 a0 a1 a2 a3 a4 a5 a6 a7 a8 a9 a10 a26) (G_v3 a26) (G_v1 a26) a1 a11 a12 a13 a14 a15 a16)) j := by
  unfold r1_v103
  exact Cert.RefStage.var_eq _ red_n red_n_lift _ _ _ _ _ _ _ j

variable (hin : ∀ i, IsReal (G_v28 a0 a1 a2 a3 a4 a5 a6 a7 a8 a9 a10 a26 i)) (h1 : ∀ i, IsReal (a1 i)) (h11 : ∀ i, IsReal (a11 i)) (h12 : ∀ i, IsReal (a12 i)) (h13 : ∀ i, IsReal (a13 i)) (h14 : ∀ i, IsReal (a14 i)) (h15 : ∀ i, IsReal (a15 i)) (h16 : ∀ i, IsReal (a16 i)) (h17 : ∀ i, IsReal (a17 i)) (h18 : ∀ i, IsReal (a18 i)) (h19 : ∀ i, IsReal (a19 i))

include hin h1 h11 h12 h13 h14 h15 h16 h17 h18 h19 in
theorem msg1_real (i) : IsReal (G_v55 a0 a1 a2 a3 a4 a5 a6 a7 a8 a9 a10 a11 a12 a26 i) := by
  rw [msg1]
  unfold r1_v83
  rw [Cert.RefStage.msg_eq _ plainR_e128]
  exact msgF_real (fun e j => gather_real _ _ _ hin _) (fun e k => h1 _) (fun k j => h11 _) (fun j => h12 _) zero_real _ _

include hin h1 h11 h12 h13 h14 h15 h16 h17 h18 h19 in
theorem agg1_real (i) : IsReal (G_v58 a0 a1 a2 a3 a4 a5 a6 a7 a8 a9 a10 a11 a12 a26 i) := by
  unfold G_v58
  exact scatterAdd_real _ _ _ _ (fun _ => zero_real) (msg1_real a0 a1 a2 a3 a4 a5 a6 a7 a8 a9 a10 a11 a12 a13 a14 a15 a16 a17 a18 a19 a26 hin h1 h11 h12 h13 h14 h15 h16 h17 h18 h19) i

include hin h1 h11 h12 h13 h14 h15 h16 h17 h18 h19 in
theorem h2_1_real (i) : IsReal (G_v62_0 a0 a1 a2 a3 a4 a5 a6 a7 a8 a9 a10 a11 a12 a13 a14 a15 a16 a19 a26 i) := by
  rw [h2_1]
  unfold r1_v99
  rw [Cert.RefStage.mlp_eq _ plainR_n128 _ plainR_n128]
  refine mlpF_real (one_real.add (h19 _)) (fun r l => hin _) (fun r l => ?_) (fun l k => h13 _) (fun k => h14 _) (fun k j => h15 _) (fun j => h16 _) zero_real _ _
  rw [← agg1]
  exact agg1_real a0 a1 a2 a3 a4 a5 a6 a7 a8 a9 a10 a11 a12 a13 a14 a15 a16 a17 a18 a19 a26 hin h1 h11 h12 h13 h14 h15 h16 h17 h18 h19 _

include hin h1 h11 h12 h13 h14 h15 h16 h17 h18 h19 in
theorem var_1 (j : Fin 128) : G_v68 a0 a1 a2 a3 a4 a5 a6 a7 a8 a9 a10 a11 a12 a13 a14 a15 a16 a19 a26 (ix2 (0 : Fin 1) j) = r1_v103 (F := Ideal) a19 (G_v28 a0 a1 a2 a3 a4 a5 a6 a7 a8 a9 a10 a26) (G_v3 a26) (G_v1 a26) a1 a11 a12 a13 a14 a15 a16 (ix1 j) := by
  rw [k_var_1, r_var_1, ← h2_1, n_eq]
  exact varK_eq_varR (fun r j => h2_1_real a0 a1 a2 a3 a4 a5 a6 a7 a8 a9 a10 a11 a12 a13 a14 a15 a16 a17 a18 a19 a26 hin h1 h11 h12 h13 h14 h15 h16 h17 h18 h19 _) 100000 (by norm_num) (by norm_num) j

include hin h1 h11 h12 h13 h14 h15 h16 h17 h18 h19 in
/-- Layer 1's output is the same array on both sides. -/
theorem out_1 : G_v71 a0 a1 a2 a3 a4 a5 a6 a7 a8 a9 a10 a11 a12 a13 a14 a15 a16 a17 a18 a19 a26 = r1_v120 (F := Ideal) a19 (G_v28 a0 a1 a2 a3 a4 a5 a6 a7 a8 a9 a10 a26) (G_v3 a26) (G_v1 a26) a1 a11 a12 a13 a14 a15 a16 a17 a18 := by
  unfold r1_v120 r1_v119
  rw [Cert.RefStage.bn_eq]
  funext i
  obtain ⟨r, j, rfl⟩ : ∃ (r : Fin 100000) (j : Fin 128), i = ix2 r j := ⟨i 0, i 1, eq_ix2 i⟩
  unfold G_v71 Cert.KernelIdeal.Reg5.out6 G_v69 G_v70
  rw [shapeCast_a_1a_apply, shapeCast_a_1a_apply, mean_1, var_1 a0 a1 a2 a3 a4 a5 a6 a7 a8 a9 a10 a11 a12 a13 a14 a15 a16 a17 a18 a19 a26 hin h1 h11 h12 h13 h14 h15 h16 h17 h18 h19, h2_1]
  rfl

include hin h1 h11 h12 h13 h14 h15 h16 h17 h18 h19 in
/-- Layer 1's output has real entries. -/
theorem out_1_real (i) : IsReal (G_v71 a0 a1 a2 a3 a4 a5 a6 a7 a8 a9 a10 a11 a12 a13 a14 a15 a16 a17 a18 a19 a26 i) := by
  obtain ⟨r, j, rfl⟩ : ∃ (r : Fin 100000) (j : Fin 128), i = ix2 r j := ⟨i 0, i 1, eq_ix2 i⟩
  have hh := fun r j => h2_1_real a0 a1 a2 a3 a4 a5 a6 a7 a8 a9 a10 a11 a12 a13 a14 a15 a16 a17 a18 a19 a26 hin h1 h11 h12 h13 h14 h15 h16 h17 h18 h19 (ix2 r j)
  have hm : IsReal (G_v64 a0 a1 a2 a3 a4 a5 a6 a7 a8 a9 a10 a11 a12 a13 a14 a15 a16 a19 a26 (ix2 (0 : Fin 1) j)) := by
    rw [k_mean_1, n_eq]; exact (colSum_real hh j).div_coe (by norm_num)
  obtain ⟨v, hv0, hv⟩ : ∃ v : ℝ, 0 ≤ v ∧ G_v68 a0 a1 a2 a3 a4 a5 a6 a7 a8 a9 a10 a11 a12 a13 a14 a15 a16 a19 a26 (ix2 (0 : Fin 1) j) = (v : EReal) := by
    rw [k_var_1, n_eq, varK_eq_varR hh 100000 (by norm_num) (by norm_num) j]
    exact varR_real_nonneg hh 100000 (by norm_num) j
  obtain ⟨ε, hε, he⟩ := Cert.Consts.eps_pos
  unfold G_v71 Cert.KernelIdeal.Reg5.out6 G_v69 G_v70
  rw [shapeCast_a_1a_apply, shapeCast_a_1a_apply]
  have hr : IsReal (Ideal.rsqrt (G_v68 a0 a1 a2 a3 a4 a5 a6 a7 a8 a9 a10 a11 a12 a13 a14 a15 a16 a19 a26 (ix2 (0 : Fin 1) j) + Ideal.ofBits .f32 0x3727C5AC#32)) := by
    rw [hv, he, ← EReal.coe_add]; exact IsReal.rsqrt_pos (by linarith)
  exact ((((((hh r j).sub hm).mul hr).mul (h17 _)).add (h18 _)).max zero_real).add (hin _)

end Layer1

end Cert.Bridge

end
-- ==== Proof.Bridge2.lean ====
/-
  Layer 2, kernel against reference, with the layer's input the kernel's own previous output: the gathered rows, the edge
  message, the aggregate and the MLP output agree entry by entry; the kernel's variance (mean of squares minus squared
  mean) is the reference's mean of squared deviations because the MLP output's entries are real numbers; the normalised
  output plus the layer's input then agrees, and has real entries.
-/
import proofs.«162690_j78211354460181_1_alg».proof.Proof.KerRead0
import proofs.«162690_j78211354460181_1_alg».proof.Proof.RefRead
import proofs.«162690_j78211354460181_1_alg».proof.Proof.RefStage
import proofs.«162690_j78211354460181_1_alg».proof.Proof.LibSpec
import proofs.«162690_j78211354460181_1_alg».proof.Proof.Consts
import proofs.«162690_j78211354460181_1_alg».proof.Proof.BridgeLib
import proofs.«162690_j78211354460181_1_alg».proof.Proof.Bridge0

set_option maxRecDepth 16384

noncomputable section

open Idealize.ShloMosaic Idealize.ShloMosaic.ValueIdx
open Cert.LibSpec Cert.LibVariance Cert.LibDot

namespace Cert.Bridge

open Cert.KernelIdeal.KerRead Cert.ReferenceIdeal.RefRead

section Layer2

variable (a0 : (⟨2, ![100000, 11]⟩ : Shape).Idx → EReal) (a1 : (⟨2, ![600000, 3]⟩ : Shape).Idx → EReal)
  (a2 : (⟨2, ![3, 11]⟩ : Shape).Idx → EReal) (a3 : (⟨1, ![11]⟩ : Shape).Idx → EReal)
  (a4 : (⟨2, ![11, 128]⟩ : Shape).Idx → EReal) (a5 : (⟨1, ![128]⟩ : Shape).Idx → EReal)
  (a6 : (⟨2, ![128, 128]⟩ : Shape).Idx → EReal) (a7 a8 a9 : (⟨1, ![128]⟩ : Shape).Idx → EReal)
  (a10 : (⟨0, ![]⟩ : Shape).Idx → EReal) (a11 : (⟨3, ![4, 3, 128]⟩ : Shape).Idx → EReal) (a12 : (⟨2, ![4, 128]⟩ : Shape).Idx → EReal)
  (a13 : (⟨3, ![4, 128, 128]⟩ : Shape).Idx → EReal) (a14 : (⟨2, ![4, 128]⟩ : Shape).Idx → EReal)
  (a15 : (⟨3, ![4, 128, 128]⟩ : Shape).Idx → EReal) (a16 a17 a18 : (⟨2, ![4, 128]⟩ : Shape).Idx → EReal)
  (a19 : (⟨1, ![4]⟩ : Shape).Idx → EReal) (a26 : IVec ⟨2, ![2, 600000]⟩ 32)

theorem xj2 : G_v96 a0 a1 a2 a3 a4 a5 a6 a7 a8 a9 a10 a11 a12 a13 a14 a15 a16 a17 a18 a19 a26 = r2_v145 (F := Ideal) (G_v71 a0 a1 a2 a3 a4 a5 a6 a7 a8 a9 a10 a11 a12 a13 a14 a15 a16 a17 a18 a19 a26) (G_v1 a26) := rfl

theorem msg2 : G_v98 a0 a1 a2 a3 a4 a5 a6 a7 a8 a9 a10 a11 a12 a13 a14 a15 a16 a17 a18 a19 a26 = r2_v151 (F := Ideal) (G_v71 a0 a1 a2 a3 a4 a5 a6 a7 a8 a9 a10 a11 a12 a13 a14 a15 a16 a17 a18 a19 a26) (G_v1 a26) a1 a11 a12 := by
  unfold r2_v151
  rw [Cert.RefStage.msg_eq _ plainR_e128]
  funext i
  obtain ⟨e, j, rfl⟩ : ∃ (e : Fin 600000) (j : Fin 128), i = ix2 e j := ⟨i 0, i 1, eq_ix2 i⟩
  unfold G_v98 Cert.KernelIdeal.Reg6.out4 msgF G_v97
  rw [shapeCast_a_1a_apply, xj2]
  rfl

theorem agg2 : G_v101 a0 a1 a2 a3 a4 a5 a6 a7 a8 a9 a10 a11 a12 a13 a14 a15 a16 a17 a18 a19 a26 = r2_v154 (F := Ideal) (G_v3 a26) (G_v71 a0 a1 a2 a3 a4 a5 a6 a7 a8 a9 a10 a11 a12 a13 a14 a15 a16 a17 a18 a19 a26) (G_v1 a26) a1 a11 a12 := by
  unfold G_v101 r2_v154
  rw [msg2]
  rfl

theorem h2_2 : G_v105_0 a0 a1 a2 a3 a4 a5 a6 a7 a8 a9 a10 a11 a12 a13 a14 a15 a16 a17 a18 a19 a26 = r2_v167 (F := Ideal) a19 (G_v71 a0 a1 a2 a3 a4 a5 a6 a7 a8 a9 a10 a11 a12 a13 a14 a15 a16 a17 a18 a19 a26) (G_v3 a26) (G_v1 a26) a1 a11 a12 a13 a14 a15 a16 := by
  unfold r2_v167
  rw [Cert.RefStage.mlp_eq _ plainR_n128 _ plainR_n128]
  funext i
  obtain ⟨r, j, rfl⟩ : ∃ (r : Fin 100000) (j : Fin 128), i = ix2 r j := ⟨i 0, i 1, eq_ix2 i⟩
  unfold G_v105_0 Cert.KernelIdeal.Reg7.out7 Cert.KernelIdeal.Reg7.h2 mlpF G_v102 G_v103 G_v104
  simp only [shapeCast_a_1a_apply, shapeCast_scalar_11, agg2]
  rfl

theorem k_s_2 (j : Fin 128) : G_v105_1 a0 a1 a2 a3 a4 a5 a6 a7 a8 a9 a10 a11 a12 a13 a14 a15 a16 a17 a18 a19 a26 (ix2 (0 : Fin 1) j) = colSum (M2 (G_v105_0 a0 a1 a2 a3 a4 a5 a6 a7 a8 a9 a10 a11 a12 a13 a14 a15 a16 a17 a18 a19 a26)) j := by
  unfold G_v105_1
  rw [Cert.KernelIdeal.Reg7.out8_apply]
  rfl
theorem k_q_2 (j : Fin 128) : G_v105_2 a0 a1 a2 a3 a4 a5 a6 a7 a8 a9 a10 a11 a12 a13 a14 a15 a16 a17 a18 a19 a26 (ix2 (0 : Fin 1) j)
    = colSum (fun r j => M2 (G_v105_0 a0 a1 a2 a3 a4 a5 a6 a7 a8 a9 a10 a11 a12 a13 a14 a15 a16 a17 a18 a19 a26) r j * M2 (G_v105_0 a0 a1 a2 a3 a4 a5 a6 a7 a8 a9 a10 a11 a12 a13 a14 a15 a16 a17 a18 a19 a26) r j) j := by
  unfold G_v105_2
  rw [Cert.KernelIdeal.Reg7.out9_apply]
  rfl

theorem k_mean_2 (j : Fin 128) : G_v107 a0 a1 a2 a3 a4 a5 a6 a7 a8 a9 a10 a11 a12 a13 a14 a15 a16 a17 a18 a19 a26 (ix2 (0 : Fin 1) j) = meanF nrows (M2 (G_v105_0 a0 a1 a2 a3 a4 a5 a6 a7 a8 a9 a10 a11 a12 a13 a14 a15 a16 a17 a18 a19 a26)) j := by
  unfold G_v107 meanF
  show Ideal.div (G_v105_1 a0 a1 a2 a3 a4 a5 a6 a7 a8 a9 a10 a11 a12 a13 a14 a15 a16 a17 a18 a19 a26 (ix2 (0 : Fin 1) j)) _ = _
  rw [k_s_2, Cert.RefStage.bcast_scalar_apply]
  rfl

theorem k_var_2 (j : Fin 128) : G_v111 a0 a1 a2 a3 a4 a5 a6 a7 a8 a9 a10 a11 a12 a13 a14 a15 a16 a17 a18 a19 a26 (ix2 (0 : Fin 1) j) = varK nrows (M2 (G_v105_0 a0 a1 a2 a3 a4 a5 a6 a7 a8 a9 a10 a11 a12 a13 a14 a15 a16 a17 a18 a19 a26)) j := by
  unfold G_v111 varK
  show Ideal.div (G_v105_2 a0 a1 a2 a3 a4 a5 a6 a7 a8 a9 a10 a11 a12 a13 a14 a15 a16 a17 a18 a19 a26 (ix2 (0 : Fin 1) j)) _ - G_v107 a0 a1 a2 a3 a4 a5 a6 a7 a8 a9 a10 a11 a12 a13 a14 a15 a16 a17 a18 a19 a26 (ix2 (0 : Fin 1) j) * G_v107 a0 a1 a2 a3 a4 a5 a6 a7 a8 a9 a10 a11 a12 a13 a14 a15 a16 a17 a18 a19 a26 (ix2 (0 : Fin 1) j) = _
  rw [k_q_2, k_mean_2, Cert.RefStage.bcast_scalar_apply]
  rfl

theorem mean_2 (j : Fin 128) : G_v107 a0 a1 a2 a3 a4 a5 a6 a7 a8 a9 a10 a11 a12 a13 a14 a15 a16 a17 a18 a19 a26 (ix2 (0 : Fin 1) j) = r2_v170 (F := Ideal) a19 (G_v71 a0 a1 a2 a3 a4 a5 a6 a7 a8 a9 a10 a11 a12 a13 a14 a15 a16 a17 a18 a19 a26) (G_v3 a26) (G_v1 a26) a1 a11 a12 a13 a14 a15 a16 (ix1 j) := by
  unfold r2_v170
  rw [Cert.RefStage.mean_eq _ red_n red_n_lift, k_mean_2, h2_2]

theorem r_var_2 (j : Fin 128) : r2_v171 (F := Ideal) a19 (G_v71 a0 a1 a2 a3 a4 a5 a6 a7 a8 a9 a10 a11 a12 a13 a14 a15 a16 a17 a18 a19 a26) (G_v3 a26) (G_v1 a26) a1 a11 a12 a13 a14 a15 a16 (ix1 j) = varR nrows (M2 (r2_v167 (F := Ideal) a19 (G_v71 a0 a1 a2 a3 a4 a5 a6 a7 a8 a9 a10 a11 a12 a13 a14 a15 a16 a17 a18 a19 a26) (G_v3 a26) (G_v1 a26) a1 a11 a12 a13 a14 a15 a16)) j := by
  unfold r2_v171
  exact Cert.RefStage.var_eq _ red_n red_n_lift _ _ _ _ _ _ _ j

variable (hin : ∀ i, IsReal (G_v71 a0 a1 a2 a3 a4 a5 a6 a7 a8 a9 a10 a11 a12 a13 a14 a15 a16 a17 a18 a19 a26 i)) (h1 : ∀ i, IsReal (a1 i)) (h11 : ∀ i, IsReal (a11 i)) (h12 : ∀ i, IsReal (a12 i)) (h13 : ∀ i, IsReal (a13 i)) (h14 : ∀ i, IsReal (a14 i)) (h15 : ∀ i, IsReal (a15 i)) (h16 : ∀ i, IsReal (a16 i)) (h17 : ∀ i, IsReal (a17 i)) (h18 : ∀ i, IsReal (a18 i)) (h19 : ∀ i, IsReal (a19 i))

include hin h1 h11 h12 h13 h14 h15 h16 h17 h18 h19 in
theorem msg2_real (i) : IsReal (G_v98 a0 a1 a2 a3 a4 a5 a6 a7 a8 a9 a10 a11 a12 a13 a14 a15 a16 a17 a18 a19 a26 i) := by
  rw [msg2]
  unfold r2_v151
  rw [Cert.RefStage.msg_eq _ plainR_e128]
  exact msgF_real (fun e j => gather_real _ _ _ hin _) (fun e k => h1 _) (fun k j => h11 _) (fun j => h12 _) zero_real _ _

include hin h1 h11 h12 h13 h14 h15 h16 h17 h18 h19 in
theorem agg2_real (i) : IsReal (G_v101 a0 a1 a2 a3 a4 a5 a6 a7 a8 a9 a10 a11 a12 a13 a14 a15 a16 a17 a18 a19 a26 i) := by
  unfold G_v101
  exact scatterAdd_real _ _ _ _ (fun _ => zero_real) (msg2_real a0 a1 a2 a3 a4 a5 a6 a7 a8 a9 a10 a11 a12 a13 a14 a15 a16 a17 a18 a19 a26 hin h1 h11 h12 h13 h14 h15 h16 h17 h18 h19) i

include hin h1 h11 h12 h13 h14 h15 h16 h17 h18 h19 in
theorem h2_2_real (i) : IsReal (G_v105_0 a0 a1 a2 a3 a4 a5 a6 a7 a8 a9 a10 a11 a12 a13 a14 a15 a16 a17 a18 a19 a26 i) := by
  rw [h2_2]
  unfold r2_v167
  rw [Cert.RefStage.mlp_eq _ plainR_n128 _ plainR_n128]
  refine mlpF_real (one_real.add (h19 _)) (fun r l => hin _) (fun r l => ?_) (fun l k => h13 _) (fun k => h14 _) (fun k j => h15 _) (fun j => h16 _) zero_real _ _
  rw [← agg2]
  exact agg2_real a0 a1 a2 a3 a4 a5 a6 a7 a8 a9 a10 a11 a12 a13 a14 a15 a16 a17 a18 a19 a26 hin h1 h11 h12 h13 h14 h15 h16 h17 h18 h19 _

include hin h1 h11 h12 h13 h14 h15 h16 h17 h18 h19 in
theorem var_2 (j : Fin 128) : G_v111 a0 a1 a2 a3 a4 a5 a6 a7 a8 a9 a10 a11 a12 a13 a14 a15 a16 a17 a18 a19 a26 (ix2 (0 : Fin 1) j) = r2_v171 (F := Ideal) a19 (G_v71 a0 a1 a2 a3 a4 a5 a6 a7 a8 a9 a10 a11 a12 a13 a14 a15 a16 a17 a18 a19 a26) (G_v3 a26) (G_v1 a26) a1 a11 a12 a13 a14 a15 a16 (ix1 j) := by
  rw [k_var_2, r_var_2, ← h2_2, n_eq]
  exact varK_eq_varR (fun r j => h2_2_real a0 a1 a2 a3 a4 a5 a6 a7 a8 a9 a10 a11 a12 a13 a14 a15 a16 a17 a18 a19 a26 hin h1 h11 h12 h13 h14 h15 h16 h17 h18 h19 _) 100000 (by norm_num) (by norm_num) j

include hin h1 h11 h12 h13 h14 h15 h16 h17 h18 h19 in
/-- Layer 2's output is the same array on both sides. -/
theorem out_2 : G_v114 a0 a1 a2 a3 a4 a5 a6 a7 a8 a9 a10 a11 a12 a13 a14 a15 a16 a17 a18 a19 a26 = r2_v188 (F := Ideal) a19 (G_v71 a0 a1 a2 a3 a4 a5 a6 a7 a8 a9 a10 a11 a12 a13 a14 a15 a16 a17 a18 a19 a26) (G_v3 a26) (G_v1 a26) a1 a11 a12 a13 a14 a15 a16 a17 a18 := by
  unfold r2_v188 r2_v187
  rw [Cert.RefStage.bn_eq]
  funext i
  obtain ⟨r, j, rfl⟩ : ∃ (r : Fin 100000) (j : Fin 128), i = ix2 r j := ⟨i 0, i 1, eq_ix2 i⟩
  unfold G_v114 Cert.KernelIdeal.Reg8.out6 G_v112 G_v113
  rw [shapeCast_a_1a_apply, shapeCast_a_1a_apply, mean_2, var_2 a0 a1 a2 a3 a4 a5 a6 a7 a8 a9 a10 a11 a12 a13 a14 a15 a16 a17 a18 a19 a26 hin h1 h11 h12 h13 h14 h15 h16 h17 h18 h19, h2_2]
  rfl

include hin h1 h11 h12 h13 h14 h15 h16 h17 h18 h19 in
/-- Layer 2's output has real entries. -/
theorem out_2_real (i) : IsReal (G_v114 a0 a1 a2 a3 a4 a5 a6 a7 a8 a9 a10 a11 a12 a13 a14 a15 a16 a17 a18 a19 a26 i) := by
  obtain ⟨r, j, rfl⟩ : ∃ (r : Fin 100000) (j : Fin 128), i = ix2 r j := ⟨i 0, i 1, eq_ix2 i⟩
  have hh := fun r j => h2_2_real a0 a1 a2 a3 a4 a5 a6 a7 a8 a9 a10 a11 a12 a13 a14 a15 a16 a17 a18 a19 a26 hin h1 h11 h12 h13 h14 h15 h16 h17 h18 h19 (ix2 r j)
  have hm : IsReal (G_v107 a0 a1 a2 a3 a4 a5 a6 a7 a8 a9 a10 a11 a12 a13 a14 a15 a16 a17 a18 a19 a26 (ix2 (0 : Fin 1) j)) := by
    rw [k_mean_2, n_eq]; exact (colSum_real hh j).div_coe (by norm_num)
  obtain ⟨v, hv0, hv⟩ : ∃ v : ℝ, 0 ≤ v ∧ G_v111 a0 a1 a2 a3 a4 a5 a6 a7 a8 a9 a10 a11 a12 a13 a14 a15 a16 a17 a18 a19 a26 (ix2 (0 : Fin 1) j) = (v : EReal) := by
    rw [k_var_2, n_eq, varK_eq_varR hh 100000 (by norm_num) (by norm_num) j]
    exact varR_real_nonneg hh 100000 (by norm_num) j
  obtain ⟨ε, hε, he⟩ := Cert.Consts.eps_pos
  unfold G_v114 Cert.KernelIdeal.Reg8.out6 G_v112 G_v113
  rw [shapeCast_a_1a_apply, shapeCast_a_1a_apply]
  have hr : IsReal (Ideal.rsqrt (G_v111 a0 a1 a2 a3 a4 a5 a6 a7 a8 a9 a10 a11 a12 a13 a14 a15 a16 a17 a18 a19 a26 (ix2 (0 : Fin 1) j) + Ideal.ofBits .f32 0x3727C5AC#32)) := by
    rw [hv, he, ← EReal.coe_add]; exact IsReal.rsqrt_pos (by linarith)
  exact ((((((hh r j).sub hm).mul hr).mul (h17 _)).add (h18 _)).max zero_real).add (hin _)

end Layer2

end Cert.Bridge

end
-- ==== Proof.Bridge3.lean ====
/-
  Layer 3, kernel against reference, with the layer's input the kernel's own previous output: the gathered rows, the edge
  message, the aggregate and the MLP output agree entry by entry; the kernel's variance (mean of squares minus squared
  mean) is the reference's mean of squared deviations because the MLP output's entries are real numbers; the normalised
  output plus the layer's input then agrees, and has real entries.
-/
import proofs.«162690_j78211354460181_1_alg».proof.Proof.KerRead0
import proofs.«162690_j78211354460181_1_alg».proof.Proof.RefRead
import proofs.«162690_j78211354460181_1_alg».proof.Proof.RefStage
import proofs.«162690_j78211354460181_1_alg».proof.Proof.LibSpec
import proofs.«162690_j78211354460181_1_alg».proof.Proof.Consts
import proofs.«162690_j78211354460181_1_alg».proof.Proof.BridgeLib
import proofs.«162690_j78211354460181_1_alg».proof.Proof.Bridge0

set_option maxRecDepth 16384

noncomputable section

open Idealize.ShloMosaic Idealize.ShloMosaic.ValueIdx
open Cert.LibSpec Cert.LibVariance Cert.LibDot

namespace Cert.Bridge

open Cert.KernelIdeal.KerRead Cert.ReferenceIdeal.RefRead

section Layer3

variable (a0 : (⟨2, ![100000, 11]⟩ : Shape).Idx → EReal) (a1 : (⟨2, ![600000, 3]⟩ : Shape).Idx → EReal)
  (a2 : (⟨2, ![3, 11]⟩ : Shape).Idx → EReal) (a3 : (⟨1, ![11]⟩ : Shape).Idx → EReal)
  (a4 : (⟨2, ![11, 128]⟩ : Shape).Idx → EReal) (a5 : (⟨1, ![128]⟩ : Shape).Idx → EReal)
  (a6 : (⟨2, ![128, 128]⟩ : Shape).Idx → EReal) (a7 a8 a9 : (⟨1, ![128]⟩ : Shape).Idx → EReal)
  (a10 : (⟨0, ![]⟩ : Shape).Idx → EReal) (a11 : (⟨3, ![4, 3, 128]⟩ : Shape).Idx → EReal) (a12 : (⟨2, ![4, 128]⟩ : Shape).Idx → EReal)
  (a13 : (⟨3, ![4, 128, 128]⟩ : Shape).Idx → EReal) (a14 : (⟨2, ![4, 128]⟩ : Shape).Idx → EReal)
  (a15 : (⟨3, ![4, 128, 128]⟩ : Shape).Idx → EReal) (a16 a17 a18 : (⟨2, ![4, 128]⟩ : Shape).Idx → EReal)
  (a19 : (⟨1, ![4]⟩ : Shape).Idx → EReal) (a26 : IVec ⟨2, ![2, 600000]⟩ 32)

theorem xj3 : G_v139 a0 a1 a2 a3 a4 a5 a6 a7 a8 a9 a10 a11 a12 a13 a14 a15 a16 a17 a18 a19 a26 = r3_v213 (F := Ideal) (G_v114 a0 a1 a2 a3 a4 a5 a6 a7 a8 a9 a10 a11 a12 a13 a14 a15 a16 a17 a18 a19 a26) (G_v1 a26) := rfl

theorem msg3 : G_v141 a0 a1 a2 a3 a4 a5 a6 a7 a8 a9 a10 a11 a12 a13 a14 a15 a16 a17 a18 a19 a26 = r3_v219 (F := Ideal) (G_v114 a0 a1 a2 a3 a4 a5 a6 a7 a8 a9 a10 a11 a12 a13 a14 a15 a16 a17 a18 a19 a26) (G_v1 a26) a1 a11 a12 := by
  unfold r3_v219
  rw [Cert.RefStage.msg_eq _ plainR_e128]
  funext i
  obtain ⟨e, j, rfl⟩ : ∃ (e : Fin 600000) (j : Fin 128), i = ix2 e j := ⟨i 0, i 1, eq_ix2 i⟩
  unfold G_v141 Cert.KernelIdeal.Reg9.out4 msgF G_v140
  rw [shapeCast_a_1a_apply, xj3]
  rfl

theorem agg3 : G_v144 a0 a1 a2 a3 a4 a5 a6 a7 a8 a9 a10 a11 a12 a13 a14 a15 a16 a17 a18 a19 a26 = r3_v222 (F := Ideal) (G_v3 a26) (G_v114 a0 a1 a2 a3 a4 a5 a6 a7 a8 a9 a10 a11 a12 a13 a14 a15 a16 a17 a18 a19 a26) (G_v1 a26) a1 a11 a12 := by
  unfold G_v144 r3_v222
  rw [msg3]
  rfl

theorem h2_3 : G_v148_0 a0 a1 a2 a3 a4 a5 a6 a7 a8 a9 a10 a11 a12 a13 a14 a15 a16 a17 a18 a19 a26 = r3_v235 (F := Ideal) a19 (G_v114 a0 a1 a2 a3 a4 a5 a6 a7 a8 a9 a10 a11 a12 a13 a14 a15 a16 a17 a18 a19 a26) (G_v3 a26) (G_v1 a26) a1 a11 a12 a13 a14 a15 a16 := by
  unfold r3_v235
  rw [Cert.RefStage.mlp_eq _ plainR_n128 _ plainR_n128]
  funext i
  obtain ⟨r, j, rfl⟩ : ∃ (r : Fin 100000) (j : Fin 128), i = ix2 r j := ⟨i 0, i 1, eq_ix2 i⟩
  unfold G_v148_0 Cert.KernelIdeal.Reg10.out7 Cert.KernelIdeal.Reg10.h2 mlpF G_v145 G_v146 G_v147
  simp only [shapeCast_a_1a_apply, shapeCast_scalar_11, agg3]
  rfl

theorem k_s_3 (j : Fin 128) : G_v148_1 a0 a1 a2 a3 a4 a5 a6 a7 a8 a9 a10 a11 a12 a13 a14 a15 a16 a17 a18 a19 a26 (ix2 (0 : Fin 1) j) = colSum (M2 (G_v148_0 a0 a1 a2 a3 a4 a5 a6 a7 a8 a9 a10 a11 a12 a13 a14 a15 a16 a17 a18 a19 a26)) j := by
  unfold G_v148_1
  rw [Cert.KernelIdeal.Reg10.out8_apply]
  rfl
theorem k_q_3 (j : Fin 128) : G_v148_2 a0 a1 a2 a3 a4 a5 a6 a7 a8 a9 a10 a11 a12 a13 a14 a15 a16 a17 a18 a19 a26 (ix2 (0 : Fin 1) j)
    = colSum (fun r j => M2 (G_v148_0 a0 a1 a2 a3 a4 a5 a6 a7 a8 a9 a10 a11 a12 a13 a14 a15 a16 a17 a18 a19 a26) r j * M2 (G_v148_0 a0 a1 a2 a3 a4 a5 a6 a7 a8 a9 a10 a11 a12 a13 a14 a15 a16 a17 a18 a19 a26) r j) j := by
  unfold G_v148_2
  rw [Cert.KernelIdeal.Reg10.out9_apply]
  rfl

theorem k_mean_3 (j : Fin 128) : G_v150 a0 a1 a2 a3 a4 a5 a6 a7 a8 a9 a10 a11 a12 a13 a14 a15 a16 a17 a18 a19 a26 (ix2 (0 : Fin 1) j) = meanF nrows (M2 (G_v148_0 a0 a1 a2 a3 a4 a5 a6 a7 a8 a9 a10 a11 a12 a13 a14 a15 a16 a17 a18 a19 a26)) j := by
  unfold G_v150 meanF
  show Ideal.div (G_v148_1 a0 a1 a2 a3 a4 a5 a6 a7 a8 a9 a10 a11 a12 a13 a14 a15 a16 a17 a18 a19 a26 (ix2 (0 : Fin 1) j)) _ = _
  rw [k_s_3, Cert.RefStage.bcast_scalar_apply]
  rfl

theorem k_var_3 (j : Fin 128) : G_v154 a0 a1 a2 a3 a4 a5 a6 a7 a8 a9 a10 a11 a12 a13 a14 a15 a16 a17 a18 a19 a26 (ix2 (0 : Fin 1) j) = varK nrows (M2 (G_v148_0 a0 a1 a2 a3 a4 a5 a6 a7 a8 a9 a10 a11 a12 a13 a14 a15 a16 a17 a18 a19 a26)) j := by
  unfold G_v154 varK
  show Ideal.div (G_v148_2 a0 a1 a2 a3 a4 a5 a6 a7 a8 a9 a10 a11 a12 a13 a14 a15 a16 a17 a18 a19 a26 (ix2 (0 : Fin 1) j)) _ - G_v150 a0 a1 a2 a3 a4 a5 a6 a7 a8 a9 a10 a11 a12 a13 a14 a15 a16 a17 a18 a19 a26 (ix2 (0 : Fin 1) j) * G_v150 a0 a1 a2 a3 a4 a5 a6 a7 a8 a9 a10 a11 a12 a13 a14 a15 a16 a17 a18 a19 a26 (ix2 (0 : Fin 1) j) = _
  rw [k_q_3, k_mean_3, Cert.RefStage.bcast_scalar_apply]
  rfl

theorem mean_3 (j : Fin 128) : G_v150 a0 a1 a2 a3 a4 a5 a6 a7 a8 a9 a10 a11 a12 a13 a14 a15 a16 a17 a18 a19 a26 (ix2 (0 : Fin 1) j) = r3_v238 (F := Ideal) a19 (G_v114 a0 a1 a2 a3 a4 a5 a6 a7 a8 a9 a10 a11 a12 a13 a14 a15 a16 a17 a18 a19 a26) (G_v3 a26) (G_v1 a26) a1 a11 a12 a13 a14 a15 a16 (ix1 j) := by
  unfold r3_v238
  rw [Cert.RefStage.mean_eq _ red_n red_n_lift, k_mean_3, h2_3]

theorem r_var_3 (j : Fin 128) : r3_v239 (F := Ideal) a19 (G_v114 a0 a1 a2 a3 a4 a5 a6 a7 a8 a9 a10 a11 a12 a13 a14 a15 a16 a17 a18 a19 a26) (G_v3 a26) (G_v1 a26) a1 a11 a12 a13 a14 a15 a16 (ix1 j) = varR nrows (M2 (r3_v235 (F := Ideal) a19 (G_v114 a0 a1 a2 a3 a4 a5 a6 a7 a8 a9 a10 a11 a12 a13 a14 a15 a16 a17 a18 a19 a26) (G_v3 a26) (G_v1 a26) a1 a11 a12 a13 a14 a15 a16)) j := by
  unfold r3_v239
  exact Cert.RefStage.var_eq _ red_n red_n_lift _ _ _ _ _ _ _ j

variable (hin : ∀ i, IsReal (G_v114 a0 a1 a2 a3 a4 a5 a6 a7 a8 a9 a10 a11 a12 a13 a14 a15 a16 a17 a18 a19 a26 i)) (h1 : ∀ i, IsReal (a1 i)) (h11 : ∀ i, IsReal (a11 i)) (h12 : ∀ i, IsReal (a12 i)) (h13 : ∀ i, IsReal (a13 i)) (h14 : ∀ i, IsReal (a14 i)) (h15 : ∀ i, IsReal (a15 i)) (h16 : ∀ i, IsReal (a16 i)) (h17 : ∀ i, IsReal (a17 i)) (h18 : ∀ i, IsReal (a18 i)) (h19 : ∀ i, IsReal (a19 i))

include hin h1 h11 h12 h13 h14 h15 h16 h17 h18 h19 in
theorem msg3_real (i) : IsReal (G_v141 a0 a1 a2 a3 a4 a5 a6 a7 a8 a9 a10 a11 a12 a13 a14 a15 a16 a17 a18 a19 a26 i) := by
  rw [msg3]
  unfold r3_v219
  rw [Cert.RefStage.msg_eq _ plainR_e128]
  exact msgF_real (fun e j => gather_real _ _ _ hin _) (fun e k => h1 _) (fun k j => h11 _) (fun j => h12 _) zero_real _ _

include hin h1 h11 h12 h13 h14 h15 h16 h17 h18 h19 in
theorem agg3_real (i) : IsReal (G_v144 a0 a1 a2 a3 a4 a5 a6 a7 a8 a9 a10 a11 a12 a13 a14 a15 a16 a17 a18 a19 a26 i) := by
  unfold G_v144
  exact scatterAdd_real _ _ _ _ (fun _ => zero_real) (msg3_real a0 a1 a2 a3 a4 a5 a6 a7 a8 a9 a10 a11 a12 a13 a14 a15 a16 a17 a18 a19 a26 hin h1 h11 h12 h13 h14 h15 h16 h17 h18 h19) i

include hin h1 h11 h12 h13 h14 h15 h16 h17 h18 h19 in
theorem h2_3_real (i) : IsReal (G_v148_0 a0 a1 a2 a3 a4 a5 a6 a7 a8 a9 a10 a11 a12 a13 a14 a15 a16 a17 a18 a19 a26 i) := by
  rw [h2_3]
  unfold r3_v235
  rw [Cert.RefStage.mlp_eq _ plainR_n128 _ plainR_n128]
  refine mlpF_real (one_real.add (h19 _)) (fun r l => hin _) (fun r l => ?_) (fun l k => h13 _) (fun k => h14 _) (fun k j => h15 _) (fun j => h16 _) zero_real _ _
  rw [← agg3]
  exact agg3_real a0 a1 a2 a3 a4 a5 a6 a7 a8 a9 a10 a11 a12 a13 a14 a15 a16 a17 a18 a19 a26 hin h1 h11 h12 h13 h14 h15 h16 h17 h18 h19 _

include hin h1 h11 h12 h13 h14 h15 h16 h17 h18 h19 in
theorem var_3 (j : Fin 128) : G_v154 a0 a1 a2 a3 a4 a5 a6 a7 a8 a9 a10 a11 a12 a13 a14 a15 a16 a17 a18 a19 a26 (ix2 (0 : Fin 1) j) = r3_v239 (F := Ideal) a19 (G_v114 a0 a1 a2 a3 a4 a5 a6 a7 a8 a9 a10 a11 a12 a13 a14 a15 a16 a17 a18 a19 a26) (G_v3 a26) (G_v1 a26) a1 a11 a12 a13 a14 a15 a16 (ix1 j) := by
  rw [k_var_3, r_var_3, ← h2_3, n_eq]
  exact varK_eq_varR (fun r j => h2_3_real a0 a1 a2 a3 a4 a5 a6 a7 a8 a9 a10 a11 a12 a13 a14 a15 a16 a17 a18 a19 a26 hin h1 h11 h12 h13 h14 h15 h16 h17 h18 h19 _) 100000 (by norm_num) (by norm_num) j

include hin h1 h11 h12 h13 h14 h15 h16 h17 h18 h19 in
/-- Layer 3's output is the same array on both sides. -/
theorem out_3 : G_v157 a0 a1 a2 a3 a4 a5 a6 a7 a8 a9 a10 a11 a12 a13 a14 a15 a16 a17 a18 a19 a26 = r3_v256 (F := Ideal) a19 (G_v114 a0 a1 a2 a3 a4 a5 a6 a7 a8 a9 a10 a11 a12 a13 a14 a15 a16 a17 a18 a19 a26) (G_v3 a26) (G_v1 a26) a1 a11 a12 a13 a14 a15 a16 a17 a18 := by
  unfold r3_v256 r3_v255
  rw [Cert.RefStage.bn_eq]
  funext i
  obtain ⟨r, j, rfl⟩ : ∃ (r : Fin 100000) (j : Fin 128), i = ix2 r j := ⟨i 0, i 1, eq_ix2 i⟩
  unfold G_v157 Cert.KernelIdeal.Reg11.out6 G_v155 G_v156
  rw [shapeCast_a_1a_apply, shapeCast_a_1a_apply, mean_3, var_3 a0 a1 a2 a3 a4 a5 a6 a7 a8 a9 a10 a11 a12 a13 a14 a15 a16 a17 a18 a19 a26 hin h1 h11 h12 h13 h14 h15 h16 h17 h18 h19, h2_3]
  rfl

include hin h1 h11 h12 h13 h14 h15 h16 h17 h18 h19 in
/-- Layer 3's output has real entries. -/
theorem out_3_real (i) : IsReal (G_v157 a0 a1 a2 a3 a4 a5 a6 a7 a8 a9 a10 a11 a12 a13 a14 a15 a16 a17 a18 a19 a26 i) := by
  obtain ⟨r, j, rfl⟩ : ∃ (r : Fin 100000) (j : Fin 128), i = ix2 r j := ⟨i 0, i 1, eq_ix2 i⟩
  have hh := fun r j => h2_3_real a0 a1 a2 a3 a4 a5 a6 a7 a8 a9 a10 a11 a12 a13 a14 a15 a16 a17 a18 a19 a26 hin h1 h11 h12 h13 h14 h15 h16 h17 h18 h19 (ix2 r j)
  have hm : IsReal (G_v150 a0 a1 a2 a3 a4 a5 a6 a7 a8 a9 a10 a11 a12 a13 a14 a15 a16 a17 a18 a19 a26 (ix2 (0 : Fin 1) j)) := by
    rw [k_mean_3, n_eq]; exact (colSum_real hh j).div_coe (by norm_num)
  obtain ⟨v, hv0, hv⟩ : ∃ v : ℝ, 0 ≤ v ∧ G_v154 a0 a1 a2 a3 a4 a5 a6 a7 a8 a9 a10 a11 a12 a13 a14 a15 a16 a17 a18 a19 a26 (ix2 (0 : Fin 1) j) = (v : EReal) := by
    rw [k_var_3, n_eq, varK_eq_varR hh 100000 (by norm_num) (by norm_num) j]
    exact varR_real_nonneg hh 100000 (by norm_num) j
  obtain ⟨ε, hε, he⟩ := Cert.Consts.eps_pos
  unfold G_v157 Cert.KernelIdeal.Reg11.out6 G_v155 G_v156
  rw [shapeCast_a_1a_apply, shapeCast_a_1a_apply]
  have hr : IsReal (Ideal.rsqrt (G_v154 a0 a1 a2 a3 a4 a5 a6 a7 a8 a9 a10 a11 a12 a13 a14 a15 a16 a17 a18 a19 a26 (ix2 (0 : Fin 1) j) + Ideal.ofBits .f32 0x3727C5AC#32)) := by
    rw [hv, he, ← EReal.coe_add]; exact IsReal.rsqrt_pos (by linarith)
  exact ((((((hh r j).sub hm).mul hr).mul (h17 _)).add (h18 _)).max zero_real).add (hin _)

end Layer3

end Cert.Bridge

end
-- ==== Proof.Bridge4.lean ====
/-
  Layer 4, kernel against reference, with the layer's input the kernel's own previous output: the gathered rows, the edge
  message, the aggregate and the MLP output agree entry by entry; the kernel's variance (mean of squares minus squared
  mean) is the reference's mean of squared deviations because the MLP output's entries are real numbers; the normalised
  output plus the layer's input then agrees, and has real entries.
-/
import proofs.«162690_j78211354460181_1_alg».proof.Proof.KerRead0
import proofs.«162690_j78211354460181_1_alg».proof.Proof.RefRead
import proofs.«162690_j78211354460181_1_alg».proof.Proof.RefStage
import proofs.«162690_j78211354460181_1_alg».proof.Proof.LibSpec
import proofs.«162690_j78211354460181_1_alg».proof.Proof.Consts
import proofs.«162690_j78211354460181_1_alg».proof.Proof.BridgeLib
import proofs.«162690_j78211354460181_1_alg».proof.Proof.Bridge0

set_option maxRecDepth 16384

noncomputable section

open Idealize.ShloMosaic Idealize.ShloMosaic.ValueIdx
open Cert.LibSpec Cert.LibVariance Cert.LibDot

namespace Cert.Bridge

open Cert.KernelIdeal.KerRead Cert.ReferenceIdeal.RefRead

section Layer4

variable (a0 : (⟨2, ![100000, 11]⟩ : Shape).Idx → EReal) (a1 : (⟨2, ![600000, 3]⟩ : Shape).Idx → EReal)
  (a2 : (⟨2, ![3, 11]⟩ : Shape).Idx → EReal) (a3 : (⟨1, ![11]⟩ : Shape).Idx → EReal)
  (a4 : (⟨2, ![11, 128]⟩ : Shape).Idx → EReal) (a5 : (⟨1, ![128]⟩ : Shape).Idx → EReal)
  (a6 : (⟨2, ![128, 128]⟩ : Shape).Idx → EReal) (a7 a8 a9 : (⟨1, ![128]⟩ : Shape).Idx → EReal)
  (a10 : (⟨0, ![]⟩ : Shape).Idx → EReal) (a11 : (⟨3, ![4, 3, 128]⟩ : Shape).Idx → EReal) (a12 : (⟨2, ![4, 128]⟩ : Shape).Idx → EReal)
  (a13 : (⟨3, ![4, 128, 128]⟩ : Shape).Idx → EReal) (a14 : (⟨2, ![4, 128]⟩ : Shape).Idx → EReal)
  (a15 : (⟨3, ![4, 128, 128]⟩ : Shape).Idx → EReal) (a16 a17 a18 : (⟨2, ![4, 128]⟩ : Shape).Idx → EReal)
  (a19 : (⟨1, ![4]⟩ : Shape).Idx → EReal) (a26 : IVec ⟨2, ![2, 600000]⟩ 32)

theorem xj4 : G_v182 a0 a1 a2 a3 a4 a5 a6 a7 a8 a9 a10 a11 a12 a13 a14 a15 a16 a17 a18 a19 a26 = r4_v281 (F := Ideal) (G_v157 a0 a1 a2 a3 a4 a5 a6 a7 a8 a9 a10 a11 a12 a13 a14 a15 a16 a17 a18 a19 a26) (G_v1 a26) := rfl

theorem msg4 : G_v184 a0 a1 a2 a3 a4 a5 a6 a7 a8 a9 a10 a11 a12 a13 a14 a15 a16 a17 a18 a19 a26 = r4_v287 (F := Ideal) (G_v157 a0 a1 a2 a3 a4 a5 a6 a7 a8 a9 a10 a11 a12 a13 a14 a15 a16 a17 a18 a19 a26) (G_v1 a26) a1 a11 a12 := by
  unfold r4_v287
  rw [Cert.RefStage.msg_eq _ plainR_e128]
  funext i
  obtain ⟨e, j, rfl⟩ : ∃ (e : Fin 600000) (j : Fin 128), i = ix2 e j := ⟨i 0, i 1, eq_ix2 i⟩
  unfold G_v184 Cert.KernelIdeal.Reg12.out4 msgF G_v183
  rw [shapeCast_a_1a_apply, xj4]
  rfl

theorem agg4 : G_v187 a0 a1 a2 a3 a4 a5 a6 a7 a8 a9 a10 a11 a12 a13 a14 a15 a16 a17 a18 a19 a26 = r4_v290 (F := Ideal) (G_v3 a26) (G_v157 a0 a1 a2 a3 a4 a5 a6 a7 a8 a9 a10 a11 a12 a13 a14 a15 a16 a17 a18 a19 a26) (G_v1 a26) a1 a11 a12 := by
  unfold G_v187 r4_v290
  rw [msg4]
  rfl

theorem h2_4 : G_v191_0 a0 a1 a2 a3 a4 a5 a6 a7 a8 a9 a10 a11 a12 a13 a14 a15 a16 a17 a18 a19 a26 = r4_v303 (F := Ideal) a19 (G_v157 a0 a1 a2 a3 a4 a5 a6 a7 a8 a9 a10 a11 a12 a13 a14 a15 a16 a17 a18 a19 a26) (G_v3 a26) (G_v1 a26) a1 a11 a12 a13 a14 a15 a16 := by
  unfold r4_v303
  rw [Cert.RefStage.mlp_eq _ plainR_n128 _ plainR_n128]
  funext i
  obtain ⟨r, j, rfl⟩ : ∃ (r : Fin 100000) (j : Fin 128), i = ix2 r j := ⟨i 0, i 1, eq_ix2 i⟩
  unfold G_v191_0 Cert.KernelIdeal.Reg13.out7 Cert.KernelIdeal.Reg13.h2 mlpF G_v188 G_v189 G_v190
  simp only [shapeCast_a_1a_apply, shapeCast_scalar_11, agg4]
  rfl

theorem k_s_4 (j : Fin 128) : G_v191_1 a0 a1 a2 a3 a4 a5 a6 a7 a8 a9 a10 a11 a12 a13 a14 a15 a16 a17 a18 a19 a26 (ix2 (0 : Fin 1) j) = colSum (M2 (G_v191_0 a0 a1 a2 a3 a4 a5 a6 a7 a8 a9 a10 a11 a12 a13 a14 a15 a16 a17 a18 a19 a26)) j := by
  unfold G_v191_1
  rw [Cert.KernelIdeal.Reg13.out8_apply]
  rfl
theorem k_q_4 (j : Fin 128) : G_v191_2 a0 a1 a2 a3 a4 a5 a6 a7 a8 a9 a10 a11 a12 a13 a14 a15 a16 a17 a18 a19 a26 (ix2 (0 : Fin 1) j)
    = colSum (fun r j => M2 (G_v191_0 a0 a1 a2 a3 a4 a5 a6 a7 a8 a9 a10 a11 a12 a13 a14 a15 a16 a17 a18 a19 a26) r j * M2 (G_v191_0 a0 a1 a2 a3 a4 a5 a6 a7 a8 a9 a10 a11 a12 a13 a14 a15 a16 a17 a18 a19 a26) r j) j := by
  unfold G_v191_2
  rw [Cert.KernelIdeal.Reg13.out9_apply]
  rfl

theorem k_mean_4 (j : Fin 128) : G_v193 a0 a1 a2 a3 a4 a5 a6 a7 a8 a9 a10 a11 a12 a13 a14 a15 a16 a17 a18 a19 a26 (ix2 (0 : Fin 1) j) = meanF nrows (M2 (G_v191_0 a0 a1 a2 a3 a4 a5 a6 a7 a8 a9 a10 a11 a12 a13 a14 a15 a16 a17 a18 a19 a26)) j := by
  unfold G_v193 meanF
  show Ideal.div (G_v191_1 a0 a1 a2 a3 a4 a5 a6 a7 a8 a9 a10 a11 a12 a13 a14 a15 a16 a17 a18 a19 a26 (ix2 (0 : Fin 1) j)) _ = _
  rw [k_s_4, Cert.RefStage.bcast_scalar_apply]
  rfl

theorem k_var_4 (j : Fin 128) : G_v197 a0 a1 a2 a3 a4 a5 a6 a7 a8 a9 a10 a11 a12 a13 a14 a15 a16 a17 a18 a19 a26 (ix2 (0 : Fin 1) j) = varK nrows (M2 (G_v191_0 a0 a1 a2 a3 a4 a5 a6 a7 a8 a9 a10 a11 a12 a13 a14 a15 a16 a17 a18 a19 a26)) j := by
  unfold G_v197 varK
  show Ideal.div (G_v191_2 a0 a1 a2 a3 a4 a5 a6 a7 a8 a9 a10 a11 a12 a13 a14 a15 a16 a17 a18 a19 a26 (ix2 (0 : Fin 1) j)) _ - G_v193 a0 a1 a2 a3 a4 a5 a6 a7 a8 a9 a10 a11 a12 a13 a14 a15 a16 a17 a18 a19 a26 (ix2 (0 : Fin 1) j) * G_v193 a0 a1 a2 a3 a4 a5 a6 a7 a8 a9 a10 a11 a12 a13 a14 a15 a16 a17 a18 a19 a26 (ix2 (0 : Fin 1) j) = _
  rw [k_q_4, k_mean_4, Cert.RefStage.bcast_scalar_apply]
  rfl

theorem mean_4 (j : Fin 128) : G_v193 a0 a1 a2 a3 a4 a5 a6 a7 a8 a9 a10 a11 a12 a13 a14 a15 a16 a17 a18 a19 a26 (ix2 (0 : Fin 1) j) = r4_v306 (F := Ideal) a19 (G_v157 a0 a1 a2 a3 a4 a5 a6 a7 a8 a9 a10 a11 a12 a13 a14 a15 a16 a17 a18 a19 a26) (G_v3 a26) (G_v1 a26) a1 a11 a12 a13 a14 a15 a16 (ix1 j) := by
  unfold r4_v306
  rw [Cert.RefStage.mean_eq _ red_n red_n_lift, k_mean_4, h2_4]

theorem r_var_4 (j : Fin 128) : r4_v307 (F := Ideal) a19 (G_v157 a0 a1 a2 a3 a4 a5 a6 a7 a8 a9 a10 a11 a12 a13 a14 a15 a16 a17 a18 a19 a26) (G_v3 a26) (G_v1 a26) a1 a11 a12 a13 a14 a15 a16 (ix1 j) = varR nrows (M2 (r4_v303 (F := Ideal) a19 (G_v157 a0 a1 a2 a3 a4 a5 a6 a7 a8 a9 a10 a11 a12 a13 a14 a15 a16 a17 a18 a19 a26) (G_v3 a26) (G_v1 a26) a1 a11 a12 a13 a14 a15 a16)) j := by
  unfold r4_v307
  exact Cert.RefStage.var_eq _ red_n red_n_lift _ _ _ _ _ _ _ j

variable (hin : ∀ i, IsReal (G_v157 a0 a1 a2 a3 a4 a5 a6 a7 a8 a9 a10 a11 a12 a13 a14 a15 a16 a17 a18 a19 a26 i)) (h1 : ∀ i, IsReal (a1 i)) (h11 : ∀ i, IsReal (a11 i)) (h12 : ∀ i, IsReal (a12 i)) (h13 : ∀ i, IsReal (a13 i)) (h14 : ∀ i, IsReal (a14 i)) (h15 : ∀ i, IsReal (a15 i)) (h16 : ∀ i, IsReal (a16 i)) (h17 : ∀ i, IsReal (a17 i)) (h18 : ∀ i, IsReal (a18 i)) (h19 : ∀ i, IsReal (a19 i))

include hin h1 h11 h12 h13 h14 h15 h16 h17 h18 h19 in
theorem msg4_real (i) : IsReal (G_v184 a0 a1 a2 a3 a4 a5 a6 a7 a8 a9 a10 a11 a12 a13 a14 a15 a16 a17 a18 a19 a26 i) := by
  rw [msg4]
  unfold r4_v287
  rw [Cert.RefStage.msg_eq _ plainR_e128]
  exact msgF_real (fun e j => gather_real _ _ _ hin _) (fun e k => h1 _) (fun k j => h11 _) (fun j => h12 _) zero_real _ _

include hin h1 h11 h12 h13 h14 h15 h16 h17 h18 h19 in
theorem agg4_real (i) : IsReal (G_v187 a0 a1 a2 a3 a4 a5 a6 a7 a8 a9 a10 a11 a12 a13 a14 a15 a16 a17 a18 a19 a26 i) := by
  unfold G_v187
  exact scatterAdd_real _ _ _ _ (fun _ => zero_real) (msg4_real a0 a1 a2 a3 a4 a5 a6 a7 a8 a9 a10 a11 a12 a13 a14 a15 a16 a17 a18 a19 a26 hin h1 h11 h12 h13 h14 h15 h16 h17 h18 h19) i

include hin h1 h11 h12 h13 h14 h15 h16 h17 h18 h19 in
theorem h2_4_real (i) : IsReal (G_v191_0 a0 a1 a2 a3 a4 a5 a6 a7 a8 a9 a10 a11 a12 a13 a14 a15 a16 a17 a18 a19 a26 i) := by
  rw [h2_4]
  unfold r4_v303
  rw [Cert.RefStage.mlp_eq _ plainR_n128 _ plainR_n128]
  refine mlpF_real (one_real.add (h19 _)) (fun r l => hin _) (fun r l => ?_) (fun l k => h13 _) (fun k => h14 _) (fun k j => h15 _) (fun j => h16 _) zero_real _ _
  rw [← agg4]
  exact agg4_real a0 a1 a2 a3 a4 a5 a6 a7 a8 a9 a10 a11 a12 a13 a14 a15 a16 a17 a18 a19 a26 hin h1 h11 h12 h13 h14 h15 h16 h17 h18 h19 _

include hin h1 h11 h12 h13 h14 h15 h16 h17 h18 h19 in
theorem var_4 (j : Fin 128) : G_v197 a0 a1 a2 a3 a4 a5 a6 a7 a8 a9 a10 a11 a12 a13 a14 a15 a16 a17 a18 a19 a26 (ix2 (0 : Fin 1) j) = r4_v307 (F := Ideal) a19 (G_v157 a0 a1 a2 a3 a4 a5 a6 a7 a8 a9 a10 a11 a12 a13 a14 a15 a16 a17 a18 a19 a26) (G_v3 a26) (G_v1 a26) a1 a11 a12 a13 a14 a15 a16 (ix1 j) := by
  rw [k_var_4, r_var_4, ← h2_4, n_eq]
  exact varK_eq_varR (fun r j => h2_4_real a0 a1 a2 a3 a4 a5 a6 a7 a8 a9 a10 a11 a12 a13 a14 a15 a16 a17 a18 a19 a26 hin h1 h11 h12 h13 h14 h15 h16 h17 h18 h19 _) 100000 (by norm_num) (by norm_num) j

include hin h1 h11 h12 h13 h14 h15 h16 h17 h18 h19 in
/-- Layer 4's output is the same array on both sides. -/
theorem out_4 : G_v200 a0 a1 a2 a3 a4 a5 a6 a7 a8 a9 a10 a11 a12 a13 a14 a15 a16 a17 a18 a19 a26 = r4_v324 (F := Ideal) a19 (G_v157 a0 a1 a2 a3 a4 a5 a6 a7 a8 a9 a10 a11 a12 a13 a14 a15 a16 a17 a18 a19 a26) (G_v3 a26) (G_v1 a26) a1 a11 a12 a13 a14 a15 a16 a17 a18 := by
  unfold r4_v324 r4_v323
  rw [Cert.RefStage.bn_eq]
  funext i
  obtain ⟨r, j, rfl⟩ : ∃ (r : Fin 100000) (j : Fin 128), i = ix2 r j := ⟨i 0, i 1, eq_ix2 i⟩
  unfold G_v200 Cert.KernelIdeal.Reg14.out6 G_v198 G_v199
  rw [shapeCast_a_1a_apply, shapeCast_a_1a_apply, mean_4, var_4 a0 a1 a2 a3 a4 a5 a6 a7 a8 a9 a10 a11 a12 a13 a14 a15 a16 a17 a18 a19 a26 hin h1 h11 h12 h13 h14 h15 h16 h17 h18 h19, h2_4]
  rfl

include hin h1 h11 h12 h13 h14 h15 h16 h17 h18 h19 in
/-- Layer 4's output has real entries. -/
theorem out_4_real (i) : IsReal (G_v200 a0 a1 a2 a3 a4 a5 a6 a7 a8 a9 a10 a11 a12 a13 a14 a15 a16 a17 a18 a19 a26 i) := by
  obtain ⟨r, j, rfl⟩ : ∃ (r : Fin 100000) (j : Fin 128), i = ix2 r j := ⟨i 0, i 1, eq_ix2 i⟩
  have hh := fun r j => h2_4_real a0 a1 a2 a3 a4 a5 a6 a7 a8 a9 a10 a11 a12 a13 a14 a15 a16 a17 a18 a19 a26 hin h1 h11 h12 h13 h14 h15 h16 h17 h18 h19 (ix2 r j)
  have hm : IsReal (G_v193 a0 a1 a2 a3 a4 a5 a6 a7 a8 a9 a10 a11 a12 a13 a14 a15 a16 a17 a18 a19 a26 (ix2 (0 : Fin 1) j)) := by
    rw [k_mean_4, n_eq]; exact (colSum_real hh j).div_coe (by norm_num)
  obtain ⟨v, hv0, hv⟩ : ∃ v : ℝ, 0 ≤ v ∧ G_v197 a0 a1 a2 a3 a4 a5 a6 a7 a8 a9 a10 a11 a12 a13 a14 a15 a16 a17 a18 a19 a26 (ix2 (0 : Fin 1) j) = (v : EReal) := by
    rw [k_var_4, n_eq, varK_eq_varR hh 100000 (by norm_num) (by norm_num) j]
    exact varR_real_nonneg hh 100000 (by norm_num) j
  obtain ⟨ε, hε, he⟩ := Cert.Consts.eps_pos
  unfold G_v200 Cert.KernelIdeal.Reg14.out6 G_v198 G_v199
  rw [shapeCast_a_1a_apply, shapeCast_a_1a_apply]
  have hr : IsReal (Ideal.rsqrt (G_v197 a0 a1 a2 a3 a4 a5 a6 a7 a8 a9 a10 a11 a12 a13 a14 a15 a16 a17 a18 a19 a26 (ix2 (0 : Fin 1) j) + Ideal.ofBits .f32 0x3727C5AC#32)) := by
    rw [hv, he, ← EReal.coe_add]; exact IsReal.rsqrt_pos (by linarith)
  exact ((((((hh r j).sub hm).mul hr).mul (h17 _)).add (h18 _)).max zero_real).add (hin _)

end Layer4

end Cert.Bridge

end
-- ==== Proof.BridgeAll.lean ====
/-
  The head, and the whole network: the pooled features are the same host operations on both sides; the head agrees entry
  by entry; and, layer after layer, the kernel's result is the reference's function of the arguments when the float
  arguments have real entries.
-/
import proofs.«162690_j78211354460181_1_alg».proof.Proof.KerRead0
import proofs.«162690_j78211354460181_1_alg».proof.Proof.RefRead
import proofs.«162690_j78211354460181_1_alg».proof.Proof.RefStage
import proofs.«162690_j78211354460181_1_alg».proof.Proof.LibSpec
import proofs.«162690_j78211354460181_1_alg».proof.Proof.Consts
import proofs.«162690_j78211354460181_1_alg».proof.Proof.BridgeLib
import proofs.«162690_j78211354460181_1_alg».proof.Proof.Bridge0
import proofs.«162690_j78211354460181_1_alg».proof.Proof.Bridge1
import proofs.«162690_j78211354460181_1_alg».proof.Proof.Bridge2
import proofs.«162690_j78211354460181_1_alg».proof.Proof.Bridge3
import proofs.«162690_j78211354460181_1_alg».proof.Proof.Bridge4

set_option maxRecDepth 16384

noncomputable section

open Idealize.ShloMosaic Idealize.ShloMosaic.ValueIdx
open Cert.LibSpec Cert.LibVariance Cert.LibDot

namespace Cert.Bridge

open Cert.KernelIdeal.KerRead Cert.ReferenceIdeal.RefRead

theorem plainR_h1 : Plain Cert.ReferenceIdeal.dot_S5000x128_S128x128_S5000x128_1_0_0_1_n_n :=
  ⟨rfl, rfl, fun _ _ => rfl, fun j k => DotDims.lhsIdx_val_of_single _ rfl j k, fun j k => DotDims.rhsIdx_val_of_single _ rfl j k, fun _ _ => rfl⟩
theorem plainR_h3 : Plain Cert.ReferenceIdeal.dot_S5000x128_S128x1_S5000x1_1_0_0_1_n_n :=
  ⟨rfl, rfl, fun _ _ => rfl, fun j k => DotDims.lhsIdx_val_of_single _ rfl j k, fun j k => DotDims.rhsIdx_val_of_single _ rfl j k, fun _ _ => rfl⟩

section Whole

variable (a0 : (⟨2, ![100000, 11]⟩ : Shape).Idx → EReal) (a1 : (⟨2, ![600000, 3]⟩ : Shape).Idx → EReal)
  (a2 : (⟨2, ![3, 11]⟩ : Shape).Idx → EReal) (a3 : (⟨1, ![11]⟩ : Shape).Idx → EReal)
  (a4 : (⟨2, ![11, 128]⟩ : Shape).Idx → EReal) (a5 : (⟨1, ![128]⟩ : Shape).Idx → EReal)
  (a6 : (⟨2, ![128, 128]⟩ : Shape).Idx → EReal) (a7 a8 a9 : (⟨1, ![128]⟩ : Shape).Idx → EReal)
  (a10 : (⟨0, ![]⟩ : Shape).Idx → EReal) (a11 : (⟨3, ![4, 3, 128]⟩ : Shape).Idx → EReal) (a12 : (⟨2, ![4, 128]⟩ : Shape).Idx → EReal)
  (a13 : (⟨3, ![4, 128, 128]⟩ : Shape).Idx → EReal) (a14 : (⟨2, ![4, 128]⟩ : Shape).Idx → EReal)
  (a15 : (⟨3, ![4, 128, 128]⟩ : Shape).Idx → EReal) (a16 a17 a18 : (⟨2, ![4, 128]⟩ : Shape).Idx → EReal)
  (a19 : (⟨1, ![4]⟩ : Shape).Idx → EReal) (a20 : (⟨2, ![128, 128]⟩ : Shape).Idx → EReal) (a21 : (⟨1, ![128]⟩ : Shape).Idx → EReal)
  (a22 : (⟨2, ![128, 128]⟩ : Shape).Idx → EReal) (a23 : (⟨1, ![128]⟩ : Shape).Idx → EReal) (a24 : (⟨2, ![128, 1]⟩ : Shape).Idx → EReal)
  (a25 : (⟨1, ![1]⟩ : Shape).Idx → EReal) (a26 : IVec ⟨2, ![2, 600000]⟩ 32) (a27 : IVec ⟨1, ![100000]⟩ 32)

/-- The pooled features: the same host operations on both sides. -/
theorem pool : G_v212 a0 a1 a2 a3 a4 a5 a6 a7 a8 a9 a10 a11 a12 a13 a14 a15 a16 a17 a18 a19 a26 a27 = r5_v336 (F := Ideal) a27 (G_v200 a0 a1 a2 a3 a4 a5 a6 a7 a8 a9 a10 a11 a12 a13 a14 a15 a16 a17 a18 a19 a26) := rfl

/-- The head agrees entry by entry. -/
theorem head : G_v216 a0 a1 a2 a3 a4 a5 a6 a7 a8 a9 a10 a11 a12 a13 a14 a15 a16 a17 a18 a19 a20 a21 a22 a23 a24 a25 a26 a27 = r5_v350 (F := Ideal) a27 (G_v200 a0 a1 a2 a3 a4 a5 a6 a7 a8 a9 a10 a11 a12 a13 a14 a15 a16 a17 a18 a19 a26) a20 a21 a22 a23 a24 a25 := by
  unfold r5_v350
  rw [Cert.RefStage.head_eq _ plainR_h1 _ plainR_h3]
  funext i
  obtain ⟨r, q, rfl⟩ : ∃ (r : Fin 5000) (q : Fin 1), i = ix2 r q := ⟨i 0, i 1, eq_ix2 i⟩
  unfold G_v216 Cert.KernelIdeal.Reg15.out7 Cert.RefStage.headF G_v213 G_v214 G_v215
  simp only [shapeCast_a_1a_apply, pool]

variable (h0 : ∀ i, IsReal (a0 i)) (h1 : ∀ i, IsReal (a1 i)) (h2 : ∀ i, IsReal (a2 i)) (h3 : ∀ i, IsReal (a3 i)) (h4 : ∀ i, IsReal (a4 i)) (h5 : ∀ i, IsReal (a5 i)) (h6 : ∀ i, IsReal (a6 i)) (h7 : ∀ i, IsReal (a7 i)) (h8 : ∀ i, IsReal (a8 i)) (h9 : ∀ i, IsReal (a9 i)) (h10 : ∀ i, IsReal (a10 i)) (h11 : ∀ i, IsReal (a11 i)) (h12 : ∀ i, IsReal (a12 i)) (h13 : ∀ i, IsReal (a13 i)) (h14 : ∀ i, IsReal (a14 i)) (h15 : ∀ i, IsReal (a15 i)) (h16 : ∀ i, IsReal (a16 i)) (h17 : ∀ i, IsReal (a17 i)) (h18 : ∀ i, IsReal (a18 i)) (h19 : ∀ i, IsReal (a19 i)) (h20 : ∀ i, IsReal (a20 i)) (h21 : ∀ i, IsReal (a21 i)) (h22 : ∀ i, IsReal (a22 i)) (h23 : ∀ i, IsReal (a23 i)) (h24 : ∀ i, IsReal (a24 i)) (h25 : ∀ i, IsReal (a25 i))

include h0 h1 h2 h3 h4 h5 h6 h7 h8 h9 h10 h11 h12 h13 h14 h15 h16 h17 h18 h19 h20 h21 h22 h23 h24 h25 in
/-- On arguments with real entries the kernel's result is the reference's function of the arguments. -/
theorem bridge : G_v216 a0 a1 a2 a3 a4 a5 a6 a7 a8 a9 a10 a11 a12 a13 a14 a15 a16 a17 a18 a19 a20 a21 a22 a23 a24 a25 a26 a27 = net (F := Ideal) a0 a1 a2 a3 a4 a5 a6 a7 a8 a9 a10 a11 a12 a13 a14 a15 a16 a17 a18 a19 a20 a21 a22 a23 a24 a25 a26 a27 := by
  have r0 := out_0_real a0 a1 a2 a3 a4 a5 a6 a7 a8 a9 a10 a26 h0 h1 h2 h3 h4 h5 h6 h7 h8 h9 h10
  have e0 := out_0 a0 a1 a2 a3 a4 a5 a6 a7 a8 a9 a10 a26 h0 h1 h2 h3 h4 h5 h6 h7 h10
  have r1 := out_1_real a0 a1 a2 a3 a4 a5 a6 a7 a8 a9 a10 a11 a12 a13 a14 a15 a16 a17 a18 a19 a26 r0 h1 h11 h12 h13 h14 h15 h16 h17 h18 h19
  have e1 := out_1 a0 a1 a2 a3 a4 a5 a6 a7 a8 a9 a10 a11 a12 a13 a14 a15 a16 a17 a18 a19 a26 r0 h1 h11 h12 h13 h14 h15 h16 h17 h18 h19
  have r2 := out_2_real a0 a1 a2 a3 a4 a5 a6 a7 a8 a9 a10 a11 a12 a13 a14 a15 a16 a17 a18 a19 a26 r1 h1 h11 h12 h13 h14 h15 h16 h17 h18 h19
  have e2 := out_2 a0 a1 a2 a3 a4 a5 a6 a7 a8 a9 a10 a11 a12 a13 a14 a15 a16 a17 a18 a19 a26 r1 h1 h11 h12 h13 h14 h15 h16 h17 h18 h19
  have r3 := out_3_real a0 a1 a2 a3 a4 a5 a6 a7 a8 a9 a10 a11 a12 a13 a14 a15 a16 a17 a18 a19 a26 r2 h1 h11 h12 h13 h14 h15 h16 h17 h18 h19
  have e3 := out_3 a0 a1 a2 a3 a4 a5 a6 a7 a8 a9 a10 a11 a12 a13 a14 a15 a16 a17 a18 a19 a26 r2 h1 h11 h12 h13 h14 h15 h16 h17 h18 h19
  have r4 := out_4_real a0 a1 a2 a3 a4 a5 a6 a7 a8 a9 a10 a11 a12 a13 a14 a15 a16 a17 a18 a19 a26 r3 h1 h11 h12 h13 h14 h15 h16 h17 h18 h19
  have e4 := out_4 a0 a1 a2 a3 a4 a5 a6 a7 a8 a9 a10 a11 a12 a13 a14 a15 a16 a17 a18 a19 a26 r3 h1 h11 h12 h13 h14 h15 h16 h17 h18 h19
  rw [head, e4, e3, e2, e1, e0]
  rfl

end Whole

end Cert.Bridge

end
-- ==== Proof.lean ====
/-
  GIN network (five GINE layers, mean pooling, a three-layer head): the Pallas kernels against the jnp reference, at the
  real-number reading of both.

  Every stage is computed the same way on both sides — the gathered node rows, the edge message
  max (x_j + edge_attr · e_w + e_b) 0, the scatter-add of the messages, the two-layer MLP, the column sums, the
  normalisation, the pooling and the head — except the variance of a layer's MLP output h2 over the N = 100000 nodes:
  the kernels form  Σ h2² / N − (Σ h2 / N)²,  the reference  Σ (h2 − Σ h2 / N)² / N.  These agree for real numbers
  (Proof/LibVariance.lean), and not when an entry is infinite; so the proof carries "every entry is a real number" from
  the arguments (the precondition, Proof/PreReal.lean) through every layer (Proof/Bridge0.lean … Bridge4.lean).

  The kernel program's result is read off its run region by region (Proof/Reg0.lean … Reg15.lean: what each region
  writes as a function of the arrays it finds; Proof/KerRun.lean, Proof/KerRead*.lean: the run and the fold of the
  boundaries); the reference's off its straight line of host operations (Proof/RefRun.lean, Proof/RefRead.lean);
  Proof/BridgeAll.lean equates the two functions of the arguments.
-/
import proofs.«162690_j78211354460181_1_alg».proof.Defs
import proofs.«162690_j78211354460181_1_alg».proof.Proof.Gen.Kernel.Frame
import proofs.«162690_j78211354460181_1_alg».proof.Proof.Gen.KernelIdeal.Frame
import proofs.«162690_j78211354460181_1_alg».proof.Proof.KerRun
import proofs.«162690_j78211354460181_1_alg».proof.Proof.KerRead10
import proofs.«162690_j78211354460181_1_alg».proof.Proof.RefRun
import proofs.«162690_j78211354460181_1_alg».proof.Proof.RefRead
import proofs.«162690_j78211354460181_1_alg».proof.Proof.RefKept
import proofs.«162690_j78211354460181_1_alg».proof.Proof.PreReal
import proofs.«162690_j78211354460181_1_alg».proof.Proof.BridgeAll

set_option maxRecDepth 16384

noncomputable section

open Idealize.ShloMosaic Idealize.ShloMosaic.TcCoe Idealize.SL.Sem Idealize.ShloMosaic.StableHlo

namespace Cert.Proof

/-- The bit-exact kernel program runs, faults nowhere, and leaves its arguments as launched. -/
theorem frame_kernel : Cert.frame_Kernel := fun m ρ _ => Cert.Kernel.Gen.frame m ρ

/-- So does the idealised kernel program. -/
theorem frame_kernelIdeal : Cert.frame_KernelIdeal := fun m ρ _ => Cert.KernelIdeal.Gen.frame m ρ

/-- The ledger of idealisations is empty: the two kernel programs differ in the float instance only. -/
theorem preserves : Cert.preserves_Kernel_KernelIdeal := trivial

set_option maxHeartbeats 4000000 in
/-- On finite inputs the idealised kernel program and the reference end with the same result. -/
theorem algebraic : Cert.algebraic_KernelIdeal_ReferenceIdeal := by
  intro m g m' g' hpre hag
  refine ⟨fun c => Cert.KernelIdeal.KerRead.G_v216 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)), ?_, ?_⟩
  · refine (θ_run _ _ _).mono (fun r h c => ?_) (Cert.KernelIdeal.KerRun.run_named (F := Ideal) m g)
    exact ⟨(h c).1.trans (Cert.KernelIdeal.KerRead.T_v216 m g c), (h c).2⟩
  · refine (θ_run _ _ _).mono (fun r h c => ?_) (Cert.ReferenceIdeal.RefRun.run_all (F := Ideal) m' g')
    obtain ⟨g0, g1, g2, g3, g4, g5, g6, g7, g8, g9, g10, g11, g12, g13, g14, g15, g16, g17, g18, g19, g20, g21, g22, g23, g24, g25, g26, g27⟩ := hag c
    obtain ⟨f0, f1, f2, f3, f4, f5, f6, f7, f8, f9, f10, f11, f12, f13, f14, f15, f16, f17, f18, f19, f20, f21, f22, f23, f24, f25⟩ := Cert.PreReal.args_real _ _ _ _ _ _ _ _ _ _ _ _ _ _ _ _ _ _ _ _ _ _ _ _ _ _ _ _ (hpre c)
    refine ⟨(h c Cert.ReferenceIdeal.main_v350).trans ?_, (h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _),
      (h c Cert.ReferenceIdeal.main_arg11).trans (Cert.ReferenceIdeal.RefRun.kept_arg11 _),
      (h c Cert.ReferenceIdeal.main_arg12).trans (Cert.ReferenceIdeal.RefRun.kept_arg12 _),
      (h c Cert.ReferenceIdeal.main_arg13).trans (Cert.ReferenceIdeal.RefRun.kept_arg13 _),
      (h c Cert.ReferenceIdeal.main_arg14).trans (Cert.ReferenceIdeal.RefRun.kept_arg14 _),
      (h c Cert.ReferenceIdeal.main_arg15).trans (Cert.ReferenceIdeal.RefRun.kept_arg15 _),
      (h c Cert.ReferenceIdeal.main_arg16).trans (Cert.ReferenceIdeal.RefRun.kept_arg16 _),
      (h c Cert.ReferenceIdeal.main_arg17).trans (Cert.ReferenceIdeal.RefRun.kept_arg17 _),
      (h c Cert.ReferenceIdeal.main_arg18).trans (Cert.ReferenceIdeal.RefRun.kept_arg18 _),
      (h c Cert.ReferenceIdeal.main_arg19).trans (Cert.ReferenceIdeal.RefRun.kept_arg19 _),
      (h c Cert.ReferenceIdeal.main_arg20).trans (Cert.ReferenceIdeal.RefRun.kept_arg20 _),
      (h c Cert.ReferenceIdeal.main_arg21).trans (Cert.ReferenceIdeal.RefRun.kept_arg21 _),
      (h c Cert.ReferenceIdeal.main_arg22).trans (Cert.ReferenceIdeal.RefRun.kept_arg22 _),
      (h c Cert.ReferenceIdeal.main_arg23).trans (Cert.ReferenceIdeal.RefRun.kept_arg23 _),
      (h c Cert.ReferenceIdeal.main_arg24).trans (Cert.ReferenceIdeal.RefRun.kept_arg24 _),
      (h c Cert.ReferenceIdeal.main_arg25).trans (Cert.ReferenceIdeal.RefRun.kept_arg25 _),
      (h c Cert.ReferenceIdeal.main_arg26).trans (Cert.ReferenceIdeal.RefRun.kept_arg26 _),
      (h c Cert.ReferenceIdeal.main_arg27).trans (Cert.ReferenceIdeal.RefRun.kept_arg27 _)⟩
    rw [Cert.ReferenceIdeal.RefRead.ops_eq, Cert.ReferenceIdeal.RefRead.net_read]
    rw [show launchContents m' c (Proc.devRef .tc Cert.ReferenceIdeal.main_arg0) = _ from g0,
      show launchContents m' c (Proc.devRef .tc Cert.ReferenceIdeal.main_arg1) = _ from g1,
      show launchContents m' c (Proc.devRef .tc Cert.ReferenceIdeal.main_arg2) = _ from g2,
      show launchContents m' c (Proc.devRef .tc Cert.ReferenceIdeal.main_arg3) = _ from g3,
      show launchContents m' c (Proc.devRef .tc Cert.ReferenceIdeal.main_arg4) = _ from g4,
      show launchContents m' c (Proc.devRef .tc Cert.ReferenceIdeal.main_arg5) = _ from g5,
      show launchContents m' c (Proc.devRef .tc Cert.ReferenceIdeal.main_arg6) = _ from g6,
      show launchContents m' c (Proc.devRef .tc Cert.ReferenceIdeal.main_arg7) = _ from g7,
      show launchContents m' c (Proc.devRef .tc Cert.ReferenceIdeal.main_arg8) = _ from g8,
      show launchContents m' c (Proc.devRef .tc Cert.ReferenceIdeal.main_arg9) = _ from g9,
      show launchContents m' c (Proc.devRef .tc Cert.ReferenceIdeal.main_arg10) = _ from g10,
      show launchContents m' c (Proc.devRef .tc Cert.ReferenceIdeal.main_arg11) = _ from g11,
      show launchContents m' c (Proc.devRef .tc Cert.ReferenceIdeal.main_arg12) = _ from g12,
      show launchContents m' c (Proc.devRef .tc Cert.ReferenceIdeal.main_arg13) = _ from g13,
      show launchContents m' c (Proc.devRef .tc Cert.ReferenceIdeal.main_arg14) = _ from g14,
      show launchContents m' c (Proc.devRef .tc Cert.ReferenceIdeal.main_arg15) = _ from g15,
      show launchContents m' c (Proc.devRef .tc Cert.ReferenceIdeal.main_arg16) = _ from g16,
      show launchContents m' c (Proc.devRef .tc Cert.ReferenceIdeal.main_arg17) = _ from g17,
      show launchContents m' c (Proc.devRef .tc Cert.ReferenceIdeal.main_arg18) = _ from g18,
      show launchContents m' c (Proc.devRef .tc Cert.ReferenceIdeal.main_arg19) = _ from g19,
      show launchContents m' c (Proc.devRef .tc Cert.ReferenceIdeal.main_arg20) = _ from g20,
      show launchContents m' c (Proc.devRef .tc Cert.ReferenceIdeal.main_arg21) = _ from g21,
      show launchContents m' c (Proc.devRef .tc Cert.ReferenceIdeal.main_arg22) = _ from g22,
      show launchContents m' c (Proc.devRef .tc Cert.ReferenceIdeal.main_arg23) = _ from g23,
      show launchContents m' c (Proc.devRef .tc Cert.ReferenceIdeal.main_arg24) = _ from g24,
      show launchContents m' c (Proc.devRef .tc Cert.ReferenceIdeal.main_arg25) = _ from g25,
      show launchContents m' c (Proc.devRef .tc Cert.ReferenceIdeal.main_arg26) = _ from g26,
      show launchContents m' c (Proc.devRef .tc Cert.ReferenceIdeal.main_arg27) = _ from g27]
    exact (Cert.Bridge.bridge _ _ _ _ _ _ _ _ _ _ _ _ _ _ _ _ _ _ _ _ _ _ _ _ _ _ _ _ f0 f1 f2 f3 f4 f5 f6 f7 f8 f9 f10 f11 f12 f13 f14 f15 f16 f17 f18 f19 f20 f21 f22 f23 f24 f25).symm

/-- The claim: the four programs' side conditions, the three runs, the empty ledger, and the agreement of the results. -/
theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.RefRun.frame, preserves, algebraic⟩

end Cert.Proof

end
